-- ==== Defs.lean ====
def Pre_Kernel [hPre_input_domain : Cert.Pre_input_domain.Facts] (m : (ℓ : Loc Cert.Kernel.nD Cert.Kernel.τ Cert.Kernel.sig) → Buf (Elt Bits) ℓ) : Prop :=
  ∀ c : Dev Cert.Kernel.nD,
    (Cert.Pre_input_domain.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9))) = (fun _ => 1#1)

def Pre_KernelIdeal [hPre_input_domain : Cert.Pre_input_domain.Facts] (m : (ℓ : Loc Cert.KernelIdeal.nD Cert.KernelIdeal.τ Cert.KernelIdeal.sig) → Buf (Elt Ideal) ℓ) : Prop :=
  ∀ c : Dev Cert.KernelIdeal.nD,
    (Cert.Pre_input_domain.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))) = (fun _ => 1#1)

def Pre_ReferenceIdeal [hPre_input_domain : Cert.Pre_input_domain.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_input_domain.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))) = (fun _ => 1#1)

def frame_Kernel [hKernel : Cert.Kernel.Facts] [hPre_input_domain : Cert.Pre_input_domain.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9))

def frame_KernelIdeal [hKernelIdeal : Cert.KernelIdeal.Facts] [hPre_input_domain : Cert.Pre_input_domain.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))

def frame_ReferenceIdeal [hReferenceIdeal : Cert.ReferenceIdeal.Facts] [hPre_input_domain : Cert.Pre_input_domain.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))

def preserves_Kernel_KernelIdeal : Prop :=
  True

def algebraic_KernelIdeal_ReferenceIdeal [hKernelIdeal : Cert.KernelIdeal.Facts] [hReferenceIdeal : Cert.ReferenceIdeal.Facts] [hPre_input_domain : Cert.Pre_input_domain.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)) →
    ∃ (v0 : (c : Dev Cert.KernelIdeal.nD) → Buf (Elt Ideal) ((c.tc : Thread Cert.KernelIdeal.nD Cert.KernelIdeal.τ).loc Cert.KernelIdeal.main_v22)) (v1 : (c : Dev Cert.KernelIdeal.nD) → Buf (Elt Ideal) ((c.tc : Thread Cert.KernelIdeal.nD Cert.KernelIdeal.τ).loc Cert.KernelIdeal.main_v21)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v22) = v0 c
          ∧ r.2.mem ((c.tc : Thread Cert.KernelIdeal.nD Cert.KernelIdeal.τ).loc Cert.KernelIdeal.main_v21) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v27) = v0 c
          ∧ r.2.mem ((c.tc : Thread Cert.ReferenceIdeal.nD Cert.ReferenceIdeal.τ).loc Cert.ReferenceIdeal.main_v20) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9))

def Claim : Prop :=
  ∃ (hKernel : Cert.Kernel.Facts) (hKernelIdeal : Cert.KernelIdeal.Facts) (hReferenceIdeal : Cert.ReferenceIdeal.Facts) (hPre_input_domain : Cert.Pre_input_domain.Facts),
    frame_Kernel (hKernel := hKernel) (hPre_input_domain := hPre_input_domain)
    ∧ frame_KernelIdeal (hKernelIdeal := hKernelIdeal) (hPre_input_domain := hPre_input_domain)
    ∧ frame_ReferenceIdeal (hReferenceIdeal := hReferenceIdeal) (hPre_input_domain := hPre_input_domain)
    ∧ preserves_Kernel_KernelIdeal
    ∧ algebraic_KernelIdeal_ReferenceIdeal (hKernelIdeal := hKernelIdeal) (hReferenceIdeal := hReferenceIdeal) (hPre_input_domain := hPre_input_domain)
-- ==== Pre_input_domain.lean ====
abbrev S640000x2 : Shape := ⟨2, ![640000, 2]⟩
abbrev S10000x10000 : Shape := ⟨2, ![10000, 10000]⟩
abbrev S10000x768 : Shape := ⟨2, ![10000, 768]⟩
abbrev S640000 : Shape := ⟨1, ![640000]⟩
abbrev S768x64 : Shape := ⟨2, ![768, 64]⟩
abbrev S64 : Shape := ⟨1, ![64]⟩
abbrev S64x64 : Shape := ⟨2, ![64, 64]⟩
abbrev S128x2 : Shape := ⟨2, ![128, 2]⟩
abbrev S2 : Shape := ⟨1, ![2]⟩
abbrev S_ : Shape := ⟨0, ![]⟩

class Facts : Prop where
  bcast_S_S10000x768 : S_.BroadcastsInDim S10000x768 (![] : Fin 0 → Fin S10000x768.rank)
  reducesTo_S10000x768_S_d0_1 : S10000x768.ReducesTo [0, 1] S_
  h_S_ : 0 < S_.numel
  bcast_S_S768x64 : S_.BroadcastsInDim S768x64 (![] : Fin 0 → Fin S768x64.rank)
  reducesTo_S768x64_S_d0_1 : S768x64.ReducesTo [0, 1] S_
  bcast_S_S64 : S_.BroadcastsInDim S64 (![] : Fin 0 → Fin S64.rank)
  reducesTo_S64_S_d0 : S64.ReducesTo [0] S_
  bcast_S_S64x64 : S_.BroadcastsInDim S64x64 (![] : Fin 0 → Fin S64x64.rank)
  reducesTo_S64x64_S_d0_1 : S64x64.ReducesTo [0, 1] S_
  bcast_S_S128x2 : S_.BroadcastsInDim S128x2 (![] : Fin 0 → Fin S128x2.rank)
  reducesTo_S128x2_S_d0_1 : S128x2.ReducesTo [0, 1] S_
  bcast_S_S2 : S_.BroadcastsInDim S2 (![] : Fin 0 → Fin S2.rank)
  reducesTo_S2_S_d0 : S2.ReducesTo [0] S_
  bcast_S_S640000x2 : S_.BroadcastsInDim S640000x2 (![] : Fin 0 → Fin S640000x2.rank)
  reducesTo_S640000x2_S_d0_1 : S640000x2.ReducesTo [0, 1] S_
  bcast_S_S640000 : S_.BroadcastsInDim S640000 (![] : Fin 0 → Fin S640000.rank)
  reducesTo_S640000_S_d0 : S640000.ReducesTo [0] S_

variable [Facts]

def fn_part2 {F : FTy → Type} [FloatOps F] (main_arg0 : IVec S640000x2 32) (main_arg3 : IVec S640000 32) (main_v33 : IVec S_ 1) : IVec S_ 1 :=
  let main_c_12 : IVec S_ 32 := constantI S_ 32 0#32
  let main_v34 : IVec S640000x2 32 := broadcastInDim S640000x2 ![] bcast_S_S640000x2 main_c_12
  let main_v35 : IVec S640000x2 1 := cmpi .sge main_arg0 main_v34
  let main_c_13 : IVec S_ 32 := constantI S_ 32 9999#32
  let main_v36 : IVec S640000x2 32 := broadcastInDim S640000x2 ![] bcast_S_S640000x2 main_c_13
  let main_v37 : IVec S640000x2 1 := cmpi .sle main_arg0 main_v36
  let main_v38 : IVec S640000x2 1 := andi main_v35 main_v37
  let main_c_14 : IVec S_ 1 := constantI S_ 1 1#1
  let main_v39 : IVec S_ 1 := (fun x v => Host.reduce IntOp.andi x v reducesTo_S640000x2_S_d0_1 h_S_) main_v38 main_c_14
  let main_v40 : IVec S_ 1 := andi main_v33 main_v39
  let main_c_15 : IVec S_ 32 := constantI S_ 32 0#32
  let main_v41 : IVec S640000 32 := broadcastInDim S640000 ![] bcast_S_S640000 main_c_15
  let main_v42 : IVec S640000 1 := cmpi .sge main_arg3 main_v41
  let main_c_16 : IVec S_ 32 := constantI S_ 32 1#32
  let main_v43 : IVec S640000 32 := broadcastInDim S640000 ![] bcast_S_S640000 main_c_16
  let main_v44 : IVec S640000 1 := cmpi .sle main_arg3 main_v43
  let main_v45 : IVec S640000 1 := andi main_v42 main_v44
  let main_c_17 : IVec S_ 1 := constantI S_ 1 1#1
  let main_v46 : IVec S_ 1 := (fun x v => Host.reduce IntOp.andi x v reducesTo_S640000_S_d0 h_S_) main_v45 main_c_17
  let main_v47 : IVec S_ 1 := andi main_v40 main_v46
  main_v47

def fn_part1 {F : FTy → Type} [FloatOps F] (main_arg0 : IVec S640000x2 32) (main_arg3 : IVec S640000 32) (main_arg7 : FVec F S64 .f32) (main_arg8 : FVec F S128x2 .f32) (main_arg9 : FVec F S2 .f32) (main_v13 : IVec S_ 1) (main_v16 : IVec S64x64 1) : IVec S_ 1 :=
  let main_c_5 : IVec S_ 1 := constantI S_ 1 1#1
  let main_v17 : IVec S_ 1 := (fun x v => Host.reduce IntOp.andi x v reducesTo_S64x64_S_d0_1 h_S_) main_v16 main_c_5
  let main_v18 : IVec S_ 1 := andi main_v13 main_v17
  let main_v19 : FVec F S64 .f32 := Host.absf main_arg7
  let main_cst_6 : FVec F S_ .f32 := constant S_ .f32 0x7F800000#32
  let main_v20 : FVec F S64 .f32 := broadcastInDim S64 ![] bcast_S_S64 main_cst_6
  let main_v21 : IVec S64 1 := cmpf .olt main_v19 main_v20
  let main_c_7 : IVec S_ 1 := constantI S_ 1 1#1
  let main_v22 : IVec S_ 1 := (fun x v => Host.reduce IntOp.andi x v reducesTo_S64_S_d0 h_S_) main_v21 main_c_7
  let main_v23 : IVec S_ 1 := andi main_v18 main_v22
  let main_v24 : FVec F S128x2 .f32 := Host.absf main_arg8
  let main_cst_8 : FVec F S_ .f32 := constant S_ .f32 0x7F800000#32
  let main_v25 : FVec F S128x2 .f32 := broadcastInDim S128x2 ![] bcast_S_S128x2 main_cst_8
  let main_v26 : IVec S128x2 1 := cmpf .olt main_v24 main_v25
  let main_c_9 : IVec S_ 1 := constantI S_ 1 1#1
  let main_v27 : IVec S_ 1 := (fun x v => Host.reduce IntOp.andi x v reducesTo_S128x2_S_d0_1 h_S_) main_v26 main_c_9
  let main_v28 : IVec S_ 1 := andi main_v23 main_v27
  let main_v29 : FVec F S2 .f32 := Host.absf main_arg9
  let main_cst_10 : FVec F S_ .f32 := constant S_ .f32 0x7F800000#32
  let main_v30 : FVec F S2 .f32 := broadcastInDim S2 ![] bcast_S_S2 main_cst_10
  let main_v31 : IVec S2 1 := cmpf .olt main_v29 main_v30
  let main_c_11 : IVec S_ 1 := constantI S_ 1 1#1
  let main_v32 : IVec S_ 1 := (fun x v => Host.reduce IntOp.andi x v reducesTo_S2_S_d0 h_S_) main_v31 main_c_11
  let main_v33 : IVec S_ 1 := andi main_v28 main_v32
  fn_part2 (F := F) main_arg0 main_arg3 main_v33

def fn {F : FTy → Type} [FloatOps F] (main_arg0 : IVec S640000x2 32) (main_arg1 : IVec S10000x10000 1) (main_arg2 : FVec F S10000x768 .f32) (main_arg3 : IVec S640000 32) (main_arg4 : FVec F S768x64 .f32) (main_arg5 : FVec F S64 .f32) (main_arg6 : FVec F S64x64 .f32) (main_arg7 : FVec F S64 .f32) (main_arg8 : FVec F S128x2 .f32) (main_arg9 : FVec F S2 .f32) : IVec S_ 1 :=
  let main_v0 : FVec F S10000x768 .f32 := Host.absf main_arg2
  let main_cst : FVec F S_ .f32 := constant S_ .f32 0x7F800000#32
  let main_v1 : FVec F S10000x768 .f32 := broadcastInDim S10000x768 ![] bcast_S_S10000x768 main_cst
  let main_v2 : IVec S10000x768 1 := cmpf .olt main_v0 main_v1
  let main_c : IVec S_ 1 := constantI S_ 1 1#1
  let main_v3 : IVec S_ 1 := (fun x v => Host.reduce IntOp.andi x v reducesTo_S10000x768_S_d0_1 h_S_) main_v2 main_c
  let main_v4 : FVec F S768x64 .f32 := Host.absf main_arg4
  let main_cst_0 : FVec F S_ .f32 := constant S_ .f32 0x7F800000#32
  let main_v5 : FVec F S768x64 .f32 := broadcastInDim S768x64 ![] bcast_S_S768x64 main_cst_0
  let main_v6 : IVec S768x64 1 := cmpf .olt main_v4 main_v5
  let main_c_1 : IVec S_ 1 := constantI S_ 1 1#1
  let main_v7 : IVec S_ 1 := (fun x v => Host.reduce IntOp.andi x v reducesTo_S768x64_S_d0_1 h_S_) main_v6 main_c_1
  let main_v8 : IVec S_ 1 := andi main_v3 main_v7
  let main_v9 : FVec F S64 .f32 := Host.absf main_arg5
  let main_cst_2 : FVec F S_ .f32 := constant S_ .f32 0x7F800000#32
  let main_v10 : FVec F S64 .f32 := broadcastInDim S64 ![] bcast_S_S64 main_cst_2
  let main_v11 : IVec S64 1 := cmpf .olt main_v9 main_v10
  let main_c_3 : IVec S_ 1 := constantI S_ 1 1#1
  let main_v12 : IVec S_ 1 := (fun x v => Host.reduce IntOp.andi x v reducesTo_S64_S_d0 h_S_) main_v11 main_c_3
  let main_v13 : IVec S_ 1 := andi main_v8 main_v12
  let main_v14 : FVec F S64x64 .f32 := Host.absf main_arg6
  let main_cst_4 : FVec F S_ .f32 := constant S_ .f32 0x7F800000#32
  let main_v15 : FVec F S64x64 .f32 := broadcastInDim S64x64 ![] bcast_S_S64x64 main_cst_4
  let main_v16 : IVec S64x64 1 := cmpf .olt main_v14 main_v15
  fn_part1 (F := F) main_arg0 main_arg3 main_arg7 main_arg8 main_arg9 main_v13 main_v16
-- ==== Kernel.lean ====
abbrev S640000x2 : Shape := ⟨2, ![640000, 2]⟩
abbrev S10000x10000 : Shape := ⟨2, ![10000, 10000]⟩
abbrev S10000x768 : Shape := ⟨2, ![10000, 768]⟩
abbrev S640000 : Shape := ⟨1, ![640000]⟩
abbrev S768x64 : Shape := ⟨2, ![768, 64]⟩
abbrev S64 : Shape := ⟨1, ![64]⟩
abbrev S64x64 : Shape := ⟨2, ![64, 64]⟩
abbrev S128x2 : Shape := ⟨2, ![128, 2]⟩
abbrev S2 : Shape := ⟨1, ![2]⟩
abbrev S64x2 : Shape := ⟨2, ![64, 2]⟩
abbrev S64x4 : Shape := ⟨2, ![64, 4]⟩
abbrev S_ : Shape := ⟨0, ![]⟩
abbrev S4 : Shape := ⟨1, ![4]⟩
abbrev S1x4 : Shape := ⟨2, ![1, 4]⟩
abbrev S1x64 : Shape := ⟨2, ![1, 64]⟩
abbrev S10000x4 : Shape := ⟨2, ![10000, 4]⟩
abbrev S1000x768 : Shape := ⟨2, ![1000, 768]⟩
abbrev S1000x4 : Shape := ⟨2, ![1000, 4]⟩
abbrev S1000x64 : Shape := ⟨2, ![1000, 64]⟩
abbrev S40000 : Shape := ⟨1, ![40000]⟩
abbrev S640000x1 : Shape := ⟨2, ![640000, 1]⟩
abbrev S4000 : Shape := ⟨1, ![4000]⟩
abbrev S16 : Shape := ⟨1, ![16]⟩
abbrev S5000x128 : Shape := ⟨2, ![5000, 128]⟩
abbrev S1x1 : Shape := ⟨2, ![1, 1]⟩
abbrev S1000x128 : Shape := ⟨2, ![1000, 128]⟩
abbrev S1 : Shape := ⟨1, ![1]⟩
abbrev S1x1000x128 : Shape := ⟨3, ![1, 1000, 128]⟩
abbrev S1x1x1 : Shape := ⟨3, ![1, 1, 1]⟩

abbrev nBuf : Table → Nat
  | .hbm => 35
  | .local .tc .vmem => 17
  | .local .tc .smem => 1
  | .local .scVector .vmem => 5
  | _ => 0

abbrev bufTy : (tb : Table) → Fin (nBuf tb) → BufTy
  | .hbm, ⟨0, _⟩ => ⟨S640000x2, .i32⟩
  | .hbm, ⟨1, _⟩ => ⟨S10000x10000, .i1⟩
  | .hbm, ⟨2, _⟩ => ⟨S10000x768, .f32⟩
  | .hbm, ⟨3, _⟩ => ⟨S640000, .i32⟩
  | .hbm, ⟨4, _⟩ => ⟨S768x64, .f32⟩
  | .hbm, ⟨5, _⟩ => ⟨S64, .f32⟩
  | .hbm, ⟨6, _⟩ => ⟨S64x64, .f32⟩
  | .hbm, ⟨7, _⟩ => ⟨S64, .f32⟩
  | .hbm, ⟨8, _⟩ => ⟨S128x2, .f32⟩
  | .hbm, ⟨9, _⟩ => ⟨S2, .f32⟩
  | .hbm, ⟨10, _⟩ => ⟨S64x2, .f32⟩
  | .hbm, ⟨11, _⟩ => ⟨S64x2, .f32⟩
  | .hbm, ⟨12, _⟩ => ⟨S64x4, .f32⟩
  | .hbm, ⟨13, _⟩ => ⟨S_, .f32⟩
  | .hbm, ⟨14, _⟩ => ⟨S2, .f32⟩
  | .hbm, ⟨15, _⟩ => ⟨S4, .f32⟩
  | .hbm, ⟨16, _⟩ => ⟨S1x4, .f32⟩
  | .hbm, ⟨17, _⟩ => ⟨S1x64, .f32⟩
  | .hbm, ⟨18, _⟩ => ⟨S1x64, .f32⟩
  | .hbm, ⟨19, _⟩ => ⟨S10000x4, .f32⟩
  | .hbm, ⟨20, _⟩ => ⟨S40000, .f32⟩
  | .hbm, ⟨21, _⟩ => ⟨S640000x1, .i32⟩
  | .hbm, ⟨22, _⟩ => ⟨S640000, .i32⟩
  | .hbm, ⟨23, _⟩ => ⟨S640000x1, .i32⟩
  | .hbm, ⟨24, _⟩ => ⟨S640000, .i32⟩
  | .hbm, ⟨25, _⟩ => ⟨S640000, .f32⟩
  | .hbm, ⟨26, _⟩ => ⟨S640000, .f32⟩
  | .hbm, ⟨27, _⟩ => ⟨S5000x128, .f32⟩
  | .hbm, ⟨28, _⟩ => ⟨S5000x128, .f32⟩
  | .hbm, ⟨29, _⟩ => ⟨S5000x128, .i32⟩
  | .hbm, ⟨30, _⟩ => ⟨S1x1, .f32⟩
  | .hbm, ⟨31, _⟩ => ⟨S640000x1, .f32⟩
  | .hbm, ⟨32, _⟩ => ⟨S640000x1, .f32⟩
  | .hbm, ⟨33, _⟩ => ⟨S640000x2, .f32⟩
  | .hbm, ⟨34, _⟩ => ⟨S_, .f32⟩
  | .local .tc .vmem, ⟨0, _⟩ => ⟨S1000x768, .f32⟩
  | .local .tc .vmem, ⟨1, _⟩ => ⟨S1000x768, .f32⟩
  | .local .tc .vmem, ⟨2, _⟩ => ⟨S768x64, .f32⟩
  | .local .tc .vmem, ⟨3, _⟩ => ⟨S1x64, .f32⟩
  | .local .tc .vmem, ⟨4, _⟩ => ⟨S64x64, .f32⟩
  | .local .tc .vmem, ⟨5, _⟩ => ⟨S1x64, .f32⟩
  | .local .tc .vmem, ⟨6, _⟩ => ⟨S64x4, .f32⟩
  | .local .tc .vmem, ⟨7, _⟩ => ⟨S1x4, .f32⟩
  | .local .tc .vmem, ⟨8, _⟩ => ⟨S1000x4, .f32⟩
  | .local .tc .vmem, ⟨9, _⟩ => ⟨S1000x4, .f32⟩
  | .local .tc .vmem, ⟨10, _⟩ => ⟨S1000x128, .f32⟩
  | .local .tc .vmem, ⟨11, _⟩ => ⟨S1000x128, .f32⟩
  | .local .tc .vmem, ⟨12, _⟩ => ⟨S1000x128, .f32⟩
  | .local .tc .vmem, ⟨13, _⟩ => ⟨S1000x128, .f32⟩
  | .local .tc .vmem, ⟨14, _⟩ => ⟨S1000x128, .i32⟩
  | .local .tc .vmem, ⟨15, _⟩ => ⟨S1000x128, .i32⟩
  | .local .tc .vmem, ⟨16, _⟩ => ⟨S1x1, .f32⟩
  | .local .tc .smem, ⟨0, _⟩ => ⟨S1, .f32⟩
  | .local .scVector .vmem, ⟨0, _⟩ => ⟨S40000, .f32⟩
  | .local .scVector .vmem, ⟨1, _⟩ => ⟨S4000, .i32⟩
  | .local .scVector .vmem, ⟨2, _⟩ => ⟨S4000, .i32⟩
  | .local .scVector .vmem, ⟨3, _⟩ => ⟨S4000, .f32⟩
  | .local .scVector .vmem, ⟨4, _⟩ => ⟨S4000, .f32⟩
  | _, _ => ⟨S640000x2, .i32⟩

abbrev bufScoped : (cs : CoreSpace) → Fin (nBuf (.local .tc cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .smem, ⟨0, _⟩ => true
  | _, _ => false

abbrev semScoped : Fin 4 → Bool
  | ⟨0, _⟩ => false
  | ⟨1, _⟩ => false
  | ⟨2, _⟩ => false
  | ⟨3, _⟩ => false
  | _ => false

abbrev dmaSemScoped : Fin 38 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => false
  | ⟨11, _⟩ => false
  | ⟨12, _⟩ => false
  | ⟨13, _⟩ => false
  | ⟨14, _⟩ => false
  | ⟨15, _⟩ => false
  | ⟨16, _⟩ => false
  | ⟨17, _⟩ => false
  | ⟨18, _⟩ => false
  | ⟨19, _⟩ => false
  | ⟨20, _⟩ => false
  | ⟨21, _⟩ => false
  | ⟨22, _⟩ => false
  | ⟨23, _⟩ => false
  | ⟨24, _⟩ => false
  | ⟨25, _⟩ => false
  | ⟨26, _⟩ => false
  | ⟨27, _⟩ => false
  | ⟨28, _⟩ => false
  | ⟨29, _⟩ => false
  | ⟨30, _⟩ => false
  | ⟨31, _⟩ => true
  | ⟨32, _⟩ => true
  | ⟨33, _⟩ => true
  | ⟨34, _⟩ => true
  | ⟨35, _⟩ => true
  | ⟨36, _⟩ => true
  | ⟨37, _⟩ => true
  | _ => false

abbrev sig : RefSig :=
  ofTables nBuf rfl bufTy 4 38 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_cst : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14_0 : Ref sig .tc := ⟨.hbm, 25, rfl⟩
abbrev main_v14_1 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v9_scv : Ref sig .scVector := ⟨.hbm, 20, rfl⟩
abbrev main_v11_scv : Ref sig .scVector := ⟨.hbm, 22, rfl⟩
abbrev main_v13_scv : Ref sig .scVector := ⟨.hbm, 24, rfl⟩
abbrev main_v14_0_scv : Ref sig .scVector := ⟨.hbm, 25, rfl⟩
abbrev main_v14_1_scv : Ref sig .scVector := ⟨.hbm, 26, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg7_1 : Ref sig .tc := ⟨.vmem, 9, rfl⟩
abbrev cc2_stg0_0 : Ref sig .tc := ⟨.vmem, 10, rfl⟩
abbrev cc2_stg0_1 : Ref sig .tc := ⟨.vmem, 11, rfl⟩
abbrev cc2_stg1_0 : Ref sig .tc := ⟨.vmem, 12, rfl⟩
abbrev cc2_stg1_1 : Ref sig .tc := ⟨.vmem, 13, rfl⟩
abbrev cc2_stg2_0 : Ref sig .tc := ⟨.vmem, 14, rfl⟩
abbrev cc2_stg2_1 : Ref sig .tc := ⟨.vmem, 15, rfl⟩
abbrev cc2_stg3_0 : Ref sig .tc := ⟨.vmem, 16, rfl⟩
abbrev cc2_scratch0 : Ref sig .tc := ⟨.smem, 0, rfl⟩
abbrev cc1_scratch0 : Ref sig .scVector := ⟨.vmem, 0, rfl⟩
abbrev cc1_scratch1 : Ref sig .scVector := ⟨.vmem, 1, rfl⟩
abbrev cc1_scratch2 : Ref sig .scVector := ⟨.vmem, 2, rfl⟩
abbrev cc1_scratch3 : Ref sig .scVector := ⟨.vmem, 3, rfl⟩
abbrev cc1_scratch4 : Ref sig .scVector := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem7_1 : DmaSem sig := 9
abbrev cc2_sem0_0 : DmaSem sig := 31
abbrev cc2_sem0_1 : DmaSem sig := 32
abbrev cc2_sem1_0 : DmaSem sig := 33
abbrev cc2_sem1_1 : DmaSem sig := 34
abbrev cc2_sem2_0 : DmaSem sig := 35
abbrev cc2_sem2_1 : DmaSem sig := 36
abbrev cc2_sem3_0 : DmaSem sig := 37
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1000x768 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S768x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S64x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x64 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S64x4 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x4 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S1000x4 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev grid1 : Pipeline.Grid := ⟨2, ![2, 16], ![false, false]⟩

def k1_off1 (i : grid1.Coords) (c0_i32 : BitVec 32) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c20000_i32 : BitVec 32 := 20000#32
  let v2 : BitVec 32 := Scalar.muli v1 c20000_i32
  let v3 : BitVec 32 := Scalar.addi v2 c0_i32
  ![v3.toNat]
@[reducible] def k1_t1_loop : Scf.Loop 32 :=
  let c0_i32_1 : BitVec 32 := 0#32
  let c250_i32 : BitVec 32 := 250#32
  let v4 : BitVec 32 := Scalar.addi c0_i32_1 c250_i32
  let c1_i32 : BitVec 32 := 1#32
  ⟨c0_i32_1, v4, c1_i32⟩
def k1_off2 (k1_t1 : Fin k1_t1_loop.trips) : Fin 1 → Nat :=
  let c0_i32_1 : BitVec 32 := 0#32
  let c1_i32 : BitVec 32 := 1#32
  let arg12 : BitVec 32 := Scf.iv c0_i32_1 c1_i32 k1_t1
  let c16_i32 : BitVec 32 := 16#32
  let v17 : BitVec 32 := Scalar.muli arg12 c16_i32
  let v18 : Index := Scalar.indexCast v17
  ![v18.toNat]

def k1_chk1 (v21 : IVec S16 32) : Prop :=
  (∀ a x, ((![v21] : Fin 1 → IVec S16 32) a x).toNat < S40000.size a)
instance k1_chk1.dec : ∀ (v21 : IVec S16 32), Decidable (k1_chk1 v21) := fun v21 => decidable_of_iff' _ (Iff.of_eq (k1_chk1.eq_1 v21))
theorem k1_idx1_inb : ∀ (v21 : IVec S16 32) (k1_hw1 : k1_chk1 v21), ∀ a x, ((![v21] : Fin 1 → IVec S16 32) a x).toNat < S40000.size a := fun v21 k1_hw1 => k1_hw1

def k1_chk2 (v28 : IVec S16 32) : Prop :=
  (∀ a x, ((![v28] : Fin 1 → IVec S16 32) a x).toNat < S40000.size a)
instance k1_chk2.dec : ∀ (v28 : IVec S16 32), Decidable (k1_chk2 v28) := fun v28 => decidable_of_iff' _ (Iff.of_eq (k1_chk2.eq_1 v28))
theorem k1_idx2_inb : ∀ (v28 : IVec S16 32) (k1_hw2 : k1_chk2 v28), ∀ a x, ((![v28] : Fin 1 → IVec S16 32) a x).toNat < S40000.size a := fun v28 k1_hw2 => k1_hw2

def k1_chk3 (v32 : IVec S16 32) : Prop :=
  (∀ a x, ((![v32] : Fin 1 → IVec S16 32) a x).toNat < S40000.size a)
instance k1_chk3.dec : ∀ (v32 : IVec S16 32), Decidable (k1_chk3 v32) := fun v32 => decidable_of_iff' _ (Iff.of_eq (k1_chk3.eq_1 v32))
theorem k1_idx3_inb : ∀ (v32 : IVec S16 32) (k1_hw3 : k1_chk3 v32), ∀ a x, ((![v32] : Fin 1 → IVec S16 32) a x).toNat < S40000.size a := fun v32 k1_hw3 => k1_hw3

def k1_chk4 (v35 : IVec S16 32) : Prop :=
  (∀ a x, ((![v35] : Fin 1 → IVec S16 32) a x).toNat < S40000.size a)
instance k1_chk4.dec : ∀ (v35 : IVec S16 32), Decidable (k1_chk4 v35) := fun v35 => decidable_of_iff' _ (Iff.of_eq (k1_chk4.eq_1 v35))
theorem k1_idx4_inb : ∀ (v35 : IVec S16 32) (k1_hw4 : k1_chk4 v35), ∀ a x, ((![v35] : Fin 1 → IVec S16 32) a x).toNat < S40000.size a := fun v35 k1_hw4 => k1_hw4
def k1_off3 (k1_t1 : Fin k1_t1_loop.trips) : Fin 1 → Nat :=
  let c0_i32_1 : BitVec 32 := 0#32
  let c1_i32 : BitVec 32 := 1#32
  let arg12 : BitVec 32 := Scf.iv c0_i32_1 c1_i32 k1_t1
  let c16_i32 : BitVec 32 := 16#32
  let v17 : BitVec 32 := Scalar.muli arg12 c16_i32
  let v38 : Index := Scalar.indexCast v17
  ![v38.toNat]
@[reducible] def k1_t2_loop : Scf.Loop 32 :=
  let c0_i32_5 : BitVec 32 := 0#32
  let c250_i32_6 : BitVec 32 := 250#32
  let v7 : BitVec 32 := Scalar.addi c0_i32_5 c250_i32_6
  let c1_i32_7 : BitVec 32 := 1#32
  ⟨c0_i32_5, v7, c1_i32_7⟩
def k1_off4 (k1_t2 : Fin k1_t2_loop.trips) : Fin 1 → Nat :=
  let c0_i32_5 : BitVec 32 := 0#32
  let c1_i32_7 : BitVec 32 := 1#32
  let arg12 : BitVec 32 := Scf.iv c0_i32_5 c1_i32_7 k1_t2
  let c16_i32 : BitVec 32 := 16#32
  let v17 : BitVec 32 := Scalar.muli arg12 c16_i32
  let v18 : Index := Scalar.indexCast v17
  ![v18.toNat]

def k1_chk5 (v21 : IVec S16 32) : Prop :=
  (∀ a x, ((![v21] : Fin 1 → IVec S16 32) a x).toNat < S40000.size a)
instance k1_chk5.dec : ∀ (v21 : IVec S16 32), Decidable (k1_chk5 v21) := fun v21 => decidable_of_iff' _ (Iff.of_eq (k1_chk5.eq_1 v21))
theorem k1_idx5_inb : ∀ (v21 : IVec S16 32) (k1_hw5 : k1_chk5 v21), ∀ a x, ((![v21] : Fin 1 → IVec S16 32) a x).toNat < S40000.size a := fun v21 k1_hw5 => k1_hw5

def k1_chk6 (v28 : IVec S16 32) : Prop :=
  (∀ a x, ((![v28] : Fin 1 → IVec S16 32) a x).toNat < S40000.size a)
instance k1_chk6.dec : ∀ (v28 : IVec S16 32), Decidable (k1_chk6 v28) := fun v28 => decidable_of_iff' _ (Iff.of_eq (k1_chk6.eq_1 v28))
theorem k1_idx6_inb : ∀ (v28 : IVec S16 32) (k1_hw6 : k1_chk6 v28), ∀ a x, ((![v28] : Fin 1 → IVec S16 32) a x).toNat < S40000.size a := fun v28 k1_hw6 => k1_hw6

def k1_chk7 (v32 : IVec S16 32) : Prop :=
  (∀ a x, ((![v32] : Fin 1 → IVec S16 32) a x).toNat < S40000.size a)
instance k1_chk7.dec : ∀ (v32 : IVec S16 32), Decidable (k1_chk7 v32) := fun v32 => decidable_of_iff' _ (Iff.of_eq (k1_chk7.eq_1 v32))
theorem k1_idx7_inb : ∀ (v32 : IVec S16 32) (k1_hw7 : k1_chk7 v32), ∀ a x, ((![v32] : Fin 1 → IVec S16 32) a x).toNat < S40000.size a := fun v32 k1_hw7 => k1_hw7

def k1_chk8 (v35 : IVec S16 32) : Prop :=
  (∀ a x, ((![v35] : Fin 1 → IVec S16 32) a x).toNat < S40000.size a)
instance k1_chk8.dec : ∀ (v35 : IVec S16 32), Decidable (k1_chk8 v35) := fun v35 => decidable_of_iff' _ (Iff.of_eq (k1_chk8.eq_1 v35))
theorem k1_idx8_inb : ∀ (v35 : IVec S16 32) (k1_hw8 : k1_chk8 v35), ∀ a x, ((![v35] : Fin 1 → IVec S16 32) a x).toNat < S40000.size a := fun v35 k1_hw8 => k1_hw8
def k1_off5 (k1_t2 : Fin k1_t2_loop.trips) : Fin 1 → Nat :=
  let c0_i32_5 : BitVec 32 := 0#32
  let c1_i32_7 : BitVec 32 := 1#32
  let arg12 : BitVec 32 := Scf.iv c0_i32_5 c1_i32_7 k1_t2
  let c16_i32 : BitVec 32 := 16#32
  let v17 : BitVec 32 := Scalar.muli arg12 c16_i32
  let v38 : Index := Scalar.indexCast v17
  ![v38.toNat]
@[reducible] def k1_t3_loop : Scf.Loop 32 :=
  let c0_i32_11 : BitVec 32 := 0#32
  let c250_i32_12 : BitVec 32 := 250#32
  let v10 : BitVec 32 := Scalar.addi c0_i32_11 c250_i32_12
  let c1_i32_13 : BitVec 32 := 1#32
  ⟨c0_i32_11, v10, c1_i32_13⟩
def k1_off6 (k1_t3 : Fin k1_t3_loop.trips) : Fin 1 → Nat :=
  let c0_i32_11 : BitVec 32 := 0#32
  let c1_i32_13 : BitVec 32 := 1#32
  let arg12 : BitVec 32 := Scf.iv c0_i32_11 c1_i32_13 k1_t3
  let c16_i32 : BitVec 32 := 16#32
  let v17 : BitVec 32 := Scalar.muli arg12 c16_i32
  let v18 : Index := Scalar.indexCast v17
  ![v18.toNat]

def k1_chk9 (v21 : IVec S16 32) : Prop :=
  (∀ a x, ((![v21] : Fin 1 → IVec S16 32) a x).toNat < S40000.size a)
instance k1_chk9.dec : ∀ (v21 : IVec S16 32), Decidable (k1_chk9 v21) := fun v21 => decidable_of_iff' _ (Iff.of_eq (k1_chk9.eq_1 v21))
theorem k1_idx9_inb : ∀ (v21 : IVec S16 32) (k1_hw9 : k1_chk9 v21), ∀ a x, ((![v21] : Fin 1 → IVec S16 32) a x).toNat < S40000.size a := fun v21 k1_hw9 => k1_hw9

def k1_chk10 (v28 : IVec S16 32) : Prop :=
  (∀ a x, ((![v28] : Fin 1 → IVec S16 32) a x).toNat < S40000.size a)
instance k1_chk10.dec : ∀ (v28 : IVec S16 32), Decidable (k1_chk10 v28) := fun v28 => decidable_of_iff' _ (Iff.of_eq (k1_chk10.eq_1 v28))
theorem k1_idx10_inb : ∀ (v28 : IVec S16 32) (k1_hw10 : k1_chk10 v28), ∀ a x, ((![v28] : Fin 1 → IVec S16 32) a x).toNat < S40000.size a := fun v28 k1_hw10 => k1_hw10

def k1_chk11 (v32 : IVec S16 32) : Prop :=
  (∀ a x, ((![v32] : Fin 1 → IVec S16 32) a x).toNat < S40000.size a)
instance k1_chk11.dec : ∀ (v32 : IVec S16 32), Decidable (k1_chk11 v32) := fun v32 => decidable_of_iff' _ (Iff.of_eq (k1_chk11.eq_1 v32))
theorem k1_idx11_inb : ∀ (v32 : IVec S16 32) (k1_hw11 : k1_chk11 v32), ∀ a x, ((![v32] : Fin 1 → IVec S16 32) a x).toNat < S40000.size a := fun v32 k1_hw11 => k1_hw11

def k1_chk12 (v35 : IVec S16 32) : Prop :=
  (∀ a x, ((![v35] : Fin 1 → IVec S16 32) a x).toNat < S40000.size a)
instance k1_chk12.dec : ∀ (v35 : IVec S16 32), Decidable (k1_chk12 v35) := fun v35 => decidable_of_iff' _ (Iff.of_eq (k1_chk12.eq_1 v35))
theorem k1_idx12_inb : ∀ (v35 : IVec S16 32) (k1_hw12 : k1_chk12 v35), ∀ a x, ((![v35] : Fin 1 → IVec S16 32) a x).toNat < S40000.size a := fun v35 k1_hw12 => k1_hw12
def k1_off7 (k1_t3 : Fin k1_t3_loop.trips) : Fin 1 → Nat :=
  let c0_i32_11 : BitVec 32 := 0#32
  let c1_i32_13 : BitVec 32 := 1#32
  let arg12 : BitVec 32 := Scf.iv c0_i32_11 c1_i32_13 k1_t3
  let c16_i32 : BitVec 32 := 16#32
  let v17 : BitVec 32 := Scalar.muli arg12 c16_i32
  let v38 : Index := Scalar.indexCast v17
  ![v38.toNat]
@[reducible] def k1_t4_loop : Scf.Loop 32 :=
  let c0_i32_17 : BitVec 32 := 0#32
  let c250_i32_18 : BitVec 32 := 250#32
  let v13 : BitVec 32 := Scalar.addi c0_i32_17 c250_i32_18
  let c1_i32_19 : BitVec 32 := 1#32
  ⟨c0_i32_17, v13, c1_i32_19⟩
def k1_off8 (k1_t4 : Fin k1_t4_loop.trips) : Fin 1 → Nat :=
  let c0_i32_17 : BitVec 32 := 0#32
  let c1_i32_19 : BitVec 32 := 1#32
  let arg12 : BitVec 32 := Scf.iv c0_i32_17 c1_i32_19 k1_t4
  let c16_i32 : BitVec 32 := 16#32
  let v17 : BitVec 32 := Scalar.muli arg12 c16_i32
  let v18 : Index := Scalar.indexCast v17
  ![v18.toNat]

def k1_chk13 (v21 : IVec S16 32) : Prop :=
  (∀ a x, ((![v21] : Fin 1 → IVec S16 32) a x).toNat < S40000.size a)
instance k1_chk13.dec : ∀ (v21 : IVec S16 32), Decidable (k1_chk13 v21) := fun v21 => decidable_of_iff' _ (Iff.of_eq (k1_chk13.eq_1 v21))
theorem k1_idx13_inb : ∀ (v21 : IVec S16 32) (k1_hw13 : k1_chk13 v21), ∀ a x, ((![v21] : Fin 1 → IVec S16 32) a x).toNat < S40000.size a := fun v21 k1_hw13 => k1_hw13

def k1_chk14 (v28 : IVec S16 32) : Prop :=
  (∀ a x, ((![v28] : Fin 1 → IVec S16 32) a x).toNat < S40000.size a)
instance k1_chk14.dec : ∀ (v28 : IVec S16 32), Decidable (k1_chk14 v28) := fun v28 => decidable_of_iff' _ (Iff.of_eq (k1_chk14.eq_1 v28))
theorem k1_idx14_inb : ∀ (v28 : IVec S16 32) (k1_hw14 : k1_chk14 v28), ∀ a x, ((![v28] : Fin 1 → IVec S16 32) a x).toNat < S40000.size a := fun v28 k1_hw14 => k1_hw14

def k1_chk15 (v32 : IVec S16 32) : Prop :=
  (∀ a x, ((![v32] : Fin 1 → IVec S16 32) a x).toNat < S40000.size a)
instance k1_chk15.dec : ∀ (v32 : IVec S16 32), Decidable (k1_chk15 v32) := fun v32 => decidable_of_iff' _ (Iff.of_eq (k1_chk15.eq_1 v32))
theorem k1_idx15_inb : ∀ (v32 : IVec S16 32) (k1_hw15 : k1_chk15 v32), ∀ a x, ((![v32] : Fin 1 → IVec S16 32) a x).toNat < S40000.size a := fun v32 k1_hw15 => k1_hw15

def k1_chk16 (v35 : IVec S16 32) : Prop :=
  (∀ a x, ((![v35] : Fin 1 → IVec S16 32) a x).toNat < S40000.size a)
instance k1_chk16.dec : ∀ (v35 : IVec S16 32), Decidable (k1_chk16 v35) := fun v35 => decidable_of_iff' _ (Iff.of_eq (k1_chk16.eq_1 v35))
theorem k1_idx16_inb : ∀ (v35 : IVec S16 32) (k1_hw16 : k1_chk16 v35), ∀ a x, ((![v35] : Fin 1 → IVec S16 32) a x).toNat < S40000.size a := fun v35 k1_hw16 => k1_hw16
def k1_off9 (k1_t4 : Fin k1_t4_loop.trips) : Fin 1 → Nat :=
  let c0_i32_17 : BitVec 32 := 0#32
  let c1_i32_19 : BitVec 32 := 1#32
  let arg12 : BitVec 32 := Scf.iv c0_i32_17 c1_i32_19 k1_t4
  let c16_i32 : BitVec 32 := 16#32
  let v17 : BitVec 32 := Scalar.muli arg12 c16_i32
  let v38 : Index := Scalar.indexCast v17
  ![v38.toNat]
@[reducible] def k1_t5_loop : Scf.Loop 32 :=
  let c0_i32_23 : BitVec 32 := 0#32
  let c250_i32_24 : BitVec 32 := 250#32
  let v16 : BitVec 32 := Scalar.addi c0_i32_23 c250_i32_24
  let c1_i32_25 : BitVec 32 := 1#32
  ⟨c0_i32_23, v16, c1_i32_25⟩
def k1_off10 (k1_t5 : Fin k1_t5_loop.trips) : Fin 1 → Nat :=
  let c0_i32_23 : BitVec 32 := 0#32
  let c1_i32_25 : BitVec 32 := 1#32
  let arg12 : BitVec 32 := Scf.iv c0_i32_23 c1_i32_25 k1_t5
  let c16_i32 : BitVec 32 := 16#32
  let v17 : BitVec 32 := Scalar.muli arg12 c16_i32
  let v18 : Index := Scalar.indexCast v17
  ![v18.toNat]

def k1_chk17 (v21 : IVec S16 32) : Prop :=
  (∀ a x, ((![v21] : Fin 1 → IVec S16 32) a x).toNat < S40000.size a)
instance k1_chk17.dec : ∀ (v21 : IVec S16 32), Decidable (k1_chk17 v21) := fun v21 => decidable_of_iff' _ (Iff.of_eq (k1_chk17.eq_1 v21))
theorem k1_idx17_inb : ∀ (v21 : IVec S16 32) (k1_hw17 : k1_chk17 v21), ∀ a x, ((![v21] : Fin 1 → IVec S16 32) a x).toNat < S40000.size a := fun v21 k1_hw17 => k1_hw17

def k1_chk18 (v28 : IVec S16 32) : Prop :=
  (∀ a x, ((![v28] : Fin 1 → IVec S16 32) a x).toNat < S40000.size a)
instance k1_chk18.dec : ∀ (v28 : IVec S16 32), Decidable (k1_chk18 v28) := fun v28 => decidable_of_iff' _ (Iff.of_eq (k1_chk18.eq_1 v28))
theorem k1_idx18_inb : ∀ (v28 : IVec S16 32) (k1_hw18 : k1_chk18 v28), ∀ a x, ((![v28] : Fin 1 → IVec S16 32) a x).toNat < S40000.size a := fun v28 k1_hw18 => k1_hw18

def k1_chk19 (v32 : IVec S16 32) : Prop :=
  (∀ a x, ((![v32] : Fin 1 → IVec S16 32) a x).toNat < S40000.size a)
instance k1_chk19.dec : ∀ (v32 : IVec S16 32), Decidable (k1_chk19 v32) := fun v32 => decidable_of_iff' _ (Iff.of_eq (k1_chk19.eq_1 v32))
theorem k1_idx19_inb : ∀ (v32 : IVec S16 32) (k1_hw19 : k1_chk19 v32), ∀ a x, ((![v32] : Fin 1 → IVec S16 32) a x).toNat < S40000.size a := fun v32 k1_hw19 => k1_hw19

def k1_chk20 (v35 : IVec S16 32) : Prop :=
  (∀ a x, ((![v35] : Fin 1 → IVec S16 32) a x).toNat < S40000.size a)
instance k1_chk20.dec : ∀ (v35 : IVec S16 32), Decidable (k1_chk20 v35) := fun v35 => decidable_of_iff' _ (Iff.of_eq (k1_chk20.eq_1 v35))
theorem k1_idx20_inb : ∀ (v35 : IVec S16 32) (k1_hw20 : k1_chk20 v35), ∀ a x, ((![v35] : Fin 1 → IVec S16 32) a x).toNat < S40000.size a := fun v35 k1_hw20 => k1_hw20
def k1_off11 (k1_t5 : Fin k1_t5_loop.trips) : Fin 1 → Nat :=
  let c0_i32_23 : BitVec 32 := 0#32
  let c1_i32_25 : BitVec 32 := 1#32
  let arg12 : BitVec 32 := Scf.iv c0_i32_23 c1_i32_25 k1_t5
  let c16_i32 : BitVec 32 := 16#32
  let v17 : BitVec 32 := Scalar.muli arg12 c16_i32
  let v38 : Index := Scalar.indexCast v17
  ![v38.toNat]
abbrev grid2 : Pipeline.Grid := ⟨1, ![5], ![false]⟩

def k2_cond2 (i : grid2.Coords) : BitVec 1 :=
  let arg0 : BitVec 32 := BitVec.ofNat 32 (i 0).val
  let c4_i32 : BitVec 32 := 4#32
  let v28 : BitVec 1 := Scalar.cmpi .eq arg0 c4_i32
  let v29 : BitVec 32 := Scalar.extui v28
  let c0_i32_9 : BitVec 32 := 0#32
  let v30 : BitVec 1 := Scalar.cmpi .ne v29 c0_i32_9
  v30

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage2_0 : Fin 2 → Memref sig .tc .vmem S1000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S1000x128 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 2 → Memref sig .tc .vmem S1000x128 .i32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev stage2_3 : Fin 1 → Memref sig .tc .vmem S1x1 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev scKind : Fin 1 → Kind := fun | 0 => .scVector | ⟨_ + 1, h⟩ => absurd h (Nat.not_lt.2 (Nat.le_add_left _ _))
abbrev scNCore : Fin 1 → Nat := fun | 0 => 2 | ⟨_ + 1, h⟩ => absurd h (Nat.not_lt.2 (Nat.le_add_left _ _))
abbrev scNSub : Fin 1 → Nat := fun | 0 => 16 | ⟨_ + 1, h⟩ => absurd h (Nat.not_lt.2 (Nat.le_add_left _ _))

class Facts₀ : Prop where
  slices_S128x2_S64x2_0_0 : S128x2.Slices ![0, 0] S64x2
  slices_S128x2_S64x2_64_0 : S128x2.Slices ![64, 0] S64x2
  concatenates_S64x2_S64x2_S64x4_d1 : Shape.Concatenates [S64x2, S64x2] S64x4 1
  bcast_S_S2 : S_.BroadcastsInDim S2 (![] : Fin 0 → Fin S2.rank)
  concatenates_S2_S2_S4_d0 : Shape.Concatenates [S2, S2] S4 0
  bcast_S4_S1x4_1 : S4.BroadcastsInDim S1x4 (![1] : Fin 1 → Fin S1x4.rank)
  bcast_S64_S1x64_1 : S64.BroadcastsInDim S1x64 (![1] : Fin 1 → Fin S1x64.rank)
  inb_S1000x768_S1000x768_0_0 : ∀ a, (![0, 0] : Fin 2 → Nat) a + S1000x768.size a ≤ S1000x768.size a
  h_S1000x768 : 0 < S1000x768.numel
  inb_S768x64_S768x64_0_0 : ∀ a, (![0, 0] : Fin 2 → Nat) a + S768x64.size a ≤ S768x64.size a
  h_S768x64 : 0 < S768x64.numel
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S1000x64 : S1x64.Broadcasts S1000x64
  inb_S64x64_S64x64_0_0 : ∀ a, (![0, 0] : Fin 2 → Nat) a + S64x64.size a ≤ S64x64.size a
  h_S64x64 : 0 < S64x64.numel
  inb_S64x4_S64x4_0_0 : ∀ a, (![0, 0] : Fin 2 → Nat) a + S64x4.size a ≤ S64x4.size a
  h_S64x4 : 0 < S64x4.numel
  shapeCasts_S64x4_S64x4 : S64x4.ShapeCasts S64x4
  inb_S1x4_S1x4_0_0 : ∀ a, (![0, 0] : Fin 2 → Nat) a + S1x4.size a ≤ S1x4.size a
  h_S1x4 : 0 < S1x4.numel
  shapeCasts_S1x4_S1x4 : S1x4.ShapeCasts S1x4
  broadcasts_S1x4_S1000x4 : S1x4.Broadcasts S1000x4
  inb_S1000x4_S1000x4_0_0 : ∀ a, (![0, 0] : Fin 2 → Nat) a + S1000x4.size a ≤ S1000x4.size a
  h_S1000x4 : 0 < S1000x4.numel
  shapeCasts_S10000x4_S40000 : S10000x4.ShapeCasts S40000
  slices_S640000x2_S640000x1_0_0 : S640000x2.Slices ![0, 0] S640000x1
  shapeCasts_S640000x1_S640000 : S640000x1.ShapeCasts S640000
  slices_S640000x2_S640000x1_0_1 : S640000x2.Slices ![0, 1] S640000x1
  h_S16 : 0 < S16.numel
  h_S40000 : 0 < S40000.numel
  shapeCasts_S640000_S5000x128 : S640000.ShapeCasts S5000x128
  inb_S1000x128_S1000x128_0_0 : ∀ a, (![0, 0] : Fin 2 → Nat) a + S1000x128.size a ≤ S1000x128.size a
  h_S1000x128 : 0 < S1000x128.numel
  shapeCasts_S1000x128_S1000x128 : S1000x128.ShapeCasts S1000x128
  shapeCasts_S1000x128_S1x1000x128 : S1000x128.ShapeCasts S1x1000x128
  reduces_S1x1000x128_S1 : S1x1000x128.Reduces [1, 2] S1
  shapeCasts_S1_S1x1x1 : S1.ShapeCasts S1x1x1
  inpos_S1x1x1_p0_0_0 : ∀ a, (![0, 0, 0] : Fin 3 → Nat) a < S1x1x1.size a
  inb_S1_S1_0 : ∀ a, (![0] : Fin 1 → Nat) a + S1.size a ≤ S1.size a
  numel1_S1 : S1.numel = 1
  inb_S1x1_S1x1_0_0 : ∀ a, (![0, 0] : Fin 2 → Nat) a + S1x1.size a ≤ S1x1.size a
  h_S1x1 : 0 < S1x1.numel
  bcast_S640000_S640000x1_0 : S640000.BroadcastsInDim S640000x1 (![0] : Fin 1 → Fin S640000x1.rank)
  concatenates_S640000x1_S640000x1_S640000x2_d1 : Shape.Concatenates [S640000x1, S640000x1] S640000x2 1
  shapeCasts_S1x1_S_ : S1x1.ShapeCasts S_
  dot_S1000x768_S768x64_S1000x64_1_0_0_1_n_n_wf : DotDims.WF S1000x768 S768x64 S1000x64 [1] [0] [0] [1] [] []
  dot_S1000x64_S64x64_S1000x64_1_0_0_1_n_n_wf : DotDims.WF S1000x64 S64x64 S1000x64 [1] [0] [0] [1] [] []
  dot_S1000x64_S64x4_S1000x4_1_0_0_1_n_n_wf : DotDims.WF S1000x64 S64x4 S1000x4 [1] [0] [0] [1] [] []
  hcc1_scoped0 : 10 + S_.numel ≤ 38
  hcc1_scoped1 : 11 + S_.numel ≤ 38
  hcc1_scoped2 : 12 + S_.numel ≤ 38
  hcc1_scoped3 : 13 + S_.numel ≤ 38
  hcc1_scoped4 : 14 + S_.numel ≤ 38
  hcc1_scoped5 : 15 + S_.numel ≤ 38
  hcc1_scoped6 : 16 + S_.numel ≤ 38
  hcc1_scoped7 : 17 + S_.numel ≤ 38
  hcc1_scoped8 : 18 + S_.numel ≤ 38
  hcc1_scoped9 : 19 + S_.numel ≤ 38
  hcc1_scoped10 : 20 + S_.numel ≤ 38
  hcc1_scoped11 : 21 + S_.numel ≤ 38
  hcc1_scoped12 : 22 + S_.numel ≤ 38
  hcc1_scoped13 : 23 + S_.numel ≤ 38
  hcc1_scoped14 : 24 + S_.numel ≤ 38
  hcc1_scoped15 : 25 + S_.numel ≤ 38
  hcc1_scoped16 : 26 + S_.numel ≤ 38
  hcc1_scoped17 : 27 + S_.numel ≤ 38
  hcc1_scoped18 : 28 + S_.numel ≤ 38
  hcc1_scoped19 : 29 + S_.numel ≤ 38
  hcc1_scoped20 : 30 + S_.numel ≤ 38
  hscKind : ∀ q, scKind q ≠ .tc
  hscCore : ∀ q, scNCore q ≤ τ.nSC
  hscSub : ∀ q, scNSub q ≤ τ.nSub
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1000x768.size a ≤ S10000x768.size a
  hwx0_0 : ∀ i : grid0.Coords, EltTy.bits .f32 = 32 ∨ (Rect.block (s := S10000x768) S1000x768.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S768x64.size a ≤ S768x64.size a
  hwx0_1 : ∀ i : grid0.Coords, EltTy.bits .f32 = 32 ∨ (Rect.block (s := S768x64) S768x64.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x64.size a ≤ S1x64.size a
  hwx0_2 : ∀ i : grid0.Coords, EltTy.bits .f32 = 32 ∨ (Rect.block (s := S1x64) S1x64.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S64x64.size a ≤ S64x64.size a
  hwx0_3 : ∀ i : grid0.Coords, EltTy.bits .f32 = 32 ∨ (Rect.block (s := S64x64) S64x64.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x64.size a ≤ S1x64.size a
  hwx0_4 : ∀ i : grid0.Coords, EltTy.bits .f32 = 32 ∨ (Rect.block (s := S1x64) S1x64.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S64x4.size a ≤ S64x4.size a
  hwx0_5 : ∀ i : grid0.Coords, EltTy.bits .f32 = 32 ∨ (Rect.block (s := S64x4) S64x4.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x4.size a ≤ S1x4.size a
  hwx0_6 : ∀ i : grid0.Coords, EltTy.bits .f32 = 32 ∨ (Rect.block (s := S1x4) S1x4.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S1000x4.size a ≤ S10000x4.size a
  hwx0_7 : ∀ i : grid0.Coords, EltTy.bits .f32 = 32 ∨ (Rect.block (s := S10000x4) S1000x4.size (cc0_transform_7 i) (hinb0_7 i)).WholeWords (EltTy.packing .f32)
  hcore1 : grid1.bound 0 ≤ τ.nSC
  hsub1 : grid1.bound 1 ≤ τ.nSub
  k1_off1_inb : ∀ i : grid1.Coords, ∀ (r : Fin 5), ∀ a, (k1_off1 i (BitVec.ofNat 32 (4000 * r.val))) a + S4000.size a ≤ S640000.size a
  k1_t1_ok : k1_t1_loop.OK
  k1_off2_inb : ∀ k1_t1 : Fin k1_t1_loop.trips, ∀ a, (k1_off2 k1_t1) a + S16.size a ≤ S4000.size a
  k1_off3_inb : ∀ k1_t1 : Fin k1_t1_loop.trips, ∀ a, (k1_off3 k1_t1) a + S16.size a ≤ S4000.size a
  k1_t2_ok : k1_t2_loop.OK
  k1_off4_inb : ∀ k1_t2 : Fin k1_t2_loop.trips, ∀ a, (k1_off4 k1_t2) a + S16.size a ≤ S4000.size a
  k1_off5_inb : ∀ k1_t2 : Fin k1_t2_loop.trips, ∀ a, (k1_off5 k1_t2) a + S16.size a ≤ S4000.size a
  k1_t3_ok : k1_t3_loop.OK
  k1_off6_inb : ∀ k1_t3 : Fin k1_t3_loop.trips, ∀ a, (k1_off6 k1_t3) a + S16.size a ≤ S4000.size a
  k1_off7_inb : ∀ k1_t3 : Fin k1_t3_loop.trips, ∀ a, (k1_off7 k1_t3) a + S16.size a ≤ S4000.size a
  k1_t4_ok : k1_t4_loop.OK
  k1_off8_inb : ∀ k1_t4 : Fin k1_t4_loop.trips, ∀ a, (k1_off8 k1_t4) a + S16.size a ≤ S4000.size a
  k1_off9_inb : ∀ k1_t4 : Fin k1_t4_loop.trips, ∀ a, (k1_off9 k1_t4) a + S16.size a ≤ S4000.size a
  k1_t5_ok : k1_t5_loop.OK
  k1_off10_inb : ∀ k1_t5 : Fin k1_t5_loop.trips, ∀ a, (k1_off10 k1_t5) a + S16.size a ≤ S4000.size a
  k1_off11_inb : ∀ k1_t5 : Fin k1_t5_loop.trips, ∀ a, (k1_off11 k1_t5) a + S16.size a ≤ S4000.size a
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S1000x128.size a ≤ S5000x128.size a
  hwx2_0 : ∀ i : grid2.Coords, EltTy.bits .f32 = 32 ∨ (Rect.block (s := S5000x128) S1000x128.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S1000x128.size a ≤ S5000x128.size a
  hwx2_1 : ∀ i : grid2.Coords, EltTy.bits .f32 = 32 ∨ (Rect.block (s := S5000x128) S1000x128.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S1000x128.size a ≤ S5000x128.size a
  hwx2_2 : ∀ i : grid2.Coords, EltTy.bits .i32 = 32 ∨ (Rect.block (s := S5000x128) S1000x128.size (cc2_transform_2 i) (hinb2_2 i)).WholeWords (EltTy.packing .i32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S1x1.size a ≤ S1x1.size a
  hwx2_3 : ∀ i : grid2.Coords, EltTy.bits .f32 = 32 ∨ (Rect.block (s := S1x1) S1x1.size (cc2_transform_3 i) (hinb2_3 i)).WholeWords (EltTy.packing .f32)

variable [Facts₀]

abbrev cc1_scoped0 : DmaSems sig S_ := SemArray.consecutive 10 S_ hcc1_scoped0
abbrev cc1_scoped1 : DmaSems sig S_ := SemArray.consecutive 11 S_ hcc1_scoped1
abbrev cc1_scoped2 : DmaSems sig S_ := SemArray.consecutive 12 S_ hcc1_scoped2
abbrev cc1_scoped3 : DmaSems sig S_ := SemArray.consecutive 13 S_ hcc1_scoped3
abbrev cc1_scoped4 : DmaSems sig S_ := SemArray.consecutive 14 S_ hcc1_scoped4
abbrev cc1_scoped5 : DmaSems sig S_ := SemArray.consecutive 15 S_ hcc1_scoped5
abbrev cc1_scoped6 : DmaSems sig S_ := SemArray.consecutive 16 S_ hcc1_scoped6
abbrev cc1_scoped7 : DmaSems sig S_ := SemArray.consecutive 17 S_ hcc1_scoped7
abbrev cc1_scoped8 : DmaSems sig S_ := SemArray.consecutive 18 S_ hcc1_scoped8
abbrev cc1_scoped9 : DmaSems sig S_ := SemArray.consecutive 19 S_ hcc1_scoped9
abbrev cc1_scoped10 : DmaSems sig S_ := SemArray.consecutive 20 S_ hcc1_scoped10
abbrev cc1_scoped11 : DmaSems sig S_ := SemArray.consecutive 21 S_ hcc1_scoped11
abbrev cc1_scoped12 : DmaSems sig S_ := SemArray.consecutive 22 S_ hcc1_scoped12
abbrev cc1_scoped13 : DmaSems sig S_ := SemArray.consecutive 23 S_ hcc1_scoped13
abbrev cc1_scoped14 : DmaSems sig S_ := SemArray.consecutive 24 S_ hcc1_scoped14
abbrev cc1_scoped15 : DmaSems sig S_ := SemArray.consecutive 25 S_ hcc1_scoped15
abbrev cc1_scoped16 : DmaSems sig S_ := SemArray.consecutive 26 S_ hcc1_scoped16
abbrev cc1_scoped17 : DmaSems sig S_ := SemArray.consecutive 27 S_ hcc1_scoped17
abbrev cc1_scoped18 : DmaSems sig S_ := SemArray.consecutive 28 S_ hcc1_scoped18
abbrev cc1_scoped19 : DmaSems sig S_ := SemArray.consecutive 29 S_ hcc1_scoped19
abbrev cc1_scoped20 : DmaSems sig S_ := SemArray.consecutive 30 S_ hcc1_scoped20
def dot_S1000x768_S768x64_S1000x64_1_0_0_1_n_n : DotDims S1000x768 S768x64 S1000x64 where
  lhsContracting := [1]
  rhsContracting := [0]
  lhsNonContracting := [0]
  rhsNonContracting := [1]
  lhsBatch := []
  rhsBatch := []
  wf := dot_S1000x768_S768x64_S1000x64_1_0_0_1_n_n_wf
def dot_S1000x64_S64x64_S1000x64_1_0_0_1_n_n : DotDims S1000x64 S64x64 S1000x64 where
  lhsContracting := [1]
  rhsContracting := [0]
  lhsNonContracting := [0]
  rhsNonContracting := [1]
  lhsBatch := []
  rhsBatch := []
  wf := dot_S1000x64_S64x64_S1000x64_1_0_0_1_n_n_wf
def dot_S1000x64_S64x4_S1000x4_1_0_0_1_n_n : DotDims S1000x64 S64x4 S1000x4 where
  lhsContracting := [1]
  rhsContracting := [0]
  lhsNonContracting := [0]
  rhsNonContracting := [1]
  lhsBatch := []
  rhsBatch := []
  wf := dot_S1000x64_S64x4_S1000x4_1_0_0_1_n_n_wf

abbrev win0_0 : Pipeline.Window sig grid0 :=
  Pipeline.Window.ofSpec (Memref.whole main_arg2) S1000x768.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg4) S768x64.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v6) S1x64.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg6) S64x64.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v7) S1x64.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v2) S64x4.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v5) S1x4.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v8) S1000x4.size cc0_transform_7 reads0_7 true false 2 stage0_7 sem0_7
    hrank0 hreads0_7 hinb0_7 nbuf0_7 (Memref.isWhole_whole _) hwx0_7 hstage0_7

abbrev win0 : Fin 8 → Pipeline.Window sig grid0 := fun | 0 => win0_0 | 1 => win0_1 | 2 => win0_2 | 3 => win0_3 | 4 => win0_4 | 5 => win0_5 | 6 => win0_6 | 7 => win0_7 | ⟨_ + 8, h⟩ => absurd h (Nat.not_lt.2 (Nat.le_add_left _ _))
abbrev spec0 : Fin 8 → Pipeline.WinSpec sig grid0.rank := fun w => (win0 w).toWinSpec

abbrev win2_0 : Pipeline.Window sig grid2 :=
  Pipeline.Window.ofSpec (Memref.whole main_v15) S1000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v16) S1000x128.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v17) S1000x128.size cc2_transform_2 reads2_2 false false 2 stage2_2 sem2_2
    hrank2 hreads2_2 hinb2_2 nbuf2_2 (Memref.isWhole_whole _) hwx2_2 hstage2_2

abbrev win2_3 : Pipeline.Window sig grid2 :=
  Pipeline.Window.ofSpec (Memref.whole main_v18) S1x1.size cc2_transform_3 reads2_3 true true 1 stage2_3 sem2_3
    hrank2 hreads2_3 hinb2_3 nbuf2_3 (Memref.isWhole_whole _) hwx2_3 hstage2_3

abbrev win2 : Fin 4 → Pipeline.Window sig grid2 := fun | 0 => win2_0 | 1 => win2_1 | 2 => win2_2 | 3 => win2_3 | ⟨_ + 4, h⟩ => absurd h (Nat.not_lt.2 (Nat.le_add_left _ _))
abbrev spec2 : Fin 4 → Pipeline.WinSpec sig grid2.rank := fun w => (win2 w).toWinSpec

abbrev idle2 : Fin 4 → grid2.Coords → Bool := fun | 0 => fun _ => false | 1 => fun _ => false | 2 => fun _ => false | 3 => fun i => !(k2_cond2 i == 1#1) | ⟨_ + 4, h⟩ => absurd h (Nat.not_lt.2 (Nat.le_add_left _ _))

class Facts : Prop extends Facts₀ where

variable [Facts]
-- ==== ReferenceIdeal.lean ====
abbrev S640000x2 : Shape := ⟨2, ![640000, 2]⟩
abbrev S10000x10000 : Shape := ⟨2, ![10000, 10000]⟩
abbrev S10000x768 : Shape := ⟨2, ![10000, 768]⟩
abbrev S640000 : Shape := ⟨1, ![640000]⟩
abbrev S768x64 : Shape := ⟨2, ![768, 64]⟩
abbrev S64 : Shape := ⟨1, ![64]⟩
abbrev S64x64 : Shape := ⟨2, ![64, 64]⟩
abbrev S128x2 : Shape := ⟨2, ![128, 2]⟩
abbrev S2 : Shape := ⟨1, ![2]⟩
abbrev S10000x64 : Shape := ⟨2, ![10000, 64]⟩
abbrev S1x64 : Shape := ⟨2, ![1, 64]⟩
abbrev S_ : Shape := ⟨0, ![]⟩
abbrev S640000x1 : Shape := ⟨2, ![640000, 1]⟩
abbrev S1 : Shape := ⟨1, ![1]⟩
abbrev S1x1 : Shape := ⟨2, ![1, 1]⟩
abbrev S640000x64 : Shape := ⟨2, ![640000, 64]⟩
abbrev S640000x128 : Shape := ⟨2, ![640000, 128]⟩
abbrev S1x2 : Shape := ⟨2, ![1, 2]⟩
abbrev S640000x1x1 : Shape := ⟨3, ![640000, 1, 1]⟩
abbrev S1x1x1 : Shape := ⟨3, ![1, 1, 1]⟩

abbrev nBuf : Space → Nat
  | .hbm => 123
  | .vmem => 0
  | .smem => 0
  | _ => 0

abbrev bufTy : (tb : Table) → Fin (tcTables nBuf tb) → BufTy
  | .hbm, ⟨0, _⟩ => ⟨S640000x2, .i32⟩
  | .hbm, ⟨1, _⟩ => ⟨S10000x10000, .i1⟩
  | .hbm, ⟨2, _⟩ => ⟨S10000x768, .f32⟩
  | .hbm, ⟨3, _⟩ => ⟨S640000, .i32⟩
  | .hbm, ⟨4, _⟩ => ⟨S768x64, .f32⟩
  | .hbm, ⟨5, _⟩ => ⟨S64, .f32⟩
  | .hbm, ⟨6, _⟩ => ⟨S64x64, .f32⟩
  | .hbm, ⟨7, _⟩ => ⟨S64, .f32⟩
  | .hbm, ⟨8, _⟩ => ⟨S128x2, .f32⟩
  | .hbm, ⟨9, _⟩ => ⟨S2, .f32⟩
  | .hbm, ⟨10, _⟩ => ⟨S10000x64, .f32⟩
  | .hbm, ⟨11, _⟩ => ⟨S1x64, .f32⟩
  | .hbm, ⟨12, _⟩ => ⟨S10000x64, .f32⟩
  | .hbm, ⟨13, _⟩ => ⟨S10000x64, .f32⟩
  | .hbm, ⟨14, _⟩ => ⟨S_, .f32⟩
  | .hbm, ⟨15, _⟩ => ⟨S10000x64, .f32⟩
  | .hbm, ⟨16, _⟩ => ⟨S10000x64, .f32⟩
  | .hbm, ⟨17, _⟩ => ⟨S10000x64, .f32⟩
  | .hbm, ⟨18, _⟩ => ⟨S1x64, .f32⟩
  | .hbm, ⟨19, _⟩ => ⟨S10000x64, .f32⟩
  | .hbm, ⟨20, _⟩ => ⟨S10000x64, .f32⟩
  | .hbm, ⟨21, _⟩ => ⟨S_, .f32⟩
  | .hbm, ⟨22, _⟩ => ⟨S10000x64, .f32⟩
  | .hbm, ⟨23, _⟩ => ⟨S10000x64, .f32⟩
  | .hbm, ⟨24, _⟩ => ⟨S640000x1, .i32⟩
  | .hbm, ⟨25, _⟩ => ⟨S640000, .i32⟩
  | .hbm, ⟨26, _⟩ => ⟨S_, .i32⟩
  | .hbm, ⟨27, _⟩ => ⟨S640000, .i32⟩
  | .hbm, ⟨28, _⟩ => ⟨S640000, .i1⟩
  | .hbm, ⟨29, _⟩ => ⟨S_, .i32⟩
  | .hbm, ⟨30, _⟩ => ⟨S640000, .i32⟩
  | .hbm, ⟨31, _⟩ => ⟨S640000, .i32⟩
  | .hbm, ⟨32, _⟩ => ⟨S640000, .i32⟩
  | .hbm, ⟨33, _⟩ => ⟨S640000x1, .i32⟩
  | .hbm, ⟨34, _⟩ => ⟨S1, .i32⟩
  | .hbm, ⟨35, _⟩ => ⟨S_, .i32⟩
  | .hbm, ⟨36, _⟩ => ⟨S640000x1, .i32⟩
  | .hbm, ⟨37, _⟩ => ⟨S640000x1, .i1⟩
  | .hbm, ⟨38, _⟩ => ⟨S1x1, .i32⟩
  | .hbm, ⟨39, _⟩ => ⟨S640000x1, .i32⟩
  | .hbm, ⟨40, _⟩ => ⟨S640000x1, .i1⟩
  | .hbm, ⟨41, _⟩ => ⟨S640000x1, .i1⟩
  | .hbm, ⟨42, _⟩ => ⟨S_, .i1⟩
  | .hbm, ⟨43, _⟩ => ⟨S640000, .i1⟩
  | .hbm, ⟨44, _⟩ => ⟨S640000x64, .f32⟩
  | .hbm, ⟨45, _⟩ => ⟨S640000x64, .i1⟩
  | .hbm, ⟨46, _⟩ => ⟨S_, .f32⟩
  | .hbm, ⟨47, _⟩ => ⟨S640000x64, .f32⟩
  | .hbm, ⟨48, _⟩ => ⟨S640000x64, .f32⟩
  | .hbm, ⟨49, _⟩ => ⟨S640000x1, .i32⟩
  | .hbm, ⟨50, _⟩ => ⟨S640000, .i32⟩
  | .hbm, ⟨51, _⟩ => ⟨S_, .i32⟩
  | .hbm, ⟨52, _⟩ => ⟨S640000, .i32⟩
  | .hbm, ⟨53, _⟩ => ⟨S640000, .i1⟩
  | .hbm, ⟨54, _⟩ => ⟨S_, .i32⟩
  | .hbm, ⟨55, _⟩ => ⟨S640000, .i32⟩
  | .hbm, ⟨56, _⟩ => ⟨S640000, .i32⟩
  | .hbm, ⟨57, _⟩ => ⟨S640000, .i32⟩
  | .hbm, ⟨58, _⟩ => ⟨S640000x1, .i32⟩
  | .hbm, ⟨59, _⟩ => ⟨S1, .i32⟩
  | .hbm, ⟨60, _⟩ => ⟨S_, .i32⟩
  | .hbm, ⟨61, _⟩ => ⟨S640000x1, .i32⟩
  | .hbm, ⟨62, _⟩ => ⟨S640000x1, .i1⟩
  | .hbm, ⟨63, _⟩ => ⟨S1x1, .i32⟩
  | .hbm, ⟨64, _⟩ => ⟨S640000x1, .i32⟩
  | .hbm, ⟨65, _⟩ => ⟨S640000x1, .i1⟩
  | .hbm, ⟨66, _⟩ => ⟨S640000x1, .i1⟩
  | .hbm, ⟨67, _⟩ => ⟨S_, .i1⟩
  | .hbm, ⟨68, _⟩ => ⟨S640000, .i1⟩
  | .hbm, ⟨69, _⟩ => ⟨S640000x64, .f32⟩
  | .hbm, ⟨70, _⟩ => ⟨S640000x64, .i1⟩
  | .hbm, ⟨71, _⟩ => ⟨S_, .f32⟩
  | .hbm, ⟨72, _⟩ => ⟨S640000x64, .f32⟩
  | .hbm, ⟨73, _⟩ => ⟨S640000x64, .f32⟩
  | .hbm, ⟨74, _⟩ => ⟨S640000x128, .f32⟩
  | .hbm, ⟨75, _⟩ => ⟨S640000x2, .f32⟩
  | .hbm, ⟨76, _⟩ => ⟨S1x2, .f32⟩
  | .hbm, ⟨77, _⟩ => ⟨S640000x2, .f32⟩
  | .hbm, ⟨78, _⟩ => ⟨S640000x2, .f32⟩
  | .hbm, ⟨79, _⟩ => ⟨S_, .f32⟩
  | .hbm, ⟨80, _⟩ => ⟨S640000, .f32⟩
  | .hbm, ⟨81, _⟩ => ⟨S_, .f32⟩
  | .hbm, ⟨82, _⟩ => ⟨S640000, .f32⟩
  | .hbm, ⟨83, _⟩ => ⟨S640000, .f32⟩
  | .hbm, ⟨84, _⟩ => ⟨S640000x1, .f32⟩
  | .hbm, ⟨85, _⟩ => ⟨S640000x2, .f32⟩
  | .hbm, ⟨86, _⟩ => ⟨S640000x2, .f32⟩
  | .hbm, ⟨87, _⟩ => ⟨S640000x2, .f32⟩
  | .hbm, ⟨88, _⟩ => ⟨S_, .f32⟩
  | .hbm, ⟨89, _⟩ => ⟨S640000, .f32⟩
  | .hbm, ⟨90, _⟩ => ⟨S640000x1, .f32⟩
  | .hbm, ⟨91, _⟩ => ⟨S640000x1, .f32⟩
  | .hbm, ⟨92, _⟩ => ⟨S640000x2, .f32⟩
  | .hbm, ⟨93, _⟩ => ⟨S640000x2, .f32⟩
  | .hbm, ⟨94, _⟩ => ⟨S640000x1, .i32⟩
  | .hbm, ⟨95, _⟩ => ⟨S_, .i32⟩
  | .hbm, ⟨96, _⟩ => ⟨S640000x1, .i32⟩
  | .hbm, ⟨97, _⟩ => ⟨S640000x1, .i1⟩
  | .hbm, ⟨98, _⟩ => ⟨S_, .i32⟩
  | .hbm, ⟨99, _⟩ => ⟨S640000x1, .i32⟩
  | .hbm, ⟨100, _⟩ => ⟨S640000x1, .i32⟩
  | .hbm, ⟨101, _⟩ => ⟨S640000x1, .i32⟩
  | .hbm, ⟨102, _⟩ => ⟨S640000x1x1, .i32⟩
  | .hbm, ⟨103, _⟩ => ⟨S1, .i32⟩
  | .hbm, ⟨104, _⟩ => ⟨S_, .i32⟩
  | .hbm, ⟨105, _⟩ => ⟨S640000x1x1, .i32⟩
  | .hbm, ⟨106, _⟩ => ⟨S640000x1x1, .i1⟩
  | .hbm, ⟨107, _⟩ => ⟨S1x1x1, .i32⟩
  | .hbm, ⟨108, _⟩ => ⟨S640000x1x1, .i32⟩
  | .hbm, ⟨109, _⟩ => ⟨S640000x1x1, .i1⟩
  | .hbm, ⟨110, _⟩ => ⟨S640000x1x1, .i1⟩
  | .hbm, ⟨111, _⟩ => ⟨S_, .i1⟩
  | .hbm, ⟨112, _⟩ => ⟨S640000x1, .i1⟩
  | .hbm, ⟨113, _⟩ => ⟨S640000x1, .f32⟩
  | .hbm, ⟨114, _⟩ => ⟨S_, .f32⟩
  | .hbm, ⟨115, _⟩ => ⟨S640000x1, .f32⟩
  | .hbm, ⟨116, _⟩ => ⟨S640000x1, .f32⟩
  | .hbm, ⟨117, _⟩ => ⟨S640000, .f32⟩
  | .hbm, ⟨118, _⟩ => ⟨S640000, .f32⟩
  | .hbm, ⟨119, _⟩ => ⟨S_, .f32⟩
  | .hbm, ⟨120, _⟩ => ⟨S_, .f32⟩
  | .hbm, ⟨121, _⟩ => ⟨S_, .f32⟩
  | .hbm, ⟨122, _⟩ => ⟨S_, .f32⟩
  | _, _ => ⟨S640000x2, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_call0_cst : Ref sig .tc := ⟨.hbm, 14, rfl⟩
abbrev main_call0_v0 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_call1_cst : Ref sig .tc := ⟨.hbm, 21, rfl⟩
abbrev main_call1_v0 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_call2_c : Ref sig .tc := ⟨.hbm, 26, rfl⟩
abbrev main_call2_v0 : Ref sig .tc := ⟨.hbm, 27, rfl⟩
abbrev main_call2_v1 : Ref sig .tc := ⟨.hbm, 28, rfl⟩
abbrev main_call2_c_0 : Ref sig .tc := ⟨.hbm, 29, rfl⟩
abbrev main_call2_v2 : Ref sig .tc := ⟨.hbm, 30, rfl⟩
abbrev main_call2_v3 : Ref sig .tc := ⟨.hbm, 31, rfl⟩
abbrev main_call2_v4 : Ref sig .tc := ⟨.hbm, 32, rfl⟩
abbrev main_call2_v5 : Ref sig .tc := ⟨.hbm, 33, rfl⟩
abbrev main_call2_c_1 : Ref sig .tc := ⟨.hbm, 34, rfl⟩
abbrev main_call2_c_2 : Ref sig .tc := ⟨.hbm, 35, rfl⟩
abbrev main_call2_v6 : Ref sig .tc := ⟨.hbm, 36, rfl⟩
abbrev main_call2_v7 : Ref sig .tc := ⟨.hbm, 37, rfl⟩
abbrev main_call2_v8 : Ref sig .tc := ⟨.hbm, 38, rfl⟩
abbrev main_call2_v9 : Ref sig .tc := ⟨.hbm, 39, rfl⟩
abbrev main_call2_v10 : Ref sig .tc := ⟨.hbm, 40, rfl⟩
abbrev main_call2_v11 : Ref sig .tc := ⟨.hbm, 41, rfl⟩
abbrev main_call2_c_3 : Ref sig .tc := ⟨.hbm, 42, rfl⟩
abbrev main_call2_v12 : Ref sig .tc := ⟨.hbm, 43, rfl⟩
abbrev main_call2_v13 : Ref sig .tc := ⟨.hbm, 44, rfl⟩
abbrev main_call2_v14 : Ref sig .tc := ⟨.hbm, 45, rfl⟩
abbrev main_call2_cst : Ref sig .tc := ⟨.hbm, 46, rfl⟩
abbrev main_call2_v15 : Ref sig .tc := ⟨.hbm, 47, rfl⟩
abbrev main_v12 : Ref sig .tc := ⟨.hbm, 48, rfl⟩
abbrev main_v13 : Ref sig .tc := ⟨.hbm, 49, rfl⟩
abbrev main_v14 : Ref sig .tc := ⟨.hbm, 50, rfl⟩
abbrev main_call3_c : Ref sig .tc := ⟨.hbm, 51, rfl⟩
abbrev main_call3_v0 : Ref sig .tc := ⟨.hbm, 52, rfl⟩
abbrev main_call3_v1 : Ref sig .tc := ⟨.hbm, 53, rfl⟩
abbrev main_call3_c_0 : Ref sig .tc := ⟨.hbm, 54, rfl⟩
abbrev main_call3_v2 : Ref sig .tc := ⟨.hbm, 55, rfl⟩
abbrev main_call3_v3 : Ref sig .tc := ⟨.hbm, 56, rfl⟩
abbrev main_call3_v4 : Ref sig .tc := ⟨.hbm, 57, rfl⟩
abbrev main_call3_v5 : Ref sig .tc := ⟨.hbm, 58, rfl⟩
abbrev main_call3_c_1 : Ref sig .tc := ⟨.hbm, 59, rfl⟩
abbrev main_call3_c_2 : Ref sig .tc := ⟨.hbm, 60, rfl⟩
abbrev main_call3_v6 : Ref sig .tc := ⟨.hbm, 61, rfl⟩
abbrev main_call3_v7 : Ref sig .tc := ⟨.hbm, 62, rfl⟩
abbrev main_call3_v8 : Ref sig .tc := ⟨.hbm, 63, rfl⟩
abbrev main_call3_v9 : Ref sig .tc := ⟨.hbm, 64, rfl⟩
abbrev main_call3_v10 : Ref sig .tc := ⟨.hbm, 65, rfl⟩
abbrev main_call3_v11 : Ref sig .tc := ⟨.hbm, 66, rfl⟩
abbrev main_call3_c_3 : Ref sig .tc := ⟨.hbm, 67, rfl⟩
abbrev main_call3_v12 : Ref sig .tc := ⟨.hbm, 68, rfl⟩
abbrev main_call3_v13 : Ref sig .tc := ⟨.hbm, 69, rfl⟩
abbrev main_call3_v14 : Ref sig .tc := ⟨.hbm, 70, rfl⟩
abbrev main_call3_cst : Ref sig .tc := ⟨.hbm, 71, rfl⟩
abbrev main_call3_v15 : Ref sig .tc := ⟨.hbm, 72, rfl⟩
abbrev main_v15 : Ref sig .tc := ⟨.hbm, 73, rfl⟩
abbrev main_v16 : Ref sig .tc := ⟨.hbm, 74, rfl⟩
abbrev main_v17 : Ref sig .tc := ⟨.hbm, 75, rfl⟩
abbrev main_v18 : Ref sig .tc := ⟨.hbm, 76, rfl⟩
abbrev main_v19 : Ref sig .tc := ⟨.hbm, 77, rfl⟩
abbrev main_v20 : Ref sig .tc := ⟨.hbm, 78, rfl⟩
abbrev main_call4_cst : Ref sig .tc := ⟨.hbm, 79, rfl⟩
abbrev main_call4_v0 : Ref sig .tc := ⟨.hbm, 80, rfl⟩
abbrev main_call4_cst_0 : Ref sig .tc := ⟨.hbm, 81, rfl⟩
abbrev main_call4_v1 : Ref sig .tc := ⟨.hbm, 82, rfl⟩
abbrev main_call4_v2 : Ref sig .tc := ⟨.hbm, 83, rfl⟩
abbrev main_call4_v3 : Ref sig .tc := ⟨.hbm, 84, rfl⟩
abbrev main_call4_v4 : Ref sig .tc := ⟨.hbm, 85, rfl⟩
abbrev main_call4_v5 : Ref sig .tc := ⟨.hbm, 86, rfl⟩
abbrev main_call4_v6 : Ref sig .tc := ⟨.hbm, 87, rfl⟩
abbrev main_call4_cst_1 : Ref sig .tc := ⟨.hbm, 88, rfl⟩
abbrev main_call4_v7 : Ref sig .tc := ⟨.hbm, 89, rfl⟩
abbrev main_call4_v8 : Ref sig .tc := ⟨.hbm, 90, rfl⟩
abbrev main_call4_v9 : Ref sig .tc := ⟨.hbm, 91, rfl⟩
abbrev main_call4_v10 : Ref sig .tc := ⟨.hbm, 92, rfl⟩
abbrev main_v21 : Ref sig .tc := ⟨.hbm, 93, rfl⟩
abbrev main_v22 : Ref sig .tc := ⟨.hbm, 94, rfl⟩
abbrev main_call5_c : Ref sig .tc := ⟨.hbm, 95, rfl⟩
abbrev main_call5_v0 : Ref sig .tc := ⟨.hbm, 96, rfl⟩
abbrev main_call5_v1 : Ref sig .tc := ⟨.hbm, 97, rfl⟩
abbrev main_call5_c_0 : Ref sig .tc := ⟨.hbm, 98, rfl⟩
abbrev main_call5_v2 : Ref sig .tc := ⟨.hbm, 99, rfl⟩
abbrev main_call5_v3 : Ref sig .tc := ⟨.hbm, 100, rfl⟩
abbrev main_call5_v4 : Ref sig .tc := ⟨.hbm, 101, rfl⟩
abbrev main_call5_v5 : Ref sig .tc := ⟨.hbm, 102, rfl⟩
abbrev main_call5_c_1 : Ref sig .tc := ⟨.hbm, 103, rfl⟩
abbrev main_call5_c_2 : Ref sig .tc := ⟨.hbm, 104, rfl⟩
abbrev main_call5_v6 : Ref sig .tc := ⟨.hbm, 105, rfl⟩
abbrev main_call5_v7 : Ref sig .tc := ⟨.hbm, 106, rfl⟩
abbrev main_call5_v8 : Ref sig .tc := ⟨.hbm, 107, rfl⟩
abbrev main_call5_v9 : Ref sig .tc := ⟨.hbm, 108, rfl⟩
abbrev main_call5_v10 : Ref sig .tc := ⟨.hbm, 109, rfl⟩
abbrev main_call5_v11 : Ref sig .tc := ⟨.hbm, 110, rfl⟩
abbrev main_call5_c_3 : Ref sig .tc := ⟨.hbm, 111, rfl⟩
abbrev main_call5_v12 : Ref sig .tc := ⟨.hbm, 112, rfl⟩
abbrev main_call5_v13 : Ref sig .tc := ⟨.hbm, 113, rfl⟩
abbrev main_call5_cst : Ref sig .tc := ⟨.hbm, 114, rfl⟩
abbrev main_call5_v14 : Ref sig .tc := ⟨.hbm, 115, rfl⟩
abbrev main_v23 : Ref sig .tc := ⟨.hbm, 116, rfl⟩
abbrev main_v24 : Ref sig .tc := ⟨.hbm, 117, rfl⟩
abbrev main_v25 : Ref sig .tc := ⟨.hbm, 118, rfl⟩
abbrev main_cst : Ref sig .tc := ⟨.hbm, 119, rfl⟩
abbrev main_v26 : Ref sig .tc := ⟨.hbm, 120, rfl⟩
abbrev main_cst_0 : Ref sig .tc := ⟨.hbm, 121, rfl⟩
abbrev main_v27 : Ref sig .tc := ⟨.hbm, 122, rfl⟩

abbrev nD : Nat := 1
abbrev τ : Topo := Topo.v7x

variable {F : FTy → Type} [FloatOps F]

class Facts₀ : Prop where
  bcast_S64_S1x64_1 : S64.BroadcastsInDim S1x64 (![1] : Fin 1 → Fin S1x64.rank)
  bcast_S1x64_S10000x64_0_1 : S1x64.BroadcastsInDim S10000x64 (![0, 1] : Fin 2 → Fin S10000x64.rank)
  bcast_S_S10000x64 : S_.BroadcastsInDim S10000x64 (![] : Fin 0 → Fin S10000x64.rank)
  slices_S640000x2_S640000x1_0_0 : S640000x2.Slices ![0, 0] S640000x1
  shapeCasts_S640000x1_S640000 : S640000x1.ShapeCasts S640000
  bcast_S_S640000 : S_.BroadcastsInDim S640000 (![] : Fin 0 → Fin S640000.rank)
  bcast_S640000_S640000x1_0 : S640000.BroadcastsInDim S640000x1 (![0] : Fin 1 → Fin S640000x1.rank)
  bcast_S_S640000x1 : S_.BroadcastsInDim S640000x1 (![] : Fin 0 → Fin S640000x1.rank)
  bcast_S1_S1x1_1 : S1.BroadcastsInDim S1x1 (![1] : Fin 1 → Fin S1x1.rank)
  bcast_S1x1_S640000x1_0_1 : S1x1.BroadcastsInDim S640000x1 (![0, 1] : Fin 2 → Fin S640000x1.rank)
  reducesTo_S640000x1_S640000_d1 : S640000x1.ReducesTo [1] S640000
  h_S_ : 0 < S_.numel
  bcast_S640000_S640000x64_0 : S640000.BroadcastsInDim S640000x64 (![0] : Fin 1 → Fin S640000x64.rank)
  bcast_S_S640000x64 : S_.BroadcastsInDim S640000x64 (![] : Fin 0 → Fin S640000x64.rank)
  slices_S640000x2_S640000x1_0_1 : S640000x2.Slices ![0, 1] S640000x1
  concatenates_S640000x64_S640000x64_S640000x128_d1 : Shape.Concatenates [S640000x64, S640000x64] S640000x128 1
  bcast_S2_S1x2_1 : S2.BroadcastsInDim S1x2 (![1] : Fin 1 → Fin S1x2.rank)
  bcast_S1x2_S640000x2_0_1 : S1x2.BroadcastsInDim S640000x2 (![0, 1] : Fin 2 → Fin S640000x2.rank)
  reducesTo_S640000x2_S640000_d1 : S640000x2.ReducesTo [1] S640000
  bcast_S640000x1_S640000x2_0_1 : S640000x1.BroadcastsInDim S640000x2 (![0, 1] : Fin 2 → Fin S640000x2.rank)
  shapeCasts_S640000x1_S640000x1x1 : S640000x1.ShapeCasts S640000x1x1
  bcast_S_S640000x1x1 : S_.BroadcastsInDim S640000x1x1 (![] : Fin 0 → Fin S640000x1x1.rank)
  bcast_S1_S1x1x1_2 : S1.BroadcastsInDim S1x1x1 (![2] : Fin 1 → Fin S1x1x1.rank)
  bcast_S1x1x1_S640000x1x1_0_1_2 : S1x1x1.BroadcastsInDim S640000x1x1 (![0, 1, 2] : Fin 3 → Fin S640000x1x1.rank)
  reducesTo_S640000x1x1_S640000x1_d2 : S640000x1x1.ReducesTo [2] S640000x1
  reducesTo_S640000_S_d0 : S640000.ReducesTo [0] S_
  dot_S10000x768_S768x64_S10000x64_1_0_0_1_n_n_wf : DotDims.WF S10000x768 S768x64 S10000x64 [1] [0] [0] [1] [] []
  dot_S10000x64_S64x64_S10000x64_1_0_0_1_n_n_wf : DotDims.WF S10000x64 S64x64 S10000x64 [1] [0] [0] [1] [] []
  gather_S10000x64_S640000x1_S640000x64_1_0_n_n_0_1_164_wf : GatherDims.WF S10000x64 S640000x1 S640000x64 [1] [0] [] [0] [] 1 ![1, 64]
  dot_S640000x128_S128x2_S640000x2_1_0_0_1_n_n_wf : DotDims.WF S640000x128 S128x2 S640000x2 [1] [0] [0] [1] [] []
  gather_S640000x2_S640000x1x1_S640000x1_n_1_0_0_1_2_11_wf : GatherDims.WF S640000x2 S640000x1x1 S640000x1 [] [1] [0] [1] [0] 2 ![1, 1]

variable [Facts₀]

def dot_S10000x768_S768x64_S10000x64_1_0_0_1_n_n : DotDims S10000x768 S768x64 S10000x64 where
  lhsContracting := [1]
  rhsContracting := [0]
  lhsNonContracting := [0]
  rhsNonContracting := [1]
  lhsBatch := []
  rhsBatch := []
  wf := dot_S10000x768_S768x64_S10000x64_1_0_0_1_n_n_wf
def dot_S10000x64_S64x64_S10000x64_1_0_0_1_n_n : DotDims S10000x64 S64x64 S10000x64 where
  lhsContracting := [1]
  rhsContracting := [0]
  lhsNonContracting := [0]
  rhsNonContracting := [1]
  lhsBatch := []
  rhsBatch := []
  wf := dot_S10000x64_S64x64_S10000x64_1_0_0_1_n_n_wf
def gather_S10000x64_S640000x1_S640000x64_1_0_n_n_0_1_164 : GatherDims S10000x64 S640000x1 S640000x64 where
  offsetDims := [1]
  collapsedSliceDims := [0]
  operandBatchingDims := []
  startIndicesBatchingDims := []
  startIndexMap := [0]
  indexVectorDim := 1
  sliceSizes := ![1, 64]
  wf := gather_S10000x64_S640000x1_S640000x64_1_0_n_n_0_1_164_wf
def dot_S640000x128_S128x2_S640000x2_1_0_0_1_n_n : DotDims S640000x128 S128x2 S640000x2 where
  lhsContracting := [1]
  rhsContracting := [0]
  lhsNonContracting := [0]
  rhsNonContracting := [1]
  lhsBatch := []
  rhsBatch := []
  wf := dot_S640000x128_S128x2_S640000x2_1_0_0_1_n_n_wf
def gather_S640000x2_S640000x1x1_S640000x1_n_1_0_0_1_2_11 : GatherDims S640000x2 S640000x1x1 S640000x1 where
  offsetDims := []
  collapsedSliceDims := [1]
  operandBatchingDims := [0]
  startIndicesBatchingDims := [0]
  startIndexMap := [1]
  indexVectorDim := 2
  sliceSizes := ![1, 1]
  wf := gather_S640000x2_S640000x1x1_S640000x1_n_1_0_0_1_2_11_wf

class Facts : Prop extends Facts₀ where

variable [Facts]
-- ==== Proof.ScBase.lean ====
/-
  The program as the SparseCore launch theorem sees it, and the ghost state every part of the proof shares: the
  label table of the two TensorCore pipelines, the SparseCore configuration, the body table, and one resource
  algebra with three components — the launch handshakes' rounds, the rounds of the vector subcores' own DMA
  semaphores, and the rounds of the TensorCore pipelines' staging semaphores — each reached through its embedding.
-/
import proofs.«208457_g31284541784245_cont_9to1_2229_14_alg».proof.Defs
import Idealize.ShloMosaic.Lib.SparseCore.Launch
import Idealize.ShloMosaic.Lib.SparseCore.Ops
import Idealize.ShloMosaic.Lib.Pipeline.Regions
import Idealize.ShloMosaic.Lib.StableHlo.Run
import Idealize.ShloMosaic.Lib.Tactic
import Idealize.ShloMosaic.Lib.Pipeline.Kit
import proofs.«208457_g31284541784245_cont_9to1_2229_14_alg».proof.Proof.Gen.KernelIdeal

noncomputable section

namespace Cert.KernelIdeal.Sc

open Cert.KernelIdeal Cert.KernelIdeal.Gen

open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.Sem
open Idealize.ShloMosaic.Rounds

variable {F : FTy → Type}

/-! ## The program as the launch theorem sees it -/

abbrev ΛP : Labels := Pipeline.Sig Λ₀ (Fin 2) fun p => (pcfgs (F := F) p).Adm
abbrev K : SparseCore.Cfg τ sig (ΛP (F := F)) 1 := sc (F := F)
theorem nCore_zero : (K (F := F)).nCore 0 = 2 := rfl
theorem nSub_zero : (K (F := F)).nSub 0 = 16 := rfl
abbrev D [FloatOps F] : Defs nD τ sig (Elt F) (ΛP (F := F)) := Pipeline.defs pcfgs defs₀
abbrev 𝒱₀ : Variants := Variants.none
abbrev 𝒱 : Variants := 𝒱₀.lift
abbrev v₀ : 𝒱.V := Sum.inl none

theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

/-! ## The resource algebra

Three components: the launch handshakes' rounds; the rounds of the TensorCore pipelines' staging semaphores; and the
counters the vector subcores' own copies run under (a copy issued and waited at once needs no schedule: the counters'
protocol, found by instance in the rightmost factor). -/

abbrev UH : Type := URounds (GSem nD τ sig) ℕ
abbrev UP : Type := URounds (GSem nD τ sig) Unit
abbrev UK : Type := Counters
abbrev UU : Type := UH × (UP × UK)

/-- The model every assertion of this certificate lives in. -/
abbrev MM (F : FTy → Type) : Type := MT nD τ sig (HIx 1) (Elt F) ℕ UU ℕ

def EH : Emb UH (MM F) :=
  (Emb.inl : Emb UH UU).trans (uEmb (nD := nD) (sig := sig) (Ix := HIx 1) (Val := Elt F) (Name := ℕ) (U := UU) (Lvl := ℕ)).toEmb
def EP : Emb UP (MM F) :=
  ((Emb.inl : Emb UP (UP × UK)).trans (Emb.inr : Emb (UP × UK) UU)).trans (uEmb (nD := nD) (sig := sig) (Ix := HIx 1) (Val := Elt F) (Name := ℕ) (U := UU) (Lvl := ℕ)).toEmb

instance EH_landsIn : (EH : Emb UH (MM F)).LandsIn (upEmb : UEmb _ (MM F)) := by unfold EH; infer_instance
instance EP_landsIn : (EP : Emb UP (MM F)).LandsIn (upEmb : UEmb _ (MM F)) := by unfold EP; infer_instance

/-- The counters are found in the algebra by instance. -/
example : CountersIn UU := inferInstance

end Cert.KernelIdeal.Sc

end
-- ==== Proof.ScMain.lean ====
/-
  @main of the kernel's program as the TensorCore runs it: four stretches of host operations around three calls —
  the first pallas_call (the node table), the SparseCore call (the pair logits), the second pallas_call (the loss).
-/
import proofs.«208457_g31284541784245_cont_9to1_2229_14_alg».proof.Proof.ScBase

noncomputable section

namespace Cert.KernelIdeal.Sc

open Cert.KernelIdeal Cert.KernelIdeal.Gen
open Idealize.ShloMosaic
open Idealize.SL.Sem

variable {F : FTy → Type} [FloatOps F]

/-- Host stretch 0 of @main, in order. -/
abbrev ops0 : List (HloOp τ sig (Elt F)) :=
  [ (StableHlo.unary main_arg8 main_v0 ((extractStridedSlice S64x2 ![0, 0] · slices_S128x2_S64x2_0_0) : (⟨S128x2, .f32⟩ : BufTy).Contents (Elt F) → (⟨S64x2, .f32⟩ : BufTy).Contents (Elt F))),
    (StableHlo.unary main_arg8 main_v1 ((extractStridedSlice S64x2 ![64, 0] · slices_S128x2_S64x2_64_0) : (⟨S128x2, .f32⟩ : BufTy).Contents (Elt F) → (⟨S64x2, .f32⟩ : BufTy).Contents (Elt F))),
    (StableHlo.binary main_v0 main_v1 main_v2 ((fun a b => concatenate S64x4 1 [⟨S64x2, a⟩, ⟨S64x2, b⟩] concatenates_S64x2_S64x2_S64x4_d1) : (⟨S64x2, .f32⟩ : BufTy).Contents (Elt F) → (⟨S64x2, .f32⟩ : BufTy).Contents (Elt F) → (⟨S64x4, .f32⟩ : BufTy).Contents (Elt F))),
    (StableHlo.nullary main_cst (constant S_ .f32 0x00000000#32)),
    (StableHlo.unary main_cst main_v3 (broadcastInDim S2 ![] bcast_S_S2 : (⟨S_, .f32⟩ : BufTy).Contents (Elt F) → (⟨S2, .f32⟩ : BufTy).Contents (Elt F))),
    (StableHlo.binary main_arg9 main_v3 main_v4 ((fun a b => concatenate S4 0 [⟨S2, a⟩, ⟨S2, b⟩] concatenates_S2_S2_S4_d0) : (⟨S2, .f32⟩ : BufTy).Contents (Elt F) → (⟨S2, .f32⟩ : BufTy).Contents (Elt F) → (⟨S4, .f32⟩ : BufTy).Contents (Elt F))),
    (StableHlo.unary main_v4 main_v5 (broadcastInDim S1x4 ![1] bcast_S4_S1x4_1 : (⟨S4, .f32⟩ : BufTy).Contents (Elt F) → (⟨S1x4, .f32⟩ : BufTy).Contents (Elt F))),
    (StableHlo.unary main_arg5 main_v6 (broadcastInDim S1x64 ![1] bcast_S64_S1x64_1 : (⟨S64, .f32⟩ : BufTy).Contents (Elt F) → (⟨S1x64, .f32⟩ : BufTy).Contents (Elt F))),
    (StableHlo.unary main_arg7 main_v7 (broadcastInDim S1x64 ![1] bcast_S64_S1x64_1 : (⟨S64, .f32⟩ : BufTy).Contents (Elt F) → (⟨S1x64, .f32⟩ : BufTy).Contents (Elt F))) ]

/-- Host stretch 1 of @main, in order. -/
abbrev ops1 : List (HloOp τ sig (Elt F)) :=
  [ (StableHlo.reshape main_v8 main_v9 rfl shapeCasts_S10000x4_S40000),
    (StableHlo.unary main_arg0 main_v10 ((extractStridedSlice S640000x1 ![0, 0] · slices_S640000x2_S640000x1_0_0) : (⟨S640000x2, .i32⟩ : BufTy).Contents (Elt F) → (⟨S640000x1, .i32⟩ : BufTy).Contents (Elt F))),
    (StableHlo.reshape main_v10 main_v11 rfl shapeCasts_S640000x1_S640000),
    (StableHlo.unary main_arg0 main_v12 ((extractStridedSlice S640000x1 ![0, 1] · slices_S640000x2_S640000x1_0_1) : (⟨S640000x2, .i32⟩ : BufTy).Contents (Elt F) → (⟨S640000x1, .i32⟩ : BufTy).Contents (Elt F))),
    (StableHlo.reshape main_v12 main_v13 rfl shapeCasts_S640000x1_S640000) ]

/-- Host stretch 2 of @main, in order. -/
abbrev ops2 : List (HloOp τ sig (Elt F)) :=
  [ (StableHlo.reshape main_v14_0 main_v15 rfl shapeCasts_S640000_S5000x128),
    (StableHlo.reshape main_v14_1 main_v16 rfl shapeCasts_S640000_S5000x128),
    (StableHlo.reshape main_arg3 main_v17 rfl shapeCasts_S640000_S5000x128) ]

/-- Host stretch 3 of @main, in order. -/
abbrev ops3 : List (HloOp τ sig (Elt F)) :=
  [ (StableHlo.unary main_v14_0 main_v19 (broadcastInDim S640000x1 ![0] bcast_S640000_S640000x1_0 : (⟨S640000, .f32⟩ : BufTy).Contents (Elt F) → (⟨S640000x1, .f32⟩ : BufTy).Contents (Elt F))),
    (StableHlo.unary main_v14_1 main_v20 (broadcastInDim S640000x1 ![0] bcast_S640000_S640000x1_0 : (⟨S640000, .f32⟩ : BufTy).Contents (Elt F) → (⟨S640000x1, .f32⟩ : BufTy).Contents (Elt F))),
    (StableHlo.binary main_v19 main_v20 main_v21 ((fun a b => concatenate S640000x2 1 [⟨S640000x1, a⟩, ⟨S640000x1, b⟩] concatenates_S640000x1_S640000x1_S640000x2_d1) : (⟨S640000x1, .f32⟩ : BufTy).Contents (Elt F) → (⟨S640000x1, .f32⟩ : BufTy).Contents (Elt F) → (⟨S640000x2, .f32⟩ : BufTy).Contents (Elt F))),
    (StableHlo.reshape main_v18 main_v22 rfl shapeCasts_S1x1_S_) ]

/-- @main is the four stretches around the three calls. -/
theorem main_eq (d : Dev nD) :
    main (F := F) d = (StableHlo.seq ops0 >>= fun _ =>
      Prog.lift (.customCall (SparseCore.inner (Pipeline.entry 0)) ()) >>= fun _ =>
      StableHlo.seq ops1 >>= fun _ =>
      (sc (F := F)).run d 0 >>= fun _ =>
      StableHlo.seq ops2 >>= fun _ =>
      Prog.lift (.customCall (SparseCore.inner (Pipeline.entry 1)) ()) >>= fun _ =>
      StableHlo.seq ops3) := by
  simp only [main, ops0, ops1, ops2, ops3, StableHlo.seq, bind_assoc, pure_bind, bind_pure]

end Cert.KernelIdeal.Sc

end
-- ==== Proof.ScLaunch.lean ====
/-
  The kernel program's run from the launch theorem for SparseCore programs. @main on the TensorCore is four stretches
  of host operations around three calls: each stretch advances the named contents of the unscoped buffers by its
  operations; each pallas_call is entered as a kernel region of its pipeline, from the thread state the stretch before
  it left and that pipeline's share of the staging cells' ghost state, and leaves the state the next stretch starts
  from; the SparseCore call hands the operands' buffers to the two SparseCores and takes them back with the two result
  columns written. The TensorCore's debts to the SparseCores (its start signals) ride through the first region and are
  paid at the call. What the regions and the vector subcores' task compute is supplied by the modules that prove them;
  here they enter as the records and entailments the statement names.
-/
import proofs.«208457_g31284541784245_cont_9to1_2229_14_alg».proof.Proof.ScMain
import Idealize.ShloMosaic.Lib.Pipeline.Frame
import proofs.«208457_g31284541784245_cont_9to1_2229_14_alg».proof.Proof.Gen.KernelIdeal.Launch

noncomputable section

namespace Cert.KernelIdeal.Sc.Launch

open Cert.KernelIdeal Cert.KernelIdeal.Gen Cert.KernelIdeal.Sc
open Idealize.ShloMosaic Idealize.ShloMosaic.TcCoe
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

/-- No pipeline has a prefetched table. -/
abbrev adm : (p : Fin 2) → (pcfgs (F := F) p).Adm := fun p => (cfgs p).toPCfg_adm

/-- The TensorCore's unscoped buffers. -/
abbrev UC : Finset (DevRef τ sig) := Pipeline.ucRefs τ sig

/-! ## Every host operation touches unscoped TensorCore buffers only and allocates none -/

theorem ops0_sub : ∀ op ∈ (ops0 : List (HloOp τ sig (Elt F))), op.bufs ⊆ UC := fun op h => Pipeline.sub_ucRefs op (by
  have hall : (ops0 : List (HloOp τ sig (Elt F))).Forall fun op => op.bufs ⊆ StableHlo.tcRefs τ sig := by
    simp only [ops0, List.Forall, StableHlo.nullary_bufs_sub, StableHlo.unary_bufs_sub, StableHlo.binary_bufs_sub, StableHlo.reshape_bufs_sub, and_self]
  exact (List.forall_iff_forall_mem.mp hall) op h)
theorem ops1_sub : ∀ op ∈ (ops1 : List (HloOp τ sig (Elt F))), op.bufs ⊆ UC := fun op h => Pipeline.sub_ucRefs op (by
  have hall : (ops1 : List (HloOp τ sig (Elt F))).Forall fun op => op.bufs ⊆ StableHlo.tcRefs τ sig := by
    simp only [ops1, List.Forall, StableHlo.nullary_bufs_sub, StableHlo.unary_bufs_sub, StableHlo.binary_bufs_sub, StableHlo.reshape_bufs_sub, and_self]
  exact (List.forall_iff_forall_mem.mp hall) op h)
theorem ops2_sub : ∀ op ∈ (ops2 : List (HloOp τ sig (Elt F))), op.bufs ⊆ UC := fun op h => Pipeline.sub_ucRefs op (by
  have hall : (ops2 : List (HloOp τ sig (Elt F))).Forall fun op => op.bufs ⊆ StableHlo.tcRefs τ sig := by
    simp only [ops2, List.Forall, StableHlo.nullary_bufs_sub, StableHlo.unary_bufs_sub, StableHlo.binary_bufs_sub, StableHlo.reshape_bufs_sub, and_self]
  exact (List.forall_iff_forall_mem.mp hall) op h)
theorem ops3_sub : ∀ op ∈ (ops3 : List (HloOp τ sig (Elt F))), op.bufs ⊆ UC := fun op h => Pipeline.sub_ucRefs op (by
  have hall : (ops3 : List (HloOp τ sig (Elt F))).Forall fun op => op.bufs ⊆ StableHlo.tcRefs τ sig := by
    simp only [ops3, List.Forall, StableHlo.nullary_bufs_sub, StableHlo.unary_bufs_sub, StableHlo.binary_bufs_sub, StableHlo.reshape_bufs_sub, and_self]
  exact (List.forall_iff_forall_mem.mp hall) op h)

theorem ops0_fresh : ∀ op ∈ (ops0 : List (HloOp τ sig (Elt F))), op.fresh = ∅ := by
  refine List.forall_iff_forall_mem.mp ?_; simp only [ops0, List.Forall]; repeat' constructor
theorem ops1_fresh : ∀ op ∈ (ops1 : List (HloOp τ sig (Elt F))), op.fresh = ∅ := by
  refine List.forall_iff_forall_mem.mp ?_; simp only [ops1, List.Forall]; repeat' constructor
theorem ops2_fresh : ∀ op ∈ (ops2 : List (HloOp τ sig (Elt F))), op.fresh = ∅ := by
  refine List.forall_iff_forall_mem.mp ?_; simp only [ops2, List.Forall]; repeat' constructor
theorem ops3_fresh : ∀ op ∈ (ops3 : List (HloOp τ sig (Elt F))), op.fresh = ∅ := by
  refine List.forall_iff_forall_mem.mp ?_; simp only [ops3, List.Forall]; repeat' constructor

section Main

variable (m : (ℓ : Loc nD τ sig) → Buf (Elt F) ℓ) (g : Dev nD → PrngReg)
variable (Py : (K (F := F)).Pay (nD := nD) (Val := Elt F) (Name := ℕ) (U := UU))
variable (pdats : (p : Fin 2) → (c : Dev nD) → Pipeline.Dat τ (Elt F) (HIx 1) ℕ UU ℕ (Pipeline.pin (pcfgs (F := F)) adm p) c)
variable (R0 : Pipeline.RegionSeg (pcfgs (F := F)) adm pdats (none : HIx 1) defs₀ 𝒱₀ (K (F := F)).L (K (F := F)).lev 0)
variable (R1 : Pipeline.RegionSeg (pcfgs (F := F)) adm pdats (none : HIx 1) defs₀ 𝒱₀ (K (F := F)).L (K (F := F)).lev 1)

/-- Device d's buffers at launch. -/
abbrev W0 (d : Dev nD) : Valuation τ sig (Elt F) := fun b => m (d, b)

theorem ub_held (d : Dev nD) : (unscopedBufs (Ix := HIx 1) (Name := ℕ) (U := UU) (Lvl := ℕ) d (fun b => m ((SparseCore.T d).loc b)) : sProp (MM F)) = StableHlo.held (SparseCore.T d) UC (W0 m d) :=
  Pipeline.unscopedBufs_held d (W0 m d)

/-- What the launch deals the TensorCore of the pipelines' ghost state. -/
abbrev Gp (d : Dev nD) : sProp (MM F) :=
  bigSep Finset.univ fun p : Fin 2 => iprop(Pipeline.cellsGhost (Pipeline.pin (pcfgs (F := F)) adm) EP p d ∗ Pipeline.toksInit (Pipeline.pin (pcfgs (F := F)) adm) EP p d)

theorem Gp_eq (d : Dev nD) : (Gp (F := F) d : sProp (MM F))
    = iprop((Pipeline.cellsGhost (Pipeline.pin (pcfgs (F := F)) adm) EP 0 d ∗ Pipeline.toksInit (Pipeline.pin (pcfgs (F := F)) adm) EP 0 d)
        ∗ (Pipeline.cellsGhost (Pipeline.pin (pcfgs (F := F)) adm) EP 1 d ∗ Pipeline.toksInit (Pipeline.pin (pcfgs (F := F)) adm) EP 1 d)) :=
  bigSep_fin_two _

/-- The TensorCore's handshake state without its debts. -/
def tcRest (d : Dev nD) (n : ℕ) : sProp (MM F) :=
  iprop(atPos EH ((K (F := F)).doneCell d) n ∅ 0 ∗ reached EH ((K (F := F)).doneCell d) n
    ∗ (bigSep Finset.univ fun c : Fin τ.nSC => reached EH ((K (F := F)).startCell d c) ((K (F := F)).sRank c n))
    ∗ bigSep (SparseCore.Cfg.callsFrom n) fun q => bigSep Finset.univ fun c : Fin ((K (F := F)).nCore q) =>
        iprop(dutyTok EH ((K (F := F)).startCell d ((K (F := F)).core q c)) ((K (F := F)).sRank ((K (F := F)).core q c) q.val) 0 ∗ cred (tallyAt ((K (F := F)).doneCell d) (some q) 1)))

/-- The debts: what the TensorCore owes before call n, its recorded waits bounded. -/
abbrev tcOwes (d : Dev nD) (n : ℕ) : sProp (MM F) :=
  iprop(∃ W, ⌜(K (F := F)).WBelow (SparseCore.T d) W (8 * n)⌝ ∗ owes (SparseCore.T d) ((K (F := F)).Otc d n) W)

theorem tcSt_split (d : Dev nD) (n : ℕ) :
    ((K (F := F)).tcSt (EH (F := F)) d n : sProp (MM F)) = iprop(tcOwes (F := F) d n ∗ tcRest (F := F) d n) := rfl

variable (FIN : Dev nD → sProp (MM F))
variable (W2 W4 W6 : Dev nD → Valuation τ sig (Elt F))
variable (Keep : Dev nD → sProp (MM F))

/-- The thread state between the segments: the unscoped buffers at a valuation, the generator register, the debts. -/
abbrev Tst (d : Dev nD) (W : Valuation τ sig (Elt F)) (n : ℕ) : sProp (MM F) :=
  iprop(StableHlo.held (SparseCore.T d) UC W ∗ (∃ r, prngReg d r) ∗ tcOwes (F := F) d n)

set_option backward.isDefEq.respectTransparency.types false in
/-- @main on the TensorCore, from the launch to the return: the four host stretches by the host rule, each pallas_call
    entered as a kernel region of its pipeline with that pipeline's share of the ghost state, the SparseCore call by the
    launch library's rule; the buffers' contents named at every boundary. -/
theorem hmain_of (κ : GSem nD τ sig → ℕ) (d : Dev nD)
    (hpre0 : Tst (F := F) d (StableHlo.after ops0 (W0 m d)) 0 ⊢ R0.pre d)
    (hpost0 : R0.post d ⊢ Tst (F := F) d (W2 d) 0)
    (hst : StableHlo.held (SparseCore.T d) UC (StableHlo.after ops1 (W2 d)) ⊢ iprop((bigSep Finset.univ fun c : Fin ((K (F := F)).nCore 0) => Py.st 0 d c) ∗ Keep d))
    (hdn : iprop((bigSep Finset.univ fun c : Fin ((K (F := F)).nCore 0) => Py.dn 0 d c) ∗ Keep d) ⊢ StableHlo.held (SparseCore.T d) UC (W4 d))
    (hpre1 : Tst (F := F) d (StableHlo.after ops2 (W4 d)) 1 ⊢ R1.pre d)
    (hpost1 : R1.post d ⊢ Tst (F := F) d (W6 d) 1)
    (hFIN : iprop(StableHlo.held (SparseCore.T d) UC (StableHlo.after ops3 (W6 d)) ∗ ∃ r, prngReg d r) ⊢ FIN d) :
    iprop((K (F := F)).ctx EH Py κ ∗ (K (F := F)).tcSt EH d 0 ∗ (K (F := F)).tcRes m g d ∗ Gp d)
      ⊢ wp frame (wpE ((K (F := F)).defs (D (F := F))) 𝒱 (SparseCore.T d) none) Set.univ (main d) fun _ => iprop((K (F := F)).tcSt EH d 1 ∗ FIN d) := by
  rw [main_eq, tcSt_split, tcSt_split]
  unfold SparseCore.Cfg.tcRes
  rw [ub_held, Gp_eq]
  iintro ⟨#Hctx, ⟨HO, Hrest⟩, ⟨Hb, Hub, Hsems, Hprng⟩, ⟨⟨Hcg0, Htk0⟩, ⟨Hcg1, Htk1⟩⟩⟩
  ihave #Hlev := (SparseCore.Cfg.ctx_levAts κ) $$ Hctx
  -- stretch 0
  iapply (StableHlo.wp_seq 𝒱 none Set.univ d UC _ ops0 ops0_sub ops0_fresh (W0 m d)) $$ [Hb Hub]
  · isplitl [Hb]; · iexact Hb
    iexact Hub
  iintro ⟨Hb, Hub⟩
  -- region 0
  rw [wp_bind]
  iapply (SparseCore.Cfg.wp_liftProg (K (F := F)) (D (F := F)) 𝒱 (SparseCore.T d) Set.univ none (Prog.lift (.customCall (Pipeline.entry 0) ())) _)
  iapply (Pipeline.RegionSeg.wp (pcfgs (F := F)) adm pdats none cellOf_inj EP defs₀ 𝒱₀ (K (F := F)).L (K (F := F)).lev R0 d none (fun u hu => by cases hu) (fun x => .ret x) _)
  isplitr [Hb Hub Hprng HO Hcg0 Htk0]
  swap
  · isplitl [Hb]; · iexact Hb
    isplitl [Hub Hprng HO]
    · iapply hpre0
      isplitl [Hub]; · iexact Hub
      isplitl [Hprng]; · iexists _; iexact Hprng
      iexact HO
    isplitr; · iexact Hlev
    isplitl [Hcg0]; · iexact Hcg0
    iexact Htk0
  iintro ⟨Hb, Hpost⟩
  ihave Hpost' := hpost0 $$ Hpost
  icases Hpost' with ⟨Hub, Hprng, HO⟩
  rw [wp_ret]
  imodintro
  -- stretch 1
  iapply (StableHlo.wp_seq 𝒱 none Set.univ d UC _ ops1 ops1_sub ops1_fresh (W2 d)) $$ [Hb Hub]
  · isplitl [Hb]; · iexact Hb
    iexact Hub
  iintro ⟨Hb, Hub⟩
  -- the SparseCore call
  rw [wp_bind]
  ihave Hsplit := hst $$ Hub
  icases Hsplit with ⟨Hstc, Hkeep⟩
  iapply ((K (F := F)).wp_run (D (F := F)) 𝒱 (EH := EH) (P := Py) κ d 0) $$ [HO Hrest Hstc Hb Hkeep Hprng Hcg1 Htk1]
  isplitr; · iexact Hctx
  isplitl [HO Hrest]
  · iapply (Entails.of_eq (tcSt_split (F := F) d 0).symm)
    isplitl [HO]; · iexact HO
    iexact Hrest
  isplitl [Hstc]; · iexact Hstc
  iintro ⟨Hst, Hdn⟩
  ihave Hst' := (Entails.of_eq (tcSt_split (F := F) d ((0 : Fin 1).val + 1))) $$ Hst
  icases Hst' with ⟨HO, Hrest⟩
  ihave Hub := hdn $$ [Hdn Hkeep]
  · isplitl [Hdn]; · iexact Hdn
    iexact Hkeep
  -- stretch 2
  iapply (StableHlo.wp_seq 𝒱 none Set.univ d UC _ ops2 ops2_sub ops2_fresh (W4 d)) $$ [Hb Hub]
  · isplitl [Hb]; · iexact Hb
    iexact Hub
  iintro ⟨Hb, Hub⟩
  -- region 1
  rw [wp_bind]
  iapply (SparseCore.Cfg.wp_liftProg (K (F := F)) (D (F := F)) 𝒱 (SparseCore.T d) Set.univ none (Prog.lift (.customCall (Pipeline.entry 1) ())) _)
  iapply (Pipeline.RegionSeg.wp (pcfgs (F := F)) adm pdats none cellOf_inj EP defs₀ 𝒱₀ (K (F := F)).L (K (F := F)).lev R1 d none (fun u hu => by cases hu) (fun x => .ret x) _)
  isplitr [Hb Hub Hprng HO Hcg1 Htk1]
  swap
  · isplitl [Hb]; · iexact Hb
    isplitl [Hub Hprng HO]
    · iapply hpre1
      isplitl [Hub]; · iexact Hub
      isplitl [Hprng]; · iexact Hprng
      iexact HO
    isplitr; · iexact Hlev
    isplitl [Hcg1]; · iexact Hcg1
    iexact Htk1
  iintro ⟨Hb, Hpost⟩
  ihave Hpost' := hpost1 $$ Hpost
  icases Hpost' with ⟨Hub, Hprng, HO⟩
  rw [wp_ret]
  imodintro
  -- stretch 3, to the return
  rw [show (StableHlo.seq ops3 : Prog (TpuEff nD τ sig (Elt F) (SparseCore.Sig (ΛP (F := F)) 1) .tc) PUnit) = StableHlo.seq ops3 >>= fun _ => pure ⟨⟩ from (bind_pure _).symm]
  iapply (StableHlo.wp_seq 𝒱 none Set.univ d UC _ ops3 ops3_sub ops3_fresh (W6 d)) $$ [Hb Hub]
  · isplitl [Hb]; · iexact Hb
    iexact Hub
  iintro ⟨Hb, Hub⟩
  rw [wp_pure]
  imodintro
  isplitl [HO Hrest]
  · isplitl [HO]; · iexact HO
    iexact Hrest
  iapply hFIN
  isplitl [Hub]; · iexact Hub
  iexact Hprng

/-! ## The launch element -/

/-- The launch element: the handshakes' rounds at the library's cells and tokens, the pipelines' rounds at their staging
    cells and the transfers their loops issue, the counters at their unit. -/
def u₀ : UU :=
  (initOf (K (F := F)).hsCells (K (F := F)).hsToks,
    (initOf (Pipeline.cells (Pipeline.pin (pcfgs (F := F)) adm) cellOf_inj) (Pipeline.launchToks (Pipeline.pin (pcfgs (F := F)) adm) cellOf_inj), 1))

theorem EP_eq : (EP : Emb UP (MM F)) = (Emb.inl : Emb UP (UP × UK)).trans embR := rfl

set_option backward.isDefEq.respectTransparency.types false in
/-- Owning the launch element is owning the handshakes' part and the pipelines' part, each through its embedding (the
    counters' part is set aside). -/
theorem own_split (a : UH) (b : UP) (c : UK) :
    (ownU ((a, (b, c)) : UU) : sProp (MM F)) ⊢ iprop(BI.own ((EH : Emb UH (MM F)) a) ∗ BI.own ((EP : Emb UP (MM F)) b)) :=
  (ownU_pair (nD := nD) (τ := τ) (sig := sig) (Ix := HIx 1) (Val := Elt F) (Name := ℕ) (Lvl := ℕ) a ((b, c) : UP × UK)).trans
    (Idealize.SL.BI.sep_mono_r
      ((own_pair_emb (embR (nD := nD) (τ := τ) (sig := sig) (Ix := HIx 1) (Val := Elt F) (Name := ℕ) (Lvl := ℕ) (A := UH) (B := UP × UK)) b c).trans
        sep_elim_left))

set_option backward.isDefEq.respectTransparency.types false in
/-- The element split: the handshakes' part for the launch library, the pipelines' part funded into each TensorCore's
    share of their ghost state (`Gp`), the counters' part dropped; nothing for the vector subcores' own cells. -/
theorem hu₀ (hx : (bigSep Finset.univ fun thr : Thread nD τ => bigSep Finset.univ fun q : Fin 1 => Py.x q thr) = (iprop(emp) : sProp (MM F))) :
    (ownU (u₀ (F := F)) : sProp (MM F))
      ⊢ |={Set.univ}=> iprop(BI.own (EH (initOf (K (F := F)).hsCells (K (F := F)).hsToks)) ∗ (bigSep Finset.univ fun d : Dev nD => Gp (F := F) d)
          ∗ bigSep Finset.univ fun thr : Thread nD τ => bigSep Finset.univ fun q : Fin 1 => Py.x q thr) := by
  have hs := own_split (F := F) (initOf (K (F := F)).hsCells (K (F := F)).hsToks)
    (initOf (Pipeline.cells (Pipeline.pin (pcfgs (F := F)) adm) cellOf_inj) (Pipeline.launchToks (Pipeline.pin (pcfgs (F := F)) adm) cellOf_inj)) (1 : UK)
  have hf := Pipeline.fund_ghost (nD := nD) (Val := Elt F) (Ix := HIx 1) (Name := ℕ) (U := UU) (Lvl := ℕ) (Pipeline.pin (pcfgs (F := F)) adm) (EP (F := F)) cellOf_inj
  unfold u₀
  rw [hx]
  iintro Hu
  ihave H := hs $$ Hu
  icases H with ⟨HH, HP⟩
  imod hf $$ HP with ⟨Hcg, Htk⟩
  imodintro
  isplitl [HH]; · iexact HH
  isplitl [Hcg Htk]
  · unfold Gp
    simp only [bigSep_sep']
    isplitl [Hcg]; · iexact Hcg
    iexact Htk
  iempintro

/-! ## The final memory -/

/-- What the TensorCore holds at the return: its unscoped buffers at the last valuation, the generator register. -/
abbrev FINof (Wn : Dev nD → Valuation τ sig (Elt F)) (d : Dev nD) : sProp (MM F) :=
  iprop(StableHlo.held (SparseCore.T d) UC (Wn d) ∗ ∃ r, prngReg d r)

set_option backward.isDefEq.respectTransparency.types false in
theorem hfin (Wn : Dev nD → Valuation τ sig (Elt F)) (d : Dev nD) (s' : Phys nD τ sig (Elt F)) :
    iprop(FINof Wn d ∗ SI s') ⊢ (⌜∀ b ∈ UC, s'.mem.mem (d, b) = Wn d b⌝ : sProp (MM F)) := by
  have hr := pointsTo_read_all (Ix := HIx 1) (Name := ℕ) (U := UU) (Lvl := ℕ) UC (fun b => ((d, b) : Loc nD τ sig)) (Wn d) s'
  iintro ⟨⟨Hh, -⟩, HSI⟩
  unfold StableHlo.held
  ihave H := hr $$ [Hh HSI]
  · isplitl [Hh]; · iexact Hh
    iexact HSI
  icases H with ⟨%h, -⟩
  ipureintro; exact h

/-! ## The program's run -/

set_option backward.isDefEq.respectTransparency.types false in
/-- The launch theorem at this program: from any memory with zero counters, every weakly fair execution of @main on the
    TensorCore and of the pair kernel on the thirty-two vector subcores terminates, nothing faulting, and every final
    state has each unscoped TensorCore buffer at the last boundary's contents. -/
theorem run_of [∀ e, Nonempty (Elt F e)] [Py.IsStorable] (hheld : Py.held = ∅)
    (hx : (bigSep Finset.univ fun thr : Thread nD τ => bigSep Finset.univ fun q : Fin 1 => Py.x q thr) = (iprop(emp) : sProp (MM F)))
    (htile : (K (F := F)).TileObl (D (F := F)) 𝒱 Py v₀ 0) (hvec : (K (F := F)).VecSplit' Py 0)
    (hpre0 : ∀ d, Tst (F := F) d (StableHlo.after ops0 (W0 m d)) 0 ⊢ R0.pre d)
    (hpost0 : ∀ d, R0.post d ⊢ Tst (F := F) d (W2 d) 0)
    (hst : ∀ d, StableHlo.held (SparseCore.T d) UC (StableHlo.after ops1 (W2 d)) ⊢ iprop((bigSep Finset.univ fun c : Fin ((K (F := F)).nCore 0) => Py.st 0 d c) ∗ Keep d))
    (hdn : ∀ d, iprop((bigSep Finset.univ fun c : Fin ((K (F := F)).nCore 0) => Py.dn 0 d c) ∗ Keep d) ⊢ StableHlo.held (SparseCore.T d) UC (W4 d))
    (hpre1 : ∀ d, Tst (F := F) d (StableHlo.after ops2 (W4 d)) 1 ⊢ R1.pre d)
    (hpost1 : ∀ d, R1.post d ⊢ Tst (F := F) d (W6 d) 1) :
    θ_run (Cert.KernelIdeal.defs (F := F)) (Cert.KernelIdeal.threads (F := F)) ⟨m, fun _ => 0, g⟩
      (fun r => ∀ d : Dev nD, ∀ b ∈ UC, r.2.mem (d, b) = StableHlo.after ops3 (W6 d) b) :=
  SparseCore.Cfg.θ_run_sc (K := K (F := F)) (D := D (F := F)) (𝒱 := 𝒱) (EH := EH) (P := Py) facts v₀
    (fun q hq => match q with | 0 => nomatch hq)
    (fun q hq => match q with | 0 => htile)
    (fun q hq => match q with | 0 => SparseCore.Cfg.VecSplit.of_plain hvec)
    m g main (fun d => Gp (F := F) d) (FINof fun d => StableHlo.after ops3 (W6 d)) (u₀ (F := F))
    (sep_elim_left.trans (hu₀ Py hx))
    (fun κ d => hmain_of m g Py pdats R0 R1 (FINof fun d => StableHlo.after ops3 (W6 d)) W2 W4 W6 Keep κ d
      (hpre0 d) (hpost0 d) (hst d) (hdn d) (hpre1 d) (hpost1 d) .rfl)
    (fun d s' => ∀ b ∈ UC, s'.mem.mem (d, b) = StableHlo.after ops3 (W6 d) b)
    (fun d s' => hfin (fun d => StableHlo.after ops3 (W6 d)) d s')
    _ (fun _ h => h) hheld

end Main

end Cert.KernelIdeal.Sc.Launch

end
-- ==== Proof.TileDefs.lean ====
/-
  The SparseCore kernel of the one call, as the launch theorem's handshakes see it: the places, the shares of the three
  arrays every vector subcore reads, the 160 blocks of 4000 pairs the two result columns are written in, the values
  written, and the record of what the handshakes carry.

  Vector subcore (c, s) of the grid [2, 16] is worker 2 s + c; it owns the pairs 20000 (2 s + c) + 4000 r + [0, 4000)
  for r = 0..4. Pair p's first result is the sum of the table's words 4 a and 4 b + 2, its second of the words
  4 a + 1 and 4 b + 3, where a and b are the pair's two index words.
-/
import proofs.«208457_g31284541784245_cont_9to1_2229_14_alg».proof.Proof.ScBase
import Idealize.ShloMosaic.Lib.ValueIdx

noncomputable section

namespace Cert.KernelIdeal.Sc.Tile

open Cert.KernelIdeal Cert.KernelIdeal.Gen Cert.KernelIdeal.Sc

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Transfers (shareTok shareDrop pointsTo_toks_split pointsTo_toks_join)

variable {F : FTy → Type}

/-! ## The five arrays of the call, as the TensorCore names them -/

abbrev tLoc (d : Dev nD) : Loc nD τ sig := (SparseCore.T d).loc main_v9
abbrev aLoc (d : Dev nD) : Loc nD τ sig := (SparseCore.T d).loc main_v11
abbrev bLoc (d : Dev nD) : Loc nD τ sig := (SparseCore.T d).loc main_v13
abbrev yLoc (d : Dev nD) : Loc nD τ sig := (SparseCore.T d).loc main_v14_0
abbrev zLoc (d : Dev nD) : Loc nD τ sig := (SparseCore.T d).loc main_v14_1

/-! ## The values written -/

/-- The table's index at a natural-number position (wrapping at the table's length; the positions read are below it). -/
def tabIx (n : ℕ) : S40000.Idx := Idealize.ShloMosaic.ValueIdx.ix1 (⟨n % 40000, Nat.mod_lt _ (by decide)⟩ : Fin 40000)

theorem tabIx_val {n : ℕ} (h : n < 40000) : ((tabIx n) 0).val = n := by
  show n % 40000 = n
  exact Nat.mod_eq_of_lt h

/-- The first result column: pair `p` gets the table's word `4 a` plus its word `4 b + 2`. -/
def z0Of [FloatOps F] (TAB : Vec F S40000 .f32) (A B : IVec S640000 32) : Vec F S640000 .f32 :=
  fun p => FloatOps.addf (φ := .f32) (TAB (tabIx (4 * (A p).toNat))) (TAB (tabIx (4 * (B p).toNat + 2)))
/-- The second result column: pair `p` gets the table's word `4 a + 1` plus its word `4 b + 3`. -/
def z1Of [FloatOps F] (TAB : Vec F S40000 .f32) (A B : IVec S640000 32) : Vec F S640000 .f32 :=
  fun p => FloatOps.addf (φ := .f32) (TAB (tabIx (4 * (A p).toNat + 1))) (TAB (tabIx (4 * (B p).toNat + 3)))

/-! ## The blocks of the result columns -/

/-- Where block `r` of vector subcore `(c, s)` starts. -/
def chunkOff (c : Fin 2) (s : Fin 16) (r : Fin 5) : Fin 1 → ℕ := ![40000 * s.val + 20000 * c.val + 4000 * r.val]
theorem chunk_inb (c : Fin 2) (s : Fin 16) (r : Fin 5) : ∀ a, chunkOff c s r a + S4000.size a ≤ S640000.size a := by
  intro a; obtain rfl : a = 0 := Subsingleton.elim _ _
  show 40000 * s.val + 20000 * c.val + 4000 * r.val + 4000 ≤ 640000
  omega
abbrev chunkRect (c : Fin 2) (s : Fin 16) (r : Fin 5) : Rect S640000 := Rect.unit (s := S640000) (chunkOff c s r) S4000.size (chunk_inb c s r)
/-- The pairs of block `r` of vector subcore `(c, s)`. -/
abbrev chunk (c : Fin 2) (s : Fin 16) (r : Fin 5) : Finset S640000.Idx := (chunkRect c s r).set

theorem mem_chunk {c : Fin 2} {s : Fin 16} {r : Fin 5} {p : S640000.Idx} :
    p ∈ chunk c s r ↔ 40000 * s.val + 20000 * c.val + 4000 * r.val ≤ (p 0).val ∧ (p 0).val < 40000 * s.val + 20000 * c.val + 4000 * r.val + 4000 := by
  unfold chunk chunkRect
  rw [Rect.mem_set_unit]
  constructor
  · intro h; exact h 0
  · intro h a; obtain rfl : a = 0 := Subsingleton.elim _ _; exact h

/-! ## What the handshakes carry -/

section Pay

variable [FloatOps F]
variable (TAB : (d : Dev nD) → Buf (Elt F) (tLoc d)) (IA : (d : Dev nD) → Buf (Elt F) (aLoc d)) (IB : (d : Dev nD) → Buf (Elt F) (bLoc d))

/-- The share of the read arrays a SparseCore is handed, and a vector subcore of it. -/
abbrev qC (c : Fin 2) : PosShare TreeShare := shareTok fullShare 2 c
abbrev qT (c : Fin 2) (s : Fin 16) : PosShare TreeShare := shareTok (qC c) 16 s

/-- The two result columns after the call. -/
def Z0 (d : Dev nD) : Buf (Elt F) (yLoc d) := z0Of (F := F) (TAB d) (IA d) (IB d)
def Z1 (d : Dev nD) : Buf (Elt F) (zLoc d) := z1Of (F := F) (TAB d) (IA d) (IB d)

/-- The table and the two index arrays, whole, at share `q`. -/
abbrev rd (d : Dev nD) (q : PosShare TreeShare) : sProp (MM F) :=
  iprop((tLoc d ↦{q} TAB d) ∗ (aLoc d ↦{q} IA d) ∗ (bLoc d ↦{q} IB d))
/-- A vector subcore's five blocks of each result column: at some contents; at the values. -/
abbrev outIn (d : Dev nD) (c : Fin 2) (s : Fin 16) : sProp (MM F) :=
  iprop((bigSep Finset.univ fun r : Fin 5 => iprop(∃ f, yLoc d ↦[chunk c s r]{fullShare} f))
    ∗ (bigSep Finset.univ fun r : Fin 5 => iprop(∃ f, zLoc d ↦[chunk c s r]{fullShare} f)))
abbrev outDn (d : Dev nD) (c : Fin 2) (s : Fin 16) : sProp (MM F) :=
  iprop((bigSep Finset.univ fun r : Fin 5 => yLoc d ↦[chunk c s r]{fullShare} Z0 TAB IA IB d)
    ∗ (bigSep Finset.univ fun r : Fin 5 => zLoc d ↦[chunk c s r]{fullShare} Z1 TAB IA IB d))

/-- The one call: SparseCore `c` is handed a share of the table and of the two index arrays and its sixteen vector
    subcores' blocks of the result columns, and hands back the shares and the blocks at the values; a vector subcore
    likewise, its own share and its own blocks. Nothing is dealt at the launch. -/
def P : (K (F := F)).Pay (nD := nD) (Val := Elt F) (Name := ℕ) (U := UU) where
  st := fun q d c => match q with
    | 0 => iprop(rd TAB IA IB d (qC (Fin.cast nCore_zero c)) ∗ bigSep Finset.univ fun s : Fin 16 => outIn d (Fin.cast nCore_zero c) s)
  dn := fun q d c => match q with
    | 0 => iprop(rd TAB IA IB d (qC (Fin.cast nCore_zero c)) ∗ bigSep Finset.univ fun s : Fin 16 => outDn TAB IA IB d (Fin.cast nCore_zero c) s)
  go := fun q d c i => match q with
    | 0 => iprop(rd TAB IA IB d (qT (Fin.cast nCore_zero c) (Fin.cast nSub_zero i)) ∗ outIn d (Fin.cast nCore_zero c) (Fin.cast nSub_zero i))
  td := fun q d c i => match q with
    | 0 => iprop(rd TAB IA IB d (qT (Fin.cast nCore_zero c) (Fin.cast nSub_zero i)) ∗ outDn TAB IA IB d (Fin.cast nCore_zero c) (Fin.cast nSub_zero i))
  x := fun _ _ => iprop(emp)

instance P_storable : (P (F := F) TAB IA IB).IsStorable where
  st q d c := match q with
    | 0 => (inferInstance : BI.Storable (upEmb : UEmb _ (MM F))
        iprop(rd TAB IA IB d (qC (Fin.cast nCore_zero c)) ∗ bigSep Finset.univ fun s : Fin 16 => outIn d (Fin.cast nCore_zero c) s))
  dn q d c := match q with
    | 0 => (inferInstance : BI.Storable (upEmb : UEmb _ (MM F))
        iprop(rd TAB IA IB d (qC (Fin.cast nCore_zero c)) ∗ bigSep Finset.univ fun s : Fin 16 => outDn TAB IA IB d (Fin.cast nCore_zero c) s))
  go q d c i := match q with
    | 0 => (inferInstance : BI.Storable (upEmb : UEmb _ (MM F))
        iprop(rd TAB IA IB d (qT (Fin.cast nCore_zero c) (Fin.cast nSub_zero i)) ∗ outIn d (Fin.cast nCore_zero c) (Fin.cast nSub_zero i)))
  td q d c i := match q with
    | 0 => (inferInstance : BI.Storable (upEmb : UEmb _ (MM F))
        iprop(rd TAB IA IB d (qT (Fin.cast nCore_zero c) (Fin.cast nSub_zero i)) ∗ outDn TAB IA IB d (Fin.cast nCore_zero c) (Fin.cast nSub_zero i)))

/-- What the proof asks of the two index arrays: every word names a node. -/
def IdxOK : Prop := ∀ (d : Dev nD) (p : S640000.Idx), ((IA d : IVec S640000 32) p).toNat < 10000 ∧ ((IB d : IVec S640000 32) p).toNat < 10000

omit [FloatOps F] in
theorem bigSep_emp' {I : Type} (s : Finset I) : (bigSep s fun _ => iprop(emp)) = (iprop(emp) : sProp (MM F)) := bigSep_emp_const s

/-- Nothing is dealt at the launch for this kernel. -/
theorem Px_emp : (bigSep Finset.univ fun thr : Thread nD τ => bigSep Finset.univ fun q : Fin 1 => (P (F := F) TAB IA IB).x q thr) = (iprop(emp) : sProp (MM F)) := by
  show (bigSep Finset.univ fun _ : Thread nD τ => bigSep Finset.univ fun _ : Fin 1 => (iprop(emp) : sProp (MM F))) = _
  rw [bigSep_congr fun _ _ => bigSep_emp' _, bigSep_emp']

end Pay

end Cert.KernelIdeal.Sc.Tile

end
-- ==== Proof.MlpDat.lean ====
/-
  The dense layers' call (pipeline 0) as a kernel region, first half: what each window's staging buffer holds at a
  grid point, the body's triple, the proof data and the body obligation.

  The call has ten grid points. At point t the first window stages rows 1000 t .. 1000 t + 999 of the node
  features; the six parameter windows (two weight matrices and their bias rows, the classifier laid side by side,
  its bias row) have one block each, staged once; the output window receives 1000 rows of four columns and is
  written back at every point. The body loads every staged block whole, computes one value of the output block
  (`k0_pay1`: three matrix products into zero accumulators, two rectifiers, three bias additions) and stores it
  whole. So after the body the output's staging buffer holds that value of the seven staged blocks and the inputs'
  buffers hold what they held.

  The core may owe units to other threads while the region runs: the tallies `O` and the bound `B` on its recorded
  pairs are parameters, and the body, which waits on nothing and signals nothing, hands both back unchanged.
-/
import proofs.«208457_g31284541784245_cont_9to1_2229_14_alg».proof.Proof.ScBase
import proofs.«208457_g31284541784245_cont_9to1_2229_14_alg».proof.Proof.Gen.KernelIdeal.Launch
import proofs.«208457_g31284541784245_cont_9to1_2229_14_alg».proof.Proof.Gen.KernelIdeal.Skeleton
import proofs.«208457_g31284541784245_cont_9to1_2229_14_alg».proof.Proof.Gen.KernelIdeal.Points

import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Sc.Mlp

open Cert.KernelIdeal Cert.KernelIdeal.Gen
open Idealize.ShloMosaic Idealize.ShloMosaic.TcCoe Idealize.ShloMosaic.Tactic
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MM F

/-- The class invariant at the index type of this certificate: the core's scoped buffers that are no staging buffer
    of the call, at some contents each, and its generator register at some state. -/
def ΦA0 (c : Dev nD) : sProp 𝕄 :=
  iprop(Pipeline.scopedRest (Ix := HIx 1) (Name := ℕ) (U := UU) (Lvl := ℕ) (Val := Elt F) spec0 c ∗ ∃ r, prngReg c r)

section Region
-- the TensorCore's buffer contents when the region is entered, what it owes and the bound on its recorded pairs
variable (V : (c : Dev nD) → (b : Ref sig .tc) → Buf (Elt F) ((c : Thread nD τ).loc b))
  (O : Dev nD → CellTallies nD τ sig (HIx 1)) (B : Dev nD → Set (SemLoc sig × HIx 1))

/-! ## The windows' blocks -/

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Input window 0's current staging buffer holds its block at every point, fetched there or not, for any proof
    data whose array is `V`'s and whose body leaves the block in place: unfetched, the block index has not moved. -/
theorem before0_of {c : Dev nD} (dat : Dat τ (Elt F) (HIx 1) ℕ UU ℕ cfg0 c) (hA : dat.A 0 = V c (Pipeline.arrRef spec0 0))
    (hafter : ∀ t, dat.after 0 t = iblk V c 0 t) (t : Fin cfg0.N) (d) : dat.before 0 t d = iblk V c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)

/-- Input window 1's current staging buffer holds its block at every point, fetched there or not, for any proof
    data whose array is `V`'s and whose body leaves the block in place: unfetched, the block index has not moved. -/
theorem before1_of {c : Dev nD} (dat : Dat τ (Elt F) (HIx 1) ℕ UU ℕ cfg0 c) (hA : dat.A 1 = V c (Pipeline.arrRef spec0 1))
    (hafter : ∀ t, dat.after 1 t = iblk V c 1 t) (t : Fin cfg0.N) (d) : dat.before 1 t d = iblk V c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)

/-- Input window 2's current staging buffer holds its block at every point, fetched there or not, for any proof
    data whose array is `V`'s and whose body leaves the block in place: unfetched, the block index has not moved. -/
theorem before2_of {c : Dev nD} (dat : Dat τ (Elt F) (HIx 1) ℕ UU ℕ cfg0 c) (hA : dat.A 2 = V c (Pipeline.arrRef spec0 2))
    (hafter : ∀ t, dat.after 2 t = iblk V c 2 t) (t : Fin cfg0.N) (d) : dat.before 2 t d = iblk V c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)

/-- Input window 3's current staging buffer holds its block at every point, fetched there or not, for any proof
    data whose array is `V`'s and whose body leaves the block in place: unfetched, the block index has not moved. -/
theorem before3_of {c : Dev nD} (dat : Dat τ (Elt F) (HIx 1) ℕ UU ℕ cfg0 c) (hA : dat.A 3 = V c (Pipeline.arrRef spec0 3))
    (hafter : ∀ t, dat.after 3 t = iblk V c 3 t) (t : Fin cfg0.N) (d) : dat.before 3 t d = iblk V c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)

/-- Input window 4's current staging buffer holds its block at every point, fetched there or not, for any proof
    data whose array is `V`'s and whose body leaves the block in place: unfetched, the block index has not moved. -/
theorem before4_of {c : Dev nD} (dat : Dat τ (Elt F) (HIx 1) ℕ UU ℕ cfg0 c) (hA : dat.A 4 = V c (Pipeline.arrRef spec0 4))
    (hafter : ∀ t, dat.after 4 t = iblk V c 4 t) (t : Fin cfg0.N) (d) : dat.before 4 t d = iblk V c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)

/-- Input window 5's current staging buffer holds its block at every point, fetched there or not, for any proof
    data whose array is `V`'s and whose body leaves the block in place: unfetched, the block index has not moved. -/
theorem before5_of {c : Dev nD} (dat : Dat τ (Elt F) (HIx 1) ℕ UU ℕ cfg0 c) (hA : dat.A 5 = V c (Pipeline.arrRef spec0 5))
    (hafter : ∀ t, dat.after 5 t = iblk V c 5 t) (t : Fin cfg0.N) (d) : dat.before 5 t d = iblk V c 5 t :=
  (dat.before_in_eq_fetched 5 rfl (fun _ => rfl) (fun _ _ _ => rfl) (fun t => by rw [hafter]; unfold Dat.blockOf iblk; rw [hA]; try rfl) t d).trans
    (by unfold Dat.fetched Dat.blockOf iblk; rw [hA]; try rfl)

/-- Input window 6's current staging buffer holds its block at every point, fetched there or not, for any proof
    data whose array is `V`'s and whose body leaves the block in place: unfetched, the block index has not moved. -/
theorem before6_of {c : Dev nD} (dat : Dat τ (Elt F) (HIx 1) ℕ UU ℕ cfg0 c) (hA : dat.A 6 = V c (Pipeline.arrRef spec0 6))
    (hafter : ∀ t, dat.after 6 t = iblk V c 6 t) (t : Fin cfg0.N) (d) : dat.before 6 t d = iblk V c 6 t :=
  (dat.before_in_eq_fetched 6 rfl (fun _ => rfl) (fun _ _ _ => rfl) (fun t => by rw [hafter]; unfold Dat.blockOf iblk; rw [hA]; try rfl) t d).trans
    (by unfold Dat.fetched Dat.blockOf iblk; rw [hA]; try rfl)

/-! ## The body's accesses: each staging buffer whole -/

abbrev rS1000x768 : Rect S1000x768 := Rect.unit (s := S1000x768) ![0, 0] S1000x768.size inb_S1000x768_S1000x768_0_0
abbrev rS768x64 : Rect S768x64 := Rect.unit (s := S768x64) ![0, 0] S768x64.size inb_S768x64_S768x64_0_0
abbrev rS1x64 : Rect S1x64 := Rect.unit (s := S1x64) ![0, 0] S1x64.size inb_S1x64_S1x64_0_0
abbrev rS64x64 : Rect S64x64 := Rect.unit (s := S64x64) ![0, 0] S64x64.size inb_S64x64_S64x64_0_0
abbrev rS64x4 : Rect S64x4 := Rect.unit (s := S64x4) ![0, 0] S64x4.size inb_S64x4_S64x4_0_0
abbrev rS1x4 : Rect S1x4 := Rect.unit (s := S1x4) ![0, 0] S1x4.size inb_S1x4_S1x4_0_0
abbrev rS1000x4 : Rect S1000x4 := Rect.unit (s := S1000x4) ![0, 0] S1000x4.size inb_S1000x4_S1000x4_0_0

/-! ## What the body leaves in the output's staging buffer -/

/-- The output's staging buffer after the body, from the seven staged blocks: its one store, of the whole buffer. -/
def out7 (x0 : Vec F S1000x768 .f32) (x1 : Vec F S768x64 .f32) (x2 : Vec F S1x64 .f32) (x3 : Vec F S64x64 .f32) (x4 : Vec F S1x64 .f32) (x5 : Vec F S64x4 .f32) (x6 : Vec F S1x4 .f32) : Vec F S1000x4 .f32 :=
  View.canon [⟨rS1000x4, k0_pay1 (View.ld x0 rS1000x768) (View.ld x1 rS768x64) (View.ld x2 rS1x64) (View.ld x3 rS64x64) (View.ld x4 rS1x64) (View.ld x5 rS64x4) (View.ld x6 rS1x4)⟩]

/-- The one store covers the buffer. -/
theorem cover7 (p0 : Vec F S1000x4 .f32) (y : S1000x4.Idx) :
    ∃ pc ∈ ([⟨rS1000x4, p0⟩] : List (View.Piece (Elt F) S1000x4 .f32)), y ∈ pc.1.set :=
  View.cover_of_tiled [⟨rS1000x4, p0⟩] S1000x4.size (by rfl) y

/-! ## The body's triple -/

set_option maxHeartbeats 1000000 in
/-- The body on whole staging memrefs, the inputs' at contents `x0 .. x6` and the output's at anything, runs to the
    continuation holding the inputs' as they were and the output's at `out7` of them. -/
theorem sound_kernel (c : Dev nD) (E : Set ℕ) (i : grid0.Coords) (a0 : Memref sig .tc .vmem S1000x768 .f32) (h0 : a0.IsWhole) (a1 : Memref sig .tc .vmem S768x64 .f32) (h1 : a1.IsWhole) (a2 : Memref sig .tc .vmem S1x64 .f32) (h2 : a2.IsWhole) (a3 : Memref sig .tc .vmem S64x64 .f32) (h3 : a3.IsWhole) (a4 : Memref sig .tc .vmem S1x64 .f32) (h4 : a4.IsWhole) (a5 : Memref sig .tc .vmem S64x4 .f32) (h5 : a5.IsWhole) (a6 : Memref sig .tc .vmem S1x4 .f32) (h6 : a6.IsWhole) (a7 : Memref sig .tc .vmem S1000x4 .f32) (h7 : a7.IsWhole)
    (x0 : Vec F S1000x768 .f32) (x1 : Vec F S768x64 .f32) (x2 : Vec F S1x64 .f32) (x3 : Vec F S64x64 .f32) (x4 : Vec F S1x64 .f32) (x5 : Vec F S64x4 .f32) (x6 : Vec F S1x4 .f32) (K : PUnit → sProp 𝕄) :
    iprop(owns (c : Thread nD τ) a0 fullShare x0 ∗ owns (c : Thread nD τ) a1 fullShare x1 ∗ owns (c : Thread nD τ) a2 fullShare x2 ∗ owns (c : Thread nD τ) a3 fullShare x3 ∗ owns (c : Thread nD τ) a4 fullShare x4 ∗ owns (c : Thread nD τ) a5 fullShare x5 ∗ owns (c : Thread nD τ) a6 fullShare x6 ∗ (∃ d, owns (c : Thread nD τ) a7 fullShare d)
        ∗ (iprop(owns (c : Thread nD τ) a0 fullShare x0 ∗ owns (c : Thread nD τ) a1 fullShare x1 ∗ owns (c : Thread nD τ) a2 fullShare x2 ∗ owns (c : Thread nD τ) a3 fullShare x3 ∗ owns (c : Thread nD τ) a4 fullShare x4 ∗ owns (c : Thread nD τ) a5 fullShare x5 ∗ owns (c : Thread nD τ) a6 fullShare x6 ∗ owns (c : Thread nD τ) a7 fullShare (out7 x0 x1 x2 x3 x4 x5 x6)) -∗ K ⟨⟩))
      ⊢ wp frame (wpE (defs₀ (F := F)) Variants.none c none) E (cc0__mlp_body i a0 h0 a1 h1 a2 h2 a3 h3 a4 h4 a5 h5 a6 h6 a7 h7) K := by
  simp only [cc0__mlp_body_eq_skeleton]; unfold cc0__mlp_body_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, Hk⟩
  subst hf0; subst hf1; subst hf2; subst hf3; subst hf4; subst hf5; subst hf6
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  iexists _; isplitr
  swap; · iexact H7
  ipureintro
  exact View.read_writes_eq_canon _ _ _ (cover7 _)

/-! ## The proof data -/

/-- The proof data of the call on core `c`: the arrays as the region finds them; after the body at point `t` each
    input's buffer at its block and the output's at `out7` of the input blocks; the class invariant; full shares;
    the core owing `O c` throughout, its recorded pairs within `B c`. -/
def dat0 (c : Dev nD) : Dat τ (Elt F) (HIx 1) ℕ UU ℕ cfg0 c where
  A w := V c (Pipeline.arrRef spec0 w)
  after w t := match w with
    | ⟨0, _⟩ => iblk V c 0 t
    | ⟨1, _⟩ => iblk V c 1 t
    | ⟨2, _⟩ => iblk V c 2 t
    | ⟨3, _⟩ => iblk V c 3 t
    | ⟨4, _⟩ => iblk V c 4 t
    | ⟨5, _⟩ => iblk V c 5 t
    | ⟨6, _⟩ => iblk V c 6 t
    | ⟨7, _⟩ => out7 (iblk V c 0 t) (iblk V c 1 t) (iblk V c 2 t) (iblk V c 3 t) (iblk V c 4 t) (iblk V c 5 t) (iblk V c 6 t)
  Φ _ := ΦA0 c
  q _ := fullShare
  owed _ := O c
  recorded _ := B c

theorem A_eq (c : Dev nD) (w : Fin cfg0.W) : (dat0 V O B c).A w = V c (Pipeline.arrRef spec0 w) := by
  dsimp only [dat0]

theorem after0 (c : Dev nD) (t : Fin cfg0.N) : (dat0 V O B c).after 0 t = iblk V c 0 t := by dsimp only [dat0]
theorem after1 (c : Dev nD) (t : Fin cfg0.N) : (dat0 V O B c).after 1 t = iblk V c 1 t := by dsimp only [dat0]
theorem after2 (c : Dev nD) (t : Fin cfg0.N) : (dat0 V O B c).after 2 t = iblk V c 2 t := by dsimp only [dat0]
theorem after3 (c : Dev nD) (t : Fin cfg0.N) : (dat0 V O B c).after 3 t = iblk V c 3 t := by dsimp only [dat0]
theorem after4 (c : Dev nD) (t : Fin cfg0.N) : (dat0 V O B c).after 4 t = iblk V c 4 t := by dsimp only [dat0]
theorem after5 (c : Dev nD) (t : Fin cfg0.N) : (dat0 V O B c).after 5 t = iblk V c 5 t := by dsimp only [dat0]
theorem after6 (c : Dev nD) (t : Fin cfg0.N) : (dat0 V O B c).after 6 t = iblk V c 6 t := by dsimp only [dat0]
theorem after7 (c : Dev nD) (t : Fin cfg0.N) : (dat0 V O B c).after 7 t = out7 (iblk V c 0 t) (iblk V c 1 t) (iblk V c 2 t) (iblk V c 3 t) (iblk V c 4 t) (iblk V c 5 t) (iblk V c 6 t) := by dsimp only [dat0]

theorem before0 (c : Dev nD) (t : Fin cfg0.N) (d) : (dat0 V O B c).before 0 t d = iblk V c 0 t :=
  before0_of V (dat0 V O B c) (A_eq V O B c 0) (after0 V O B c) t d
theorem before1 (c : Dev nD) (t : Fin cfg0.N) (d) : (dat0 V O B c).before 1 t d = iblk V c 1 t :=
  before1_of V (dat0 V O B c) (A_eq V O B c 1) (after1 V O B c) t d
theorem before2 (c : Dev nD) (t : Fin cfg0.N) (d) : (dat0 V O B c).before 2 t d = iblk V c 2 t :=
  before2_of V (dat0 V O B c) (A_eq V O B c 2) (after2 V O B c) t d
theorem before3 (c : Dev nD) (t : Fin cfg0.N) (d) : (dat0 V O B c).before 3 t d = iblk V c 3 t :=
  before3_of V (dat0 V O B c) (A_eq V O B c 3) (after3 V O B c) t d
theorem before4 (c : Dev nD) (t : Fin cfg0.N) (d) : (dat0 V O B c).before 4 t d = iblk V c 4 t :=
  before4_of V (dat0 V O B c) (A_eq V O B c 4) (after4 V O B c) t d
theorem before5 (c : Dev nD) (t : Fin cfg0.N) (d) : (dat0 V O B c).before 5 t d = iblk V c 5 t :=
  before5_of V (dat0 V O B c) (A_eq V O B c 5) (after5 V O B c) t d
theorem before6 (c : Dev nD) (t : Fin cfg0.N) (d) : (dat0 V O B c).before 6 t d = iblk V c 6 t :=
  before6_of V (dat0 V O B c) (A_eq V O B c 6) (after6 V O B c) t d

/-! ## The body obligation, at a generic point -/

/-- What the body is called with at point `t`, the windows one by one, -/
def bodyPre (c : Dev nD) (t : Fin cfg0.N) : sProp 𝕄 :=
  iprop((dat0 V O B c).Φ t.castSucc ∗ (dat0 V O B c).owesAt none t.castSucc
    ∗ (∃ d, owns (c : Thread nD τ) (st0_0 t) fullShare ((dat0 V O B c).before 0 t d))
    ∗ (∃ d, owns (c : Thread nD τ) (st0_1 t) fullShare ((dat0 V O B c).before 1 t d))
    ∗ (∃ d, owns (c : Thread nD τ) (st0_2 t) fullShare ((dat0 V O B c).before 2 t d))
    ∗ (∃ d, owns (c : Thread nD τ) (st0_3 t) fullShare ((dat0 V O B c).before 3 t d))
    ∗ (∃ d, owns (c : Thread nD τ) (st0_4 t) fullShare ((dat0 V O B c).before 4 t d))
    ∗ (∃ d, owns (c : Thread nD τ) (st0_5 t) fullShare ((dat0 V O B c).before 5 t d))
    ∗ (∃ d, owns (c : Thread nD τ) (st0_6 t) fullShare ((dat0 V O B c).before 6 t d))
    ∗ (∃ d, owns (c : Thread nD τ) (st0_7 t) fullShare ((dat0 V O B c).before 7 t d)))

/-- and what it returns. -/
def bodyPost (c : Dev nD) (t : Fin cfg0.N) : sProp 𝕄 :=
  iprop((dat0 V O B c).Φ t.succ ∗ (dat0 V O B c).owesAt none t.succ
    ∗ owns (c : Thread nD τ) (st0_0 t) fullShare ((dat0 V O B c).after 0 t)
    ∗ owns (c : Thread nD τ) (st0_1 t) fullShare ((dat0 V O B c).after 1 t)
    ∗ owns (c : Thread nD τ) (st0_2 t) fullShare ((dat0 V O B c).after 2 t)
    ∗ owns (c : Thread nD τ) (st0_3 t) fullShare ((dat0 V O B c).after 3 t)
    ∗ owns (c : Thread nD τ) (st0_4 t) fullShare ((dat0 V O B c).after 4 t)
    ∗ owns (c : Thread nD τ) (st0_5 t) fullShare ((dat0 V O B c).after 5 t)
    ∗ owns (c : Thread nD τ) (st0_6 t) fullShare ((dat0 V O B c).after 6 t)
    ∗ owns (c : Thread nD τ) (st0_7 t) fullShare ((dat0 V O B c).after 7 t))

/-- The body at any point: the inputs' memrefs hold their blocks, so the triple applies; the invariant and what the
    core owes pass through unread. -/
theorem sound_body (c : Dev nD) (t : Fin cfg0.N) :
    bodyPre V O B c t ⊢ wp frame (wpE (defs₀ (F := F)) Variants.none c none) Set.univ (bodyAt0 t) (fun _ => bodyPost V O B c t) := by
  unfold bodyPre bodyPost bodyAt0
  simp only [before0, before1, before2, before3, before4, before5, before6]
  rw [show (dat0 V O B c).Φ t.succ = (dat0 V O B c).Φ t.castSucc from rfl,
    show (dat0 V O B c).owesAt none t.succ = (dat0 V O B c).owesAt none t.castSucc from rfl,
    after0, after1, after2, after3, after4, after5, after6, after7]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩⟩
  iapply (sound_kernel c Set.univ _ _ _ _ _ _ _ _ _ _ _ _ _ _ _ _ _ (iblk V c 0 t) (iblk V c 1 t) (iblk V c 2 t) (iblk V c 3 t) (iblk V c 4 t) (iblk V c 5 t) (iblk V c 6 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexists _; iexact H7
  iintro ⟨H0, H1, H2, H3, H4, H5, H6, H7⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  iexact H7

/-- The library's body obligation, at every point. -/
theorem body_obligation (c : Dev nD) : BodyObligation (dat0 (F := F) V O B c) (defs₀ (F := F)) Variants.none (none : HIx 1) Set.univ := fun t => by
  rw [bigSep_W0, bigSep_W0]
  exact sound_body V O B c t

end Region

end Cert.KernelIdeal.Sc.Mlp

end
-- ==== Proof.LossBody.lean ====
/-
  The loss call's body (pipeline 1), run once per control case.

  The body loads the three staged blocks whole (two logit columns and the labels, 1000 x 128 each), and keeps a
  running sum in a one-word scratch: at the first grid point it zeroes the word; at every point it adds to the word
  the sum over the block of the cross entropy of the two logits at the label (`k2_pay1`: the block's 128000 terms
  reduced to one number and added to the word read back); at the last point it divides the word by the number of
  pairs and stores the quotient into the one-element output buffer (`k2_pay2`). Which of the two conditional
  stores run is decided by the grid coordinate alone, so the body has three cases: the first point, a middle point,
  the last point. Each is stated with the scratch word and the output buffer before and after.
-/
import proofs.«208457_g31284541784245_cont_9to1_2229_14_alg».proof.Proof.ScBase
import proofs.«208457_g31284541784245_cont_9to1_2229_14_alg».proof.Proof.Gen.KernelIdeal.Launch
import proofs.«208457_g31284541784245_cont_9to1_2229_14_alg».proof.Proof.Gen.KernelIdeal.Skeleton
import proofs.«208457_g31284541784245_cont_9to1_2229_14_alg».proof.Proof.Gen.KernelIdeal.Points
import Idealize.ShloMosaic.Lib.Pipeline.Value
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Sc.Loss

open Cert.KernelIdeal Cert.KernelIdeal.Gen
open Idealize.ShloMosaic Idealize.ShloMosaic.TcCoe Idealize.ShloMosaic.Tactic
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MM F

/-- The offsets of the body's accesses are zeros, however spelt. -/
theorem hz1 : (![0] : Fin 1 → Nat) = fun _ => 0 := funext fun a => by fin_cases a; rfl
theorem hz2 : (![0, 0] : Fin 2 → Nat) = fun _ => 0 := funext fun a => by fin_cases a <;> rfl

abbrev rB : Rect S1000x128 := Rect.unit (s := S1000x128) ![0, 0] S1000x128.size inb_S1000x128_S1000x128_0_0
abbrev rS : Rect S1 := Rect.unit (s := S1) ![0] S1.size inb_S1_S1_0
abbrev rO : Rect S1x1 := Rect.unit (s := S1x1) ![0, 0] S1x1.size inb_S1x1_S1x1_0_0

/-- The one index of a one-word buffer. -/
abbrev i0 : S1.Idx := Shape.Idx.first (s := S1) (numel1_S1.symm ▸ Nat.one_pos)

/-- A one-word buffer has one index. -/
theorem idx1_eq (j j' : S1.Idx) : j = j' := funext fun a => Fin.ext (by
  have h1 : (j a).val < 1 := by have := (j a).isLt; fin_cases a; exact this
  have h2 : (j' a).val < 1 := by have := (j' a).isLt; fin_cases a; exact this
  omega)

/-- The first conditional's condition, from the grid coordinate: the point is the first. -/
abbrev cond1 (i : grid2.Coords) : Prop := (Scalar.cmpi .ne (Scalar.extui (Scalar.cmpi .eq (BitVec.ofNat 32 (i 0).val) 0#32)) 0#32) = 1#1
/-- The second's: the point is the last. -/
abbrev cond2 (i : grid2.Coords) : Prop := k2_cond2 i = 1#1

set_option maxHeartbeats 1000000 in
/-- A MIDDLE point (neither conditional runs): the scratch word `s` becomes the block's sum added to it; the output buffer is not touched. -/
theorem sound_mid (c : Dev nD) (E : Set ℕ) (i : grid2.Coords) (a0 : Memref sig .tc .vmem S1000x128 .f32) (h0 : a0.IsWhole) (a1 : Memref sig .tc .vmem S1000x128 .f32) (h1 : a1.IsWhole) (a2 : Memref sig .tc .vmem S1000x128 .i32) (h2 : a2.IsWhole) (a3 : Memref sig .tc .vmem S1x1 .f32) (h3 : a3.IsWhole) (a4 : Memref sig .tc .smem S1 .f32) (h4 : a4.IsWhole)
    (x0 x1 : Vec F S1000x128 .f32) (x2 : Vec F S1000x128 .i32) (xo : Vec F S1x1 .f32) (s : Vec F S1 .f32) (hc1 : ¬cond1 i) (hc2 : ¬cond2 i)
    (K : PUnit → sProp 𝕄) :
    iprop(owns (c : Thread nD τ) a0 fullShare x0 ∗ owns (c : Thread nD τ) a1 fullShare x1 ∗ owns (c : Thread nD τ) a2 fullShare x2
        ∗ owns (c : Thread nD τ) a3 fullShare xo ∗ owns (c : Thread nD τ) a4 fullShare s
        ∗ (iprop(owns (c : Thread nD τ) a0 fullShare x0 ∗ owns (c : Thread nD τ) a1 fullShare x1 ∗ owns (c : Thread nD τ) a2 fullShare x2
            ∗ owns (c : Thread nD τ) a3 fullShare xo ∗ owns (c : Thread nD τ) a4 fullShare (fun _ => k2_pay1 x0 x1 x2 (s i0))) -∗ K ⟨⟩))
      ⊢ wp frame (wpE (defs₀ (F := F)) Variants.none c none) E (cc2__loss_body i a0 h0 a1 h1 a2 h2 a3 h3 a4 h4) K := by
  simp only [cc2__loss_body_eq_skeleton]; unfold cc2__loss_body_skel
  unfold owns
  iintro ⟨⟨%f0, %hf0, H0⟩, ⟨%f1, %hf1, H1⟩, ⟨%f2, %hf2, H2⟩, ⟨%f3, %hf3, H3⟩, ⟨%f4, %hf4, H4⟩, Hk⟩
  obtain rfl := h0.eq_unread hf0; obtain rfl := h1.eq_unread hf1; obtain rfl := h2.eq_unread hf2
  obtain rfl := h3.eq_unread hf3; obtain rfl := h4.eq_unread hf4
  sl_exec (disch := first | exact hc1 | exact hc2)
  sl_step
  iapply Hk
  isplitl [H0]
  · iexists _; isplitr; · ipureintro; exact h0.read_unread _
    iexact H0
  isplitl [H1]
  · iexists _; isplitr; · ipureintro; exact h1.read_unread _
    iexact H1
  isplitl [H2]
  · iexists _; isplitr; · ipureintro; exact h2.read_unread _
    iexact H2
  isplitl [H3]
  · iexists _; isplitr; · ipureintro; exact h3.read_unread _
    iexact H3
  iexists _; isplitr
  swap; · iexact H4
  ipureintro
  rw [View.read_writes_eq_canon _ _ _ (fun y => ⟨_, List.mem_singleton_self _, View.mem_set_unit_zero hz1 inb_S1_S1_0 y⟩)]
  sl_unfold_run_names
  rw [View.canon_unit_zero hz1]
  simp only [View.readAt_eq_ld, h0.read_unread, h1.read_unread, h2.read_unread, h4.read_unread, View.ld_unit_zero (S := S1000x128) hz2]
  funext j
  exact congrArg (k2_pay1 x0 x1 x2) (congrArg s (idx1_eq _ _))

set_option maxHeartbeats 1000000 in
/-- The FIRST point (the first conditional runs): the scratch word, whatever it held, becomes the block's sum added to zero; the output buffer is not touched. -/
theorem sound_first (c : Dev nD) (E : Set ℕ) (i : grid2.Coords) (a0 : Memref sig .tc .vmem S1000x128 .f32) (h0 : a0.IsWhole) (a1 : Memref sig .tc .vmem S1000x128 .f32) (h1 : a1.IsWhole) (a2 : Memref sig .tc .vmem S1000x128 .i32) (h2 : a2.IsWhole) (a3 : Memref sig .tc .vmem S1x1 .f32) (h3 : a3.IsWhole) (a4 : Memref sig .tc .smem S1 .f32) (h4 : a4.IsWhole)
    (x0 x1 : Vec F S1000x128 .f32) (x2 : Vec F S1000x128 .i32) (xo : Vec F S1x1 .f32) (hc1 : cond1 i) (hc2 : ¬cond2 i)
    (K : PUnit → sProp 𝕄) :
    iprop(owns (c : Thread nD τ) a0 fullShare x0 ∗ owns (c : Thread nD τ) a1 fullShare x1 ∗ owns (c : Thread nD τ) a2 fullShare x2
        ∗ owns (c : Thread nD τ) a3 fullShare xo ∗ (∃ d, owns (c : Thread nD τ) a4 fullShare d)
        ∗ (iprop(owns (c : Thread nD τ) a0 fullShare x0 ∗ owns (c : Thread nD τ) a1 fullShare x1 ∗ owns (c : Thread nD τ) a2 fullShare x2
            ∗ owns (c : Thread nD τ) a3 fullShare xo ∗ owns (c : Thread nD τ) a4 fullShare (fun _ => k2_pay1 x0 x1 x2 (Scalar.ofBits .f32 0x00000000#32))) -∗ K ⟨⟩))
      ⊢ wp frame (wpE (defs₀ (F := F)) Variants.none c none) E (cc2__loss_body i a0 h0 a1 h1 a2 h2 a3 h3 a4 h4) K := by
  simp only [cc2__loss_body_eq_skeleton]; unfold cc2__loss_body_skel
  unfold owns
  iintro ⟨⟨%f0, %hf0, H0⟩, ⟨%f1, %hf1, H1⟩, ⟨%f2, %hf2, H2⟩, ⟨%f3, %hf3, H3⟩, ⟨%d4, %f4, -, H4⟩, Hk⟩
  obtain rfl := h0.eq_unread hf0; obtain rfl := h1.eq_unread hf1; obtain rfl := h2.eq_unread hf2
  obtain rfl := h3.eq_unread hf3
  sl_exec (disch := first | exact hc1 | exact hc2)
  sl_step
  iapply Hk
  isplitl [H0]
  · iexists _; isplitr; · ipureintro; exact h0.read_unread _
    iexact H0
  isplitl [H1]
  · iexists _; isplitr; · ipureintro; exact h1.read_unread _
    iexact H1
  isplitl [H2]
  · iexists _; isplitr; · ipureintro; exact h2.read_unread _
    iexact H2
  isplitl [H3]
  · iexists _; isplitr; · ipureintro; exact h3.read_unread _
    iexact H3
  iexists _; isplitr
  swap; · iexact H4
  ipureintro
  sl_unfold_run_names
  rw [View.read_writes_eq_canon _ _ _ (fun y => ⟨_, List.mem_cons.mpr (Or.inl rfl), View.mem_set_unit_zero hz1 inb_S1_S1_0 y⟩),
    View.canon_cons_unit_zero hz1]
  simp only [View.readAt_eq_ld, h0.read_unread, h1.read_unread, h2.read_unread, View.ld_unit_zero (S := S1000x128) hz2]
  rfl

set_option maxHeartbeats 1000000 in
/-- The LAST point (the second conditional runs): the scratch word `s` becomes the block's sum added to it, and the output buffer, whatever it held, that sum divided by the number of pairs. -/
theorem sound_last (c : Dev nD) (E : Set ℕ) (i : grid2.Coords) (a0 : Memref sig .tc .vmem S1000x128 .f32) (h0 : a0.IsWhole) (a1 : Memref sig .tc .vmem S1000x128 .f32) (h1 : a1.IsWhole) (a2 : Memref sig .tc .vmem S1000x128 .i32) (h2 : a2.IsWhole) (a3 : Memref sig .tc .vmem S1x1 .f32) (h3 : a3.IsWhole) (a4 : Memref sig .tc .smem S1 .f32) (h4 : a4.IsWhole)
    (x0 x1 : Vec F S1000x128 .f32) (x2 : Vec F S1000x128 .i32) (s : Vec F S1 .f32) (hc1 : ¬cond1 i) (hc2 : cond2 i)
    (K : PUnit → sProp 𝕄) :
    iprop(owns (c : Thread nD τ) a0 fullShare x0 ∗ owns (c : Thread nD τ) a1 fullShare x1 ∗ owns (c : Thread nD τ) a2 fullShare x2
        ∗ (∃ d, owns (c : Thread nD τ) a3 fullShare d) ∗ owns (c : Thread nD τ) a4 fullShare s
        ∗ (iprop(owns (c : Thread nD τ) a0 fullShare x0 ∗ owns (c : Thread nD τ) a1 fullShare x1 ∗ owns (c : Thread nD τ) a2 fullShare x2
            ∗ owns (c : Thread nD τ) a3 fullShare (k2_pay2 (k2_pay1 x0 x1 x2 (s i0))) ∗ owns (c : Thread nD τ) a4 fullShare (fun _ => k2_pay1 x0 x1 x2 (s i0))) -∗ K ⟨⟩))
      ⊢ wp frame (wpE (defs₀ (F := F)) Variants.none c none) E (cc2__loss_body i a0 h0 a1 h1 a2 h2 a3 h3 a4 h4) K := by
  simp only [cc2__loss_body_eq_skeleton]; unfold cc2__loss_body_skel
  unfold owns
  iintro ⟨⟨%f0, %hf0, H0⟩, ⟨%f1, %hf1, H1⟩, ⟨%f2, %hf2, H2⟩, ⟨%d3, %f3, -, H3⟩, ⟨%f4, %hf4, H4⟩, Hk⟩
  obtain rfl := h0.eq_unread hf0; obtain rfl := h1.eq_unread hf1; obtain rfl := h2.eq_unread hf2
  obtain rfl := h4.eq_unread hf4
  sl_exec (disch := first | exact hc1 | exact hc2)
  sl_step
  iapply Hk
  isplitl [H0]
  · iexists _; isplitr; · ipureintro; exact h0.read_unread _
    iexact H0
  isplitl [H1]
  · iexists _; isplitr; · ipureintro; exact h1.read_unread _
    iexact H1
  isplitl [H2]
  · iexists _; isplitr; · ipureintro; exact h2.read_unread _
    iexact H2
  isplitl [H3]
  · iexists _; isplitr
    swap; · iexact H3
    ipureintro
    sl_unfold_run_names
    rw [View.read_writes_eq_canon _ _ _ (fun y => ⟨_, List.mem_singleton_self _, View.mem_set_unit_zero hz2 inb_S1x1_S1x1_0_0 y⟩),
      View.canon_unit_zero hz2]
    simp only [View.readAt_eq_ld, h0.read_unread, h1.read_unread, h2.read_unread, h4.read_unread, View.ld_unit_zero (S := S1000x128) hz2]
    exact congrArg (fun z => k2_pay2 (k2_pay1 x0 x1 x2 z)) (congrArg s (idx1_eq _ _))
  iexists _; isplitr
  swap; · iexact H4
  ipureintro
  rw [View.read_writes_eq_canon _ _ _ (fun y => ⟨_, List.mem_singleton_self _, View.mem_set_unit_zero hz1 inb_S1_S1_0 y⟩)]
  sl_unfold_run_names
  rw [View.canon_unit_zero hz1]
  simp only [View.readAt_eq_ld, h0.read_unread, h1.read_unread, h2.read_unread, h4.read_unread, View.ld_unit_zero (S := S1000x128) hz2]
  funext j
  exact congrArg (k2_pay1 x0 x1 x2) (congrArg s (idx1_eq _ _))

end Cert.KernelIdeal.Sc.Loss

end
-- ==== Proof.LossDat.lean ====
/-
  The loss call (pipeline 1) as a kernel region, first half: the schedule of its two conditionals, the running
  sum its scratch word carries from point to point, the proof data and the body obligation.

  The call has five grid points. At point t the three input windows stage rows 1000 t .. 1000 t + 999 of the two
  logit columns and of the labels (each laid out 5000 x 128). After the body at point t the scratch word holds
  `acc t`: the block sums of points 0 .. t added up from zero in that order. The output window has one block of one
  element; the body stores into it at the last point only (the window is idle before, and written back after the
  last point only), and what it stores is `acc 4` divided by the number of pairs.

  What the core owes other threads, and the bound on its recorded pairs, are parameters the body hands back unchanged.
-/
import proofs.«208457_g31284541784245_cont_9to1_2229_14_alg».proof.Proof.ScBase
import proofs.«208457_g31284541784245_cont_9to1_2229_14_alg».proof.Proof.Gen.KernelIdeal.Launch
import proofs.«208457_g31284541784245_cont_9to1_2229_14_alg».proof.Proof.Gen.KernelIdeal.Skeleton
import proofs.«208457_g31284541784245_cont_9to1_2229_14_alg».proof.Proof.Gen.KernelIdeal.Points
import proofs.«208457_g31284541784245_cont_9to1_2229_14_alg».proof.Proof.LossBody
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Sc.Loss

open Cert.KernelIdeal Cert.KernelIdeal.Gen
open Idealize.ShloMosaic Idealize.ShloMosaic.TcCoe Idealize.ShloMosaic.Tactic
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MM F

/-! ## The schedule, decided over the grid -/

/-- The first conditional runs at the first point only, the second at the last only. -/
theorem hcond1 : ∀ t : Fin cfg2.N, cond1 (grid2.coords t) ↔ t.val = 0 :=
  (by decide +kernel : ∀ t : Fin grid2.N, cond1 (grid2.coords t) ↔ t.val = 0)
theorem hcond2 : ∀ t : Fin cfg2.N, cond2 (grid2.coords t) ↔ t.val = 4 :=
  (by decide +kernel : ∀ t : Fin grid2.N, cond2 (grid2.coords t) ↔ t.val = 4)
/-- The input windows are never idle. -/
theorem live0 : ∀ t : Fin cfg2.N, cfg2.idle 0 (grid2.coords t) = false := by decide +kernel
theorem live1 : ∀ t : Fin cfg2.N, cfg2.idle 1 (grid2.coords t) = false := by decide +kernel
theorem live2 : ∀ t : Fin cfg2.N, cfg2.idle 2 (grid2.coords t) = false := by decide +kernel
/-- Before the last point the output window is idle and not written back; at the last point it is live. -/
theorem idle3 : ∀ t : Fin cfg2.N, ¬cond2 (grid2.coords t) → cfg2.idle 3 (grid2.coords t) = true := by decide +kernel
theorem noFlush3 : ∀ t : Fin cfg2.N, ¬cond2 (grid2.coords t) → (cfg2.win 3).flush t = false := by decide +kernel
theorem live3 : ∀ t : Fin cfg2.N, cond2 (grid2.coords t) → cfg2.idle 3 (grid2.coords t) = false := by decide +kernel

/-! ## The scoped buffers the call does not stage through -/

/-- The scratch word as a memref. -/
abbrev scM : Memref sig .tc .smem S1 .f32 := Memref.whole cc2_scratch0

/-- The other call's ten staging buffers, at some contents each. -/
def otherTen (c : Dev nD) : sProp 𝕄 :=
  iprop((∃ f : Buf (Elt F) ((c : Thread nD τ).loc cc0_stg0_0), ((c : Thread nD τ).loc cc0_stg0_0) ↦{fullShare} f)
    ∗ (∃ f : Buf (Elt F) ((c : Thread nD τ).loc cc0_stg0_1), ((c : Thread nD τ).loc cc0_stg0_1) ↦{fullShare} f)
    ∗ (∃ f : Buf (Elt F) ((c : Thread nD τ).loc cc0_stg1_0), ((c : Thread nD τ).loc cc0_stg1_0) ↦{fullShare} f)
    ∗ (∃ f : Buf (Elt F) ((c : Thread nD τ).loc cc0_stg2_0), ((c : Thread nD τ).loc cc0_stg2_0) ↦{fullShare} f)
    ∗ (∃ f : Buf (Elt F) ((c : Thread nD τ).loc cc0_stg3_0), ((c : Thread nD τ).loc cc0_stg3_0) ↦{fullShare} f)
    ∗ (∃ f : Buf (Elt F) ((c : Thread nD τ).loc cc0_stg4_0), ((c : Thread nD τ).loc cc0_stg4_0) ↦{fullShare} f)
    ∗ (∃ f : Buf (Elt F) ((c : Thread nD τ).loc cc0_stg5_0), ((c : Thread nD τ).loc cc0_stg5_0) ↦{fullShare} f)
    ∗ (∃ f : Buf (Elt F) ((c : Thread nD τ).loc cc0_stg6_0), ((c : Thread nD τ).loc cc0_stg6_0) ↦{fullShare} f)
    ∗ (∃ f : Buf (Elt F) ((c : Thread nD τ).loc cc0_stg7_0), ((c : Thread nD τ).loc cc0_stg7_0) ↦{fullShare} f)
    ∗ (∃ f : Buf (Elt F) ((c : Thread nD τ).loc cc0_stg7_1), ((c : Thread nD τ).loc cc0_stg7_1) ↦{fullShare} f))

/-- The class invariant at this certificate's index type: the scoped buffers that are no staging buffer of the call
    (the ten above and the scratch word), at some contents each, and the generator register at some state. -/
def ΦA2 (c : Dev nD) : sProp 𝕄 :=
  iprop(Pipeline.scopedRest (Ix := HIx 1) (Name := ℕ) (U := UU) (Lvl := ℕ) (Val := Elt F) spec2 c ∗ ∃ r, prngReg c r)

/-- The class invariant with the scratch word apart, as a memref owned at some contents: one way -/
theorem ΦA2_split (c : Dev nD) :
    (ΦA2 c : sProp 𝕄) ⊢ iprop((otherTen c ∗ ∃ d, owns (c : Thread nD τ) scM fullShare d) ∗ ∃ r, prngReg c r) := by
  unfold ΦA2 otherTen; rw [scopedRest2_eq]; simp only [scM, owns_whole]
  iintro ⟨⟨B0, B1, B2, B3, B4, B5, B6, B7, B8, B9, HS⟩, Hg⟩
  isplitr [Hg]
  swap; · iexact Hg
  isplitr [HS]
  swap; · iexact HS
  · isplitl [B0]; · iexact B0
    isplitl [B1]; · iexact B1
    isplitl [B2]; · iexact B2
    isplitl [B3]; · iexact B3
    isplitl [B4]; · iexact B4
    isplitl [B5]; · iexact B5
    isplitl [B6]; · iexact B6
    isplitl [B7]; · iexact B7
    isplitl [B8]; · iexact B8
    iexact B9

/-- and back. -/
theorem ΦA2_join (c : Dev nD) :
    iprop((otherTen c ∗ ∃ d, owns (c : Thread nD τ) scM fullShare d) ∗ ∃ r, prngReg c r) ⊢ (ΦA2 c : sProp 𝕄) := by
  unfold ΦA2 otherTen; rw [scopedRest2_eq]; simp only [scM, owns_whole]
  iintro ⟨⟨⟨B0, B1, B2, B3, B4, B5, B6, B7, B8, B9⟩, HS⟩, Hg⟩
  isplitr [Hg]
  swap; · iexact Hg
  · isplitl [B0]; · iexact B0
    isplitl [B1]; · iexact B1
    isplitl [B2]; · iexact B2
    isplitl [B3]; · iexact B3
    isplitl [B4]; · iexact B4
    isplitl [B5]; · iexact B5
    isplitl [B6]; · iexact B6
    isplitl [B7]; · iexact B7
    isplitl [B8]; · iexact B8
    isplitl [B9]; · iexact B9
    iexact HS

section Region
-- the TensorCore's buffer contents when the region is entered, what it owes and the bound on its recorded pairs
variable (V : (c : Dev nD) → (b : Ref sig .tc) → Buf (Elt F) ((c : Thread nD τ).loc b))
  (O : Dev nD → CellTallies nD τ sig (HIx 1)) (B : Dev nD → Set (SemLoc sig × HIx 1))

/-! ## The windows' blocks -/

/-- Window `w`'s block at point `t`, read off its array as the region finds it. -/
def iblk (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- Each input window's current staging buffer holds its block at every point (every point fetches it), for any
    proof data whose array is `V`'s and whose body leaves the block in place. -/
theorem before0_of {c : Dev nD} (dat : Dat τ (Elt F) (HIx 1) ℕ UU ℕ cfg2 c) (hA : dat.A 0 = V c (Pipeline.arrRef spec2 0))
    (hafter : ∀ t, dat.after 0 t = iblk V c 0 t) (t : Fin cfg2.N) (d) : dat.before 0 t d = iblk V c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
theorem before1_of {c : Dev nD} (dat : Dat τ (Elt F) (HIx 1) ℕ UU ℕ cfg2 c) (hA : dat.A 1 = V c (Pipeline.arrRef spec2 1))
    (hafter : ∀ t, dat.after 1 t = iblk V c 1 t) (t : Fin cfg2.N) (d) : dat.before 1 t d = iblk V c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
theorem before2_of {c : Dev nD} (dat : Dat τ (Elt F) (HIx 1) ℕ UU ℕ cfg2 c) (hA : dat.A 2 = V c (Pipeline.arrRef spec2 2))
    (hafter : ∀ t, dat.after 2 t = iblk V c 2 t) (t : Fin cfg2.N) (d) : dat.before 2 t d = iblk V c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)

/-! ## The running sum -/

/-- What the scratch word holds after the body at position `n`: the block sums of points `0 .. n`, added up from zero. -/
def acc (c : Dev nD) : (n : ℕ) → n < cfg2.N → F .f32
  | 0, h => k2_pay1 (iblk V c 0 ⟨0, h⟩) (iblk V c 1 ⟨0, h⟩) (iblk V c 2 ⟨0, h⟩) (Scalar.ofBits .f32 0x00000000#32)
  | n + 1, h => k2_pay1 (iblk V c 0 ⟨n + 1, h⟩) (iblk V c 1 ⟨n + 1, h⟩) (iblk V c 2 ⟨n + 1, h⟩) (acc c n (Nat.lt_of_succ_lt h))

theorem acc_first (c : Dev nD) (t : Fin cfg2.N) (hz : t.val = 0) :
    acc V c t.val t.isLt = k2_pay1 (iblk V c 0 t) (iblk V c 1 t) (iblk V c 2 t) (Scalar.ofBits .f32 0x00000000#32) := by
  obtain ⟨n, hn⟩ := t
  cases n with
  | zero => rfl
  | succ n => exact absurd hz (Nat.succ_ne_zero n)

theorem acc_later (c : Dev nD) (t : Fin cfg2.N) (hz : t.val ≠ 0) :
    acc V c t.val t.isLt = k2_pay1 (iblk V c 0 t) (iblk V c 1 t) (iblk V c 2 t) (acc V c (t.val - 1) (Nat.lt_of_le_of_lt (Nat.sub_le _ _) t.isLt)) := by
  obtain ⟨n, hn⟩ := t
  cases n with
  | zero => exact absurd rfl hz
  | succ n => rfl

/-! ## The invariant between points: the scratch word at the running sum -/

/-- Before the first point the class invariant (the scratch word at anything); before position `n + 1` the other
    scoped buffers at anything, the scratch word at `acc n`, the generator register at some state. -/
def PhiS (c : Dev nD) : (n : ℕ) → n ≤ cfg2.N → sProp 𝕄
  | 0, _ => ΦA2 c
  | n + 1, hn => iprop((otherTen c ∗ owns (c : Thread nD τ) scM fullShare (fun _ => acc V c n hn)) ∗ ∃ r, prngReg c r)

theorem PhiS_zero (c : Dev nD) (n : ℕ) (h : n ≤ cfg2.N) (hz : n = 0) : PhiS V c n h = ΦA2 c := by
  subst hz; rfl

theorem PhiS_succ (c : Dev nD) (n : ℕ) (hn : n < cfg2.N) :
    PhiS V c (n + 1) hn = iprop((otherTen c ∗ owns (c : Thread nD τ) scM fullShare (fun _ => acc V c n hn)) ∗ ∃ r, prngReg c r) := rfl

theorem PhiS_pos (c : Dev nD) (n : ℕ) (h : n ≤ cfg2.N) (hz : n ≠ 0) :
    PhiS V c n h = iprop((otherTen c ∗ owns (c : Thread nD τ) scM fullShare (fun _ => acc V c (n - 1) (by omega))) ∗ ∃ r, prngReg c r) := by
  cases n with
  | zero => exact absurd rfl hz
  | succ n => rfl

/-! ## The proof data -/

/-- The proof data of the call on core `c`: the arrays as the region finds them; after the body at point `t` each
    input's buffer at its block and the output's (consulted at the last point only) at the running sum divided by
    the number of pairs; the invariant above; full shares; the core owing `O c` throughout, its recorded pairs
    within `B c`. -/
def dat2 (c : Dev nD) : Dat τ (Elt F) (HIx 1) ℕ UU ℕ cfg2 c where
  A w := V c (Pipeline.arrRef spec2 w)
  after w t := match w with
    | ⟨0, _⟩ => iblk V c 0 t
    | ⟨1, _⟩ => iblk V c 1 t
    | ⟨2, _⟩ => iblk V c 2 t
    | ⟨3, _⟩ => k2_pay2 (acc V c t.val t.isLt)
  Φ t := PhiS V c t.val (Nat.le_of_lt_succ t.isLt)
  q _ := fullShare
  owed _ := O c
  recorded _ := B c

theorem A_eq (c : Dev nD) (w : Fin cfg2.W) : (dat2 V O B c).A w = V c (Pipeline.arrRef spec2 w) := by
  dsimp only [dat2]

theorem PhiS_castSucc (c : Dev nD) (t : Fin cfg2.N) :
    (dat2 V O B c).Φ t.castSucc = PhiS V c t.val (Nat.le_of_lt t.isLt) := by
  dsimp only [dat2]; simp only [Fin.coe_castSucc]

theorem after0 (c : Dev nD) (t : Fin cfg2.N) : (dat2 V O B c).after 0 t = iblk V c 0 t := by dsimp only [dat2]
theorem after1 (c : Dev nD) (t : Fin cfg2.N) : (dat2 V O B c).after 1 t = iblk V c 1 t := by dsimp only [dat2]
theorem after2 (c : Dev nD) (t : Fin cfg2.N) : (dat2 V O B c).after 2 t = iblk V c 2 t := by dsimp only [dat2]
theorem after3 (c : Dev nD) (t : Fin cfg2.N) : (dat2 V O B c).after 3 t = k2_pay2 (acc V c t.val t.isLt) := by dsimp only [dat2]

theorem before0 (c : Dev nD) (t : Fin cfg2.N) (d) : (dat2 V O B c).before 0 t d = iblk V c 0 t :=
  before0_of V (dat2 V O B c) (A_eq V O B c 0) (after0 V O B c) t d
theorem before1 (c : Dev nD) (t : Fin cfg2.N) (d) : (dat2 V O B c).before 1 t d = iblk V c 1 t :=
  before1_of V (dat2 V O B c) (A_eq V O B c 1) (after1 V O B c) t d
theorem before2 (c : Dev nD) (t : Fin cfg2.N) (d) : (dat2 V O B c).before 2 t d = iblk V c 2 t :=
  before2_of V (dat2 V O B c) (A_eq V O B c 2) (after2 V O B c) t d

/-! ## The body obligation, at a generic point -/

/-- What the body is called with at point `t`, the windows one by one, -/
def bodyPre (c : Dev nD) (t : Fin cfg2.N) : sProp 𝕄 :=
  iprop((dat2 V O B c).Φ t.castSucc ∗ (dat2 V O B c).owesAt none t.castSucc
    ∗ (∃ d, owns (c : Thread nD τ) (st2_0 t) fullShare ((dat2 V O B c).before 0 t d))
    ∗ (∃ d, owns (c : Thread nD τ) (st2_1 t) fullShare ((dat2 V O B c).before 1 t d))
    ∗ (∃ d, owns (c : Thread nD τ) (st2_2 t) fullShare ((dat2 V O B c).before 2 t d))
    ∗ (∃ d, owns (c : Thread nD τ) (st2_3 t) fullShare ((dat2 V O B c).before 3 t d)))

/-- and what it returns. -/
def bodyPost (c : Dev nD) (t : Fin cfg2.N) : sProp 𝕄 :=
  iprop((dat2 V O B c).Φ t.succ ∗ (dat2 V O B c).owesAt none t.succ
    ∗ (dat2 V O B c).leavesExact 0 t
    ∗ (dat2 V O B c).leavesExact 1 t
    ∗ (dat2 V O B c).leavesExact 2 t
    ∗ (dat2 V O B c).leavesExact 3 t)

set_option maxHeartbeats 2000000 in
/-- The body at any point. The inputs' memrefs hold their blocks. The point's position says which case it is in:
    at the first point the invariant hands over the scratch word at anything and takes it back at the first block's
    sum; at a later point it hands it over at the running sum so far and takes it back with this block's sum added;
    before the last point the output's buffer is handed back as found, at the last it is left at the running sum
    divided by the number of pairs. What the core owes passes through unread. -/
theorem sound_body (c : Dev nD) (t : Fin cfg2.N) :
    bodyPre V O B c t ⊢ wp frame (wpE (defs₀ (F := F)) Variants.none c none) Set.univ (bodyAt2 t) (fun _ => bodyPost V O B c t) := by
  unfold bodyPre bodyPost bodyAt2
  simp only [before0, before1, before2]
  rw [show (dat2 V O B c).owesAt none t.succ = (dat2 V O B c).owesAt none t.castSucc from rfl]
  rw [show (dat2 V O B c).Φ t.succ = PhiS V c (t.val + 1) t.isLt from rfl, PhiS_succ]
  rw [show (dat2 V O B c).leavesExact 0 t = owns (c : Thread nD τ) (st2_0 t) fullShare ((dat2 V O B c).after 0 t) from by
      unfold Dat.leavesExact; rw [live0 t], after0,
    show (dat2 V O B c).leavesExact 1 t = owns (c : Thread nD τ) (st2_1 t) fullShare ((dat2 V O B c).after 1 t) from by
      unfold Dat.leavesExact; rw [live1 t], after1,
    show (dat2 V O B c).leavesExact 2 t = owns (c : Thread nD τ) (st2_2 t) fullShare ((dat2 V O B c).after 2 t) from by
      unfold Dat.leavesExact; rw [live2 t], after2]
  have hN : t.val < 5 := lt_of_lt_of_eq t.isLt (show cfg2.N = 5 from N_2)
  by_cases hz : t.val = 0
  · -- the first point
    have hc1 : cond1 (grid2.coords t) := (hcond1 t).mpr hz
    have hc2 : ¬cond2 (grid2.coords t) := fun h => by have := (hcond2 t).mp h; omega
    rw [Dat.leavesExact_idle (dat2 V O B c) 3 t (idle3 t hc2) (noFlush3 t hc2)]
    rw [PhiS_castSucc V O B c t, PhiS_zero V c _ _ hz, acc_first V c t hz]
    iintro ⟨HΦ, Ho, ⟨%d0, H0⟩, ⟨%d1, H1⟩, ⟨%d2, H2⟩, ⟨%d3, H3⟩⟩
    ihave Hsp := (ΦA2_split c) $$ HΦ
    icases Hsp with ⟨⟨Hten, HS⟩, Hg⟩
    iapply (sound_first c Set.univ (grid2.coords t) _ _ _ _ _ _ _ _ _ _ (iblk V c 0 t) (iblk V c 1 t) (iblk V c 2 t) ((dat2 V O B c).before 3 t d3) hc1 hc2 _)
    isplitl [H0]; · iexact H0
    isplitl [H1]; · iexact H1
    isplitl [H2]; · iexact H2
    isplitl [H3]; · iexact H3
    isplitl [HS]; · iexact HS
    iintro ⟨H0, H1, H2, H3, HS⟩
    isplitl [Hten HS Hg]
    · isplitl [Hten HS]
      · isplitl [Hten]; · iexact Hten
        iexact HS
      iexact Hg
    isplitl [Ho]; · iexact Ho
    isplitl [H0]; · iexact H0
    isplitl [H1]; · iexact H1
    isplitl [H2]; · iexact H2
    iexists _; iexact H3
  · by_cases hl : t.val = 4
    · -- the last point
      have hc1 : ¬cond1 (grid2.coords t) := fun h => hz ((hcond1 t).mp h)
      have hc2 : cond2 (grid2.coords t) := (hcond2 t).mpr hl
      rw [show (dat2 V O B c).leavesExact 3 t = owns (c : Thread nD τ) (st2_3 t) fullShare ((dat2 V O B c).after 3 t) from by
        unfold Dat.leavesExact; rw [live3 t hc2], after3]
      rw [PhiS_castSucc V O B c t, PhiS_pos V c _ _ hz, acc_later V c t hz]
      iintro ⟨⟨⟨Hten, HS⟩, Hg⟩, Ho, ⟨%d0, H0⟩, ⟨%d1, H1⟩, ⟨%d2, H2⟩, ⟨%d3, H3⟩⟩
      iapply (sound_last c Set.univ (grid2.coords t) _ _ _ _ _ _ _ _ _ _ (iblk V c 0 t) (iblk V c 1 t) (iblk V c 2 t) (fun _ => acc V c (t.val - 1) (Nat.lt_of_le_of_lt (Nat.sub_le _ _) t.isLt)) hc1 hc2 _)
      isplitl [H0]; · iexact H0
      isplitl [H1]; · iexact H1
      isplitl [H2]; · iexact H2
      isplitl [H3]; · iexists _; iexact H3
      isplitl [HS]; · iexact HS
      iintro ⟨H0, H1, H2, H3, HS⟩
      isplitl [Hten HS Hg]
      · isplitl [Hten HS]
        · isplitl [Hten]; · iexact Hten
          iexact HS
        iexact Hg
      isplitl [Ho]; · iexact Ho
      isplitl [H0]; · iexact H0
      isplitl [H1]; · iexact H1
      isplitl [H2]; · iexact H2
      iexact H3
    · -- a middle point
      have hc1 : ¬cond1 (grid2.coords t) := fun h => hz ((hcond1 t).mp h)
      have hc2 : ¬cond2 (grid2.coords t) := fun h => hl ((hcond2 t).mp h)
      rw [Dat.leavesExact_idle (dat2 V O B c) 3 t (idle3 t hc2) (noFlush3 t hc2)]
      rw [PhiS_castSucc V O B c t, PhiS_pos V c _ _ hz, acc_later V c t hz]
      iintro ⟨⟨⟨Hten, HS⟩, Hg⟩, Ho, ⟨%d0, H0⟩, ⟨%d1, H1⟩, ⟨%d2, H2⟩, ⟨%d3, H3⟩⟩
      iapply (sound_mid c Set.univ (grid2.coords t) _ _ _ _ _ _ _ _ _ _ (iblk V c 0 t) (iblk V c 1 t) (iblk V c 2 t) ((dat2 V O B c).before 3 t d3) (fun _ => acc V c (t.val - 1) (Nat.lt_of_le_of_lt (Nat.sub_le _ _) t.isLt)) hc1 hc2 _)
      isplitl [H0]; · iexact H0
      isplitl [H1]; · iexact H1
      isplitl [H2]; · iexact H2
      isplitl [H3]; · iexact H3
      isplitl [HS]; · iexact HS
      iintro ⟨H0, H1, H2, H3, HS⟩
      isplitl [Hten HS Hg]
      · isplitl [Hten HS]
        · isplitl [Hten]; · iexact Hten
          iexact HS
        iexact Hg
      isplitl [Ho]; · iexact Ho
      isplitl [H0]; · iexact H0
      isplitl [H1]; · iexact H1
      isplitl [H2]; · iexact H2
      iexists _; iexact H3

/-- The library's body obligation, at every point. -/
theorem body_obligation (c : Dev nD) : BodyObligation (dat2 (F := F) V O B c) (defs₀ (F := F)) Variants.none (none : HIx 1) Set.univ := fun t => by
  rw [bigSep_W2, bigSep_W2]
  exact sound_body V O B c t

/-- What the region is entered with is the invariant before the first point, -/
theorem hin (c : Dev nD) : (ΦA2 c : sProp 𝕄) ⊢ (dat2 V O B c).Φ 0 := by
  rw [show (dat2 V O B c).Φ 0 = PhiS V c 0 (Nat.zero_le _) from rfl, PhiS_zero V c 0 _ rfl]

/-- and after the last point the invariant gives it back, the running sum forgotten. -/
theorem hout (c : Dev nD) : (dat2 V O B c).Φ (Fin.last cfg2.N) ⊢ (ΦA2 c : sProp 𝕄) := by
  rw [show (dat2 V O B c).Φ (Fin.last cfg2.N) = PhiS V c (Fin.last cfg2.N).val (Nat.le_of_lt_succ (Fin.last cfg2.N).isLt) from rfl,
    PhiS_pos V c _ _ (by rw [Fin.val_last]; have : cfg2.N = 5 := N_2; omega)]
  iintro ⟨⟨Hten, HS⟩, Hg⟩
  iapply (ΦA2_join c)
  isplitl [Hten HS]
  · isplitl [Hten]; · iexact Hten
    iexists _; iexact HS
  iexact Hg

end Region

end Cert.KernelIdeal.Sc.Loss

end
-- ==== Proof.MlpLossRegions.lean ====
/-
  The two TensorCore calls as kernel regions of the program: the proof data of both pipelines as one family, and per
  call the record the region rule takes.

  A region is entered from the thread state "every unscoped buffer of the TensorCore at the contents `W`, the
  generator register at some state, the core owing `O` with its recorded pairs within `B`" and left at the same with the
  call's arrays at what its write-backs leave (every other buffer as entered) and the recorded pairs within `B` and
  the pipeline's own wait pairs. The entry contents, the tallies and the bounds are parameters, separately for the
  two calls. The pipelines' waits are recorded at the index `none`, which sits below everything a thread of the
  launch owes: the wait evidence needs only that the tallies vanish at that index.
-/
import proofs.«208457_g31284541784245_cont_9to1_2229_14_alg».proof.Proof.ScBase
import proofs.«208457_g31284541784245_cont_9to1_2229_14_alg».proof.Proof.Gen.KernelIdeal.Launch
import proofs.«208457_g31284541784245_cont_9to1_2229_14_alg».proof.Proof.Gen.KernelIdeal.Skeleton
import proofs.«208457_g31284541784245_cont_9to1_2229_14_alg».proof.Proof.Gen.KernelIdeal.Points
import proofs.«208457_g31284541784245_cont_9to1_2229_14_alg».proof.Proof.MlpDat
import proofs.«208457_g31284541784245_cont_9to1_2229_14_alg».proof.Proof.LossDat
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Sc

open Cert.KernelIdeal Cert.KernelIdeal.Gen
open Idealize.ShloMosaic Idealize.ShloMosaic.TcCoe Idealize.ShloMosaic.Tactic
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MM F

/-- The prefetched tables' admissible contents: no pipeline has a table. -/
abbrev adm : (p : Fin 2) → (pcfgs (F := F) p).Adm := fun p => (cfgs p).toPCfg_adm

/-- A valuation of the device's buffers read at the TensorCore's references. -/
abbrev Vof (W : Dev nD → Valuation τ sig (Elt F)) : (c : Dev nD) → (b : Ref sig .tc) → Buf (Elt F) ((c : Thread nD τ).loc b) :=
  fun c b => W c b

section Regions

variable (Wa Wb : Dev nD → Valuation τ sig (Elt F))
  (Oa Ob : Dev nD → CellTallies nD τ sig (HIx 1)) (Ba Bb : Dev nD → Set (SemLoc sig × HIx 1))

/-- Both pipelines' proof data, each at its region's entry contents, tallies and bound: a literal match, so that the
    pinned configuration at a numeral reduces to the printed one. -/
def pdats : (p : Fin 2) → (c : Dev nD) → Dat τ (Elt F) (HIx 1) ℕ UU ℕ (Pipeline.pin (pcfgs (F := F)) adm p) c
  | ⟨0, _⟩ => fun c => Mlp.dat0 (Vof Wa) Oa Ba c
  | ⟨1, _⟩ => fun c => Loss.dat2 (Vof Wb) Ob Bb c

/-! ## The buffer contents at each region's exit -/

/-- At the dense layers' exit: the call's arrays at what the pipeline leaves (the inputs as entered, the output's
    write-backs folded), every other buffer as entered. -/
def Mlp.Wexit (c : Dev nD) : Valuation τ sig (Elt F) :=
  Pipeline.withArrays spec0 c (Wa c) fun w => (Mlp.dat0 (Vof Wa) Oa Ba c).arrAt w cfg0.N
theorem Mlp.Wexit_arr (c : Dev nD) (w : Fin cfg0.W) :
    Mlp.Wexit Wa Oa Ba c (Proc.devRef .tc (Pipeline.arrRef spec0 w)) = (Mlp.dat0 (Vof Wa) Oa Ba c).arrAt w cfg0.N := by
  unfold Mlp.Wexit; exact Pipeline.withArrays_arr spec0 launch0.win.arr_inj c _ _ w
theorem Mlp.Wexit_of_ne (c : Dev nD) (b : Ref sig .tc) (hb : ∀ w, Pipeline.arrRef spec0 w ≠ b) :
    Mlp.Wexit Wa Oa Ba c (Proc.devRef .tc b) = Wa c (Proc.devRef .tc b) := by
  unfold Mlp.Wexit; exact Pipeline.withArrays_of_ne spec0 c _ _ b hb
theorem Mlp.hF (c : Dev nD) (w : Fin cfg0.W) :
    (Mlp.dat0 (Vof Wa) Oa Ba c).arrAt w cfg0.N = Vof (Mlp.Wexit Wa Oa Ba) c (Pipeline.arrRef spec0 w) :=
  (Mlp.Wexit_arr Wa Oa Ba c w).symm
theorem Mlp.hrest (c : Dev nD) : ∀ b, b ∉ Finset.univ.image (Pipeline.arrRef spec0) → Vof (Mlp.Wexit Wa Oa Ba) c b = Vof Wa c b :=
  fun b hb => Mlp.Wexit_of_ne Wa Oa Ba c b fun w e => hb (Finset.mem_image.mpr ⟨w, Finset.mem_univ _, e⟩)

/-- At the loss call's exit, likewise. -/
def Loss.Wexit (c : Dev nD) : Valuation τ sig (Elt F) :=
  Pipeline.withArrays spec2 c (Wb c) fun w => (Loss.dat2 (Vof Wb) Ob Bb c).arrAt w cfg2.N
theorem Loss.Wexit_arr (c : Dev nD) (w : Fin cfg2.W) :
    Loss.Wexit Wb Ob Bb c (Proc.devRef .tc (Pipeline.arrRef spec2 w)) = (Loss.dat2 (Vof Wb) Ob Bb c).arrAt w cfg2.N := by
  unfold Loss.Wexit; exact Pipeline.withArrays_arr spec2 launch2.win.arr_inj c _ _ w
theorem Loss.Wexit_of_ne (c : Dev nD) (b : Ref sig .tc) (hb : ∀ w, Pipeline.arrRef spec2 w ≠ b) :
    Loss.Wexit Wb Ob Bb c (Proc.devRef .tc b) = Wb c (Proc.devRef .tc b) := by
  unfold Loss.Wexit; exact Pipeline.withArrays_of_ne spec2 c _ _ b hb
theorem Loss.hF (c : Dev nD) (w : Fin cfg2.W) :
    (Loss.dat2 (Vof Wb) Ob Bb c).arrAt w cfg2.N = Vof (Loss.Wexit Wb Ob Bb) c (Pipeline.arrRef spec2 w) :=
  (Loss.Wexit_arr Wb Ob Bb c w).symm
theorem Loss.hrest (c : Dev nD) : ∀ b, b ∉ Finset.univ.image (Pipeline.arrRef spec2) → Vof (Loss.Wexit Wb Ob Bb) c b = Vof Wb c b :=
  fun b hb => Loss.Wexit_of_ne Wb Ob Bb c b fun w e => hb (Finset.mem_image.mpr ⟨w, Finset.mem_univ _, e⟩)

/-! ## The thread states -/

/-- The thread state a region is entered from and left at: every unscoped buffer at the contents `W`, the generator
    register at some state, the core owing `O` with its recorded pairs within `S`. -/
abbrev tcAt (c : Dev nD) (W : Valuation τ sig (Elt F)) (O : CellTallies nD τ sig (HIx 1)) (S : Set (SemLoc sig × HIx 1)) : sProp 𝕄 :=
  iprop(StableHlo.held (c : Thread nD τ) (Pipeline.ucRefs τ sig) W ∗ (∃ r, prngReg c r) ∗ Pipeline.owesWithin c O S)

/-! ## The regions -/

set_option backward.isDefEq.respectTransparency.types false in
/-- The dense layers' call (pipeline 0) over the thread state: entered from every unscoped buffer at `Wa`, left at
    `Mlp.Wexit`. Its arrays split out of the unscoped buffers and put back at the exit contents; the generator register
    into the class invariant and out; what the core owes carried through, the pipeline's wait pairs added to the bound. -/
def regMlp (lv : GSem nD τ sig → HIx 1 → ℕ) (hlv : (Sc.K (F := F)).Refines (nD := nD) lv) (hOa : ∀ c g, Oa c g none = 0) :
    Pipeline.RegionSeg (pcfgs (F := F)) adm (pdats Wa Wb Oa Ob Ba Bb) (none : HIx 1) defs₀ 𝒱₀ ((Sc.K (F := F)).L (nD := nD)) lv 0 where
  win := launch0.win.to₀
  block_pos := launch0.block_pos
  stage_whole := launch0.stage_whole
  K := PEmpty
  osem k := k.elim
  ho := Pipeline.OwnSemFacts.none _
  hbody c := (Mlp.body_obligation (Vof Wa) Oa Ba c).loose
  hwaits c := Pipeline.cellsWaits_intro (Pipeline.pin (pcfgs (F := F)) adm) (pdats Wa Wb Oa Ob Ba Bb) (none : HIx 1) 0 c
    fun w s t => (Sc.K (F := F)).mayWait_none _ (hOa c) lv hlv
  pre c := tcAt c (Wa c) (Oa c) (Ba c)
  post c := tcAt c (Mlp.Wexit Wa Oa Ba c) (Oa c) (Ba c ∪ cfg0.waitPairs (none : HIx 1))
  X c := iprop(∃ r, prngReg c r)
  Y c := iprop(∃ r, prngReg c r)
  Z c := Pipeline.unscopedRest (Ix := HIx 1) (Name := ℕ) (U := UU) (Lvl := ℕ) spec0 c (Vof Wa c)
  hentry c := by
    rw [Pipeline.ownSems0_none]
    have hsplit := Pipeline.arrays_of_unscopedBufs (p := 0) (pcfgs (F := F)) adm (pdats Wa Wb Oa Ob Ba Bb) launch0.win launch0.arr_whole c
      ((pdats Wa Wb Oa Ob Ba Bb 0 c).share_full fun _ => rfl) (Vof Wa c) fun _ => rfl
    rw [Pipeline.unscopedBufs_held] at hsplit
    rw [show (pdats Wa Wb Oa Ob Ba Bb 0 c).owesAt (none : HIx 1) 0 = Pipeline.owesWithin c (Oa c) (Ba c ∪ cfg0.waitPairs (none : HIx 1)) from rfl]
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · iapply (Pipeline.owesWithin_mono c (Oa c) (Set.subset_union_left (s := Ba c) (t := cfg0.waitPairs (none : HIx 1))))
      iexact HO
    isplitl [Hp]; · iexact Hp
    iexact Hrest
  hin c := by
    rw [show (pdats Wa Wb Oa Ob Ba Bb 0 c).Φ 0 = Mlp.ΦA0 c from rfl]; unfold Mlp.ΦA0
    iintro ⟨Hp, -, Hr⟩
    isplitl [Hr]; · iexact Hr
    iexact Hp
  hout c := by
    rw [Pipeline.ownSems0_none, show (pdats Wa Wb Oa Ob Ba Bb 0 c).Φ (Fin.last _) = Mlp.ΦA0 c from rfl]; unfold Mlp.ΦA0
    iintro ⟨Hr, Hp⟩
    isplitl [Hp]; · iexact Hp
    isplitr; · iempintro
    iexact Hr
  hexit c := by
    have hjoin := Pipeline.unscopedBufs_of_arrays (p := 0) (pcfgs (F := F)) adm (Ix := HIx 1) (Name := ℕ) (U := UU) (Lvl := ℕ)
      launch0.win launch0.arr_whole c (pdats Wa Wb Oa Ob Ba Bb) ((pdats Wa Wb Oa Ob Ba Bb 0 c).share_full fun _ => rfl)
      (Vof Wa c) (Vof (Mlp.Wexit Wa Oa Ba) c) ((pdats Wa Wb Oa Ob Ba Bb 0 c).arrAt · cfg0.N) (Mlp.hF Wa Oa Ba c) (Mlp.hrest Wa Oa Ba c)
    rw [Pipeline.unscopedBufs_held] at hjoin
    rw [show (pdats Wa Wb Oa Ob Ba Bb 0 c).owesAt (none : HIx 1) (Fin.last _) = Pipeline.owesWithin c (Oa c) (Ba c ∪ cfg0.waitPairs (none : HIx 1)) from rfl]
    iintro ⟨Ha, HO, HY, Hrest⟩
    imodintro
    isplitl [Ha Hrest]
    · iapply hjoin; isplitl [Ha] <;> iassumption
    isplitl [HY]; · iexact HY
    iexact HO

set_option backward.isDefEq.respectTransparency.types false in
/-- The loss call (pipeline 1) over the thread state: entered from every unscoped buffer at `Wb`, left at
    `Loss.Wexit`. As above; the class invariant goes in before the first point and comes back after the last, the
    running sum forgotten. -/
def regLoss (lv : GSem nD τ sig → HIx 1 → ℕ) (hlv : (Sc.K (F := F)).Refines (nD := nD) lv) (hOb : ∀ c g, Ob c g none = 0) :
    Pipeline.RegionSeg (pcfgs (F := F)) adm (pdats Wa Wb Oa Ob Ba Bb) (none : HIx 1) defs₀ 𝒱₀ ((Sc.K (F := F)).L (nD := nD)) lv 1 where
  win := launch2.win.to₀
  block_pos := launch2.block_pos
  stage_whole := launch2.stage_whole
  K := PEmpty
  osem k := k.elim
  ho := Pipeline.OwnSemFacts.none _
  hbody c := (Loss.body_obligation (Vof Wb) Ob Bb c).loose
  hwaits c := Pipeline.cellsWaits_intro (Pipeline.pin (pcfgs (F := F)) adm) (pdats Wa Wb Oa Ob Ba Bb) (none : HIx 1) 1 c
    fun w s t => (Sc.K (F := F)).mayWait_none _ (hOb c) lv hlv
  pre c := tcAt c (Wb c) (Ob c) (Bb c)
  post c := tcAt c (Loss.Wexit Wb Ob Bb c) (Ob c) (Bb c ∪ cfg2.waitPairs (none : HIx 1))
  X c := iprop(∃ r, prngReg c r)
  Y c := iprop(∃ r, prngReg c r)
  Z c := Pipeline.unscopedRest (Ix := HIx 1) (Name := ℕ) (U := UU) (Lvl := ℕ) spec2 c (Vof Wb c)
  hentry c := by
    rw [Pipeline.ownSems0_none]
    have hsplit := Pipeline.arrays_of_unscopedBufs (p := 1) (pcfgs (F := F)) adm (pdats Wa Wb Oa Ob Ba Bb) launch2.win launch2.arr_whole c
      ((pdats Wa Wb Oa Ob Ba Bb 1 c).share_full fun _ => rfl) (Vof Wb c) fun _ => rfl
    rw [Pipeline.unscopedBufs_held] at hsplit
    rw [show (pdats Wa Wb Oa Ob Ba Bb 1 c).owesAt (none : HIx 1) 0 = Pipeline.owesWithin c (Ob c) (Bb c ∪ cfg2.waitPairs (none : HIx 1)) from rfl]
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · iapply (Pipeline.owesWithin_mono c (Ob c) (Set.subset_union_left (s := Bb c) (t := cfg2.waitPairs (none : HIx 1))))
      iexact HO
    isplitl [Hp]; · iexact Hp
    iexact Hrest
  hin c := by
    refine .trans ?_ (Loss.hin (Vof Wb) Ob Bb c)
    unfold Loss.ΦA2
    iintro ⟨Hp, -, Hr⟩
    isplitl [Hr]; · iexact Hr
    iexact Hp
  hout c := by
    rw [Pipeline.ownSems0_none]
    refine (Loss.hout (Vof Wb) Ob Bb c).trans ?_
    unfold Loss.ΦA2
    iintro ⟨Hr, Hp⟩
    isplitl [Hp]; · iexact Hp
    isplitr; · iempintro
    iexact Hr
  hexit c := by
    have hjoin := Pipeline.unscopedBufs_of_arrays (p := 1) (pcfgs (F := F)) adm (Ix := HIx 1) (Name := ℕ) (U := UU) (Lvl := ℕ)
      launch2.win launch2.arr_whole c (pdats Wa Wb Oa Ob Ba Bb) ((pdats Wa Wb Oa Ob Ba Bb 1 c).share_full fun _ => rfl)
      (Vof Wb c) (Vof (Loss.Wexit Wb Ob Bb) c) ((pdats Wa Wb Oa Ob Ba Bb 1 c).arrAt · cfg2.N) (Loss.hF Wb Ob Bb c) (Loss.hrest Wb Ob Bb c)
    rw [Pipeline.unscopedBufs_held] at hjoin
    rw [show (pdats Wa Wb Oa Ob Ba Bb 1 c).owesAt (none : HIx 1) (Fin.last _) = Pipeline.owesWithin c (Ob c) (Bb c ∪ cfg2.waitPairs (none : HIx 1)) from rfl]
    iintro ⟨Ha, HO, HY, Hrest⟩
    imodintro
    isplitl [Ha Hrest]
    · iapply hjoin; isplitl [Ha] <;> iassumption
    isplitl [HY]; · iexact HY
    iexact HO

end Regions

end Cert.KernelIdeal.Sc

end
-- ==== Proof.ScChain.lean ====
/-
  The contents of the TensorCore's buffers at each boundary of @main, named: after the first stretch of host
  operations; after the dense layers' call (its output buffer at the table, the rest as they were); after the second
  stretch (the table flattened, the two index columns cut out); after the SparseCore call (the two result columns at
  the sums of table words); after the third stretch; after the loss call; after the last stretch. With them the launch
  theorem's hypotheses for this program are instances of what the regions' and the vector subcores' modules prove.
-/
import proofs.«208457_g31284541784245_cont_9to1_2229_14_alg».proof.Proof.ScLaunch
import proofs.«208457_g31284541784245_cont_9to1_2229_14_alg».proof.Proof.TileDefs
import proofs.«208457_g31284541784245_cont_9to1_2229_14_alg».proof.Proof.MlpLossRegions

noncomputable section

namespace Cert.KernelIdeal.Sc.Chain

open Cert.KernelIdeal Cert.KernelIdeal.Gen Cert.KernelIdeal.Sc
open Idealize.ShloMosaic Idealize.ShloMosaic.TcCoe
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]
variable (m : (ℓ : Loc nD τ sig) → Buf (Elt F) ℓ)

/-- The pairs a TensorCore's waits may have recorded before call n: those at or below the call's first level. -/
def Bn (d : Dev nD) (n : ℕ) : Set (SemLoc sig × HIx 1) := {p | (K (F := F)).lev (SparseCore.T d, p.1) p.2 ≤ 8 * n}

/-- What the TensorCore owes before call n has nothing at the kernels' own index. -/
theorem Otc_none (d : Dev nD) (n : ℕ) (g : GSem nD τ sig) : (K (F := F)).Otc d n g none = 0 :=
  Nat.eq_zero_of_not_pos fun h => by
    have := (K (F := F)).lev_of_Otc_pos h
    simp at this

/-- After the first stretch: the dense layers' call is entered from here. -/
abbrev Wa : Dev nD → Valuation τ sig (Elt F) := fun d => StableHlo.after ops0 (Launch.W0 m d)
abbrev Oa : Dev nD → CellTallies nD τ sig (HIx 1) := fun d => (K (F := F)).Otc d 0
abbrev Ba : Dev nD → Set (SemLoc sig × HIx 1) := fun d => Bn (F := F) d 0
/-- After the dense layers' call. -/
def W2 (d : Dev nD) : Valuation τ sig (Elt F) := Mlp.Wexit (Wa m) (Oa (F := F)) (Ba (F := F)) d
/-- After the second stretch: what the SparseCore call finds. -/
def W3 (d : Dev nD) : Valuation τ sig (Elt F) := StableHlo.after ops1 (W2 m d)
/-- The table and the two index columns as the SparseCore call finds them. -/
def TAB (d : Dev nD) : Buf (Elt F) (Tile.tLoc d) := W3 m d (main_v9 : DevRef τ sig)
def IA (d : Dev nD) : Buf (Elt F) (Tile.aLoc d) := W3 m d (main_v11 : DevRef τ sig)
def IB (d : Dev nD) : Buf (Elt F) (Tile.bLoc d) := W3 m d (main_v13 : DevRef τ sig)
/-- After the SparseCore call: the two result columns written, every other buffer as it was. -/
def W4 (d : Dev nD) : Valuation τ sig (Elt F) :=
  Function.update (Function.update (W3 m d) (main_v14_0 : DevRef τ sig) (Tile.Z0 (TAB m) (IA m) (IB m) d))
    (main_v14_1 : DevRef τ sig) (Tile.Z1 (TAB m) (IA m) (IB m) d)
/-- After the third stretch: the loss call is entered from here. -/
abbrev Wb : Dev nD → Valuation τ sig (Elt F) := fun d => StableHlo.after ops2 (W4 m d)
abbrev Ob : Dev nD → CellTallies nD τ sig (HIx 1) := fun d => (K (F := F)).Otc d 1
abbrev Bb : Dev nD → Set (SemLoc sig × HIx 1) := fun d => Bn (F := F) d 1
/-- After the loss call. -/
def W6 (d : Dev nD) : Valuation τ sig (Elt F) := Loss.Wexit (Wb m) (Ob (F := F)) (Bb (F := F)) d
/-- At the return. -/
def W7 (d : Dev nD) : Valuation τ sig (Elt F) := StableHlo.after ops3 (W6 m d)

/-- The two pipelines' proof data at these contents. -/
abbrev pd := pdats (Wa m) (Wb m) (Oa (F := F)) (Ob (F := F)) (Ba (F := F)) (Bb (F := F))
/-- The two calls as kernel regions. -/
abbrev R0 := regMlp (Wa m) (Wb m) (Oa (F := F)) (Ob (F := F)) (Ba (F := F)) (Bb (F := F)) (K (F := F)).lev ((K (F := F)).refines_self) (fun c g => Otc_none c 0 g)
abbrev R1 := regLoss (Wa m) (Wb m) (Oa (F := F)) (Ob (F := F)) (Ba (F := F)) (Bb (F := F)) (K (F := F)).lev ((K (F := F)).refines_self) (fun c g => Otc_none c 1 g)

/-! ## The thread state into and out of a region -/

theorem owes_in (d : Dev nD) (n : ℕ) :
    (Launch.tcOwes (F := F) d n : sProp (MM F)) ⊢ Pipeline.owesWithin d ((K (F := F)).Otc d n) (Bn (F := F) d n) := by
  unfold Pipeline.owesWithin
  iintro ⟨%W, %hW, HO⟩
  iexists W
  isplitr; · ipureintro; exact fun p hp => hW p (Finset.mem_coe.mp hp)
  iexact HO

theorem owes_out (d : Dev nD) (n : ℕ) (cfg : Pipeline.Cfg sig Λ₀) :
    (Pipeline.owesWithin d ((K (F := F)).Otc d n) (Bn (F := F) d n ∪ cfg.waitPairs (none : HIx 1)) : sProp (MM F)) ⊢ Launch.tcOwes (F := F) d n := by
  unfold Pipeline.owesWithin
  iintro ⟨%W, %hW, HO⟩
  iexists W
  isplitr
  · ipureintro
    intro p hp
    rcases hW (Finset.mem_coe.mpr hp) with h | ⟨w, s, rfl⟩
    · exact h
    · show (K (F := F)).lev _ none ≤ _
      rw [SparseCore.Cfg.lev_none]; exact Nat.zero_le _
  iexact HO

theorem hpre0 (d : Dev nD) : Launch.Tst (F := F) d (Wa m d) 0 ⊢ (R0 m).pre d := by
  show _ ⊢ tcAt d (Wa m d) (Oa (F := F) d) (Ba (F := F) d)
  iintro ⟨Hh, Hp, HO⟩
  isplitl [Hh]; · iexact Hh
  isplitl [Hp]; · iexact Hp
  iapply (owes_in d 0); iexact HO

theorem hpost0 (d : Dev nD) : (R0 m).post d ⊢ Launch.Tst (F := F) d (W2 m d) 0 := by
  show tcAt d (Mlp.Wexit (Wa m) (Oa (F := F)) (Ba (F := F)) d) (Oa (F := F) d) (Ba (F := F) d ∪ cfg0.waitPairs (none : HIx 1)) ⊢ _
  iintro ⟨Hh, Hp, HO⟩
  isplitl [Hh]; · iexact Hh
  isplitl [Hp]; · iexact Hp
  iapply (owes_out d 0 cfg0); iexact HO

theorem hpre1 (d : Dev nD) : Launch.Tst (F := F) d (Wb m d) 1 ⊢ (R1 m).pre d := by
  show _ ⊢ tcAt d (Wb m d) (Ob (F := F) d) (Bb (F := F) d)
  iintro ⟨Hh, Hp, HO⟩
  isplitl [Hh]; · iexact Hh
  isplitl [Hp]; · iexact Hp
  iapply (owes_in d 1); iexact HO

theorem hpost1 (d : Dev nD) : (R1 m).post d ⊢ Launch.Tst (F := F) d (W6 m d) 1 := by
  show tcAt d (Loss.Wexit (Wb m) (Ob (F := F)) (Bb (F := F)) d) (Ob (F := F) d) (Bb (F := F) d ∪ cfg2.waitPairs (none : HIx 1)) ⊢ _
  iintro ⟨Hh, Hp, HO⟩
  isplitl [Hh]; · iexact Hh
  isplitl [Hp]; · iexact Hp
  iapply (owes_out d 1 cfg2); iexact HO

end Cert.KernelIdeal.Sc.Chain

end
-- ==== Proof.TileSplit.lean ====
/-
  How the call's operands split: the whole arrays among the two SparseCores (and back), a SparseCore's among its sixteen
  vector subcores (and back). The read arrays go out as shares; the result columns as their 160 blocks, which are
  pairwise disjoint and cover the columns.
-/
import proofs.«208457_g31284541784245_cont_9to1_2229_14_alg».proof.Proof.TileDefs

noncomputable section

namespace Cert.KernelIdeal.Sc.Tile

open Cert.KernelIdeal Cert.KernelIdeal.Gen Cert.KernelIdeal.Sc

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Transfers (shareTok shareDrop pointsTo_toks_split pointsTo_toks_join)

variable {F : FTy → Type}

/-! ## The 160 blocks tile a column -/

theorem chunk_disjoint {c c' : Fin 2} {s s' : Fin 16} {r r' : Fin 5} (h : (c, s, r) ≠ (c', s', r')) : Disjoint (chunk c s r) (chunk c' s' r') := by
  refine Finset.disjoint_left.mpr fun p h1 h2 => h ?_
  rw [mem_chunk] at h1 h2
  have hc := c.isLt; have hc' := c'.isLt; have hr := r.isLt; have hr' := r'.isLt
  have e1 : s.val = s'.val := by omega
  have e2 : c.val = c'.val := by omega
  have e3 : r.val = r'.val := by omega
  exact Prod.ext (Fin.ext e2) (Prod.ext (Fin.ext e1) (Fin.ext e3))

abbrev chunkOf (t : Fin 2 × Fin 16 × Fin 5) : Finset S640000.Idx := chunk t.1 t.2.1 t.2.2

theorem chunks_disjoint : ∀ t ∈ (Finset.univ : Finset (Fin 2 × Fin 16 × Fin 5)), ∀ t' ∈ (Finset.univ : Finset (Fin 2 × Fin 16 × Fin 5)), t ≠ t' → Disjoint (chunkOf t) (chunkOf t') :=
  fun _ _ _ _ h => chunk_disjoint h

theorem chunks_cover : (Finset.univ : Finset (Fin 2 × Fin 16 × Fin 5)).biUnion chunkOf = Finset.univ := by
  refine Finset.eq_univ_iff_forall.mpr fun p => Finset.mem_biUnion.mpr ?_
  have hp : (p 0).val < 640000 := (p 0).isLt
  refine ⟨(⟨(p 0).val % 40000 / 20000, by omega⟩, ⟨(p 0).val / 40000, by omega⟩, ⟨(p 0).val % 20000 / 4000, by omega⟩), Finset.mem_univ _, ?_⟩
  show p ∈ chunk _ _ _
  rw [mem_chunk]
  constructor <;> (simp only []; omega)

/-- A column held whole is its 160 blocks, by SparseCore, vector subcore and block. -/
theorem ycol_split (d : Dev nD) (f : Buf (Elt F) (yLoc d)) :
    (yLoc d ↦{fullShare} f : sProp (MM F))
      = bigSep Finset.univ fun c : Fin 2 => bigSep Finset.univ fun s : Fin 16 => bigSep Finset.univ fun r : Fin 5 => yLoc d ↦[chunk c s r]{fullShare} f := by
  rw [← bigSep_congr fun c _ => bigSep_univ_prod (fun t : Fin 16 × Fin 5 => (yLoc d ↦[chunk c t.1 t.2]{fullShare} f : sProp (MM F))),
    ← bigSep_univ_prod (fun t : Fin 2 × Fin 16 × Fin 5 => (yLoc d ↦[chunkOf t]{fullShare} f : sProp (MM F))),
    ← pointsTo_biUnion Finset.univ (ℓ := yLoc d) chunkOf chunks_disjoint, chunks_cover]; try rfl
theorem zcol_split (d : Dev nD) (f : Buf (Elt F) (zLoc d)) :
    (zLoc d ↦{fullShare} f : sProp (MM F))
      = bigSep Finset.univ fun c : Fin 2 => bigSep Finset.univ fun s : Fin 16 => bigSep Finset.univ fun r : Fin 5 => zLoc d ↦[chunk c s r]{fullShare} f := by
  rw [← bigSep_congr fun c _ => bigSep_univ_prod (fun t : Fin 16 × Fin 5 => (zLoc d ↦[chunk c t.1 t.2]{fullShare} f : sProp (MM F))),
    ← bigSep_univ_prod (fun t : Fin 2 × Fin 16 × Fin 5 => (zLoc d ↦[chunkOf t]{fullShare} f : sProp (MM F))),
    ← pointsTo_biUnion Finset.univ (ℓ := zLoc d) chunkOf chunks_disjoint, chunks_cover]; try rfl

/-! ## The payloads, spelt out -/

section Split

variable [FloatOps F]
variable (TAB : (d : Dev nD) → Buf (Elt F) (tLoc d)) (IA : (d : Dev nD) → Buf (Elt F) (aLoc d)) (IB : (d : Dev nD) → Buf (Elt F) (bLoc d))

theorem st_eq (d : Dev nD) (c : Fin ((K (F := F)).nCore 0)) :
    (P TAB IA IB).st 0 d c = iprop(rd TAB IA IB d (qC (Fin.cast nCore_zero c)) ∗ bigSep Finset.univ fun s : Fin 16 => outIn d (Fin.cast nCore_zero c) s) := rfl
theorem dn_eq (d : Dev nD) (c : Fin ((K (F := F)).nCore 0)) :
    (P TAB IA IB).dn 0 d c = iprop(rd TAB IA IB d (qC (Fin.cast nCore_zero c)) ∗ bigSep Finset.univ fun s : Fin 16 => outDn TAB IA IB d (Fin.cast nCore_zero c) s) := rfl
theorem go_eq (d : Dev nD) (c : Fin ((K (F := F)).nCore 0)) (i : Fin ((K (F := F)).nSub 0)) :
    (P TAB IA IB).go 0 d c i = iprop(rd TAB IA IB d (qT (Fin.cast nCore_zero c) (Fin.cast nSub_zero i)) ∗ outIn d (Fin.cast nCore_zero c) (Fin.cast nSub_zero i)) := rfl
theorem td_eq (d : Dev nD) (c : Fin ((K (F := F)).nCore 0)) (i : Fin ((K (F := F)).nSub 0)) :
    (P TAB IA IB).td 0 d c i = iprop(rd TAB IA IB d (qT (Fin.cast nCore_zero c) (Fin.cast nSub_zero i)) ∗ outDn TAB IA IB d (Fin.cast nCore_zero c) (Fin.cast nSub_zero i)) := rfl

omit [FloatOps F] in
theorem bigSep_cores (Φ : Fin 2 → sProp (MM F)) :
    (bigSep Finset.univ fun c : Fin ((K (F := F)).nCore 0) => Φ (Fin.cast nCore_zero c)) = bigSep Finset.univ Φ :=
  bigSep_congr fun _ _ => congrArg Φ (Fin.ext rfl)
omit [FloatOps F] in
theorem bigSep_tiles (Φ : Fin 16 → sProp (MM F)) :
    (bigSep Finset.univ fun i : Fin ((K (F := F)).nSub 0) => Φ (Fin.cast nSub_zero i)) = bigSep Finset.univ Φ :=
  bigSep_congr fun _ _ => congrArg Φ (Fin.ext rfl)

/-- The three read arrays at share `q`, as `n` read shares and the rest. -/
theorem rd_split (d : Dev nD) (q : PosShare TreeShare) (n : ℕ) :
    rd TAB IA IB d q ⊢ iprop(rd TAB IA IB d (shareDrop q n) ∗ bigSep Finset.univ fun i : Fin n => rd TAB IA IB d (shareTok q n i)) := by
  rw [bigSep_sep', bigSep_sep']
  iintro ⟨Ht, Ha, Hb⟩
  ihave Ht' := (pointsTo_toks_split q n) $$ Ht
  ihave Ha' := (pointsTo_toks_split q n) $$ Ha
  ihave Hb' := (pointsTo_toks_split q n) $$ Hb
  icases Ht' with ⟨HtR, HtS⟩
  icases Ha' with ⟨HaR, HaS⟩
  icases Hb' with ⟨HbR, HbS⟩
  isplitl [HtR HaR HbR]
  · isplitl [HtR]; · iexact HtR
    isplitl [HaR]; · iexact HaR
    iexact HbR
  isplitl [HtS]; · iexact HtS
  isplitl [HaS]; · iexact HaS
  iexact HbS
theorem rd_join (d : Dev nD) (q : PosShare TreeShare) (n : ℕ) :
    iprop(rd TAB IA IB d (shareDrop q n) ∗ bigSep Finset.univ fun i : Fin n => rd TAB IA IB d (shareTok q n i)) ⊢ rd TAB IA IB d q := by
  rw [bigSep_sep', bigSep_sep']
  iintro ⟨⟨HtR, HaR, HbR⟩, HtS, HaS, HbS⟩
  isplitl [HtR HtS]
  · iapply (pointsTo_toks_join q n); isplitl [HtR] <;> iassumption
  isplitl [HaR HaS]
  · iapply (pointsTo_toks_join q n); isplitl [HaR] <;> iassumption
  · iapply (pointsTo_toks_join q n); isplitl [HbR] <;> iassumption

omit [FloatOps F] in
/-- Every vector subcore's blocks at some contents: the two columns' apart. -/
theorem outIn_all (d : Dev nD) :
    (bigSep Finset.univ fun c : Fin 2 => bigSep Finset.univ fun s : Fin 16 => outIn (F := F) d c s)
      = iprop((bigSep Finset.univ fun c : Fin 2 => bigSep Finset.univ fun s : Fin 16 => bigSep Finset.univ fun r : Fin 5 => iprop(∃ f, yLoc d ↦[chunk c s r]{fullShare} f))
          ∗ (bigSep Finset.univ fun c : Fin 2 => bigSep Finset.univ fun s : Fin 16 => bigSep Finset.univ fun r : Fin 5 => iprop(∃ f, zLoc d ↦[chunk c s r]{fullShare} f))) :=
  (bigSep_congr fun c _ => bigSep_sep' Finset.univ
      (fun s : Fin 16 => bigSep Finset.univ fun r : Fin 5 => (iprop(∃ f, yLoc d ↦[chunk c s r]{fullShare} f) : sProp (MM F)))
      (fun s : Fin 16 => bigSep Finset.univ fun r : Fin 5 => (iprop(∃ f, zLoc d ↦[chunk c s r]{fullShare} f) : sProp (MM F)))).trans
    (bigSep_sep' Finset.univ
      (fun c : Fin 2 => bigSep Finset.univ fun s : Fin 16 => bigSep Finset.univ fun r : Fin 5 => (iprop(∃ f, yLoc d ↦[chunk c s r]{fullShare} f) : sProp (MM F)))
      (fun c : Fin 2 => bigSep Finset.univ fun s : Fin 16 => bigSep Finset.univ fun r : Fin 5 => (iprop(∃ f, zLoc d ↦[chunk c s r]{fullShare} f) : sProp (MM F))))
/-- Every vector subcore's blocks at the values: the two columns' apart. -/
theorem outDn_all (d : Dev nD) :
    (bigSep Finset.univ fun c : Fin 2 => bigSep Finset.univ fun s : Fin 16 => outDn TAB IA IB d c s)
      = iprop((bigSep Finset.univ fun c : Fin 2 => bigSep Finset.univ fun s : Fin 16 => bigSep Finset.univ fun r : Fin 5 => yLoc d ↦[chunk c s r]{fullShare} Z0 TAB IA IB d)
          ∗ (bigSep Finset.univ fun c : Fin 2 => bigSep Finset.univ fun s : Fin 16 => bigSep Finset.univ fun r : Fin 5 => zLoc d ↦[chunk c s r]{fullShare} Z1 TAB IA IB d)) :=
  (bigSep_congr fun c _ => bigSep_sep' Finset.univ
      (fun s : Fin 16 => bigSep Finset.univ fun r : Fin 5 => (yLoc d ↦[chunk c s r]{fullShare} Z0 TAB IA IB d : sProp (MM F)))
      (fun s : Fin 16 => bigSep Finset.univ fun r : Fin 5 => (zLoc d ↦[chunk c s r]{fullShare} Z1 TAB IA IB d : sProp (MM F)))).trans
    (bigSep_sep' Finset.univ
      (fun c : Fin 2 => bigSep Finset.univ fun s : Fin 16 => bigSep Finset.univ fun r : Fin 5 => (yLoc d ↦[chunk c s r]{fullShare} Z0 TAB IA IB d : sProp (MM F)))
      (fun c : Fin 2 => bigSep Finset.univ fun s : Fin 16 => bigSep Finset.univ fun r : Fin 5 => (zLoc d ↦[chunk c s r]{fullShare} Z1 TAB IA IB d : sProp (MM F))))

omit [FloatOps F] in
theorem some_of {ℓ : Loc nD τ sig} (S : Finset (Idx ℓ)) (g : Buf (Elt F) ℓ) :
    (ℓ ↦[S]{fullShare} g : sProp (MM F)) ⊢ iprop(∃ f, ℓ ↦[S]{fullShare} f) := by
  iintro H; iexists _; iexact H

omit [FloatOps F] in
theorem ysome (d : Dev nD) (g : Buf (Elt F) (yLoc d)) :
    (bigSep Finset.univ fun c : Fin 2 => bigSep Finset.univ fun s : Fin 16 => bigSep Finset.univ fun r : Fin 5 => (yLoc d ↦[chunk c s r]{fullShare} g : sProp (MM F)))
      ⊢ bigSep Finset.univ fun c : Fin 2 => bigSep Finset.univ fun s : Fin 16 => bigSep Finset.univ fun r : Fin 5 => (iprop(∃ f, yLoc d ↦[chunk c s r]{fullShare} f) : sProp (MM F)) :=
  bigSep_mono fun c _ => bigSep_mono fun s _ => bigSep_mono fun r _ => some_of _ g
omit [FloatOps F] in
theorem zsome (d : Dev nD) (g : Buf (Elt F) (zLoc d)) :
    (bigSep Finset.univ fun c : Fin 2 => bigSep Finset.univ fun s : Fin 16 => bigSep Finset.univ fun r : Fin 5 => (zLoc d ↦[chunk c s r]{fullShare} g : sProp (MM F)))
      ⊢ bigSep Finset.univ fun c : Fin 2 => bigSep Finset.univ fun s : Fin 16 => bigSep Finset.univ fun r : Fin 5 => (iprop(∃ f, zLoc d ↦[chunk c s r]{fullShare} f) : sProp (MM F)) :=
  bigSep_mono fun c _ => bigSep_mono fun s _ => bigSep_mono fun r _ => some_of _ g

/-- Into the call: from the three read arrays whole and the two result columns whole at any contents, every
    SparseCore's start payload, and the share of the read arrays the TensorCore keeps meanwhile. -/
theorem st_intro (d : Dev nD) (gy : Buf (Elt F) (yLoc d)) (gz : Buf (Elt F) (zLoc d)) :
    iprop(rd TAB IA IB d fullShare ∗ (yLoc d ↦{fullShare} gy) ∗ (zLoc d ↦{fullShare} gz))
      ⊢ iprop((bigSep Finset.univ fun c : Fin ((K (F := F)).nCore 0) => (P TAB IA IB).st 0 d c) ∗ rd TAB IA IB d (shareDrop fullShare 2)) := by
  rw [bigSep_congr fun c _ => st_eq TAB IA IB d c,
    bigSep_cores (F := F) (fun c => iprop(rd TAB IA IB d (qC c) ∗ bigSep Finset.univ fun s : Fin 16 => outIn d c s)),
    bigSep_sep' Finset.univ (fun c : Fin 2 => rd TAB IA IB d (qC c)) (fun c : Fin 2 => bigSep Finset.univ fun s : Fin 16 => outIn (F := F) d c s),
    outIn_all, ycol_split, zcol_split]
  iintro ⟨Hrd, Hy, Hz⟩
  ihave Hrd' := (rd_split TAB IA IB d fullShare 2) $$ Hrd
  icases Hrd' with ⟨HR, HS⟩
  isplitr [HR]; rotate_left; · iexact HR
  isplitl [HS]; · iexact HS
  isplitl [Hy]
  · iapply (ysome d gy) $$ Hy
  · iapply (zsome d gz) $$ Hz

/-- Out of the call: from every SparseCore's done payload and the kept share, the three read arrays whole and unchanged
    and the two result columns whole at the values. -/
theorem dn_elim (d : Dev nD) :
    iprop((bigSep Finset.univ fun c : Fin ((K (F := F)).nCore 0) => (P TAB IA IB).dn 0 d c) ∗ rd TAB IA IB d (shareDrop fullShare 2))
      ⊢ iprop(rd TAB IA IB d fullShare ∗ (yLoc d ↦{fullShare} Z0 TAB IA IB d) ∗ (zLoc d ↦{fullShare} Z1 TAB IA IB d)) := by
  rw [bigSep_congr fun c _ => dn_eq TAB IA IB d c,
    bigSep_cores (F := F) (fun c => iprop(rd TAB IA IB d (qC c) ∗ bigSep Finset.univ fun s : Fin 16 => outDn TAB IA IB d c s)),
    bigSep_sep' Finset.univ (fun c : Fin 2 => rd TAB IA IB d (qC c)) (fun c : Fin 2 => bigSep Finset.univ fun s : Fin 16 => outDn TAB IA IB d c s),
    outDn_all, ycol_split, zcol_split]
  iintro ⟨⟨HS, Hy, Hz⟩, HR⟩
  isplitl [HS HR]
  · iapply (rd_join TAB IA IB d fullShare 2); isplitl [HR] <;> iassumption
  isplitl [Hy] <;> iassumption

/-- A SparseCore's payload among its vector subcores, and back. -/
theorem vecSplit : (K (F := F)).VecSplit' (P TAB IA IB) 0 := by
  intro d c
  rw [st_eq, dn_eq, bigSep_congr fun i _ => go_eq TAB IA IB d c i, bigSep_congr fun i _ => td_eq TAB IA IB d c i,
    bigSep_tiles (F := F) (fun i => iprop(rd TAB IA IB d (qT (Fin.cast nCore_zero c) i) ∗ outIn d (Fin.cast nCore_zero c) i)),
    bigSep_tiles (F := F) (fun i => iprop(rd TAB IA IB d (qT (Fin.cast nCore_zero c) i) ∗ outDn TAB IA IB d (Fin.cast nCore_zero c) i)),
    bigSep_sep' Finset.univ (fun i : Fin 16 => rd TAB IA IB d (qT (Fin.cast nCore_zero c) i)) (fun i : Fin 16 => outIn (F := F) d (Fin.cast nCore_zero c) i),
    bigSep_sep' Finset.univ (fun i : Fin 16 => rd TAB IA IB d (qT (Fin.cast nCore_zero c) i)) (fun i : Fin 16 => outDn TAB IA IB d (Fin.cast nCore_zero c) i)]
  iintro ⟨Hrd, Hout⟩
  ihave Hrd' := (rd_split TAB IA IB d (qC (Fin.cast nCore_zero c)) 16) $$ Hrd
  icases Hrd' with ⟨HR, HS⟩
  imodintro
  isplitl [HS Hout]
  · isplitl [HS] <;> iassumption
  iintro ⟨HS, Hout⟩
  isplitl [HR HS]
  · iapply (rd_join TAB IA IB d (qC (Fin.cast nCore_zero c)) 16); isplitl [HR] <;> iassumption
  · iexact Hout

end Split

end Cert.KernelIdeal.Sc.Tile

end
-- ==== Proof.ScRun.lean ====
/-
  The program's run at the named contents: the SparseCore call takes the table, the two index columns and the two
  result columns out of the TensorCore's unscoped buffers (the first three at a share it keeps part of across the
  call) and puts them back with the result columns written; with that and the two regions' thread states the launch
  theorem gives the run of @main and the thirty-two vector subcores, every unscoped buffer ending at the last
  boundary's contents.
-/
import proofs.«208457_g31284541784245_cont_9to1_2229_14_alg».proof.Proof.ScChain
import proofs.«208457_g31284541784245_cont_9to1_2229_14_alg».proof.Proof.TileSplit

noncomputable section

namespace Cert.KernelIdeal.Sc.Chain

open Cert.KernelIdeal Cert.KernelIdeal.Gen Cert.KernelIdeal.Sc
open Idealize.ShloMosaic Idealize.ShloMosaic.TcCoe
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Transfers (shareDrop)

variable {F : FTy → Type} [FloatOps F]
variable (m : (ℓ : Loc nD τ sig) → Buf (Elt F) ℓ)

/-! ## The five buffers of the SparseCore call -/

abbrev bT : DevRef τ sig := (main_v9 : DevRef τ sig)
abbrev bA : DevRef τ sig := (main_v11 : DevRef τ sig)
abbrev bB : DevRef τ sig := (main_v13 : DevRef τ sig)
abbrev bY : DevRef τ sig := (main_v14_0 : DevRef τ sig)
abbrev bZ : DevRef τ sig := (main_v14_1 : DevRef τ sig)
abbrev five : Finset (DevRef τ sig) := {bT, bA, bB, bY, bZ}

theorem five_sub : five ⊆ Launch.UC := by decide

theorem held_five (d : Dev nD) (W : Valuation τ sig (Elt F)) :
    (StableHlo.held (SparseCore.T d) five W : sProp (MM F))
      = iprop((Tile.tLoc d ↦{fullShare} W bT) ∗ (Tile.aLoc d ↦{fullShare} W bA) ∗ (Tile.bLoc d ↦{fullShare} W bB)
          ∗ (Tile.yLoc d ↦{fullShare} W bY) ∗ (Tile.zLoc d ↦{fullShare} W bZ)) := by
  unfold StableHlo.held
  show bigSep ({bT, bA, bB, bY, bZ} : Finset (DevRef τ sig)) _ = _
  rw [SparseCore.bigSep_insert' (by decide), SparseCore.bigSep_insert' (by decide), SparseCore.bigSep_insert' (by decide),
    SparseCore.bigSep_insert' (by decide), bigSep_singleton]

/-- The call's writes leave every other buffer, and the three arrays it reads, as they were. -/
theorem W4_T (d : Dev nD) : W4 m d bT = TAB m d :=
  (Function.update_of_ne (show bT ≠ bZ by decide) _ _).trans (Function.update_of_ne (show bT ≠ bY by decide) _ _)
theorem W4_A (d : Dev nD) : W4 m d bA = IA m d :=
  (Function.update_of_ne (show bA ≠ bZ by decide) _ _).trans (Function.update_of_ne (show bA ≠ bY by decide) _ _)
theorem W4_B (d : Dev nD) : W4 m d bB = IB m d :=
  (Function.update_of_ne (show bB ≠ bZ by decide) _ _).trans (Function.update_of_ne (show bB ≠ bY by decide) _ _)
theorem W4_Y (d : Dev nD) : W4 m d bY = Tile.Z0 (TAB m) (IA m) (IB m) d :=
  (Function.update_of_ne (show bY ≠ bZ by decide) _ _).trans (Function.update_self _ _ _)
theorem W4_Z (d : Dev nD) : W4 m d bZ = Tile.Z1 (TAB m) (IA m) (IB m) d := Function.update_self _ _ _
theorem W4_other (d : Dev nD) (b : DevRef τ sig) (hY : b ≠ bY) (hZ : b ≠ bZ) : W4 m d b = W3 m d b :=
  (Function.update_of_ne hZ _ _).trans (Function.update_of_ne hY _ _)

/-- What the TensorCore keeps across the call: its part of the share of the three read arrays, and every other buffer. -/
abbrev Keep (d : Dev nD) : sProp (MM F) :=
  iprop(Tile.rd (TAB m) (IA m) (IB m) d (shareDrop fullShare 2) ∗ StableHlo.held (SparseCore.T d) (Launch.UC \ five) (W3 m d))

set_option backward.isDefEq.respectTransparency.types false in
theorem hst (d : Dev nD) :
    StableHlo.held (SparseCore.T d) Launch.UC (StableHlo.after ops1 (W2 m d))
      ⊢ iprop((bigSep Finset.univ fun c : Fin ((K (F := F)).nCore 0) => (Tile.P (TAB m) (IA m) (IB m)).st 0 d c) ∗ Keep m d) := by
  have hs := Tile.st_intro (TAB m) (IA m) (IB m) d (W3 m d bY) (W3 m d bZ)
  show StableHlo.held (SparseCore.T d) Launch.UC (W3 m d) ⊢ _
  rw [StableHlo.held_sub_split (SparseCore.T d) five_sub (W3 m d), held_five]
  iintro ⟨⟨Ht, Ha, Hb, Hy, Hz⟩, Hrest⟩
  ihave H := hs $$ [Ht Ha Hb Hy Hz]
  · isplitl [Ht Ha Hb]
    · isplitl [Ht]; · iexact Ht
      isplitl [Ha]; · iexact Ha
      iexact Hb
    isplitl [Hy]; · iexact Hy
    iexact Hz
  icases H with ⟨Hst, Hrd⟩
  isplitl [Hst]; · iexact Hst
  isplitl [Hrd]; · iexact Hrd
  iexact Hrest

set_option backward.isDefEq.respectTransparency.types false in
theorem hdn (d : Dev nD) :
    iprop((bigSep Finset.univ fun c : Fin ((K (F := F)).nCore 0) => (Tile.P (TAB m) (IA m) (IB m)).dn 0 d c) ∗ Keep m d)
      ⊢ StableHlo.held (SparseCore.T d) Launch.UC (W4 m d) := by
  have hd := Tile.dn_elim (TAB m) (IA m) (IB m) d
  rw [StableHlo.held_sub_split (SparseCore.T d) five_sub (W4 m d), held_five, W4_T, W4_A, W4_B, W4_Y, W4_Z,
    StableHlo.held_congr (SparseCore.T d) (S := Launch.UC \ five) (V := W4 m d) (V' := W3 m d) (fun b hb => by
      have hn := (Finset.mem_sdiff.mp hb).2
      exact W4_other m d b (fun e => hn (by rw [e]; decide)) (fun e => hn (by rw [e]; decide)))]
  iintro ⟨Hdn, Hrd, Hrest⟩
  ihave H := hd $$ [Hdn Hrd]
  · isplitl [Hdn]; · iexact Hdn
    iexact Hrd
  icases H with ⟨⟨Ht, Ha, Hb⟩, Hy, Hz⟩
  isplitr [Hrest]
  · isplitl [Ht]; · iexact Ht
    isplitl [Ha]; · iexact Ha
    isplitl [Hb]; · iexact Hb
    isplitl [Hy]; · iexact Hy
    iexact Hz
  iexact Hrest

/-! ## The run -/

set_option backward.isDefEq.respectTransparency.types false in
/-- From any memory with zero counters whose index columns name nodes, every weakly fair execution of the program's
    threads terminates, nothing faulting, and every unscoped TensorCore buffer ends at the last boundary's contents. -/
theorem run_main [∀ e, Nonempty (Elt F e)] (g : Dev nD → PrngReg)
    (htile : (K (F := F)).TileObl (D (F := F)) 𝒱 (Tile.P (TAB m) (IA m) (IB m)) v₀ 0) :
    θ_run (Cert.KernelIdeal.defs (F := F)) (Cert.KernelIdeal.threads (F := F)) ⟨m, fun _ => 0, g⟩
      (fun r => ∀ d : Dev nD, ∀ b ∈ Launch.UC, r.2.mem (d, b) = W7 m d b) :=
  Launch.run_of (m := m) (g := g) (Py := Tile.P (TAB m) (IA m) (IB m)) (pdats := pd m) (R0 := R0 m) (R1 := R1 m)
    (W2 := W2 m) (W4 := W4 m) (W6 := W6 m) (Keep := Keep m) rfl (Tile.Px_emp (TAB m) (IA m) (IB m)) htile
    (Tile.vecSplit (TAB m) (IA m) (IB m)) (hpre0 m) (hpost0 m) (hst m) (hdn m) (hpre1 m) (hpost1 m)

end Cert.KernelIdeal.Sc.Chain

end
-- ==== Proof.MlpValue.lean ====
/-
  The dense layers' call (pipeline 0): the VALUE of its output array.

  The output has 10000 rows of four columns, written back in ten blocks of 1000 rows. Block t is the body's value
  (`k0_pay1`) of rows 1000 t .. 1000 t + 999 of the node features and of the six parameter arrays whole. So the
  whole array is ONE function `G0` of the seven input arrays: at row r, column k it is that value, for the block
  r / 1000, at row r % 1000 of the block and column k. Each point writes back the restriction of `G0` to its block,
  and the ten blocks cover the array.
-/
import proofs.«208457_g31284541784245_cont_9to1_2229_14_alg».proof.Proof.ScBase
import proofs.«208457_g31284541784245_cont_9to1_2229_14_alg».proof.Proof.Gen.KernelIdeal.Launch
import proofs.«208457_g31284541784245_cont_9to1_2229_14_alg».proof.Proof.Gen.KernelIdeal.Skeleton
import proofs.«208457_g31284541784245_cont_9to1_2229_14_alg».proof.Proof.Gen.KernelIdeal.Points
import proofs.«208457_g31284541784245_cont_9to1_2229_14_alg».proof.Proof.MlpDat
import Idealize.ShloMosaic.Lib.Pipeline.Value
import Idealize.ShloMosaic.Lib.ValueIdx
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Sc.Mlp

open Cert.KernelIdeal Cert.KernelIdeal.Gen
open Idealize.ShloMosaic Idealize.ShloMosaic.TcCoe Idealize.ShloMosaic.Tactic
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MM F

open Idealize.ShloMosaic.ValueIdx

theorem hz2 : (![0, 0] : Fin 2 → Nat) = fun _ => 0 := funext fun a => by fin_cases a <;> rfl

/-! ## The whole-array function -/

/-- Rows `1000 q .. 1000 q + 999` of the node features, as a block. -/
def blockRows (x : S10000x768.Idx → Elt F .f32) (q : Fin 10) : Vec F S1000x768 .f32 :=
  fun y => x (ix2 (⟨1000 * q.val + (y 0).val, by have h : (y 0).val < 1000 := (y 0).isLt; have := q.isLt; omega⟩ : Fin 10000)
    (⟨(y 1).val, (y 1).isLt⟩ : Fin 768))

/-- The block a row of the output lies in, and its place in the block. -/
def blkOf (j : S10000x4.Idx) : Fin 10 := ⟨(j 0).val / 1000, by have h : (j 0).val < 10000 := (j 0).isLt; omega⟩
def locOf (j : S10000x4.Idx) : S1000x4.Idx :=
  ix2 (⟨(j 0).val % 1000, Nat.mod_lt _ (by decide)⟩ : Fin 1000) (⟨(j 1).val, (j 1).isLt⟩ : Fin 4)

/-- The output array as one function of the seven input arrays: at an index, the body's value of the index's block
    of node features and of the parameters, at the index's place in the block. -/
def G0 (x : S10000x768.Idx → Elt F .f32) (W1 : Vec F S768x64 .f32) (b1 : Vec F S1x64 .f32) (W2 : Vec F S64x64 .f32)
    (b2 : Vec F S1x64 .f32) (wc : Vec F S64x4 .f32) (bc : Vec F S1x4 .f32) : S10000x4.Idx → Elt F .f32 :=
  fun j => k0_pay1 (blockRows x (blkOf j)) W1 b1 W2 b2 wc bc (locOf j)

theorem blkOf_eq (j : S10000x4.Idx) (t : Fin 10) (y : S1000x4.Idx) (h0 : (j 0).val = 1000 * t.val + (y 0).val) : blkOf j = t :=
  Fin.ext (by show (j 0).val / 1000 = t.val; have h : (y 0).val < 1000 := (y 0).isLt; omega)

theorem locOf_eq (j : S10000x4.Idx) (t : Fin 10) (y : S1000x4.Idx) (h0 : (j 0).val = 1000 * t.val + (y 0).val)
    (h1 : (j 1).val = (y 1).val) : locOf j = y := by
  funext a
  match a with
  | ⟨0, _⟩ => exact Fin.ext (by show (j 0).val % 1000 = (y 0).val; have h : (y 0).val < 1000 := (y 0).isLt; omega)
  | ⟨1, _⟩ => exact Fin.ext h1

/-! ## The printed index maps, decided over the grid -/

/-- The node features' and the output's block index is the point; every parameter window has the one block. -/
theorem idx_facts : ∀ t : Fin cfg0.N, win0_0.index t (0 : Fin 2) = t.val
    ∧ win0_0.index t (1 : Fin 2) = 0
    ∧ win0_7.index t (0 : Fin 2) = t.val
    ∧ win0_7.index t (1 : Fin 2) = 0
    ∧ win0_1.index t (0 : Fin 2) = 0
    ∧ win0_1.index t (1 : Fin 2) = 0
    ∧ win0_2.index t (0 : Fin 2) = 0
    ∧ win0_2.index t (1 : Fin 2) = 0
    ∧ win0_3.index t (0 : Fin 2) = 0
    ∧ win0_3.index t (1 : Fin 2) = 0
    ∧ win0_4.index t (0 : Fin 2) = 0
    ∧ win0_4.index t (1 : Fin 2) = 0
    ∧ win0_5.index t (0 : Fin 2) = 0
    ∧ win0_5.index t (1 : Fin 2) = 0
    ∧ win0_6.index t (0 : Fin 2) = 0
    ∧ win0_6.index t (1 : Fin 2) = 0 :=
  (by decide +kernel : ∀ t : Fin grid0.N, _)

section Region
variable (V : (c : Dev nD) → (b : Ref sig .tc) → Buf (Elt F) ((c : Thread nD τ).loc b))
  (O : Dev nD → CellTallies nD τ sig (HIx 1)) (B : Dev nD → Set (SemLoc sig × HIx 1))

/-! ## The blocks, read off the arrays -/

/-- Window 0's block at point `t` is rows `1000 t ..` of the node features. -/
theorem iblk0_eq (c : Dev nD) (t : Fin cfg0.N) :
    iblk V c 0 t = blockRows (V c main_arg2) ⟨t.val, lt_of_lt_of_eq t.isLt N_0⟩ := by
  have e := idx_facts t
  funext z
  show V c main_arg2 (((cfg0.win 0).blk t).view.emb z) = V c main_arg2 (ix2 _ _)
  refine congrArg _ (funext fun a => Fin.ext ?_)
  match a with
  | ⟨0, _⟩ => show win0_0.index t (0 : Fin 2) * 1000 + 1 * (z 0).val = 1000 * t.val + (z 0).val; omega
  | ⟨1, _⟩ => show win0_0.index t (1 : Fin 2) * 768 + 1 * (z 1).val = (z 1).val; omega

/-- Window 1 has one block: the whole array. -/
theorem iblk1_eq (c : Dev nD) (t : Fin cfg0.N) : iblk V c 1 t = V c main_arg4 := by
  have e := idx_facts t
  funext z
  show V c main_arg4 (((cfg0.win 1).blk t).view.emb z) = V c main_arg4 z
  refine congrArg _ (funext fun a => Fin.ext ?_)
  match a with
  | ⟨0, _⟩ => show win0_1.index t (0 : Fin 2) * 768 + 1 * (z 0).val = (z 0).val; omega
  | ⟨1, _⟩ => show win0_1.index t (1 : Fin 2) * 64 + 1 * (z 1).val = (z 1).val; omega

/-- Window 2 has one block: the whole array. -/
theorem iblk2_eq (c : Dev nD) (t : Fin cfg0.N) : iblk V c 2 t = V c main_v6 := by
  have e := idx_facts t
  funext z
  show V c main_v6 (((cfg0.win 2).blk t).view.emb z) = V c main_v6 z
  refine congrArg _ (funext fun a => Fin.ext ?_)
  match a with
  | ⟨0, _⟩ => show win0_2.index t (0 : Fin 2) * 1 + 1 * (z 0).val = (z 0).val; omega
  | ⟨1, _⟩ => show win0_2.index t (1 : Fin 2) * 64 + 1 * (z 1).val = (z 1).val; omega

/-- Window 3 has one block: the whole array. -/
theorem iblk3_eq (c : Dev nD) (t : Fin cfg0.N) : iblk V c 3 t = V c main_arg6 := by
  have e := idx_facts t
  funext z
  show V c main_arg6 (((cfg0.win 3).blk t).view.emb z) = V c main_arg6 z
  refine congrArg _ (funext fun a => Fin.ext ?_)
  match a with
  | ⟨0, _⟩ => show win0_3.index t (0 : Fin 2) * 64 + 1 * (z 0).val = (z 0).val; omega
  | ⟨1, _⟩ => show win0_3.index t (1 : Fin 2) * 64 + 1 * (z 1).val = (z 1).val; omega

/-- Window 4 has one block: the whole array. -/
theorem iblk4_eq (c : Dev nD) (t : Fin cfg0.N) : iblk V c 4 t = V c main_v7 := by
  have e := idx_facts t
  funext z
  show V c main_v7 (((cfg0.win 4).blk t).view.emb z) = V c main_v7 z
  refine congrArg _ (funext fun a => Fin.ext ?_)
  match a with
  | ⟨0, _⟩ => show win0_4.index t (0 : Fin 2) * 1 + 1 * (z 0).val = (z 0).val; omega
  | ⟨1, _⟩ => show win0_4.index t (1 : Fin 2) * 64 + 1 * (z 1).val = (z 1).val; omega

/-- Window 5 has one block: the whole array. -/
theorem iblk5_eq (c : Dev nD) (t : Fin cfg0.N) : iblk V c 5 t = V c main_v2 := by
  have e := idx_facts t
  funext z
  show V c main_v2 (((cfg0.win 5).blk t).view.emb z) = V c main_v2 z
  refine congrArg _ (funext fun a => Fin.ext ?_)
  match a with
  | ⟨0, _⟩ => show win0_5.index t (0 : Fin 2) * 64 + 1 * (z 0).val = (z 0).val; omega
  | ⟨1, _⟩ => show win0_5.index t (1 : Fin 2) * 4 + 1 * (z 1).val = (z 1).val; omega

/-- Window 6 has one block: the whole array. -/
theorem iblk6_eq (c : Dev nD) (t : Fin cfg0.N) : iblk V c 6 t = V c main_v5 := by
  have e := idx_facts t
  funext z
  show V c main_v5 (((cfg0.win 6).blk t).view.emb z) = V c main_v5 z
  refine congrArg _ (funext fun a => Fin.ext ?_)
  match a with
  | ⟨0, _⟩ => show win0_6.index t (0 : Fin 2) * 1 + 1 * (z 0).val = (z 0).val; omega
  | ⟨1, _⟩ => show win0_6.index t (1 : Fin 2) * 4 + 1 * (z 1).val = (z 1).val; omega

/-! ## From the blocks to the array -/

/-- What point `t` writes back is block `t` of `G0` of the arrays as the region finds them. -/
theorem flushed_eq (c : Dev nD) (t : Fin cfg0.N) :
    (dat0 V O B c).flushed 7 t = ((cfg0.win 7).blk t).view.read (Elt F)
      (G0 (V c main_arg2) (V c main_arg4) (V c main_v6) (V c main_arg6) (V c main_v7) (V c main_v2) (V c main_v5)) := by
  show (cfg0.win 7).cut (grid0.coords t) ((dat0 V O B c).after 7 t) = _
  rw [after7]
  unfold out7
  rw [View.canon_unit_zero hz2]
  simp only [View.ld_unit_zero (S := S1000x768) hz2, View.ld_unit_zero (S := S768x64) hz2, View.ld_unit_zero (S := S1x64) hz2,
    View.ld_unit_zero (S := S64x64) hz2, View.ld_unit_zero (S := S64x4) hz2, View.ld_unit_zero (S := S1x4) hz2]
  rw [iblk0_eq, iblk1_eq, iblk2_eq, iblk3_eq, iblk4_eq, iblk5_eq, iblk6_eq]
  have e := idx_facts t
  funext y
  show k0_pay1 (blockRows (V c main_arg2) ⟨t.val, lt_of_lt_of_eq t.isLt N_0⟩) (V c main_arg4) (V c main_v6) (V c main_arg6) (V c main_v7) (V c main_v2) (V c main_v5) y
    = k0_pay1 (blockRows (V c main_arg2) (blkOf (((cfg0.win 7).blk t).view.emb y))) (V c main_arg4) (V c main_v6) (V c main_arg6) (V c main_v7) (V c main_v2) (V c main_v5)
        (locOf (((cfg0.win 7).blk t).view.emb y))
  have h0 : ((((cfg0.win 7).blk t).view.emb y) 0).val = 1000 * t.val + (y 0).val := by
    show win0_7.index t (0 : Fin 2) * 1000 + 1 * (y 0).val = 1000 * t.val + (y 0).val; omega
  have h1 : ((((cfg0.win 7).blk t).view.emb y) 1).val = (y 1).val := by
    show win0_7.index t (1 : Fin 2) * 4 + 1 * (y 1).val = (y 1).val; omega
  rw [blkOf_eq _ ⟨t.val, lt_of_lt_of_eq t.isLt N_0⟩ y h0, locOf_eq _ ⟨t.val, lt_of_lt_of_eq t.isLt N_0⟩ y h0 h1]

/-- An index of the output array is in point `t`'s block iff each coordinate is in the block's range. -/
theorem mem_blk (t : Fin cfg0.N) (i : S10000x4.Idx) :
    i ∈ ((cfg0.win 7).blk t).view.set ↔ ∀ a : Fin 2, win0_7.index t a * S1000x4.size a ≤ (i a).val ∧ (i a).val < win0_7.index t a * S1000x4.size a + S1000x4.size a := by
  show i ∈ ((View.whole main_v8).slice (win0_7.rect t)).set ↔ _
  rw [View.set_slice_whole, Rect.mem_set_unit]
  exact Iff.rfl

/-- Every index of the output array is in the block of the point its row's thousand names. -/
theorem cover (i : S10000x4.Idx) : ∃ t : Fin cfg0.N, (cfg0.win 7).flush t = true ∧ i ∈ ((cfg0.win 7).blk t).view.set := by
  have hi0 : (i 0).val < 10000 := (i 0).isLt
  have hi1 : (i 1).val < 4 := (i 1).isLt
  let t : Fin cfg0.N := ⟨(i 0).val / 1000, by rw [show cfg0.N = 10 from N_0]; omega⟩
  have e := idx_facts t
  refine ⟨t, flush0_7 t, ?_⟩
  rw [mem_blk]
  intro a
  match a with
  | ⟨0, _⟩ => show win0_7.index t (0 : Fin 2) * 1000 ≤ (i 0).val ∧ (i 0).val < win0_7.index t (0 : Fin 2) * 1000 + 1000
              have ht : t.val = (i 0).val / 1000 := rfl
              omega
  | ⟨1, _⟩ => show win0_7.index t (1 : Fin 2) * 4 ≤ (i 1).val ∧ (i 1).val < win0_7.index t (1 : Fin 2) * 4 + 4; omega

/-- THE OUTPUT ARRAY after the region: `G0` of the seven input arrays as the region finds them. -/
theorem final (c : Dev nD) :
    (dat0 V O B c).arrAt 7 cfg0.N
      = G0 (V c main_arg2) (V c main_arg4) (V c main_v6) (V c main_arg6) (V c main_v7) (V c main_v2) (V c main_v5) :=
  (dat0 V O B c).arrAt_eq_of_cover 7 _ (fun t _ => flushed_eq V O B c t) cover

/-- The input arrays are as the region found them. -/
theorem kept (c : Dev nD) (w : Fin cfg0.W) (hw : (cfg0.win w).isOut = false) :
    (dat0 V O B c).arrAt w cfg0.N = V c (Pipeline.arrRef spec0 w) :=
  ((dat0 V O B c).arrAt_in w hw _).trans (A_eq V O B c w)

end Region

end Cert.KernelIdeal.Sc.Mlp

end
-- ==== Proof.LossValue.lean ====
/-
  The loss call (pipeline 1): the VALUE of its output array.

  The output array has one element and one block, written back after the last grid point only. What is written is the
  running sum after the last point divided by the number of pairs (`k2_pay2`). The running sum is the five block
  sums added up from zero in point order; block t of an input is rows 1000 t .. 1000 t + 999 of its array.
-/
import proofs.«208457_g31284541784245_cont_9to1_2229_14_alg».proof.Proof.ScBase
import proofs.«208457_g31284541784245_cont_9to1_2229_14_alg».proof.Proof.Gen.KernelIdeal.Launch
import proofs.«208457_g31284541784245_cont_9to1_2229_14_alg».proof.Proof.Gen.KernelIdeal.Skeleton
import proofs.«208457_g31284541784245_cont_9to1_2229_14_alg».proof.Proof.Gen.KernelIdeal.Points
import proofs.«208457_g31284541784245_cont_9to1_2229_14_alg».proof.Proof.LossDat
import Idealize.ShloMosaic.Lib.Pipeline.Value
import Idealize.ShloMosaic.Lib.ValueIdx
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Sc.Loss

open Cert.KernelIdeal Cert.KernelIdeal.Gen
open Idealize.ShloMosaic Idealize.ShloMosaic.TcCoe Idealize.ShloMosaic.Tactic
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MM F

open Idealize.ShloMosaic.ValueIdx

/-! ## The body's two values as arithmetic -/

/-- The cross entropy of the two logit blocks at the label block, element by element: the larger logit plus the log
    of the two exponentials taken off it, minus the logit the label selects (label 0 the first, any other the second). -/
def blockNll (x0 x1 : Vec F S1000x128 .f32) (x2 : Vec F S1000x128 .i32) : FVec F S1000x128 .f32 :=
  have z0 : FVec F S1000x128 .f32 := shapeCast S1000x128 x0 shapeCasts_S1000x128_S1000x128
  have z1 : FVec F S1000x128 .f32 := shapeCast S1000x128 x1 shapeCasts_S1000x128_S1000x128
  have mx : FVec F S1000x128 .f32 := maximumf z0 z1
  subf (addf mx (log (addf (exp (subf z0 mx)) (exp (subf z1 mx)))))
    (select (cmpi .eq (shapeCast S1000x128 x2 shapeCasts_S1000x128_S1000x128 : IVec S1000x128 32) (broadcast S1000x128 0#32)) z0 z1)

/-- The block's sum: the 128000 terms reduced to one number. -/
def blockSum (x0 x1 : Vec F S1000x128 .f32) (x2 : Vec F S1000x128 .i32) : F .f32 :=
  extractAt ![0, 0, 0]
    (shapeCast S1x1x1
      (multiReduction .add [1, 2] S1 (shapeCast S1x1000x128 (blockNll x0 x1 x2) shapeCasts_S1000x128_S1x1000x128) 0x00000000#32
        reduces_S1x1000x128_S1 (.inl rfl) rfl : FVec F S1 .f32)
      shapeCasts_S1_S1x1x1 : FVec F S1x1x1 .f32)
    inpos_S1x1x1_p0_0_0

/-- The accumulating store's value is the word read back plus the block's sum; -/
theorem pay1_eq (x0 x1 : Vec F S1000x128 .f32) (x2 : Vec F S1000x128 .i32) (v : Elt F .f32) :
    k2_pay1 x0 x1 x2 v = Scalar.addf v (blockSum x0 x1 x2) := rfl

/-- the output's, the word divided by the float word of 640000. -/
theorem pay2_eq (v : Elt F .f32) : k2_pay2 v = (broadcast S1x1 (Scalar.divf v (Scalar.ofBits .f32 0x491C4000#32)) : FVec F S1x1 .f32) := rfl

/-! ## The blocks, read off the arrays -/

/-- Rows `1000 q .. 1000 q + 999` of an array of 5000 rows of 128, as a block. -/
def blockRows {e : EltTy} (x : S5000x128.Idx → Elt F e) (q : Fin 5) : Vec F S1000x128 e :=
  fun y => x (ix2 (⟨1000 * q.val + (y 0).val, by have h : (y 0).val < 1000 := (y 0).isLt; have := q.isLt; omega⟩ : Fin 5000)
    (⟨(y 1).val, (y 1).isLt⟩ : Fin 128))

/-- The inputs' block index is the point; the output has the one block. -/
theorem idx_facts : ∀ t : Fin cfg2.N, win2_0.index t (0 : Fin 2) = t.val ∧ win2_0.index t (1 : Fin 2) = 0
    ∧ win2_1.index t (0 : Fin 2) = t.val ∧ win2_1.index t (1 : Fin 2) = 0
    ∧ win2_2.index t (0 : Fin 2) = t.val ∧ win2_2.index t (1 : Fin 2) = 0
    ∧ win2_3.index t (0 : Fin 2) = 0 ∧ win2_3.index t (1 : Fin 2) = 0 :=
  (by decide +kernel : ∀ t : Fin grid2.N, _)

section Region
variable (V : (c : Dev nD) → (b : Ref sig .tc) → Buf (Elt F) ((c : Thread nD τ).loc b))
  (O : Dev nD → CellTallies nD τ sig (HIx 1)) (B : Dev nD → Set (SemLoc sig × HIx 1))

theorem iblk0_eq (c : Dev nD) (t : Fin cfg2.N) :
    iblk V c 0 t = blockRows (V c main_v15) ⟨t.val, lt_of_lt_of_eq t.isLt N_2⟩ := by
  have e := idx_facts t
  funext z
  show V c main_v15 (((cfg2.win 0).blk t).view.emb z) = V c main_v15 (ix2 _ _)
  refine congrArg _ (funext fun a => Fin.ext ?_)
  match a with
  | ⟨0, _⟩ => show win2_0.index t (0 : Fin 2) * 1000 + 1 * (z 0).val = 1000 * t.val + (z 0).val; omega
  | ⟨1, _⟩ => show win2_0.index t (1 : Fin 2) * 128 + 1 * (z 1).val = (z 1).val; omega

theorem iblk1_eq (c : Dev nD) (t : Fin cfg2.N) :
    iblk V c 1 t = blockRows (V c main_v16) ⟨t.val, lt_of_lt_of_eq t.isLt N_2⟩ := by
  have e := idx_facts t
  funext z
  show V c main_v16 (((cfg2.win 1).blk t).view.emb z) = V c main_v16 (ix2 _ _)
  refine congrArg _ (funext fun a => Fin.ext ?_)
  match a with
  | ⟨0, _⟩ => show win2_1.index t (0 : Fin 2) * 1000 + 1 * (z 0).val = 1000 * t.val + (z 0).val; omega
  | ⟨1, _⟩ => show win2_1.index t (1 : Fin 2) * 128 + 1 * (z 1).val = (z 1).val; omega

theorem iblk2_eq (c : Dev nD) (t : Fin cfg2.N) :
    iblk V c 2 t = blockRows (V c main_v17) ⟨t.val, lt_of_lt_of_eq t.isLt N_2⟩ := by
  have e := idx_facts t
  funext z
  show V c main_v17 (((cfg2.win 2).blk t).view.emb z) = V c main_v17 (ix2 _ _)
  refine congrArg _ (funext fun a => Fin.ext ?_)
  match a with
  | ⟨0, _⟩ => show win2_2.index t (0 : Fin 2) * 1000 + 1 * (z 0).val = 1000 * t.val + (z 0).val; omega
  | ⟨1, _⟩ => show win2_2.index t (1 : Fin 2) * 128 + 1 * (z 1).val = (z 1).val; omega

/-! ## The running sum, unrolled -/

/-- Block `k`'s sum, of the three arrays as the region finds them. -/
def s (c : Dev nD) (k : Fin 5) : F .f32 :=
  blockSum (blockRows (V c main_v15) k) (blockRows (V c main_v16) k) (blockRows (V c main_v17) k)

theorem lt4 : 4 < cfg2.N := by rw [show cfg2.N = 5 from N_2]; decide

/-- The running sum after the last point: the five block sums added up from zero, in point order. -/
theorem acc4_eq (c : Dev nD) :
    acc V c 4 lt4 = Scalar.addf (Scalar.addf (Scalar.addf (Scalar.addf (Scalar.addf (Scalar.ofBits .f32 0x00000000#32)
      (s V c 0)) (s V c 1)) (s V c 2)) (s V c 3)) (s V c 4) := by
  unfold acc acc acc acc acc
  simp only [pay1_eq, iblk0_eq, iblk1_eq, iblk2_eq]
  rfl

/-! ## From the one block to the array -/

/-- The output array after the region. -/
def lossVal (c : Dev nD) : Vec F S1x1 .f32 := k2_pay2 (acc V c 4 lt4)

/-- What the last point writes back is the one block of `lossVal`. -/
theorem flushed_eq (c : Dev nD) (t : Fin cfg2.N) (hf : (cfg2.win 3).flush t = true) :
    (dat2 V O B c).flushed 3 t = ((cfg2.win 3).blk t).view.read (Elt F) (lossVal V c) := by
  have ht : t.val = 4 := by
    have := (flush2_3 t).mp hf
    have hN : t.val < 5 := lt_of_lt_of_eq t.isLt (show cfg2.N = 5 from N_2)
    omega
  have e := idx_facts t
  show (cfg2.win 3).cut (grid2.coords t) ((dat2 V O B c).after 3 t) = _
  rw [after3]
  obtain ⟨n, hn⟩ := t
  obtain rfl : n = 4 := ht
  funext y
  show k2_pay2 (acc V c 4 hn) y = k2_pay2 (acc V c 4 lt4) (((cfg2.win 3).blk ⟨4, hn⟩).view.emb y)
  refine congrArg _ (funext fun a => Fin.ext ?_)
  match a with
  | ⟨0, _⟩ => show (y 0).val = win2_3.index ⟨4, hn⟩ (0 : Fin 2) * 1 + 1 * (y 0).val; omega
  | ⟨1, _⟩ => show (y 1).val = win2_3.index ⟨4, hn⟩ (1 : Fin 2) * 1 + 1 * (y 1).val; omega

theorem mem_blk (t : Fin cfg2.N) (i : S1x1.Idx) :
    i ∈ ((cfg2.win 3).blk t).view.set ↔ ∀ a : Fin 2, win2_3.index t a * S1x1.size a ≤ (i a).val ∧ (i a).val < win2_3.index t a * S1x1.size a + S1x1.size a := by
  show i ∈ ((View.whole main_v18).slice (win2_3.rect t)).set ↔ _
  rw [View.set_slice_whole, Rect.mem_set_unit]
  exact Iff.rfl

/-- The one element is in the last point's block. -/
theorem cover (i : S1x1.Idx) : ∃ t : Fin cfg2.N, (cfg2.win 3).flush t = true ∧ i ∈ ((cfg2.win 3).blk t).view.set := by
  have hi0 : (i 0).val < 1 := (i 0).isLt
  have hi1 : (i 1).val < 1 := (i 1).isLt
  let t : Fin cfg2.N := ⟨4, lt4⟩
  have e := idx_facts t
  refine ⟨t, (flush2_3 t).mpr rfl, ?_⟩
  rw [mem_blk]
  intro a
  match a with
  | ⟨0, _⟩ => show win2_3.index t (0 : Fin 2) * 1 ≤ (i 0).val ∧ (i 0).val < win2_3.index t (0 : Fin 2) * 1 + 1; omega
  | ⟨1, _⟩ => show win2_3.index t (1 : Fin 2) * 1 ≤ (i 1).val ∧ (i 1).val < win2_3.index t (1 : Fin 2) * 1 + 1; omega

/-- THE OUTPUT ARRAY after the region: the running sum after the last point, divided by the number of pairs. -/
theorem final (c : Dev nD) : (dat2 V O B c).arrAt 3 cfg2.N = lossVal V c :=
  (dat2 V O B c).arrAt_eq_of_cover 3 _ (fun t hf => flushed_eq V O B c t hf) cover

/-- The same, spelt out: the five block sums added up from zero and divided by the float word of 640000. -/
theorem final_spelt (c : Dev nD) :
    (dat2 V O B c).arrAt 3 cfg2.N = (broadcast S1x1 (Scalar.divf
      (Scalar.addf (Scalar.addf (Scalar.addf (Scalar.addf (Scalar.addf (Scalar.ofBits .f32 0x00000000#32)
        (s V c 0)) (s V c 1)) (s V c 2)) (s V c 3)) (s V c 4))
      (Scalar.ofBits .f32 0x491C4000#32)) : FVec F S1x1 .f32) := by
  rw [final, lossVal, acc4_eq, pay2_eq]

/-- The input arrays are as the region found them. -/
theorem kept (c : Dev nD) (w : Fin cfg2.W) (hw : (cfg2.win w).isOut = false) :
    (dat2 V O B c).arrAt w cfg2.N = V c (Pipeline.arrRef spec2 w) :=
  ((dat2 V O B c).arrAt_in w hw _).trans (A_eq V O B c w)

end Region

end Cert.KernelIdeal.Sc.Loss

end
-- ==== Proof.MlpLossExit.lean ====
/-
  The two regions' exit contents, read: after the dense layers' call the buffer of its output holds `Mlp.G0` of the
  seven input arrays as the region found them and every other buffer of the TensorCore holds what it held; after the
  loss call the one-element output holds `Loss.lossVal` and every other buffer what it held. (An input array of a call
  is one of its windows' arrays: the pipeline never writes it.)
-/
import proofs.«208457_g31284541784245_cont_9to1_2229_14_alg».proof.Proof.ScBase
import proofs.«208457_g31284541784245_cont_9to1_2229_14_alg».proof.Proof.Gen.KernelIdeal.Launch
import proofs.«208457_g31284541784245_cont_9to1_2229_14_alg».proof.Proof.Gen.KernelIdeal.Skeleton
import proofs.«208457_g31284541784245_cont_9to1_2229_14_alg».proof.Proof.Gen.KernelIdeal.Points
import proofs.«208457_g31284541784245_cont_9to1_2229_14_alg».proof.Proof.MlpLossRegions
import proofs.«208457_g31284541784245_cont_9to1_2229_14_alg».proof.Proof.MlpValue
import proofs.«208457_g31284541784245_cont_9to1_2229_14_alg».proof.Proof.LossValue
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Sc

open Cert.KernelIdeal Cert.KernelIdeal.Gen
open Idealize.ShloMosaic Idealize.ShloMosaic.TcCoe Idealize.ShloMosaic.Tactic
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MM F

section Exit

variable (Wa Wb : Dev nD → Valuation τ sig (Elt F))
  (Oa Ob : Dev nD → CellTallies nD τ sig (HIx 1)) (Ba Bb : Dev nD → Set (SemLoc sig × HIx 1))

/-- Every window of the dense layers' call but the last is an input; the last one's array is the output buffer. -/
theorem Mlp.isIn : ∀ w : Fin cfg0.W, Pipeline.arrRef spec0 w ≠ main_v8 → (cfg0.win w).isOut = false := by decide
theorem Loss.isIn : ∀ w : Fin cfg2.W, Pipeline.arrRef spec2 w ≠ main_v18 → (cfg2.win w).isOut = false := by decide

/-- After the dense layers' call its output buffer holds `G0` of the seven input arrays as entered; -/
theorem Mlp.exit_out (c : Dev nD) :
    Mlp.Wexit Wa Oa Ba c (Proc.devRef .tc main_v8)
      = Mlp.G0 (Vof Wa c main_arg2) (Vof Wa c main_arg4) (Vof Wa c main_v6) (Vof Wa c main_arg6) (Vof Wa c main_v7) (Vof Wa c main_v2) (Vof Wa c main_v5) :=
  (Mlp.Wexit_arr Wa Oa Ba c 7).trans (Mlp.final (Vof Wa) Oa Ba c)

/-- every other buffer of the TensorCore what it held. -/
theorem Mlp.exit_other (c : Dev nD) (b : Ref sig .tc) (hb : b ≠ main_v8) :
    Mlp.Wexit Wa Oa Ba c (Proc.devRef .tc b) = Wa c (Proc.devRef .tc b) := by
  by_cases h : ∃ w, Pipeline.arrRef spec0 w = b
  · obtain ⟨w, rfl⟩ := h
    exact (Mlp.Wexit_arr Wa Oa Ba c w).trans (Mlp.kept (Vof Wa) Oa Ba c w (Mlp.isIn w hb))
  · exact Mlp.Wexit_of_ne Wa Oa Ba c b fun w e => h ⟨w, e⟩

/-- After the loss call its one-element output holds the running sum after the last point over the number of pairs; -/
theorem Loss.exit_out (c : Dev nD) :
    Loss.Wexit Wb Ob Bb c (Proc.devRef .tc main_v18) = Loss.lossVal (Vof Wb) c :=
  (Loss.Wexit_arr Wb Ob Bb c 3).trans (Loss.final (Vof Wb) Ob Bb c)

/-- every other buffer of the TensorCore what it held. -/
theorem Loss.exit_other (c : Dev nD) (b : Ref sig .tc) (hb : b ≠ main_v18) :
    Loss.Wexit Wb Ob Bb c (Proc.devRef .tc b) = Wb c (Proc.devRef .tc b) := by
  by_cases h : ∃ w, Pipeline.arrRef spec2 w = b
  · obtain ⟨w, rfl⟩ := h
    exact (Loss.Wexit_arr Wb Ob Bb c w).trans (Loss.kept (Vof Wb) Ob Bb c w (Loss.isIn w hb))
  · exact Loss.Wexit_of_ne Wb Ob Bb c b fun w e => h ⟨w, e⟩

end Exit

end Cert.KernelIdeal.Sc

end
-- ==== Proof.Spec.lean ====
/-
  The function both programs compute, stated once over the argument arrays, index by index, on the extended reals.

  A node's features pass through two dense layers with a rectifier after each (`hid1`, `hid2`). A pair `p` names
  two nodes (columns 0 and 1 of the index array); its logit for label `l` is the left node's hidden row against
  rows 0..63 of the classifier, plus the right node's hidden row against rows 64..127, plus the bias (`logit`).
  The loss is the mean over the pairs of the cross entropy of the two logits at the pair's label, written through
  the larger logit: `max + log (exp (z0 - max) + exp (z1 - max))` minus the logit the label selects (`nll`, `loss`).
-/
import Idealize.ShloMosaic.PureOps.Ideal
import Idealize.ShloMosaic.Lib.ValueIdx

noncomputable section

namespace Cert.Spec

open Idealize.ShloMosaic Idealize.ShloMosaic.ValueIdx

abbrev Sh0 : Shape := ⟨0, ![]⟩
abbrev Sh1 (a : Nat) : Shape := ⟨1, ![a]⟩
abbrev Sh2 (a b : Nat) : Shape := ⟨2, ![a, b]⟩

/-- The row an index word names: the word's value when it is below the number of nodes; row 0 otherwise (a word
    out of range is excluded by the precondition, the value there is never used). -/
def node (w : BitVec 32) : Fin 10000 := if h : w.toNat < 10000 then ⟨w.toNat, h⟩ else ⟨0, by decide⟩

theorem node_val {w : BitVec 32} (h : w.toNat < 10000) : (node w).val = w.toNat := by
  unfold node; rw [dif_pos h]

section Layers

variable (x : (Sh2 10000 768).Idx → EReal) (W1 : (Sh2 768 64).Idx → EReal) (b1 : (Sh1 64).Idx → EReal)
  (W2 : (Sh2 64 64).Idx → EReal) (b2 : (Sh1 64).Idx → EReal) (Wc : (Sh2 128 2).Idx → EReal) (bc : (Sh1 2).Idx → EReal)

/-- The first hidden layer at node `n`, unit `j`: the rectified affine image of the node's features. -/
def hid1 (n : Fin 10000) (j : Fin 64) : EReal :=
  max ((∑ k : Fin 768, x (ix2 n k) * W1 (ix2 k j)) + b1 (ix1 j)) 0

/-- The second hidden layer at node `n`, unit `j`. -/
def hid2 (n : Fin 10000) (j : Fin 64) : EReal :=
  max ((∑ k : Fin 64, hid1 x W1 b1 n k * W2 (ix2 k j)) + b2 (ix1 j)) 0

/-- Row `k` of the classifier's upper half, and of its lower half. -/
abbrev top (k : Fin 64) : Fin 128 := ⟨k.val, by omega⟩
abbrev bot (k : Fin 64) : Fin 128 := ⟨64 + k.val, by omega⟩

/-- A node's contribution as a LEFT endpoint to label `l`, and as a RIGHT endpoint. -/
def leftPart (n : Fin 10000) (l : Fin 2) : EReal := ∑ k : Fin 64, hid2 x W1 b1 W2 b2 n k * Wc (ix2 (top k) l)
def rightPart (n : Fin 10000) (l : Fin 2) : EReal := ∑ k : Fin 64, hid2 x W1 b1 W2 b2 n k * Wc (ix2 (bot k) l)

variable (idx : (Sh2 640000 2).Idx → BitVec 32) (lab : (Sh1 640000).Idx → BitVec 32)

/-- The logit of pair `p` for label `l`. -/
def logit (p : Fin 640000) (l : Fin 2) : EReal :=
  (leftPart x W1 b1 W2 b2 Wc (node (idx (ix2 p 0))) l + rightPart x W1 b1 W2 b2 Wc (node (idx (ix2 p 1))) l) + bc (ix1 l)

/-- The cross entropy of two logits at a label word (label 0 selects the first logit, any other word the second). -/
def nll (z0 z1 : EReal) (w : BitVec 32) : EReal :=
  (max z0 z1 + Ideal.log (Ideal.exp (z0 - max z0 z1) + Ideal.exp (z1 - max z0 z1))) - (if w = 0#32 then z0 else z1)

/-- The mean cross entropy over the pairs; the divisor is the float word of 640000, kept as a word. -/
def loss : EReal :=
  Ideal.div (∑ p : Fin 640000, nll (logit x W1 b1 W2 b2 Wc bc idx p 0) (logit x W1 b1 W2 b2 Wc bc idx p 1) (lab (ix1 p)))
    (Ideal.ofBits .f32 0x491C4000#32)

/-- The two result arrays. -/
def logitsArr : (Sh2 640000 2).Idx → EReal := fun j => logit x W1 b1 W2 b2 Wc bc idx (j 0) (j 1)
def lossArr : Sh0.Idx → EReal := fun _ => loss x W1 b1 W2 b2 Wc bc idx lab

end Layers

end Cert.Spec

end
-- ==== Proof.GlueOps0.lean ====
/-
  The host operations before the node-table call, read at an index.
  The [128, 2] classifier is cut into its rows 0..63 and its rows 64..127 and the two halves are set side by side into a
  [64, 4] array: column `l` is column `l` of the upper half, column `2 + l` is column `l` of the lower half. The bias of 2
  entries is extended by two zeros to 4 entries and viewed as a [1, 4] row; the two hidden layers' biases are viewed as
  [1, 64] rows. The ten argument arrays are left as they were.
-/
import proofs.«208457_g31284541784245_cont_9to1_2229_14_alg».proof.Proof.ScMain
import proofs.«208457_g31284541784245_cont_9to1_2229_14_alg».proof.Proof.Spec
import Idealize.ShloMosaic.Lib.ValueIdx
import Idealize.ShloMosaic.Lib.ValueLayout
import Idealize.ShloMosaic.Lib.Pipeline.Value
import Idealize.ShloMosaic.Lib.StableHlo.Run

noncomputable section

namespace Cert.KernelIdeal.Sc.Glue

open Cert.KernelIdeal Cert.KernelIdeal.Gen Cert.KernelIdeal.Sc
open Idealize.ShloMosaic Idealize.ShloMosaic.TcCoe Idealize.ShloMosaic.ValueIdx Idealize.SL.Sem Idealize.ShloMosaic.StableHlo

variable {F : FTy → Type} [FloatOps F]

/-- The [64, 4] classifier as the operations' term of the [128, 2] classifier. -/
theorem ops0_v2_term (V : Valuation τ sig (Elt F)) :
    (after (ops0 (F := F)) V (main_v2 : DevRef τ sig) : S64x4.Idx → F .f32)
      = concatenate S64x4 1
          [⟨S64x2, extractStridedSlice S64x2 ![0, 0] (V (main_arg8 : DevRef τ sig) : S128x2.Idx → F .f32) slices_S128x2_S64x2_0_0⟩,
           ⟨S64x2, extractStridedSlice S64x2 ![64, 0] (V (main_arg8 : DevRef τ sig) : S128x2.Idx → F .f32) slices_S128x2_S64x2_64_0⟩]
          concatenates_S64x2_S64x2_S64x4_d1 := by
  after_results_simp
  rfl

/-- Column `l` of the [64, 4] classifier, row `k`: row `k` of the upper half, label `l`. -/
theorem ops0_v2_left (V : Valuation τ sig (Elt F)) (k : Fin 64) (l : Fin 2) :
    (after (ops0 (F := F)) V (main_v2 : DevRef τ sig) : S64x4.Idx → F .f32) (ix2 k (⟨l.val, by omega⟩ : Fin 4))
      = (V (main_arg8 : DevRef τ sig) : S128x2.Idx → F .f32) (ix2 (Cert.Spec.top k) l) := by
  rw [ops0_v2_term]
  refine (concatenate_pair_apply_left (t := S64x4) (s₁ := S64x2) (s₂ := S64x2) (1 : Fin 2) _ _ _
    (ix2 k (⟨l.val, by omega⟩ : Fin 4)) (by rfl) (ix2 k l) fun b => ?_).trans ?_
  · match b with
    | ⟨0, _⟩ => rfl
    | ⟨1, _⟩ => rfl
  · refine extractStridedSlice_apply (s := S128x2) (t := S64x2) _ _ _ (ix2 k l) (ix2 (Cert.Spec.top k) l) fun a => ?_
    match a with
    | ⟨0, _⟩ => show k.val = 0 + k.val; omega
    | ⟨1, _⟩ => show l.val = 0 + l.val; omega

/-- Column `2 + l` of the [64, 4] classifier, row `k`: row `k` of the lower half, label `l`. -/
theorem ops0_v2_right (V : Valuation τ sig (Elt F)) (k : Fin 64) (l : Fin 2) :
    (after (ops0 (F := F)) V (main_v2 : DevRef τ sig) : S64x4.Idx → F .f32) (ix2 k (⟨2 + l.val, by omega⟩ : Fin 4))
      = (V (main_arg8 : DevRef τ sig) : S128x2.Idx → F .f32) (ix2 (Cert.Spec.bot k) l) := by
  rw [ops0_v2_term]
  refine (concatenate_pair_apply_right (t := S64x4) (s₁ := S64x2) (s₂ := S64x2) (1 : Fin 2) _ _ _
    (ix2 k (⟨2 + l.val, by omega⟩ : Fin 4)) (by rfl) (by rfl) (ix2 k l) (fun b hb => ?_) ?_).trans ?_
  · match b with
    | ⟨0, _⟩ => rfl
    | ⟨1, _⟩ => exact absurd rfl hb
  · show l.val + 2 = 2 + l.val
    omega
  · refine extractStridedSlice_apply (s := S128x2) (t := S64x2) _ _ _ (ix2 k l) (ix2 (Cert.Spec.bot k) l) fun a => ?_
    match a with
    | ⟨0, _⟩ => show 64 + k.val = 64 + k.val; rfl
    | ⟨1, _⟩ => show l.val = 0 + l.val; omega

/-- The [1, 4] bias row as the operations' term of the bias. -/
theorem ops0_v5_term (V : Valuation τ sig (Elt F)) :
    (after (ops0 (F := F)) V (main_v5 : DevRef τ sig) : S1x4.Idx → F .f32)
      = broadcastInDim S1x4 ![1] bcast_S4_S1x4_1
          (concatenate S4 0
            [⟨S2, (V (main_arg9 : DevRef τ sig) : S2.Idx → F .f32)⟩,
             ⟨S2, broadcastInDim S2 ![] bcast_S_S2 (constant (F := F) S_ .f32 0x00000000#32)⟩]
            concatenates_S2_S2_S4_d0) := by
  after_results_simp
  rfl

/-- A vector of 4 entries viewed as a [1, 4] row, at column `j`. -/
theorem row4_apply (x : S4.Idx → F .f32) (j : Fin 4) :
    broadcastInDim S1x4 ![1] bcast_S4_S1x4_1 x (ix2 (0 : Fin 1) j) = x (ix1 j) := by
  refine broadcastInDim_apply (s := S4) (t := S1x4) _ _ _ _ (ix1 j) fun a => ?_
  match a with
  | ⟨0, _⟩ =>
    show j.val = if (4 : Nat) = 1 then 0 else j.val
    rw [if_neg (by decide)]

/-- A vector of 64 entries viewed as a [1, 64] row, at column `j`. -/
theorem row64_apply (x : S64.Idx → F .f32) (j : Fin 64) :
    broadcastInDim S1x64 ![1] bcast_S64_S1x64_1 x (ix2 (0 : Fin 1) j) = x (ix1 j) := by
  refine broadcastInDim_apply (s := S64) (t := S1x64) _ _ _ _ (ix1 j) fun a => ?_
  match a with
  | ⟨0, _⟩ =>
    show j.val = if (64 : Nat) = 1 then 0 else j.val
    rw [if_neg (by decide)]

/-- Column `l` of the bias row: the bias at label `l`. -/
theorem ops0_v5_left (V : Valuation τ sig (Elt F)) (l : Fin 2) :
    (after (ops0 (F := F)) V (main_v5 : DevRef τ sig) : S1x4.Idx → F .f32) (ix2 (0 : Fin 1) (⟨l.val, by omega⟩ : Fin 4))
      = (V (main_arg9 : DevRef τ sig) : S2.Idx → F .f32) (ix1 l) := by
  rw [ops0_v5_term, row4_apply]
  refine concatenate_pair_apply_left (t := S4) (s₁ := S2) (s₂ := S2) (0 : Fin 1) _ _ _
    (ix1 (⟨l.val, by omega⟩ : Fin 4)) (by rfl) (ix1 l) fun b => ?_
  match b with
  | ⟨0, _⟩ => rfl

/-- Column `2 + l` of the bias row: the zero constant. -/
theorem ops0_v5_right (V : Valuation τ sig (Elt F)) (l : Fin 2) :
    (after (ops0 (F := F)) V (main_v5 : DevRef τ sig) : S1x4.Idx → F .f32) (ix2 (0 : Fin 1) (⟨2 + l.val, by omega⟩ : Fin 4))
      = (FloatOps.ofBits .f32 0x00000000#32 : F .f32) := by
  rw [ops0_v5_term, row4_apply]
  refine (concatenate_pair_apply_right (t := S4) (s₁ := S2) (s₂ := S2) (0 : Fin 1) _ _ _
    (ix1 (⟨2 + l.val, by omega⟩ : Fin 4)) (by rfl) (by rfl) (ix1 l) (fun b hb => ?_) ?_).trans rfl
  · match b with
    | ⟨0, _⟩ => exact absurd rfl hb
  · show l.val + 2 = 2 + l.val
    omega

/-- The first hidden layer's bias as a [1, 64] row. -/
theorem ops0_v6 (V : Valuation τ sig (Elt F)) (j : Fin 64) :
    (after (ops0 (F := F)) V (main_v6 : DevRef τ sig) : S1x64.Idx → F .f32) (ix2 (0 : Fin 1) j)
      = (V (main_arg5 : DevRef τ sig) : S64.Idx → F .f32) (ix1 j) := by
  have e : (after (ops0 (F := F)) V (main_v6 : DevRef τ sig) : S1x64.Idx → F .f32)
      = broadcastInDim S1x64 ![1] bcast_S64_S1x64_1 (V (main_arg5 : DevRef τ sig) : S64.Idx → F .f32) := by
    after_results_simp
  rw [e, row64_apply]

/-- The second hidden layer's bias as a [1, 64] row. -/
theorem ops0_v7 (V : Valuation τ sig (Elt F)) (j : Fin 64) :
    (after (ops0 (F := F)) V (main_v7 : DevRef τ sig) : S1x64.Idx → F .f32) (ix2 (0 : Fin 1) j)
      = (V (main_arg7 : DevRef τ sig) : S64.Idx → F .f32) (ix1 j) := by
  have e : (after (ops0 (F := F)) V (main_v7 : DevRef τ sig) : S1x64.Idx → F .f32)
      = broadcastInDim S1x64 ![1] bcast_S64_S1x64_1 (V (main_arg7 : DevRef τ sig) : S64.Idx → F .f32) := by
    after_results_simp
  rw [e, row64_apply]

/-! The stretch leaves the argument arrays as they were. -/

theorem ops0_arg0 (V : Valuation τ sig (Elt F)) : after (ops0 (F := F)) V (main_arg0 : DevRef τ sig) = V (main_arg0 : DevRef τ sig) := by
  after_results_simp
theorem ops0_arg1 (V : Valuation τ sig (Elt F)) : after (ops0 (F := F)) V (main_arg1 : DevRef τ sig) = V (main_arg1 : DevRef τ sig) := by
  after_results_simp
theorem ops0_arg2 (V : Valuation τ sig (Elt F)) : after (ops0 (F := F)) V (main_arg2 : DevRef τ sig) = V (main_arg2 : DevRef τ sig) := by
  after_results_simp
theorem ops0_arg3 (V : Valuation τ sig (Elt F)) : after (ops0 (F := F)) V (main_arg3 : DevRef τ sig) = V (main_arg3 : DevRef τ sig) := by
  after_results_simp
theorem ops0_arg4 (V : Valuation τ sig (Elt F)) : after (ops0 (F := F)) V (main_arg4 : DevRef τ sig) = V (main_arg4 : DevRef τ sig) := by
  after_results_simp
theorem ops0_arg5 (V : Valuation τ sig (Elt F)) : after (ops0 (F := F)) V (main_arg5 : DevRef τ sig) = V (main_arg5 : DevRef τ sig) := by
  after_results_simp
theorem ops0_arg6 (V : Valuation τ sig (Elt F)) : after (ops0 (F := F)) V (main_arg6 : DevRef τ sig) = V (main_arg6 : DevRef τ sig) := by
  after_results_simp
theorem ops0_arg7 (V : Valuation τ sig (Elt F)) : after (ops0 (F := F)) V (main_arg7 : DevRef τ sig) = V (main_arg7 : DevRef τ sig) := by
  after_results_simp
theorem ops0_arg8 (V : Valuation τ sig (Elt F)) : after (ops0 (F := F)) V (main_arg8 : DevRef τ sig) = V (main_arg8 : DevRef τ sig) := by
  after_results_simp
theorem ops0_arg9 (V : Valuation τ sig (Elt F)) : after (ops0 (F := F)) V (main_arg9 : DevRef τ sig) = V (main_arg9 : DevRef τ sig) := by
  after_results_simp

/-- Any TensorCore buffer the stretch does not write is left as it was. -/
theorem ops0_keep (V : Valuation τ sig (Elt F)) (r : Ref sig .tc)
    (hr : r ∉ [main_v0, main_v1, main_v2, main_cst, main_v3, main_v4, main_v5, main_v6, main_v7]) :
    after (ops0 (F := F)) V (r : DevRef τ sig) = V (r : DevRef τ sig) :=
  after_of_writes_sub (W := [main_v0, main_v1, main_v2, main_cst, main_v3, main_v4, main_v5, main_v6, main_v7]) _ V
    (by simp [ops0]) hr

end Cert.KernelIdeal.Sc.Glue

end
-- ==== Proof.GlueOps1.lean ====
/-
  The host operations between the node-table call and the pair-logits call, read at an index.
  The [10000, 4] table is flattened row-major (entry n of the flat array is row n / 4, column n % 4); the two columns of
  the pair array are sliced off and flattened (entry p is the pair's left, resp. right, index word). The ten argument
  arrays are left as they were.
-/
import proofs.«208457_g31284541784245_cont_9to1_2229_14_alg».proof.Proof.ScMain
import Idealize.ShloMosaic.Lib.ValueIdx
import Idealize.ShloMosaic.Lib.ValueLayout
import Idealize.ShloMosaic.Lib.Pipeline.Value
import Idealize.ShloMosaic.Lib.StableHlo.Run

noncomputable section

namespace Cert.KernelIdeal.Sc.Glue

open Cert.KernelIdeal Cert.KernelIdeal.Gen Cert.KernelIdeal.Sc
open Idealize.ShloMosaic Idealize.ShloMosaic.TcCoe Idealize.ShloMosaic.ValueIdx Idealize.SL.Sem Idealize.ShloMosaic.StableHlo

variable {F : FTy → Type} [FloatOps F]

/-- The flattened table at `n` is the table at row `n / 4`, column `n % 4`. -/
theorem ops1_v9 (V : Valuation τ sig (Elt F)) (n : Fin 40000) :
    (after (ops1 (F := F)) V (main_v9 : DevRef τ sig) : S40000.Idx → F .f32) (ix1 n)
      = (V (main_v8 : DevRef τ sig) : S10000x4.Idx → F .f32)
          (ix2 (⟨n.val / 4, by omega⟩ : Fin 10000) (⟨n.val % 4, by omega⟩ : Fin 4)) := by
  have e : (after (ops1 (F := F)) V (main_v9 : DevRef τ sig) : S40000.Idx → F .f32)
      = shapeCast S40000 (V (main_v8 : DevRef τ sig) : S10000x4.Idx → F .f32) shapeCasts_S10000x4_S40000 := by
    after_results_simp
    rfl
  rw [e]
  refine shapeCast_apply (s := S10000x4) (t := S40000) _ _ _
    (ix2 (⟨n.val / 4, by omega⟩ : Fin 10000) (⟨n.val % 4, by omega⟩ : Fin 4)) ?_
  rw [Shape.rowMajor_val_two, Shape.rowMajor_val_one]
  show n.val / 4 * 4 + n.val % 4 = n.val
  omega

/-- The left index column at pair `p`. -/
theorem ops1_v11 (V : Valuation τ sig (Elt F)) (p : Fin 640000) :
    (after (ops1 (F := F)) V (main_v11 : DevRef τ sig) : S640000.Idx → BitVec 32) (ix1 p)
      = (V (main_arg0 : DevRef τ sig) : S640000x2.Idx → BitVec 32) (ix2 p (0 : Fin 2)) := by
  have e : (after (ops1 (F := F)) V (main_v11 : DevRef τ sig) : S640000.Idx → BitVec 32)
      = shapeCast S640000 (extractStridedSlice S640000x1 ![0, 0] (V (main_arg0 : DevRef τ sig) : S640000x2.Idx → BitVec 32)
          slices_S640000x2_S640000x1_0_0) shapeCasts_S640000x1_S640000 := by
    after_results_simp
    rfl
  rw [e]
  refine (shapeCast_apply _ _ _ (ix2 p (0 : Fin 1)) ?_).trans ?_
  · rw [Shape.rowMajor_val_two, Shape.rowMajor_val_one]
    show p.val * 1 + 0 = p.val
    omega
  · refine extractStridedSlice_apply _ _ _ _ _ fun a => ?_
    match a with
    | ⟨0, _⟩ => show p.val = 0 + p.val; omega
    | ⟨1, _⟩ => show (0 : Nat) = 0 + 0; rfl

/-- The right index column at pair `p`. -/
theorem ops1_v13 (V : Valuation τ sig (Elt F)) (p : Fin 640000) :
    (after (ops1 (F := F)) V (main_v13 : DevRef τ sig) : S640000.Idx → BitVec 32) (ix1 p)
      = (V (main_arg0 : DevRef τ sig) : S640000x2.Idx → BitVec 32) (ix2 p (1 : Fin 2)) := by
  have e : (after (ops1 (F := F)) V (main_v13 : DevRef τ sig) : S640000.Idx → BitVec 32)
      = shapeCast S640000 (extractStridedSlice S640000x1 ![0, 1] (V (main_arg0 : DevRef τ sig) : S640000x2.Idx → BitVec 32)
          slices_S640000x2_S640000x1_0_1) shapeCasts_S640000x1_S640000 := by
    after_results_simp
    rfl
  rw [e]
  refine (shapeCast_apply _ _ _ (ix2 p (0 : Fin 1)) ?_).trans ?_
  · rw [Shape.rowMajor_val_two, Shape.rowMajor_val_one]
    show p.val * 1 + 0 = p.val
    omega
  · refine extractStridedSlice_apply _ _ _ _ _ fun a => ?_
    match a with
    | ⟨0, _⟩ => show p.val = 0 + p.val; omega
    | ⟨1, _⟩ => show (1 : Nat) = 1 + 0; rfl

/-! The stretch leaves the argument arrays, and the two results of the calls before it, as they were. -/

theorem ops1_arg0 (V : Valuation τ sig (Elt F)) : after (ops1 (F := F)) V (main_arg0 : DevRef τ sig) = V (main_arg0 : DevRef τ sig) := by
  after_results_simp
theorem ops1_arg1 (V : Valuation τ sig (Elt F)) : after (ops1 (F := F)) V (main_arg1 : DevRef τ sig) = V (main_arg1 : DevRef τ sig) := by
  after_results_simp
theorem ops1_arg2 (V : Valuation τ sig (Elt F)) : after (ops1 (F := F)) V (main_arg2 : DevRef τ sig) = V (main_arg2 : DevRef τ sig) := by
  after_results_simp
theorem ops1_arg3 (V : Valuation τ sig (Elt F)) : after (ops1 (F := F)) V (main_arg3 : DevRef τ sig) = V (main_arg3 : DevRef τ sig) := by
  after_results_simp
theorem ops1_arg4 (V : Valuation τ sig (Elt F)) : after (ops1 (F := F)) V (main_arg4 : DevRef τ sig) = V (main_arg4 : DevRef τ sig) := by
  after_results_simp
theorem ops1_arg5 (V : Valuation τ sig (Elt F)) : after (ops1 (F := F)) V (main_arg5 : DevRef τ sig) = V (main_arg5 : DevRef τ sig) := by
  after_results_simp
theorem ops1_arg6 (V : Valuation τ sig (Elt F)) : after (ops1 (F := F)) V (main_arg6 : DevRef τ sig) = V (main_arg6 : DevRef τ sig) := by
  after_results_simp
theorem ops1_arg7 (V : Valuation τ sig (Elt F)) : after (ops1 (F := F)) V (main_arg7 : DevRef τ sig) = V (main_arg7 : DevRef τ sig) := by
  after_results_simp
theorem ops1_arg8 (V : Valuation τ sig (Elt F)) : after (ops1 (F := F)) V (main_arg8 : DevRef τ sig) = V (main_arg8 : DevRef τ sig) := by
  after_results_simp
theorem ops1_arg9 (V : Valuation τ sig (Elt F)) : after (ops1 (F := F)) V (main_arg9 : DevRef τ sig) = V (main_arg9 : DevRef τ sig) := by
  after_results_simp
theorem ops1_v8 (V : Valuation τ sig (Elt F)) : after (ops1 (F := F)) V (main_v8 : DevRef τ sig) = V (main_v8 : DevRef τ sig) := by
  after_results_simp

end Cert.KernelIdeal.Sc.Glue

end
-- ==== Proof.GlueOps2.lean ====
/-
  The host operations between the pair-logits call and the loss call, read at an index.
  Each of the two logit columns and the label array, of 640000 entries, is viewed as 5000 rows of 128 lanes, row-major:
  row `r`, lane `c` is entry `r * 128 + c`. The ten argument arrays and the two columns are left as they were.
-/
import proofs.«208457_g31284541784245_cont_9to1_2229_14_alg».proof.Proof.ScMain
import Idealize.ShloMosaic.Lib.ValueIdx
import Idealize.ShloMosaic.Lib.ValueLayout
import Idealize.ShloMosaic.Lib.Pipeline.Value
import Idealize.ShloMosaic.Lib.StableHlo.Run

noncomputable section

namespace Cert.KernelIdeal.Sc.Glue

open Cert.KernelIdeal Cert.KernelIdeal.Gen Cert.KernelIdeal.Sc
open Idealize.ShloMosaic Idealize.ShloMosaic.TcCoe Idealize.ShloMosaic.ValueIdx Idealize.SL.Sem Idealize.ShloMosaic.StableHlo

variable {F : FTy → Type} [FloatOps F]

/-- Row `r`, lane `c` names an entry below 640000. -/
theorem lane_lt (r : Fin 5000) (c : Fin 128) : r.val * 128 + c.val < 640000 := by
  have := r.isLt; have := c.isLt; omega

/-- A flat array of 640000 entries viewed as [5000, 128], at row `r`, lane `c`. -/
theorem rows_apply {α : Type} (x : S640000.Idx → α) (r : Fin 5000) (c : Fin 128) :
    shapeCast S5000x128 x shapeCasts_S640000_S5000x128 (ix2 r c) = x (ix1 ⟨r.val * 128 + c.val, lane_lt r c⟩) := by
  refine shapeCast_apply (s := S640000) (t := S5000x128) _ _ _ (ix1 ⟨r.val * 128 + c.val, lane_lt r c⟩) ?_
  rw [Shape.rowMajor_val_two, Shape.rowMajor_val_one]
  rfl

/-- The first logit column as rows of lanes. -/
theorem ops2_v15 (V : Valuation τ sig (Elt F)) (r : Fin 5000) (c : Fin 128) :
    (after (ops2 (F := F)) V (main_v15 : DevRef τ sig) : S5000x128.Idx → F .f32) (ix2 r c)
      = (V (main_v14_0 : DevRef τ sig) : S640000.Idx → F .f32) (ix1 ⟨r.val * 128 + c.val, lane_lt r c⟩) := by
  have e : (after (ops2 (F := F)) V (main_v15 : DevRef τ sig) : S5000x128.Idx → F .f32)
      = shapeCast S5000x128 (V (main_v14_0 : DevRef τ sig) : S640000.Idx → F .f32) shapeCasts_S640000_S5000x128 := by
    after_results_simp
    rfl
  rw [e]
  exact rows_apply _ r c

/-- The second logit column as rows of lanes. -/
theorem ops2_v16 (V : Valuation τ sig (Elt F)) (r : Fin 5000) (c : Fin 128) :
    (after (ops2 (F := F)) V (main_v16 : DevRef τ sig) : S5000x128.Idx → F .f32) (ix2 r c)
      = (V (main_v14_1 : DevRef τ sig) : S640000.Idx → F .f32) (ix1 ⟨r.val * 128 + c.val, lane_lt r c⟩) := by
  have e : (after (ops2 (F := F)) V (main_v16 : DevRef τ sig) : S5000x128.Idx → F .f32)
      = shapeCast S5000x128 (V (main_v14_1 : DevRef τ sig) : S640000.Idx → F .f32) shapeCasts_S640000_S5000x128 := by
    after_results_simp
    rfl
  rw [e]
  exact rows_apply _ r c

/-- The label array as rows of lanes. -/
theorem ops2_v17 (V : Valuation τ sig (Elt F)) (r : Fin 5000) (c : Fin 128) :
    (after (ops2 (F := F)) V (main_v17 : DevRef τ sig) : S5000x128.Idx → BitVec 32) (ix2 r c)
      = (V (main_arg3 : DevRef τ sig) : S640000.Idx → BitVec 32) (ix1 ⟨r.val * 128 + c.val, lane_lt r c⟩) := by
  have e : (after (ops2 (F := F)) V (main_v17 : DevRef τ sig) : S5000x128.Idx → BitVec 32)
      = shapeCast S5000x128 (V (main_arg3 : DevRef τ sig) : S640000.Idx → BitVec 32) shapeCasts_S640000_S5000x128 := by
    after_results_simp
    rfl
  rw [e]
  exact rows_apply _ r c

/-! The stretch leaves the argument arrays and the two logit columns as they were. -/

theorem ops2_arg0 (V : Valuation τ sig (Elt F)) : after (ops2 (F := F)) V (main_arg0 : DevRef τ sig) = V (main_arg0 : DevRef τ sig) := by
  after_results_simp
theorem ops2_arg1 (V : Valuation τ sig (Elt F)) : after (ops2 (F := F)) V (main_arg1 : DevRef τ sig) = V (main_arg1 : DevRef τ sig) := by
  after_results_simp
theorem ops2_arg2 (V : Valuation τ sig (Elt F)) : after (ops2 (F := F)) V (main_arg2 : DevRef τ sig) = V (main_arg2 : DevRef τ sig) := by
  after_results_simp
theorem ops2_arg3 (V : Valuation τ sig (Elt F)) : after (ops2 (F := F)) V (main_arg3 : DevRef τ sig) = V (main_arg3 : DevRef τ sig) := by
  after_results_simp
theorem ops2_arg4 (V : Valuation τ sig (Elt F)) : after (ops2 (F := F)) V (main_arg4 : DevRef τ sig) = V (main_arg4 : DevRef τ sig) := by
  after_results_simp
theorem ops2_arg5 (V : Valuation τ sig (Elt F)) : after (ops2 (F := F)) V (main_arg5 : DevRef τ sig) = V (main_arg5 : DevRef τ sig) := by
  after_results_simp
theorem ops2_arg6 (V : Valuation τ sig (Elt F)) : after (ops2 (F := F)) V (main_arg6 : DevRef τ sig) = V (main_arg6 : DevRef τ sig) := by
  after_results_simp
theorem ops2_arg7 (V : Valuation τ sig (Elt F)) : after (ops2 (F := F)) V (main_arg7 : DevRef τ sig) = V (main_arg7 : DevRef τ sig) := by
  after_results_simp
theorem ops2_arg8 (V : Valuation τ sig (Elt F)) : after (ops2 (F := F)) V (main_arg8 : DevRef τ sig) = V (main_arg8 : DevRef τ sig) := by
  after_results_simp
theorem ops2_arg9 (V : Valuation τ sig (Elt F)) : after (ops2 (F := F)) V (main_arg9 : DevRef τ sig) = V (main_arg9 : DevRef τ sig) := by
  after_results_simp
theorem ops2_v14_0 (V : Valuation τ sig (Elt F)) : after (ops2 (F := F)) V (main_v14_0 : DevRef τ sig) = V (main_v14_0 : DevRef τ sig) := by
  after_results_simp
theorem ops2_v14_1 (V : Valuation τ sig (Elt F)) : after (ops2 (F := F)) V (main_v14_1 : DevRef τ sig) = V (main_v14_1 : DevRef τ sig) := by
  after_results_simp

end Cert.KernelIdeal.Sc.Glue

end
-- ==== Proof.GlueOps3.lean ====
/-
  The host operations after the loss call, read at an index.
  The two logit columns, each viewed as a [640000, 1] array, are set side by side into the [640000, 2] logits array
  (column 0 is the first, column 1 the second); the loss call's [1, 1] result is read as a scalar. The ten argument
  arrays and the stretch's three inputs are left as they were.
-/
import proofs.«208457_g31284541784245_cont_9to1_2229_14_alg».proof.Proof.ScMain
import Idealize.ShloMosaic.Lib.ValueIdx
import Idealize.ShloMosaic.Lib.ValueLayout
import Idealize.ShloMosaic.Lib.Pipeline.Value
import Idealize.ShloMosaic.Lib.StableHlo.Run

noncomputable section

namespace Cert.KernelIdeal.Sc.Glue

open Cert.KernelIdeal Cert.KernelIdeal.Gen Cert.KernelIdeal.Sc
open Idealize.ShloMosaic Idealize.ShloMosaic.TcCoe Idealize.ShloMosaic.ValueIdx Idealize.SL.Sem Idealize.ShloMosaic.StableHlo

variable {F : FTy → Type} [FloatOps F]

/-- The logits array as the operations' term of the two columns. -/
theorem ops3_v21_term (V : Valuation τ sig (Elt F)) :
    (after (ops3 (F := F)) V (main_v21 : DevRef τ sig) : S640000x2.Idx → F .f32)
      = concatenate S640000x2 1
          [⟨S640000x1, broadcastInDim S640000x1 ![0] bcast_S640000_S640000x1_0 (V (main_v14_0 : DevRef τ sig) : S640000.Idx → F .f32)⟩,
           ⟨S640000x1, broadcastInDim S640000x1 ![0] bcast_S640000_S640000x1_0 (V (main_v14_1 : DevRef τ sig) : S640000.Idx → F .f32)⟩]
          concatenates_S640000x1_S640000x1_S640000x2_d1 := by
  after_results_simp
  rfl

/-- A column viewed as a [640000, 1] array, at row `p`. -/
theorem col_apply (x : S640000.Idx → F .f32) (p : Fin 640000) :
    broadcastInDim S640000x1 ![0] bcast_S640000_S640000x1_0 x (ix2 p (0 : Fin 1)) = x (ix1 p) := by
  refine broadcastInDim_apply _ _ _ _ (ix1 p) fun a => ?_
  match a with
  | ⟨0, _⟩ =>
    show p.val = if (640000 : Nat) = 1 then 0 else p.val
    rw [if_neg (by decide)]

/-- Column 0 of the logits array at pair `p` is the first logit column at `p`. -/
theorem ops3_v21_0 (V : Valuation τ sig (Elt F)) (p : Fin 640000) :
    (after (ops3 (F := F)) V (main_v21 : DevRef τ sig) : S640000x2.Idx → F .f32) (ix2 p (0 : Fin 2))
      = (V (main_v14_0 : DevRef τ sig) : S640000.Idx → F .f32) (ix1 p) := by
  rw [ops3_v21_term]
  refine (concatenate_pair_apply_left (t := S640000x2) (s₁ := S640000x1) (s₂ := S640000x1) (1 : Fin 2) _ _ _
    (ix2 p (0 : Fin 2)) (by rfl) (ix2 p (0 : Fin 1)) fun b => ?_).trans (col_apply _ p)
  match b with
  | ⟨0, _⟩ => rfl
  | ⟨1, _⟩ => rfl

/-- Column 1 of the logits array at pair `p` is the second logit column at `p`. -/
theorem ops3_v21_1 (V : Valuation τ sig (Elt F)) (p : Fin 640000) :
    (after (ops3 (F := F)) V (main_v21 : DevRef τ sig) : S640000x2.Idx → F .f32) (ix2 p (1 : Fin 2))
      = (V (main_v14_1 : DevRef τ sig) : S640000.Idx → F .f32) (ix1 p) := by
  rw [ops3_v21_term]
  refine (concatenate_pair_apply_right (t := S640000x2) (s₁ := S640000x1) (s₂ := S640000x1) (1 : Fin 2) _ _ _
    (ix2 p (1 : Fin 2)) (by rfl) (by rfl) (ix2 p (0 : Fin 1)) (fun b hb => ?_) ?_).trans (col_apply _ p)
  · match b with
    | ⟨0, _⟩ => rfl
    | ⟨1, _⟩ => exact absurd rfl hb
  · show (0 : Nat) + 1 = 1
    rfl

/-- The loss, read as a scalar, is the loss call's one entry. -/
theorem ops3_v22 (V : Valuation τ sig (Elt F)) :
    (after (ops3 (F := F)) V (main_v22 : DevRef τ sig) : S_.Idx → F .f32) ix0
      = (V (main_v18 : DevRef τ sig) : S1x1.Idx → F .f32) (ix2 (0 : Fin 1) (0 : Fin 1)) := by
  have e : (after (ops3 (F := F)) V (main_v22 : DevRef τ sig) : S_.Idx → F .f32)
      = shapeCast S_ (V (main_v18 : DevRef τ sig) : S1x1.Idx → F .f32) shapeCasts_S1x1_S_ := by
    after_results_simp
    rfl
  rw [e]
  refine shapeCast_apply (s := S1x1) (t := S_) _ _ _ (ix2 (0 : Fin 1) (0 : Fin 1)) ?_
  rw [Shape.rowMajor_val_two]
  have h := (Shape.rowMajor S_ (ix0 : S_.Idx)).isLt
  have hn : S_.numel = 1 := by decide
  show 0 * 1 + 0 = _
  omega

/-! The stretch leaves the argument arrays and its inputs as they were. -/

theorem ops3_arg0 (V : Valuation τ sig (Elt F)) : after (ops3 (F := F)) V (main_arg0 : DevRef τ sig) = V (main_arg0 : DevRef τ sig) := by
  after_results_simp
theorem ops3_arg1 (V : Valuation τ sig (Elt F)) : after (ops3 (F := F)) V (main_arg1 : DevRef τ sig) = V (main_arg1 : DevRef τ sig) := by
  after_results_simp
theorem ops3_arg2 (V : Valuation τ sig (Elt F)) : after (ops3 (F := F)) V (main_arg2 : DevRef τ sig) = V (main_arg2 : DevRef τ sig) := by
  after_results_simp
theorem ops3_arg3 (V : Valuation τ sig (Elt F)) : after (ops3 (F := F)) V (main_arg3 : DevRef τ sig) = V (main_arg3 : DevRef τ sig) := by
  after_results_simp
theorem ops3_arg4 (V : Valuation τ sig (Elt F)) : after (ops3 (F := F)) V (main_arg4 : DevRef τ sig) = V (main_arg4 : DevRef τ sig) := by
  after_results_simp
theorem ops3_arg5 (V : Valuation τ sig (Elt F)) : after (ops3 (F := F)) V (main_arg5 : DevRef τ sig) = V (main_arg5 : DevRef τ sig) := by
  after_results_simp
theorem ops3_arg6 (V : Valuation τ sig (Elt F)) : after (ops3 (F := F)) V (main_arg6 : DevRef τ sig) = V (main_arg6 : DevRef τ sig) := by
  after_results_simp
theorem ops3_arg7 (V : Valuation τ sig (Elt F)) : after (ops3 (F := F)) V (main_arg7 : DevRef τ sig) = V (main_arg7 : DevRef τ sig) := by
  after_results_simp
theorem ops3_arg8 (V : Valuation τ sig (Elt F)) : after (ops3 (F := F)) V (main_arg8 : DevRef τ sig) = V (main_arg8 : DevRef τ sig) := by
  after_results_simp
theorem ops3_arg9 (V : Valuation τ sig (Elt F)) : after (ops3 (F := F)) V (main_arg9 : DevRef τ sig) = V (main_arg9 : DevRef τ sig) := by
  after_results_simp
theorem ops3_v14_0 (V : Valuation τ sig (Elt F)) : after (ops3 (F := F)) V (main_v14_0 : DevRef τ sig) = V (main_v14_0 : DevRef τ sig) := by
  after_results_simp
theorem ops3_v14_1 (V : Valuation τ sig (Elt F)) : after (ops3 (F := F)) V (main_v14_1 : DevRef τ sig) = V (main_v14_1 : DevRef τ sig) := by
  after_results_simp
theorem ops3_v18 (V : Valuation τ sig (Elt F)) : after (ops3 (F := F)) V (main_v18 : DevRef τ sig) = V (main_v18 : DevRef τ sig) := by
  after_results_simp

end Cert.KernelIdeal.Sc.Glue

end
-- ==== Proof.ScReads.lean ====
/-
  The buffers' contents at the boundaries of @main, read: what each named valuation of the chain holds at the buffers
  the claim and the kernels speak of, as a function of the launch memory.

  No host operation and no kernel region writes an argument array, so at the return each argument holds what it was
  launched with. The SparseCore call's index columns are the two columns of the index argument. Its table is the dense
  layers' output, flattened. The loss call's two logit blocks are the SparseCore call's two result columns laid out in
  rows of 128, and its label block the label argument laid out the same way. The first result is the two result
  columns side by side; the second is the loss call's one element. The dense layers' seven inputs are the node
  features, the two weight matrices, the two bias rows, the classifier's halves side by side and its bias row
  extended by zeros.
-/
import proofs.«208457_g31284541784245_cont_9to1_2229_14_alg».proof.Proof.ScChain
import proofs.«208457_g31284541784245_cont_9to1_2229_14_alg».proof.Proof.MlpLossExit
import proofs.«208457_g31284541784245_cont_9to1_2229_14_alg».proof.Proof.GlueOps0
import proofs.«208457_g31284541784245_cont_9to1_2229_14_alg».proof.Proof.GlueOps1
import proofs.«208457_g31284541784245_cont_9to1_2229_14_alg».proof.Proof.GlueOps2
import proofs.«208457_g31284541784245_cont_9to1_2229_14_alg».proof.Proof.GlueOps3

noncomputable section

namespace Cert.KernelIdeal.Sc.Chain

open Cert.KernelIdeal Cert.KernelIdeal.Gen Cert.KernelIdeal.Sc
open Idealize.ShloMosaic Idealize.ShloMosaic.TcCoe Idealize.ShloMosaic.ValueIdx
open Idealize.SL.Sem

variable {F : FTy → Type} [FloatOps F]
variable (m : (ℓ : Loc nD τ sig) → Buf (Elt F) ℓ)

/-! ## The SparseCore call writes its two result columns and nothing else -/

theorem W4_of_ne (d : Dev nD) (b : Ref sig .tc) (h0 : b ≠ main_v14_0) (h1 : b ≠ main_v14_1) :
    W4 m d (b : DevRef τ sig) = W3 m d (b : DevRef τ sig) := by
  unfold W4
  rw [Function.update_of_ne (StableHlo.devRef_ne_of_ne h1), Function.update_of_ne (StableHlo.devRef_ne_of_ne h0)]

theorem W4_v14_0 (d : Dev nD) : W4 m d (main_v14_0 : DevRef τ sig) = Tile.Z0 (TAB m) (IA m) (IB m) d := by
  unfold W4
  rw [Function.update_of_ne (StableHlo.devRef_ne_of_ne (by decide)), Function.update_self]

theorem W4_v14_1 (d : Dev nD) : W4 m d (main_v14_1 : DevRef τ sig) = Tile.Z1 (TAB m) (IA m) (IB m) d := by
  unfold W4
  rw [Function.update_self]

/-! ## (F) The arguments end as launched -/

theorem W2_arg0 (d : Dev nD) : W2 m d (main_arg0 : DevRef τ sig) = m (d, (main_arg0 : DevRef τ sig)) :=
  (Mlp.exit_other (Wa m) (Oa (F := F)) (Ba (F := F)) d main_arg0 (by decide)).trans (Glue.ops0_arg0 (Launch.W0 m d))
theorem W3_arg0 (d : Dev nD) : W3 m d (main_arg0 : DevRef τ sig) = m (d, (main_arg0 : DevRef τ sig)) :=
  (Glue.ops1_arg0 (W2 m d)).trans (W2_arg0 m d)
theorem W4_arg0 (d : Dev nD) : W4 m d (main_arg0 : DevRef τ sig) = m (d, (main_arg0 : DevRef τ sig)) :=
  (W4_of_ne m d main_arg0 (by decide) (by decide)).trans (W3_arg0 m d)
theorem Wb_arg0 (d : Dev nD) : Wb m d (main_arg0 : DevRef τ sig) = m (d, (main_arg0 : DevRef τ sig)) :=
  (Glue.ops2_arg0 (W4 m d)).trans (W4_arg0 m d)
theorem W6_arg0 (d : Dev nD) : W6 m d (main_arg0 : DevRef τ sig) = m (d, (main_arg0 : DevRef τ sig)) :=
  (Loss.exit_other (Wb m) (Ob (F := F)) (Bb (F := F)) d main_arg0 (by decide)).trans (Wb_arg0 m d)
/-- Argument 0 ends as launched. -/
theorem W7_arg0 (d : Dev nD) : W7 m d (main_arg0 : DevRef τ sig) = m (d, (main_arg0 : DevRef τ sig)) :=
  (Glue.ops3_arg0 (W6 m d)).trans (W6_arg0 m d)

theorem W2_arg1 (d : Dev nD) : W2 m d (main_arg1 : DevRef τ sig) = m (d, (main_arg1 : DevRef τ sig)) :=
  (Mlp.exit_other (Wa m) (Oa (F := F)) (Ba (F := F)) d main_arg1 (by decide)).trans (Glue.ops0_arg1 (Launch.W0 m d))
theorem W3_arg1 (d : Dev nD) : W3 m d (main_arg1 : DevRef τ sig) = m (d, (main_arg1 : DevRef τ sig)) :=
  (Glue.ops1_arg1 (W2 m d)).trans (W2_arg1 m d)
theorem W4_arg1 (d : Dev nD) : W4 m d (main_arg1 : DevRef τ sig) = m (d, (main_arg1 : DevRef τ sig)) :=
  (W4_of_ne m d main_arg1 (by decide) (by decide)).trans (W3_arg1 m d)
theorem Wb_arg1 (d : Dev nD) : Wb m d (main_arg1 : DevRef τ sig) = m (d, (main_arg1 : DevRef τ sig)) :=
  (Glue.ops2_arg1 (W4 m d)).trans (W4_arg1 m d)
theorem W6_arg1 (d : Dev nD) : W6 m d (main_arg1 : DevRef τ sig) = m (d, (main_arg1 : DevRef τ sig)) :=
  (Loss.exit_other (Wb m) (Ob (F := F)) (Bb (F := F)) d main_arg1 (by decide)).trans (Wb_arg1 m d)
/-- Argument 1 ends as launched. -/
theorem W7_arg1 (d : Dev nD) : W7 m d (main_arg1 : DevRef τ sig) = m (d, (main_arg1 : DevRef τ sig)) :=
  (Glue.ops3_arg1 (W6 m d)).trans (W6_arg1 m d)

theorem W2_arg2 (d : Dev nD) : W2 m d (main_arg2 : DevRef τ sig) = m (d, (main_arg2 : DevRef τ sig)) :=
  (Mlp.exit_other (Wa m) (Oa (F := F)) (Ba (F := F)) d main_arg2 (by decide)).trans (Glue.ops0_arg2 (Launch.W0 m d))
theorem W3_arg2 (d : Dev nD) : W3 m d (main_arg2 : DevRef τ sig) = m (d, (main_arg2 : DevRef τ sig)) :=
  (Glue.ops1_arg2 (W2 m d)).trans (W2_arg2 m d)
theorem W4_arg2 (d : Dev nD) : W4 m d (main_arg2 : DevRef τ sig) = m (d, (main_arg2 : DevRef τ sig)) :=
  (W4_of_ne m d main_arg2 (by decide) (by decide)).trans (W3_arg2 m d)
theorem Wb_arg2 (d : Dev nD) : Wb m d (main_arg2 : DevRef τ sig) = m (d, (main_arg2 : DevRef τ sig)) :=
  (Glue.ops2_arg2 (W4 m d)).trans (W4_arg2 m d)
theorem W6_arg2 (d : Dev nD) : W6 m d (main_arg2 : DevRef τ sig) = m (d, (main_arg2 : DevRef τ sig)) :=
  (Loss.exit_other (Wb m) (Ob (F := F)) (Bb (F := F)) d main_arg2 (by decide)).trans (Wb_arg2 m d)
/-- Argument 2 ends as launched. -/
theorem W7_arg2 (d : Dev nD) : W7 m d (main_arg2 : DevRef τ sig) = m (d, (main_arg2 : DevRef τ sig)) :=
  (Glue.ops3_arg2 (W6 m d)).trans (W6_arg2 m d)

theorem W2_arg3 (d : Dev nD) : W2 m d (main_arg3 : DevRef τ sig) = m (d, (main_arg3 : DevRef τ sig)) :=
  (Mlp.exit_other (Wa m) (Oa (F := F)) (Ba (F := F)) d main_arg3 (by decide)).trans (Glue.ops0_arg3 (Launch.W0 m d))
theorem W3_arg3 (d : Dev nD) : W3 m d (main_arg3 : DevRef τ sig) = m (d, (main_arg3 : DevRef τ sig)) :=
  (Glue.ops1_arg3 (W2 m d)).trans (W2_arg3 m d)
theorem W4_arg3 (d : Dev nD) : W4 m d (main_arg3 : DevRef τ sig) = m (d, (main_arg3 : DevRef τ sig)) :=
  (W4_of_ne m d main_arg3 (by decide) (by decide)).trans (W3_arg3 m d)
theorem Wb_arg3 (d : Dev nD) : Wb m d (main_arg3 : DevRef τ sig) = m (d, (main_arg3 : DevRef τ sig)) :=
  (Glue.ops2_arg3 (W4 m d)).trans (W4_arg3 m d)
theorem W6_arg3 (d : Dev nD) : W6 m d (main_arg3 : DevRef τ sig) = m (d, (main_arg3 : DevRef τ sig)) :=
  (Loss.exit_other (Wb m) (Ob (F := F)) (Bb (F := F)) d main_arg3 (by decide)).trans (Wb_arg3 m d)
/-- Argument 3 ends as launched. -/
theorem W7_arg3 (d : Dev nD) : W7 m d (main_arg3 : DevRef τ sig) = m (d, (main_arg3 : DevRef τ sig)) :=
  (Glue.ops3_arg3 (W6 m d)).trans (W6_arg3 m d)

theorem W2_arg4 (d : Dev nD) : W2 m d (main_arg4 : DevRef τ sig) = m (d, (main_arg4 : DevRef τ sig)) :=
  (Mlp.exit_other (Wa m) (Oa (F := F)) (Ba (F := F)) d main_arg4 (by decide)).trans (Glue.ops0_arg4 (Launch.W0 m d))
theorem W3_arg4 (d : Dev nD) : W3 m d (main_arg4 : DevRef τ sig) = m (d, (main_arg4 : DevRef τ sig)) :=
  (Glue.ops1_arg4 (W2 m d)).trans (W2_arg4 m d)
theorem W4_arg4 (d : Dev nD) : W4 m d (main_arg4 : DevRef τ sig) = m (d, (main_arg4 : DevRef τ sig)) :=
  (W4_of_ne m d main_arg4 (by decide) (by decide)).trans (W3_arg4 m d)
theorem Wb_arg4 (d : Dev nD) : Wb m d (main_arg4 : DevRef τ sig) = m (d, (main_arg4 : DevRef τ sig)) :=
  (Glue.ops2_arg4 (W4 m d)).trans (W4_arg4 m d)
theorem W6_arg4 (d : Dev nD) : W6 m d (main_arg4 : DevRef τ sig) = m (d, (main_arg4 : DevRef τ sig)) :=
  (Loss.exit_other (Wb m) (Ob (F := F)) (Bb (F := F)) d main_arg4 (by decide)).trans (Wb_arg4 m d)
/-- Argument 4 ends as launched. -/
theorem W7_arg4 (d : Dev nD) : W7 m d (main_arg4 : DevRef τ sig) = m (d, (main_arg4 : DevRef τ sig)) :=
  (Glue.ops3_arg4 (W6 m d)).trans (W6_arg4 m d)

theorem W2_arg5 (d : Dev nD) : W2 m d (main_arg5 : DevRef τ sig) = m (d, (main_arg5 : DevRef τ sig)) :=
  (Mlp.exit_other (Wa m) (Oa (F := F)) (Ba (F := F)) d main_arg5 (by decide)).trans (Glue.ops0_arg5 (Launch.W0 m d))
theorem W3_arg5 (d : Dev nD) : W3 m d (main_arg5 : DevRef τ sig) = m (d, (main_arg5 : DevRef τ sig)) :=
  (Glue.ops1_arg5 (W2 m d)).trans (W2_arg5 m d)
theorem W4_arg5 (d : Dev nD) : W4 m d (main_arg5 : DevRef τ sig) = m (d, (main_arg5 : DevRef τ sig)) :=
  (W4_of_ne m d main_arg5 (by decide) (by decide)).trans (W3_arg5 m d)
theorem Wb_arg5 (d : Dev nD) : Wb m d (main_arg5 : DevRef τ sig) = m (d, (main_arg5 : DevRef τ sig)) :=
  (Glue.ops2_arg5 (W4 m d)).trans (W4_arg5 m d)
theorem W6_arg5 (d : Dev nD) : W6 m d (main_arg5 : DevRef τ sig) = m (d, (main_arg5 : DevRef τ sig)) :=
  (Loss.exit_other (Wb m) (Ob (F := F)) (Bb (F := F)) d main_arg5 (by decide)).trans (Wb_arg5 m d)
/-- Argument 5 ends as launched. -/
theorem W7_arg5 (d : Dev nD) : W7 m d (main_arg5 : DevRef τ sig) = m (d, (main_arg5 : DevRef τ sig)) :=
  (Glue.ops3_arg5 (W6 m d)).trans (W6_arg5 m d)

theorem W2_arg6 (d : Dev nD) : W2 m d (main_arg6 : DevRef τ sig) = m (d, (main_arg6 : DevRef τ sig)) :=
  (Mlp.exit_other (Wa m) (Oa (F := F)) (Ba (F := F)) d main_arg6 (by decide)).trans (Glue.ops0_arg6 (Launch.W0 m d))
theorem W3_arg6 (d : Dev nD) : W3 m d (main_arg6 : DevRef τ sig) = m (d, (main_arg6 : DevRef τ sig)) :=
  (Glue.ops1_arg6 (W2 m d)).trans (W2_arg6 m d)
theorem W4_arg6 (d : Dev nD) : W4 m d (main_arg6 : DevRef τ sig) = m (d, (main_arg6 : DevRef τ sig)) :=
  (W4_of_ne m d main_arg6 (by decide) (by decide)).trans (W3_arg6 m d)
theorem Wb_arg6 (d : Dev nD) : Wb m d (main_arg6 : DevRef τ sig) = m (d, (main_arg6 : DevRef τ sig)) :=
  (Glue.ops2_arg6 (W4 m d)).trans (W4_arg6 m d)
theorem W6_arg6 (d : Dev nD) : W6 m d (main_arg6 : DevRef τ sig) = m (d, (main_arg6 : DevRef τ sig)) :=
  (Loss.exit_other (Wb m) (Ob (F := F)) (Bb (F := F)) d main_arg6 (by decide)).trans (Wb_arg6 m d)
/-- Argument 6 ends as launched. -/
theorem W7_arg6 (d : Dev nD) : W7 m d (main_arg6 : DevRef τ sig) = m (d, (main_arg6 : DevRef τ sig)) :=
  (Glue.ops3_arg6 (W6 m d)).trans (W6_arg6 m d)

theorem W2_arg7 (d : Dev nD) : W2 m d (main_arg7 : DevRef τ sig) = m (d, (main_arg7 : DevRef τ sig)) :=
  (Mlp.exit_other (Wa m) (Oa (F := F)) (Ba (F := F)) d main_arg7 (by decide)).trans (Glue.ops0_arg7 (Launch.W0 m d))
theorem W3_arg7 (d : Dev nD) : W3 m d (main_arg7 : DevRef τ sig) = m (d, (main_arg7 : DevRef τ sig)) :=
  (Glue.ops1_arg7 (W2 m d)).trans (W2_arg7 m d)
theorem W4_arg7 (d : Dev nD) : W4 m d (main_arg7 : DevRef τ sig) = m (d, (main_arg7 : DevRef τ sig)) :=
  (W4_of_ne m d main_arg7 (by decide) (by decide)).trans (W3_arg7 m d)
theorem Wb_arg7 (d : Dev nD) : Wb m d (main_arg7 : DevRef τ sig) = m (d, (main_arg7 : DevRef τ sig)) :=
  (Glue.ops2_arg7 (W4 m d)).trans (W4_arg7 m d)
theorem W6_arg7 (d : Dev nD) : W6 m d (main_arg7 : DevRef τ sig) = m (d, (main_arg7 : DevRef τ sig)) :=
  (Loss.exit_other (Wb m) (Ob (F := F)) (Bb (F := F)) d main_arg7 (by decide)).trans (Wb_arg7 m d)
/-- Argument 7 ends as launched. -/
theorem W7_arg7 (d : Dev nD) : W7 m d (main_arg7 : DevRef τ sig) = m (d, (main_arg7 : DevRef τ sig)) :=
  (Glue.ops3_arg7 (W6 m d)).trans (W6_arg7 m d)

theorem W2_arg8 (d : Dev nD) : W2 m d (main_arg8 : DevRef τ sig) = m (d, (main_arg8 : DevRef τ sig)) :=
  (Mlp.exit_other (Wa m) (Oa (F := F)) (Ba (F := F)) d main_arg8 (by decide)).trans (Glue.ops0_arg8 (Launch.W0 m d))
theorem W3_arg8 (d : Dev nD) : W3 m d (main_arg8 : DevRef τ sig) = m (d, (main_arg8 : DevRef τ sig)) :=
  (Glue.ops1_arg8 (W2 m d)).trans (W2_arg8 m d)
theorem W4_arg8 (d : Dev nD) : W4 m d (main_arg8 : DevRef τ sig) = m (d, (main_arg8 : DevRef τ sig)) :=
  (W4_of_ne m d main_arg8 (by decide) (by decide)).trans (W3_arg8 m d)
theorem Wb_arg8 (d : Dev nD) : Wb m d (main_arg8 : DevRef τ sig) = m (d, (main_arg8 : DevRef τ sig)) :=
  (Glue.ops2_arg8 (W4 m d)).trans (W4_arg8 m d)
theorem W6_arg8 (d : Dev nD) : W6 m d (main_arg8 : DevRef τ sig) = m (d, (main_arg8 : DevRef τ sig)) :=
  (Loss.exit_other (Wb m) (Ob (F := F)) (Bb (F := F)) d main_arg8 (by decide)).trans (Wb_arg8 m d)
/-- Argument 8 ends as launched. -/
theorem W7_arg8 (d : Dev nD) : W7 m d (main_arg8 : DevRef τ sig) = m (d, (main_arg8 : DevRef τ sig)) :=
  (Glue.ops3_arg8 (W6 m d)).trans (W6_arg8 m d)

theorem W2_arg9 (d : Dev nD) : W2 m d (main_arg9 : DevRef τ sig) = m (d, (main_arg9 : DevRef τ sig)) :=
  (Mlp.exit_other (Wa m) (Oa (F := F)) (Ba (F := F)) d main_arg9 (by decide)).trans (Glue.ops0_arg9 (Launch.W0 m d))
theorem W3_arg9 (d : Dev nD) : W3 m d (main_arg9 : DevRef τ sig) = m (d, (main_arg9 : DevRef τ sig)) :=
  (Glue.ops1_arg9 (W2 m d)).trans (W2_arg9 m d)
theorem W4_arg9 (d : Dev nD) : W4 m d (main_arg9 : DevRef τ sig) = m (d, (main_arg9 : DevRef τ sig)) :=
  (W4_of_ne m d main_arg9 (by decide) (by decide)).trans (W3_arg9 m d)
theorem Wb_arg9 (d : Dev nD) : Wb m d (main_arg9 : DevRef τ sig) = m (d, (main_arg9 : DevRef τ sig)) :=
  (Glue.ops2_arg9 (W4 m d)).trans (W4_arg9 m d)
theorem W6_arg9 (d : Dev nD) : W6 m d (main_arg9 : DevRef τ sig) = m (d, (main_arg9 : DevRef τ sig)) :=
  (Loss.exit_other (Wb m) (Ob (F := F)) (Bb (F := F)) d main_arg9 (by decide)).trans (Wb_arg9 m d)
/-- Argument 9 ends as launched. -/
theorem W7_arg9 (d : Dev nD) : W7 m d (main_arg9 : DevRef τ sig) = m (d, (main_arg9 : DevRef τ sig)) :=
  (Glue.ops3_arg9 (W6 m d)).trans (W6_arg9 m d)

/-! ## (I) The index columns are the index argument's columns, so in range where it is -/

theorem IA_apply (d : Dev nD) (p : Fin 640000) :
    (IA m d : IVec S640000 32) (ix1 p) = (m (d, (main_arg0 : DevRef τ sig)) : IVec S640000x2 32) (ix2 p (0 : Fin 2)) :=
  (Glue.ops1_v11 (W2 m d) p).trans (congrFun (W2_arg0 m d) (ix2 p (0 : Fin 2)))

theorem IB_apply (d : Dev nD) (p : Fin 640000) :
    (IB m d : IVec S640000 32) (ix1 p) = (m (d, (main_arg0 : DevRef τ sig)) : IVec S640000x2 32) (ix2 p (1 : Fin 2)) :=
  (Glue.ops1_v13 (W2 m d) p).trans (congrFun (W2_arg0 m d) (ix2 p (1 : Fin 2)))

theorem idxOK (h : ∀ (d : Dev nD) (i : S640000x2.Idx), ((m (d, (main_arg0 : DevRef τ sig)) : IVec S640000x2 32) i).toNat < 10000) :
    Tile.IdxOK (IA m) (IB m) := fun d p => by
  obtain ⟨q, rfl⟩ : ∃ q : Fin 640000, p = ix1 q := ⟨p 0, eq_ix1 p⟩
  exact ⟨lt_of_eq_of_lt (congrArg BitVec.toNat (IA_apply m d q)) (h d _),
    lt_of_eq_of_lt (congrArg BitVec.toNat (IB_apply m d q)) (h d _)⟩

/-! ## (V1) The first result: the two result columns side by side -/

theorem W6_v14_0 (d : Dev nD) : W6 m d (main_v14_0 : DevRef τ sig) = Tile.Z0 (TAB m) (IA m) (IB m) d :=
  (Loss.exit_other (Wb m) (Ob (F := F)) (Bb (F := F)) d main_v14_0 (by decide)).trans ((Glue.ops2_v14_0 (W4 m d)).trans (W4_v14_0 m d))
theorem W6_v14_1 (d : Dev nD) : W6 m d (main_v14_1 : DevRef τ sig) = Tile.Z1 (TAB m) (IA m) (IB m) d :=
  (Loss.exit_other (Wb m) (Ob (F := F)) (Bb (F := F)) d main_v14_1 (by decide)).trans ((Glue.ops2_v14_1 (W4 m d)).trans (W4_v14_1 m d))

/-- Column 0 of the first result is the first result column of the SparseCore call; -/
theorem W7_v21_0 (d : Dev nD) (p : Fin 640000) :
    (W7 m d (main_v21 : DevRef τ sig) : S640000x2.Idx → F .f32) (ix2 p (0 : Fin 2))
      = (Tile.Z0 (TAB m) (IA m) (IB m) d : S640000.Idx → F .f32) (ix1 p) :=
  (Glue.ops3_v21_0 (W6 m d) p).trans (congrFun (W6_v14_0 m d) (ix1 p))
/-- column 1 the second. -/
theorem W7_v21_1 (d : Dev nD) (p : Fin 640000) :
    (W7 m d (main_v21 : DevRef τ sig) : S640000x2.Idx → F .f32) (ix2 p (1 : Fin 2))
      = (Tile.Z1 (TAB m) (IA m) (IB m) d : S640000.Idx → F .f32) (ix1 p) :=
  (Glue.ops3_v21_1 (W6 m d) p).trans (congrFun (W6_v14_1 m d) (ix1 p))

/-! ## (V2) The second result: the loss call's one element -/

theorem W7_v22 (d : Dev nD) :
    (W7 m d (main_v22 : DevRef τ sig) : S_.Idx → F .f32) ix0
      = (Loss.lossVal (Vof (Wb m)) d : S1x1.Idx → F .f32) (ix2 (0 : Fin 1) (0 : Fin 1)) :=
  (Glue.ops3_v22 (W6 m d)).trans (congrFun (Loss.exit_out (Wb m) (Ob (F := F)) (Bb (F := F)) d) (ix2 (0 : Fin 1) (0 : Fin 1)))

/-! ## (V3) The SparseCore call's table is the dense layers' output, flattened -/

theorem TAB_apply (d : Dev nD) (n : Fin 40000) :
    (TAB m d : S40000.Idx → F .f32) (ix1 n)
      = Mlp.G0 (Vof (Wa m) d main_arg2) (Vof (Wa m) d main_arg4) (Vof (Wa m) d main_v6) (Vof (Wa m) d main_arg6)
          (Vof (Wa m) d main_v7) (Vof (Wa m) d main_v2) (Vof (Wa m) d main_v5)
          (ix2 (⟨n.val / 4, by omega⟩ : Fin 10000) (⟨n.val % 4, by omega⟩ : Fin 4)) :=
  (Glue.ops1_v9 (W2 m d) n).trans (congrFun (Mlp.exit_out (Wa m) (Oa (F := F)) (Ba (F := F)) d) _)

/-! ## (V4) The loss call's blocks: the result columns and the labels in rows of 128 -/

theorem Wb_v15 (d : Dev nD) (r : Fin 5000) (c : Fin 128) :
    (Wb m d (main_v15 : DevRef τ sig) : S5000x128.Idx → F .f32) (ix2 r c)
      = (Tile.Z0 (TAB m) (IA m) (IB m) d : S640000.Idx → F .f32) (ix1 ⟨r.val * 128 + c.val, Glue.lane_lt r c⟩) :=
  (Glue.ops2_v15 (W4 m d) r c).trans (congrFun (W4_v14_0 m d) _)
theorem Wb_v16 (d : Dev nD) (r : Fin 5000) (c : Fin 128) :
    (Wb m d (main_v16 : DevRef τ sig) : S5000x128.Idx → F .f32) (ix2 r c)
      = (Tile.Z1 (TAB m) (IA m) (IB m) d : S640000.Idx → F .f32) (ix1 ⟨r.val * 128 + c.val, Glue.lane_lt r c⟩) :=
  (Glue.ops2_v16 (W4 m d) r c).trans (congrFun (W4_v14_1 m d) _)
theorem Wb_v17 (d : Dev nD) (r : Fin 5000) (c : Fin 128) :
    (Wb m d (main_v17 : DevRef τ sig) : S5000x128.Idx → BitVec 32) (ix2 r c)
      = (m (d, (main_arg3 : DevRef τ sig)) : S640000.Idx → BitVec 32) (ix1 ⟨r.val * 128 + c.val, Glue.lane_lt r c⟩) :=
  (Glue.ops2_v17 (W4 m d) r c).trans (congrFun (W4_arg3 m d) _)

/-! ## (V5) The dense layers' seven inputs, from the launch memory -/

theorem Wa_arg2 (d : Dev nD) : Wa m d (main_arg2 : DevRef τ sig) = m (d, (main_arg2 : DevRef τ sig)) := Glue.ops0_arg2 (Launch.W0 m d)
theorem Wa_arg4 (d : Dev nD) : Wa m d (main_arg4 : DevRef τ sig) = m (d, (main_arg4 : DevRef τ sig)) := Glue.ops0_arg4 (Launch.W0 m d)
theorem Wa_arg6 (d : Dev nD) : Wa m d (main_arg6 : DevRef τ sig) = m (d, (main_arg6 : DevRef τ sig)) := Glue.ops0_arg6 (Launch.W0 m d)
/-- The first bias row is the first bias; the second likewise. -/
theorem Wa_v6 (d : Dev nD) (j : Fin 64) :
    (Wa m d (main_v6 : DevRef τ sig) : S1x64.Idx → F .f32) (ix2 (0 : Fin 1) j) = (m (d, (main_arg5 : DevRef τ sig)) : S64.Idx → F .f32) (ix1 j) :=
  Glue.ops0_v6 (Launch.W0 m d) j
theorem Wa_v7 (d : Dev nD) (j : Fin 64) :
    (Wa m d (main_v7 : DevRef τ sig) : S1x64.Idx → F .f32) (ix2 (0 : Fin 1) j) = (m (d, (main_arg7 : DevRef τ sig)) : S64.Idx → F .f32) (ix1 j) :=
  Glue.ops0_v7 (Launch.W0 m d) j
/-- Column `l` of the side-by-side classifier is label `l` of its upper half, column `2 + l` label `l` of its lower half. -/
theorem Wa_v2_left (d : Dev nD) (k : Fin 64) (l : Fin 2) :
    (Wa m d (main_v2 : DevRef τ sig) : S64x4.Idx → F .f32) (ix2 k (⟨l.val, by omega⟩ : Fin 4))
      = (m (d, (main_arg8 : DevRef τ sig)) : S128x2.Idx → F .f32) (ix2 (Cert.Spec.top k) l) :=
  Glue.ops0_v2_left (Launch.W0 m d) k l
theorem Wa_v2_right (d : Dev nD) (k : Fin 64) (l : Fin 2) :
    (Wa m d (main_v2 : DevRef τ sig) : S64x4.Idx → F .f32) (ix2 k (⟨2 + l.val, by omega⟩ : Fin 4))
      = (m (d, (main_arg8 : DevRef τ sig)) : S128x2.Idx → F .f32) (ix2 (Cert.Spec.bot k) l) :=
  Glue.ops0_v2_right (Launch.W0 m d) k l
/-- The bias row is the classifier's bias followed by two zeros. -/
theorem Wa_v5_left (d : Dev nD) (l : Fin 2) :
    (Wa m d (main_v5 : DevRef τ sig) : S1x4.Idx → F .f32) (ix2 (0 : Fin 1) (⟨l.val, by omega⟩ : Fin 4))
      = (m (d, (main_arg9 : DevRef τ sig)) : S2.Idx → F .f32) (ix1 l) :=
  Glue.ops0_v5_left (Launch.W0 m d) l
theorem Wa_v5_right (d : Dev nD) (l : Fin 2) :
    (Wa m d (main_v5 : DevRef τ sig) : S1x4.Idx → F .f32) (ix2 (0 : Fin 1) (⟨2 + l.val, by omega⟩ : Fin 4))
      = (FloatOps.ofBits .f32 0x00000000#32 : F .f32) :=
  Glue.ops0_v5_right (Launch.W0 m d) l

end Cert.KernelIdeal.Sc.Chain

end
-- ==== Proof.TileLemmas.lean ====
/-
  One vector subcore's task, first part: the words the task computes with, the side conditions it assumes, and what
  one trip of a block's loop leaves in the two result scratches.

  A block's loop runs 250 trips of 16 lanes. Trip k reads the index words 16 k .. 16 k + 15 of the two index scratches,
  gathers the table scratch at 4 a, 4 b + 2, 4 a + 1, 4 b + 3, and stores the two sums at lanes 16 k .. 16 k + 15 of
  the result scratches: before trip k the result scratches hold the block's values below lane 16 k and what they held
  before the loop from there on.
-/
import proofs.«208457_g31284541784245_cont_9to1_2229_14_alg».proof.Proof.TileDefs
import proofs.«208457_g31284541784245_cont_9to1_2229_14_alg».proof.Proof.Gen.KernelIdeal.Skeleton

noncomputable section

namespace Cert.KernelIdeal.Sc.Tile

open Cert.KernelIdeal Cert.KernelIdeal.Gen Cert.KernelIdeal.Sc

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Transfers (shareTok shareDrop pointsTo_toks_split pointsTo_toks_join)
open Idealize.ShloMosaic.Tactic
variable {F : FTy → Type}

/-! ## The places and the scratch memrefs, spelt as the body table passes them -/

abbrev cV (L : grid1.Coords) : Fin τ.nSC := (L 0).castLE hcore1
abbrev jV (L : grid1.Coords) : Fin τ.nSub := (L 1).castLE hsub1
abbrev thrV (d : Dev nD) (L : grid1.Coords) : Thread nD τ := V d (cV L) (jV L)

abbrev s0 : Memref sig .scVector .vmem S40000 .f32 := Memref.whole cc1_scratch0
abbrev s1 : Memref sig .scVector .vmem S4000 .i32 := Memref.whole cc1_scratch1
abbrev s2 : Memref sig .scVector .vmem S4000 .i32 := Memref.whole cc1_scratch2
abbrev s3 : Memref sig .scVector .vmem S4000 .f32 := Memref.whole cc1_scratch3
abbrev s4 : Memref sig .scVector .vmem S4000 .f32 := Memref.whole cc1_scratch4

/-! ## Words -/

theorem toNat_mul4 (w : BitVec 32) (h : w.toNat < 10000) : (IntOp.muli w 4#32).toNat = 4 * w.toNat := by
  show (w * 4#32).toNat = _
  rw [BitVec.toNat_mul]
  have : (4#32 : BitVec 32).toNat = 4 := by decide
  rw [this]; omega

theorem toNat_mul4_add (w : BitVec 32) (h : w.toNat < 10000) (c : ℕ) (hc : c < 4) :
    (IntOp.addi (IntOp.muli w 4#32) (BitVec.ofNat 32 c)).toNat = 4 * w.toNat + c := by
  show (w * 4#32 + BitVec.ofNat 32 c).toNat = _
  rw [BitVec.toNat_add, BitVec.toNat_mul, BitVec.toNat_ofNat, BitVec.toNat_ofNat]
  have e : (2 : ℕ) ^ 32 = 4294967296 := by norm_num
  rw [e]; omega

/-- Four times a node's word names a word of the table; -/
theorem chk_mul0 (v : IVec S16 32) (h : ∀ x, (v x).toNat < 10000) :
    ∀ a x, ((![muli v (broadcast S16 4#32)] : Fin 1 → IVec S16 32) a x).toNat < S40000.size a := by
  intro a x; obtain rfl : a = 0 := Subsingleton.elim _ _
  show (IntOp.muli (v x) 4#32).toNat < 40000
  rw [toNat_mul4 _ (h x)]; have := h x; omega
/-- and so does that plus one, two or three. -/
theorem chk_mul (v : IVec S16 32) (h : ∀ x, (v x).toNat < 10000) (c : ℕ) (hc : c < 4) :
    ∀ a x, ((![addi (muli v (broadcast S16 4#32)) (broadcast S16 (BitVec.ofNat 32 c))] : Fin 1 → IVec S16 32) a x).toNat < S40000.size a := by
  intro a x; obtain rfl : a = 0 := Subsingleton.elim _ _
  show (IntOp.addi (IntOp.muli (v x) 4#32) (BitVec.ofNat 32 c)).toNat < 40000
  rw [toNat_mul4_add _ (h x) c hc]; have := h x; omega

/-! ## A block's values, and the result scratches trip by trip -/

section Vals

variable [FloatOps F]

/-- A block's values from the table and the block's index words. -/
def lz0 (T : Vec F S40000 .f32) (A B : IVec S4000 32) : Vec F S4000 .f32 :=
  fun j => FloatOps.addf (φ := .f32) (T (tabIx (4 * (A j).toNat))) (T (tabIx (4 * (B j).toNat + 2)))
def lz1 (T : Vec F S40000 .f32) (A B : IVec S4000 32) : Vec F S4000 .f32 :=
  fun j => FloatOps.addf (φ := .f32) (T (tabIx (4 * (A j).toNat + 1))) (T (tabIx (4 * (B j).toNat + 3)))

omit [FloatOps F] in
/-- The values below lane `16 k`, the earlier contents from there on. -/
def upTo (Z f0 : Vec F S4000 .f32) (k : ℕ) : Vec F S4000 .f32 := fun j => if (j 0).val < 16 * k then Z j else f0 j

omit [FloatOps F] in
theorem upTo_all (Z f0 : Vec F S4000 .f32) : upTo Z f0 250 = Z := by
  funext j; unfold upTo; rw [if_pos]; have : (j 0).val < 4000 := (j 0).isLt; omega

omit [FloatOps F] in
/-- The lanes of trip `k`. -/
theorem emb16_val {k : ℕ} {off : Fin 1 → ℕ} (hoff : off = ![16 * k]) (inb : ∀ a, off a + (![16] : Fin 1 → ℕ) a ≤ S4000.size a)
    (x : (Rect.unit (s := S4000) off ![16] inb).shape.Idx) :
    (((Rect.unit (s := S4000) off ![16] inb).emb x) 0).val = 16 * k + (x 0).val := by
  subst hoff; simp [Rect.emb_apply]

omit [FloatOps F] in
theorem idx16_val {k : ℕ} {off : Fin 1 → ℕ} (hoff : off = ![16 * k]) (inb : ∀ a, off a + (![16] : Fin 1 → ℕ) a ≤ S4000.size a)
    (x : (Rect.unit (s := S4000) off ![16] inb).shape.Idx) :
    (((Rect.unit (s := S4000) off ![16] inb).toLoadRect.idx x) 0).val = 16 * k + (x 0).val := by
  subst hoff; simp [LoadRect.idx_apply]

end Vals

section Steps

variable [FloatOps F]

omit [FloatOps F] in
/-- One trip's store into the first result scratch: the values reach one trip further. -/
theorem upTo_step3 (Z f0 : Vec F S4000 .f32) (k : ℕ) (off : Fin 1 → ℕ) (hoff : off = ![16 * k])
    (inb : ∀ a, off a + (![16] : Fin 1 → ℕ) a ≤ S4000.size a)
    (w : (Rect.unit (s := S4000) off ![16] inb).shape.Idx → Elt F .f32)
    (hw : ∀ x, w x = Z ((Rect.unit (s := S4000) off ![16] inb).emb x)) :
    s3.view.writes (Elt F) (upTo Z f0 k) [⟨Rect.unit (s := S4000) off ![16] inb, w⟩] = upTo Z f0 (k + 1) := by
  funext j
  show s3.view.read (Elt F) (s3.view.writes (Elt F) (upTo Z f0 k) [⟨Rect.unit (s := S4000) off ![16] inb, w⟩]) j = _
  by_cases hj : j ∈ (Rect.unit (s := S4000) off ![16] inb).set
  · obtain ⟨x, rfl⟩ := (Rect.unit (s := S4000) off ![16] inb).exists_idx_of_mem hj
    show s3.view.read (Elt F) (s3.view.writes (Elt F) (upTo Z f0 k) [⟨Rect.unit (s := S4000) off ![16] inb, w⟩]) ((Rect.unit (s := S4000) off ![16] inb).emb x) = _
    rw [View.read_writes_cons_emb, hw]
    have hx : (((Rect.unit (s := S4000) off ![16] inb).emb x) 0).val < 16 * (k + 1) := by
      have h1 := emb16_val hoff inb x
      have h16 : (x 0).val < 16 := (x 0).isLt
      omega
    exact (if_pos hx).symm
  · rw [View.read_writes_apply_of_forall_not_mem _ _ _ _ (fun p hp => by rw [List.mem_singleton] at hp; subst hp; exact hj)]
    show upTo Z f0 k j = upTo Z f0 (k + 1) j
    rw [Rect.mem_set_unit] at hj
    subst hoff
    have h0 : ¬ (16 * k ≤ (j 0).val ∧ (j 0).val < 16 * k + 16) := fun h => hj fun a => by
      obtain rfl : a = 0 := Subsingleton.elim _ _
      exact h
    unfold upTo
    by_cases h1 : (j 0).val < 16 * k
    · rw [if_pos h1, if_pos (by omega)]
    · rw [if_neg h1, if_neg (by omega)]

omit [FloatOps F] in
/-- The same for the second result scratch. -/
theorem upTo_step4 (Z f0 : Vec F S4000 .f32) (k : ℕ) (off : Fin 1 → ℕ) (hoff : off = ![16 * k])
    (inb : ∀ a, off a + (![16] : Fin 1 → ℕ) a ≤ S4000.size a)
    (w : (Rect.unit (s := S4000) off ![16] inb).shape.Idx → Elt F .f32)
    (hw : ∀ x, w x = Z ((Rect.unit (s := S4000) off ![16] inb).emb x)) :
    s4.view.writes (Elt F) (upTo Z f0 k) [⟨Rect.unit (s := S4000) off ![16] inb, w⟩] = upTo Z f0 (k + 1) := by
  funext j
  show s4.view.read (Elt F) (s4.view.writes (Elt F) (upTo Z f0 k) [⟨Rect.unit (s := S4000) off ![16] inb, w⟩]) j = _
  by_cases hj : j ∈ (Rect.unit (s := S4000) off ![16] inb).set
  · obtain ⟨x, rfl⟩ := (Rect.unit (s := S4000) off ![16] inb).exists_idx_of_mem hj
    show s4.view.read (Elt F) (s4.view.writes (Elt F) (upTo Z f0 k) [⟨Rect.unit (s := S4000) off ![16] inb, w⟩]) ((Rect.unit (s := S4000) off ![16] inb).emb x) = _
    rw [View.read_writes_cons_emb, hw]
    have hx : (((Rect.unit (s := S4000) off ![16] inb).emb x) 0).val < 16 * (k + 1) := by
      have h1 := emb16_val hoff inb x
      have h16 : (x 0).val < 16 := (x 0).isLt
      omega
    exact (if_pos hx).symm
  · rw [View.read_writes_apply_of_forall_not_mem _ _ _ _ (fun p hp => by rw [List.mem_singleton] at hp; subst hp; exact hj)]
    show upTo Z f0 k j = upTo Z f0 (k + 1) j
    rw [Rect.mem_set_unit] at hj
    subst hoff
    have h0 : ¬ (16 * k ≤ (j 0).val ∧ (j 0).val < 16 * k + 16) := fun h => hj fun a => by
      obtain rfl : a = 0 := Subsingleton.elim _ _
      exact h
    unfold upTo
    by_cases h1 : (j 0).val < 16 * k
    · rw [if_pos h1, if_pos (by omega)]
    · rw [if_neg h1, if_neg (by omega)]

/-- The table scratch gathered at a word below the table's length reads the table there. -/
theorem gather_lane (T : Vec F S40000 .f32) (idx : IVec S16 32) (h : ∀ a x, ((![idx] : Fin 1 → IVec S16 32) a x).toNat < S40000.size a)
    (x : S16.Idx) (n : ℕ) (hn : (idx x).toNat = n) (hlt : n < 40000) :
    loadIdx (View.readAt (Elt F) s0.view (LoadRect.whole S40000) T) ![idx] h x = T (tabIx n) := by
  show T ((LoadRect.whole S40000).idx (idxAt ![idx] h x)) = T (tabIx n)
  congr 1
  funext a; obtain rfl : a = 0 := Subsingleton.elim _ _
  apply Fin.ext
  show (LoadRect.whole S40000).off 0 + (LoadRect.whole S40000).stride 0 * (idx x).toNat = n % 40000
  rw [hn, Nat.mod_eq_of_lt hlt]
  show 0 + 1 * n = n
  omega

end Steps

section Lanes

variable [FloatOps F]

omit [FloatOps F] in
/-- Lane `x` of trip `k`'s load of an index scratch is the scratch's word at lane `16 k + x`: the lane the trip's store
    writes. -/
theorem idxLane1 (A : IVec S4000 32) {k : ℕ} {offI offO : Fin 1 → ℕ} (hI : offI = ![16 * k]) (hO : offO = ![16 * k])
    (inbI : ∀ a, offI a + (![16] : Fin 1 → ℕ) a ≤ S4000.size a) (inbO : ∀ a, offO a + (![16] : Fin 1 → ℕ) a ≤ S4000.size a)
    (x : S16.Idx) :
    View.readAt (Elt F) s1.view (Rect.unit (s := S4000) offI ![16] inbI).toLoadRect A x = A ((Rect.unit (s := S4000) offO ![16] inbO).emb x) := by
  show A ((Rect.unit (s := S4000) offI ![16] inbI).toLoadRect.idx x) = A ((Rect.unit (s := S4000) offO ![16] inbO).emb x)
  congr 1
  funext a; obtain rfl : a = 0 := Subsingleton.elim _ _
  apply Fin.ext
  rw [idx16_val hI, emb16_val hO]
omit [FloatOps F] in
theorem idxLane2 (B : IVec S4000 32) {k : ℕ} {offI offO : Fin 1 → ℕ} (hI : offI = ![16 * k]) (hO : offO = ![16 * k])
    (inbI : ∀ a, offI a + (![16] : Fin 1 → ℕ) a ≤ S4000.size a) (inbO : ∀ a, offO a + (![16] : Fin 1 → ℕ) a ≤ S4000.size a)
    (x : S16.Idx) :
    View.readAt (Elt F) s2.view (Rect.unit (s := S4000) offI ![16] inbI).toLoadRect B x = B ((Rect.unit (s := S4000) offO ![16] inbO).emb x) := by
  show B ((Rect.unit (s := S4000) offI ![16] inbI).toLoadRect.idx x) = B ((Rect.unit (s := S4000) offO ![16] inbO).emb x)
  congr 1
  funext a; obtain rfl : a = 0 := Subsingleton.elim _ _
  apply Fin.ext
  rw [idx16_val hI, emb16_val hO]

/-- What a trip stores into the first result scratch, lane by lane: the block's first values at the trip's lanes. -/
theorem pay0_lane (T : Vec F S40000 .f32) (A B : IVec S4000 32) (hA : ∀ j, (A j).toNat < 10000) (hB : ∀ j, (B j).toNat < 10000)
    {k : ℕ} {offI offO : Fin 1 → ℕ} (hI : offI = ![16 * k]) (hO : offO = ![16 * k])
    (inbI : ∀ a, offI a + (![16] : Fin 1 → ℕ) a ≤ S4000.size a) (inbO : ∀ a, offO a + (![16] : Fin 1 → ℕ) a ≤ S4000.size a)
    (h1 : ∀ a x, ((![muli (View.readAt (Elt F) s1.view (Rect.unit (s := S4000) offI ![16] inbI).toLoadRect A) (broadcast S16 4#32)] : Fin 1 → IVec S16 32) a x).toNat < S40000.size a)
    (h2 : ∀ a x, ((![addi (muli (View.readAt (Elt F) s2.view (Rect.unit (s := S4000) offI ![16] inbI).toLoadRect B) (broadcast S16 4#32)) (broadcast S16 2#32)] : Fin 1 → IVec S16 32) a x).toNat < S40000.size a)
    (x : S16.Idx) :
    addf (loadIdx (View.readAt (Elt F) s0.view (LoadRect.whole S40000) T) ![muli (View.readAt (Elt F) s1.view (Rect.unit (s := S4000) offI ![16] inbI).toLoadRect A) (broadcast S16 4#32)] h1)
        (loadIdx (View.readAt (Elt F) s0.view (LoadRect.whole S40000) T) ![addi (muli (View.readAt (Elt F) s2.view (Rect.unit (s := S4000) offI ![16] inbI).toLoadRect B) (broadcast S16 4#32)) (broadcast S16 2#32)] h2) x
      = lz0 T A B ((Rect.unit (s := S4000) offO ![16] inbO).emb x) := by
  have ea := idxLane1 (F := F) A hI hO inbI inbO x
  have eb := idxLane2 (F := F) B hI hO inbI inbO x
  have ha := hA ((Rect.unit (s := S4000) offO ![16] inbO).emb x)
  have hb := hB ((Rect.unit (s := S4000) offO ![16] inbO).emb x)
  show FloatOps.addf (φ := .f32) (loadIdx (F := F) (e := .f32) _ _ h1 x) (loadIdx (F := F) (e := .f32) _ _ h2 x) = FloatOps.addf (φ := .f32) (T (tabIx _)) (T (tabIx _))
  rw [gather_lane T _ h1 x (4 * (A ((Rect.unit (s := S4000) offO ![16] inbO).emb x)).toNat)
      (by show (IntOp.muli (View.readAt (Elt F) s1.view (Rect.unit (s := S4000) offI ![16] inbI).toLoadRect A x) 4#32).toNat = _
          rw [ea, toNat_mul4 _ ha]) (by omega),
    gather_lane T _ h2 x (4 * (B ((Rect.unit (s := S4000) offO ![16] inbO).emb x)).toNat + 2)
      (by show (IntOp.addi (IntOp.muli (View.readAt (Elt F) s2.view (Rect.unit (s := S4000) offI ![16] inbI).toLoadRect B x) 4#32) (BitVec.ofNat 32 2)).toNat = _
          rw [eb, toNat_mul4_add _ hb 2 (by decide)]) (by omega)]

/-- What a trip stores into the second result scratch, lane by lane. -/
theorem pay1_lane (T : Vec F S40000 .f32) (A B : IVec S4000 32) (hA : ∀ j, (A j).toNat < 10000) (hB : ∀ j, (B j).toNat < 10000)
    {k : ℕ} {offI offO : Fin 1 → ℕ} (hI : offI = ![16 * k]) (hO : offO = ![16 * k])
    (inbI : ∀ a, offI a + (![16] : Fin 1 → ℕ) a ≤ S4000.size a) (inbO : ∀ a, offO a + (![16] : Fin 1 → ℕ) a ≤ S4000.size a)
    (h1 : ∀ a x, ((![addi (muli (View.readAt (Elt F) s1.view (Rect.unit (s := S4000) offI ![16] inbI).toLoadRect A) (broadcast S16 4#32)) (broadcast S16 1#32)] : Fin 1 → IVec S16 32) a x).toNat < S40000.size a)
    (h2 : ∀ a x, ((![addi (muli (View.readAt (Elt F) s2.view (Rect.unit (s := S4000) offI ![16] inbI).toLoadRect B) (broadcast S16 4#32)) (broadcast S16 3#32)] : Fin 1 → IVec S16 32) a x).toNat < S40000.size a)
    (x : S16.Idx) :
    addf (loadIdx (View.readAt (Elt F) s0.view (LoadRect.whole S40000) T) ![addi (muli (View.readAt (Elt F) s1.view (Rect.unit (s := S4000) offI ![16] inbI).toLoadRect A) (broadcast S16 4#32)) (broadcast S16 1#32)] h1)
        (loadIdx (View.readAt (Elt F) s0.view (LoadRect.whole S40000) T) ![addi (muli (View.readAt (Elt F) s2.view (Rect.unit (s := S4000) offI ![16] inbI).toLoadRect B) (broadcast S16 4#32)) (broadcast S16 3#32)] h2) x
      = lz1 T A B ((Rect.unit (s := S4000) offO ![16] inbO).emb x) := by
  have ea := idxLane1 (F := F) A hI hO inbI inbO x
  have eb := idxLane2 (F := F) B hI hO inbI inbO x
  have ha := hA ((Rect.unit (s := S4000) offO ![16] inbO).emb x)
  have hb := hB ((Rect.unit (s := S4000) offO ![16] inbO).emb x)
  show FloatOps.addf (φ := .f32) (loadIdx (F := F) (e := .f32) _ _ h1 x) (loadIdx (F := F) (e := .f32) _ _ h2 x) = FloatOps.addf (φ := .f32) (T (tabIx _)) (T (tabIx _))
  rw [gather_lane T _ h1 x (4 * (A ((Rect.unit (s := S4000) offO ![16] inbO).emb x)).toNat + 1)
      (by show (IntOp.addi (IntOp.muli (View.readAt (Elt F) s1.view (Rect.unit (s := S4000) offI ![16] inbI).toLoadRect A x) 4#32) (BitVec.ofNat 32 1)).toNat = _
          rw [ea, toNat_mul4_add _ ha 1 (by decide)]) (by omega),
    gather_lane T _ h2 x (4 * (B ((Rect.unit (s := S4000) offO ![16] inbO).emb x)).toNat + 3)
      (by show (IntOp.addi (IntOp.muli (View.readAt (Elt F) s2.view (Rect.unit (s := S4000) offI ![16] inbI).toLoadRect B x) 4#32) (BitVec.ofNat 32 3)).toNat = _
          rw [eb, toNat_mul4_add _ hb 3 (by decide)]) (by omega)]

end Lanes

/-! ## The vector subcore's own storage, piece by piece -/

section Own

/-- A finite product of assertions with the listed members taken out in front. -/
theorem bigSep_take {I : Type} [DecidableEq I] (Φ : I → sProp (MM F)) :
    ∀ (l : List I) (s : Finset I), l.Nodup → (∀ x ∈ l, x ∈ s) →
      bigSep s Φ = l.foldr (fun x acc => iprop(Φ x ∗ acc)) (bigSep (l.foldl (fun t x => t.erase x) s) Φ)
  | [], _, _, _ => rfl
  | a :: l, s, hn, hm => by
    rw [SparseCore.bigSep_erase' (hm a List.mem_cons_self),
      bigSep_take Φ l (s.erase a) (List.nodup_cons.mp hn).2 fun x hx =>
        Finset.mem_erase.mpr ⟨fun e => (List.nodup_cons.mp hn).1 (e ▸ hx), hm x (List.mem_cons_of_mem _ hx)⟩]
    rfl

/-- The task's 21 DMA semaphores. -/
def semList : List (SemLoc sig) := [.dma cc1_scoped0.sem, .dma cc1_scoped1.sem, .dma cc1_scoped2.sem, .dma cc1_scoped3.sem, .dma cc1_scoped4.sem, .dma cc1_scoped5.sem, .dma cc1_scoped6.sem, .dma cc1_scoped7.sem, .dma cc1_scoped8.sem, .dma cc1_scoped9.sem, .dma cc1_scoped10.sem, .dma cc1_scoped11.sem, .dma cc1_scoped12.sem, .dma cc1_scoped13.sem, .dma cc1_scoped14.sem, .dma cc1_scoped15.sem, .dma cc1_scoped16.sem, .dma cc1_scoped17.sem, .dma cc1_scoped18.sem, .dma cc1_scoped19.sem, .dma cc1_scoped20.sem]
theorem semList_nodup : semList.Nodup := by decide
theorem semList_scoped : ∀ sm ∈ semList, sm.isScoped .scVector = true := by decide

/-- The rest of a vector subcore's scoped cells. -/
def restCells (thr : Thread nD τ) : Finset (GSem nD τ sig) := (semList.map fun sm => ((thr, sm) : GSem nD τ sig)).foldl (fun t x => t.erase x) (ownCells thr)

theorem ownSems0_V (d : Dev nD) (L : grid1.Coords) :
    (ownSems0 (thrV d L) : sProp (MM F))
      = iprop(semVal (thrV d L, .dma cc1_scoped0.sem) 0
          ∗ semVal (thrV d L, .dma cc1_scoped1.sem) 0
          ∗ semVal (thrV d L, .dma cc1_scoped2.sem) 0
          ∗ semVal (thrV d L, .dma cc1_scoped3.sem) 0
          ∗ semVal (thrV d L, .dma cc1_scoped4.sem) 0
          ∗ semVal (thrV d L, .dma cc1_scoped5.sem) 0
          ∗ semVal (thrV d L, .dma cc1_scoped6.sem) 0
          ∗ semVal (thrV d L, .dma cc1_scoped7.sem) 0
          ∗ semVal (thrV d L, .dma cc1_scoped8.sem) 0
          ∗ semVal (thrV d L, .dma cc1_scoped9.sem) 0
          ∗ semVal (thrV d L, .dma cc1_scoped10.sem) 0
          ∗ semVal (thrV d L, .dma cc1_scoped11.sem) 0
          ∗ semVal (thrV d L, .dma cc1_scoped12.sem) 0
          ∗ semVal (thrV d L, .dma cc1_scoped13.sem) 0
          ∗ semVal (thrV d L, .dma cc1_scoped14.sem) 0
          ∗ semVal (thrV d L, .dma cc1_scoped15.sem) 0
          ∗ semVal (thrV d L, .dma cc1_scoped16.sem) 0
          ∗ semVal (thrV d L, .dma cc1_scoped17.sem) 0
          ∗ semVal (thrV d L, .dma cc1_scoped18.sem) 0
          ∗ semVal (thrV d L, .dma cc1_scoped19.sem) 0
          ∗ semVal (thrV d L, .dma cc1_scoped20.sem) 0
          ∗ bigSep (restCells (thrV d L)) fun g => semVal g 0) := by
  unfold SparseCore.Cfg.ownSems0
  rw [bigSep_take (F := F) (fun g : GSem nD τ sig => semVal g 0) (semList.map fun sm => ((thrV d L, sm) : GSem nD τ sig)) (ownCells (thrV d L))
    (semList_nodup.map fun _ _ e => (Prod.mk.inj e).2)
    (fun g hg => by
      obtain ⟨sm, hsm, rfl⟩ := List.mem_map.mp hg
      exact mem_ownCells.mpr ⟨rfl, semList_scoped sm hsm⟩)]
  unfold restCells
  simp only [semList, List.map_cons, List.map_nil, List.foldr_cons, List.foldr_nil]

/-- The task's five scratch buffers. -/
def bufList : List (Ref sig .scVector) := [cc1_scratch0, cc1_scratch1, cc1_scratch2, cc1_scratch3, cc1_scratch4]
theorem bufList_nodup : bufList.Nodup := by decide
def restRefs (L : grid1.Coords) : Finset (DevRef τ sig) :=
  (bufList.map fun b => (Proc.scVector (cV L) (jV L)).devRef b).foldl (fun t x => t.erase x) (ownRefs (τ := τ) (.scVector (cV L) (jV L)))

theorem ownBufs_V (d : Dev nD) (L : grid1.Coords) :
    (ownBufs (thrV d L) : sProp (MM F))
      = iprop((∃ f, (thrV d L).loc cc1_scratch0 ↦{fullShare} f) ∗ (∃ f, (thrV d L).loc cc1_scratch1 ↦{fullShare} f)
          ∗ (∃ f, (thrV d L).loc cc1_scratch2 ↦{fullShare} f) ∗ (∃ f, (thrV d L).loc cc1_scratch3 ↦{fullShare} f)
          ∗ (∃ f, (thrV d L).loc cc1_scratch4 ↦{fullShare} f)
          ∗ bigSep (restRefs L) fun b => iprop(∃ f, ((d, b) : Loc nD τ sig) ↦{fullShare} f)) := by
  unfold SparseCore.Cfg.ownBufs
  rw [bigSep_take (F := F) (fun b : DevRef τ sig => iprop(∃ f, ((d, b) : Loc nD τ sig) ↦{fullShare} f))
    (bufList.map fun b => (Proc.scVector (cV L) (jV L)).devRef b) (ownRefs (τ := τ) (.scVector (cV L) (jV L)))
    (bufList_nodup.map (Proc.devRef_injective _))
    (fun b hb => by
      simp only [bufList, List.map_cons, List.map_nil, List.mem_cons, List.not_mem_nil, or_false] at hb
      rcases hb with rfl | rfl | rfl | rfl | rfl <;> exact SparseCore.Cfg.mem_ownRefs_of_owner (p := Proc.scVector (cV L) (jV L)) rfl)]
  unfold restRefs
  simp only [bufList, List.map_cons, List.map_nil, List.foldr_cons, List.foldr_nil]

end Own

end Cert.KernelIdeal.Sc.Tile

end
-- ==== Proof.TileLoop.lean ====
/-
  One vector subcore's task, second part: one trip of each of the five blocks' loops, from the loop's invariant at trip k
  to the invariant at trip k + 1 — the index words loaded, the four side conditions discharged from the words' range,
  the four gathers, the two sums stored.
-/
import proofs.«208457_g31284541784245_cont_9to1_2229_14_alg».proof.Proof.TileLemmas

noncomputable section

namespace Cert.KernelIdeal.Sc.Tile

open Cert.KernelIdeal Cert.KernelIdeal.Gen Cert.KernelIdeal.Sc

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Transfers (shareTok shareDrop pointsTo_toks_split pointsTo_toks_join)
open Idealize.ShloMosaic.Tactic
variable {F : FTy → Type}

section Loop

variable [FloatOps F]

/-- Before trip `k` of a block's loop: the table scratch at the table, the index scratches at the block's words, the
    result scratches at the block's values below lane `16 k` and their earlier contents from there on. -/
def inv (d : Dev nD) (L : grid1.Coords) (T : Vec F S40000 .f32) (A B : IVec S4000 32) (f0 f1 : Vec F S4000 .f32) (k : ℕ) (_ : PUnit) : sProp (MM F) :=
  iprop(((s0).view.loc (thrV d L) ↦{fullShare} T) ∗ ((s1).view.loc (thrV d L) ↦{fullShare} A) ∗ ((s2).view.loc (thrV d L) ↦{fullShare} B)
    ∗ ((s3).view.loc (thrV d L) ↦{fullShare} upTo (lz0 T A B) f0 k) ∗ ((s4).view.loc (thrV d L) ↦{fullShare} upTo (lz1 T A B) f1 k))

set_option maxHeartbeats 4000000 in
/-- One trip of block 0's loop. -/
theorem region1 (d : Dev nD) (L : grid1.Coords) (T : Vec F S40000 .f32) (A B : IVec S4000 32) (f0 f1 : Vec F S4000 .f32)
    (hA : ∀ j, (A j).toNat < 10000) (hB : ∀ j, (B j).toNat < 10000) (k : Fin k1_t1_loop.trips) (u : Unit) :
    inv d L T A B f0 f1 k.val ⟨⟩
      ⊢ wp frame (wpE (defs₀ (F := F)) 𝒱₀ (thrV d L) none) Set.univ
          (k1_t1_body L (Memref.whole main_v9_scv) (Memref.isWhole_whole _) (Memref.whole main_v11_scv) (Memref.isWhole_whole _) (Memref.whole main_v13_scv) (Memref.isWhole_whole _) (Memref.whole main_v14_0_scv) (Memref.isWhole_whole _) (Memref.whole main_v14_1_scv) (Memref.isWhole_whole _) (Memref.whole cc1_scratch0) (Memref.isWhole_whole _) (Memref.whole cc1_scratch1) (Memref.isWhole_whole _) (Memref.whole cc1_scratch2) (Memref.isWhole_whole _) (Memref.whole cc1_scratch3) (Memref.isWhole_whole _) (Memref.whole cc1_scratch4) (Memref.isWhole_whole _) cc1_scoped0 cc1_scoped1 cc1_scoped2 cc1_scoped3 cc1_scoped4 cc1_scoped5 cc1_scoped6 cc1_scoped7 cc1_scoped8 cc1_scoped9 cc1_scoped10 cc1_scoped11 cc1_scoped12 cc1_scoped13 cc1_scoped14 cc1_scoped15 cc1_scoped16 cc1_scoped17 cc1_scoped18 cc1_scoped19 cc1_scoped20 k u)
          (fun _ => inv d L T A B f0 f1 (k.val + 1) ⟨⟩) := by
  unfold k1_t1_body
  simp only [SparseCore.vectorLoadIdx_bind (thrV d L)]
  unfold inv
  iintro ⟨H0, H1, H2, H3, H4⟩
  have hrA : ∀ x, ((View.readAt (Elt F) s1.view (Rect.unit (s := S4000) (k1_off2 k) S16.size (k1_off2_inb k)).toLoadRect A) x).toNat < 10000 := fun x => by
    rw [View.readAt_apply]; exact hA _
  have hrB : ∀ x, ((View.readAt (Elt F) s2.view (Rect.unit (s := S4000) (k1_off2 k) S16.size (k1_off2_inb k)).toLoadRect B) x).toNat < 10000 := fun x => by
    rw [View.readAt_apply]; exact hB _
  have c1 : k1_chk1 (k1_pay1 (View.readAt (Elt F) s1.view (Rect.unit (s := S4000) (k1_off2 k) S16.size (k1_off2_inb k)).toLoadRect A)) := chk_mul0 _ hrA
  have c2 : k1_chk2 (k1_pay3 (View.readAt (Elt F) s2.view (Rect.unit (s := S4000) (k1_off2 k) S16.size (k1_off2_inb k)).toLoadRect B)) := chk_mul _ hrB 2 (by decide)
  have c3 : k1_chk3 (k1_pay5 (k1_pay1 (View.readAt (Elt F) s1.view (Rect.unit (s := S4000) (k1_off2 k) S16.size (k1_off2_inb k)).toLoadRect A))) := chk_mul _ hrA 1 (by decide)
  have c4 : k1_chk4 (k1_pay6 (View.readAt (Elt F) s2.view (Rect.unit (s := S4000) (k1_off2 k) S16.size (k1_off2_inb k)).toLoadRect B)) := chk_mul _ hrB 3 (by decide)
  have hw3 : ∀ x, (k1_pay4 (loadIdx (View.readAt (Elt F) s0.view (LoadRect.whole S40000) T) ![k1_pay1 (View.readAt (Elt F) s1.view (Rect.unit (s := S4000) (k1_off2 k) S16.size (k1_off2_inb k)).toLoadRect A)] (k1_idx1_inb _ c1)) (loadIdx (View.readAt (Elt F) s0.view (LoadRect.whole S40000) T) ![k1_pay3 (View.readAt (Elt F) s2.view (Rect.unit (s := S4000) (k1_off2 k) S16.size (k1_off2_inb k)).toLoadRect B)] (k1_idx2_inb _ c2))) x = lz0 T A B ((Rect.unit (s := S4000) (k1_off3 k) ![16] (k1_off3_inb k)).emb x) :=
    fun x => pay0_lane T A B hA hB (k1_off2_eq k) (k1_off3_eq k) (k1_off2_inb k) (k1_off3_inb k) _ _ x
  have hw4 : ∀ x, (k1_pay7 (loadIdx (View.readAt (Elt F) s0.view (LoadRect.whole S40000) T) ![k1_pay5 (k1_pay1 (View.readAt (Elt F) s1.view (Rect.unit (s := S4000) (k1_off2 k) S16.size (k1_off2_inb k)).toLoadRect A))] (k1_idx3_inb _ c3)) (loadIdx (View.readAt (Elt F) s0.view (LoadRect.whole S40000) T) ![k1_pay6 (View.readAt (Elt F) s2.view (Rect.unit (s := S4000) (k1_off2 k) S16.size (k1_off2_inb k)).toLoadRect B)] (k1_idx4_inb _ c4))) x = lz1 T A B ((Rect.unit (s := S4000) (k1_off3 k) ![16] (k1_off3_inb k)).emb x) :=
    fun x => pay1_lane T A B hA hB (k1_off2_eq k) (k1_off3_eq k) (k1_off2_inb k) (k1_off3_inb k) _ _ x
  sl_exec
  sl_step
  isplitl [H0]; · iexact H0
  isplitl [H1]; · iexact H1
  isplitl [H2]; · iexact H2
  isplitl [H3]
  · ihave H3' := (Entails.of_eq (congrArg (fun f => ((s3).view.loc (thrV d L) ↦{fullShare} f : sProp (MM F)))
        (upTo_step3 (lz0 T A B) f0 k.val (k1_off3 k) (k1_off3_eq k) (k1_off3_inb k) (k1_pay4 (loadIdx (View.readAt (Elt F) s0.view (LoadRect.whole S40000) T) ![k1_pay1 (View.readAt (Elt F) s1.view (Rect.unit (s := S4000) (k1_off2 k) S16.size (k1_off2_inb k)).toLoadRect A)] (k1_idx1_inb _ c1)) (loadIdx (View.readAt (Elt F) s0.view (LoadRect.whole S40000) T) ![k1_pay3 (View.readAt (Elt F) s2.view (Rect.unit (s := S4000) (k1_off2 k) S16.size (k1_off2_inb k)).toLoadRect B)] (k1_idx2_inb _ c2))) hw3))) $$ H3
    iexact H3'
  · ihave H4' := (Entails.of_eq (congrArg (fun f => ((s4).view.loc (thrV d L) ↦{fullShare} f : sProp (MM F)))
        (upTo_step4 (lz1 T A B) f1 k.val (k1_off3 k) (k1_off3_eq k) (k1_off3_inb k) (k1_pay7 (loadIdx (View.readAt (Elt F) s0.view (LoadRect.whole S40000) T) ![k1_pay5 (k1_pay1 (View.readAt (Elt F) s1.view (Rect.unit (s := S4000) (k1_off2 k) S16.size (k1_off2_inb k)).toLoadRect A))] (k1_idx3_inb _ c3)) (loadIdx (View.readAt (Elt F) s0.view (LoadRect.whole S40000) T) ![k1_pay6 (View.readAt (Elt F) s2.view (Rect.unit (s := S4000) (k1_off2 k) S16.size (k1_off2_inb k)).toLoadRect B)] (k1_idx4_inb _ c4))) hw4))) $$ H4
    iexact H4'

set_option maxHeartbeats 4000000 in
/-- One trip of block 1's loop. -/
theorem region2 (d : Dev nD) (L : grid1.Coords) (T : Vec F S40000 .f32) (A B : IVec S4000 32) (f0 f1 : Vec F S4000 .f32)
    (hA : ∀ j, (A j).toNat < 10000) (hB : ∀ j, (B j).toNat < 10000) (v1 c0 : BitVec 32) (k : Fin k1_t2_loop.trips) (u : Unit) :
    inv d L T A B f0 f1 k.val ⟨⟩
      ⊢ wp frame (wpE (defs₀ (F := F)) 𝒱₀ (thrV d L) none) Set.univ
          (k1_t2_body L (Memref.whole main_v9_scv) (Memref.isWhole_whole _) (Memref.whole main_v11_scv) (Memref.isWhole_whole _) (Memref.whole main_v13_scv) (Memref.isWhole_whole _) (Memref.whole main_v14_0_scv) (Memref.isWhole_whole _) (Memref.whole main_v14_1_scv) (Memref.isWhole_whole _) (Memref.whole cc1_scratch0) (Memref.isWhole_whole _) (Memref.whole cc1_scratch1) (Memref.isWhole_whole _) (Memref.whole cc1_scratch2) (Memref.isWhole_whole _) (Memref.whole cc1_scratch3) (Memref.isWhole_whole _) (Memref.whole cc1_scratch4) (Memref.isWhole_whole _) cc1_scoped0 cc1_scoped1 cc1_scoped2 cc1_scoped3 cc1_scoped4 cc1_scoped5 cc1_scoped6 cc1_scoped7 cc1_scoped8 cc1_scoped9 cc1_scoped10 cc1_scoped11 cc1_scoped12 cc1_scoped13 cc1_scoped14 cc1_scoped15 cc1_scoped16 cc1_scoped17 cc1_scoped18 cc1_scoped19 cc1_scoped20 v1 c0 k u)
          (fun _ => inv d L T A B f0 f1 (k.val + 1) ⟨⟩) := by
  unfold k1_t2_body
  simp only [SparseCore.vectorLoadIdx_bind (thrV d L)]
  unfold inv
  iintro ⟨H0, H1, H2, H3, H4⟩
  have hrA : ∀ x, ((View.readAt (Elt F) s1.view (Rect.unit (s := S4000) (k1_off4 k) S16.size (k1_off4_inb k)).toLoadRect A) x).toNat < 10000 := fun x => by
    rw [View.readAt_apply]; exact hA _
  have hrB : ∀ x, ((View.readAt (Elt F) s2.view (Rect.unit (s := S4000) (k1_off4 k) S16.size (k1_off4_inb k)).toLoadRect B) x).toNat < 10000 := fun x => by
    rw [View.readAt_apply]; exact hB _
  have c1 : k1_chk5 (k1_pay8 (View.readAt (Elt F) s1.view (Rect.unit (s := S4000) (k1_off4 k) S16.size (k1_off4_inb k)).toLoadRect A)) := chk_mul0 _ hrA
  have c2 : k1_chk6 (k1_pay10 (View.readAt (Elt F) s2.view (Rect.unit (s := S4000) (k1_off4 k) S16.size (k1_off4_inb k)).toLoadRect B)) := chk_mul _ hrB 2 (by decide)
  have c3 : k1_chk7 (k1_pay12 (k1_pay8 (View.readAt (Elt F) s1.view (Rect.unit (s := S4000) (k1_off4 k) S16.size (k1_off4_inb k)).toLoadRect A))) := chk_mul _ hrA 1 (by decide)
  have c4 : k1_chk8 (k1_pay13 (View.readAt (Elt F) s2.view (Rect.unit (s := S4000) (k1_off4 k) S16.size (k1_off4_inb k)).toLoadRect B)) := chk_mul _ hrB 3 (by decide)
  have hw3 : ∀ x, (k1_pay11 (loadIdx (View.readAt (Elt F) s0.view (LoadRect.whole S40000) T) ![k1_pay8 (View.readAt (Elt F) s1.view (Rect.unit (s := S4000) (k1_off4 k) S16.size (k1_off4_inb k)).toLoadRect A)] (k1_idx5_inb _ c1)) (loadIdx (View.readAt (Elt F) s0.view (LoadRect.whole S40000) T) ![k1_pay10 (View.readAt (Elt F) s2.view (Rect.unit (s := S4000) (k1_off4 k) S16.size (k1_off4_inb k)).toLoadRect B)] (k1_idx6_inb _ c2))) x = lz0 T A B ((Rect.unit (s := S4000) (k1_off5 k) ![16] (k1_off5_inb k)).emb x) :=
    fun x => pay0_lane T A B hA hB (k1_off4_eq k) (k1_off5_eq k) (k1_off4_inb k) (k1_off5_inb k) _ _ x
  have hw4 : ∀ x, (k1_pay14 (loadIdx (View.readAt (Elt F) s0.view (LoadRect.whole S40000) T) ![k1_pay12 (k1_pay8 (View.readAt (Elt F) s1.view (Rect.unit (s := S4000) (k1_off4 k) S16.size (k1_off4_inb k)).toLoadRect A))] (k1_idx7_inb _ c3)) (loadIdx (View.readAt (Elt F) s0.view (LoadRect.whole S40000) T) ![k1_pay13 (View.readAt (Elt F) s2.view (Rect.unit (s := S4000) (k1_off4 k) S16.size (k1_off4_inb k)).toLoadRect B)] (k1_idx8_inb _ c4))) x = lz1 T A B ((Rect.unit (s := S4000) (k1_off5 k) ![16] (k1_off5_inb k)).emb x) :=
    fun x => pay1_lane T A B hA hB (k1_off4_eq k) (k1_off5_eq k) (k1_off4_inb k) (k1_off5_inb k) _ _ x
  sl_exec
  sl_step
  isplitl [H0]; · iexact H0
  isplitl [H1]; · iexact H1
  isplitl [H2]; · iexact H2
  isplitl [H3]
  · ihave H3' := (Entails.of_eq (congrArg (fun f => ((s3).view.loc (thrV d L) ↦{fullShare} f : sProp (MM F)))
        (upTo_step3 (lz0 T A B) f0 k.val (k1_off5 k) (k1_off5_eq k) (k1_off5_inb k) (k1_pay11 (loadIdx (View.readAt (Elt F) s0.view (LoadRect.whole S40000) T) ![k1_pay8 (View.readAt (Elt F) s1.view (Rect.unit (s := S4000) (k1_off4 k) S16.size (k1_off4_inb k)).toLoadRect A)] (k1_idx5_inb _ c1)) (loadIdx (View.readAt (Elt F) s0.view (LoadRect.whole S40000) T) ![k1_pay10 (View.readAt (Elt F) s2.view (Rect.unit (s := S4000) (k1_off4 k) S16.size (k1_off4_inb k)).toLoadRect B)] (k1_idx6_inb _ c2))) hw3))) $$ H3
    iexact H3'
  · ihave H4' := (Entails.of_eq (congrArg (fun f => ((s4).view.loc (thrV d L) ↦{fullShare} f : sProp (MM F)))
        (upTo_step4 (lz1 T A B) f1 k.val (k1_off5 k) (k1_off5_eq k) (k1_off5_inb k) (k1_pay14 (loadIdx (View.readAt (Elt F) s0.view (LoadRect.whole S40000) T) ![k1_pay12 (k1_pay8 (View.readAt (Elt F) s1.view (Rect.unit (s := S4000) (k1_off4 k) S16.size (k1_off4_inb k)).toLoadRect A))] (k1_idx7_inb _ c3)) (loadIdx (View.readAt (Elt F) s0.view (LoadRect.whole S40000) T) ![k1_pay13 (View.readAt (Elt F) s2.view (Rect.unit (s := S4000) (k1_off4 k) S16.size (k1_off4_inb k)).toLoadRect B)] (k1_idx8_inb _ c4))) hw4))) $$ H4
    iexact H4'

set_option maxHeartbeats 4000000 in
/-- One trip of block 2's loop. -/
theorem region3 (d : Dev nD) (L : grid1.Coords) (T : Vec F S40000 .f32) (A B : IVec S4000 32) (f0 f1 : Vec F S4000 .f32)
    (hA : ∀ j, (A j).toNat < 10000) (hB : ∀ j, (B j).toNat < 10000) (v1 c0 : BitVec 32) (k : Fin k1_t3_loop.trips) (u : Unit) :
    inv d L T A B f0 f1 k.val ⟨⟩
      ⊢ wp frame (wpE (defs₀ (F := F)) 𝒱₀ (thrV d L) none) Set.univ
          (k1_t3_body L (Memref.whole main_v9_scv) (Memref.isWhole_whole _) (Memref.whole main_v11_scv) (Memref.isWhole_whole _) (Memref.whole main_v13_scv) (Memref.isWhole_whole _) (Memref.whole main_v14_0_scv) (Memref.isWhole_whole _) (Memref.whole main_v14_1_scv) (Memref.isWhole_whole _) (Memref.whole cc1_scratch0) (Memref.isWhole_whole _) (Memref.whole cc1_scratch1) (Memref.isWhole_whole _) (Memref.whole cc1_scratch2) (Memref.isWhole_whole _) (Memref.whole cc1_scratch3) (Memref.isWhole_whole _) (Memref.whole cc1_scratch4) (Memref.isWhole_whole _) cc1_scoped0 cc1_scoped1 cc1_scoped2 cc1_scoped3 cc1_scoped4 cc1_scoped5 cc1_scoped6 cc1_scoped7 cc1_scoped8 cc1_scoped9 cc1_scoped10 cc1_scoped11 cc1_scoped12 cc1_scoped13 cc1_scoped14 cc1_scoped15 cc1_scoped16 cc1_scoped17 cc1_scoped18 cc1_scoped19 cc1_scoped20 v1 c0 k u)
          (fun _ => inv d L T A B f0 f1 (k.val + 1) ⟨⟩) := by
  unfold k1_t3_body
  simp only [SparseCore.vectorLoadIdx_bind (thrV d L)]
  unfold inv
  iintro ⟨H0, H1, H2, H3, H4⟩
  have hrA : ∀ x, ((View.readAt (Elt F) s1.view (Rect.unit (s := S4000) (k1_off6 k) S16.size (k1_off6_inb k)).toLoadRect A) x).toNat < 10000 := fun x => by
    rw [View.readAt_apply]; exact hA _
  have hrB : ∀ x, ((View.readAt (Elt F) s2.view (Rect.unit (s := S4000) (k1_off6 k) S16.size (k1_off6_inb k)).toLoadRect B) x).toNat < 10000 := fun x => by
    rw [View.readAt_apply]; exact hB _
  have c1 : k1_chk9 (k1_pay15 (View.readAt (Elt F) s1.view (Rect.unit (s := S4000) (k1_off6 k) S16.size (k1_off6_inb k)).toLoadRect A)) := chk_mul0 _ hrA
  have c2 : k1_chk10 (k1_pay17 (View.readAt (Elt F) s2.view (Rect.unit (s := S4000) (k1_off6 k) S16.size (k1_off6_inb k)).toLoadRect B)) := chk_mul _ hrB 2 (by decide)
  have c3 : k1_chk11 (k1_pay19 (k1_pay15 (View.readAt (Elt F) s1.view (Rect.unit (s := S4000) (k1_off6 k) S16.size (k1_off6_inb k)).toLoadRect A))) := chk_mul _ hrA 1 (by decide)
  have c4 : k1_chk12 (k1_pay20 (View.readAt (Elt F) s2.view (Rect.unit (s := S4000) (k1_off6 k) S16.size (k1_off6_inb k)).toLoadRect B)) := chk_mul _ hrB 3 (by decide)
  have hw3 : ∀ x, (k1_pay18 (loadIdx (View.readAt (Elt F) s0.view (LoadRect.whole S40000) T) ![k1_pay15 (View.readAt (Elt F) s1.view (Rect.unit (s := S4000) (k1_off6 k) S16.size (k1_off6_inb k)).toLoadRect A)] (k1_idx9_inb _ c1)) (loadIdx (View.readAt (Elt F) s0.view (LoadRect.whole S40000) T) ![k1_pay17 (View.readAt (Elt F) s2.view (Rect.unit (s := S4000) (k1_off6 k) S16.size (k1_off6_inb k)).toLoadRect B)] (k1_idx10_inb _ c2))) x = lz0 T A B ((Rect.unit (s := S4000) (k1_off7 k) ![16] (k1_off7_inb k)).emb x) :=
    fun x => pay0_lane T A B hA hB (k1_off6_eq k) (k1_off7_eq k) (k1_off6_inb k) (k1_off7_inb k) _ _ x
  have hw4 : ∀ x, (k1_pay21 (loadIdx (View.readAt (Elt F) s0.view (LoadRect.whole S40000) T) ![k1_pay19 (k1_pay15 (View.readAt (Elt F) s1.view (Rect.unit (s := S4000) (k1_off6 k) S16.size (k1_off6_inb k)).toLoadRect A))] (k1_idx11_inb _ c3)) (loadIdx (View.readAt (Elt F) s0.view (LoadRect.whole S40000) T) ![k1_pay20 (View.readAt (Elt F) s2.view (Rect.unit (s := S4000) (k1_off6 k) S16.size (k1_off6_inb k)).toLoadRect B)] (k1_idx12_inb _ c4))) x = lz1 T A B ((Rect.unit (s := S4000) (k1_off7 k) ![16] (k1_off7_inb k)).emb x) :=
    fun x => pay1_lane T A B hA hB (k1_off6_eq k) (k1_off7_eq k) (k1_off6_inb k) (k1_off7_inb k) _ _ x
  sl_exec
  sl_step
  isplitl [H0]; · iexact H0
  isplitl [H1]; · iexact H1
  isplitl [H2]; · iexact H2
  isplitl [H3]
  · ihave H3' := (Entails.of_eq (congrArg (fun f => ((s3).view.loc (thrV d L) ↦{fullShare} f : sProp (MM F)))
        (upTo_step3 (lz0 T A B) f0 k.val (k1_off7 k) (k1_off7_eq k) (k1_off7_inb k) (k1_pay18 (loadIdx (View.readAt (Elt F) s0.view (LoadRect.whole S40000) T) ![k1_pay15 (View.readAt (Elt F) s1.view (Rect.unit (s := S4000) (k1_off6 k) S16.size (k1_off6_inb k)).toLoadRect A)] (k1_idx9_inb _ c1)) (loadIdx (View.readAt (Elt F) s0.view (LoadRect.whole S40000) T) ![k1_pay17 (View.readAt (Elt F) s2.view (Rect.unit (s := S4000) (k1_off6 k) S16.size (k1_off6_inb k)).toLoadRect B)] (k1_idx10_inb _ c2))) hw3))) $$ H3
    iexact H3'
  · ihave H4' := (Entails.of_eq (congrArg (fun f => ((s4).view.loc (thrV d L) ↦{fullShare} f : sProp (MM F)))
        (upTo_step4 (lz1 T A B) f1 k.val (k1_off7 k) (k1_off7_eq k) (k1_off7_inb k) (k1_pay21 (loadIdx (View.readAt (Elt F) s0.view (LoadRect.whole S40000) T) ![k1_pay19 (k1_pay15 (View.readAt (Elt F) s1.view (Rect.unit (s := S4000) (k1_off6 k) S16.size (k1_off6_inb k)).toLoadRect A))] (k1_idx11_inb _ c3)) (loadIdx (View.readAt (Elt F) s0.view (LoadRect.whole S40000) T) ![k1_pay20 (View.readAt (Elt F) s2.view (Rect.unit (s := S4000) (k1_off6 k) S16.size (k1_off6_inb k)).toLoadRect B)] (k1_idx12_inb _ c4))) hw4))) $$ H4
    iexact H4'

set_option maxHeartbeats 4000000 in
/-- One trip of block 3's loop. -/
theorem region4 (d : Dev nD) (L : grid1.Coords) (T : Vec F S40000 .f32) (A B : IVec S4000 32) (f0 f1 : Vec F S4000 .f32)
    (hA : ∀ j, (A j).toNat < 10000) (hB : ∀ j, (B j).toNat < 10000) (v1 : BitVec 32) (k : Fin k1_t4_loop.trips) (u : Unit) :
    inv d L T A B f0 f1 k.val ⟨⟩
      ⊢ wp frame (wpE (defs₀ (F := F)) 𝒱₀ (thrV d L) none) Set.univ
          (k1_t4_body L (Memref.whole main_v9_scv) (Memref.isWhole_whole _) (Memref.whole main_v11_scv) (Memref.isWhole_whole _) (Memref.whole main_v13_scv) (Memref.isWhole_whole _) (Memref.whole main_v14_0_scv) (Memref.isWhole_whole _) (Memref.whole main_v14_1_scv) (Memref.isWhole_whole _) (Memref.whole cc1_scratch0) (Memref.isWhole_whole _) (Memref.whole cc1_scratch1) (Memref.isWhole_whole _) (Memref.whole cc1_scratch2) (Memref.isWhole_whole _) (Memref.whole cc1_scratch3) (Memref.isWhole_whole _) (Memref.whole cc1_scratch4) (Memref.isWhole_whole _) cc1_scoped0 cc1_scoped1 cc1_scoped2 cc1_scoped3 cc1_scoped4 cc1_scoped5 cc1_scoped6 cc1_scoped7 cc1_scoped8 cc1_scoped9 cc1_scoped10 cc1_scoped11 cc1_scoped12 cc1_scoped13 cc1_scoped14 cc1_scoped15 cc1_scoped16 cc1_scoped17 cc1_scoped18 cc1_scoped19 cc1_scoped20 v1 k u)
          (fun _ => inv d L T A B f0 f1 (k.val + 1) ⟨⟩) := by
  unfold k1_t4_body
  simp only [SparseCore.vectorLoadIdx_bind (thrV d L)]
  unfold inv
  iintro ⟨H0, H1, H2, H3, H4⟩
  have hrA : ∀ x, ((View.readAt (Elt F) s1.view (Rect.unit (s := S4000) (k1_off8 k) S16.size (k1_off8_inb k)).toLoadRect A) x).toNat < 10000 := fun x => by
    rw [View.readAt_apply]; exact hA _
  have hrB : ∀ x, ((View.readAt (Elt F) s2.view (Rect.unit (s := S4000) (k1_off8 k) S16.size (k1_off8_inb k)).toLoadRect B) x).toNat < 10000 := fun x => by
    rw [View.readAt_apply]; exact hB _
  have c1 : k1_chk13 (k1_pay22 (View.readAt (Elt F) s1.view (Rect.unit (s := S4000) (k1_off8 k) S16.size (k1_off8_inb k)).toLoadRect A)) := chk_mul0 _ hrA
  have c2 : k1_chk14 (k1_pay24 (View.readAt (Elt F) s2.view (Rect.unit (s := S4000) (k1_off8 k) S16.size (k1_off8_inb k)).toLoadRect B)) := chk_mul _ hrB 2 (by decide)
  have c3 : k1_chk15 (k1_pay26 (k1_pay22 (View.readAt (Elt F) s1.view (Rect.unit (s := S4000) (k1_off8 k) S16.size (k1_off8_inb k)).toLoadRect A))) := chk_mul _ hrA 1 (by decide)
  have c4 : k1_chk16 (k1_pay27 (View.readAt (Elt F) s2.view (Rect.unit (s := S4000) (k1_off8 k) S16.size (k1_off8_inb k)).toLoadRect B)) := chk_mul _ hrB 3 (by decide)
  have hw3 : ∀ x, (k1_pay25 (loadIdx (View.readAt (Elt F) s0.view (LoadRect.whole S40000) T) ![k1_pay22 (View.readAt (Elt F) s1.view (Rect.unit (s := S4000) (k1_off8 k) S16.size (k1_off8_inb k)).toLoadRect A)] (k1_idx13_inb _ c1)) (loadIdx (View.readAt (Elt F) s0.view (LoadRect.whole S40000) T) ![k1_pay24 (View.readAt (Elt F) s2.view (Rect.unit (s := S4000) (k1_off8 k) S16.size (k1_off8_inb k)).toLoadRect B)] (k1_idx14_inb _ c2))) x = lz0 T A B ((Rect.unit (s := S4000) (k1_off9 k) ![16] (k1_off9_inb k)).emb x) :=
    fun x => pay0_lane T A B hA hB (k1_off8_eq k) (k1_off9_eq k) (k1_off8_inb k) (k1_off9_inb k) _ _ x
  have hw4 : ∀ x, (k1_pay28 (loadIdx (View.readAt (Elt F) s0.view (LoadRect.whole S40000) T) ![k1_pay26 (k1_pay22 (View.readAt (Elt F) s1.view (Rect.unit (s := S4000) (k1_off8 k) S16.size (k1_off8_inb k)).toLoadRect A))] (k1_idx15_inb _ c3)) (loadIdx (View.readAt (Elt F) s0.view (LoadRect.whole S40000) T) ![k1_pay27 (View.readAt (Elt F) s2.view (Rect.unit (s := S4000) (k1_off8 k) S16.size (k1_off8_inb k)).toLoadRect B)] (k1_idx16_inb _ c4))) x = lz1 T A B ((Rect.unit (s := S4000) (k1_off9 k) ![16] (k1_off9_inb k)).emb x) :=
    fun x => pay1_lane T A B hA hB (k1_off8_eq k) (k1_off9_eq k) (k1_off8_inb k) (k1_off9_inb k) _ _ x
  sl_exec
  sl_step
  isplitl [H0]; · iexact H0
  isplitl [H1]; · iexact H1
  isplitl [H2]; · iexact H2
  isplitl [H3]
  · ihave H3' := (Entails.of_eq (congrArg (fun f => ((s3).view.loc (thrV d L) ↦{fullShare} f : sProp (MM F)))
        (upTo_step3 (lz0 T A B) f0 k.val (k1_off9 k) (k1_off9_eq k) (k1_off9_inb k) (k1_pay25 (loadIdx (View.readAt (Elt F) s0.view (LoadRect.whole S40000) T) ![k1_pay22 (View.readAt (Elt F) s1.view (Rect.unit (s := S4000) (k1_off8 k) S16.size (k1_off8_inb k)).toLoadRect A)] (k1_idx13_inb _ c1)) (loadIdx (View.readAt (Elt F) s0.view (LoadRect.whole S40000) T) ![k1_pay24 (View.readAt (Elt F) s2.view (Rect.unit (s := S4000) (k1_off8 k) S16.size (k1_off8_inb k)).toLoadRect B)] (k1_idx14_inb _ c2))) hw3))) $$ H3
    iexact H3'
  · ihave H4' := (Entails.of_eq (congrArg (fun f => ((s4).view.loc (thrV d L) ↦{fullShare} f : sProp (MM F)))
        (upTo_step4 (lz1 T A B) f1 k.val (k1_off9 k) (k1_off9_eq k) (k1_off9_inb k) (k1_pay28 (loadIdx (View.readAt (Elt F) s0.view (LoadRect.whole S40000) T) ![k1_pay26 (k1_pay22 (View.readAt (Elt F) s1.view (Rect.unit (s := S4000) (k1_off8 k) S16.size (k1_off8_inb k)).toLoadRect A))] (k1_idx15_inb _ c3)) (loadIdx (View.readAt (Elt F) s0.view (LoadRect.whole S40000) T) ![k1_pay27 (View.readAt (Elt F) s2.view (Rect.unit (s := S4000) (k1_off8 k) S16.size (k1_off8_inb k)).toLoadRect B)] (k1_idx16_inb _ c4))) hw4))) $$ H4
    iexact H4'

set_option maxHeartbeats 4000000 in
/-- One trip of block 4's loop. -/
theorem region5 (d : Dev nD) (L : grid1.Coords) (T : Vec F S40000 .f32) (A B : IVec S4000 32) (f0 f1 : Vec F S4000 .f32)
    (hA : ∀ j, (A j).toNat < 10000) (hB : ∀ j, (B j).toNat < 10000) (v1 : BitVec 32) (k : Fin k1_t5_loop.trips) (u : Unit) :
    inv d L T A B f0 f1 k.val ⟨⟩
      ⊢ wp frame (wpE (defs₀ (F := F)) 𝒱₀ (thrV d L) none) Set.univ
          (k1_t5_body L (Memref.whole main_v9_scv) (Memref.isWhole_whole _) (Memref.whole main_v11_scv) (Memref.isWhole_whole _) (Memref.whole main_v13_scv) (Memref.isWhole_whole _) (Memref.whole main_v14_0_scv) (Memref.isWhole_whole _) (Memref.whole main_v14_1_scv) (Memref.isWhole_whole _) (Memref.whole cc1_scratch0) (Memref.isWhole_whole _) (Memref.whole cc1_scratch1) (Memref.isWhole_whole _) (Memref.whole cc1_scratch2) (Memref.isWhole_whole _) (Memref.whole cc1_scratch3) (Memref.isWhole_whole _) (Memref.whole cc1_scratch4) (Memref.isWhole_whole _) cc1_scoped0 cc1_scoped1 cc1_scoped2 cc1_scoped3 cc1_scoped4 cc1_scoped5 cc1_scoped6 cc1_scoped7 cc1_scoped8 cc1_scoped9 cc1_scoped10 cc1_scoped11 cc1_scoped12 cc1_scoped13 cc1_scoped14 cc1_scoped15 cc1_scoped16 cc1_scoped17 cc1_scoped18 cc1_scoped19 cc1_scoped20 v1 k u)
          (fun _ => inv d L T A B f0 f1 (k.val + 1) ⟨⟩) := by
  unfold k1_t5_body
  simp only [SparseCore.vectorLoadIdx_bind (thrV d L)]
  unfold inv
  iintro ⟨H0, H1, H2, H3, H4⟩
  have hrA : ∀ x, ((View.readAt (Elt F) s1.view (Rect.unit (s := S4000) (k1_off10 k) S16.size (k1_off10_inb k)).toLoadRect A) x).toNat < 10000 := fun x => by
    rw [View.readAt_apply]; exact hA _
  have hrB : ∀ x, ((View.readAt (Elt F) s2.view (Rect.unit (s := S4000) (k1_off10 k) S16.size (k1_off10_inb k)).toLoadRect B) x).toNat < 10000 := fun x => by
    rw [View.readAt_apply]; exact hB _
  have c1 : k1_chk17 (k1_pay29 (View.readAt (Elt F) s1.view (Rect.unit (s := S4000) (k1_off10 k) S16.size (k1_off10_inb k)).toLoadRect A)) := chk_mul0 _ hrA
  have c2 : k1_chk18 (k1_pay31 (View.readAt (Elt F) s2.view (Rect.unit (s := S4000) (k1_off10 k) S16.size (k1_off10_inb k)).toLoadRect B)) := chk_mul _ hrB 2 (by decide)
  have c3 : k1_chk19 (k1_pay33 (k1_pay29 (View.readAt (Elt F) s1.view (Rect.unit (s := S4000) (k1_off10 k) S16.size (k1_off10_inb k)).toLoadRect A))) := chk_mul _ hrA 1 (by decide)
  have c4 : k1_chk20 (k1_pay34 (View.readAt (Elt F) s2.view (Rect.unit (s := S4000) (k1_off10 k) S16.size (k1_off10_inb k)).toLoadRect B)) := chk_mul _ hrB 3 (by decide)
  have hw3 : ∀ x, (k1_pay32 (loadIdx (View.readAt (Elt F) s0.view (LoadRect.whole S40000) T) ![k1_pay29 (View.readAt (Elt F) s1.view (Rect.unit (s := S4000) (k1_off10 k) S16.size (k1_off10_inb k)).toLoadRect A)] (k1_idx17_inb _ c1)) (loadIdx (View.readAt (Elt F) s0.view (LoadRect.whole S40000) T) ![k1_pay31 (View.readAt (Elt F) s2.view (Rect.unit (s := S4000) (k1_off10 k) S16.size (k1_off10_inb k)).toLoadRect B)] (k1_idx18_inb _ c2))) x = lz0 T A B ((Rect.unit (s := S4000) (k1_off11 k) ![16] (k1_off11_inb k)).emb x) :=
    fun x => pay0_lane T A B hA hB (k1_off10_eq k) (k1_off11_eq k) (k1_off10_inb k) (k1_off11_inb k) _ _ x
  have hw4 : ∀ x, (k1_pay35 (loadIdx (View.readAt (Elt F) s0.view (LoadRect.whole S40000) T) ![k1_pay33 (k1_pay29 (View.readAt (Elt F) s1.view (Rect.unit (s := S4000) (k1_off10 k) S16.size (k1_off10_inb k)).toLoadRect A))] (k1_idx19_inb _ c3)) (loadIdx (View.readAt (Elt F) s0.view (LoadRect.whole S40000) T) ![k1_pay34 (View.readAt (Elt F) s2.view (Rect.unit (s := S4000) (k1_off10 k) S16.size (k1_off10_inb k)).toLoadRect B)] (k1_idx20_inb _ c4))) x = lz1 T A B ((Rect.unit (s := S4000) (k1_off11 k) ![16] (k1_off11_inb k)).emb x) :=
    fun x => pay1_lane T A B hA hB (k1_off10_eq k) (k1_off11_eq k) (k1_off10_inb k) (k1_off11_inb k) _ _ x
  sl_exec
  sl_step
  isplitl [H0]; · iexact H0
  isplitl [H1]; · iexact H1
  isplitl [H2]; · iexact H2
  isplitl [H3]
  · ihave H3' := (Entails.of_eq (congrArg (fun f => ((s3).view.loc (thrV d L) ↦{fullShare} f : sProp (MM F)))
        (upTo_step3 (lz0 T A B) f0 k.val (k1_off11 k) (k1_off11_eq k) (k1_off11_inb k) (k1_pay32 (loadIdx (View.readAt (Elt F) s0.view (LoadRect.whole S40000) T) ![k1_pay29 (View.readAt (Elt F) s1.view (Rect.unit (s := S4000) (k1_off10 k) S16.size (k1_off10_inb k)).toLoadRect A)] (k1_idx17_inb _ c1)) (loadIdx (View.readAt (Elt F) s0.view (LoadRect.whole S40000) T) ![k1_pay31 (View.readAt (Elt F) s2.view (Rect.unit (s := S4000) (k1_off10 k) S16.size (k1_off10_inb k)).toLoadRect B)] (k1_idx18_inb _ c2))) hw3))) $$ H3
    iexact H3'
  · ihave H4' := (Entails.of_eq (congrArg (fun f => ((s4).view.loc (thrV d L) ↦{fullShare} f : sProp (MM F)))
        (upTo_step4 (lz1 T A B) f1 k.val (k1_off11 k) (k1_off11_eq k) (k1_off11_inb k) (k1_pay35 (loadIdx (View.readAt (Elt F) s0.view (LoadRect.whole S40000) T) ![k1_pay33 (k1_pay29 (View.readAt (Elt F) s1.view (Rect.unit (s := S4000) (k1_off10 k) S16.size (k1_off10_inb k)).toLoadRect A))] (k1_idx19_inb _ c3)) (loadIdx (View.readAt (Elt F) s0.view (LoadRect.whole S40000) T) ![k1_pay34 (View.readAt (Elt F) s2.view (Rect.unit (s := S4000) (k1_off10 k) S16.size (k1_off10_inb k)).toLoadRect B)] (k1_idx20_inb _ c4))) hw4))) $$ H4
    iexact H4'

end Loop

end Cert.KernelIdeal.Sc.Tile

end
-- ==== Proof.TileBody.lean ====
/-
  One vector subcore's task, third part: the task run from its payload to its results, and the launch theorem's
  obligation. The read arrays are held whole at the task's share; each block of a result column is held by exactly
  its own elements, spelt as the program slices it. Every copy is issued and awaited at once on a semaphore of its own,
  under the schedule-free protocol for local transfers; the loops go by their invariant; a result block copied out
  holds the block's values, which are the column's values at the block's pairs.
-/
import proofs.«208457_g31284541784245_cont_9to1_2229_14_alg».proof.Proof.TileLoop

noncomputable section

namespace Cert.KernelIdeal.Sc.Tile

open Cert.KernelIdeal Cert.KernelIdeal.Gen Cert.KernelIdeal.Sc

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Transfers (shareTok shareDrop pointsTo_toks_split pointsTo_toks_join)
open Idealize.ShloMosaic.Tactic
variable {F : FTy → Type}

/-! ## The arrays and the blocks, spelt as the program addresses them -/

section Body

variable [FloatOps F]
variable (TAB : (d : Dev nD) → Buf (Elt F) (tLoc d)) (IA : (d : Dev nD) → Buf (Elt F) (aLoc d)) (IB : (d : Dev nD) → Buf (Elt F) (bLoc d))

/-- The place's SparseCore and vector subcore, as numbers of the grid. -/
abbrev cL (L : grid1.Coords) : Fin 2 := ⟨(L 0).val, (L 0).isLt⟩
abbrev sL (L : grid1.Coords) : Fin 16 := ⟨(L 1).val, (L 1).isLt⟩

abbrev tV : Memref sig .scVector .hbm S40000 .f32 := Memref.whole main_v9_scv
abbrev aV : Memref sig .scVector .hbm S640000 .i32 := Memref.whole main_v11_scv
abbrev bV : Memref sig .scVector .hbm S640000 .i32 := Memref.whole main_v13_scv
abbrev yV : Memref sig .scVector .hbm S640000 .f32 := Memref.whole main_v14_0_scv
abbrev zV : Memref sig .scVector .hbm S640000 .f32 := Memref.whole main_v14_1_scv

abbrev yBlk0 (L : grid1.Coords) : Memref sig .scVector .hbm S4000 .f32 := yV.slice (Rect.unit (s := S640000) (k1_off1 L 0#32) S4000.size (k1_off1_inb L 0)) (fun _ => rfl)
abbrev zBlk0 (L : grid1.Coords) : Memref sig .scVector .hbm S4000 .f32 := zV.slice (Rect.unit (s := S640000) (k1_off1 L 0#32) S4000.size (k1_off1_inb L 0)) (fun _ => rfl)
abbrev aBlk0 (L : grid1.Coords) : Memref sig .scVector .hbm S4000 .i32 := aV.slice (Rect.unit (s := S640000) (k1_off1 L 0#32) S4000.size (k1_off1_inb L 0)) (fun _ => rfl)
abbrev bBlk0 (L : grid1.Coords) : Memref sig .scVector .hbm S4000 .i32 := bV.slice (Rect.unit (s := S640000) (k1_off1 L 0#32) S4000.size (k1_off1_inb L 0)) (fun _ => rfl)
omit [FloatOps F] in
theorem blkRect0_eq (L : grid1.Coords) : Rect.unit (s := S640000) (k1_off1 L 0#32) S4000.size (k1_off1_inb L 0) = chunkRect (cL L) (sL L) 0 := by
  unfold chunkRect
  congr 1
  exact k1_off1_eq L 0
omit [FloatOps F] in
theorem yBlk0_set (L : grid1.Coords) : (yBlk0 L).view.set = chunk (cL L) (sL L) 0 := by
  show ((View.whole (main_v14_0_scv : Ref sig .scVector)).slice (Rect.unit (s := S640000) (k1_off1 L 0#32) S4000.size (k1_off1_inb L 0))).set = _
  rw [View.set_slice, blkRect0_eq]; exact Finset.map_refl
omit [FloatOps F] in
theorem zBlk0_set (L : grid1.Coords) : (zBlk0 L).view.set = chunk (cL L) (sL L) 0 := by
  show ((View.whole (main_v14_1_scv : Ref sig .scVector)).slice (Rect.unit (s := S640000) (k1_off1 L 0#32) S4000.size (k1_off1_inb L 0))).set = _
  rw [View.set_slice, blkRect0_eq]; exact Finset.map_refl
omit [FloatOps F] in
theorem pts_yBlk0 (d : Dev nD) (L : grid1.Coords) (f : Buf (Elt F) (yLoc d)) :
    ((yBlk0 L).view.loc (thrV d L) ↦[(yBlk0 L).view.set]{fullShare} f : sProp (MM F)) = yLoc d ↦[chunk (cL L) (sL L) 0]{fullShare} f := by
  rw [yBlk0_set]
omit [FloatOps F] in
theorem pts_zBlk0 (d : Dev nD) (L : grid1.Coords) (f : Buf (Elt F) (zLoc d)) :
    ((zBlk0 L).view.loc (thrV d L) ↦[(zBlk0 L).view.set]{fullShare} f : sProp (MM F)) = zLoc d ↦[chunk (cL L) (sL L) 0]{fullShare} f := by
  rw [zBlk0_set]

abbrev yBlk1 (L : grid1.Coords) : Memref sig .scVector .hbm S4000 .f32 := yV.slice (Rect.unit (s := S640000) (k1_off1 L 4000#32) S4000.size (k1_off1_inb L 1)) (fun _ => rfl)
abbrev zBlk1 (L : grid1.Coords) : Memref sig .scVector .hbm S4000 .f32 := zV.slice (Rect.unit (s := S640000) (k1_off1 L 4000#32) S4000.size (k1_off1_inb L 1)) (fun _ => rfl)
abbrev aBlk1 (L : grid1.Coords) : Memref sig .scVector .hbm S4000 .i32 := aV.slice (Rect.unit (s := S640000) (k1_off1 L 4000#32) S4000.size (k1_off1_inb L 1)) (fun _ => rfl)
abbrev bBlk1 (L : grid1.Coords) : Memref sig .scVector .hbm S4000 .i32 := bV.slice (Rect.unit (s := S640000) (k1_off1 L 4000#32) S4000.size (k1_off1_inb L 1)) (fun _ => rfl)
omit [FloatOps F] in
theorem blkRect1_eq (L : grid1.Coords) : Rect.unit (s := S640000) (k1_off1 L 4000#32) S4000.size (k1_off1_inb L 1) = chunkRect (cL L) (sL L) 1 := by
  unfold chunkRect
  congr 1
  exact k1_off1_eq L 1
omit [FloatOps F] in
theorem yBlk1_set (L : grid1.Coords) : (yBlk1 L).view.set = chunk (cL L) (sL L) 1 := by
  show ((View.whole (main_v14_0_scv : Ref sig .scVector)).slice (Rect.unit (s := S640000) (k1_off1 L 4000#32) S4000.size (k1_off1_inb L 1))).set = _
  rw [View.set_slice, blkRect1_eq]; exact Finset.map_refl
omit [FloatOps F] in
theorem zBlk1_set (L : grid1.Coords) : (zBlk1 L).view.set = chunk (cL L) (sL L) 1 := by
  show ((View.whole (main_v14_1_scv : Ref sig .scVector)).slice (Rect.unit (s := S640000) (k1_off1 L 4000#32) S4000.size (k1_off1_inb L 1))).set = _
  rw [View.set_slice, blkRect1_eq]; exact Finset.map_refl
omit [FloatOps F] in
theorem pts_yBlk1 (d : Dev nD) (L : grid1.Coords) (f : Buf (Elt F) (yLoc d)) :
    ((yBlk1 L).view.loc (thrV d L) ↦[(yBlk1 L).view.set]{fullShare} f : sProp (MM F)) = yLoc d ↦[chunk (cL L) (sL L) 1]{fullShare} f := by
  rw [yBlk1_set]
omit [FloatOps F] in
theorem pts_zBlk1 (d : Dev nD) (L : grid1.Coords) (f : Buf (Elt F) (zLoc d)) :
    ((zBlk1 L).view.loc (thrV d L) ↦[(zBlk1 L).view.set]{fullShare} f : sProp (MM F)) = zLoc d ↦[chunk (cL L) (sL L) 1]{fullShare} f := by
  rw [zBlk1_set]

abbrev yBlk2 (L : grid1.Coords) : Memref sig .scVector .hbm S4000 .f32 := yV.slice (Rect.unit (s := S640000) (k1_off1 L 8000#32) S4000.size (k1_off1_inb L 2)) (fun _ => rfl)
abbrev zBlk2 (L : grid1.Coords) : Memref sig .scVector .hbm S4000 .f32 := zV.slice (Rect.unit (s := S640000) (k1_off1 L 8000#32) S4000.size (k1_off1_inb L 2)) (fun _ => rfl)
abbrev aBlk2 (L : grid1.Coords) : Memref sig .scVector .hbm S4000 .i32 := aV.slice (Rect.unit (s := S640000) (k1_off1 L 8000#32) S4000.size (k1_off1_inb L 2)) (fun _ => rfl)
abbrev bBlk2 (L : grid1.Coords) : Memref sig .scVector .hbm S4000 .i32 := bV.slice (Rect.unit (s := S640000) (k1_off1 L 8000#32) S4000.size (k1_off1_inb L 2)) (fun _ => rfl)
omit [FloatOps F] in
theorem blkRect2_eq (L : grid1.Coords) : Rect.unit (s := S640000) (k1_off1 L 8000#32) S4000.size (k1_off1_inb L 2) = chunkRect (cL L) (sL L) 2 := by
  unfold chunkRect
  congr 1
  exact k1_off1_eq L 2
omit [FloatOps F] in
theorem yBlk2_set (L : grid1.Coords) : (yBlk2 L).view.set = chunk (cL L) (sL L) 2 := by
  show ((View.whole (main_v14_0_scv : Ref sig .scVector)).slice (Rect.unit (s := S640000) (k1_off1 L 8000#32) S4000.size (k1_off1_inb L 2))).set = _
  rw [View.set_slice, blkRect2_eq]; exact Finset.map_refl
omit [FloatOps F] in
theorem zBlk2_set (L : grid1.Coords) : (zBlk2 L).view.set = chunk (cL L) (sL L) 2 := by
  show ((View.whole (main_v14_1_scv : Ref sig .scVector)).slice (Rect.unit (s := S640000) (k1_off1 L 8000#32) S4000.size (k1_off1_inb L 2))).set = _
  rw [View.set_slice, blkRect2_eq]; exact Finset.map_refl
omit [FloatOps F] in
theorem pts_yBlk2 (d : Dev nD) (L : grid1.Coords) (f : Buf (Elt F) (yLoc d)) :
    ((yBlk2 L).view.loc (thrV d L) ↦[(yBlk2 L).view.set]{fullShare} f : sProp (MM F)) = yLoc d ↦[chunk (cL L) (sL L) 2]{fullShare} f := by
  rw [yBlk2_set]
omit [FloatOps F] in
theorem pts_zBlk2 (d : Dev nD) (L : grid1.Coords) (f : Buf (Elt F) (zLoc d)) :
    ((zBlk2 L).view.loc (thrV d L) ↦[(zBlk2 L).view.set]{fullShare} f : sProp (MM F)) = zLoc d ↦[chunk (cL L) (sL L) 2]{fullShare} f := by
  rw [zBlk2_set]

abbrev yBlk3 (L : grid1.Coords) : Memref sig .scVector .hbm S4000 .f32 := yV.slice (Rect.unit (s := S640000) (k1_off1 L 12000#32) S4000.size (k1_off1_inb L 3)) (fun _ => rfl)
abbrev zBlk3 (L : grid1.Coords) : Memref sig .scVector .hbm S4000 .f32 := zV.slice (Rect.unit (s := S640000) (k1_off1 L 12000#32) S4000.size (k1_off1_inb L 3)) (fun _ => rfl)
abbrev aBlk3 (L : grid1.Coords) : Memref sig .scVector .hbm S4000 .i32 := aV.slice (Rect.unit (s := S640000) (k1_off1 L 12000#32) S4000.size (k1_off1_inb L 3)) (fun _ => rfl)
abbrev bBlk3 (L : grid1.Coords) : Memref sig .scVector .hbm S4000 .i32 := bV.slice (Rect.unit (s := S640000) (k1_off1 L 12000#32) S4000.size (k1_off1_inb L 3)) (fun _ => rfl)
omit [FloatOps F] in
theorem blkRect3_eq (L : grid1.Coords) : Rect.unit (s := S640000) (k1_off1 L 12000#32) S4000.size (k1_off1_inb L 3) = chunkRect (cL L) (sL L) 3 := by
  unfold chunkRect
  congr 1
  exact k1_off1_eq L 3
omit [FloatOps F] in
theorem yBlk3_set (L : grid1.Coords) : (yBlk3 L).view.set = chunk (cL L) (sL L) 3 := by
  show ((View.whole (main_v14_0_scv : Ref sig .scVector)).slice (Rect.unit (s := S640000) (k1_off1 L 12000#32) S4000.size (k1_off1_inb L 3))).set = _
  rw [View.set_slice, blkRect3_eq]; exact Finset.map_refl
omit [FloatOps F] in
theorem zBlk3_set (L : grid1.Coords) : (zBlk3 L).view.set = chunk (cL L) (sL L) 3 := by
  show ((View.whole (main_v14_1_scv : Ref sig .scVector)).slice (Rect.unit (s := S640000) (k1_off1 L 12000#32) S4000.size (k1_off1_inb L 3))).set = _
  rw [View.set_slice, blkRect3_eq]; exact Finset.map_refl
omit [FloatOps F] in
theorem pts_yBlk3 (d : Dev nD) (L : grid1.Coords) (f : Buf (Elt F) (yLoc d)) :
    ((yBlk3 L).view.loc (thrV d L) ↦[(yBlk3 L).view.set]{fullShare} f : sProp (MM F)) = yLoc d ↦[chunk (cL L) (sL L) 3]{fullShare} f := by
  rw [yBlk3_set]
omit [FloatOps F] in
theorem pts_zBlk3 (d : Dev nD) (L : grid1.Coords) (f : Buf (Elt F) (zLoc d)) :
    ((zBlk3 L).view.loc (thrV d L) ↦[(zBlk3 L).view.set]{fullShare} f : sProp (MM F)) = zLoc d ↦[chunk (cL L) (sL L) 3]{fullShare} f := by
  rw [zBlk3_set]

abbrev yBlk4 (L : grid1.Coords) : Memref sig .scVector .hbm S4000 .f32 := yV.slice (Rect.unit (s := S640000) (k1_off1 L 16000#32) S4000.size (k1_off1_inb L 4)) (fun _ => rfl)
abbrev zBlk4 (L : grid1.Coords) : Memref sig .scVector .hbm S4000 .f32 := zV.slice (Rect.unit (s := S640000) (k1_off1 L 16000#32) S4000.size (k1_off1_inb L 4)) (fun _ => rfl)
abbrev aBlk4 (L : grid1.Coords) : Memref sig .scVector .hbm S4000 .i32 := aV.slice (Rect.unit (s := S640000) (k1_off1 L 16000#32) S4000.size (k1_off1_inb L 4)) (fun _ => rfl)
abbrev bBlk4 (L : grid1.Coords) : Memref sig .scVector .hbm S4000 .i32 := bV.slice (Rect.unit (s := S640000) (k1_off1 L 16000#32) S4000.size (k1_off1_inb L 4)) (fun _ => rfl)
omit [FloatOps F] in
theorem blkRect4_eq (L : grid1.Coords) : Rect.unit (s := S640000) (k1_off1 L 16000#32) S4000.size (k1_off1_inb L 4) = chunkRect (cL L) (sL L) 4 := by
  unfold chunkRect
  congr 1
  exact k1_off1_eq L 4
omit [FloatOps F] in
theorem yBlk4_set (L : grid1.Coords) : (yBlk4 L).view.set = chunk (cL L) (sL L) 4 := by
  show ((View.whole (main_v14_0_scv : Ref sig .scVector)).slice (Rect.unit (s := S640000) (k1_off1 L 16000#32) S4000.size (k1_off1_inb L 4))).set = _
  rw [View.set_slice, blkRect4_eq]; exact Finset.map_refl
omit [FloatOps F] in
theorem zBlk4_set (L : grid1.Coords) : (zBlk4 L).view.set = chunk (cL L) (sL L) 4 := by
  show ((View.whole (main_v14_1_scv : Ref sig .scVector)).slice (Rect.unit (s := S640000) (k1_off1 L 16000#32) S4000.size (k1_off1_inb L 4))).set = _
  rw [View.set_slice, blkRect4_eq]; exact Finset.map_refl
omit [FloatOps F] in
theorem pts_yBlk4 (d : Dev nD) (L : grid1.Coords) (f : Buf (Elt F) (yLoc d)) :
    ((yBlk4 L).view.loc (thrV d L) ↦[(yBlk4 L).view.set]{fullShare} f : sProp (MM F)) = yLoc d ↦[chunk (cL L) (sL L) 4]{fullShare} f := by
  rw [yBlk4_set]
omit [FloatOps F] in
theorem pts_zBlk4 (d : Dev nD) (L : grid1.Coords) (f : Buf (Elt F) (zLoc d)) :
    ((zBlk4 L).view.loc (thrV d L) ↦[(zBlk4 L).view.set]{fullShare} f : sProp (MM F)) = zLoc d ↦[chunk (cL L) (sL L) 4]{fullShare} f := by
  rw [zBlk4_set]

omit [FloatOps F] in
theorem bigSep_fin5 (Φ : Fin 5 → sProp (MM F)) : bigSep Finset.univ Φ = iprop(Φ 0 ∗ Φ 1 ∗ Φ 2 ∗ Φ 3 ∗ Φ 4) := by
  rw [show (Finset.univ : Finset (Fin 5)) = {0, 1, 2, 3, 4} by decide, SparseCore.bigSep_insert' (by decide), SparseCore.bigSep_insert' (by decide),
    SparseCore.bigSep_insert' (by decide), SparseCore.bigSep_insert' (by decide), bigSep_singleton]

omit [FloatOps F] in
theorem pts_s0 (d : Dev nD) (L : grid1.Coords) (f : Buf (Elt F) ((thrV d L).loc cc1_scratch0)) :
    ((s0).view.loc (thrV d L) ↦{fullShare} f : sProp (MM F)) = (thrV d L).loc cc1_scratch0 ↦{fullShare} f := rfl
omit [FloatOps F] in
theorem pts_s1 (d : Dev nD) (L : grid1.Coords) (f : Buf (Elt F) ((thrV d L).loc cc1_scratch1)) :
    ((s1).view.loc (thrV d L) ↦{fullShare} f : sProp (MM F)) = (thrV d L).loc cc1_scratch1 ↦{fullShare} f := rfl
omit [FloatOps F] in
theorem pts_s2 (d : Dev nD) (L : grid1.Coords) (f : Buf (Elt F) ((thrV d L).loc cc1_scratch2)) :
    ((s2).view.loc (thrV d L) ↦{fullShare} f : sProp (MM F)) = (thrV d L).loc cc1_scratch2 ↦{fullShare} f := rfl
omit [FloatOps F] in
theorem pts_s3 (d : Dev nD) (L : grid1.Coords) (f : Buf (Elt F) ((thrV d L).loc cc1_scratch3)) :
    ((s3).view.loc (thrV d L) ↦{fullShare} f : sProp (MM F)) = (thrV d L).loc cc1_scratch3 ↦{fullShare} f := rfl
omit [FloatOps F] in
theorem pts_s4 (d : Dev nD) (L : grid1.Coords) (f : Buf (Elt F) ((thrV d L).loc cc1_scratch4)) :
    ((s4).view.loc (thrV d L) ↦{fullShare} f : sProp (MM F)) = (thrV d L).loc cc1_scratch4 ↦{fullShare} f := rfl
omit [FloatOps F] in
theorem pts_t (d : Dev nD) (L : grid1.Coords) (q : PosShare TreeShare) (f : Buf (Elt F) (tLoc d)) :
    ((tV).view.loc (thrV d L) ↦{q} f : sProp (MM F)) = tLoc d ↦{q} f := rfl
omit [FloatOps F] in
theorem pts_a (d : Dev nD) (L : grid1.Coords) (q : PosShare TreeShare) (f : Buf (Elt F) (aLoc d)) :
    ((aV).view.loc (thrV d L) ↦{q} f : sProp (MM F)) = aLoc d ↦{q} f := rfl
omit [FloatOps F] in
theorem pts_b (d : Dev nD) (L : grid1.Coords) (q : PosShare TreeShare) (f : Buf (Elt F) (bLoc d)) :
    ((bV).view.loc (thrV d L) ↦{q} f : sProp (MM F)) = bLoc d ↦{q} f := rfl

omit [FloatOps F] in
theorem upTo_zero (Z f0 : Vec F S4000 .f32) : upTo Z f0 0 = f0 := by
  funext j; unfold upTo; rw [if_neg (by omega)]

/-- A copy into a whole scratch leaves what was copied. -/
theorem lands0 (d : Dev nD) (L : grid1.Coords) (f0 : Buf (Elt F) ((thrV d L).loc cc1_scratch0)) (w : Vec F S40000 .f32) :
    ((s0).view.loc (thrV d L) ↦{fullShare} View.write (Elt F) (Memref.whole cc1_scratch0).view f0 (ReadAs.same.apply w) Finset.univ : sProp (MM F))
      = (s0).view.loc (thrV d L) ↦{fullShare} w := by
  rw [ReadAs.apply_same, View.write_whole_univ]
theorem lands1 (d : Dev nD) (L : grid1.Coords) (f0 : Buf (Elt F) ((thrV d L).loc cc1_scratch1)) (w : Vec F S4000 .i32) :
    ((s1).view.loc (thrV d L) ↦{fullShare} View.write (Elt F) (Memref.whole cc1_scratch1).view f0 (ReadAs.same.apply w) Finset.univ : sProp (MM F))
      = (s1).view.loc (thrV d L) ↦{fullShare} w := by
  rw [ReadAs.apply_same, View.write_whole_univ]
theorem lands2 (d : Dev nD) (L : grid1.Coords) (f0 : Buf (Elt F) ((thrV d L).loc cc1_scratch2)) (w : Vec F S4000 .i32) :
    ((s2).view.loc (thrV d L) ↦{fullShare} View.write (Elt F) (Memref.whole cc1_scratch2).view f0 (ReadAs.same.apply w) Finset.univ : sProp (MM F))
      = (s2).view.loc (thrV d L) ↦{fullShare} w := by
  rw [ReadAs.apply_same, View.write_whole_univ]

/-- The table, as the table scratch holds it. -/
abbrev Tb (d : Dev nD) : Vec F S40000 .f32 := View.read (Elt F) (Memref.whole main_v9_scv : Memref sig .scVector .hbm S40000 .f32).view (TAB d)

/-- Block 0's index words, as the index scratches hold them. -/
abbrev Ab0 (d : Dev nD) (L : grid1.Coords) : IVec S4000 32 := View.read (Elt F) (aBlk0 L).view (IA d)
abbrev Bb0 (d : Dev nD) (L : grid1.Coords) : IVec S4000 32 := View.read (Elt F) (bBlk0 L).view (IB d)
omit [FloatOps F] in
theorem Ab0_apply (d : Dev nD) (L : grid1.Coords) (j : S4000.Idx) : Ab0 IA d L j = (IA d : IVec S640000 32) ((aBlk0 L).view.emb j) :=
  (View.read_apply _ _).trans (cast_eq _ _)
omit [FloatOps F] in
theorem Bb0_apply (d : Dev nD) (L : grid1.Coords) (j : S4000.Idx) : Bb0 IB d L j = (IB d : IVec S640000 32) ((bBlk0 L).view.emb j) :=
  (View.read_apply _ _).trans (cast_eq _ _)
omit [FloatOps F] in
theorem Ab0_lt (hok : IdxOK IA IB) (d : Dev nD) (L : grid1.Coords) : ∀ j, (Ab0 IA d L j).toNat < 10000 := fun j => by
  rw [Ab0_apply]; exact (hok d _).1
omit [FloatOps F] in
theorem Bb0_lt (hok : IdxOK IA IB) (d : Dev nD) (L : grid1.Coords) : ∀ j, (Bb0 IB d L j).toNat < 10000 := fun j => by
  rw [Bb0_apply]; exact (hok d _).2

/-- Block 1's index words, as the index scratches hold them. -/
abbrev Ab1 (d : Dev nD) (L : grid1.Coords) : IVec S4000 32 := View.read (Elt F) (aBlk1 L).view (IA d)
abbrev Bb1 (d : Dev nD) (L : grid1.Coords) : IVec S4000 32 := View.read (Elt F) (bBlk1 L).view (IB d)
omit [FloatOps F] in
theorem Ab1_apply (d : Dev nD) (L : grid1.Coords) (j : S4000.Idx) : Ab1 IA d L j = (IA d : IVec S640000 32) ((aBlk1 L).view.emb j) :=
  (View.read_apply _ _).trans (cast_eq _ _)
omit [FloatOps F] in
theorem Bb1_apply (d : Dev nD) (L : grid1.Coords) (j : S4000.Idx) : Bb1 IB d L j = (IB d : IVec S640000 32) ((bBlk1 L).view.emb j) :=
  (View.read_apply _ _).trans (cast_eq _ _)
omit [FloatOps F] in
theorem Ab1_lt (hok : IdxOK IA IB) (d : Dev nD) (L : grid1.Coords) : ∀ j, (Ab1 IA d L j).toNat < 10000 := fun j => by
  rw [Ab1_apply]; exact (hok d _).1
omit [FloatOps F] in
theorem Bb1_lt (hok : IdxOK IA IB) (d : Dev nD) (L : grid1.Coords) : ∀ j, (Bb1 IB d L j).toNat < 10000 := fun j => by
  rw [Bb1_apply]; exact (hok d _).2

/-- Block 2's index words, as the index scratches hold them. -/
abbrev Ab2 (d : Dev nD) (L : grid1.Coords) : IVec S4000 32 := View.read (Elt F) (aBlk2 L).view (IA d)
abbrev Bb2 (d : Dev nD) (L : grid1.Coords) : IVec S4000 32 := View.read (Elt F) (bBlk2 L).view (IB d)
omit [FloatOps F] in
theorem Ab2_apply (d : Dev nD) (L : grid1.Coords) (j : S4000.Idx) : Ab2 IA d L j = (IA d : IVec S640000 32) ((aBlk2 L).view.emb j) :=
  (View.read_apply _ _).trans (cast_eq _ _)
omit [FloatOps F] in
theorem Bb2_apply (d : Dev nD) (L : grid1.Coords) (j : S4000.Idx) : Bb2 IB d L j = (IB d : IVec S640000 32) ((bBlk2 L).view.emb j) :=
  (View.read_apply _ _).trans (cast_eq _ _)
omit [FloatOps F] in
theorem Ab2_lt (hok : IdxOK IA IB) (d : Dev nD) (L : grid1.Coords) : ∀ j, (Ab2 IA d L j).toNat < 10000 := fun j => by
  rw [Ab2_apply]; exact (hok d _).1
omit [FloatOps F] in
theorem Bb2_lt (hok : IdxOK IA IB) (d : Dev nD) (L : grid1.Coords) : ∀ j, (Bb2 IB d L j).toNat < 10000 := fun j => by
  rw [Bb2_apply]; exact (hok d _).2

/-- Block 3's index words, as the index scratches hold them. -/
abbrev Ab3 (d : Dev nD) (L : grid1.Coords) : IVec S4000 32 := View.read (Elt F) (aBlk3 L).view (IA d)
abbrev Bb3 (d : Dev nD) (L : grid1.Coords) : IVec S4000 32 := View.read (Elt F) (bBlk3 L).view (IB d)
omit [FloatOps F] in
theorem Ab3_apply (d : Dev nD) (L : grid1.Coords) (j : S4000.Idx) : Ab3 IA d L j = (IA d : IVec S640000 32) ((aBlk3 L).view.emb j) :=
  (View.read_apply _ _).trans (cast_eq _ _)
omit [FloatOps F] in
theorem Bb3_apply (d : Dev nD) (L : grid1.Coords) (j : S4000.Idx) : Bb3 IB d L j = (IB d : IVec S640000 32) ((bBlk3 L).view.emb j) :=
  (View.read_apply _ _).trans (cast_eq _ _)
omit [FloatOps F] in
theorem Ab3_lt (hok : IdxOK IA IB) (d : Dev nD) (L : grid1.Coords) : ∀ j, (Ab3 IA d L j).toNat < 10000 := fun j => by
  rw [Ab3_apply]; exact (hok d _).1
omit [FloatOps F] in
theorem Bb3_lt (hok : IdxOK IA IB) (d : Dev nD) (L : grid1.Coords) : ∀ j, (Bb3 IB d L j).toNat < 10000 := fun j => by
  rw [Bb3_apply]; exact (hok d _).2

/-- Block 4's index words, as the index scratches hold them. -/
abbrev Ab4 (d : Dev nD) (L : grid1.Coords) : IVec S4000 32 := View.read (Elt F) (aBlk4 L).view (IA d)
abbrev Bb4 (d : Dev nD) (L : grid1.Coords) : IVec S4000 32 := View.read (Elt F) (bBlk4 L).view (IB d)
omit [FloatOps F] in
theorem Ab4_apply (d : Dev nD) (L : grid1.Coords) (j : S4000.Idx) : Ab4 IA d L j = (IA d : IVec S640000 32) ((aBlk4 L).view.emb j) :=
  (View.read_apply _ _).trans (cast_eq _ _)
omit [FloatOps F] in
theorem Bb4_apply (d : Dev nD) (L : grid1.Coords) (j : S4000.Idx) : Bb4 IB d L j = (IB d : IVec S640000 32) ((bBlk4 L).view.emb j) :=
  (View.read_apply _ _).trans (cast_eq _ _)
omit [FloatOps F] in
theorem Ab4_lt (hok : IdxOK IA IB) (d : Dev nD) (L : grid1.Coords) : ∀ j, (Ab4 IA d L j).toNat < 10000 := fun j => by
  rw [Ab4_apply]; exact (hok d _).1
omit [FloatOps F] in
theorem Bb4_lt (hok : IdxOK IA IB) (d : Dev nD) (L : grid1.Coords) : ∀ j, (Bb4 IB d L j).toNat < 10000 := fun j => by
  rw [Bb4_apply]; exact (hok d _).2

omit [FloatOps F] in
theorem upTo_trips (Z f0 : Vec F S4000 .f32) (n : ℕ) (hn : n = 250) : upTo Z f0 n = Z := by
  subst hn; exact upTo_all Z f0

omit [FloatOps F] in
theorem whole_emb (x : S4000.Idx) : (Rect.whole S4000).emb x = x := by
  funext a; apply Fin.ext
  rw [Rect.emb_apply]
  simp [Rect.whole]

omit [FloatOps F] in
/-- A whole-block write through a view leaves, at the view's element `x`, the written word. -/
theorem writes_whole_at {sp : Space} {e : EltTy} (v : View sig .scVector sp S4000 e) (g : v.ty.Contents (Elt F)) (w : S4000.Idx → Elt F e) (x : S4000.Idx) :
    v.read (Elt F) (v.writes (Elt F) g [⟨Rect.whole S4000, w⟩]) x = w x := by
  have h := View.read_writes_cons_emb v g (Rect.whole S4000) w [] x
  rwa [whole_emb] at h

theorem out_y0 (d : Dev nD) (L : grid1.Coords) (gy : Buf (Elt F) (yLoc d)) :
    ((yBlk0 L).view.loc (thrV d L) ↦[(yBlk0 L).view.set]{fullShare}
        (yBlk0 L).view.writes (Elt F) gy [⟨Rect.whole S4000, ReadAs.same.apply (View.read (Elt F) (Memref.whole cc1_scratch3 : Memref sig .scVector .vmem S4000 .f32).view (lz0 (Tb TAB d) (Ab0 IA d L) (Bb0 IB d L)))⟩] : sProp (MM F))
      = yLoc d ↦[chunk (cL L) (sL L) 0]{fullShare} Z0 TAB IA IB d := by
  rw [ReadAs.apply_same, ← pts_yBlk0 (F := F) d L (Z0 TAB IA IB d)]
  refine pointsTo_congr fun i hi => ?_
  obtain ⟨x, -, rfl⟩ := Finset.mem_map.mp hi
  have h := writes_whole_at (F := F) (yBlk0 L).view gy (View.read (Elt F) (Memref.whole cc1_scratch3 : Memref sig .scVector .vmem S4000 .f32).view (lz0 (Tb TAB d) (Ab0 IA d L) (Bb0 IB d L))) x
  rw [View.read_apply] at h
  have h' := (cast_eq _ _).symm.trans h
  refine h'.trans ?_
  show lz0 (Tb TAB d) (Ab0 IA d L) (Bb0 IB d L) x = z0Of (F := F) (TAB d) (IA d) (IB d) ((yBlk0 L).view.emb x)
  unfold lz0 z0Of
  rw [Ab0_apply, Bb0_apply]
  rfl
theorem out_z0 (d : Dev nD) (L : grid1.Coords) (gz : Buf (Elt F) (zLoc d)) :
    ((zBlk0 L).view.loc (thrV d L) ↦[(zBlk0 L).view.set]{fullShare}
        (zBlk0 L).view.writes (Elt F) gz [⟨Rect.whole S4000, ReadAs.same.apply (View.read (Elt F) (Memref.whole cc1_scratch4 : Memref sig .scVector .vmem S4000 .f32).view (lz1 (Tb TAB d) (Ab0 IA d L) (Bb0 IB d L)))⟩] : sProp (MM F))
      = zLoc d ↦[chunk (cL L) (sL L) 0]{fullShare} Z1 TAB IA IB d := by
  rw [ReadAs.apply_same, ← pts_zBlk0 (F := F) d L (Z1 TAB IA IB d)]
  refine pointsTo_congr fun i hi => ?_
  obtain ⟨x, -, rfl⟩ := Finset.mem_map.mp hi
  have h := writes_whole_at (F := F) (zBlk0 L).view gz (View.read (Elt F) (Memref.whole cc1_scratch4 : Memref sig .scVector .vmem S4000 .f32).view (lz1 (Tb TAB d) (Ab0 IA d L) (Bb0 IB d L))) x
  rw [View.read_apply] at h
  have h' := (cast_eq _ _).symm.trans h
  refine h'.trans ?_
  show lz1 (Tb TAB d) (Ab0 IA d L) (Bb0 IB d L) x = z1Of (F := F) (TAB d) (IA d) (IB d) ((zBlk0 L).view.emb x)
  unfold lz1 z1Of
  rw [Ab0_apply, Bb0_apply]
  rfl

theorem out_y1 (d : Dev nD) (L : grid1.Coords) (gy : Buf (Elt F) (yLoc d)) :
    ((yBlk1 L).view.loc (thrV d L) ↦[(yBlk1 L).view.set]{fullShare}
        (yBlk1 L).view.writes (Elt F) gy [⟨Rect.whole S4000, ReadAs.same.apply (View.read (Elt F) (Memref.whole cc1_scratch3 : Memref sig .scVector .vmem S4000 .f32).view (lz0 (Tb TAB d) (Ab1 IA d L) (Bb1 IB d L)))⟩] : sProp (MM F))
      = yLoc d ↦[chunk (cL L) (sL L) 1]{fullShare} Z0 TAB IA IB d := by
  rw [ReadAs.apply_same, ← pts_yBlk1 (F := F) d L (Z0 TAB IA IB d)]
  refine pointsTo_congr fun i hi => ?_
  obtain ⟨x, -, rfl⟩ := Finset.mem_map.mp hi
  have h := writes_whole_at (F := F) (yBlk1 L).view gy (View.read (Elt F) (Memref.whole cc1_scratch3 : Memref sig .scVector .vmem S4000 .f32).view (lz0 (Tb TAB d) (Ab1 IA d L) (Bb1 IB d L))) x
  rw [View.read_apply] at h
  have h' := (cast_eq _ _).symm.trans h
  refine h'.trans ?_
  show lz0 (Tb TAB d) (Ab1 IA d L) (Bb1 IB d L) x = z0Of (F := F) (TAB d) (IA d) (IB d) ((yBlk1 L).view.emb x)
  unfold lz0 z0Of
  rw [Ab1_apply, Bb1_apply]
  rfl
theorem out_z1 (d : Dev nD) (L : grid1.Coords) (gz : Buf (Elt F) (zLoc d)) :
    ((zBlk1 L).view.loc (thrV d L) ↦[(zBlk1 L).view.set]{fullShare}
        (zBlk1 L).view.writes (Elt F) gz [⟨Rect.whole S4000, ReadAs.same.apply (View.read (Elt F) (Memref.whole cc1_scratch4 : Memref sig .scVector .vmem S4000 .f32).view (lz1 (Tb TAB d) (Ab1 IA d L) (Bb1 IB d L)))⟩] : sProp (MM F))
      = zLoc d ↦[chunk (cL L) (sL L) 1]{fullShare} Z1 TAB IA IB d := by
  rw [ReadAs.apply_same, ← pts_zBlk1 (F := F) d L (Z1 TAB IA IB d)]
  refine pointsTo_congr fun i hi => ?_
  obtain ⟨x, -, rfl⟩ := Finset.mem_map.mp hi
  have h := writes_whole_at (F := F) (zBlk1 L).view gz (View.read (Elt F) (Memref.whole cc1_scratch4 : Memref sig .scVector .vmem S4000 .f32).view (lz1 (Tb TAB d) (Ab1 IA d L) (Bb1 IB d L))) x
  rw [View.read_apply] at h
  have h' := (cast_eq _ _).symm.trans h
  refine h'.trans ?_
  show lz1 (Tb TAB d) (Ab1 IA d L) (Bb1 IB d L) x = z1Of (F := F) (TAB d) (IA d) (IB d) ((zBlk1 L).view.emb x)
  unfold lz1 z1Of
  rw [Ab1_apply, Bb1_apply]
  rfl

theorem out_y2 (d : Dev nD) (L : grid1.Coords) (gy : Buf (Elt F) (yLoc d)) :
    ((yBlk2 L).view.loc (thrV d L) ↦[(yBlk2 L).view.set]{fullShare}
        (yBlk2 L).view.writes (Elt F) gy [⟨Rect.whole S4000, ReadAs.same.apply (View.read (Elt F) (Memref.whole cc1_scratch3 : Memref sig .scVector .vmem S4000 .f32).view (lz0 (Tb TAB d) (Ab2 IA d L) (Bb2 IB d L)))⟩] : sProp (MM F))
      = yLoc d ↦[chunk (cL L) (sL L) 2]{fullShare} Z0 TAB IA IB d := by
  rw [ReadAs.apply_same, ← pts_yBlk2 (F := F) d L (Z0 TAB IA IB d)]
  refine pointsTo_congr fun i hi => ?_
  obtain ⟨x, -, rfl⟩ := Finset.mem_map.mp hi
  have h := writes_whole_at (F := F) (yBlk2 L).view gy (View.read (Elt F) (Memref.whole cc1_scratch3 : Memref sig .scVector .vmem S4000 .f32).view (lz0 (Tb TAB d) (Ab2 IA d L) (Bb2 IB d L))) x
  rw [View.read_apply] at h
  have h' := (cast_eq _ _).symm.trans h
  refine h'.trans ?_
  show lz0 (Tb TAB d) (Ab2 IA d L) (Bb2 IB d L) x = z0Of (F := F) (TAB d) (IA d) (IB d) ((yBlk2 L).view.emb x)
  unfold lz0 z0Of
  rw [Ab2_apply, Bb2_apply]
  rfl
theorem out_z2 (d : Dev nD) (L : grid1.Coords) (gz : Buf (Elt F) (zLoc d)) :
    ((zBlk2 L).view.loc (thrV d L) ↦[(zBlk2 L).view.set]{fullShare}
        (zBlk2 L).view.writes (Elt F) gz [⟨Rect.whole S4000, ReadAs.same.apply (View.read (Elt F) (Memref.whole cc1_scratch4 : Memref sig .scVector .vmem S4000 .f32).view (lz1 (Tb TAB d) (Ab2 IA d L) (Bb2 IB d L)))⟩] : sProp (MM F))
      = zLoc d ↦[chunk (cL L) (sL L) 2]{fullShare} Z1 TAB IA IB d := by
  rw [ReadAs.apply_same, ← pts_zBlk2 (F := F) d L (Z1 TAB IA IB d)]
  refine pointsTo_congr fun i hi => ?_
  obtain ⟨x, -, rfl⟩ := Finset.mem_map.mp hi
  have h := writes_whole_at (F := F) (zBlk2 L).view gz (View.read (Elt F) (Memref.whole cc1_scratch4 : Memref sig .scVector .vmem S4000 .f32).view (lz1 (Tb TAB d) (Ab2 IA d L) (Bb2 IB d L))) x
  rw [View.read_apply] at h
  have h' := (cast_eq _ _).symm.trans h
  refine h'.trans ?_
  show lz1 (Tb TAB d) (Ab2 IA d L) (Bb2 IB d L) x = z1Of (F := F) (TAB d) (IA d) (IB d) ((zBlk2 L).view.emb x)
  unfold lz1 z1Of
  rw [Ab2_apply, Bb2_apply]
  rfl

theorem out_y3 (d : Dev nD) (L : grid1.Coords) (gy : Buf (Elt F) (yLoc d)) :
    ((yBlk3 L).view.loc (thrV d L) ↦[(yBlk3 L).view.set]{fullShare}
        (yBlk3 L).view.writes (Elt F) gy [⟨Rect.whole S4000, ReadAs.same.apply (View.read (Elt F) (Memref.whole cc1_scratch3 : Memref sig .scVector .vmem S4000 .f32).view (lz0 (Tb TAB d) (Ab3 IA d L) (Bb3 IB d L)))⟩] : sProp (MM F))
      = yLoc d ↦[chunk (cL L) (sL L) 3]{fullShare} Z0 TAB IA IB d := by
  rw [ReadAs.apply_same, ← pts_yBlk3 (F := F) d L (Z0 TAB IA IB d)]
  refine pointsTo_congr fun i hi => ?_
  obtain ⟨x, -, rfl⟩ := Finset.mem_map.mp hi
  have h := writes_whole_at (F := F) (yBlk3 L).view gy (View.read (Elt F) (Memref.whole cc1_scratch3 : Memref sig .scVector .vmem S4000 .f32).view (lz0 (Tb TAB d) (Ab3 IA d L) (Bb3 IB d L))) x
  rw [View.read_apply] at h
  have h' := (cast_eq _ _).symm.trans h
  refine h'.trans ?_
  show lz0 (Tb TAB d) (Ab3 IA d L) (Bb3 IB d L) x = z0Of (F := F) (TAB d) (IA d) (IB d) ((yBlk3 L).view.emb x)
  unfold lz0 z0Of
  rw [Ab3_apply, Bb3_apply]
  rfl
theorem out_z3 (d : Dev nD) (L : grid1.Coords) (gz : Buf (Elt F) (zLoc d)) :
    ((zBlk3 L).view.loc (thrV d L) ↦[(zBlk3 L).view.set]{fullShare}
        (zBlk3 L).view.writes (Elt F) gz [⟨Rect.whole S4000, ReadAs.same.apply (View.read (Elt F) (Memref.whole cc1_scratch4 : Memref sig .scVector .vmem S4000 .f32).view (lz1 (Tb TAB d) (Ab3 IA d L) (Bb3 IB d L)))⟩] : sProp (MM F))
      = zLoc d ↦[chunk (cL L) (sL L) 3]{fullShare} Z1 TAB IA IB d := by
  rw [ReadAs.apply_same, ← pts_zBlk3 (F := F) d L (Z1 TAB IA IB d)]
  refine pointsTo_congr fun i hi => ?_
  obtain ⟨x, -, rfl⟩ := Finset.mem_map.mp hi
  have h := writes_whole_at (F := F) (zBlk3 L).view gz (View.read (Elt F) (Memref.whole cc1_scratch4 : Memref sig .scVector .vmem S4000 .f32).view (lz1 (Tb TAB d) (Ab3 IA d L) (Bb3 IB d L))) x
  rw [View.read_apply] at h
  have h' := (cast_eq _ _).symm.trans h
  refine h'.trans ?_
  show lz1 (Tb TAB d) (Ab3 IA d L) (Bb3 IB d L) x = z1Of (F := F) (TAB d) (IA d) (IB d) ((zBlk3 L).view.emb x)
  unfold lz1 z1Of
  rw [Ab3_apply, Bb3_apply]
  rfl

theorem out_y4 (d : Dev nD) (L : grid1.Coords) (gy : Buf (Elt F) (yLoc d)) :
    ((yBlk4 L).view.loc (thrV d L) ↦[(yBlk4 L).view.set]{fullShare}
        (yBlk4 L).view.writes (Elt F) gy [⟨Rect.whole S4000, ReadAs.same.apply (View.read (Elt F) (Memref.whole cc1_scratch3 : Memref sig .scVector .vmem S4000 .f32).view (lz0 (Tb TAB d) (Ab4 IA d L) (Bb4 IB d L)))⟩] : sProp (MM F))
      = yLoc d ↦[chunk (cL L) (sL L) 4]{fullShare} Z0 TAB IA IB d := by
  rw [ReadAs.apply_same, ← pts_yBlk4 (F := F) d L (Z0 TAB IA IB d)]
  refine pointsTo_congr fun i hi => ?_
  obtain ⟨x, -, rfl⟩ := Finset.mem_map.mp hi
  have h := writes_whole_at (F := F) (yBlk4 L).view gy (View.read (Elt F) (Memref.whole cc1_scratch3 : Memref sig .scVector .vmem S4000 .f32).view (lz0 (Tb TAB d) (Ab4 IA d L) (Bb4 IB d L))) x
  rw [View.read_apply] at h
  have h' := (cast_eq _ _).symm.trans h
  refine h'.trans ?_
  show lz0 (Tb TAB d) (Ab4 IA d L) (Bb4 IB d L) x = z0Of (F := F) (TAB d) (IA d) (IB d) ((yBlk4 L).view.emb x)
  unfold lz0 z0Of
  rw [Ab4_apply, Bb4_apply]
  rfl
theorem out_z4 (d : Dev nD) (L : grid1.Coords) (gz : Buf (Elt F) (zLoc d)) :
    ((zBlk4 L).view.loc (thrV d L) ↦[(zBlk4 L).view.set]{fullShare}
        (zBlk4 L).view.writes (Elt F) gz [⟨Rect.whole S4000, ReadAs.same.apply (View.read (Elt F) (Memref.whole cc1_scratch4 : Memref sig .scVector .vmem S4000 .f32).view (lz1 (Tb TAB d) (Ab4 IA d L) (Bb4 IB d L)))⟩] : sProp (MM F))
      = zLoc d ↦[chunk (cL L) (sL L) 4]{fullShare} Z1 TAB IA IB d := by
  rw [ReadAs.apply_same, ← pts_zBlk4 (F := F) d L (Z1 TAB IA IB d)]
  refine pointsTo_congr fun i hi => ?_
  obtain ⟨x, -, rfl⟩ := Finset.mem_map.mp hi
  have h := writes_whole_at (F := F) (zBlk4 L).view gz (View.read (Elt F) (Memref.whole cc1_scratch4 : Memref sig .scVector .vmem S4000 .f32).view (lz1 (Tb TAB d) (Ab4 IA d L) (Bb4 IB d L))) x
  rw [View.read_apply] at h
  have h' := (cast_eq _ _).symm.trans h
  refine h'.trans ?_
  show lz1 (Tb TAB d) (Ab4 IA d L) (Bb4 IB d L) x = z1Of (F := F) (TAB d) (IA d) (IB d) ((zBlk4 L).view.emb x)
  unfold lz1 z1Of
  rw [Ab4_apply, Bb4_apply]
  rfl

set_option maxHeartbeats 8000000 in
/-- One vector subcore's task at a symbolic place of the grid: the table copied in; per block, the index words copied
    in, the 250 trips, the two result blocks copied out. -/
theorem tile_body (hok : IdxOK IA IB) (d : Dev nD) (L : grid1.Coords) (O : CellTallies nD τ sig (HIx 1)) (W : Waits sig (HIx 1)) (hO : ∀ g, O g none = 0) :
    iprop(levAts (K (F := F)).L (K (F := F)).lev ∗ emp ∗ (rd TAB IA IB d (qT (cL L) (sL L)) ∗ outIn d (cL L) (sL L))
        ∗ scopedBufs (thrV d L) ∗ scopedSems0 (thrV d L) ∗ owes (thrV d L) O W)
      ⊢ wp frame (wpE (defs₀ (F := F)) 𝒱₀ (thrV d L) none) Set.univ
          (cc1__pair_body L (Memref.whole main_v9_scv) (Memref.isWhole_whole _) (Memref.whole main_v11_scv) (Memref.isWhole_whole _) (Memref.whole main_v13_scv) (Memref.isWhole_whole _) (Memref.whole main_v14_0_scv) (Memref.isWhole_whole _) (Memref.whole main_v14_1_scv) (Memref.isWhole_whole _) (Memref.whole cc1_scratch0) (Memref.isWhole_whole _) (Memref.whole cc1_scratch1) (Memref.isWhole_whole _) (Memref.whole cc1_scratch2) (Memref.isWhole_whole _) (Memref.whole cc1_scratch3) (Memref.isWhole_whole _) (Memref.whole cc1_scratch4) (Memref.isWhole_whole _) cc1_scoped0 cc1_scoped1 cc1_scoped2 cc1_scoped3 cc1_scoped4 cc1_scoped5 cc1_scoped6 cc1_scoped7 cc1_scoped8 cc1_scoped9 cc1_scoped10 cc1_scoped11 cc1_scoped12 cc1_scoped13 cc1_scoped14 cc1_scoped15 cc1_scoped16 cc1_scoped17 cc1_scoped18 cc1_scoped19 cc1_scoped20)
          fun _ => iprop((rd TAB IA IB d (qT (cL L) (sL L)) ∗ outDn TAB IA IB d (cL L) (sL L)) ∗ scopedBufs (thrV d L) ∗ scopedSems0 (thrV d L)
            ∗ ∃ W', ⌜∀ p ∈ W', p ∈ W ∨ p.2 = none⌝ ∗ owes (thrV d L) O W') := by
  simp only [cc1__pair_body_eq_skeleton]; unfold cc1__pair_body_skel
  simp only [k1_part1_eq_skeleton, k1_part2_eq_skeleton, k1_part3_eq_skeleton]; unfold k1_part1_skel k1_part2_skel k1_part3_skel
  rw [(K (F := F)).scopedBufs_V facts d (cV L) (jV L), SparseCore.Cfg.scopedSems0_V (Val := Elt F) d (cV L) (jV L), ownSems0_V, ownBufs_V]
  iintro ⟨#Hlv, -, ⟨⟨Ht, Ha, Hb⟩, Hy, Hz⟩,
    ⟨⟨%f0, Hs0⟩, ⟨%f1, Hs1⟩, ⟨%f2, Hs2⟩, ⟨%f3, Hs3⟩, ⟨%f4, Hs4⟩, Hbufs⟩, ⟨Hc0, Hc1, Hc2, Hc3, Hc4, Hc5, Hc6, Hc7, Hc8, Hc9, Hc10, Hc11, Hc12, Hc13, Hc14, Hc15, Hc16, Hc17, Hc18, Hc19, Hc20, Hsems⟩, HO⟩
  ihave Hy' := (Entails.of_eq (bigSep_fin5 (F := F) (fun r => iprop(∃ f, yLoc d ↦[chunk (cL L) (sL L) r]{fullShare} f)))) $$ Hy
  ihave Hz' := (Entails.of_eq (bigSep_fin5 (F := F) (fun r => iprop(∃ f, zLoc d ↦[chunk (cL L) (sL L) r]{fullShare} f)))) $$ Hz
  icases Hy' with ⟨⟨%gy0, Hy0⟩, ⟨%gy1, Hy1⟩, ⟨%gy2, Hy2⟩, ⟨%gy3, Hy3⟩, ⟨%gy4, Hy4⟩⟩
  icases Hz' with ⟨⟨%gz0, Hz0⟩, ⟨%gz1, Hz1⟩, ⟨%gz2, Hz2⟩, ⟨%gz3, Hz3⟩, ⟨%gz4, Hz4⟩⟩
  ihave Hmw := ((K (F := F)).mayWaits_none (thr := thrV d L) hO) $$ Hlv
  ihave Ht := (Entails.of_eq (pts_t (F := F) d L _ _).symm) $$ Ht
  ihave Ha := (Entails.of_eq (pts_a (F := F) d L _ _).symm) $$ Ha
  ihave Hb := (Entails.of_eq (pts_b (F := F) d L _ _).symm) $$ Hb
  ihave Hs0 := (Entails.of_eq (pts_s0 (F := F) d L _).symm) $$ Hs0
  ihave Hs1 := (Entails.of_eq (pts_s1 (F := F) d L _).symm) $$ Hs1
  ihave Hs2 := (Entails.of_eq (pts_s2 (F := F) d L _).symm) $$ Hs2
  ihave Hs3 := (Entails.of_eq (pts_s3 (F := F) d L _).symm) $$ Hs3
  ihave Hs4 := (Entails.of_eq (pts_s4 (F := F) d L _).symm) $$ Hs4
  ihave Hy0 := (Entails.of_eq (pts_yBlk0 (F := F) d L _).symm) $$ Hy0
  ihave Hz0 := (Entails.of_eq (pts_zBlk0 (F := F) d L _).symm) $$ Hz0
  ihave Hy1 := (Entails.of_eq (pts_yBlk1 (F := F) d L _).symm) $$ Hy1
  ihave Hz1 := (Entails.of_eq (pts_zBlk1 (F := F) d L _).symm) $$ Hz1
  ihave Hy2 := (Entails.of_eq (pts_yBlk2 (F := F) d L _).symm) $$ Hy2
  ihave Hz2 := (Entails.of_eq (pts_zBlk2 (F := F) d L _).symm) $$ Hz2
  ihave Hy3 := (Entails.of_eq (pts_yBlk3 (F := F) d L _).symm) $$ Hy3
  ihave Hz3 := (Entails.of_eq (pts_zBlk3 (F := F) d L _).symm) $$ Hz3
  ihave Hy4 := (Entails.of_eq (pts_yBlk4 (F := F) d L _).symm) $$ Hy4
  ihave Hz4 := (Entails.of_eq (pts_zBlk4 (F := F) d L _).symm) $$ Hz4
  -- block 0
  sl_exec
  sl_unfold_run_names
  try sl_rw [Prog.bind_assoc]
  ihave Hs0 := (Entails.of_eq (lands0 (F := F) d L _ _)) $$ Hs0
  ihave Hs1 := (Entails.of_eq (lands1 (F := F) d L _ _)) $$ Hs1
  ihave Hs2 := (Entails.of_eq (lands2 (F := F) d L _ _)) $$ Hs2
  ihave Hs3 := (Entails.of_eq (congrArg (fun f => ((s3).view.loc (thrV d L) ↦{fullShare} f : sProp (MM F))) (upTo_zero (lz0 (Tb TAB d) (Ab0 IA d L) (Bb0 IB d L)) f3).symm)) $$ Hs3
  ihave Hs4 := (Entails.of_eq (congrArg (fun f => ((s4).view.loc (thrV d L) ↦{fullShare} f : sProp (MM F))) (upTo_zero (lz1 (Tb TAB d) (Ab0 IA d L) (Bb0 IB d L)) f4).symm)) $$ Hs4
  sl_for (inv d L (Tb TAB d) (Ab0 IA d L) (Bb0 IB d L) f3 f4) $$ [Hs0 Hs1 Hs2 Hs3 Hs4]
  case region =>
    intro k u
    exact region1 d L _ _ _ _ _ (Ab0_lt IA IB hok d L) (Bb0_lt IA IB hok d L) k u
  · unfold inv
    isplitl [Hs0]; · iexact Hs0
    isplitl [Hs1]; · iexact Hs1
    isplitl [Hs2]; · iexact Hs2
    isplitl [Hs3]; · iexact Hs3
    iexact Hs4
  iintro %_ HI
  unfold inv
  icases HI with ⟨Hs0, Hs1, Hs2, Hs3, Hs4⟩
  ihave Hs3 := (Entails.of_eq (congrArg (fun f => ((s3).view.loc (thrV d L) ↦{fullShare} f : sProp (MM F))) (upTo_trips (lz0 (Tb TAB d) (Ab0 IA d L) (Bb0 IB d L)) f3 _ (by decide)))) $$ Hs3
  ihave Hs4 := (Entails.of_eq (congrArg (fun f => ((s4).view.loc (thrV d L) ↦{fullShare} f : sProp (MM F))) (upTo_trips (lz1 (Tb TAB d) (Ab0 IA d L) (Bb0 IB d L)) f4 _ (by decide)))) $$ Hs4
  -- block 1
  sl_exec
  sl_unfold_run_names
  try sl_rw [Prog.bind_assoc]
  ihave Hs1 := (Entails.of_eq (lands1 (F := F) d L _ _)) $$ Hs1
  ihave Hs2 := (Entails.of_eq (lands2 (F := F) d L _ _)) $$ Hs2
  ihave Hs3 := (Entails.of_eq (congrArg (fun f => ((s3).view.loc (thrV d L) ↦{fullShare} f : sProp (MM F))) (upTo_zero (lz0 (Tb TAB d) (Ab1 IA d L) (Bb1 IB d L)) (lz0 (Tb TAB d) (Ab0 IA d L) (Bb0 IB d L))).symm)) $$ Hs3
  ihave Hs4 := (Entails.of_eq (congrArg (fun f => ((s4).view.loc (thrV d L) ↦{fullShare} f : sProp (MM F))) (upTo_zero (lz1 (Tb TAB d) (Ab1 IA d L) (Bb1 IB d L)) (lz1 (Tb TAB d) (Ab0 IA d L) (Bb0 IB d L))).symm)) $$ Hs4
  sl_for (inv d L (Tb TAB d) (Ab1 IA d L) (Bb1 IB d L) (lz0 (Tb TAB d) (Ab0 IA d L) (Bb0 IB d L)) (lz1 (Tb TAB d) (Ab0 IA d L) (Bb0 IB d L))) $$ [Hs0 Hs1 Hs2 Hs3 Hs4]
  case region =>
    intro k u
    exact region2 d L _ _ _ _ _ (Ab1_lt IA IB hok d L) (Bb1_lt IA IB hok d L) _ _ k u
  · unfold inv
    isplitl [Hs0]; · iexact Hs0
    isplitl [Hs1]; · iexact Hs1
    isplitl [Hs2]; · iexact Hs2
    isplitl [Hs3]; · iexact Hs3
    iexact Hs4
  iintro %_ HI
  unfold inv
  icases HI with ⟨Hs0, Hs1, Hs2, Hs3, Hs4⟩
  ihave Hs3 := (Entails.of_eq (congrArg (fun f => ((s3).view.loc (thrV d L) ↦{fullShare} f : sProp (MM F))) (upTo_trips (lz0 (Tb TAB d) (Ab1 IA d L) (Bb1 IB d L)) (lz0 (Tb TAB d) (Ab0 IA d L) (Bb0 IB d L)) _ (by decide)))) $$ Hs3
  ihave Hs4 := (Entails.of_eq (congrArg (fun f => ((s4).view.loc (thrV d L) ↦{fullShare} f : sProp (MM F))) (upTo_trips (lz1 (Tb TAB d) (Ab1 IA d L) (Bb1 IB d L)) (lz1 (Tb TAB d) (Ab0 IA d L) (Bb0 IB d L)) _ (by decide)))) $$ Hs4
  -- block 2
  sl_exec
  sl_unfold_run_names
  try sl_rw [Prog.bind_assoc]
  ihave Hs1 := (Entails.of_eq (lands1 (F := F) d L _ _)) $$ Hs1
  ihave Hs2 := (Entails.of_eq (lands2 (F := F) d L _ _)) $$ Hs2
  ihave Hs3 := (Entails.of_eq (congrArg (fun f => ((s3).view.loc (thrV d L) ↦{fullShare} f : sProp (MM F))) (upTo_zero (lz0 (Tb TAB d) (Ab2 IA d L) (Bb2 IB d L)) (lz0 (Tb TAB d) (Ab1 IA d L) (Bb1 IB d L))).symm)) $$ Hs3
  ihave Hs4 := (Entails.of_eq (congrArg (fun f => ((s4).view.loc (thrV d L) ↦{fullShare} f : sProp (MM F))) (upTo_zero (lz1 (Tb TAB d) (Ab2 IA d L) (Bb2 IB d L)) (lz1 (Tb TAB d) (Ab1 IA d L) (Bb1 IB d L))).symm)) $$ Hs4
  sl_for (inv d L (Tb TAB d) (Ab2 IA d L) (Bb2 IB d L) (lz0 (Tb TAB d) (Ab1 IA d L) (Bb1 IB d L)) (lz1 (Tb TAB d) (Ab1 IA d L) (Bb1 IB d L))) $$ [Hs0 Hs1 Hs2 Hs3 Hs4]
  case region =>
    intro k u
    exact region3 d L _ _ _ _ _ (Ab2_lt IA IB hok d L) (Bb2_lt IA IB hok d L) _ _ k u
  · unfold inv
    isplitl [Hs0]; · iexact Hs0
    isplitl [Hs1]; · iexact Hs1
    isplitl [Hs2]; · iexact Hs2
    isplitl [Hs3]; · iexact Hs3
    iexact Hs4
  iintro %_ HI
  unfold inv
  icases HI with ⟨Hs0, Hs1, Hs2, Hs3, Hs4⟩
  ihave Hs3 := (Entails.of_eq (congrArg (fun f => ((s3).view.loc (thrV d L) ↦{fullShare} f : sProp (MM F))) (upTo_trips (lz0 (Tb TAB d) (Ab2 IA d L) (Bb2 IB d L)) (lz0 (Tb TAB d) (Ab1 IA d L) (Bb1 IB d L)) _ (by decide)))) $$ Hs3
  ihave Hs4 := (Entails.of_eq (congrArg (fun f => ((s4).view.loc (thrV d L) ↦{fullShare} f : sProp (MM F))) (upTo_trips (lz1 (Tb TAB d) (Ab2 IA d L) (Bb2 IB d L)) (lz1 (Tb TAB d) (Ab1 IA d L) (Bb1 IB d L)) _ (by decide)))) $$ Hs4
  -- block 3
  sl_exec
  sl_unfold_run_names
  try sl_rw [Prog.bind_assoc]
  ihave Hs1 := (Entails.of_eq (lands1 (F := F) d L _ _)) $$ Hs1
  ihave Hs2 := (Entails.of_eq (lands2 (F := F) d L _ _)) $$ Hs2
  ihave Hs3 := (Entails.of_eq (congrArg (fun f => ((s3).view.loc (thrV d L) ↦{fullShare} f : sProp (MM F))) (upTo_zero (lz0 (Tb TAB d) (Ab3 IA d L) (Bb3 IB d L)) (lz0 (Tb TAB d) (Ab2 IA d L) (Bb2 IB d L))).symm)) $$ Hs3
  ihave Hs4 := (Entails.of_eq (congrArg (fun f => ((s4).view.loc (thrV d L) ↦{fullShare} f : sProp (MM F))) (upTo_zero (lz1 (Tb TAB d) (Ab3 IA d L) (Bb3 IB d L)) (lz1 (Tb TAB d) (Ab2 IA d L) (Bb2 IB d L))).symm)) $$ Hs4
  sl_for (inv d L (Tb TAB d) (Ab3 IA d L) (Bb3 IB d L) (lz0 (Tb TAB d) (Ab2 IA d L) (Bb2 IB d L)) (lz1 (Tb TAB d) (Ab2 IA d L) (Bb2 IB d L))) $$ [Hs0 Hs1 Hs2 Hs3 Hs4]
  case region =>
    intro k u
    exact region4 d L _ _ _ _ _ (Ab3_lt IA IB hok d L) (Bb3_lt IA IB hok d L) _ k u
  · unfold inv
    isplitl [Hs0]; · iexact Hs0
    isplitl [Hs1]; · iexact Hs1
    isplitl [Hs2]; · iexact Hs2
    isplitl [Hs3]; · iexact Hs3
    iexact Hs4
  iintro %_ HI
  unfold inv
  icases HI with ⟨Hs0, Hs1, Hs2, Hs3, Hs4⟩
  ihave Hs3 := (Entails.of_eq (congrArg (fun f => ((s3).view.loc (thrV d L) ↦{fullShare} f : sProp (MM F))) (upTo_trips (lz0 (Tb TAB d) (Ab3 IA d L) (Bb3 IB d L)) (lz0 (Tb TAB d) (Ab2 IA d L) (Bb2 IB d L)) _ (by decide)))) $$ Hs3
  ihave Hs4 := (Entails.of_eq (congrArg (fun f => ((s4).view.loc (thrV d L) ↦{fullShare} f : sProp (MM F))) (upTo_trips (lz1 (Tb TAB d) (Ab3 IA d L) (Bb3 IB d L)) (lz1 (Tb TAB d) (Ab2 IA d L) (Bb2 IB d L)) _ (by decide)))) $$ Hs4
  -- block 4
  sl_exec
  sl_unfold_run_names
  try sl_rw [Prog.bind_assoc]
  ihave Hs1 := (Entails.of_eq (lands1 (F := F) d L _ _)) $$ Hs1
  ihave Hs2 := (Entails.of_eq (lands2 (F := F) d L _ _)) $$ Hs2
  ihave Hs3 := (Entails.of_eq (congrArg (fun f => ((s3).view.loc (thrV d L) ↦{fullShare} f : sProp (MM F))) (upTo_zero (lz0 (Tb TAB d) (Ab4 IA d L) (Bb4 IB d L)) (lz0 (Tb TAB d) (Ab3 IA d L) (Bb3 IB d L))).symm)) $$ Hs3
  ihave Hs4 := (Entails.of_eq (congrArg (fun f => ((s4).view.loc (thrV d L) ↦{fullShare} f : sProp (MM F))) (upTo_zero (lz1 (Tb TAB d) (Ab4 IA d L) (Bb4 IB d L)) (lz1 (Tb TAB d) (Ab3 IA d L) (Bb3 IB d L))).symm)) $$ Hs4
  sl_for (inv d L (Tb TAB d) (Ab4 IA d L) (Bb4 IB d L) (lz0 (Tb TAB d) (Ab3 IA d L) (Bb3 IB d L)) (lz1 (Tb TAB d) (Ab3 IA d L) (Bb3 IB d L))) $$ [Hs0 Hs1 Hs2 Hs3 Hs4]
  case region =>
    intro k u
    exact region5 d L _ _ _ _ _ (Ab4_lt IA IB hok d L) (Bb4_lt IA IB hok d L) _ k u
  · unfold inv
    isplitl [Hs0]; · iexact Hs0
    isplitl [Hs1]; · iexact Hs1
    isplitl [Hs2]; · iexact Hs2
    isplitl [Hs3]; · iexact Hs3
    iexact Hs4
  iintro %_ HI
  unfold inv
  icases HI with ⟨Hs0, Hs1, Hs2, Hs3, Hs4⟩
  ihave Hs3 := (Entails.of_eq (congrArg (fun f => ((s3).view.loc (thrV d L) ↦{fullShare} f : sProp (MM F))) (upTo_trips (lz0 (Tb TAB d) (Ab4 IA d L) (Bb4 IB d L)) (lz0 (Tb TAB d) (Ab3 IA d L) (Bb3 IB d L)) _ (by decide)))) $$ Hs3
  ihave Hs4 := (Entails.of_eq (congrArg (fun f => ((s4).view.loc (thrV d L) ↦{fullShare} f : sProp (MM F))) (upTo_trips (lz1 (Tb TAB d) (Ab4 IA d L) (Bb4 IB d L)) (lz1 (Tb TAB d) (Ab3 IA d L) (Bb3 IB d L)) _ (by decide)))) $$ Hs4
  sl_exec
  sl_unfold_run_names
  sl_step
  isplitl [Ht Ha Hb Hy0 Hz0 Hy1 Hz1 Hy2 Hz2 Hy3 Hz3 Hy4 Hz4]
  · isplitl [Ht Ha Hb]
    · isplitl [Ht]; · iapply (Entails.of_eq (pts_t (F := F) d L _ _)); iexact Ht
      isplitl [Ha]; · iapply (Entails.of_eq (pts_a (F := F) d L _ _)); iexact Ha
      iapply (Entails.of_eq (pts_b (F := F) d L _ _)); iexact Hb
    · isplitl [Hy0 Hy1 Hy2 Hy3 Hy4]
      · iapply (Entails.of_eq (bigSep_fin5 (F := F) (fun r => (yLoc d ↦[chunk (cL L) (sL L) r]{fullShare} Z0 TAB IA IB d : sProp (MM F)))).symm)
        isplitl [Hy0]; · iapply (Entails.of_eq (out_y0 TAB IA IB d L _)); iexact Hy0
        isplitl [Hy1]; · iapply (Entails.of_eq (out_y1 TAB IA IB d L _)); iexact Hy1
        isplitl [Hy2]; · iapply (Entails.of_eq (out_y2 TAB IA IB d L _)); iexact Hy2
        isplitl [Hy3]; · iapply (Entails.of_eq (out_y3 TAB IA IB d L _)); iexact Hy3
        iapply (Entails.of_eq (out_y4 TAB IA IB d L _)); iexact Hy4
      · iapply (Entails.of_eq (bigSep_fin5 (F := F) (fun r => (zLoc d ↦[chunk (cL L) (sL L) r]{fullShare} Z1 TAB IA IB d : sProp (MM F)))).symm)
        isplitl [Hz0]; · iapply (Entails.of_eq (out_z0 TAB IA IB d L _)); iexact Hz0
        isplitl [Hz1]; · iapply (Entails.of_eq (out_z1 TAB IA IB d L _)); iexact Hz1
        isplitl [Hz2]; · iapply (Entails.of_eq (out_z2 TAB IA IB d L _)); iexact Hz2
        isplitl [Hz3]; · iapply (Entails.of_eq (out_z3 TAB IA IB d L _)); iexact Hz3
        iapply (Entails.of_eq (out_z4 TAB IA IB d L _)); iexact Hz4
  isplitl [Hs0 Hs1 Hs2 Hs3 Hs4 Hbufs]
  · isplitl [Hs0]; · iexists _; iapply (Entails.of_eq (pts_s0 (F := F) d L _)); iexact Hs0
    isplitl [Hs1]; · iexists _; iapply (Entails.of_eq (pts_s1 (F := F) d L _)); iexact Hs1
    isplitl [Hs2]; · iexists _; iapply (Entails.of_eq (pts_s2 (F := F) d L _)); iexact Hs2
    isplitl [Hs3]; · iexists _; iapply (Entails.of_eq (pts_s3 (F := F) d L _)); iexact Hs3
    isplitl [Hs4]; · iexists _; iapply (Entails.of_eq (pts_s4 (F := F) d L _)); iexact Hs4
    iexact Hbufs
  isplitl [Hc0 Hc1 Hc2 Hc3 Hc4 Hc5 Hc6 Hc7 Hc8 Hc9 Hc10 Hc11 Hc12 Hc13 Hc14 Hc15 Hc16 Hc17 Hc18 Hc19 Hc20 Hsems]
  · isplitl [Hc0]; · iexact Hc0
    isplitl [Hc1]; · iexact Hc1
    isplitl [Hc2]; · iexact Hc2
    isplitl [Hc3]; · iexact Hc3
    isplitl [Hc4]; · iexact Hc4
    isplitl [Hc5]; · iexact Hc5
    isplitl [Hc6]; · iexact Hc6
    isplitl [Hc7]; · iexact Hc7
    isplitl [Hc8]; · iexact Hc8
    isplitl [Hc9]; · iexact Hc9
    isplitl [Hc10]; · iexact Hc10
    isplitl [Hc11]; · iexact Hc11
    isplitl [Hc12]; · iexact Hc12
    isplitl [Hc13]; · iexact Hc13
    isplitl [Hc14]; · iexact Hc14
    isplitl [Hc15]; · iexact Hc15
    isplitl [Hc16]; · iexact Hc16
    isplitl [Hc17]; · iexact Hc17
    isplitl [Hc18]; · iexact Hc18
    isplitl [Hc19]; · iexact Hc19
    isplitl [Hc20]; · iexact Hc20
    iexact Hsems
  iexists _; isplitr
  rotate_left
  · iexact HO
  · ipureintro; intro p hp
    simp only [Finset.mem_insert] at hp
    rcases hp with rfl | rfl | rfl | rfl | rfl | rfl | rfl | rfl | rfl | rfl | rfl | rfl | rfl | rfl | rfl | rfl | rfl | rfl | rfl | rfl | rfl | hp <;> first | exact .inr rfl | exact .inl hp

/-! ## The launch theorem's obligation -/

def coordsV (c : Fin (grid1.bound 0)) (s : Fin (grid1.bound 1)) : grid1.Coords :=
  fun | 0 => c | 1 => s | ⟨_ + 2, h⟩ => absurd h (Nat.not_lt.2 (Nat.le_add_left _ _))

theorem defs₀_vector (c : Fin τ.nSC) (s : Fin τ.nSub) :
    defs₀ (F := F) (.scVector c s) 1 ()
      = SparseCore.onTile hcore1 hsub1 (fun c s => cc1__pair_body (coordsV c s) (Memref.whole main_v9_scv) (Memref.isWhole_whole _) (Memref.whole main_v11_scv) (Memref.isWhole_whole _) (Memref.whole main_v13_scv) (Memref.isWhole_whole _) (Memref.whole main_v14_0_scv) (Memref.isWhole_whole _) (Memref.whole main_v14_1_scv) (Memref.isWhole_whole _) (Memref.whole cc1_scratch0) (Memref.isWhole_whole _) (Memref.whole cc1_scratch1) (Memref.isWhole_whole _) (Memref.whole cc1_scratch2) (Memref.isWhole_whole _) (Memref.whole cc1_scratch3) (Memref.isWhole_whole _) (Memref.whole cc1_scratch4) (Memref.isWhole_whole _) cc1_scoped0 cc1_scoped1 cc1_scoped2 cc1_scoped3 cc1_scoped4 cc1_scoped5 cc1_scoped6 cc1_scoped7 cc1_scoped8 cc1_scoped9 cc1_scoped10 cc1_scoped11 cc1_scoped12 cc1_scoped13 cc1_scoped14 cc1_scoped15 cc1_scoped16 cc1_scoped17 cc1_scoped18 cc1_scoped19 cc1_scoped20) ⟨⟩ c s := rfl

omit [FloatOps F] in
theorem obl_post {thr : Thread nD τ} {A B C : sProp (MM F)} {O : CellTallies nD τ sig (HIx 1)} {W : Waits sig (HIx 1)} {q : Fin 1} :
    iprop(A ∗ B ∗ C ∗ ∃ W', ⌜∀ p ∈ W', p ∈ W ∨ p.2 = none⌝ ∗ owes thr O W')
      ⊢ iprop(A ∗ B ∗ C ∗ ∃ W', ⌜∀ p ∈ W', p ∈ W ∨ p.2 = none ∨ p.2 = some q⌝ ∗ owes thr O W') := by
  iintro ⟨HA, HB, HC, %W', %hW', HO⟩
  isplitl [HA]; · iexact HA
  isplitl [HB]; · iexact HB
  isplitl [HC]; · iexact HC
  iexists W'; isplitr
  · ipureintro; exact fun p hp => (hW' p hp).imp_right Or.inl
  · iexact HO

/-- Every vector subcore's task: from its shares of the read arrays and its blocks of the result columns, the shares
    back and the blocks at the values. -/
theorem tileObl (hok : IdxOK IA IB) : (K (F := F)).TileObl (D (F := F)) 𝒱 (P TAB IA IB) v₀ 0 := by
  intro d c i O W hO _ _
  simp only [show (P TAB IA IB).ox = fun _ _ => 0 from rfl, add_zero]
  change _ ⊢ wp _ _ _ (Pipeline.liftProg (defs₀ (F := F) (.scVector ((K (F := F)).core 0 c) ((K (F := F)).sub 0 i)) 1 ())) _
  refine BI.Entails.trans ?_ (Pipeline.wp_liftProg (D (F := F)) (Pipeline.defs_kernel pcfgs defs₀) 𝒱₀ _ Set.univ none _ _)
  have hc : ((K (F := F)).core 0 c).val < grid1.bound 0 ∧ ((K (F := F)).sub 0 i).val < grid1.bound 1 := ⟨c.isLt, i.isLt⟩
  rw [defs₀_vector]; simp only [SparseCore.onTile, hc, and_self, ↓reduceDIte]
  exact (tile_body TAB IA IB hok d (coordsV ⟨_, hc.1⟩ ⟨_, hc.2⟩) O W hO).trans (wp_mono frame _ _ fun _ => obl_post)

end Body

end Cert.KernelIdeal.Sc.Tile

end
-- ==== Proof.ScBaseB.lean ====
/-
  The program as the SparseCore launch theorem sees it, and the ghost state every part of the proof shares: the
  label table of the two TensorCore pipelines, the SparseCore configuration, the body table, and one resource
  algebra with three components — the launch handshakes' rounds, the rounds of the vector subcores' own DMA
  semaphores, and the rounds of the TensorCore pipelines' staging semaphores — each reached through its embedding.
-/
import proofs.«208457_g31284541784245_cont_9to1_2229_14_alg».proof.Defs
import Idealize.ShloMosaic.Lib.SparseCore.Launch
import Idealize.ShloMosaic.Lib.SparseCore.Ops
import Idealize.ShloMosaic.Lib.Pipeline.Regions
import Idealize.ShloMosaic.Lib.StableHlo.Run
import Idealize.ShloMosaic.Lib.Tactic
import Idealize.ShloMosaic.Lib.Pipeline.Kit
import proofs.«208457_g31284541784245_cont_9to1_2229_14_alg».proof.Proof.Gen.Kernel

noncomputable section

namespace Cert.Kernel.Sc

open Cert.Kernel Cert.Kernel.Gen

open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.Sem
open Idealize.ShloMosaic.Rounds

variable {F : FTy → Type}

/-! ## The program as the launch theorem sees it -/

abbrev ΛP : Labels := Pipeline.Sig Λ₀ (Fin 2) fun p => (pcfgs (F := F) p).Adm
abbrev K : SparseCore.Cfg τ sig (ΛP (F := F)) 1 := sc (F := F)
theorem nCore_zero : (K (F := F)).nCore 0 = 2 := rfl
theorem nSub_zero : (K (F := F)).nSub 0 = 16 := rfl
abbrev D [FloatOps F] : Defs nD τ sig (Elt F) (ΛP (F := F)) := Pipeline.defs pcfgs defs₀
abbrev 𝒱₀ : Variants := Variants.none
abbrev 𝒱 : Variants := 𝒱₀.lift
abbrev v₀ : 𝒱.V := Sum.inl none

theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

/-! ## The resource algebra

Three components: the launch handshakes' rounds; the rounds of the TensorCore pipelines' staging semaphores; and the
counters the vector subcores' own copies run under (a copy issued and waited at once needs no schedule: the counters'
protocol, found by instance in the rightmost factor). -/

abbrev UH : Type := URounds (GSem nD τ sig) ℕ
abbrev UP : Type := URounds (GSem nD τ sig) Unit
abbrev UK : Type := Counters
abbrev UU : Type := UH × (UP × UK)

/-- The model every assertion of this certificate lives in. -/
abbrev MM (F : FTy → Type) : Type := MT nD τ sig (HIx 1) (Elt F) ℕ UU ℕ

def EH : Emb UH (MM F) :=
  (Emb.inl : Emb UH UU).trans (uEmb (nD := nD) (sig := sig) (Ix := HIx 1) (Val := Elt F) (Name := ℕ) (U := UU) (Lvl := ℕ)).toEmb
def EP : Emb UP (MM F) :=
  ((Emb.inl : Emb UP (UP × UK)).trans (Emb.inr : Emb (UP × UK) UU)).trans (uEmb (nD := nD) (sig := sig) (Ix := HIx 1) (Val := Elt F) (Name := ℕ) (U := UU) (Lvl := ℕ)).toEmb

instance EH_landsIn : (EH : Emb UH (MM F)).LandsIn (upEmb : UEmb _ (MM F)) := by unfold EH; infer_instance
instance EP_landsIn : (EP : Emb UP (MM F)).LandsIn (upEmb : UEmb _ (MM F)) := by unfold EP; infer_instance

/-- The counters are found in the algebra by instance. -/
example : CountersIn UU := inferInstance

end Cert.Kernel.Sc

end
-- ==== Proof.ScMainB.lean ====
/-
  @main of the kernel's program as the TensorCore runs it: four stretches of host operations around three calls —
  the first pallas_call (the node table), the SparseCore call (the pair logits), the second pallas_call (the loss).
-/
import proofs.«208457_g31284541784245_cont_9to1_2229_14_alg».proof.Proof.ScBaseB

noncomputable section

namespace Cert.Kernel.Sc

open Cert.Kernel Cert.Kernel.Gen
open Idealize.ShloMosaic
open Idealize.SL.Sem

variable {F : FTy → Type} [FloatOps F]

/-- Host stretch 0 of @main, in order. -/
abbrev ops0 : List (HloOp τ sig (Elt F)) :=
  [ (StableHlo.unary main_arg8 main_v0 ((extractStridedSlice S64x2 ![0, 0] · slices_S128x2_S64x2_0_0) : (⟨S128x2, .f32⟩ : BufTy).Contents (Elt F) → (⟨S64x2, .f32⟩ : BufTy).Contents (Elt F))),
    (StableHlo.unary main_arg8 main_v1 ((extractStridedSlice S64x2 ![64, 0] · slices_S128x2_S64x2_64_0) : (⟨S128x2, .f32⟩ : BufTy).Contents (Elt F) → (⟨S64x2, .f32⟩ : BufTy).Contents (Elt F))),
    (StableHlo.binary main_v0 main_v1 main_v2 ((fun a b => concatenate S64x4 1 [⟨S64x2, a⟩, ⟨S64x2, b⟩] concatenates_S64x2_S64x2_S64x4_d1) : (⟨S64x2, .f32⟩ : BufTy).Contents (Elt F) → (⟨S64x2, .f32⟩ : BufTy).Contents (Elt F) → (⟨S64x4, .f32⟩ : BufTy).Contents (Elt F))),
    (StableHlo.nullary main_cst (constant S_ .f32 0x00000000#32)),
    (StableHlo.unary main_cst main_v3 (broadcastInDim S2 ![] bcast_S_S2 : (⟨S_, .f32⟩ : BufTy).Contents (Elt F) → (⟨S2, .f32⟩ : BufTy).Contents (Elt F))),
    (StableHlo.binary main_arg9 main_v3 main_v4 ((fun a b => concatenate S4 0 [⟨S2, a⟩, ⟨S2, b⟩] concatenates_S2_S2_S4_d0) : (⟨S2, .f32⟩ : BufTy).Contents (Elt F) → (⟨S2, .f32⟩ : BufTy).Contents (Elt F) → (⟨S4, .f32⟩ : BufTy).Contents (Elt F))),
    (StableHlo.unary main_v4 main_v5 (broadcastInDim S1x4 ![1] bcast_S4_S1x4_1 : (⟨S4, .f32⟩ : BufTy).Contents (Elt F) → (⟨S1x4, .f32⟩ : BufTy).Contents (Elt F))),
    (StableHlo.unary main_arg5 main_v6 (broadcastInDim S1x64 ![1] bcast_S64_S1x64_1 : (⟨S64, .f32⟩ : BufTy).Contents (Elt F) → (⟨S1x64, .f32⟩ : BufTy).Contents (Elt F))),
    (StableHlo.unary main_arg7 main_v7 (broadcastInDim S1x64 ![1] bcast_S64_S1x64_1 : (⟨S64, .f32⟩ : BufTy).Contents (Elt F) → (⟨S1x64, .f32⟩ : BufTy).Contents (Elt F))) ]

/-- Host stretch 1 of @main, in order. -/
abbrev ops1 : List (HloOp τ sig (Elt F)) :=
  [ (StableHlo.reshape main_v8 main_v9 rfl shapeCasts_S10000x4_S40000),
    (StableHlo.unary main_arg0 main_v10 ((extractStridedSlice S640000x1 ![0, 0] · slices_S640000x2_S640000x1_0_0) : (⟨S640000x2, .i32⟩ : BufTy).Contents (Elt F) → (⟨S640000x1, .i32⟩ : BufTy).Contents (Elt F))),
    (StableHlo.reshape main_v10 main_v11 rfl shapeCasts_S640000x1_S640000),
    (StableHlo.unary main_arg0 main_v12 ((extractStridedSlice S640000x1 ![0, 1] · slices_S640000x2_S640000x1_0_1) : (⟨S640000x2, .i32⟩ : BufTy).Contents (Elt F) → (⟨S640000x1, .i32⟩ : BufTy).Contents (Elt F))),
    (StableHlo.reshape main_v12 main_v13 rfl shapeCasts_S640000x1_S640000) ]

/-- Host stretch 2 of @main, in order. -/
abbrev ops2 : List (HloOp τ sig (Elt F)) :=
  [ (StableHlo.reshape main_v14_0 main_v15 rfl shapeCasts_S640000_S5000x128),
    (StableHlo.reshape main_v14_1 main_v16 rfl shapeCasts_S640000_S5000x128),
    (StableHlo.reshape main_arg3 main_v17 rfl shapeCasts_S640000_S5000x128) ]

/-- Host stretch 3 of @main, in order. -/
abbrev ops3 : List (HloOp τ sig (Elt F)) :=
  [ (StableHlo.unary main_v14_0 main_v19 (broadcastInDim S640000x1 ![0] bcast_S640000_S640000x1_0 : (⟨S640000, .f32⟩ : BufTy).Contents (Elt F) → (⟨S640000x1, .f32⟩ : BufTy).Contents (Elt F))),
    (StableHlo.unary main_v14_1 main_v20 (broadcastInDim S640000x1 ![0] bcast_S640000_S640000x1_0 : (⟨S640000, .f32⟩ : BufTy).Contents (Elt F) → (⟨S640000x1, .f32⟩ : BufTy).Contents (Elt F))),
    (StableHlo.binary main_v19 main_v20 main_v21 ((fun a b => concatenate S640000x2 1 [⟨S640000x1, a⟩, ⟨S640000x1, b⟩] concatenates_S640000x1_S640000x1_S640000x2_d1) : (⟨S640000x1, .f32⟩ : BufTy).Contents (Elt F) → (⟨S640000x1, .f32⟩ : BufTy).Contents (Elt F) → (⟨S640000x2, .f32⟩ : BufTy).Contents (Elt F))),
    (StableHlo.reshape main_v18 main_v22 rfl shapeCasts_S1x1_S_) ]

/-- @main is the four stretches around the three calls. -/
theorem main_eq (d : Dev nD) :
    main (F := F) d = (StableHlo.seq ops0 >>= fun _ =>
      Prog.lift (.customCall (SparseCore.inner (Pipeline.entry 0)) ()) >>= fun _ =>
      StableHlo.seq ops1 >>= fun _ =>
      (sc (F := F)).run d 0 >>= fun _ =>
      StableHlo.seq ops2 >>= fun _ =>
      Prog.lift (.customCall (SparseCore.inner (Pipeline.entry 1)) ()) >>= fun _ =>
      StableHlo.seq ops3) := by
  simp only [main, ops0, ops1, ops2, ops3, StableHlo.seq, bind_assoc, pure_bind, bind_pure]

end Cert.Kernel.Sc

end
-- ==== Proof.ScLaunchB.lean ====
/-
  The kernel program's run from the launch theorem for SparseCore programs. @main on the TensorCore is four stretches
  of host operations around three calls: each stretch advances the named contents of the unscoped buffers by its
  operations; each pallas_call is entered as a kernel region of its pipeline, from the thread state the stretch before
  it left and that pipeline's share of the staging cells' ghost state, and leaves the state the next stretch starts
  from; the SparseCore call hands the operands' buffers to the two SparseCores and takes them back with the two result
  columns written. The TensorCore's debts to the SparseCores (its start signals) ride through the first region and are
  paid at the call. What the regions and the vector subcores' task compute is supplied by the modules that prove them;
  here they enter as the records and entailments the statement names.
-/
import proofs.«208457_g31284541784245_cont_9to1_2229_14_alg».proof.Proof.ScMainB
import Idealize.ShloMosaic.Lib.Pipeline.Frame
import proofs.«208457_g31284541784245_cont_9to1_2229_14_alg».proof.Proof.Gen.Kernel.Launch

noncomputable section

namespace Cert.Kernel.Sc.Launch

open Cert.Kernel Cert.Kernel.Gen Cert.Kernel.Sc
open Idealize.ShloMosaic Idealize.ShloMosaic.TcCoe
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

/-- No pipeline has a prefetched table. -/
abbrev adm : (p : Fin 2) → (pcfgs (F := F) p).Adm := fun p => (cfgs p).toPCfg_adm

/-- The TensorCore's unscoped buffers. -/
abbrev UC : Finset (DevRef τ sig) := Pipeline.ucRefs τ sig

/-! ## Every host operation touches unscoped TensorCore buffers only and allocates none -/

theorem ops0_sub : ∀ op ∈ (ops0 : List (HloOp τ sig (Elt F))), op.bufs ⊆ UC := fun op h => Pipeline.sub_ucRefs op (by
  have hall : (ops0 : List (HloOp τ sig (Elt F))).Forall fun op => op.bufs ⊆ StableHlo.tcRefs τ sig := by
    simp only [ops0, List.Forall, StableHlo.nullary_bufs_sub, StableHlo.unary_bufs_sub, StableHlo.binary_bufs_sub, StableHlo.reshape_bufs_sub, and_self]
  exact (List.forall_iff_forall_mem.mp hall) op h)
theorem ops1_sub : ∀ op ∈ (ops1 : List (HloOp τ sig (Elt F))), op.bufs ⊆ UC := fun op h => Pipeline.sub_ucRefs op (by
  have hall : (ops1 : List (HloOp τ sig (Elt F))).Forall fun op => op.bufs ⊆ StableHlo.tcRefs τ sig := by
    simp only [ops1, List.Forall, StableHlo.nullary_bufs_sub, StableHlo.unary_bufs_sub, StableHlo.binary_bufs_sub, StableHlo.reshape_bufs_sub, and_self]
  exact (List.forall_iff_forall_mem.mp hall) op h)
theorem ops2_sub : ∀ op ∈ (ops2 : List (HloOp τ sig (Elt F))), op.bufs ⊆ UC := fun op h => Pipeline.sub_ucRefs op (by
  have hall : (ops2 : List (HloOp τ sig (Elt F))).Forall fun op => op.bufs ⊆ StableHlo.tcRefs τ sig := by
    simp only [ops2, List.Forall, StableHlo.nullary_bufs_sub, StableHlo.unary_bufs_sub, StableHlo.binary_bufs_sub, StableHlo.reshape_bufs_sub, and_self]
  exact (List.forall_iff_forall_mem.mp hall) op h)
theorem ops3_sub : ∀ op ∈ (ops3 : List (HloOp τ sig (Elt F))), op.bufs ⊆ UC := fun op h => Pipeline.sub_ucRefs op (by
  have hall : (ops3 : List (HloOp τ sig (Elt F))).Forall fun op => op.bufs ⊆ StableHlo.tcRefs τ sig := by
    simp only [ops3, List.Forall, StableHlo.nullary_bufs_sub, StableHlo.unary_bufs_sub, StableHlo.binary_bufs_sub, StableHlo.reshape_bufs_sub, and_self]
  exact (List.forall_iff_forall_mem.mp hall) op h)

theorem ops0_fresh : ∀ op ∈ (ops0 : List (HloOp τ sig (Elt F))), op.fresh = ∅ := by
  refine List.forall_iff_forall_mem.mp ?_; simp only [ops0, List.Forall]; repeat' constructor
theorem ops1_fresh : ∀ op ∈ (ops1 : List (HloOp τ sig (Elt F))), op.fresh = ∅ := by
  refine List.forall_iff_forall_mem.mp ?_; simp only [ops1, List.Forall]; repeat' constructor
theorem ops2_fresh : ∀ op ∈ (ops2 : List (HloOp τ sig (Elt F))), op.fresh = ∅ := by
  refine List.forall_iff_forall_mem.mp ?_; simp only [ops2, List.Forall]; repeat' constructor
theorem ops3_fresh : ∀ op ∈ (ops3 : List (HloOp τ sig (Elt F))), op.fresh = ∅ := by
  refine List.forall_iff_forall_mem.mp ?_; simp only [ops3, List.Forall]; repeat' constructor

section Main

variable (m : (ℓ : Loc nD τ sig) → Buf (Elt F) ℓ) (g : Dev nD → PrngReg)
variable (Py : (K (F := F)).Pay (nD := nD) (Val := Elt F) (Name := ℕ) (U := UU))
variable (pdats : (p : Fin 2) → (c : Dev nD) → Pipeline.Dat τ (Elt F) (HIx 1) ℕ UU ℕ (Pipeline.pin (pcfgs (F := F)) adm p) c)
variable (R0 : Pipeline.RegionSeg (pcfgs (F := F)) adm pdats (none : HIx 1) defs₀ 𝒱₀ (K (F := F)).L (K (F := F)).lev 0)
variable (R1 : Pipeline.RegionSeg (pcfgs (F := F)) adm pdats (none : HIx 1) defs₀ 𝒱₀ (K (F := F)).L (K (F := F)).lev 1)

/-- Device d's buffers at launch. -/
abbrev W0 (d : Dev nD) : Valuation τ sig (Elt F) := fun b => m (d, b)

theorem ub_held (d : Dev nD) : (unscopedBufs (Ix := HIx 1) (Name := ℕ) (U := UU) (Lvl := ℕ) d (fun b => m ((SparseCore.T d).loc b)) : sProp (MM F)) = StableHlo.held (SparseCore.T d) UC (W0 m d) :=
  Pipeline.unscopedBufs_held d (W0 m d)

/-- What the launch deals the TensorCore of the pipelines' ghost state. -/
abbrev Gp (d : Dev nD) : sProp (MM F) :=
  bigSep Finset.univ fun p : Fin 2 => iprop(Pipeline.cellsGhost (Pipeline.pin (pcfgs (F := F)) adm) EP p d ∗ Pipeline.toksInit (Pipeline.pin (pcfgs (F := F)) adm) EP p d)

theorem Gp_eq (d : Dev nD) : (Gp (F := F) d : sProp (MM F))
    = iprop((Pipeline.cellsGhost (Pipeline.pin (pcfgs (F := F)) adm) EP 0 d ∗ Pipeline.toksInit (Pipeline.pin (pcfgs (F := F)) adm) EP 0 d)
        ∗ (Pipeline.cellsGhost (Pipeline.pin (pcfgs (F := F)) adm) EP 1 d ∗ Pipeline.toksInit (Pipeline.pin (pcfgs (F := F)) adm) EP 1 d)) :=
  bigSep_fin_two _

/-- The TensorCore's handshake state without its debts. -/
def tcRest (d : Dev nD) (n : ℕ) : sProp (MM F) :=
  iprop(atPos EH ((K (F := F)).doneCell d) n ∅ 0 ∗ reached EH ((K (F := F)).doneCell d) n
    ∗ (bigSep Finset.univ fun c : Fin τ.nSC => reached EH ((K (F := F)).startCell d c) ((K (F := F)).sRank c n))
    ∗ bigSep (SparseCore.Cfg.callsFrom n) fun q => bigSep Finset.univ fun c : Fin ((K (F := F)).nCore q) =>
        iprop(dutyTok EH ((K (F := F)).startCell d ((K (F := F)).core q c)) ((K (F := F)).sRank ((K (F := F)).core q c) q.val) 0 ∗ cred (tallyAt ((K (F := F)).doneCell d) (some q) 1)))

/-- The debts: what the TensorCore owes before call n, its recorded waits bounded. -/
abbrev tcOwes (d : Dev nD) (n : ℕ) : sProp (MM F) :=
  iprop(∃ W, ⌜(K (F := F)).WBelow (SparseCore.T d) W (8 * n)⌝ ∗ owes (SparseCore.T d) ((K (F := F)).Otc d n) W)

theorem tcSt_split (d : Dev nD) (n : ℕ) :
    ((K (F := F)).tcSt (EH (F := F)) d n : sProp (MM F)) = iprop(tcOwes (F := F) d n ∗ tcRest (F := F) d n) := rfl

variable (FIN : Dev nD → sProp (MM F))
variable (W2 W4 W6 : Dev nD → Valuation τ sig (Elt F))
variable (Keep : Dev nD → sProp (MM F))

/-- The thread state between the segments: the unscoped buffers at a valuation, the generator register, the debts. -/
abbrev Tst (d : Dev nD) (W : Valuation τ sig (Elt F)) (n : ℕ) : sProp (MM F) :=
  iprop(StableHlo.held (SparseCore.T d) UC W ∗ (∃ r, prngReg d r) ∗ tcOwes (F := F) d n)

set_option backward.isDefEq.respectTransparency.types false in
/-- @main on the TensorCore, from the launch to the return: the four host stretches by the host rule, each pallas_call
    entered as a kernel region of its pipeline with that pipeline's share of the ghost state, the SparseCore call by the
    launch library's rule; the buffers' contents named at every boundary. -/
theorem hmain_of (κ : GSem nD τ sig → ℕ) (d : Dev nD)
    (hpre0 : Tst (F := F) d (StableHlo.after ops0 (W0 m d)) 0 ⊢ R0.pre d)
    (hpost0 : R0.post d ⊢ Tst (F := F) d (W2 d) 0)
    (hst : StableHlo.held (SparseCore.T d) UC (StableHlo.after ops1 (W2 d)) ⊢ iprop((bigSep Finset.univ fun c : Fin ((K (F := F)).nCore 0) => Py.st 0 d c) ∗ Keep d))
    (hdn : iprop((bigSep Finset.univ fun c : Fin ((K (F := F)).nCore 0) => Py.dn 0 d c) ∗ Keep d) ⊢ StableHlo.held (SparseCore.T d) UC (W4 d))
    (hpre1 : Tst (F := F) d (StableHlo.after ops2 (W4 d)) 1 ⊢ R1.pre d)
    (hpost1 : R1.post d ⊢ Tst (F := F) d (W6 d) 1)
    (hFIN : iprop(StableHlo.held (SparseCore.T d) UC (StableHlo.after ops3 (W6 d)) ∗ ∃ r, prngReg d r) ⊢ FIN d) :
    iprop((K (F := F)).ctx EH Py κ ∗ (K (F := F)).tcSt EH d 0 ∗ (K (F := F)).tcRes m g d ∗ Gp d)
      ⊢ wp frame (wpE ((K (F := F)).defs (D (F := F))) 𝒱 (SparseCore.T d) none) Set.univ (main d) fun _ => iprop((K (F := F)).tcSt EH d 1 ∗ FIN d) := by
  rw [main_eq, tcSt_split, tcSt_split]
  unfold SparseCore.Cfg.tcRes
  rw [ub_held, Gp_eq]
  iintro ⟨#Hctx, ⟨HO, Hrest⟩, ⟨Hb, Hub, Hsems, Hprng⟩, ⟨⟨Hcg0, Htk0⟩, ⟨Hcg1, Htk1⟩⟩⟩
  ihave #Hlev := (SparseCore.Cfg.ctx_levAts κ) $$ Hctx
  -- stretch 0
  iapply (StableHlo.wp_seq 𝒱 none Set.univ d UC _ ops0 ops0_sub ops0_fresh (W0 m d)) $$ [Hb Hub]
  · isplitl [Hb]; · iexact Hb
    iexact Hub
  iintro ⟨Hb, Hub⟩
  -- region 0
  rw [wp_bind]
  iapply (SparseCore.Cfg.wp_liftProg (K (F := F)) (D (F := F)) 𝒱 (SparseCore.T d) Set.univ none (Prog.lift (.customCall (Pipeline.entry 0) ())) _)
  iapply (Pipeline.RegionSeg.wp (pcfgs (F := F)) adm pdats none cellOf_inj EP defs₀ 𝒱₀ (K (F := F)).L (K (F := F)).lev R0 d none (fun u hu => by cases hu) (fun x => .ret x) _)
  isplitr [Hb Hub Hprng HO Hcg0 Htk0]
  swap
  · isplitl [Hb]; · iexact Hb
    isplitl [Hub Hprng HO]
    · iapply hpre0
      isplitl [Hub]; · iexact Hub
      isplitl [Hprng]; · iexists _; iexact Hprng
      iexact HO
    isplitr; · iexact Hlev
    isplitl [Hcg0]; · iexact Hcg0
    iexact Htk0
  iintro ⟨Hb, Hpost⟩
  ihave Hpost' := hpost0 $$ Hpost
  icases Hpost' with ⟨Hub, Hprng, HO⟩
  rw [wp_ret]
  imodintro
  -- stretch 1
  iapply (StableHlo.wp_seq 𝒱 none Set.univ d UC _ ops1 ops1_sub ops1_fresh (W2 d)) $$ [Hb Hub]
  · isplitl [Hb]; · iexact Hb
    iexact Hub
  iintro ⟨Hb, Hub⟩
  -- the SparseCore call
  rw [wp_bind]
  ihave Hsplit := hst $$ Hub
  icases Hsplit with ⟨Hstc, Hkeep⟩
  iapply ((K (F := F)).wp_run (D (F := F)) 𝒱 (EH := EH) (P := Py) κ d 0) $$ [HO Hrest Hstc Hb Hkeep Hprng Hcg1 Htk1]
  isplitr; · iexact Hctx
  isplitl [HO Hrest]
  · iapply (Entails.of_eq (tcSt_split (F := F) d 0).symm)
    isplitl [HO]; · iexact HO
    iexact Hrest
  isplitl [Hstc]; · iexact Hstc
  iintro ⟨Hst, Hdn⟩
  ihave Hst' := (Entails.of_eq (tcSt_split (F := F) d ((0 : Fin 1).val + 1))) $$ Hst
  icases Hst' with ⟨HO, Hrest⟩
  ihave Hub := hdn $$ [Hdn Hkeep]
  · isplitl [Hdn]; · iexact Hdn
    iexact Hkeep
  -- stretch 2
  iapply (StableHlo.wp_seq 𝒱 none Set.univ d UC _ ops2 ops2_sub ops2_fresh (W4 d)) $$ [Hb Hub]
  · isplitl [Hb]; · iexact Hb
    iexact Hub
  iintro ⟨Hb, Hub⟩
  -- region 1
  rw [wp_bind]
  iapply (SparseCore.Cfg.wp_liftProg (K (F := F)) (D (F := F)) 𝒱 (SparseCore.T d) Set.univ none (Prog.lift (.customCall (Pipeline.entry 1) ())) _)
  iapply (Pipeline.RegionSeg.wp (pcfgs (F := F)) adm pdats none cellOf_inj EP defs₀ 𝒱₀ (K (F := F)).L (K (F := F)).lev R1 d none (fun u hu => by cases hu) (fun x => .ret x) _)
  isplitr [Hb Hub Hprng HO Hcg1 Htk1]
  swap
  · isplitl [Hb]; · iexact Hb
    isplitl [Hub Hprng HO]
    · iapply hpre1
      isplitl [Hub]; · iexact Hub
      isplitl [Hprng]; · iexact Hprng
      iexact HO
    isplitr; · iexact Hlev
    isplitl [Hcg1]; · iexact Hcg1
    iexact Htk1
  iintro ⟨Hb, Hpost⟩
  ihave Hpost' := hpost1 $$ Hpost
  icases Hpost' with ⟨Hub, Hprng, HO⟩
  rw [wp_ret]
  imodintro
  -- stretch 3, to the return
  rw [show (StableHlo.seq ops3 : Prog (TpuEff nD τ sig (Elt F) (SparseCore.Sig (ΛP (F := F)) 1) .tc) PUnit) = StableHlo.seq ops3 >>= fun _ => pure ⟨⟩ from (bind_pure _).symm]
  iapply (StableHlo.wp_seq 𝒱 none Set.univ d UC _ ops3 ops3_sub ops3_fresh (W6 d)) $$ [Hb Hub]
  · isplitl [Hb]; · iexact Hb
    iexact Hub
  iintro ⟨Hb, Hub⟩
  rw [wp_pure]
  imodintro
  isplitl [HO Hrest]
  · isplitl [HO]; · iexact HO
    iexact Hrest
  iapply hFIN
  isplitl [Hub]; · iexact Hub
  iexact Hprng

/-! ## The launch element -/

/-- The launch element: the handshakes' rounds at the library's cells and tokens, the pipelines' rounds at their staging
    cells and the transfers their loops issue, the counters at their unit. -/
def u₀ : UU :=
  (initOf (K (F := F)).hsCells (K (F := F)).hsToks,
    (initOf (Pipeline.cells (Pipeline.pin (pcfgs (F := F)) adm) cellOf_inj) (Pipeline.launchToks (Pipeline.pin (pcfgs (F := F)) adm) cellOf_inj), 1))

theorem EP_eq : (EP : Emb UP (MM F)) = (Emb.inl : Emb UP (UP × UK)).trans embR := rfl

set_option backward.isDefEq.respectTransparency.types false in
/-- Owning the launch element is owning the handshakes' part and the pipelines' part, each through its embedding (the
    counters' part is set aside). -/
theorem own_split (a : UH) (b : UP) (c : UK) :
    (ownU ((a, (b, c)) : UU) : sProp (MM F)) ⊢ iprop(BI.own ((EH : Emb UH (MM F)) a) ∗ BI.own ((EP : Emb UP (MM F)) b)) :=
  (ownU_pair (nD := nD) (τ := τ) (sig := sig) (Ix := HIx 1) (Val := Elt F) (Name := ℕ) (Lvl := ℕ) a ((b, c) : UP × UK)).trans
    (Idealize.SL.BI.sep_mono_r
      ((own_pair_emb (embR (nD := nD) (τ := τ) (sig := sig) (Ix := HIx 1) (Val := Elt F) (Name := ℕ) (Lvl := ℕ) (A := UH) (B := UP × UK)) b c).trans
        sep_elim_left))

set_option backward.isDefEq.respectTransparency.types false in
/-- The element split: the handshakes' part for the launch library, the pipelines' part funded into each TensorCore's
    share of their ghost state (`Gp`), the counters' part dropped; nothing for the vector subcores' own cells. -/
theorem hu₀ (hx : (bigSep Finset.univ fun thr : Thread nD τ => bigSep Finset.univ fun q : Fin 1 => Py.x q thr) = (iprop(emp) : sProp (MM F))) :
    (ownU (u₀ (F := F)) : sProp (MM F))
      ⊢ |={Set.univ}=> iprop(BI.own (EH (initOf (K (F := F)).hsCells (K (F := F)).hsToks)) ∗ (bigSep Finset.univ fun d : Dev nD => Gp (F := F) d)
          ∗ bigSep Finset.univ fun thr : Thread nD τ => bigSep Finset.univ fun q : Fin 1 => Py.x q thr) := by
  have hs := own_split (F := F) (initOf (K (F := F)).hsCells (K (F := F)).hsToks)
    (initOf (Pipeline.cells (Pipeline.pin (pcfgs (F := F)) adm) cellOf_inj) (Pipeline.launchToks (Pipeline.pin (pcfgs (F := F)) adm) cellOf_inj)) (1 : UK)
  have hf := Pipeline.fund_ghost (nD := nD) (Val := Elt F) (Ix := HIx 1) (Name := ℕ) (U := UU) (Lvl := ℕ) (Pipeline.pin (pcfgs (F := F)) adm) (EP (F := F)) cellOf_inj
  unfold u₀
  rw [hx]
  iintro Hu
  ihave H := hs $$ Hu
  icases H with ⟨HH, HP⟩
  imod hf $$ HP with ⟨Hcg, Htk⟩
  imodintro
  isplitl [HH]; · iexact HH
  isplitl [Hcg Htk]
  · unfold Gp
    simp only [bigSep_sep']
    isplitl [Hcg]; · iexact Hcg
    iexact Htk
  iempintro

/-! ## The final memory -/

/-- What the TensorCore holds at the return: its unscoped buffers at the last valuation, the generator register. -/
abbrev FINof (Wn : Dev nD → Valuation τ sig (Elt F)) (d : Dev nD) : sProp (MM F) :=
  iprop(StableHlo.held (SparseCore.T d) UC (Wn d) ∗ ∃ r, prngReg d r)

set_option backward.isDefEq.respectTransparency.types false in
theorem hfin (Wn : Dev nD → Valuation τ sig (Elt F)) (d : Dev nD) (s' : Phys nD τ sig (Elt F)) :
    iprop(FINof Wn d ∗ SI s') ⊢ (⌜∀ b ∈ UC, s'.mem.mem (d, b) = Wn d b⌝ : sProp (MM F)) := by
  have hr := pointsTo_read_all (Ix := HIx 1) (Name := ℕ) (U := UU) (Lvl := ℕ) UC (fun b => ((d, b) : Loc nD τ sig)) (Wn d) s'
  iintro ⟨⟨Hh, -⟩, HSI⟩
  unfold StableHlo.held
  ihave H := hr $$ [Hh HSI]
  · isplitl [Hh]; · iexact Hh
    iexact HSI
  icases H with ⟨%h, -⟩
  ipureintro; exact h

/-! ## The program's run -/

set_option backward.isDefEq.respectTransparency.types false in
/-- The launch theorem at this program: from any memory with zero counters, every weakly fair execution of @main on the
    TensorCore and of the pair kernel on the thirty-two vector subcores terminates, nothing faulting, and every final
    state has each unscoped TensorCore buffer at the last boundary's contents. -/
theorem run_of [∀ e, Nonempty (Elt F e)] [Py.IsStorable] (hheld : Py.held = ∅)
    (hx : (bigSep Finset.univ fun thr : Thread nD τ => bigSep Finset.univ fun q : Fin 1 => Py.x q thr) = (iprop(emp) : sProp (MM F)))
    (htile : (K (F := F)).TileObl (D (F := F)) 𝒱 Py v₀ 0) (hvec : (K (F := F)).VecSplit' Py 0)
    (hpre0 : ∀ d, Tst (F := F) d (StableHlo.after ops0 (W0 m d)) 0 ⊢ R0.pre d)
    (hpost0 : ∀ d, R0.post d ⊢ Tst (F := F) d (W2 d) 0)
    (hst : ∀ d, StableHlo.held (SparseCore.T d) UC (StableHlo.after ops1 (W2 d)) ⊢ iprop((bigSep Finset.univ fun c : Fin ((K (F := F)).nCore 0) => Py.st 0 d c) ∗ Keep d))
    (hdn : ∀ d, iprop((bigSep Finset.univ fun c : Fin ((K (F := F)).nCore 0) => Py.dn 0 d c) ∗ Keep d) ⊢ StableHlo.held (SparseCore.T d) UC (W4 d))
    (hpre1 : ∀ d, Tst (F := F) d (StableHlo.after ops2 (W4 d)) 1 ⊢ R1.pre d)
    (hpost1 : ∀ d, R1.post d ⊢ Tst (F := F) d (W6 d) 1) :
    θ_run (Cert.Kernel.defs (F := F)) (Cert.Kernel.threads (F := F)) ⟨m, fun _ => 0, g⟩
      (fun r => ∀ d : Dev nD, ∀ b ∈ UC, r.2.mem (d, b) = StableHlo.after ops3 (W6 d) b) :=
  SparseCore.Cfg.θ_run_sc (K := K (F := F)) (D := D (F := F)) (𝒱 := 𝒱) (EH := EH) (P := Py) facts v₀
    (fun q hq => match q with | 0 => nomatch hq)
    (fun q hq => match q with | 0 => htile)
    (fun q hq => match q with | 0 => SparseCore.Cfg.VecSplit.of_plain hvec)
    m g main (fun d => Gp (F := F) d) (FINof fun d => StableHlo.after ops3 (W6 d)) (u₀ (F := F))
    (sep_elim_left.trans (hu₀ Py hx))
    (fun κ d => hmain_of m g Py pdats R0 R1 (FINof fun d => StableHlo.after ops3 (W6 d)) W2 W4 W6 Keep κ d
      (hpre0 d) (hpost0 d) (hst d) (hdn d) (hpre1 d) (hpost1 d) .rfl)
    (fun d s' => ∀ b ∈ UC, s'.mem.mem (d, b) = StableHlo.after ops3 (W6 d) b)
    (fun d s' => hfin (fun d => StableHlo.after ops3 (W6 d)) d s')
    _ (fun _ h => h) hheld

end Main

end Cert.Kernel.Sc.Launch

end
-- ==== Proof.TileDefsB.lean ====
/-
  The SparseCore kernel of the one call, as the launch theorem's handshakes see it: the places, the shares of the three
  arrays every vector subcore reads, the 160 blocks of 4000 pairs the two result columns are written in, the values
  written, and the record of what the handshakes carry.

  Vector subcore (c, s) of the grid [2, 16] is worker 2 s + c; it owns the pairs 20000 (2 s + c) + 4000 r + [0, 4000)
  for r = 0..4. Pair p's first result is the sum of the table's words 4 a and 4 b + 2, its second of the words
  4 a + 1 and 4 b + 3, where a and b are the pair's two index words.
-/
import proofs.«208457_g31284541784245_cont_9to1_2229_14_alg».proof.Proof.ScBaseB
import Idealize.ShloMosaic.Lib.ValueIdx

noncomputable section

namespace Cert.Kernel.Sc.Tile

open Cert.Kernel Cert.Kernel.Gen Cert.Kernel.Sc

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Transfers (shareTok shareDrop pointsTo_toks_split pointsTo_toks_join)

variable {F : FTy → Type}

/-! ## The five arrays of the call, as the TensorCore names them -/

abbrev tLoc (d : Dev nD) : Loc nD τ sig := (SparseCore.T d).loc main_v9
abbrev aLoc (d : Dev nD) : Loc nD τ sig := (SparseCore.T d).loc main_v11
abbrev bLoc (d : Dev nD) : Loc nD τ sig := (SparseCore.T d).loc main_v13
abbrev yLoc (d : Dev nD) : Loc nD τ sig := (SparseCore.T d).loc main_v14_0
abbrev zLoc (d : Dev nD) : Loc nD τ sig := (SparseCore.T d).loc main_v14_1

/-! ## The values written -/

/-- The table's index at a natural-number position (wrapping at the table's length; the positions read are below it). -/
def tabIx (n : ℕ) : S40000.Idx := Idealize.ShloMosaic.ValueIdx.ix1 (⟨n % 40000, Nat.mod_lt _ (by decide)⟩ : Fin 40000)

theorem tabIx_val {n : ℕ} (h : n < 40000) : ((tabIx n) 0).val = n := by
  show n % 40000 = n
  exact Nat.mod_eq_of_lt h

/-- The first result column: pair `p` gets the table's word `4 a` plus its word `4 b + 2`. -/
def z0Of [FloatOps F] (TAB : Vec F S40000 .f32) (A B : IVec S640000 32) : Vec F S640000 .f32 :=
  fun p => FloatOps.addf (φ := .f32) (TAB (tabIx (4 * (A p).toNat))) (TAB (tabIx (4 * (B p).toNat + 2)))
/-- The second result column: pair `p` gets the table's word `4 a + 1` plus its word `4 b + 3`. -/
def z1Of [FloatOps F] (TAB : Vec F S40000 .f32) (A B : IVec S640000 32) : Vec F S640000 .f32 :=
  fun p => FloatOps.addf (φ := .f32) (TAB (tabIx (4 * (A p).toNat + 1))) (TAB (tabIx (4 * (B p).toNat + 3)))

/-! ## The blocks of the result columns -/

/-- Where block `r` of vector subcore `(c, s)` starts. -/
def chunkOff (c : Fin 2) (s : Fin 16) (r : Fin 5) : Fin 1 → ℕ := ![40000 * s.val + 20000 * c.val + 4000 * r.val]
theorem chunk_inb (c : Fin 2) (s : Fin 16) (r : Fin 5) : ∀ a, chunkOff c s r a + S4000.size a ≤ S640000.size a := by
  intro a; obtain rfl : a = 0 := Subsingleton.elim _ _
  show 40000 * s.val + 20000 * c.val + 4000 * r.val + 4000 ≤ 640000
  omega
abbrev chunkRect (c : Fin 2) (s : Fin 16) (r : Fin 5) : Rect S640000 := Rect.unit (s := S640000) (chunkOff c s r) S4000.size (chunk_inb c s r)
/-- The pairs of block `r` of vector subcore `(c, s)`. -/
abbrev chunk (c : Fin 2) (s : Fin 16) (r : Fin 5) : Finset S640000.Idx := (chunkRect c s r).set

theorem mem_chunk {c : Fin 2} {s : Fin 16} {r : Fin 5} {p : S640000.Idx} :
    p ∈ chunk c s r ↔ 40000 * s.val + 20000 * c.val + 4000 * r.val ≤ (p 0).val ∧ (p 0).val < 40000 * s.val + 20000 * c.val + 4000 * r.val + 4000 := by
  unfold chunk chunkRect
  rw [Rect.mem_set_unit]
  constructor
  · intro h; exact h 0
  · intro h a; obtain rfl : a = 0 := Subsingleton.elim _ _; exact h

/-! ## What the handshakes carry -/

section Pay

variable [FloatOps F]
variable (TAB : (d : Dev nD) → Buf (Elt F) (tLoc d)) (IA : (d : Dev nD) → Buf (Elt F) (aLoc d)) (IB : (d : Dev nD) → Buf (Elt F) (bLoc d))

/-- The share of the read arrays a SparseCore is handed, and a vector subcore of it. -/
abbrev qC (c : Fin 2) : PosShare TreeShare := shareTok fullShare 2 c
abbrev qT (c : Fin 2) (s : Fin 16) : PosShare TreeShare := shareTok (qC c) 16 s

/-- The two result columns after the call. -/
def Z0 (d : Dev nD) : Buf (Elt F) (yLoc d) := z0Of (F := F) (TAB d) (IA d) (IB d)
def Z1 (d : Dev nD) : Buf (Elt F) (zLoc d) := z1Of (F := F) (TAB d) (IA d) (IB d)

/-- The table and the two index arrays, whole, at share `q`. -/
abbrev rd (d : Dev nD) (q : PosShare TreeShare) : sProp (MM F) :=
  iprop((tLoc d ↦{q} TAB d) ∗ (aLoc d ↦{q} IA d) ∗ (bLoc d ↦{q} IB d))
/-- A vector subcore's five blocks of each result column: at some contents; at the values. -/
abbrev outIn (d : Dev nD) (c : Fin 2) (s : Fin 16) : sProp (MM F) :=
  iprop((bigSep Finset.univ fun r : Fin 5 => iprop(∃ f, yLoc d ↦[chunk c s r]{fullShare} f))
    ∗ (bigSep Finset.univ fun r : Fin 5 => iprop(∃ f, zLoc d ↦[chunk c s r]{fullShare} f)))
abbrev outDn (d : Dev nD) (c : Fin 2) (s : Fin 16) : sProp (MM F) :=
  iprop((bigSep Finset.univ fun r : Fin 5 => yLoc d ↦[chunk c s r]{fullShare} Z0 TAB IA IB d)
    ∗ (bigSep Finset.univ fun r : Fin 5 => zLoc d ↦[chunk c s r]{fullShare} Z1 TAB IA IB d))

/-- The one call: SparseCore `c` is handed a share of the table and of the two index arrays and its sixteen vector
    subcores' blocks of the result columns, and hands back the shares and the blocks at the values; a vector subcore
    likewise, its own share and its own blocks. Nothing is dealt at the launch. -/
def P : (K (F := F)).Pay (nD := nD) (Val := Elt F) (Name := ℕ) (U := UU) where
  st := fun q d c => match q with
    | 0 => iprop(rd TAB IA IB d (qC (Fin.cast nCore_zero c)) ∗ bigSep Finset.univ fun s : Fin 16 => outIn d (Fin.cast nCore_zero c) s)
  dn := fun q d c => match q with
    | 0 => iprop(rd TAB IA IB d (qC (Fin.cast nCore_zero c)) ∗ bigSep Finset.univ fun s : Fin 16 => outDn TAB IA IB d (Fin.cast nCore_zero c) s)
  go := fun q d c i => match q with
    | 0 => iprop(rd TAB IA IB d (qT (Fin.cast nCore_zero c) (Fin.cast nSub_zero i)) ∗ outIn d (Fin.cast nCore_zero c) (Fin.cast nSub_zero i))
  td := fun q d c i => match q with
    | 0 => iprop(rd TAB IA IB d (qT (Fin.cast nCore_zero c) (Fin.cast nSub_zero i)) ∗ outDn TAB IA IB d (Fin.cast nCore_zero c) (Fin.cast nSub_zero i))
  x := fun _ _ => iprop(emp)

instance P_storable : (P (F := F) TAB IA IB).IsStorable where
  st q d c := match q with
    | 0 => (inferInstance : BI.Storable (upEmb : UEmb _ (MM F))
        iprop(rd TAB IA IB d (qC (Fin.cast nCore_zero c)) ∗ bigSep Finset.univ fun s : Fin 16 => outIn d (Fin.cast nCore_zero c) s))
  dn q d c := match q with
    | 0 => (inferInstance : BI.Storable (upEmb : UEmb _ (MM F))
        iprop(rd TAB IA IB d (qC (Fin.cast nCore_zero c)) ∗ bigSep Finset.univ fun s : Fin 16 => outDn TAB IA IB d (Fin.cast nCore_zero c) s))
  go q d c i := match q with
    | 0 => (inferInstance : BI.Storable (upEmb : UEmb _ (MM F))
        iprop(rd TAB IA IB d (qT (Fin.cast nCore_zero c) (Fin.cast nSub_zero i)) ∗ outIn d (Fin.cast nCore_zero c) (Fin.cast nSub_zero i)))
  td q d c i := match q with
    | 0 => (inferInstance : BI.Storable (upEmb : UEmb _ (MM F))
        iprop(rd TAB IA IB d (qT (Fin.cast nCore_zero c) (Fin.cast nSub_zero i)) ∗ outDn TAB IA IB d (Fin.cast nCore_zero c) (Fin.cast nSub_zero i)))

/-- What the proof asks of the two index arrays: every word names a node. -/
def IdxOK : Prop := ∀ (d : Dev nD) (p : S640000.Idx), ((IA d : IVec S640000 32) p).toNat < 10000 ∧ ((IB d : IVec S640000 32) p).toNat < 10000

omit [FloatOps F] in
theorem bigSep_emp' {I : Type} (s : Finset I) : (bigSep s fun _ => iprop(emp)) = (iprop(emp) : sProp (MM F)) := bigSep_emp_const s

/-- Nothing is dealt at the launch for this kernel. -/
theorem Px_emp : (bigSep Finset.univ fun thr : Thread nD τ => bigSep Finset.univ fun q : Fin 1 => (P (F := F) TAB IA IB).x q thr) = (iprop(emp) : sProp (MM F)) := by
  show (bigSep Finset.univ fun _ : Thread nD τ => bigSep Finset.univ fun _ : Fin 1 => (iprop(emp) : sProp (MM F))) = _
  rw [bigSep_congr fun _ _ => bigSep_emp' _, bigSep_emp']

end Pay

end Cert.Kernel.Sc.Tile

end
-- ==== Proof.MlpDatB.lean ====
/-
  The dense layers' call (pipeline 0) as a kernel region, first half: what each window's staging buffer holds at a
  grid point, the body's triple, the proof data and the body obligation.

  The call has ten grid points. At point t the first window stages rows 1000 t .. 1000 t + 999 of the node
  features; the six parameter windows (two weight matrices and their bias rows, the classifier laid side by side,
  its bias row) have one block each, staged once; the output window receives 1000 rows of four columns and is
  written back at every point. The body loads every staged block whole, computes one value of the output block
  (`k0_pay1`: three matrix products into zero accumulators, two rectifiers, three bias additions) and stores it
  whole. So after the body the output's staging buffer holds that value of the seven staged blocks and the inputs'
  buffers hold what they held.

  The core may owe units to other threads while the region runs: the tallies `O` and the bound `B` on its recorded
  pairs are parameters, and the body, which waits on nothing and signals nothing, hands both back unchanged.
-/
import proofs.«208457_g31284541784245_cont_9to1_2229_14_alg».proof.Proof.ScBaseB
import proofs.«208457_g31284541784245_cont_9to1_2229_14_alg».proof.Proof.Gen.Kernel.Launch
import proofs.«208457_g31284541784245_cont_9to1_2229_14_alg».proof.Proof.Gen.Kernel.Skeleton
import proofs.«208457_g31284541784245_cont_9to1_2229_14_alg».proof.Proof.Gen.Kernel.Points

import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Sc.Mlp

open Cert.Kernel Cert.Kernel.Gen
open Idealize.ShloMosaic Idealize.ShloMosaic.TcCoe Idealize.ShloMosaic.Tactic
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MM F

/-- The class invariant at the index type of this certificate: the core's scoped buffers that are no staging buffer
    of the call, at some contents each, and its generator register at some state. -/
def ΦA0 (c : Dev nD) : sProp 𝕄 :=
  iprop(Pipeline.scopedRest (Ix := HIx 1) (Name := ℕ) (U := UU) (Lvl := ℕ) (Val := Elt F) spec0 c ∗ ∃ r, prngReg c r)

section Region
-- the TensorCore's buffer contents when the region is entered, what it owes and the bound on its recorded pairs
variable (V : (c : Dev nD) → (b : Ref sig .tc) → Buf (Elt F) ((c : Thread nD τ).loc b))
  (O : Dev nD → CellTallies nD τ sig (HIx 1)) (B : Dev nD → Set (SemLoc sig × HIx 1))

/-! ## The windows' blocks -/

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Input window 0's current staging buffer holds its block at every point, fetched there or not, for any proof
    data whose array is `V`'s and whose body leaves the block in place: unfetched, the block index has not moved. -/
theorem before0_of {c : Dev nD} (dat : Dat τ (Elt F) (HIx 1) ℕ UU ℕ cfg0 c) (hA : dat.A 0 = V c (Pipeline.arrRef spec0 0))
    (hafter : ∀ t, dat.after 0 t = iblk V c 0 t) (t : Fin cfg0.N) (d) : dat.before 0 t d = iblk V c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)

/-- Input window 1's current staging buffer holds its block at every point, fetched there or not, for any proof
    data whose array is `V`'s and whose body leaves the block in place: unfetched, the block index has not moved. -/
theorem before1_of {c : Dev nD} (dat : Dat τ (Elt F) (HIx 1) ℕ UU ℕ cfg0 c) (hA : dat.A 1 = V c (Pipeline.arrRef spec0 1))
    (hafter : ∀ t, dat.after 1 t = iblk V c 1 t) (t : Fin cfg0.N) (d) : dat.before 1 t d = iblk V c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)

/-- Input window 2's current staging buffer holds its block at every point, fetched there or not, for any proof
    data whose array is `V`'s and whose body leaves the block in place: unfetched, the block index has not moved. -/
theorem before2_of {c : Dev nD} (dat : Dat τ (Elt F) (HIx 1) ℕ UU ℕ cfg0 c) (hA : dat.A 2 = V c (Pipeline.arrRef spec0 2))
    (hafter : ∀ t, dat.after 2 t = iblk V c 2 t) (t : Fin cfg0.N) (d) : dat.before 2 t d = iblk V c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)

/-- Input window 3's current staging buffer holds its block at every point, fetched there or not, for any proof
    data whose array is `V`'s and whose body leaves the block in place: unfetched, the block index has not moved. -/
theorem before3_of {c : Dev nD} (dat : Dat τ (Elt F) (HIx 1) ℕ UU ℕ cfg0 c) (hA : dat.A 3 = V c (Pipeline.arrRef spec0 3))
    (hafter : ∀ t, dat.after 3 t = iblk V c 3 t) (t : Fin cfg0.N) (d) : dat.before 3 t d = iblk V c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)

/-- Input window 4's current staging buffer holds its block at every point, fetched there or not, for any proof
    data whose array is `V`'s and whose body leaves the block in place: unfetched, the block index has not moved. -/
theorem before4_of {c : Dev nD} (dat : Dat τ (Elt F) (HIx 1) ℕ UU ℕ cfg0 c) (hA : dat.A 4 = V c (Pipeline.arrRef spec0 4))
    (hafter : ∀ t, dat.after 4 t = iblk V c 4 t) (t : Fin cfg0.N) (d) : dat.before 4 t d = iblk V c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)

/-- Input window 5's current staging buffer holds its block at every point, fetched there or not, for any proof
    data whose array is `V`'s and whose body leaves the block in place: unfetched, the block index has not moved. -/
theorem before5_of {c : Dev nD} (dat : Dat τ (Elt F) (HIx 1) ℕ UU ℕ cfg0 c) (hA : dat.A 5 = V c (Pipeline.arrRef spec0 5))
    (hafter : ∀ t, dat.after 5 t = iblk V c 5 t) (t : Fin cfg0.N) (d) : dat.before 5 t d = iblk V c 5 t :=
  (dat.before_in_eq_fetched 5 rfl (fun _ => rfl) (fun _ _ _ => rfl) (fun t => by rw [hafter]; unfold Dat.blockOf iblk; rw [hA]; try rfl) t d).trans
    (by unfold Dat.fetched Dat.blockOf iblk; rw [hA]; try rfl)

/-- Input window 6's current staging buffer holds its block at every point, fetched there or not, for any proof
    data whose array is `V`'s and whose body leaves the block in place: unfetched, the block index has not moved. -/
theorem before6_of {c : Dev nD} (dat : Dat τ (Elt F) (HIx 1) ℕ UU ℕ cfg0 c) (hA : dat.A 6 = V c (Pipeline.arrRef spec0 6))
    (hafter : ∀ t, dat.after 6 t = iblk V c 6 t) (t : Fin cfg0.N) (d) : dat.before 6 t d = iblk V c 6 t :=
  (dat.before_in_eq_fetched 6 rfl (fun _ => rfl) (fun _ _ _ => rfl) (fun t => by rw [hafter]; unfold Dat.blockOf iblk; rw [hA]; try rfl) t d).trans
    (by unfold Dat.fetched Dat.blockOf iblk; rw [hA]; try rfl)

/-! ## The body's accesses: each staging buffer whole -/

abbrev rS1000x768 : Rect S1000x768 := Rect.unit (s := S1000x768) ![0, 0] S1000x768.size inb_S1000x768_S1000x768_0_0
abbrev rS768x64 : Rect S768x64 := Rect.unit (s := S768x64) ![0, 0] S768x64.size inb_S768x64_S768x64_0_0
abbrev rS1x64 : Rect S1x64 := Rect.unit (s := S1x64) ![0, 0] S1x64.size inb_S1x64_S1x64_0_0
abbrev rS64x64 : Rect S64x64 := Rect.unit (s := S64x64) ![0, 0] S64x64.size inb_S64x64_S64x64_0_0
abbrev rS64x4 : Rect S64x4 := Rect.unit (s := S64x4) ![0, 0] S64x4.size inb_S64x4_S64x4_0_0
abbrev rS1x4 : Rect S1x4 := Rect.unit (s := S1x4) ![0, 0] S1x4.size inb_S1x4_S1x4_0_0
abbrev rS1000x4 : Rect S1000x4 := Rect.unit (s := S1000x4) ![0, 0] S1000x4.size inb_S1000x4_S1000x4_0_0

/-! ## What the body leaves in the output's staging buffer -/

/-- The output's staging buffer after the body, from the seven staged blocks: its one store, of the whole buffer. -/
def out7 (x0 : Vec F S1000x768 .f32) (x1 : Vec F S768x64 .f32) (x2 : Vec F S1x64 .f32) (x3 : Vec F S64x64 .f32) (x4 : Vec F S1x64 .f32) (x5 : Vec F S64x4 .f32) (x6 : Vec F S1x4 .f32) : Vec F S1000x4 .f32 :=
  View.canon [⟨rS1000x4, k0_pay1 (View.ld x0 rS1000x768) (View.ld x1 rS768x64) (View.ld x2 rS1x64) (View.ld x3 rS64x64) (View.ld x4 rS1x64) (View.ld x5 rS64x4) (View.ld x6 rS1x4)⟩]

/-- The one store covers the buffer. -/
theorem cover7 (p0 : Vec F S1000x4 .f32) (y : S1000x4.Idx) :
    ∃ pc ∈ ([⟨rS1000x4, p0⟩] : List (View.Piece (Elt F) S1000x4 .f32)), y ∈ pc.1.set :=
  View.cover_of_tiled [⟨rS1000x4, p0⟩] S1000x4.size (by rfl) y

/-! ## The body's triple -/

set_option maxHeartbeats 1000000 in
/-- The body on whole staging memrefs, the inputs' at contents `x0 .. x6` and the output's at anything, runs to the
    continuation holding the inputs' as they were and the output's at `out7` of them. -/
theorem sound_kernel (c : Dev nD) (E : Set ℕ) (i : grid0.Coords) (a0 : Memref sig .tc .vmem S1000x768 .f32) (h0 : a0.IsWhole) (a1 : Memref sig .tc .vmem S768x64 .f32) (h1 : a1.IsWhole) (a2 : Memref sig .tc .vmem S1x64 .f32) (h2 : a2.IsWhole) (a3 : Memref sig .tc .vmem S64x64 .f32) (h3 : a3.IsWhole) (a4 : Memref sig .tc .vmem S1x64 .f32) (h4 : a4.IsWhole) (a5 : Memref sig .tc .vmem S64x4 .f32) (h5 : a5.IsWhole) (a6 : Memref sig .tc .vmem S1x4 .f32) (h6 : a6.IsWhole) (a7 : Memref sig .tc .vmem S1000x4 .f32) (h7 : a7.IsWhole)
    (x0 : Vec F S1000x768 .f32) (x1 : Vec F S768x64 .f32) (x2 : Vec F S1x64 .f32) (x3 : Vec F S64x64 .f32) (x4 : Vec F S1x64 .f32) (x5 : Vec F S64x4 .f32) (x6 : Vec F S1x4 .f32) (K : PUnit → sProp 𝕄) :
    iprop(owns (c : Thread nD τ) a0 fullShare x0 ∗ owns (c : Thread nD τ) a1 fullShare x1 ∗ owns (c : Thread nD τ) a2 fullShare x2 ∗ owns (c : Thread nD τ) a3 fullShare x3 ∗ owns (c : Thread nD τ) a4 fullShare x4 ∗ owns (c : Thread nD τ) a5 fullShare x5 ∗ owns (c : Thread nD τ) a6 fullShare x6 ∗ (∃ d, owns (c : Thread nD τ) a7 fullShare d)
        ∗ (iprop(owns (c : Thread nD τ) a0 fullShare x0 ∗ owns (c : Thread nD τ) a1 fullShare x1 ∗ owns (c : Thread nD τ) a2 fullShare x2 ∗ owns (c : Thread nD τ) a3 fullShare x3 ∗ owns (c : Thread nD τ) a4 fullShare x4 ∗ owns (c : Thread nD τ) a5 fullShare x5 ∗ owns (c : Thread nD τ) a6 fullShare x6 ∗ owns (c : Thread nD τ) a7 fullShare (out7 x0 x1 x2 x3 x4 x5 x6)) -∗ K ⟨⟩))
      ⊢ wp frame (wpE (defs₀ (F := F)) Variants.none c none) E (cc0__mlp_body i a0 h0 a1 h1 a2 h2 a3 h3 a4 h4 a5 h5 a6 h6 a7 h7) K := by
  simp only [cc0__mlp_body_eq_skeleton]; unfold cc0__mlp_body_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, Hk⟩
  subst hf0; subst hf1; subst hf2; subst hf3; subst hf4; subst hf5; subst hf6
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  iexists _; isplitr
  swap; · iexact H7
  ipureintro
  exact View.read_writes_eq_canon _ _ _ (cover7 _)

/-! ## The proof data -/

/-- The proof data of the call on core `c`: the arrays as the region finds them; after the body at point `t` each
    input's buffer at its block and the output's at `out7` of the input blocks; the class invariant; full shares;
    the core owing `O c` throughout, its recorded pairs within `B c`. -/
def dat0 (c : Dev nD) : Dat τ (Elt F) (HIx 1) ℕ UU ℕ cfg0 c where
  A w := V c (Pipeline.arrRef spec0 w)
  after w t := match w with
    | ⟨0, _⟩ => iblk V c 0 t
    | ⟨1, _⟩ => iblk V c 1 t
    | ⟨2, _⟩ => iblk V c 2 t
    | ⟨3, _⟩ => iblk V c 3 t
    | ⟨4, _⟩ => iblk V c 4 t
    | ⟨5, _⟩ => iblk V c 5 t
    | ⟨6, _⟩ => iblk V c 6 t
    | ⟨7, _⟩ => out7 (iblk V c 0 t) (iblk V c 1 t) (iblk V c 2 t) (iblk V c 3 t) (iblk V c 4 t) (iblk V c 5 t) (iblk V c 6 t)
  Φ _ := ΦA0 c
  q _ := fullShare
  owed _ := O c
  recorded _ := B c

theorem A_eq (c : Dev nD) (w : Fin cfg0.W) : (dat0 V O B c).A w = V c (Pipeline.arrRef spec0 w) := by
  dsimp only [dat0]

theorem after0 (c : Dev nD) (t : Fin cfg0.N) : (dat0 V O B c).after 0 t = iblk V c 0 t := by dsimp only [dat0]
theorem after1 (c : Dev nD) (t : Fin cfg0.N) : (dat0 V O B c).after 1 t = iblk V c 1 t := by dsimp only [dat0]
theorem after2 (c : Dev nD) (t : Fin cfg0.N) : (dat0 V O B c).after 2 t = iblk V c 2 t := by dsimp only [dat0]
theorem after3 (c : Dev nD) (t : Fin cfg0.N) : (dat0 V O B c).after 3 t = iblk V c 3 t := by dsimp only [dat0]
theorem after4 (c : Dev nD) (t : Fin cfg0.N) : (dat0 V O B c).after 4 t = iblk V c 4 t := by dsimp only [dat0]
theorem after5 (c : Dev nD) (t : Fin cfg0.N) : (dat0 V O B c).after 5 t = iblk V c 5 t := by dsimp only [dat0]
theorem after6 (c : Dev nD) (t : Fin cfg0.N) : (dat0 V O B c).after 6 t = iblk V c 6 t := by dsimp only [dat0]
theorem after7 (c : Dev nD) (t : Fin cfg0.N) : (dat0 V O B c).after 7 t = out7 (iblk V c 0 t) (iblk V c 1 t) (iblk V c 2 t) (iblk V c 3 t) (iblk V c 4 t) (iblk V c 5 t) (iblk V c 6 t) := by dsimp only [dat0]

theorem before0 (c : Dev nD) (t : Fin cfg0.N) (d) : (dat0 V O B c).before 0 t d = iblk V c 0 t :=
  before0_of V (dat0 V O B c) (A_eq V O B c 0) (after0 V O B c) t d
theorem before1 (c : Dev nD) (t : Fin cfg0.N) (d) : (dat0 V O B c).before 1 t d = iblk V c 1 t :=
  before1_of V (dat0 V O B c) (A_eq V O B c 1) (after1 V O B c) t d
theorem before2 (c : Dev nD) (t : Fin cfg0.N) (d) : (dat0 V O B c).before 2 t d = iblk V c 2 t :=
  before2_of V (dat0 V O B c) (A_eq V O B c 2) (after2 V O B c) t d
theorem before3 (c : Dev nD) (t : Fin cfg0.N) (d) : (dat0 V O B c).before 3 t d = iblk V c 3 t :=
  before3_of V (dat0 V O B c) (A_eq V O B c 3) (after3 V O B c) t d
theorem before4 (c : Dev nD) (t : Fin cfg0.N) (d) : (dat0 V O B c).before 4 t d = iblk V c 4 t :=
  before4_of V (dat0 V O B c) (A_eq V O B c 4) (after4 V O B c) t d
theorem before5 (c : Dev nD) (t : Fin cfg0.N) (d) : (dat0 V O B c).before 5 t d = iblk V c 5 t :=
  before5_of V (dat0 V O B c) (A_eq V O B c 5) (after5 V O B c) t d
theorem before6 (c : Dev nD) (t : Fin cfg0.N) (d) : (dat0 V O B c).before 6 t d = iblk V c 6 t :=
  before6_of V (dat0 V O B c) (A_eq V O B c 6) (after6 V O B c) t d

/-! ## The body obligation, at a generic point -/

/-- What the body is called with at point `t`, the windows one by one, -/
def bodyPre (c : Dev nD) (t : Fin cfg0.N) : sProp 𝕄 :=
  iprop((dat0 V O B c).Φ t.castSucc ∗ (dat0 V O B c).owesAt none t.castSucc
    ∗ (∃ d, owns (c : Thread nD τ) (st0_0 t) fullShare ((dat0 V O B c).before 0 t d))
    ∗ (∃ d, owns (c : Thread nD τ) (st0_1 t) fullShare ((dat0 V O B c).before 1 t d))
    ∗ (∃ d, owns (c : Thread nD τ) (st0_2 t) fullShare ((dat0 V O B c).before 2 t d))
    ∗ (∃ d, owns (c : Thread nD τ) (st0_3 t) fullShare ((dat0 V O B c).before 3 t d))
    ∗ (∃ d, owns (c : Thread nD τ) (st0_4 t) fullShare ((dat0 V O B c).before 4 t d))
    ∗ (∃ d, owns (c : Thread nD τ) (st0_5 t) fullShare ((dat0 V O B c).before 5 t d))
    ∗ (∃ d, owns (c : Thread nD τ) (st0_6 t) fullShare ((dat0 V O B c).before 6 t d))
    ∗ (∃ d, owns (c : Thread nD τ) (st0_7 t) fullShare ((dat0 V O B c).before 7 t d)))

/-- and what it returns. -/
def bodyPost (c : Dev nD) (t : Fin cfg0.N) : sProp 𝕄 :=
  iprop((dat0 V O B c).Φ t.succ ∗ (dat0 V O B c).owesAt none t.succ
    ∗ owns (c : Thread nD τ) (st0_0 t) fullShare ((dat0 V O B c).after 0 t)
    ∗ owns (c : Thread nD τ) (st0_1 t) fullShare ((dat0 V O B c).after 1 t)
    ∗ owns (c : Thread nD τ) (st0_2 t) fullShare ((dat0 V O B c).after 2 t)
    ∗ owns (c : Thread nD τ) (st0_3 t) fullShare ((dat0 V O B c).after 3 t)
    ∗ owns (c : Thread nD τ) (st0_4 t) fullShare ((dat0 V O B c).after 4 t)
    ∗ owns (c : Thread nD τ) (st0_5 t) fullShare ((dat0 V O B c).after 5 t)
    ∗ owns (c : Thread nD τ) (st0_6 t) fullShare ((dat0 V O B c).after 6 t)
    ∗ owns (c : Thread nD τ) (st0_7 t) fullShare ((dat0 V O B c).after 7 t))

/-- The body at any point: the inputs' memrefs hold their blocks, so the triple applies; the invariant and what the
    core owes pass through unread. -/
theorem sound_body (c : Dev nD) (t : Fin cfg0.N) :
    bodyPre V O B c t ⊢ wp frame (wpE (defs₀ (F := F)) Variants.none c none) Set.univ (bodyAt0 t) (fun _ => bodyPost V O B c t) := by
  unfold bodyPre bodyPost bodyAt0
  simp only [before0, before1, before2, before3, before4, before5, before6]
  rw [show (dat0 V O B c).Φ t.succ = (dat0 V O B c).Φ t.castSucc from rfl,
    show (dat0 V O B c).owesAt none t.succ = (dat0 V O B c).owesAt none t.castSucc from rfl,
    after0, after1, after2, after3, after4, after5, after6, after7]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩⟩
  iapply (sound_kernel c Set.univ _ _ _ _ _ _ _ _ _ _ _ _ _ _ _ _ _ (iblk V c 0 t) (iblk V c 1 t) (iblk V c 2 t) (iblk V c 3 t) (iblk V c 4 t) (iblk V c 5 t) (iblk V c 6 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexists _; iexact H7
  iintro ⟨H0, H1, H2, H3, H4, H5, H6, H7⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  iexact H7

/-- The library's body obligation, at every point. -/
theorem body_obligation (c : Dev nD) : BodyObligation (dat0 (F := F) V O B c) (defs₀ (F := F)) Variants.none (none : HIx 1) Set.univ := fun t => by
  rw [bigSep_W0, bigSep_W0]
  exact sound_body V O B c t

end Region

end Cert.Kernel.Sc.Mlp

end
-- ==== Proof.LossBodyB.lean ====
/-
  The loss call's body (pipeline 1), run once per control case.

  The body loads the three staged blocks whole (two logit columns and the labels, 1000 x 128 each), and keeps a
  running sum in a one-word scratch: at the first grid point it zeroes the word; at every point it adds to the word
  the sum over the block of the cross entropy of the two logits at the label (`k2_pay1`: the block's 128000 terms
  reduced to one number and added to the word read back); at the last point it divides the word by the number of
  pairs and stores the quotient into the one-element output buffer (`k2_pay2`). Which of the two conditional
  stores run is decided by the grid coordinate alone, so the body has three cases: the first point, a middle point,
  the last point. Each is stated with the scratch word and the output buffer before and after.
-/
import proofs.«208457_g31284541784245_cont_9to1_2229_14_alg».proof.Proof.ScBaseB
import proofs.«208457_g31284541784245_cont_9to1_2229_14_alg».proof.Proof.Gen.Kernel.Launch
import proofs.«208457_g31284541784245_cont_9to1_2229_14_alg».proof.Proof.Gen.Kernel.Skeleton
import proofs.«208457_g31284541784245_cont_9to1_2229_14_alg».proof.Proof.Gen.Kernel.Points
import Idealize.ShloMosaic.Lib.Pipeline.Value
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Sc.Loss

open Cert.Kernel Cert.Kernel.Gen
open Idealize.ShloMosaic Idealize.ShloMosaic.TcCoe Idealize.ShloMosaic.Tactic
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MM F

/-- The offsets of the body's accesses are zeros, however spelt. -/
theorem hz1 : (![0] : Fin 1 → Nat) = fun _ => 0 := funext fun a => by fin_cases a; rfl
theorem hz2 : (![0, 0] : Fin 2 → Nat) = fun _ => 0 := funext fun a => by fin_cases a <;> rfl

abbrev rB : Rect S1000x128 := Rect.unit (s := S1000x128) ![0, 0] S1000x128.size inb_S1000x128_S1000x128_0_0
abbrev rS : Rect S1 := Rect.unit (s := S1) ![0] S1.size inb_S1_S1_0
abbrev rO : Rect S1x1 := Rect.unit (s := S1x1) ![0, 0] S1x1.size inb_S1x1_S1x1_0_0

/-- The one index of a one-word buffer. -/
abbrev i0 : S1.Idx := Shape.Idx.first (s := S1) (numel1_S1.symm ▸ Nat.one_pos)

/-- A one-word buffer has one index. -/
theorem idx1_eq (j j' : S1.Idx) : j = j' := funext fun a => Fin.ext (by
  have h1 : (j a).val < 1 := by have := (j a).isLt; fin_cases a; exact this
  have h2 : (j' a).val < 1 := by have := (j' a).isLt; fin_cases a; exact this
  omega)

/-- The first conditional's condition, from the grid coordinate: the point is the first. -/
abbrev cond1 (i : grid2.Coords) : Prop := (Scalar.cmpi .ne (Scalar.extui (Scalar.cmpi .eq (BitVec.ofNat 32 (i 0).val) 0#32)) 0#32) = 1#1
/-- The second's: the point is the last. -/
abbrev cond2 (i : grid2.Coords) : Prop := k2_cond2 i = 1#1

set_option maxHeartbeats 1000000 in
/-- A MIDDLE point (neither conditional runs): the scratch word `s` becomes the block's sum added to it; the output buffer is not touched. -/
theorem sound_mid (c : Dev nD) (E : Set ℕ) (i : grid2.Coords) (a0 : Memref sig .tc .vmem S1000x128 .f32) (h0 : a0.IsWhole) (a1 : Memref sig .tc .vmem S1000x128 .f32) (h1 : a1.IsWhole) (a2 : Memref sig .tc .vmem S1000x128 .i32) (h2 : a2.IsWhole) (a3 : Memref sig .tc .vmem S1x1 .f32) (h3 : a3.IsWhole) (a4 : Memref sig .tc .smem S1 .f32) (h4 : a4.IsWhole)
    (x0 x1 : Vec F S1000x128 .f32) (x2 : Vec F S1000x128 .i32) (xo : Vec F S1x1 .f32) (s : Vec F S1 .f32) (hc1 : ¬cond1 i) (hc2 : ¬cond2 i)
    (K : PUnit → sProp 𝕄) :
    iprop(owns (c : Thread nD τ) a0 fullShare x0 ∗ owns (c : Thread nD τ) a1 fullShare x1 ∗ owns (c : Thread nD τ) a2 fullShare x2
        ∗ owns (c : Thread nD τ) a3 fullShare xo ∗ owns (c : Thread nD τ) a4 fullShare s
        ∗ (iprop(owns (c : Thread nD τ) a0 fullShare x0 ∗ owns (c : Thread nD τ) a1 fullShare x1 ∗ owns (c : Thread nD τ) a2 fullShare x2
            ∗ owns (c : Thread nD τ) a3 fullShare xo ∗ owns (c : Thread nD τ) a4 fullShare (fun _ => k2_pay1 x0 x1 x2 (s i0))) -∗ K ⟨⟩))
      ⊢ wp frame (wpE (defs₀ (F := F)) Variants.none c none) E (cc2__loss_body i a0 h0 a1 h1 a2 h2 a3 h3 a4 h4) K := by
  simp only [cc2__loss_body_eq_skeleton]; unfold cc2__loss_body_skel
  unfold owns
  iintro ⟨⟨%f0, %hf0, H0⟩, ⟨%f1, %hf1, H1⟩, ⟨%f2, %hf2, H2⟩, ⟨%f3, %hf3, H3⟩, ⟨%f4, %hf4, H4⟩, Hk⟩
  obtain rfl := h0.eq_unread hf0; obtain rfl := h1.eq_unread hf1; obtain rfl := h2.eq_unread hf2
  obtain rfl := h3.eq_unread hf3; obtain rfl := h4.eq_unread hf4
  sl_exec (disch := first | exact hc1 | exact hc2)
  sl_step
  iapply Hk
  isplitl [H0]
  · iexists _; isplitr; · ipureintro; exact h0.read_unread _
    iexact H0
  isplitl [H1]
  · iexists _; isplitr; · ipureintro; exact h1.read_unread _
    iexact H1
  isplitl [H2]
  · iexists _; isplitr; · ipureintro; exact h2.read_unread _
    iexact H2
  isplitl [H3]
  · iexists _; isplitr; · ipureintro; exact h3.read_unread _
    iexact H3
  iexists _; isplitr
  swap; · iexact H4
  ipureintro
  rw [View.read_writes_eq_canon _ _ _ (fun y => ⟨_, List.mem_singleton_self _, View.mem_set_unit_zero hz1 inb_S1_S1_0 y⟩)]
  sl_unfold_run_names
  rw [View.canon_unit_zero hz1]
  simp only [View.readAt_eq_ld, h0.read_unread, h1.read_unread, h2.read_unread, h4.read_unread, View.ld_unit_zero (S := S1000x128) hz2]
  funext j
  exact congrArg (k2_pay1 x0 x1 x2) (congrArg s (idx1_eq _ _))

set_option maxHeartbeats 1000000 in
/-- The FIRST point (the first conditional runs): the scratch word, whatever it held, becomes the block's sum added to zero; the output buffer is not touched. -/
theorem sound_first (c : Dev nD) (E : Set ℕ) (i : grid2.Coords) (a0 : Memref sig .tc .vmem S1000x128 .f32) (h0 : a0.IsWhole) (a1 : Memref sig .tc .vmem S1000x128 .f32) (h1 : a1.IsWhole) (a2 : Memref sig .tc .vmem S1000x128 .i32) (h2 : a2.IsWhole) (a3 : Memref sig .tc .vmem S1x1 .f32) (h3 : a3.IsWhole) (a4 : Memref sig .tc .smem S1 .f32) (h4 : a4.IsWhole)
    (x0 x1 : Vec F S1000x128 .f32) (x2 : Vec F S1000x128 .i32) (xo : Vec F S1x1 .f32) (hc1 : cond1 i) (hc2 : ¬cond2 i)
    (K : PUnit → sProp 𝕄) :
    iprop(owns (c : Thread nD τ) a0 fullShare x0 ∗ owns (c : Thread nD τ) a1 fullShare x1 ∗ owns (c : Thread nD τ) a2 fullShare x2
        ∗ owns (c : Thread nD τ) a3 fullShare xo ∗ (∃ d, owns (c : Thread nD τ) a4 fullShare d)
        ∗ (iprop(owns (c : Thread nD τ) a0 fullShare x0 ∗ owns (c : Thread nD τ) a1 fullShare x1 ∗ owns (c : Thread nD τ) a2 fullShare x2
            ∗ owns (c : Thread nD τ) a3 fullShare xo ∗ owns (c : Thread nD τ) a4 fullShare (fun _ => k2_pay1 x0 x1 x2 (Scalar.ofBits .f32 0x00000000#32))) -∗ K ⟨⟩))
      ⊢ wp frame (wpE (defs₀ (F := F)) Variants.none c none) E (cc2__loss_body i a0 h0 a1 h1 a2 h2 a3 h3 a4 h4) K := by
  simp only [cc2__loss_body_eq_skeleton]; unfold cc2__loss_body_skel
  unfold owns
  iintro ⟨⟨%f0, %hf0, H0⟩, ⟨%f1, %hf1, H1⟩, ⟨%f2, %hf2, H2⟩, ⟨%f3, %hf3, H3⟩, ⟨%d4, %f4, -, H4⟩, Hk⟩
  obtain rfl := h0.eq_unread hf0; obtain rfl := h1.eq_unread hf1; obtain rfl := h2.eq_unread hf2
  obtain rfl := h3.eq_unread hf3
  sl_exec (disch := first | exact hc1 | exact hc2)
  sl_step
  iapply Hk
  isplitl [H0]
  · iexists _; isplitr; · ipureintro; exact h0.read_unread _
    iexact H0
  isplitl [H1]
  · iexists _; isplitr; · ipureintro; exact h1.read_unread _
    iexact H1
  isplitl [H2]
  · iexists _; isplitr; · ipureintro; exact h2.read_unread _
    iexact H2
  isplitl [H3]
  · iexists _; isplitr; · ipureintro; exact h3.read_unread _
    iexact H3
  iexists _; isplitr
  swap; · iexact H4
  ipureintro
  sl_unfold_run_names
  rw [View.read_writes_eq_canon _ _ _ (fun y => ⟨_, List.mem_cons.mpr (Or.inl rfl), View.mem_set_unit_zero hz1 inb_S1_S1_0 y⟩),
    View.canon_cons_unit_zero hz1]
  simp only [View.readAt_eq_ld, h0.read_unread, h1.read_unread, h2.read_unread, View.ld_unit_zero (S := S1000x128) hz2]
  rfl

set_option maxHeartbeats 1000000 in
/-- The LAST point (the second conditional runs): the scratch word `s` becomes the block's sum added to it, and the output buffer, whatever it held, that sum divided by the number of pairs. -/
theorem sound_last (c : Dev nD) (E : Set ℕ) (i : grid2.Coords) (a0 : Memref sig .tc .vmem S1000x128 .f32) (h0 : a0.IsWhole) (a1 : Memref sig .tc .vmem S1000x128 .f32) (h1 : a1.IsWhole) (a2 : Memref sig .tc .vmem S1000x128 .i32) (h2 : a2.IsWhole) (a3 : Memref sig .tc .vmem S1x1 .f32) (h3 : a3.IsWhole) (a4 : Memref sig .tc .smem S1 .f32) (h4 : a4.IsWhole)
    (x0 x1 : Vec F S1000x128 .f32) (x2 : Vec F S1000x128 .i32) (s : Vec F S1 .f32) (hc1 : ¬cond1 i) (hc2 : cond2 i)
    (K : PUnit → sProp 𝕄) :
    iprop(owns (c : Thread nD τ) a0 fullShare x0 ∗ owns (c : Thread nD τ) a1 fullShare x1 ∗ owns (c : Thread nD τ) a2 fullShare x2
        ∗ (∃ d, owns (c : Thread nD τ) a3 fullShare d) ∗ owns (c : Thread nD τ) a4 fullShare s
        ∗ (iprop(owns (c : Thread nD τ) a0 fullShare x0 ∗ owns (c : Thread nD τ) a1 fullShare x1 ∗ owns (c : Thread nD τ) a2 fullShare x2
            ∗ owns (c : Thread nD τ) a3 fullShare (k2_pay2 (k2_pay1 x0 x1 x2 (s i0))) ∗ owns (c : Thread nD τ) a4 fullShare (fun _ => k2_pay1 x0 x1 x2 (s i0))) -∗ K ⟨⟩))
      ⊢ wp frame (wpE (defs₀ (F := F)) Variants.none c none) E (cc2__loss_body i a0 h0 a1 h1 a2 h2 a3 h3 a4 h4) K := by
  simp only [cc2__loss_body_eq_skeleton]; unfold cc2__loss_body_skel
  unfold owns
  iintro ⟨⟨%f0, %hf0, H0⟩, ⟨%f1, %hf1, H1⟩, ⟨%f2, %hf2, H2⟩, ⟨%d3, %f3, -, H3⟩, ⟨%f4, %hf4, H4⟩, Hk⟩
  obtain rfl := h0.eq_unread hf0; obtain rfl := h1.eq_unread hf1; obtain rfl := h2.eq_unread hf2
  obtain rfl := h4.eq_unread hf4
  sl_exec (disch := first | exact hc1 | exact hc2)
  sl_step
  iapply Hk
  isplitl [H0]
  · iexists _; isplitr; · ipureintro; exact h0.read_unread _
    iexact H0
  isplitl [H1]
  · iexists _; isplitr; · ipureintro; exact h1.read_unread _
    iexact H1
  isplitl [H2]
  · iexists _; isplitr; · ipureintro; exact h2.read_unread _
    iexact H2
  isplitl [H3]
  · iexists _; isplitr
    swap; · iexact H3
    ipureintro
    sl_unfold_run_names
    rw [View.read_writes_eq_canon _ _ _ (fun y => ⟨_, List.mem_singleton_self _, View.mem_set_unit_zero hz2 inb_S1x1_S1x1_0_0 y⟩),
      View.canon_unit_zero hz2]
    simp only [View.readAt_eq_ld, h0.read_unread, h1.read_unread, h2.read_unread, h4.read_unread, View.ld_unit_zero (S := S1000x128) hz2]
    exact congrArg (fun z => k2_pay2 (k2_pay1 x0 x1 x2 z)) (congrArg s (idx1_eq _ _))
  iexists _; isplitr
  swap; · iexact H4
  ipureintro
  rw [View.read_writes_eq_canon _ _ _ (fun y => ⟨_, List.mem_singleton_self _, View.mem_set_unit_zero hz1 inb_S1_S1_0 y⟩)]
  sl_unfold_run_names
  rw [View.canon_unit_zero hz1]
  simp only [View.readAt_eq_ld, h0.read_unread, h1.read_unread, h2.read_unread, h4.read_unread, View.ld_unit_zero (S := S1000x128) hz2]
  funext j
  exact congrArg (k2_pay1 x0 x1 x2) (congrArg s (idx1_eq _ _))

end Cert.Kernel.Sc.Loss

end
-- ==== Proof.LossDatB.lean ====
/-
  The loss call (pipeline 1) as a kernel region, first half: the schedule of its two conditionals, the running
  sum its scratch word carries from point to point, the proof data and the body obligation.

  The call has five grid points. At point t the three input windows stage rows 1000 t .. 1000 t + 999 of the two
  logit columns and of the labels (each laid out 5000 x 128). After the body at point t the scratch word holds
  `acc t`: the block sums of points 0 .. t added up from zero in that order. The output window has one block of one
  element; the body stores into it at the last point only (the window is idle before, and written back after the
  last point only), and what it stores is `acc 4` divided by the number of pairs.

  What the core owes other threads, and the bound on its recorded pairs, are parameters the body hands back unchanged.
-/
import proofs.«208457_g31284541784245_cont_9to1_2229_14_alg».proof.Proof.ScBaseB
import proofs.«208457_g31284541784245_cont_9to1_2229_14_alg».proof.Proof.Gen.Kernel.Launch
import proofs.«208457_g31284541784245_cont_9to1_2229_14_alg».proof.Proof.Gen.Kernel.Skeleton
import proofs.«208457_g31284541784245_cont_9to1_2229_14_alg».proof.Proof.Gen.Kernel.Points
import proofs.«208457_g31284541784245_cont_9to1_2229_14_alg».proof.Proof.LossBodyB
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Sc.Loss

open Cert.Kernel Cert.Kernel.Gen
open Idealize.ShloMosaic Idealize.ShloMosaic.TcCoe Idealize.ShloMosaic.Tactic
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MM F

/-! ## The schedule, decided over the grid -/

/-- The first conditional runs at the first point only, the second at the last only. -/
theorem hcond1 : ∀ t : Fin cfg2.N, cond1 (grid2.coords t) ↔ t.val = 0 :=
  (by decide +kernel : ∀ t : Fin grid2.N, cond1 (grid2.coords t) ↔ t.val = 0)
theorem hcond2 : ∀ t : Fin cfg2.N, cond2 (grid2.coords t) ↔ t.val = 4 :=
  (by decide +kernel : ∀ t : Fin grid2.N, cond2 (grid2.coords t) ↔ t.val = 4)
/-- The input windows are never idle. -/
theorem live0 : ∀ t : Fin cfg2.N, cfg2.idle 0 (grid2.coords t) = false := by decide +kernel
theorem live1 : ∀ t : Fin cfg2.N, cfg2.idle 1 (grid2.coords t) = false := by decide +kernel
theorem live2 : ∀ t : Fin cfg2.N, cfg2.idle 2 (grid2.coords t) = false := by decide +kernel
/-- Before the last point the output window is idle and not written back; at the last point it is live. -/
theorem idle3 : ∀ t : Fin cfg2.N, ¬cond2 (grid2.coords t) → cfg2.idle 3 (grid2.coords t) = true := by decide +kernel
theorem noFlush3 : ∀ t : Fin cfg2.N, ¬cond2 (grid2.coords t) → (cfg2.win 3).flush t = false := by decide +kernel
theorem live3 : ∀ t : Fin cfg2.N, cond2 (grid2.coords t) → cfg2.idle 3 (grid2.coords t) = false := by decide +kernel

/-! ## The scoped buffers the call does not stage through -/

/-- The scratch word as a memref. -/
abbrev scM : Memref sig .tc .smem S1 .f32 := Memref.whole cc2_scratch0

/-- The other call's ten staging buffers, at some contents each. -/
def otherTen (c : Dev nD) : sProp 𝕄 :=
  iprop((∃ f : Buf (Elt F) ((c : Thread nD τ).loc cc0_stg0_0), ((c : Thread nD τ).loc cc0_stg0_0) ↦{fullShare} f)
    ∗ (∃ f : Buf (Elt F) ((c : Thread nD τ).loc cc0_stg0_1), ((c : Thread nD τ).loc cc0_stg0_1) ↦{fullShare} f)
    ∗ (∃ f : Buf (Elt F) ((c : Thread nD τ).loc cc0_stg1_0), ((c : Thread nD τ).loc cc0_stg1_0) ↦{fullShare} f)
    ∗ (∃ f : Buf (Elt F) ((c : Thread nD τ).loc cc0_stg2_0), ((c : Thread nD τ).loc cc0_stg2_0) ↦{fullShare} f)
    ∗ (∃ f : Buf (Elt F) ((c : Thread nD τ).loc cc0_stg3_0), ((c : Thread nD τ).loc cc0_stg3_0) ↦{fullShare} f)
    ∗ (∃ f : Buf (Elt F) ((c : Thread nD τ).loc cc0_stg4_0), ((c : Thread nD τ).loc cc0_stg4_0) ↦{fullShare} f)
    ∗ (∃ f : Buf (Elt F) ((c : Thread nD τ).loc cc0_stg5_0), ((c : Thread nD τ).loc cc0_stg5_0) ↦{fullShare} f)
    ∗ (∃ f : Buf (Elt F) ((c : Thread nD τ).loc cc0_stg6_0), ((c : Thread nD τ).loc cc0_stg6_0) ↦{fullShare} f)
    ∗ (∃ f : Buf (Elt F) ((c : Thread nD τ).loc cc0_stg7_0), ((c : Thread nD τ).loc cc0_stg7_0) ↦{fullShare} f)
    ∗ (∃ f : Buf (Elt F) ((c : Thread nD τ).loc cc0_stg7_1), ((c : Thread nD τ).loc cc0_stg7_1) ↦{fullShare} f))

/-- The class invariant at this certificate's index type: the scoped buffers that are no staging buffer of the call
    (the ten above and the scratch word), at some contents each, and the generator register at some state. -/
def ΦA2 (c : Dev nD) : sProp 𝕄 :=
  iprop(Pipeline.scopedRest (Ix := HIx 1) (Name := ℕ) (U := UU) (Lvl := ℕ) (Val := Elt F) spec2 c ∗ ∃ r, prngReg c r)

/-- The class invariant with the scratch word apart, as a memref owned at some contents: one way -/
theorem ΦA2_split (c : Dev nD) :
    (ΦA2 c : sProp 𝕄) ⊢ iprop((otherTen c ∗ ∃ d, owns (c : Thread nD τ) scM fullShare d) ∗ ∃ r, prngReg c r) := by
  unfold ΦA2 otherTen; rw [scopedRest2_eq]; simp only [scM, owns_whole]
  iintro ⟨⟨B0, B1, B2, B3, B4, B5, B6, B7, B8, B9, HS⟩, Hg⟩
  isplitr [Hg]
  swap; · iexact Hg
  isplitr [HS]
  swap; · iexact HS
  · isplitl [B0]; · iexact B0
    isplitl [B1]; · iexact B1
    isplitl [B2]; · iexact B2
    isplitl [B3]; · iexact B3
    isplitl [B4]; · iexact B4
    isplitl [B5]; · iexact B5
    isplitl [B6]; · iexact B6
    isplitl [B7]; · iexact B7
    isplitl [B8]; · iexact B8
    iexact B9

/-- and back. -/
theorem ΦA2_join (c : Dev nD) :
    iprop((otherTen c ∗ ∃ d, owns (c : Thread nD τ) scM fullShare d) ∗ ∃ r, prngReg c r) ⊢ (ΦA2 c : sProp 𝕄) := by
  unfold ΦA2 otherTen; rw [scopedRest2_eq]; simp only [scM, owns_whole]
  iintro ⟨⟨⟨B0, B1, B2, B3, B4, B5, B6, B7, B8, B9⟩, HS⟩, Hg⟩
  isplitr [Hg]
  swap; · iexact Hg
  · isplitl [B0]; · iexact B0
    isplitl [B1]; · iexact B1
    isplitl [B2]; · iexact B2
    isplitl [B3]; · iexact B3
    isplitl [B4]; · iexact B4
    isplitl [B5]; · iexact B5
    isplitl [B6]; · iexact B6
    isplitl [B7]; · iexact B7
    isplitl [B8]; · iexact B8
    isplitl [B9]; · iexact B9
    iexact HS

section Region
-- the TensorCore's buffer contents when the region is entered, what it owes and the bound on its recorded pairs
variable (V : (c : Dev nD) → (b : Ref sig .tc) → Buf (Elt F) ((c : Thread nD τ).loc b))
  (O : Dev nD → CellTallies nD τ sig (HIx 1)) (B : Dev nD → Set (SemLoc sig × HIx 1))

/-! ## The windows' blocks -/

/-- Window `w`'s block at point `t`, read off its array as the region finds it. -/
def iblk (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- Each input window's current staging buffer holds its block at every point (every point fetches it), for any
    proof data whose array is `V`'s and whose body leaves the block in place. -/
theorem before0_of {c : Dev nD} (dat : Dat τ (Elt F) (HIx 1) ℕ UU ℕ cfg2 c) (hA : dat.A 0 = V c (Pipeline.arrRef spec2 0))
    (hafter : ∀ t, dat.after 0 t = iblk V c 0 t) (t : Fin cfg2.N) (d) : dat.before 0 t d = iblk V c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
theorem before1_of {c : Dev nD} (dat : Dat τ (Elt F) (HIx 1) ℕ UU ℕ cfg2 c) (hA : dat.A 1 = V c (Pipeline.arrRef spec2 1))
    (hafter : ∀ t, dat.after 1 t = iblk V c 1 t) (t : Fin cfg2.N) (d) : dat.before 1 t d = iblk V c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
theorem before2_of {c : Dev nD} (dat : Dat τ (Elt F) (HIx 1) ℕ UU ℕ cfg2 c) (hA : dat.A 2 = V c (Pipeline.arrRef spec2 2))
    (hafter : ∀ t, dat.after 2 t = iblk V c 2 t) (t : Fin cfg2.N) (d) : dat.before 2 t d = iblk V c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)

/-! ## The running sum -/

/-- What the scratch word holds after the body at position `n`: the block sums of points `0 .. n`, added up from zero. -/
def acc (c : Dev nD) : (n : ℕ) → n < cfg2.N → F .f32
  | 0, h => k2_pay1 (iblk V c 0 ⟨0, h⟩) (iblk V c 1 ⟨0, h⟩) (iblk V c 2 ⟨0, h⟩) (Scalar.ofBits .f32 0x00000000#32)
  | n + 1, h => k2_pay1 (iblk V c 0 ⟨n + 1, h⟩) (iblk V c 1 ⟨n + 1, h⟩) (iblk V c 2 ⟨n + 1, h⟩) (acc c n (Nat.lt_of_succ_lt h))

theorem acc_first (c : Dev nD) (t : Fin cfg2.N) (hz : t.val = 0) :
    acc V c t.val t.isLt = k2_pay1 (iblk V c 0 t) (iblk V c 1 t) (iblk V c 2 t) (Scalar.ofBits .f32 0x00000000#32) := by
  obtain ⟨n, hn⟩ := t
  cases n with
  | zero => rfl
  | succ n => exact absurd hz (Nat.succ_ne_zero n)

theorem acc_later (c : Dev nD) (t : Fin cfg2.N) (hz : t.val ≠ 0) :
    acc V c t.val t.isLt = k2_pay1 (iblk V c 0 t) (iblk V c 1 t) (iblk V c 2 t) (acc V c (t.val - 1) (Nat.lt_of_le_of_lt (Nat.sub_le _ _) t.isLt)) := by
  obtain ⟨n, hn⟩ := t
  cases n with
  | zero => exact absurd rfl hz
  | succ n => rfl

/-! ## The invariant between points: the scratch word at the running sum -/

/-- Before the first point the class invariant (the scratch word at anything); before position `n + 1` the other
    scoped buffers at anything, the scratch word at `acc n`, the generator register at some state. -/
def PhiS (c : Dev nD) : (n : ℕ) → n ≤ cfg2.N → sProp 𝕄
  | 0, _ => ΦA2 c
  | n + 1, hn => iprop((otherTen c ∗ owns (c : Thread nD τ) scM fullShare (fun _ => acc V c n hn)) ∗ ∃ r, prngReg c r)

theorem PhiS_zero (c : Dev nD) (n : ℕ) (h : n ≤ cfg2.N) (hz : n = 0) : PhiS V c n h = ΦA2 c := by
  subst hz; rfl

theorem PhiS_succ (c : Dev nD) (n : ℕ) (hn : n < cfg2.N) :
    PhiS V c (n + 1) hn = iprop((otherTen c ∗ owns (c : Thread nD τ) scM fullShare (fun _ => acc V c n hn)) ∗ ∃ r, prngReg c r) := rfl

theorem PhiS_pos (c : Dev nD) (n : ℕ) (h : n ≤ cfg2.N) (hz : n ≠ 0) :
    PhiS V c n h = iprop((otherTen c ∗ owns (c : Thread nD τ) scM fullShare (fun _ => acc V c (n - 1) (by omega))) ∗ ∃ r, prngReg c r) := by
  cases n with
  | zero => exact absurd rfl hz
  | succ n => rfl

/-! ## The proof data -/

/-- The proof data of the call on core `c`: the arrays as the region finds them; after the body at point `t` each
    input's buffer at its block and the output's (consulted at the last point only) at the running sum divided by
    the number of pairs; the invariant above; full shares; the core owing `O c` throughout, its recorded pairs
    within `B c`. -/
def dat2 (c : Dev nD) : Dat τ (Elt F) (HIx 1) ℕ UU ℕ cfg2 c where
  A w := V c (Pipeline.arrRef spec2 w)
  after w t := match w with
    | ⟨0, _⟩ => iblk V c 0 t
    | ⟨1, _⟩ => iblk V c 1 t
    | ⟨2, _⟩ => iblk V c 2 t
    | ⟨3, _⟩ => k2_pay2 (acc V c t.val t.isLt)
  Φ t := PhiS V c t.val (Nat.le_of_lt_succ t.isLt)
  q _ := fullShare
  owed _ := O c
  recorded _ := B c

theorem A_eq (c : Dev nD) (w : Fin cfg2.W) : (dat2 V O B c).A w = V c (Pipeline.arrRef spec2 w) := by
  dsimp only [dat2]

theorem PhiS_castSucc (c : Dev nD) (t : Fin cfg2.N) :
    (dat2 V O B c).Φ t.castSucc = PhiS V c t.val (Nat.le_of_lt t.isLt) := by
  dsimp only [dat2]; simp only [Fin.coe_castSucc]

theorem after0 (c : Dev nD) (t : Fin cfg2.N) : (dat2 V O B c).after 0 t = iblk V c 0 t := by dsimp only [dat2]
theorem after1 (c : Dev nD) (t : Fin cfg2.N) : (dat2 V O B c).after 1 t = iblk V c 1 t := by dsimp only [dat2]
theorem after2 (c : Dev nD) (t : Fin cfg2.N) : (dat2 V O B c).after 2 t = iblk V c 2 t := by dsimp only [dat2]
theorem after3 (c : Dev nD) (t : Fin cfg2.N) : (dat2 V O B c).after 3 t = k2_pay2 (acc V c t.val t.isLt) := by dsimp only [dat2]

theorem before0 (c : Dev nD) (t : Fin cfg2.N) (d) : (dat2 V O B c).before 0 t d = iblk V c 0 t :=
  before0_of V (dat2 V O B c) (A_eq V O B c 0) (after0 V O B c) t d
theorem before1 (c : Dev nD) (t : Fin cfg2.N) (d) : (dat2 V O B c).before 1 t d = iblk V c 1 t :=
  before1_of V (dat2 V O B c) (A_eq V O B c 1) (after1 V O B c) t d
theorem before2 (c : Dev nD) (t : Fin cfg2.N) (d) : (dat2 V O B c).before 2 t d = iblk V c 2 t :=
  before2_of V (dat2 V O B c) (A_eq V O B c 2) (after2 V O B c) t d

/-! ## The body obligation, at a generic point -/

/-- What the body is called with at point `t`, the windows one by one, -/
def bodyPre (c : Dev nD) (t : Fin cfg2.N) : sProp 𝕄 :=
  iprop((dat2 V O B c).Φ t.castSucc ∗ (dat2 V O B c).owesAt none t.castSucc
    ∗ (∃ d, owns (c : Thread nD τ) (st2_0 t) fullShare ((dat2 V O B c).before 0 t d))
    ∗ (∃ d, owns (c : Thread nD τ) (st2_1 t) fullShare ((dat2 V O B c).before 1 t d))
    ∗ (∃ d, owns (c : Thread nD τ) (st2_2 t) fullShare ((dat2 V O B c).before 2 t d))
    ∗ (∃ d, owns (c : Thread nD τ) (st2_3 t) fullShare ((dat2 V O B c).before 3 t d)))

/-- and what it returns. -/
def bodyPost (c : Dev nD) (t : Fin cfg2.N) : sProp 𝕄 :=
  iprop((dat2 V O B c).Φ t.succ ∗ (dat2 V O B c).owesAt none t.succ
    ∗ (dat2 V O B c).leavesExact 0 t
    ∗ (dat2 V O B c).leavesExact 1 t
    ∗ (dat2 V O B c).leavesExact 2 t
    ∗ (dat2 V O B c).leavesExact 3 t)

set_option maxHeartbeats 2000000 in
/-- The body at any point. The inputs' memrefs hold their blocks. The point's position says which case it is in:
    at the first point the invariant hands over the scratch word at anything and takes it back at the first block's
    sum; at a later point it hands it over at the running sum so far and takes it back with this block's sum added;
    before the last point the output's buffer is handed back as found, at the last it is left at the running sum
    divided by the number of pairs. What the core owes passes through unread. -/
theorem sound_body (c : Dev nD) (t : Fin cfg2.N) :
    bodyPre V O B c t ⊢ wp frame (wpE (defs₀ (F := F)) Variants.none c none) Set.univ (bodyAt2 t) (fun _ => bodyPost V O B c t) := by
  unfold bodyPre bodyPost bodyAt2
  simp only [before0, before1, before2]
  rw [show (dat2 V O B c).owesAt none t.succ = (dat2 V O B c).owesAt none t.castSucc from rfl]
  rw [show (dat2 V O B c).Φ t.succ = PhiS V c (t.val + 1) t.isLt from rfl, PhiS_succ]
  rw [show (dat2 V O B c).leavesExact 0 t = owns (c : Thread nD τ) (st2_0 t) fullShare ((dat2 V O B c).after 0 t) from by
      unfold Dat.leavesExact; rw [live0 t], after0,
    show (dat2 V O B c).leavesExact 1 t = owns (c : Thread nD τ) (st2_1 t) fullShare ((dat2 V O B c).after 1 t) from by
      unfold Dat.leavesExact; rw [live1 t], after1,
    show (dat2 V O B c).leavesExact 2 t = owns (c : Thread nD τ) (st2_2 t) fullShare ((dat2 V O B c).after 2 t) from by
      unfold Dat.leavesExact; rw [live2 t], after2]
  have hN : t.val < 5 := lt_of_lt_of_eq t.isLt (show cfg2.N = 5 from N_2)
  by_cases hz : t.val = 0
  · -- the first point
    have hc1 : cond1 (grid2.coords t) := (hcond1 t).mpr hz
    have hc2 : ¬cond2 (grid2.coords t) := fun h => by have := (hcond2 t).mp h; omega
    rw [Dat.leavesExact_idle (dat2 V O B c) 3 t (idle3 t hc2) (noFlush3 t hc2)]
    rw [PhiS_castSucc V O B c t, PhiS_zero V c _ _ hz, acc_first V c t hz]
    iintro ⟨HΦ, Ho, ⟨%d0, H0⟩, ⟨%d1, H1⟩, ⟨%d2, H2⟩, ⟨%d3, H3⟩⟩
    ihave Hsp := (ΦA2_split c) $$ HΦ
    icases Hsp with ⟨⟨Hten, HS⟩, Hg⟩
    iapply (sound_first c Set.univ (grid2.coords t) _ _ _ _ _ _ _ _ _ _ (iblk V c 0 t) (iblk V c 1 t) (iblk V c 2 t) ((dat2 V O B c).before 3 t d3) hc1 hc2 _)
    isplitl [H0]; · iexact H0
    isplitl [H1]; · iexact H1
    isplitl [H2]; · iexact H2
    isplitl [H3]; · iexact H3
    isplitl [HS]; · iexact HS
    iintro ⟨H0, H1, H2, H3, HS⟩
    isplitl [Hten HS Hg]
    · isplitl [Hten HS]
      · isplitl [Hten]; · iexact Hten
        iexact HS
      iexact Hg
    isplitl [Ho]; · iexact Ho
    isplitl [H0]; · iexact H0
    isplitl [H1]; · iexact H1
    isplitl [H2]; · iexact H2
    iexists _; iexact H3
  · by_cases hl : t.val = 4
    · -- the last point
      have hc1 : ¬cond1 (grid2.coords t) := fun h => hz ((hcond1 t).mp h)
      have hc2 : cond2 (grid2.coords t) := (hcond2 t).mpr hl
      rw [show (dat2 V O B c).leavesExact 3 t = owns (c : Thread nD τ) (st2_3 t) fullShare ((dat2 V O B c).after 3 t) from by
        unfold Dat.leavesExact; rw [live3 t hc2], after3]
      rw [PhiS_castSucc V O B c t, PhiS_pos V c _ _ hz, acc_later V c t hz]
      iintro ⟨⟨⟨Hten, HS⟩, Hg⟩, Ho, ⟨%d0, H0⟩, ⟨%d1, H1⟩, ⟨%d2, H2⟩, ⟨%d3, H3⟩⟩
      iapply (sound_last c Set.univ (grid2.coords t) _ _ _ _ _ _ _ _ _ _ (iblk V c 0 t) (iblk V c 1 t) (iblk V c 2 t) (fun _ => acc V c (t.val - 1) (Nat.lt_of_le_of_lt (Nat.sub_le _ _) t.isLt)) hc1 hc2 _)
      isplitl [H0]; · iexact H0
      isplitl [H1]; · iexact H1
      isplitl [H2]; · iexact H2
      isplitl [H3]; · iexists _; iexact H3
      isplitl [HS]; · iexact HS
      iintro ⟨H0, H1, H2, H3, HS⟩
      isplitl [Hten HS Hg]
      · isplitl [Hten HS]
        · isplitl [Hten]; · iexact Hten
          iexact HS
        iexact Hg
      isplitl [Ho]; · iexact Ho
      isplitl [H0]; · iexact H0
      isplitl [H1]; · iexact H1
      isplitl [H2]; · iexact H2
      iexact H3
    · -- a middle point
      have hc1 : ¬cond1 (grid2.coords t) := fun h => hz ((hcond1 t).mp h)
      have hc2 : ¬cond2 (grid2.coords t) := fun h => hl ((hcond2 t).mp h)
      rw [Dat.leavesExact_idle (dat2 V O B c) 3 t (idle3 t hc2) (noFlush3 t hc2)]
      rw [PhiS_castSucc V O B c t, PhiS_pos V c _ _ hz, acc_later V c t hz]
      iintro ⟨⟨⟨Hten, HS⟩, Hg⟩, Ho, ⟨%d0, H0⟩, ⟨%d1, H1⟩, ⟨%d2, H2⟩, ⟨%d3, H3⟩⟩
      iapply (sound_mid c Set.univ (grid2.coords t) _ _ _ _ _ _ _ _ _ _ (iblk V c 0 t) (iblk V c 1 t) (iblk V c 2 t) ((dat2 V O B c).before 3 t d3) (fun _ => acc V c (t.val - 1) (Nat.lt_of_le_of_lt (Nat.sub_le _ _) t.isLt)) hc1 hc2 _)
      isplitl [H0]; · iexact H0
      isplitl [H1]; · iexact H1
      isplitl [H2]; · iexact H2
      isplitl [H3]; · iexact H3
      isplitl [HS]; · iexact HS
      iintro ⟨H0, H1, H2, H3, HS⟩
      isplitl [Hten HS Hg]
      · isplitl [Hten HS]
        · isplitl [Hten]; · iexact Hten
          iexact HS
        iexact Hg
      isplitl [Ho]; · iexact Ho
      isplitl [H0]; · iexact H0
      isplitl [H1]; · iexact H1
      isplitl [H2]; · iexact H2
      iexists _; iexact H3

/-- The library's body obligation, at every point. -/
theorem body_obligation (c : Dev nD) : BodyObligation (dat2 (F := F) V O B c) (defs₀ (F := F)) Variants.none (none : HIx 1) Set.univ := fun t => by
  rw [bigSep_W2, bigSep_W2]
  exact sound_body V O B c t

/-- What the region is entered with is the invariant before the first point, -/
theorem hin (c : Dev nD) : (ΦA2 c : sProp 𝕄) ⊢ (dat2 V O B c).Φ 0 := by
  rw [show (dat2 V O B c).Φ 0 = PhiS V c 0 (Nat.zero_le _) from rfl, PhiS_zero V c 0 _ rfl]

/-- and after the last point the invariant gives it back, the running sum forgotten. -/
theorem hout (c : Dev nD) : (dat2 V O B c).Φ (Fin.last cfg2.N) ⊢ (ΦA2 c : sProp 𝕄) := by
  rw [show (dat2 V O B c).Φ (Fin.last cfg2.N) = PhiS V c (Fin.last cfg2.N).val (Nat.le_of_lt_succ (Fin.last cfg2.N).isLt) from rfl,
    PhiS_pos V c _ _ (by rw [Fin.val_last]; have : cfg2.N = 5 := N_2; omega)]
  iintro ⟨⟨Hten, HS⟩, Hg⟩
  iapply (ΦA2_join c)
  isplitl [Hten HS]
  · isplitl [Hten]; · iexact Hten
    iexists _; iexact HS
  iexact Hg

end Region

end Cert.Kernel.Sc.Loss

end
-- ==== Proof.MlpLossRegionsB.lean ====
/-
  The two TensorCore calls as kernel regions of the program: the proof data of both pipelines as one family, and per
  call the record the region rule takes.

  A region is entered from the thread state "every unscoped buffer of the TensorCore at the contents `W`, the
  generator register at some state, the core owing `O` with its recorded pairs within `B`" and left at the same with the
  call's arrays at what its write-backs leave (every other buffer as entered) and the recorded pairs within `B` and
  the pipeline's own wait pairs. The entry contents, the tallies and the bounds are parameters, separately for the
  two calls. The pipelines' waits are recorded at the index `none`, which sits below everything a thread of the
  launch owes: the wait evidence needs only that the tallies vanish at that index.
-/
import proofs.«208457_g31284541784245_cont_9to1_2229_14_alg».proof.Proof.ScBaseB
import proofs.«208457_g31284541784245_cont_9to1_2229_14_alg».proof.Proof.Gen.Kernel.Launch
import proofs.«208457_g31284541784245_cont_9to1_2229_14_alg».proof.Proof.Gen.Kernel.Skeleton
import proofs.«208457_g31284541784245_cont_9to1_2229_14_alg».proof.Proof.Gen.Kernel.Points
import proofs.«208457_g31284541784245_cont_9to1_2229_14_alg».proof.Proof.MlpDatB
import proofs.«208457_g31284541784245_cont_9to1_2229_14_alg».proof.Proof.LossDatB
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Sc

open Cert.Kernel Cert.Kernel.Gen
open Idealize.ShloMosaic Idealize.ShloMosaic.TcCoe Idealize.ShloMosaic.Tactic
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MM F

/-- The prefetched tables' admissible contents: no pipeline has a table. -/
abbrev adm : (p : Fin 2) → (pcfgs (F := F) p).Adm := fun p => (cfgs p).toPCfg_adm

/-- A valuation of the device's buffers read at the TensorCore's references. -/
abbrev Vof (W : Dev nD → Valuation τ sig (Elt F)) : (c : Dev nD) → (b : Ref sig .tc) → Buf (Elt F) ((c : Thread nD τ).loc b) :=
  fun c b => W c b

section Regions

variable (Wa Wb : Dev nD → Valuation τ sig (Elt F))
  (Oa Ob : Dev nD → CellTallies nD τ sig (HIx 1)) (Ba Bb : Dev nD → Set (SemLoc sig × HIx 1))

/-- Both pipelines' proof data, each at its region's entry contents, tallies and bound: a literal match, so that the
    pinned configuration at a numeral reduces to the printed one. -/
def pdats : (p : Fin 2) → (c : Dev nD) → Dat τ (Elt F) (HIx 1) ℕ UU ℕ (Pipeline.pin (pcfgs (F := F)) adm p) c
  | ⟨0, _⟩ => fun c => Mlp.dat0 (Vof Wa) Oa Ba c
  | ⟨1, _⟩ => fun c => Loss.dat2 (Vof Wb) Ob Bb c

/-! ## The buffer contents at each region's exit -/

/-- At the dense layers' exit: the call's arrays at what the pipeline leaves (the inputs as entered, the output's
    write-backs folded), every other buffer as entered. -/
def Mlp.Wexit (c : Dev nD) : Valuation τ sig (Elt F) :=
  Pipeline.withArrays spec0 c (Wa c) fun w => (Mlp.dat0 (Vof Wa) Oa Ba c).arrAt w cfg0.N
theorem Mlp.Wexit_arr (c : Dev nD) (w : Fin cfg0.W) :
    Mlp.Wexit Wa Oa Ba c (Proc.devRef .tc (Pipeline.arrRef spec0 w)) = (Mlp.dat0 (Vof Wa) Oa Ba c).arrAt w cfg0.N := by
  unfold Mlp.Wexit; exact Pipeline.withArrays_arr spec0 launch0.win.arr_inj c _ _ w
theorem Mlp.Wexit_of_ne (c : Dev nD) (b : Ref sig .tc) (hb : ∀ w, Pipeline.arrRef spec0 w ≠ b) :
    Mlp.Wexit Wa Oa Ba c (Proc.devRef .tc b) = Wa c (Proc.devRef .tc b) := by
  unfold Mlp.Wexit; exact Pipeline.withArrays_of_ne spec0 c _ _ b hb
theorem Mlp.hF (c : Dev nD) (w : Fin cfg0.W) :
    (Mlp.dat0 (Vof Wa) Oa Ba c).arrAt w cfg0.N = Vof (Mlp.Wexit Wa Oa Ba) c (Pipeline.arrRef spec0 w) :=
  (Mlp.Wexit_arr Wa Oa Ba c w).symm
theorem Mlp.hrest (c : Dev nD) : ∀ b, b ∉ Finset.univ.image (Pipeline.arrRef spec0) → Vof (Mlp.Wexit Wa Oa Ba) c b = Vof Wa c b :=
  fun b hb => Mlp.Wexit_of_ne Wa Oa Ba c b fun w e => hb (Finset.mem_image.mpr ⟨w, Finset.mem_univ _, e⟩)

/-- At the loss call's exit, likewise. -/
def Loss.Wexit (c : Dev nD) : Valuation τ sig (Elt F) :=
  Pipeline.withArrays spec2 c (Wb c) fun w => (Loss.dat2 (Vof Wb) Ob Bb c).arrAt w cfg2.N
theorem Loss.Wexit_arr (c : Dev nD) (w : Fin cfg2.W) :
    Loss.Wexit Wb Ob Bb c (Proc.devRef .tc (Pipeline.arrRef spec2 w)) = (Loss.dat2 (Vof Wb) Ob Bb c).arrAt w cfg2.N := by
  unfold Loss.Wexit; exact Pipeline.withArrays_arr spec2 launch2.win.arr_inj c _ _ w
theorem Loss.Wexit_of_ne (c : Dev nD) (b : Ref sig .tc) (hb : ∀ w, Pipeline.arrRef spec2 w ≠ b) :
    Loss.Wexit Wb Ob Bb c (Proc.devRef .tc b) = Wb c (Proc.devRef .tc b) := by
  unfold Loss.Wexit; exact Pipeline.withArrays_of_ne spec2 c _ _ b hb
theorem Loss.hF (c : Dev nD) (w : Fin cfg2.W) :
    (Loss.dat2 (Vof Wb) Ob Bb c).arrAt w cfg2.N = Vof (Loss.Wexit Wb Ob Bb) c (Pipeline.arrRef spec2 w) :=
  (Loss.Wexit_arr Wb Ob Bb c w).symm
theorem Loss.hrest (c : Dev nD) : ∀ b, b ∉ Finset.univ.image (Pipeline.arrRef spec2) → Vof (Loss.Wexit Wb Ob Bb) c b = Vof Wb c b :=
  fun b hb => Loss.Wexit_of_ne Wb Ob Bb c b fun w e => hb (Finset.mem_image.mpr ⟨w, Finset.mem_univ _, e⟩)

/-! ## The thread states -/

/-- The thread state a region is entered from and left at: every unscoped buffer at the contents `W`, the generator
    register at some state, the core owing `O` with its recorded pairs within `S`. -/
abbrev tcAt (c : Dev nD) (W : Valuation τ sig (Elt F)) (O : CellTallies nD τ sig (HIx 1)) (S : Set (SemLoc sig × HIx 1)) : sProp 𝕄 :=
  iprop(StableHlo.held (c : Thread nD τ) (Pipeline.ucRefs τ sig) W ∗ (∃ r, prngReg c r) ∗ Pipeline.owesWithin c O S)

/-! ## The regions -/

set_option backward.isDefEq.respectTransparency.types false in
/-- The dense layers' call (pipeline 0) over the thread state: entered from every unscoped buffer at `Wa`, left at
    `Mlp.Wexit`. Its arrays split out of the unscoped buffers and put back at the exit contents; the generator register
    into the class invariant and out; what the core owes carried through, the pipeline's wait pairs added to the bound. -/
def regMlp (lv : GSem nD τ sig → HIx 1 → ℕ) (hlv : (Sc.K (F := F)).Refines (nD := nD) lv) (hOa : ∀ c g, Oa c g none = 0) :
    Pipeline.RegionSeg (pcfgs (F := F)) adm (pdats Wa Wb Oa Ob Ba Bb) (none : HIx 1) defs₀ 𝒱₀ ((Sc.K (F := F)).L (nD := nD)) lv 0 where
  win := launch0.win.to₀
  block_pos := launch0.block_pos
  stage_whole := launch0.stage_whole
  K := PEmpty
  osem k := k.elim
  ho := Pipeline.OwnSemFacts.none _
  hbody c := (Mlp.body_obligation (Vof Wa) Oa Ba c).loose
  hwaits c := Pipeline.cellsWaits_intro (Pipeline.pin (pcfgs (F := F)) adm) (pdats Wa Wb Oa Ob Ba Bb) (none : HIx 1) 0 c
    fun w s t => (Sc.K (F := F)).mayWait_none _ (hOa c) lv hlv
  pre c := tcAt c (Wa c) (Oa c) (Ba c)
  post c := tcAt c (Mlp.Wexit Wa Oa Ba c) (Oa c) (Ba c ∪ cfg0.waitPairs (none : HIx 1))
  X c := iprop(∃ r, prngReg c r)
  Y c := iprop(∃ r, prngReg c r)
  Z c := Pipeline.unscopedRest (Ix := HIx 1) (Name := ℕ) (U := UU) (Lvl := ℕ) spec0 c (Vof Wa c)
  hentry c := by
    rw [Pipeline.ownSems0_none]
    have hsplit := Pipeline.arrays_of_unscopedBufs (p := 0) (pcfgs (F := F)) adm (pdats Wa Wb Oa Ob Ba Bb) launch0.win launch0.arr_whole c
      ((pdats Wa Wb Oa Ob Ba Bb 0 c).share_full fun _ => rfl) (Vof Wa c) fun _ => rfl
    rw [Pipeline.unscopedBufs_held] at hsplit
    rw [show (pdats Wa Wb Oa Ob Ba Bb 0 c).owesAt (none : HIx 1) 0 = Pipeline.owesWithin c (Oa c) (Ba c ∪ cfg0.waitPairs (none : HIx 1)) from rfl]
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · iapply (Pipeline.owesWithin_mono c (Oa c) (Set.subset_union_left (s := Ba c) (t := cfg0.waitPairs (none : HIx 1))))
      iexact HO
    isplitl [Hp]; · iexact Hp
    iexact Hrest
  hin c := by
    rw [show (pdats Wa Wb Oa Ob Ba Bb 0 c).Φ 0 = Mlp.ΦA0 c from rfl]; unfold Mlp.ΦA0
    iintro ⟨Hp, -, Hr⟩
    isplitl [Hr]; · iexact Hr
    iexact Hp
  hout c := by
    rw [Pipeline.ownSems0_none, show (pdats Wa Wb Oa Ob Ba Bb 0 c).Φ (Fin.last _) = Mlp.ΦA0 c from rfl]; unfold Mlp.ΦA0
    iintro ⟨Hr, Hp⟩
    isplitl [Hp]; · iexact Hp
    isplitr; · iempintro
    iexact Hr
  hexit c := by
    have hjoin := Pipeline.unscopedBufs_of_arrays (p := 0) (pcfgs (F := F)) adm (Ix := HIx 1) (Name := ℕ) (U := UU) (Lvl := ℕ)
      launch0.win launch0.arr_whole c (pdats Wa Wb Oa Ob Ba Bb) ((pdats Wa Wb Oa Ob Ba Bb 0 c).share_full fun _ => rfl)
      (Vof Wa c) (Vof (Mlp.Wexit Wa Oa Ba) c) ((pdats Wa Wb Oa Ob Ba Bb 0 c).arrAt · cfg0.N) (Mlp.hF Wa Oa Ba c) (Mlp.hrest Wa Oa Ba c)
    rw [Pipeline.unscopedBufs_held] at hjoin
    rw [show (pdats Wa Wb Oa Ob Ba Bb 0 c).owesAt (none : HIx 1) (Fin.last _) = Pipeline.owesWithin c (Oa c) (Ba c ∪ cfg0.waitPairs (none : HIx 1)) from rfl]
    iintro ⟨Ha, HO, HY, Hrest⟩
    imodintro
    isplitl [Ha Hrest]
    · iapply hjoin; isplitl [Ha] <;> iassumption
    isplitl [HY]; · iexact HY
    iexact HO

set_option backward.isDefEq.respectTransparency.types false in
/-- The loss call (pipeline 1) over the thread state: entered from every unscoped buffer at `Wb`, left at
    `Loss.Wexit`. As above; the class invariant goes in before the first point and comes back after the last, the
    running sum forgotten. -/
def regLoss (lv : GSem nD τ sig → HIx 1 → ℕ) (hlv : (Sc.K (F := F)).Refines (nD := nD) lv) (hOb : ∀ c g, Ob c g none = 0) :
    Pipeline.RegionSeg (pcfgs (F := F)) adm (pdats Wa Wb Oa Ob Ba Bb) (none : HIx 1) defs₀ 𝒱₀ ((Sc.K (F := F)).L (nD := nD)) lv 1 where
  win := launch2.win.to₀
  block_pos := launch2.block_pos
  stage_whole := launch2.stage_whole
  K := PEmpty
  osem k := k.elim
  ho := Pipeline.OwnSemFacts.none _
  hbody c := (Loss.body_obligation (Vof Wb) Ob Bb c).loose
  hwaits c := Pipeline.cellsWaits_intro (Pipeline.pin (pcfgs (F := F)) adm) (pdats Wa Wb Oa Ob Ba Bb) (none : HIx 1) 1 c
    fun w s t => (Sc.K (F := F)).mayWait_none _ (hOb c) lv hlv
  pre c := tcAt c (Wb c) (Ob c) (Bb c)
  post c := tcAt c (Loss.Wexit Wb Ob Bb c) (Ob c) (Bb c ∪ cfg2.waitPairs (none : HIx 1))
  X c := iprop(∃ r, prngReg c r)
  Y c := iprop(∃ r, prngReg c r)
  Z c := Pipeline.unscopedRest (Ix := HIx 1) (Name := ℕ) (U := UU) (Lvl := ℕ) spec2 c (Vof Wb c)
  hentry c := by
    rw [Pipeline.ownSems0_none]
    have hsplit := Pipeline.arrays_of_unscopedBufs (p := 1) (pcfgs (F := F)) adm (pdats Wa Wb Oa Ob Ba Bb) launch2.win launch2.arr_whole c
      ((pdats Wa Wb Oa Ob Ba Bb 1 c).share_full fun _ => rfl) (Vof Wb c) fun _ => rfl
    rw [Pipeline.unscopedBufs_held] at hsplit
    rw [show (pdats Wa Wb Oa Ob Ba Bb 1 c).owesAt (none : HIx 1) 0 = Pipeline.owesWithin c (Ob c) (Bb c ∪ cfg2.waitPairs (none : HIx 1)) from rfl]
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · iapply (Pipeline.owesWithin_mono c (Ob c) (Set.subset_union_left (s := Bb c) (t := cfg2.waitPairs (none : HIx 1))))
      iexact HO
    isplitl [Hp]; · iexact Hp
    iexact Hrest
  hin c := by
    refine .trans ?_ (Loss.hin (Vof Wb) Ob Bb c)
    unfold Loss.ΦA2
    iintro ⟨Hp, -, Hr⟩
    isplitl [Hr]; · iexact Hr
    iexact Hp
  hout c := by
    rw [Pipeline.ownSems0_none]
    refine (Loss.hout (Vof Wb) Ob Bb c).trans ?_
    unfold Loss.ΦA2
    iintro ⟨Hr, Hp⟩
    isplitl [Hp]; · iexact Hp
    isplitr; · iempintro
    iexact Hr
  hexit c := by
    have hjoin := Pipeline.unscopedBufs_of_arrays (p := 1) (pcfgs (F := F)) adm (Ix := HIx 1) (Name := ℕ) (U := UU) (Lvl := ℕ)
      launch2.win launch2.arr_whole c (pdats Wa Wb Oa Ob Ba Bb) ((pdats Wa Wb Oa Ob Ba Bb 1 c).share_full fun _ => rfl)
      (Vof Wb c) (Vof (Loss.Wexit Wb Ob Bb) c) ((pdats Wa Wb Oa Ob Ba Bb 1 c).arrAt · cfg2.N) (Loss.hF Wb Ob Bb c) (Loss.hrest Wb Ob Bb c)
    rw [Pipeline.unscopedBufs_held] at hjoin
    rw [show (pdats Wa Wb Oa Ob Ba Bb 1 c).owesAt (none : HIx 1) (Fin.last _) = Pipeline.owesWithin c (Ob c) (Bb c ∪ cfg2.waitPairs (none : HIx 1)) from rfl]
    iintro ⟨Ha, HO, HY, Hrest⟩
    imodintro
    isplitl [Ha Hrest]
    · iapply hjoin; isplitl [Ha] <;> iassumption
    isplitl [HY]; · iexact HY
    iexact HO

end Regions

end Cert.Kernel.Sc

end
-- ==== Proof.ScChainB.lean ====
/-
  The contents of the TensorCore's buffers at each boundary of @main, named: after the first stretch of host
  operations; after the dense layers' call (its output buffer at the table, the rest as they were); after the second
  stretch (the table flattened, the two index columns cut out); after the SparseCore call (the two result columns at
  the sums of table words); after the third stretch; after the loss call; after the last stretch. With them the launch
  theorem's hypotheses for this program are instances of what the regions' and the vector subcores' modules prove.
-/
import proofs.«208457_g31284541784245_cont_9to1_2229_14_alg».proof.Proof.ScLaunchB
import proofs.«208457_g31284541784245_cont_9to1_2229_14_alg».proof.Proof.TileDefsB
import proofs.«208457_g31284541784245_cont_9to1_2229_14_alg».proof.Proof.MlpLossRegionsB

noncomputable section

namespace Cert.Kernel.Sc.Chain

open Cert.Kernel Cert.Kernel.Gen Cert.Kernel.Sc
open Idealize.ShloMosaic Idealize.ShloMosaic.TcCoe
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]
variable (m : (ℓ : Loc nD τ sig) → Buf (Elt F) ℓ)

/-- The pairs a TensorCore's waits may have recorded before call n: those at or below the call's first level. -/
def Bn (d : Dev nD) (n : ℕ) : Set (SemLoc sig × HIx 1) := {p | (K (F := F)).lev (SparseCore.T d, p.1) p.2 ≤ 8 * n}

/-- What the TensorCore owes before call n has nothing at the kernels' own index. -/
theorem Otc_none (d : Dev nD) (n : ℕ) (g : GSem nD τ sig) : (K (F := F)).Otc d n g none = 0 :=
  Nat.eq_zero_of_not_pos fun h => by
    have := (K (F := F)).lev_of_Otc_pos h
    simp at this

/-- After the first stretch: the dense layers' call is entered from here. -/
abbrev Wa : Dev nD → Valuation τ sig (Elt F) := fun d => StableHlo.after ops0 (Launch.W0 m d)
abbrev Oa : Dev nD → CellTallies nD τ sig (HIx 1) := fun d => (K (F := F)).Otc d 0
abbrev Ba : Dev nD → Set (SemLoc sig × HIx 1) := fun d => Bn (F := F) d 0
/-- After the dense layers' call. -/
def W2 (d : Dev nD) : Valuation τ sig (Elt F) := Mlp.Wexit (Wa m) (Oa (F := F)) (Ba (F := F)) d
/-- After the second stretch: what the SparseCore call finds. -/
def W3 (d : Dev nD) : Valuation τ sig (Elt F) := StableHlo.after ops1 (W2 m d)
/-- The table and the two index columns as the SparseCore call finds them. -/
def TAB (d : Dev nD) : Buf (Elt F) (Tile.tLoc d) := W3 m d (main_v9 : DevRef τ sig)
def IA (d : Dev nD) : Buf (Elt F) (Tile.aLoc d) := W3 m d (main_v11 : DevRef τ sig)
def IB (d : Dev nD) : Buf (Elt F) (Tile.bLoc d) := W3 m d (main_v13 : DevRef τ sig)
/-- After the SparseCore call: the two result columns written, every other buffer as it was. -/
def W4 (d : Dev nD) : Valuation τ sig (Elt F) :=
  Function.update (Function.update (W3 m d) (main_v14_0 : DevRef τ sig) (Tile.Z0 (TAB m) (IA m) (IB m) d))
    (main_v14_1 : DevRef τ sig) (Tile.Z1 (TAB m) (IA m) (IB m) d)
/-- After the third stretch: the loss call is entered from here. -/
abbrev Wb : Dev nD → Valuation τ sig (Elt F) := fun d => StableHlo.after ops2 (W4 m d)
abbrev Ob : Dev nD → CellTallies nD τ sig (HIx 1) := fun d => (K (F := F)).Otc d 1
abbrev Bb : Dev nD → Set (SemLoc sig × HIx 1) := fun d => Bn (F := F) d 1
/-- After the loss call. -/
def W6 (d : Dev nD) : Valuation τ sig (Elt F) := Loss.Wexit (Wb m) (Ob (F := F)) (Bb (F := F)) d
/-- At the return. -/
def W7 (d : Dev nD) : Valuation τ sig (Elt F) := StableHlo.after ops3 (W6 m d)

/-- The two pipelines' proof data at these contents. -/
abbrev pd := pdats (Wa m) (Wb m) (Oa (F := F)) (Ob (F := F)) (Ba (F := F)) (Bb (F := F))
/-- The two calls as kernel regions. -/
abbrev R0 := regMlp (Wa m) (Wb m) (Oa (F := F)) (Ob (F := F)) (Ba (F := F)) (Bb (F := F)) (K (F := F)).lev ((K (F := F)).refines_self) (fun c g => Otc_none c 0 g)
abbrev R1 := regLoss (Wa m) (Wb m) (Oa (F := F)) (Ob (F := F)) (Ba (F := F)) (Bb (F := F)) (K (F := F)).lev ((K (F := F)).refines_self) (fun c g => Otc_none c 1 g)

/-! ## The thread state into and out of a region -/

theorem owes_in (d : Dev nD) (n : ℕ) :
    (Launch.tcOwes (F := F) d n : sProp (MM F)) ⊢ Pipeline.owesWithin d ((K (F := F)).Otc d n) (Bn (F := F) d n) := by
  unfold Pipeline.owesWithin
  iintro ⟨%W, %hW, HO⟩
  iexists W
  isplitr; · ipureintro; exact fun p hp => hW p (Finset.mem_coe.mp hp)
  iexact HO

theorem owes_out (d : Dev nD) (n : ℕ) (cfg : Pipeline.Cfg sig Λ₀) :
    (Pipeline.owesWithin d ((K (F := F)).Otc d n) (Bn (F := F) d n ∪ cfg.waitPairs (none : HIx 1)) : sProp (MM F)) ⊢ Launch.tcOwes (F := F) d n := by
  unfold Pipeline.owesWithin
  iintro ⟨%W, %hW, HO⟩
  iexists W
  isplitr
  · ipureintro
    intro p hp
    rcases hW (Finset.mem_coe.mpr hp) with h | ⟨w, s, rfl⟩
    · exact h
    · show (K (F := F)).lev _ none ≤ _
      rw [SparseCore.Cfg.lev_none]; exact Nat.zero_le _
  iexact HO

theorem hpre0 (d : Dev nD) : Launch.Tst (F := F) d (Wa m d) 0 ⊢ (R0 m).pre d := by
  show _ ⊢ tcAt d (Wa m d) (Oa (F := F) d) (Ba (F := F) d)
  iintro ⟨Hh, Hp, HO⟩
  isplitl [Hh]; · iexact Hh
  isplitl [Hp]; · iexact Hp
  iapply (owes_in d 0); iexact HO

theorem hpost0 (d : Dev nD) : (R0 m).post d ⊢ Launch.Tst (F := F) d (W2 m d) 0 := by
  show tcAt d (Mlp.Wexit (Wa m) (Oa (F := F)) (Ba (F := F)) d) (Oa (F := F) d) (Ba (F := F) d ∪ cfg0.waitPairs (none : HIx 1)) ⊢ _
  iintro ⟨Hh, Hp, HO⟩
  isplitl [Hh]; · iexact Hh
  isplitl [Hp]; · iexact Hp
  iapply (owes_out d 0 cfg0); iexact HO

theorem hpre1 (d : Dev nD) : Launch.Tst (F := F) d (Wb m d) 1 ⊢ (R1 m).pre d := by
  show _ ⊢ tcAt d (Wb m d) (Ob (F := F) d) (Bb (F := F) d)
  iintro ⟨Hh, Hp, HO⟩
  isplitl [Hh]; · iexact Hh
  isplitl [Hp]; · iexact Hp
  iapply (owes_in d 1); iexact HO

theorem hpost1 (d : Dev nD) : (R1 m).post d ⊢ Launch.Tst (F := F) d (W6 m d) 1 := by
  show tcAt d (Loss.Wexit (Wb m) (Ob (F := F)) (Bb (F := F)) d) (Ob (F := F) d) (Bb (F := F) d ∪ cfg2.waitPairs (none : HIx 1)) ⊢ _
  iintro ⟨Hh, Hp, HO⟩
  isplitl [Hh]; · iexact Hh
  isplitl [Hp]; · iexact Hp
  iapply (owes_out d 1 cfg2); iexact HO

end Cert.Kernel.Sc.Chain

end
-- ==== Proof.TileSplitB.lean ====
/-
  How the call's operands split: the whole arrays among the two SparseCores (and back), a SparseCore's among its sixteen
  vector subcores (and back). The read arrays go out as shares; the result columns as their 160 blocks, which are
  pairwise disjoint and cover the columns.
-/
import proofs.«208457_g31284541784245_cont_9to1_2229_14_alg».proof.Proof.TileDefsB

noncomputable section

namespace Cert.Kernel.Sc.Tile

open Cert.Kernel Cert.Kernel.Gen Cert.Kernel.Sc

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Transfers (shareTok shareDrop pointsTo_toks_split pointsTo_toks_join)

variable {F : FTy → Type}

/-! ## The 160 blocks tile a column -/

theorem chunk_disjoint {c c' : Fin 2} {s s' : Fin 16} {r r' : Fin 5} (h : (c, s, r) ≠ (c', s', r')) : Disjoint (chunk c s r) (chunk c' s' r') := by
  refine Finset.disjoint_left.mpr fun p h1 h2 => h ?_
  rw [mem_chunk] at h1 h2
  have hc := c.isLt; have hc' := c'.isLt; have hr := r.isLt; have hr' := r'.isLt
  have e1 : s.val = s'.val := by omega
  have e2 : c.val = c'.val := by omega
  have e3 : r.val = r'.val := by omega
  exact Prod.ext (Fin.ext e2) (Prod.ext (Fin.ext e1) (Fin.ext e3))

abbrev chunkOf (t : Fin 2 × Fin 16 × Fin 5) : Finset S640000.Idx := chunk t.1 t.2.1 t.2.2

theorem chunks_disjoint : ∀ t ∈ (Finset.univ : Finset (Fin 2 × Fin 16 × Fin 5)), ∀ t' ∈ (Finset.univ : Finset (Fin 2 × Fin 16 × Fin 5)), t ≠ t' → Disjoint (chunkOf t) (chunkOf t') :=
  fun _ _ _ _ h => chunk_disjoint h

theorem chunks_cover : (Finset.univ : Finset (Fin 2 × Fin 16 × Fin 5)).biUnion chunkOf = Finset.univ := by
  refine Finset.eq_univ_iff_forall.mpr fun p => Finset.mem_biUnion.mpr ?_
  have hp : (p 0).val < 640000 := (p 0).isLt
  refine ⟨(⟨(p 0).val % 40000 / 20000, by omega⟩, ⟨(p 0).val / 40000, by omega⟩, ⟨(p 0).val % 20000 / 4000, by omega⟩), Finset.mem_univ _, ?_⟩
  show p ∈ chunk _ _ _
  rw [mem_chunk]
  constructor <;> (simp only []; omega)

/-- A column held whole is its 160 blocks, by SparseCore, vector subcore and block. -/
theorem ycol_split (d : Dev nD) (f : Buf (Elt F) (yLoc d)) :
    (yLoc d ↦{fullShare} f : sProp (MM F))
      = bigSep Finset.univ fun c : Fin 2 => bigSep Finset.univ fun s : Fin 16 => bigSep Finset.univ fun r : Fin 5 => yLoc d ↦[chunk c s r]{fullShare} f := by
  rw [← bigSep_congr fun c _ => bigSep_univ_prod (fun t : Fin 16 × Fin 5 => (yLoc d ↦[chunk c t.1 t.2]{fullShare} f : sProp (MM F))),
    ← bigSep_univ_prod (fun t : Fin 2 × Fin 16 × Fin 5 => (yLoc d ↦[chunkOf t]{fullShare} f : sProp (MM F))),
    ← pointsTo_biUnion Finset.univ (ℓ := yLoc d) chunkOf chunks_disjoint, chunks_cover]; try rfl
theorem zcol_split (d : Dev nD) (f : Buf (Elt F) (zLoc d)) :
    (zLoc d ↦{fullShare} f : sProp (MM F))
      = bigSep Finset.univ fun c : Fin 2 => bigSep Finset.univ fun s : Fin 16 => bigSep Finset.univ fun r : Fin 5 => zLoc d ↦[chunk c s r]{fullShare} f := by
  rw [← bigSep_congr fun c _ => bigSep_univ_prod (fun t : Fin 16 × Fin 5 => (zLoc d ↦[chunk c t.1 t.2]{fullShare} f : sProp (MM F))),
    ← bigSep_univ_prod (fun t : Fin 2 × Fin 16 × Fin 5 => (zLoc d ↦[chunkOf t]{fullShare} f : sProp (MM F))),
    ← pointsTo_biUnion Finset.univ (ℓ := zLoc d) chunkOf chunks_disjoint, chunks_cover]; try rfl

/-! ## The payloads, spelt out -/

section Split

variable [FloatOps F]
variable (TAB : (d : Dev nD) → Buf (Elt F) (tLoc d)) (IA : (d : Dev nD) → Buf (Elt F) (aLoc d)) (IB : (d : Dev nD) → Buf (Elt F) (bLoc d))

theorem st_eq (d : Dev nD) (c : Fin ((K (F := F)).nCore 0)) :
    (P TAB IA IB).st 0 d c = iprop(rd TAB IA IB d (qC (Fin.cast nCore_zero c)) ∗ bigSep Finset.univ fun s : Fin 16 => outIn d (Fin.cast nCore_zero c) s) := rfl
theorem dn_eq (d : Dev nD) (c : Fin ((K (F := F)).nCore 0)) :
    (P TAB IA IB).dn 0 d c = iprop(rd TAB IA IB d (qC (Fin.cast nCore_zero c)) ∗ bigSep Finset.univ fun s : Fin 16 => outDn TAB IA IB d (Fin.cast nCore_zero c) s) := rfl
theorem go_eq (d : Dev nD) (c : Fin ((K (F := F)).nCore 0)) (i : Fin ((K (F := F)).nSub 0)) :
    (P TAB IA IB).go 0 d c i = iprop(rd TAB IA IB d (qT (Fin.cast nCore_zero c) (Fin.cast nSub_zero i)) ∗ outIn d (Fin.cast nCore_zero c) (Fin.cast nSub_zero i)) := rfl
theorem td_eq (d : Dev nD) (c : Fin ((K (F := F)).nCore 0)) (i : Fin ((K (F := F)).nSub 0)) :
    (P TAB IA IB).td 0 d c i = iprop(rd TAB IA IB d (qT (Fin.cast nCore_zero c) (Fin.cast nSub_zero i)) ∗ outDn TAB IA IB d (Fin.cast nCore_zero c) (Fin.cast nSub_zero i)) := rfl

omit [FloatOps F] in
theorem bigSep_cores (Φ : Fin 2 → sProp (MM F)) :
    (bigSep Finset.univ fun c : Fin ((K (F := F)).nCore 0) => Φ (Fin.cast nCore_zero c)) = bigSep Finset.univ Φ :=
  bigSep_congr fun _ _ => congrArg Φ (Fin.ext rfl)
omit [FloatOps F] in
theorem bigSep_tiles (Φ : Fin 16 → sProp (MM F)) :
    (bigSep Finset.univ fun i : Fin ((K (F := F)).nSub 0) => Φ (Fin.cast nSub_zero i)) = bigSep Finset.univ Φ :=
  bigSep_congr fun _ _ => congrArg Φ (Fin.ext rfl)

/-- The three read arrays at share `q`, as `n` read shares and the rest. -/
theorem rd_split (d : Dev nD) (q : PosShare TreeShare) (n : ℕ) :
    rd TAB IA IB d q ⊢ iprop(rd TAB IA IB d (shareDrop q n) ∗ bigSep Finset.univ fun i : Fin n => rd TAB IA IB d (shareTok q n i)) := by
  rw [bigSep_sep', bigSep_sep']
  iintro ⟨Ht, Ha, Hb⟩
  ihave Ht' := (pointsTo_toks_split q n) $$ Ht
  ihave Ha' := (pointsTo_toks_split q n) $$ Ha
  ihave Hb' := (pointsTo_toks_split q n) $$ Hb
  icases Ht' with ⟨HtR, HtS⟩
  icases Ha' with ⟨HaR, HaS⟩
  icases Hb' with ⟨HbR, HbS⟩
  isplitl [HtR HaR HbR]
  · isplitl [HtR]; · iexact HtR
    isplitl [HaR]; · iexact HaR
    iexact HbR
  isplitl [HtS]; · iexact HtS
  isplitl [HaS]; · iexact HaS
  iexact HbS
theorem rd_join (d : Dev nD) (q : PosShare TreeShare) (n : ℕ) :
    iprop(rd TAB IA IB d (shareDrop q n) ∗ bigSep Finset.univ fun i : Fin n => rd TAB IA IB d (shareTok q n i)) ⊢ rd TAB IA IB d q := by
  rw [bigSep_sep', bigSep_sep']
  iintro ⟨⟨HtR, HaR, HbR⟩, HtS, HaS, HbS⟩
  isplitl [HtR HtS]
  · iapply (pointsTo_toks_join q n); isplitl [HtR] <;> iassumption
  isplitl [HaR HaS]
  · iapply (pointsTo_toks_join q n); isplitl [HaR] <;> iassumption
  · iapply (pointsTo_toks_join q n); isplitl [HbR] <;> iassumption

omit [FloatOps F] in
/-- Every vector subcore's blocks at some contents: the two columns' apart. -/
theorem outIn_all (d : Dev nD) :
    (bigSep Finset.univ fun c : Fin 2 => bigSep Finset.univ fun s : Fin 16 => outIn (F := F) d c s)
      = iprop((bigSep Finset.univ fun c : Fin 2 => bigSep Finset.univ fun s : Fin 16 => bigSep Finset.univ fun r : Fin 5 => iprop(∃ f, yLoc d ↦[chunk c s r]{fullShare} f))
          ∗ (bigSep Finset.univ fun c : Fin 2 => bigSep Finset.univ fun s : Fin 16 => bigSep Finset.univ fun r : Fin 5 => iprop(∃ f, zLoc d ↦[chunk c s r]{fullShare} f))) :=
  (bigSep_congr fun c _ => bigSep_sep' Finset.univ
      (fun s : Fin 16 => bigSep Finset.univ fun r : Fin 5 => (iprop(∃ f, yLoc d ↦[chunk c s r]{fullShare} f) : sProp (MM F)))
      (fun s : Fin 16 => bigSep Finset.univ fun r : Fin 5 => (iprop(∃ f, zLoc d ↦[chunk c s r]{fullShare} f) : sProp (MM F)))).trans
    (bigSep_sep' Finset.univ
      (fun c : Fin 2 => bigSep Finset.univ fun s : Fin 16 => bigSep Finset.univ fun r : Fin 5 => (iprop(∃ f, yLoc d ↦[chunk c s r]{fullShare} f) : sProp (MM F)))
      (fun c : Fin 2 => bigSep Finset.univ fun s : Fin 16 => bigSep Finset.univ fun r : Fin 5 => (iprop(∃ f, zLoc d ↦[chunk c s r]{fullShare} f) : sProp (MM F))))
/-- Every vector subcore's blocks at the values: the two columns' apart. -/
theorem outDn_all (d : Dev nD) :
    (bigSep Finset.univ fun c : Fin 2 => bigSep Finset.univ fun s : Fin 16 => outDn TAB IA IB d c s)
      = iprop((bigSep Finset.univ fun c : Fin 2 => bigSep Finset.univ fun s : Fin 16 => bigSep Finset.univ fun r : Fin 5 => yLoc d ↦[chunk c s r]{fullShare} Z0 TAB IA IB d)
          ∗ (bigSep Finset.univ fun c : Fin 2 => bigSep Finset.univ fun s : Fin 16 => bigSep Finset.univ fun r : Fin 5 => zLoc d ↦[chunk c s r]{fullShare} Z1 TAB IA IB d)) :=
  (bigSep_congr fun c _ => bigSep_sep' Finset.univ
      (fun s : Fin 16 => bigSep Finset.univ fun r : Fin 5 => (yLoc d ↦[chunk c s r]{fullShare} Z0 TAB IA IB d : sProp (MM F)))
      (fun s : Fin 16 => bigSep Finset.univ fun r : Fin 5 => (zLoc d ↦[chunk c s r]{fullShare} Z1 TAB IA IB d : sProp (MM F)))).trans
    (bigSep_sep' Finset.univ
      (fun c : Fin 2 => bigSep Finset.univ fun s : Fin 16 => bigSep Finset.univ fun r : Fin 5 => (yLoc d ↦[chunk c s r]{fullShare} Z0 TAB IA IB d : sProp (MM F)))
      (fun c : Fin 2 => bigSep Finset.univ fun s : Fin 16 => bigSep Finset.univ fun r : Fin 5 => (zLoc d ↦[chunk c s r]{fullShare} Z1 TAB IA IB d : sProp (MM F))))

omit [FloatOps F] in
theorem some_of {ℓ : Loc nD τ sig} (S : Finset (Idx ℓ)) (g : Buf (Elt F) ℓ) :
    (ℓ ↦[S]{fullShare} g : sProp (MM F)) ⊢ iprop(∃ f, ℓ ↦[S]{fullShare} f) := by
  iintro H; iexists _; iexact H

omit [FloatOps F] in
theorem ysome (d : Dev nD) (g : Buf (Elt F) (yLoc d)) :
    (bigSep Finset.univ fun c : Fin 2 => bigSep Finset.univ fun s : Fin 16 => bigSep Finset.univ fun r : Fin 5 => (yLoc d ↦[chunk c s r]{fullShare} g : sProp (MM F)))
      ⊢ bigSep Finset.univ fun c : Fin 2 => bigSep Finset.univ fun s : Fin 16 => bigSep Finset.univ fun r : Fin 5 => (iprop(∃ f, yLoc d ↦[chunk c s r]{fullShare} f) : sProp (MM F)) :=
  bigSep_mono fun c _ => bigSep_mono fun s _ => bigSep_mono fun r _ => some_of _ g
omit [FloatOps F] in
theorem zsome (d : Dev nD) (g : Buf (Elt F) (zLoc d)) :
    (bigSep Finset.univ fun c : Fin 2 => bigSep Finset.univ fun s : Fin 16 => bigSep Finset.univ fun r : Fin 5 => (zLoc d ↦[chunk c s r]{fullShare} g : sProp (MM F)))
      ⊢ bigSep Finset.univ fun c : Fin 2 => bigSep Finset.univ fun s : Fin 16 => bigSep Finset.univ fun r : Fin 5 => (iprop(∃ f, zLoc d ↦[chunk c s r]{fullShare} f) : sProp (MM F)) :=
  bigSep_mono fun c _ => bigSep_mono fun s _ => bigSep_mono fun r _ => some_of _ g

/-- Into the call: from the three read arrays whole and the two result columns whole at any contents, every
    SparseCore's start payload, and the share of the read arrays the TensorCore keeps meanwhile. -/
theorem st_intro (d : Dev nD) (gy : Buf (Elt F) (yLoc d)) (gz : Buf (Elt F) (zLoc d)) :
    iprop(rd TAB IA IB d fullShare ∗ (yLoc d ↦{fullShare} gy) ∗ (zLoc d ↦{fullShare} gz))
      ⊢ iprop((bigSep Finset.univ fun c : Fin ((K (F := F)).nCore 0) => (P TAB IA IB).st 0 d c) ∗ rd TAB IA IB d (shareDrop fullShare 2)) := by
  rw [bigSep_congr fun c _ => st_eq TAB IA IB d c,
    bigSep_cores (F := F) (fun c => iprop(rd TAB IA IB d (qC c) ∗ bigSep Finset.univ fun s : Fin 16 => outIn d c s)),
    bigSep_sep' Finset.univ (fun c : Fin 2 => rd TAB IA IB d (qC c)) (fun c : Fin 2 => bigSep Finset.univ fun s : Fin 16 => outIn (F := F) d c s),
    outIn_all, ycol_split, zcol_split]
  iintro ⟨Hrd, Hy, Hz⟩
  ihave Hrd' := (rd_split TAB IA IB d fullShare 2) $$ Hrd
  icases Hrd' with ⟨HR, HS⟩
  isplitr [HR]; rotate_left; · iexact HR
  isplitl [HS]; · iexact HS
  isplitl [Hy]
  · iapply (ysome d gy) $$ Hy
  · iapply (zsome d gz) $$ Hz

/-- Out of the call: from every SparseCore's done payload and the kept share, the three read arrays whole and unchanged
    and the two result columns whole at the values. -/
theorem dn_elim (d : Dev nD) :
    iprop((bigSep Finset.univ fun c : Fin ((K (F := F)).nCore 0) => (P TAB IA IB).dn 0 d c) ∗ rd TAB IA IB d (shareDrop fullShare 2))
      ⊢ iprop(rd TAB IA IB d fullShare ∗ (yLoc d ↦{fullShare} Z0 TAB IA IB d) ∗ (zLoc d ↦{fullShare} Z1 TAB IA IB d)) := by
  rw [bigSep_congr fun c _ => dn_eq TAB IA IB d c,
    bigSep_cores (F := F) (fun c => iprop(rd TAB IA IB d (qC c) ∗ bigSep Finset.univ fun s : Fin 16 => outDn TAB IA IB d c s)),
    bigSep_sep' Finset.univ (fun c : Fin 2 => rd TAB IA IB d (qC c)) (fun c : Fin 2 => bigSep Finset.univ fun s : Fin 16 => outDn TAB IA IB d c s),
    outDn_all, ycol_split, zcol_split]
  iintro ⟨⟨HS, Hy, Hz⟩, HR⟩
  isplitl [HS HR]
  · iapply (rd_join TAB IA IB d fullShare 2); isplitl [HR] <;> iassumption
  isplitl [Hy] <;> iassumption

/-- A SparseCore's payload among its vector subcores, and back. -/
theorem vecSplit : (K (F := F)).VecSplit' (P TAB IA IB) 0 := by
  intro d c
  rw [st_eq, dn_eq, bigSep_congr fun i _ => go_eq TAB IA IB d c i, bigSep_congr fun i _ => td_eq TAB IA IB d c i,
    bigSep_tiles (F := F) (fun i => iprop(rd TAB IA IB d (qT (Fin.cast nCore_zero c) i) ∗ outIn d (Fin.cast nCore_zero c) i)),
    bigSep_tiles (F := F) (fun i => iprop(rd TAB IA IB d (qT (Fin.cast nCore_zero c) i) ∗ outDn TAB IA IB d (Fin.cast nCore_zero c) i)),
    bigSep_sep' Finset.univ (fun i : Fin 16 => rd TAB IA IB d (qT (Fin.cast nCore_zero c) i)) (fun i : Fin 16 => outIn (F := F) d (Fin.cast nCore_zero c) i),
    bigSep_sep' Finset.univ (fun i : Fin 16 => rd TAB IA IB d (qT (Fin.cast nCore_zero c) i)) (fun i : Fin 16 => outDn TAB IA IB d (Fin.cast nCore_zero c) i)]
  iintro ⟨Hrd, Hout⟩
  ihave Hrd' := (rd_split TAB IA IB d (qC (Fin.cast nCore_zero c)) 16) $$ Hrd
  icases Hrd' with ⟨HR, HS⟩
  imodintro
  isplitl [HS Hout]
  · isplitl [HS] <;> iassumption
  iintro ⟨HS, Hout⟩
  isplitl [HR HS]
  · iapply (rd_join TAB IA IB d (qC (Fin.cast nCore_zero c)) 16); isplitl [HR] <;> iassumption
  · iexact Hout

end Split

end Cert.Kernel.Sc.Tile

end
-- ==== Proof.ScRunB.lean ====
/-
  The program's run at the named contents: the SparseCore call takes the table, the two index columns and the two
  result columns out of the TensorCore's unscoped buffers (the first three at a share it keeps part of across the
  call) and puts them back with the result columns written; with that and the two regions' thread states the launch
  theorem gives the run of @main and the thirty-two vector subcores, every unscoped buffer ending at the last
  boundary's contents.
-/
import proofs.«208457_g31284541784245_cont_9to1_2229_14_alg».proof.Proof.ScChainB
import proofs.«208457_g31284541784245_cont_9to1_2229_14_alg».proof.Proof.TileSplitB

noncomputable section

namespace Cert.Kernel.Sc.Chain

open Cert.Kernel Cert.Kernel.Gen Cert.Kernel.Sc
open Idealize.ShloMosaic Idealize.ShloMosaic.TcCoe
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Transfers (shareDrop)

variable {F : FTy → Type} [FloatOps F]
variable (m : (ℓ : Loc nD τ sig) → Buf (Elt F) ℓ)

/-! ## The five buffers of the SparseCore call -/

abbrev bT : DevRef τ sig := (main_v9 : DevRef τ sig)
abbrev bA : DevRef τ sig := (main_v11 : DevRef τ sig)
abbrev bB : DevRef τ sig := (main_v13 : DevRef τ sig)
abbrev bY : DevRef τ sig := (main_v14_0 : DevRef τ sig)
abbrev bZ : DevRef τ sig := (main_v14_1 : DevRef τ sig)
abbrev five : Finset (DevRef τ sig) := {bT, bA, bB, bY, bZ}

theorem five_sub : five ⊆ Launch.UC := by decide

theorem held_five (d : Dev nD) (W : Valuation τ sig (Elt F)) :
    (StableHlo.held (SparseCore.T d) five W : sProp (MM F))
      = iprop((Tile.tLoc d ↦{fullShare} W bT) ∗ (Tile.aLoc d ↦{fullShare} W bA) ∗ (Tile.bLoc d ↦{fullShare} W bB)
          ∗ (Tile.yLoc d ↦{fullShare} W bY) ∗ (Tile.zLoc d ↦{fullShare} W bZ)) := by
  unfold StableHlo.held
  show bigSep ({bT, bA, bB, bY, bZ} : Finset (DevRef τ sig)) _ = _
  rw [SparseCore.bigSep_insert' (by decide), SparseCore.bigSep_insert' (by decide), SparseCore.bigSep_insert' (by decide),
    SparseCore.bigSep_insert' (by decide), bigSep_singleton]

/-- The call's writes leave every other buffer, and the three arrays it reads, as they were. -/
theorem W4_T (d : Dev nD) : W4 m d bT = TAB m d :=
  (Function.update_of_ne (show bT ≠ bZ by decide) _ _).trans (Function.update_of_ne (show bT ≠ bY by decide) _ _)
theorem W4_A (d : Dev nD) : W4 m d bA = IA m d :=
  (Function.update_of_ne (show bA ≠ bZ by decide) _ _).trans (Function.update_of_ne (show bA ≠ bY by decide) _ _)
theorem W4_B (d : Dev nD) : W4 m d bB = IB m d :=
  (Function.update_of_ne (show bB ≠ bZ by decide) _ _).trans (Function.update_of_ne (show bB ≠ bY by decide) _ _)
theorem W4_Y (d : Dev nD) : W4 m d bY = Tile.Z0 (TAB m) (IA m) (IB m) d :=
  (Function.update_of_ne (show bY ≠ bZ by decide) _ _).trans (Function.update_self _ _ _)
theorem W4_Z (d : Dev nD) : W4 m d bZ = Tile.Z1 (TAB m) (IA m) (IB m) d := Function.update_self _ _ _
theorem W4_other (d : Dev nD) (b : DevRef τ sig) (hY : b ≠ bY) (hZ : b ≠ bZ) : W4 m d b = W3 m d b :=
  (Function.update_of_ne hZ _ _).trans (Function.update_of_ne hY _ _)

/-- What the TensorCore keeps across the call: its part of the share of the three read arrays, and every other buffer. -/
abbrev Keep (d : Dev nD) : sProp (MM F) :=
  iprop(Tile.rd (TAB m) (IA m) (IB m) d (shareDrop fullShare 2) ∗ StableHlo.held (SparseCore.T d) (Launch.UC \ five) (W3 m d))

set_option backward.isDefEq.respectTransparency.types false in
theorem hst (d : Dev nD) :
    StableHlo.held (SparseCore.T d) Launch.UC (StableHlo.after ops1 (W2 m d))
      ⊢ iprop((bigSep Finset.univ fun c : Fin ((K (F := F)).nCore 0) => (Tile.P (TAB m) (IA m) (IB m)).st 0 d c) ∗ Keep m d) := by
  have hs := Tile.st_intro (TAB m) (IA m) (IB m) d (W3 m d bY) (W3 m d bZ)
  show StableHlo.held (SparseCore.T d) Launch.UC (W3 m d) ⊢ _
  rw [StableHlo.held_sub_split (SparseCore.T d) five_sub (W3 m d), held_five]
  iintro ⟨⟨Ht, Ha, Hb, Hy, Hz⟩, Hrest⟩
  ihave H := hs $$ [Ht Ha Hb Hy Hz]
  · isplitl [Ht Ha Hb]
    · isplitl [Ht]; · iexact Ht
      isplitl [Ha]; · iexact Ha
      iexact Hb
    isplitl [Hy]; · iexact Hy
    iexact Hz
  icases H with ⟨Hst, Hrd⟩
  isplitl [Hst]; · iexact Hst
  isplitl [Hrd]; · iexact Hrd
  iexact Hrest

set_option backward.isDefEq.respectTransparency.types false in
theorem hdn (d : Dev nD) :
    iprop((bigSep Finset.univ fun c : Fin ((K (F := F)).nCore 0) => (Tile.P (TAB m) (IA m) (IB m)).dn 0 d c) ∗ Keep m d)
      ⊢ StableHlo.held (SparseCore.T d) Launch.UC (W4 m d) := by
  have hd := Tile.dn_elim (TAB m) (IA m) (IB m) d
  rw [StableHlo.held_sub_split (SparseCore.T d) five_sub (W4 m d), held_five, W4_T, W4_A, W4_B, W4_Y, W4_Z,
    StableHlo.held_congr (SparseCore.T d) (S := Launch.UC \ five) (V := W4 m d) (V' := W3 m d) (fun b hb => by
      have hn := (Finset.mem_sdiff.mp hb).2
      exact W4_other m d b (fun e => hn (by rw [e]; decide)) (fun e => hn (by rw [e]; decide)))]
  iintro ⟨Hdn, Hrd, Hrest⟩
  ihave H := hd $$ [Hdn Hrd]
  · isplitl [Hdn]; · iexact Hdn
    iexact Hrd
  icases H with ⟨⟨Ht, Ha, Hb⟩, Hy, Hz⟩
  isplitr [Hrest]
  · isplitl [Ht]; · iexact Ht
    isplitl [Ha]; · iexact Ha
    isplitl [Hb]; · iexact Hb
    isplitl [Hy]; · iexact Hy
    iexact Hz
  iexact Hrest

/-! ## The run -/

set_option backward.isDefEq.respectTransparency.types false in
/-- From any memory with zero counters whose index columns name nodes, every weakly fair execution of the program's
    threads terminates, nothing faulting, and every unscoped TensorCore buffer ends at the last boundary's contents. -/
theorem run_main [∀ e, Nonempty (Elt F e)] (g : Dev nD → PrngReg)
    (htile : (K (F := F)).TileObl (D (F := F)) 𝒱 (Tile.P (TAB m) (IA m) (IB m)) v₀ 0) :
    θ_run (Cert.Kernel.defs (F := F)) (Cert.Kernel.threads (F := F)) ⟨m, fun _ => 0, g⟩
      (fun r => ∀ d : Dev nD, ∀ b ∈ Launch.UC, r.2.mem (d, b) = W7 m d b) :=
  Launch.run_of (m := m) (g := g) (Py := Tile.P (TAB m) (IA m) (IB m)) (pdats := pd m) (R0 := R0 m) (R1 := R1 m)
    (W2 := W2 m) (W4 := W4 m) (W6 := W6 m) (Keep := Keep m) rfl (Tile.Px_emp (TAB m) (IA m) (IB m)) htile
    (Tile.vecSplit (TAB m) (IA m) (IB m)) (hpre0 m) (hpost0 m) (hst m) (hdn m) (hpre1 m) (hpost1 m)

end Cert.Kernel.Sc.Chain

end
-- ==== Proof.MlpValueB.lean ====
/-
  The dense layers' call (pipeline 0): the VALUE of its output array.

  The output has 10000 rows of four columns, written back in ten blocks of 1000 rows. Block t is the body's value
  (`k0_pay1`) of rows 1000 t .. 1000 t + 999 of the node features and of the six parameter arrays whole. So the
  whole array is ONE function `G0` of the seven input arrays: at row r, column k it is that value, for the block
  r / 1000, at row r % 1000 of the block and column k. Each point writes back the restriction of `G0` to its block,
  and the ten blocks cover the array.
-/
import proofs.«208457_g31284541784245_cont_9to1_2229_14_alg».proof.Proof.ScBaseB
import proofs.«208457_g31284541784245_cont_9to1_2229_14_alg».proof.Proof.Gen.Kernel.Launch
import proofs.«208457_g31284541784245_cont_9to1_2229_14_alg».proof.Proof.Gen.Kernel.Skeleton
import proofs.«208457_g31284541784245_cont_9to1_2229_14_alg».proof.Proof.Gen.Kernel.Points
import proofs.«208457_g31284541784245_cont_9to1_2229_14_alg».proof.Proof.MlpDatB
import Idealize.ShloMosaic.Lib.Pipeline.Value
import Idealize.ShloMosaic.Lib.ValueIdx
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Sc.Mlp

open Cert.Kernel Cert.Kernel.Gen
open Idealize.ShloMosaic Idealize.ShloMosaic.TcCoe Idealize.ShloMosaic.Tactic
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MM F

open Idealize.ShloMosaic.ValueIdx

theorem hz2 : (![0, 0] : Fin 2 → Nat) = fun _ => 0 := funext fun a => by fin_cases a <;> rfl

/-! ## The whole-array function -/

/-- Rows `1000 q .. 1000 q + 999` of the node features, as a block. -/
def blockRows (x : S10000x768.Idx → Elt F .f32) (q : Fin 10) : Vec F S1000x768 .f32 :=
  fun y => x (ix2 (⟨1000 * q.val + (y 0).val, by have h : (y 0).val < 1000 := (y 0).isLt; have := q.isLt; omega⟩ : Fin 10000)
    (⟨(y 1).val, (y 1).isLt⟩ : Fin 768))

/-- The block a row of the output lies in, and its place in the block. -/
def blkOf (j : S10000x4.Idx) : Fin 10 := ⟨(j 0).val / 1000, by have h : (j 0).val < 10000 := (j 0).isLt; omega⟩
def locOf (j : S10000x4.Idx) : S1000x4.Idx :=
  ix2 (⟨(j 0).val % 1000, Nat.mod_lt _ (by decide)⟩ : Fin 1000) (⟨(j 1).val, (j 1).isLt⟩ : Fin 4)

/-- The output array as one function of the seven input arrays: at an index, the body's value of the index's block
    of node features and of the parameters, at the index's place in the block. -/
def G0 (x : S10000x768.Idx → Elt F .f32) (W1 : Vec F S768x64 .f32) (b1 : Vec F S1x64 .f32) (W2 : Vec F S64x64 .f32)
    (b2 : Vec F S1x64 .f32) (wc : Vec F S64x4 .f32) (bc : Vec F S1x4 .f32) : S10000x4.Idx → Elt F .f32 :=
  fun j => k0_pay1 (blockRows x (blkOf j)) W1 b1 W2 b2 wc bc (locOf j)

theorem blkOf_eq (j : S10000x4.Idx) (t : Fin 10) (y : S1000x4.Idx) (h0 : (j 0).val = 1000 * t.val + (y 0).val) : blkOf j = t :=
  Fin.ext (by show (j 0).val / 1000 = t.val; have h : (y 0).val < 1000 := (y 0).isLt; omega)

theorem locOf_eq (j : S10000x4.Idx) (t : Fin 10) (y : S1000x4.Idx) (h0 : (j 0).val = 1000 * t.val + (y 0).val)
    (h1 : (j 1).val = (y 1).val) : locOf j = y := by
  funext a
  match a with
  | ⟨0, _⟩ => exact Fin.ext (by show (j 0).val % 1000 = (y 0).val; have h : (y 0).val < 1000 := (y 0).isLt; omega)
  | ⟨1, _⟩ => exact Fin.ext h1

/-! ## The printed index maps, decided over the grid -/

/-- The node features' and the output's block index is the point; every parameter window has the one block. -/
theorem idx_facts : ∀ t : Fin cfg0.N, win0_0.index t (0 : Fin 2) = t.val
    ∧ win0_0.index t (1 : Fin 2) = 0
    ∧ win0_7.index t (0 : Fin 2) = t.val
    ∧ win0_7.index t (1 : Fin 2) = 0
    ∧ win0_1.index t (0 : Fin 2) = 0
    ∧ win0_1.index t (1 : Fin 2) = 0
    ∧ win0_2.index t (0 : Fin 2) = 0
    ∧ win0_2.index t (1 : Fin 2) = 0
    ∧ win0_3.index t (0 : Fin 2) = 0
    ∧ win0_3.index t (1 : Fin 2) = 0
    ∧ win0_4.index t (0 : Fin 2) = 0
    ∧ win0_4.index t (1 : Fin 2) = 0
    ∧ win0_5.index t (0 : Fin 2) = 0
    ∧ win0_5.index t (1 : Fin 2) = 0
    ∧ win0_6.index t (0 : Fin 2) = 0
    ∧ win0_6.index t (1 : Fin 2) = 0 :=
  (by decide +kernel : ∀ t : Fin grid0.N, _)

section Region
variable (V : (c : Dev nD) → (b : Ref sig .tc) → Buf (Elt F) ((c : Thread nD τ).loc b))
  (O : Dev nD → CellTallies nD τ sig (HIx 1)) (B : Dev nD → Set (SemLoc sig × HIx 1))

/-! ## The blocks, read off the arrays -/

/-- Window 0's block at point `t` is rows `1000 t ..` of the node features. -/
theorem iblk0_eq (c : Dev nD) (t : Fin cfg0.N) :
    iblk V c 0 t = blockRows (V c main_arg2) ⟨t.val, lt_of_lt_of_eq t.isLt N_0⟩ := by
  have e := idx_facts t
  funext z
  show V c main_arg2 (((cfg0.win 0).blk t).view.emb z) = V c main_arg2 (ix2 _ _)
  refine congrArg _ (funext fun a => Fin.ext ?_)
  match a with
  | ⟨0, _⟩ => show win0_0.index t (0 : Fin 2) * 1000 + 1 * (z 0).val = 1000 * t.val + (z 0).val; omega
  | ⟨1, _⟩ => show win0_0.index t (1 : Fin 2) * 768 + 1 * (z 1).val = (z 1).val; omega

/-- Window 1 has one block: the whole array. -/
theorem iblk1_eq (c : Dev nD) (t : Fin cfg0.N) : iblk V c 1 t = V c main_arg4 := by
  have e := idx_facts t
  funext z
  show V c main_arg4 (((cfg0.win 1).blk t).view.emb z) = V c main_arg4 z
  refine congrArg _ (funext fun a => Fin.ext ?_)
  match a with
  | ⟨0, _⟩ => show win0_1.index t (0 : Fin 2) * 768 + 1 * (z 0).val = (z 0).val; omega
  | ⟨1, _⟩ => show win0_1.index t (1 : Fin 2) * 64 + 1 * (z 1).val = (z 1).val; omega

/-- Window 2 has one block: the whole array. -/
theorem iblk2_eq (c : Dev nD) (t : Fin cfg0.N) : iblk V c 2 t = V c main_v6 := by
  have e := idx_facts t
  funext z
  show V c main_v6 (((cfg0.win 2).blk t).view.emb z) = V c main_v6 z
  refine congrArg _ (funext fun a => Fin.ext ?_)
  match a with
  | ⟨0, _⟩ => show win0_2.index t (0 : Fin 2) * 1 + 1 * (z 0).val = (z 0).val; omega
  | ⟨1, _⟩ => show win0_2.index t (1 : Fin 2) * 64 + 1 * (z 1).val = (z 1).val; omega

/-- Window 3 has one block: the whole array. -/
theorem iblk3_eq (c : Dev nD) (t : Fin cfg0.N) : iblk V c 3 t = V c main_arg6 := by
  have e := idx_facts t
  funext z
  show V c main_arg6 (((cfg0.win 3).blk t).view.emb z) = V c main_arg6 z
  refine congrArg _ (funext fun a => Fin.ext ?_)
  match a with
  | ⟨0, _⟩ => show win0_3.index t (0 : Fin 2) * 64 + 1 * (z 0).val = (z 0).val; omega
  | ⟨1, _⟩ => show win0_3.index t (1 : Fin 2) * 64 + 1 * (z 1).val = (z 1).val; omega

/-- Window 4 has one block: the whole array. -/
theorem iblk4_eq (c : Dev nD) (t : Fin cfg0.N) : iblk V c 4 t = V c main_v7 := by
  have e := idx_facts t
  funext z
  show V c main_v7 (((cfg0.win 4).blk t).view.emb z) = V c main_v7 z
  refine congrArg _ (funext fun a => Fin.ext ?_)
  match a with
  | ⟨0, _⟩ => show win0_4.index t (0 : Fin 2) * 1 + 1 * (z 0).val = (z 0).val; omega
  | ⟨1, _⟩ => show win0_4.index t (1 : Fin 2) * 64 + 1 * (z 1).val = (z 1).val; omega

/-- Window 5 has one block: the whole array. -/
theorem iblk5_eq (c : Dev nD) (t : Fin cfg0.N) : iblk V c 5 t = V c main_v2 := by
  have e := idx_facts t
  funext z
  show V c main_v2 (((cfg0.win 5).blk t).view.emb z) = V c main_v2 z
  refine congrArg _ (funext fun a => Fin.ext ?_)
  match a with
  | ⟨0, _⟩ => show win0_5.index t (0 : Fin 2) * 64 + 1 * (z 0).val = (z 0).val; omega
  | ⟨1, _⟩ => show win0_5.index t (1 : Fin 2) * 4 + 1 * (z 1).val = (z 1).val; omega

/-- Window 6 has one block: the whole array. -/
theorem iblk6_eq (c : Dev nD) (t : Fin cfg0.N) : iblk V c 6 t = V c main_v5 := by
  have e := idx_facts t
  funext z
  show V c main_v5 (((cfg0.win 6).blk t).view.emb z) = V c main_v5 z
  refine congrArg _ (funext fun a => Fin.ext ?_)
  match a with
  | ⟨0, _⟩ => show win0_6.index t (0 : Fin 2) * 1 + 1 * (z 0).val = (z 0).val; omega
  | ⟨1, _⟩ => show win0_6.index t (1 : Fin 2) * 4 + 1 * (z 1).val = (z 1).val; omega

/-! ## From the blocks to the array -/

/-- What point `t` writes back is block `t` of `G0` of the arrays as the region finds them. -/
theorem flushed_eq (c : Dev nD) (t : Fin cfg0.N) :
    (dat0 V O B c).flushed 7 t = ((cfg0.win 7).blk t).view.read (Elt F)
      (G0 (V c main_arg2) (V c main_arg4) (V c main_v6) (V c main_arg6) (V c main_v7) (V c main_v2) (V c main_v5)) := by
  show (cfg0.win 7).cut (grid0.coords t) ((dat0 V O B c).after 7 t) = _
  rw [after7]
  unfold out7
  rw [View.canon_unit_zero hz2]
  simp only [View.ld_unit_zero (S := S1000x768) hz2, View.ld_unit_zero (S := S768x64) hz2, View.ld_unit_zero (S := S1x64) hz2,
    View.ld_unit_zero (S := S64x64) hz2, View.ld_unit_zero (S := S64x4) hz2, View.ld_unit_zero (S := S1x4) hz2]
  rw [iblk0_eq, iblk1_eq, iblk2_eq, iblk3_eq, iblk4_eq, iblk5_eq, iblk6_eq]
  have e := idx_facts t
  funext y
  show k0_pay1 (blockRows (V c main_arg2) ⟨t.val, lt_of_lt_of_eq t.isLt N_0⟩) (V c main_arg4) (V c main_v6) (V c main_arg6) (V c main_v7) (V c main_v2) (V c main_v5) y
    = k0_pay1 (blockRows (V c main_arg2) (blkOf (((cfg0.win 7).blk t).view.emb y))) (V c main_arg4) (V c main_v6) (V c main_arg6) (V c main_v7) (V c main_v2) (V c main_v5)
        (locOf (((cfg0.win 7).blk t).view.emb y))
  have h0 : ((((cfg0.win 7).blk t).view.emb y) 0).val = 1000 * t.val + (y 0).val := by
    show win0_7.index t (0 : Fin 2) * 1000 + 1 * (y 0).val = 1000 * t.val + (y 0).val; omega
  have h1 : ((((cfg0.win 7).blk t).view.emb y) 1).val = (y 1).val := by
    show win0_7.index t (1 : Fin 2) * 4 + 1 * (y 1).val = (y 1).val; omega
  rw [blkOf_eq _ ⟨t.val, lt_of_lt_of_eq t.isLt N_0⟩ y h0, locOf_eq _ ⟨t.val, lt_of_lt_of_eq t.isLt N_0⟩ y h0 h1]

/-- An index of the output array is in point `t`'s block iff each coordinate is in the block's range. -/
theorem mem_blk (t : Fin cfg0.N) (i : S10000x4.Idx) :
    i ∈ ((cfg0.win 7).blk t).view.set ↔ ∀ a : Fin 2, win0_7.index t a * S1000x4.size a ≤ (i a).val ∧ (i a).val < win0_7.index t a * S1000x4.size a + S1000x4.size a := by
  show i ∈ ((View.whole main_v8).slice (win0_7.rect t)).set ↔ _
  rw [View.set_slice_whole, Rect.mem_set_unit]
  exact Iff.rfl

/-- Every index of the output array is in the block of the point its row's thousand names. -/
theorem cover (i : S10000x4.Idx) : ∃ t : Fin cfg0.N, (cfg0.win 7).flush t = true ∧ i ∈ ((cfg0.win 7).blk t).view.set := by
  have hi0 : (i 0).val < 10000 := (i 0).isLt
  have hi1 : (i 1).val < 4 := (i 1).isLt
  let t : Fin cfg0.N := ⟨(i 0).val / 1000, by rw [show cfg0.N = 10 from N_0]; omega⟩
  have e := idx_facts t
  refine ⟨t, flush0_7 t, ?_⟩
  rw [mem_blk]
  intro a
  match a with
  | ⟨0, _⟩ => show win0_7.index t (0 : Fin 2) * 1000 ≤ (i 0).val ∧ (i 0).val < win0_7.index t (0 : Fin 2) * 1000 + 1000
              have ht : t.val = (i 0).val / 1000 := rfl
              omega
  | ⟨1, _⟩ => show win0_7.index t (1 : Fin 2) * 4 ≤ (i 1).val ∧ (i 1).val < win0_7.index t (1 : Fin 2) * 4 + 4; omega

/-- THE OUTPUT ARRAY after the region: `G0` of the seven input arrays as the region finds them. -/
theorem final (c : Dev nD) :
    (dat0 V O B c).arrAt 7 cfg0.N
      = G0 (V c main_arg2) (V c main_arg4) (V c main_v6) (V c main_arg6) (V c main_v7) (V c main_v2) (V c main_v5) :=
  (dat0 V O B c).arrAt_eq_of_cover 7 _ (fun t _ => flushed_eq V O B c t) cover

/-- The input arrays are as the region found them. -/
theorem kept (c : Dev nD) (w : Fin cfg0.W) (hw : (cfg0.win w).isOut = false) :
    (dat0 V O B c).arrAt w cfg0.N = V c (Pipeline.arrRef spec0 w) :=
  ((dat0 V O B c).arrAt_in w hw _).trans (A_eq V O B c w)

end Region

end Cert.Kernel.Sc.Mlp

end
-- ==== Proof.LossValueB.lean ====
/-
  The loss call (pipeline 1): the VALUE of its output array.

  The output array has one element and one block, written back after the last grid point only. What is written is the
  running sum after the last point divided by the number of pairs (`k2_pay2`). The running sum is the five block
  sums added up from zero in point order; block t of an input is rows 1000 t .. 1000 t + 999 of its array.
-/
import proofs.«208457_g31284541784245_cont_9to1_2229_14_alg».proof.Proof.ScBaseB
import proofs.«208457_g31284541784245_cont_9to1_2229_14_alg».proof.Proof.Gen.Kernel.Launch
import proofs.«208457_g31284541784245_cont_9to1_2229_14_alg».proof.Proof.Gen.Kernel.Skeleton
import proofs.«208457_g31284541784245_cont_9to1_2229_14_alg».proof.Proof.Gen.Kernel.Points
import proofs.«208457_g31284541784245_cont_9to1_2229_14_alg».proof.Proof.LossDatB
import Idealize.ShloMosaic.Lib.Pipeline.Value
import Idealize.ShloMosaic.Lib.ValueIdx
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Sc.Loss

open Cert.Kernel Cert.Kernel.Gen
open Idealize.ShloMosaic Idealize.ShloMosaic.TcCoe Idealize.ShloMosaic.Tactic
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MM F

open Idealize.ShloMosaic.ValueIdx

/-! ## The body's two values as arithmetic -/

/-- The cross entropy of the two logit blocks at the label block, element by element: the larger logit plus the log
    of the two exponentials taken off it, minus the logit the label selects (label 0 the first, any other the second). -/
def blockNll (x0 x1 : Vec F S1000x128 .f32) (x2 : Vec F S1000x128 .i32) : FVec F S1000x128 .f32 :=
  have z0 : FVec F S1000x128 .f32 := shapeCast S1000x128 x0 shapeCasts_S1000x128_S1000x128
  have z1 : FVec F S1000x128 .f32 := shapeCast S1000x128 x1 shapeCasts_S1000x128_S1000x128
  have mx : FVec F S1000x128 .f32 := maximumf z0 z1
  subf (addf mx (log (addf (exp (subf z0 mx)) (exp (subf z1 mx)))))
    (select (cmpi .eq (shapeCast S1000x128 x2 shapeCasts_S1000x128_S1000x128 : IVec S1000x128 32) (broadcast S1000x128 0#32)) z0 z1)

/-- The block's sum: the 128000 terms reduced to one number. -/
def blockSum (x0 x1 : Vec F S1000x128 .f32) (x2 : Vec F S1000x128 .i32) : F .f32 :=
  extractAt ![0, 0, 0]
    (shapeCast S1x1x1
      (multiReduction .add [1, 2] S1 (shapeCast S1x1000x128 (blockNll x0 x1 x2) shapeCasts_S1000x128_S1x1000x128) 0x00000000#32
        reduces_S1x1000x128_S1 (.inl rfl) rfl : FVec F S1 .f32)
      shapeCasts_S1_S1x1x1 : FVec F S1x1x1 .f32)
    inpos_S1x1x1_p0_0_0

/-- The accumulating store's value is the word read back plus the block's sum; -/
theorem pay1_eq (x0 x1 : Vec F S1000x128 .f32) (x2 : Vec F S1000x128 .i32) (v : Elt F .f32) :
    k2_pay1 x0 x1 x2 v = Scalar.addf v (blockSum x0 x1 x2) := rfl

/-- the output's, the word divided by the float word of 640000. -/
theorem pay2_eq (v : Elt F .f32) : k2_pay2 v = (broadcast S1x1 (Scalar.divf v (Scalar.ofBits .f32 0x491C4000#32)) : FVec F S1x1 .f32) := rfl

/-! ## The blocks, read off the arrays -/

/-- Rows `1000 q .. 1000 q + 999` of an array of 5000 rows of 128, as a block. -/
def blockRows {e : EltTy} (x : S5000x128.Idx → Elt F e) (q : Fin 5) : Vec F S1000x128 e :=
  fun y => x (ix2 (⟨1000 * q.val + (y 0).val, by have h : (y 0).val < 1000 := (y 0).isLt; have := q.isLt; omega⟩ : Fin 5000)
    (⟨(y 1).val, (y 1).isLt⟩ : Fin 128))

/-- The inputs' block index is the point; the output has the one block. -/
theorem idx_facts : ∀ t : Fin cfg2.N, win2_0.index t (0 : Fin 2) = t.val ∧ win2_0.index t (1 : Fin 2) = 0
    ∧ win2_1.index t (0 : Fin 2) = t.val ∧ win2_1.index t (1 : Fin 2) = 0
    ∧ win2_2.index t (0 : Fin 2) = t.val ∧ win2_2.index t (1 : Fin 2) = 0
    ∧ win2_3.index t (0 : Fin 2) = 0 ∧ win2_3.index t (1 : Fin 2) = 0 :=
  (by decide +kernel : ∀ t : Fin grid2.N, _)

section Region
variable (V : (c : Dev nD) → (b : Ref sig .tc) → Buf (Elt F) ((c : Thread nD τ).loc b))
  (O : Dev nD → CellTallies nD τ sig (HIx 1)) (B : Dev nD → Set (SemLoc sig × HIx 1))

theorem iblk0_eq (c : Dev nD) (t : Fin cfg2.N) :
    iblk V c 0 t = blockRows (V c main_v15) ⟨t.val, lt_of_lt_of_eq t.isLt N_2⟩ := by
  have e := idx_facts t
  funext z
  show V c main_v15 (((cfg2.win 0).blk t).view.emb z) = V c main_v15 (ix2 _ _)
  refine congrArg _ (funext fun a => Fin.ext ?_)
  match a with
  | ⟨0, _⟩ => show win2_0.index t (0 : Fin 2) * 1000 + 1 * (z 0).val = 1000 * t.val + (z 0).val; omega
  | ⟨1, _⟩ => show win2_0.index t (1 : Fin 2) * 128 + 1 * (z 1).val = (z 1).val; omega

theorem iblk1_eq (c : Dev nD) (t : Fin cfg2.N) :
    iblk V c 1 t = blockRows (V c main_v16) ⟨t.val, lt_of_lt_of_eq t.isLt N_2⟩ := by
  have e := idx_facts t
  funext z
  show V c main_v16 (((cfg2.win 1).blk t).view.emb z) = V c main_v16 (ix2 _ _)
  refine congrArg _ (funext fun a => Fin.ext ?_)
  match a with
  | ⟨0, _⟩ => show win2_1.index t (0 : Fin 2) * 1000 + 1 * (z 0).val = 1000 * t.val + (z 0).val; omega
  | ⟨1, _⟩ => show win2_1.index t (1 : Fin 2) * 128 + 1 * (z 1).val = (z 1).val; omega

theorem iblk2_eq (c : Dev nD) (t : Fin cfg2.N) :
    iblk V c 2 t = blockRows (V c main_v17) ⟨t.val, lt_of_lt_of_eq t.isLt N_2⟩ := by
  have e := idx_facts t
  funext z
  show V c main_v17 (((cfg2.win 2).blk t).view.emb z) = V c main_v17 (ix2 _ _)
  refine congrArg _ (funext fun a => Fin.ext ?_)
  match a with
  | ⟨0, _⟩ => show win2_2.index t (0 : Fin 2) * 1000 + 1 * (z 0).val = 1000 * t.val + (z 0).val; omega
  | ⟨1, _⟩ => show win2_2.index t (1 : Fin 2) * 128 + 1 * (z 1).val = (z 1).val; omega

/-! ## The running sum, unrolled -/

/-- Block `k`'s sum, of the three arrays as the region finds them. -/
def s (c : Dev nD) (k : Fin 5) : F .f32 :=
  blockSum (blockRows (V c main_v15) k) (blockRows (V c main_v16) k) (blockRows (V c main_v17) k)

theorem lt4 : 4 < cfg2.N := by rw [show cfg2.N = 5 from N_2]; decide

/-- The running sum after the last point: the five block sums added up from zero, in point order. -/
theorem acc4_eq (c : Dev nD) :
    acc V c 4 lt4 = Scalar.addf (Scalar.addf (Scalar.addf (Scalar.addf (Scalar.addf (Scalar.ofBits .f32 0x00000000#32)
      (s V c 0)) (s V c 1)) (s V c 2)) (s V c 3)) (s V c 4) := by
  unfold acc acc acc acc acc
  simp only [pay1_eq, iblk0_eq, iblk1_eq, iblk2_eq]
  rfl

/-! ## From the one block to the array -/

/-- The output array after the region. -/
def lossVal (c : Dev nD) : Vec F S1x1 .f32 := k2_pay2 (acc V c 4 lt4)

/-- What the last point writes back is the one block of `lossVal`. -/
theorem flushed_eq (c : Dev nD) (t : Fin cfg2.N) (hf : (cfg2.win 3).flush t = true) :
    (dat2 V O B c).flushed 3 t = ((cfg2.win 3).blk t).view.read (Elt F) (lossVal V c) := by
  have ht : t.val = 4 := by
    have := (flush2_3 t).mp hf
    have hN : t.val < 5 := lt_of_lt_of_eq t.isLt (show cfg2.N = 5 from N_2)
    omega
  have e := idx_facts t
  show (cfg2.win 3).cut (grid2.coords t) ((dat2 V O B c).after 3 t) = _
  rw [after3]
  obtain ⟨n, hn⟩ := t
  obtain rfl : n = 4 := ht
  funext y
  show k2_pay2 (acc V c 4 hn) y = k2_pay2 (acc V c 4 lt4) (((cfg2.win 3).blk ⟨4, hn⟩).view.emb y)
  refine congrArg _ (funext fun a => Fin.ext ?_)
  match a with
  | ⟨0, _⟩ => show (y 0).val = win2_3.index ⟨4, hn⟩ (0 : Fin 2) * 1 + 1 * (y 0).val; omega
  | ⟨1, _⟩ => show (y 1).val = win2_3.index ⟨4, hn⟩ (1 : Fin 2) * 1 + 1 * (y 1).val; omega

theorem mem_blk (t : Fin cfg2.N) (i : S1x1.Idx) :
    i ∈ ((cfg2.win 3).blk t).view.set ↔ ∀ a : Fin 2, win2_3.index t a * S1x1.size a ≤ (i a).val ∧ (i a).val < win2_3.index t a * S1x1.size a + S1x1.size a := by
  show i ∈ ((View.whole main_v18).slice (win2_3.rect t)).set ↔ _
  rw [View.set_slice_whole, Rect.mem_set_unit]
  exact Iff.rfl

/-- The one element is in the last point's block. -/
theorem cover (i : S1x1.Idx) : ∃ t : Fin cfg2.N, (cfg2.win 3).flush t = true ∧ i ∈ ((cfg2.win 3).blk t).view.set := by
  have hi0 : (i 0).val < 1 := (i 0).isLt
  have hi1 : (i 1).val < 1 := (i 1).isLt
  let t : Fin cfg2.N := ⟨4, lt4⟩
  have e := idx_facts t
  refine ⟨t, (flush2_3 t).mpr rfl, ?_⟩
  rw [mem_blk]
  intro a
  match a with
  | ⟨0, _⟩ => show win2_3.index t (0 : Fin 2) * 1 ≤ (i 0).val ∧ (i 0).val < win2_3.index t (0 : Fin 2) * 1 + 1; omega
  | ⟨1, _⟩ => show win2_3.index t (1 : Fin 2) * 1 ≤ (i 1).val ∧ (i 1).val < win2_3.index t (1 : Fin 2) * 1 + 1; omega

/-- THE OUTPUT ARRAY after the region: the running sum after the last point, divided by the number of pairs. -/
theorem final (c : Dev nD) : (dat2 V O B c).arrAt 3 cfg2.N = lossVal V c :=
  (dat2 V O B c).arrAt_eq_of_cover 3 _ (fun t hf => flushed_eq V O B c t hf) cover

/-- The same, spelt out: the five block sums added up from zero and divided by the float word of 640000. -/
theorem final_spelt (c : Dev nD) :
    (dat2 V O B c).arrAt 3 cfg2.N = (broadcast S1x1 (Scalar.divf
      (Scalar.addf (Scalar.addf (Scalar.addf (Scalar.addf (Scalar.addf (Scalar.ofBits .f32 0x00000000#32)
        (s V c 0)) (s V c 1)) (s V c 2)) (s V c 3)) (s V c 4))
      (Scalar.ofBits .f32 0x491C4000#32)) : FVec F S1x1 .f32) := by
  rw [final, lossVal, acc4_eq, pay2_eq]

/-- The input arrays are as the region found them. -/
theorem kept (c : Dev nD) (w : Fin cfg2.W) (hw : (cfg2.win w).isOut = false) :
    (dat2 V O B c).arrAt w cfg2.N = V c (Pipeline.arrRef spec2 w) :=
  ((dat2 V O B c).arrAt_in w hw _).trans (A_eq V O B c w)

end Region

end Cert.Kernel.Sc.Loss

end
-- ==== Proof.MlpLossExitB.lean ====
/-
  The two regions' exit contents, read: after the dense layers' call the buffer of its output holds `Mlp.G0` of the
  seven input arrays as the region found them and every other buffer of the TensorCore holds what it held; after the
  loss call the one-element output holds `Loss.lossVal` and every other buffer what it held. (An input array of a call
  is one of its windows' arrays: the pipeline never writes it.)
-/
import proofs.«208457_g31284541784245_cont_9to1_2229_14_alg».proof.Proof.ScBaseB
import proofs.«208457_g31284541784245_cont_9to1_2229_14_alg».proof.Proof.Gen.Kernel.Launch
import proofs.«208457_g31284541784245_cont_9to1_2229_14_alg».proof.Proof.Gen.Kernel.Skeleton
import proofs.«208457_g31284541784245_cont_9to1_2229_14_alg».proof.Proof.Gen.Kernel.Points
import proofs.«208457_g31284541784245_cont_9to1_2229_14_alg».proof.Proof.MlpLossRegionsB
import proofs.«208457_g31284541784245_cont_9to1_2229_14_alg».proof.Proof.MlpValueB
import proofs.«208457_g31284541784245_cont_9to1_2229_14_alg».proof.Proof.LossValueB
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Sc

open Cert.Kernel Cert.Kernel.Gen
open Idealize.ShloMosaic Idealize.ShloMosaic.TcCoe Idealize.ShloMosaic.Tactic
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MM F

section Exit

variable (Wa Wb : Dev nD → Valuation τ sig (Elt F))
  (Oa Ob : Dev nD → CellTallies nD τ sig (HIx 1)) (Ba Bb : Dev nD → Set (SemLoc sig × HIx 1))

/-- Every window of the dense layers' call but the last is an input; the last one's array is the output buffer. -/
theorem Mlp.isIn : ∀ w : Fin cfg0.W, Pipeline.arrRef spec0 w ≠ main_v8 → (cfg0.win w).isOut = false := by decide
theorem Loss.isIn : ∀ w : Fin cfg2.W, Pipeline.arrRef spec2 w ≠ main_v18 → (cfg2.win w).isOut = false := by decide

/-- After the dense layers' call its output buffer holds `G0` of the seven input arrays as entered; -/
theorem Mlp.exit_out (c : Dev nD) :
    Mlp.Wexit Wa Oa Ba c (Proc.devRef .tc main_v8)
      = Mlp.G0 (Vof Wa c main_arg2) (Vof Wa c main_arg4) (Vof Wa c main_v6) (Vof Wa c main_arg6) (Vof Wa c main_v7) (Vof Wa c main_v2) (Vof Wa c main_v5) :=
  (Mlp.Wexit_arr Wa Oa Ba c 7).trans (Mlp.final (Vof Wa) Oa Ba c)

/-- every other buffer of the TensorCore what it held. -/
theorem Mlp.exit_other (c : Dev nD) (b : Ref sig .tc) (hb : b ≠ main_v8) :
    Mlp.Wexit Wa Oa Ba c (Proc.devRef .tc b) = Wa c (Proc.devRef .tc b) := by
  by_cases h : ∃ w, Pipeline.arrRef spec0 w = b
  · obtain ⟨w, rfl⟩ := h
    exact (Mlp.Wexit_arr Wa Oa Ba c w).trans (Mlp.kept (Vof Wa) Oa Ba c w (Mlp.isIn w hb))
  · exact Mlp.Wexit_of_ne Wa Oa Ba c b fun w e => h ⟨w, e⟩

/-- After the loss call its one-element output holds the running sum after the last point over the number of pairs; -/
theorem Loss.exit_out (c : Dev nD) :
    Loss.Wexit Wb Ob Bb c (Proc.devRef .tc main_v18) = Loss.lossVal (Vof Wb) c :=
  (Loss.Wexit_arr Wb Ob Bb c 3).trans (Loss.final (Vof Wb) Ob Bb c)

/-- every other buffer of the TensorCore what it held. -/
theorem Loss.exit_other (c : Dev nD) (b : Ref sig .tc) (hb : b ≠ main_v18) :
    Loss.Wexit Wb Ob Bb c (Proc.devRef .tc b) = Wb c (Proc.devRef .tc b) := by
  by_cases h : ∃ w, Pipeline.arrRef spec2 w = b
  · obtain ⟨w, rfl⟩ := h
    exact (Loss.Wexit_arr Wb Ob Bb c w).trans (Loss.kept (Vof Wb) Ob Bb c w (Loss.isIn w hb))
  · exact Loss.Wexit_of_ne Wb Ob Bb c b fun w e => h ⟨w, e⟩

end Exit

end Cert.Kernel.Sc

end
-- ==== Proof.GlueOps0B.lean ====
/-
  The host operations before the node-table call, read at an index.
  The [128, 2] classifier is cut into its rows 0..63 and its rows 64..127 and the two halves are set side by side into a
  [64, 4] array: column `l` is column `l` of the upper half, column `2 + l` is column `l` of the lower half. The bias of 2
  entries is extended by two zeros to 4 entries and viewed as a [1, 4] row; the two hidden layers' biases are viewed as
  [1, 64] rows. The ten argument arrays are left as they were.
-/
import proofs.«208457_g31284541784245_cont_9to1_2229_14_alg».proof.Proof.ScMainB
import proofs.«208457_g31284541784245_cont_9to1_2229_14_alg».proof.Proof.Spec
import Idealize.ShloMosaic.Lib.ValueIdx
import Idealize.ShloMosaic.Lib.ValueLayout
import Idealize.ShloMosaic.Lib.Pipeline.Value
import Idealize.ShloMosaic.Lib.StableHlo.Run

noncomputable section

namespace Cert.Kernel.Sc.Glue

open Cert.Kernel Cert.Kernel.Gen Cert.Kernel.Sc
open Idealize.ShloMosaic Idealize.ShloMosaic.TcCoe Idealize.ShloMosaic.ValueIdx Idealize.SL.Sem Idealize.ShloMosaic.StableHlo

variable {F : FTy → Type} [FloatOps F]

/-- The [64, 4] classifier as the operations' term of the [128, 2] classifier. -/
theorem ops0_v2_term (V : Valuation τ sig (Elt F)) :
    (after (ops0 (F := F)) V (main_v2 : DevRef τ sig) : S64x4.Idx → F .f32)
      = concatenate S64x4 1
          [⟨S64x2, extractStridedSlice S64x2 ![0, 0] (V (main_arg8 : DevRef τ sig) : S128x2.Idx → F .f32) slices_S128x2_S64x2_0_0⟩,
           ⟨S64x2, extractStridedSlice S64x2 ![64, 0] (V (main_arg8 : DevRef τ sig) : S128x2.Idx → F .f32) slices_S128x2_S64x2_64_0⟩]
          concatenates_S64x2_S64x2_S64x4_d1 := by
  after_results_simp
  rfl

/-- Column `l` of the [64, 4] classifier, row `k`: row `k` of the upper half, label `l`. -/
theorem ops0_v2_left (V : Valuation τ sig (Elt F)) (k : Fin 64) (l : Fin 2) :
    (after (ops0 (F := F)) V (main_v2 : DevRef τ sig) : S64x4.Idx → F .f32) (ix2 k (⟨l.val, by omega⟩ : Fin 4))
      = (V (main_arg8 : DevRef τ sig) : S128x2.Idx → F .f32) (ix2 (Cert.Spec.top k) l) := by
  rw [ops0_v2_term]
  refine (concatenate_pair_apply_left (t := S64x4) (s₁ := S64x2) (s₂ := S64x2) (1 : Fin 2) _ _ _
    (ix2 k (⟨l.val, by omega⟩ : Fin 4)) (by rfl) (ix2 k l) fun b => ?_).trans ?_
  · match b with
    | ⟨0, _⟩ => rfl
    | ⟨1, _⟩ => rfl
  · refine extractStridedSlice_apply (s := S128x2) (t := S64x2) _ _ _ (ix2 k l) (ix2 (Cert.Spec.top k) l) fun a => ?_
    match a with
    | ⟨0, _⟩ => show k.val = 0 + k.val; omega
    | ⟨1, _⟩ => show l.val = 0 + l.val; omega

/-- Column `2 + l` of the [64, 4] classifier, row `k`: row `k` of the lower half, label `l`. -/
theorem ops0_v2_right (V : Valuation τ sig (Elt F)) (k : Fin 64) (l : Fin 2) :
    (after (ops0 (F := F)) V (main_v2 : DevRef τ sig) : S64x4.Idx → F .f32) (ix2 k (⟨2 + l.val, by omega⟩ : Fin 4))
      = (V (main_arg8 : DevRef τ sig) : S128x2.Idx → F .f32) (ix2 (Cert.Spec.bot k) l) := by
  rw [ops0_v2_term]
  refine (concatenate_pair_apply_right (t := S64x4) (s₁ := S64x2) (s₂ := S64x2) (1 : Fin 2) _ _ _
    (ix2 k (⟨2 + l.val, by omega⟩ : Fin 4)) (by rfl) (by rfl) (ix2 k l) (fun b hb => ?_) ?_).trans ?_
  · match b with
    | ⟨0, _⟩ => rfl
    | ⟨1, _⟩ => exact absurd rfl hb
  · show l.val + 2 = 2 + l.val
    omega
  · refine extractStridedSlice_apply (s := S128x2) (t := S64x2) _ _ _ (ix2 k l) (ix2 (Cert.Spec.bot k) l) fun a => ?_
    match a with
    | ⟨0, _⟩ => show 64 + k.val = 64 + k.val; rfl
    | ⟨1, _⟩ => show l.val = 0 + l.val; omega

/-- The [1, 4] bias row as the operations' term of the bias. -/
theorem ops0_v5_term (V : Valuation τ sig (Elt F)) :
    (after (ops0 (F := F)) V (main_v5 : DevRef τ sig) : S1x4.Idx → F .f32)
      = broadcastInDim S1x4 ![1] bcast_S4_S1x4_1
          (concatenate S4 0
            [⟨S2, (V (main_arg9 : DevRef τ sig) : S2.Idx → F .f32)⟩,
             ⟨S2, broadcastInDim S2 ![] bcast_S_S2 (constant (F := F) S_ .f32 0x00000000#32)⟩]
            concatenates_S2_S2_S4_d0) := by
  after_results_simp
  rfl

/-- A vector of 4 entries viewed as a [1, 4] row, at column `j`. -/
theorem row4_apply (x : S4.Idx → F .f32) (j : Fin 4) :
    broadcastInDim S1x4 ![1] bcast_S4_S1x4_1 x (ix2 (0 : Fin 1) j) = x (ix1 j) := by
  refine broadcastInDim_apply (s := S4) (t := S1x4) _ _ _ _ (ix1 j) fun a => ?_
  match a with
  | ⟨0, _⟩ =>
    show j.val = if (4 : Nat) = 1 then 0 else j.val
    rw [if_neg (by decide)]

/-- A vector of 64 entries viewed as a [1, 64] row, at column `j`. -/
theorem row64_apply (x : S64.Idx → F .f32) (j : Fin 64) :
    broadcastInDim S1x64 ![1] bcast_S64_S1x64_1 x (ix2 (0 : Fin 1) j) = x (ix1 j) := by
  refine broadcastInDim_apply (s := S64) (t := S1x64) _ _ _ _ (ix1 j) fun a => ?_
  match a with
  | ⟨0, _⟩ =>
    show j.val = if (64 : Nat) = 1 then 0 else j.val
    rw [if_neg (by decide)]

/-- Column `l` of the bias row: the bias at label `l`. -/
theorem ops0_v5_left (V : Valuation τ sig (Elt F)) (l : Fin 2) :
    (after (ops0 (F := F)) V (main_v5 : DevRef τ sig) : S1x4.Idx → F .f32) (ix2 (0 : Fin 1) (⟨l.val, by omega⟩ : Fin 4))
      = (V (main_arg9 : DevRef τ sig) : S2.Idx → F .f32) (ix1 l) := by
  rw [ops0_v5_term, row4_apply]
  refine concatenate_pair_apply_left (t := S4) (s₁ := S2) (s₂ := S2) (0 : Fin 1) _ _ _
    (ix1 (⟨l.val, by omega⟩ : Fin 4)) (by rfl) (ix1 l) fun b => ?_
  match b with
  | ⟨0, _⟩ => rfl

/-- Column `2 + l` of the bias row: the zero constant. -/
theorem ops0_v5_right (V : Valuation τ sig (Elt F)) (l : Fin 2) :
    (after (ops0 (F := F)) V (main_v5 : DevRef τ sig) : S1x4.Idx → F .f32) (ix2 (0 : Fin 1) (⟨2 + l.val, by omega⟩ : Fin 4))
      = (FloatOps.ofBits .f32 0x00000000#32 : F .f32) := by
  rw [ops0_v5_term, row4_apply]
  refine (concatenate_pair_apply_right (t := S4) (s₁ := S2) (s₂ := S2) (0 : Fin 1) _ _ _
    (ix1 (⟨2 + l.val, by omega⟩ : Fin 4)) (by rfl) (by rfl) (ix1 l) (fun b hb => ?_) ?_).trans rfl
  · match b with
    | ⟨0, _⟩ => exact absurd rfl hb
  · show l.val + 2 = 2 + l.val
    omega

/-- The first hidden layer's bias as a [1, 64] row. -/
theorem ops0_v6 (V : Valuation τ sig (Elt F)) (j : Fin 64) :
    (after (ops0 (F := F)) V (main_v6 : DevRef τ sig) : S1x64.Idx → F .f32) (ix2 (0 : Fin 1) j)
      = (V (main_arg5 : DevRef τ sig) : S64.Idx → F .f32) (ix1 j) := by
  have e : (after (ops0 (F := F)) V (main_v6 : DevRef τ sig) : S1x64.Idx → F .f32)
      = broadcastInDim S1x64 ![1] bcast_S64_S1x64_1 (V (main_arg5 : DevRef τ sig) : S64.Idx → F .f32) := by
    after_results_simp
  rw [e, row64_apply]

/-- The second hidden layer's bias as a [1, 64] row. -/
theorem ops0_v7 (V : Valuation τ sig (Elt F)) (j : Fin 64) :
    (after (ops0 (F := F)) V (main_v7 : DevRef τ sig) : S1x64.Idx → F .f32) (ix2 (0 : Fin 1) j)
      = (V (main_arg7 : DevRef τ sig) : S64.Idx → F .f32) (ix1 j) := by
  have e : (after (ops0 (F := F)) V (main_v7 : DevRef τ sig) : S1x64.Idx → F .f32)
      = broadcastInDim S1x64 ![1] bcast_S64_S1x64_1 (V (main_arg7 : DevRef τ sig) : S64.Idx → F .f32) := by
    after_results_simp
  rw [e, row64_apply]

/-! The stretch leaves the argument arrays as they were. -/

theorem ops0_arg0 (V : Valuation τ sig (Elt F)) : after (ops0 (F := F)) V (main_arg0 : DevRef τ sig) = V (main_arg0 : DevRef τ sig) := by
  after_results_simp
theorem ops0_arg1 (V : Valuation τ sig (Elt F)) : after (ops0 (F := F)) V (main_arg1 : DevRef τ sig) = V (main_arg1 : DevRef τ sig) := by
  after_results_simp
theorem ops0_arg2 (V : Valuation τ sig (Elt F)) : after (ops0 (F := F)) V (main_arg2 : DevRef τ sig) = V (main_arg2 : DevRef τ sig) := by
  after_results_simp
theorem ops0_arg3 (V : Valuation τ sig (Elt F)) : after (ops0 (F := F)) V (main_arg3 : DevRef τ sig) = V (main_arg3 : DevRef τ sig) := by
  after_results_simp
theorem ops0_arg4 (V : Valuation τ sig (Elt F)) : after (ops0 (F := F)) V (main_arg4 : DevRef τ sig) = V (main_arg4 : DevRef τ sig) := by
  after_results_simp
theorem ops0_arg5 (V : Valuation τ sig (Elt F)) : after (ops0 (F := F)) V (main_arg5 : DevRef τ sig) = V (main_arg5 : DevRef τ sig) := by
  after_results_simp
theorem ops0_arg6 (V : Valuation τ sig (Elt F)) : after (ops0 (F := F)) V (main_arg6 : DevRef τ sig) = V (main_arg6 : DevRef τ sig) := by
  after_results_simp
theorem ops0_arg7 (V : Valuation τ sig (Elt F)) : after (ops0 (F := F)) V (main_arg7 : DevRef τ sig) = V (main_arg7 : DevRef τ sig) := by
  after_results_simp
theorem ops0_arg8 (V : Valuation τ sig (Elt F)) : after (ops0 (F := F)) V (main_arg8 : DevRef τ sig) = V (main_arg8 : DevRef τ sig) := by
  after_results_simp
theorem ops0_arg9 (V : Valuation τ sig (Elt F)) : after (ops0 (F := F)) V (main_arg9 : DevRef τ sig) = V (main_arg9 : DevRef τ sig) := by
  after_results_simp

/-- Any TensorCore buffer the stretch does not write is left as it was. -/
theorem ops0_keep (V : Valuation τ sig (Elt F)) (r : Ref sig .tc)
    (hr : r ∉ [main_v0, main_v1, main_v2, main_cst, main_v3, main_v4, main_v5, main_v6, main_v7]) :
    after (ops0 (F := F)) V (r : DevRef τ sig) = V (r : DevRef τ sig) :=
  after_of_writes_sub (W := [main_v0, main_v1, main_v2, main_cst, main_v3, main_v4, main_v5, main_v6, main_v7]) _ V
    (by simp [ops0]) hr

end Cert.Kernel.Sc.Glue

end
-- ==== Proof.GlueOps1B.lean ====
/-
  The host operations between the node-table call and the pair-logits call, read at an index.
  The [10000, 4] table is flattened row-major (entry n of the flat array is row n / 4, column n % 4); the two columns of
  the pair array are sliced off and flattened (entry p is the pair's left, resp. right, index word). The ten argument
  arrays are left as they were.
-/
import proofs.«208457_g31284541784245_cont_9to1_2229_14_alg».proof.Proof.ScMainB
import Idealize.ShloMosaic.Lib.ValueIdx
import Idealize.ShloMosaic.Lib.ValueLayout
import Idealize.ShloMosaic.Lib.Pipeline.Value
import Idealize.ShloMosaic.Lib.StableHlo.Run

noncomputable section

namespace Cert.Kernel.Sc.Glue

open Cert.Kernel Cert.Kernel.Gen Cert.Kernel.Sc
open Idealize.ShloMosaic Idealize.ShloMosaic.TcCoe Idealize.ShloMosaic.ValueIdx Idealize.SL.Sem Idealize.ShloMosaic.StableHlo

variable {F : FTy → Type} [FloatOps F]

/-- The flattened table at `n` is the table at row `n / 4`, column `n % 4`. -/
theorem ops1_v9 (V : Valuation τ sig (Elt F)) (n : Fin 40000) :
    (after (ops1 (F := F)) V (main_v9 : DevRef τ sig) : S40000.Idx → F .f32) (ix1 n)
      = (V (main_v8 : DevRef τ sig) : S10000x4.Idx → F .f32)
          (ix2 (⟨n.val / 4, by omega⟩ : Fin 10000) (⟨n.val % 4, by omega⟩ : Fin 4)) := by
  have e : (after (ops1 (F := F)) V (main_v9 : DevRef τ sig) : S40000.Idx → F .f32)
      = shapeCast S40000 (V (main_v8 : DevRef τ sig) : S10000x4.Idx → F .f32) shapeCasts_S10000x4_S40000 := by
    after_results_simp
    rfl
  rw [e]
  refine shapeCast_apply (s := S10000x4) (t := S40000) _ _ _
    (ix2 (⟨n.val / 4, by omega⟩ : Fin 10000) (⟨n.val % 4, by omega⟩ : Fin 4)) ?_
  rw [Shape.rowMajor_val_two, Shape.rowMajor_val_one]
  show n.val / 4 * 4 + n.val % 4 = n.val
  omega

/-- The left index column at pair `p`. -/
theorem ops1_v11 (V : Valuation τ sig (Elt F)) (p : Fin 640000) :
    (after (ops1 (F := F)) V (main_v11 : DevRef τ sig) : S640000.Idx → BitVec 32) (ix1 p)
      = (V (main_arg0 : DevRef τ sig) : S640000x2.Idx → BitVec 32) (ix2 p (0 : Fin 2)) := by
  have e : (after (ops1 (F := F)) V (main_v11 : DevRef τ sig) : S640000.Idx → BitVec 32)
      = shapeCast S640000 (extractStridedSlice S640000x1 ![0, 0] (V (main_arg0 : DevRef τ sig) : S640000x2.Idx → BitVec 32)
          slices_S640000x2_S640000x1_0_0) shapeCasts_S640000x1_S640000 := by
    after_results_simp
    rfl
  rw [e]
  refine (shapeCast_apply _ _ _ (ix2 p (0 : Fin 1)) ?_).trans ?_
  · rw [Shape.rowMajor_val_two, Shape.rowMajor_val_one]
    show p.val * 1 + 0 = p.val
    omega
  · refine extractStridedSlice_apply _ _ _ _ _ fun a => ?_
    match a with
    | ⟨0, _⟩ => show p.val = 0 + p.val; omega
    | ⟨1, _⟩ => show (0 : Nat) = 0 + 0; rfl

/-- The right index column at pair `p`. -/
theorem ops1_v13 (V : Valuation τ sig (Elt F)) (p : Fin 640000) :
    (after (ops1 (F := F)) V (main_v13 : DevRef τ sig) : S640000.Idx → BitVec 32) (ix1 p)
      = (V (main_arg0 : DevRef τ sig) : S640000x2.Idx → BitVec 32) (ix2 p (1 : Fin 2)) := by
  have e : (after (ops1 (F := F)) V (main_v13 : DevRef τ sig) : S640000.Idx → BitVec 32)
      = shapeCast S640000 (extractStridedSlice S640000x1 ![0, 1] (V (main_arg0 : DevRef τ sig) : S640000x2.Idx → BitVec 32)
          slices_S640000x2_S640000x1_0_1) shapeCasts_S640000x1_S640000 := by
    after_results_simp
    rfl
  rw [e]
  refine (shapeCast_apply _ _ _ (ix2 p (0 : Fin 1)) ?_).trans ?_
  · rw [Shape.rowMajor_val_two, Shape.rowMajor_val_one]
    show p.val * 1 + 0 = p.val
    omega
  · refine extractStridedSlice_apply _ _ _ _ _ fun a => ?_
    match a with
    | ⟨0, _⟩ => show p.val = 0 + p.val; omega
    | ⟨1, _⟩ => show (1 : Nat) = 1 + 0; rfl

/-! The stretch leaves the argument arrays, and the two results of the calls before it, as they were. -/

theorem ops1_arg0 (V : Valuation τ sig (Elt F)) : after (ops1 (F := F)) V (main_arg0 : DevRef τ sig) = V (main_arg0 : DevRef τ sig) := by
  after_results_simp
theorem ops1_arg1 (V : Valuation τ sig (Elt F)) : after (ops1 (F := F)) V (main_arg1 : DevRef τ sig) = V (main_arg1 : DevRef τ sig) := by
  after_results_simp
theorem ops1_arg2 (V : Valuation τ sig (Elt F)) : after (ops1 (F := F)) V (main_arg2 : DevRef τ sig) = V (main_arg2 : DevRef τ sig) := by
  after_results_simp
theorem ops1_arg3 (V : Valuation τ sig (Elt F)) : after (ops1 (F := F)) V (main_arg3 : DevRef τ sig) = V (main_arg3 : DevRef τ sig) := by
  after_results_simp
theorem ops1_arg4 (V : Valuation τ sig (Elt F)) : after (ops1 (F := F)) V (main_arg4 : DevRef τ sig) = V (main_arg4 : DevRef τ sig) := by
  after_results_simp
theorem ops1_arg5 (V : Valuation τ sig (Elt F)) : after (ops1 (F := F)) V (main_arg5 : DevRef τ sig) = V (main_arg5 : DevRef τ sig) := by
  after_results_simp
theorem ops1_arg6 (V : Valuation τ sig (Elt F)) : after (ops1 (F := F)) V (main_arg6 : DevRef τ sig) = V (main_arg6 : DevRef τ sig) := by
  after_results_simp
theorem ops1_arg7 (V : Valuation τ sig (Elt F)) : after (ops1 (F := F)) V (main_arg7 : DevRef τ sig) = V (main_arg7 : DevRef τ sig) := by
  after_results_simp
theorem ops1_arg8 (V : Valuation τ sig (Elt F)) : after (ops1 (F := F)) V (main_arg8 : DevRef τ sig) = V (main_arg8 : DevRef τ sig) := by
  after_results_simp
theorem ops1_arg9 (V : Valuation τ sig (Elt F)) : after (ops1 (F := F)) V (main_arg9 : DevRef τ sig) = V (main_arg9 : DevRef τ sig) := by
  after_results_simp
theorem ops1_v8 (V : Valuation τ sig (Elt F)) : after (ops1 (F := F)) V (main_v8 : DevRef τ sig) = V (main_v8 : DevRef τ sig) := by
  after_results_simp

end Cert.Kernel.Sc.Glue

end
-- ==== Proof.GlueOps2B.lean ====
/-
  The host operations between the pair-logits call and the loss call, read at an index.
  Each of the two logit columns and the label array, of 640000 entries, is viewed as 5000 rows of 128 lanes, row-major:
  row `r`, lane `c` is entry `r * 128 + c`. The ten argument arrays and the two columns are left as they were.
-/
import proofs.«208457_g31284541784245_cont_9to1_2229_14_alg».proof.Proof.ScMainB
import Idealize.ShloMosaic.Lib.ValueIdx
import Idealize.ShloMosaic.Lib.ValueLayout
import Idealize.ShloMosaic.Lib.Pipeline.Value
import Idealize.ShloMosaic.Lib.StableHlo.Run

noncomputable section

namespace Cert.Kernel.Sc.Glue

open Cert.Kernel Cert.Kernel.Gen Cert.Kernel.Sc
open Idealize.ShloMosaic Idealize.ShloMosaic.TcCoe Idealize.ShloMosaic.ValueIdx Idealize.SL.Sem Idealize.ShloMosaic.StableHlo

variable {F : FTy → Type} [FloatOps F]

/-- Row `r`, lane `c` names an entry below 640000. -/
theorem lane_lt (r : Fin 5000) (c : Fin 128) : r.val * 128 + c.val < 640000 := by
  have := r.isLt; have := c.isLt; omega

/-- A flat array of 640000 entries viewed as [5000, 128], at row `r`, lane `c`. -/
theorem rows_apply {α : Type} (x : S640000.Idx → α) (r : Fin 5000) (c : Fin 128) :
    shapeCast S5000x128 x shapeCasts_S640000_S5000x128 (ix2 r c) = x (ix1 ⟨r.val * 128 + c.val, lane_lt r c⟩) := by
  refine shapeCast_apply (s := S640000) (t := S5000x128) _ _ _ (ix1 ⟨r.val * 128 + c.val, lane_lt r c⟩) ?_
  rw [Shape.rowMajor_val_two, Shape.rowMajor_val_one]
  rfl

/-- The first logit column as rows of lanes. -/
theorem ops2_v15 (V : Valuation τ sig (Elt F)) (r : Fin 5000) (c : Fin 128) :
    (after (ops2 (F := F)) V (main_v15 : DevRef τ sig) : S5000x128.Idx → F .f32) (ix2 r c)
      = (V (main_v14_0 : DevRef τ sig) : S640000.Idx → F .f32) (ix1 ⟨r.val * 128 + c.val, lane_lt r c⟩) := by
  have e : (after (ops2 (F := F)) V (main_v15 : DevRef τ sig) : S5000x128.Idx → F .f32)
      = shapeCast S5000x128 (V (main_v14_0 : DevRef τ sig) : S640000.Idx → F .f32) shapeCasts_S640000_S5000x128 := by
    after_results_simp
    rfl
  rw [e]
  exact rows_apply _ r c

/-- The second logit column as rows of lanes. -/
theorem ops2_v16 (V : Valuation τ sig (Elt F)) (r : Fin 5000) (c : Fin 128) :
    (after (ops2 (F := F)) V (main_v16 : DevRef τ sig) : S5000x128.Idx → F .f32) (ix2 r c)
      = (V (main_v14_1 : DevRef τ sig) : S640000.Idx → F .f32) (ix1 ⟨r.val * 128 + c.val, lane_lt r c⟩) := by
  have e : (after (ops2 (F := F)) V (main_v16 : DevRef τ sig) : S5000x128.Idx → F .f32)
      = shapeCast S5000x128 (V (main_v14_1 : DevRef τ sig) : S640000.Idx → F .f32) shapeCasts_S640000_S5000x128 := by
    after_results_simp
    rfl
  rw [e]
  exact rows_apply _ r c

/-- The label array as rows of lanes. -/
theorem ops2_v17 (V : Valuation τ sig (Elt F)) (r : Fin 5000) (c : Fin 128) :
    (after (ops2 (F := F)) V (main_v17 : DevRef τ sig) : S5000x128.Idx → BitVec 32) (ix2 r c)
      = (V (main_arg3 : DevRef τ sig) : S640000.Idx → BitVec 32) (ix1 ⟨r.val * 128 + c.val, lane_lt r c⟩) := by
  have e : (after (ops2 (F := F)) V (main_v17 : DevRef τ sig) : S5000x128.Idx → BitVec 32)
      = shapeCast S5000x128 (V (main_arg3 : DevRef τ sig) : S640000.Idx → BitVec 32) shapeCasts_S640000_S5000x128 := by
    after_results_simp
    rfl
  rw [e]
  exact rows_apply _ r c

/-! The stretch leaves the argument arrays and the two logit columns as they were. -/

theorem ops2_arg0 (V : Valuation τ sig (Elt F)) : after (ops2 (F := F)) V (main_arg0 : DevRef τ sig) = V (main_arg0 : DevRef τ sig) := by
  after_results_simp
theorem ops2_arg1 (V : Valuation τ sig (Elt F)) : after (ops2 (F := F)) V (main_arg1 : DevRef τ sig) = V (main_arg1 : DevRef τ sig) := by
  after_results_simp
theorem ops2_arg2 (V : Valuation τ sig (Elt F)) : after (ops2 (F := F)) V (main_arg2 : DevRef τ sig) = V (main_arg2 : DevRef τ sig) := by
  after_results_simp
theorem ops2_arg3 (V : Valuation τ sig (Elt F)) : after (ops2 (F := F)) V (main_arg3 : DevRef τ sig) = V (main_arg3 : DevRef τ sig) := by
  after_results_simp
theorem ops2_arg4 (V : Valuation τ sig (Elt F)) : after (ops2 (F := F)) V (main_arg4 : DevRef τ sig) = V (main_arg4 : DevRef τ sig) := by
  after_results_simp
theorem ops2_arg5 (V : Valuation τ sig (Elt F)) : after (ops2 (F := F)) V (main_arg5 : DevRef τ sig) = V (main_arg5 : DevRef τ sig) := by
  after_results_simp
theorem ops2_arg6 (V : Valuation τ sig (Elt F)) : after (ops2 (F := F)) V (main_arg6 : DevRef τ sig) = V (main_arg6 : DevRef τ sig) := by
  after_results_simp
theorem ops2_arg7 (V : Valuation τ sig (Elt F)) : after (ops2 (F := F)) V (main_arg7 : DevRef τ sig) = V (main_arg7 : DevRef τ sig) := by
  after_results_simp
theorem ops2_arg8 (V : Valuation τ sig (Elt F)) : after (ops2 (F := F)) V (main_arg8 : DevRef τ sig) = V (main_arg8 : DevRef τ sig) := by
  after_results_simp
theorem ops2_arg9 (V : Valuation τ sig (Elt F)) : after (ops2 (F := F)) V (main_arg9 : DevRef τ sig) = V (main_arg9 : DevRef τ sig) := by
  after_results_simp
theorem ops2_v14_0 (V : Valuation τ sig (Elt F)) : after (ops2 (F := F)) V (main_v14_0 : DevRef τ sig) = V (main_v14_0 : DevRef τ sig) := by
  after_results_simp
theorem ops2_v14_1 (V : Valuation τ sig (Elt F)) : after (ops2 (F := F)) V (main_v14_1 : DevRef τ sig) = V (main_v14_1 : DevRef τ sig) := by
  after_results_simp

end Cert.Kernel.Sc.Glue

end
-- ==== Proof.GlueOps3B.lean ====
/-
  The host operations after the loss call, read at an index.
  The two logit columns, each viewed as a [640000, 1] array, are set side by side into the [640000, 2] logits array
  (column 0 is the first, column 1 the second); the loss call's [1, 1] result is read as a scalar. The ten argument
  arrays and the stretch's three inputs are left as they were.
-/
import proofs.«208457_g31284541784245_cont_9to1_2229_14_alg».proof.Proof.ScMainB
import Idealize.ShloMosaic.Lib.ValueIdx
import Idealize.ShloMosaic.Lib.ValueLayout
import Idealize.ShloMosaic.Lib.Pipeline.Value
import Idealize.ShloMosaic.Lib.StableHlo.Run

noncomputable section

namespace Cert.Kernel.Sc.Glue

open Cert.Kernel Cert.Kernel.Gen Cert.Kernel.Sc
open Idealize.ShloMosaic Idealize.ShloMosaic.TcCoe Idealize.ShloMosaic.ValueIdx Idealize.SL.Sem Idealize.ShloMosaic.StableHlo

variable {F : FTy → Type} [FloatOps F]

/-- The logits array as the operations' term of the two columns. -/
theorem ops3_v21_term (V : Valuation τ sig (Elt F)) :
    (after (ops3 (F := F)) V (main_v21 : DevRef τ sig) : S640000x2.Idx → F .f32)
      = concatenate S640000x2 1
          [⟨S640000x1, broadcastInDim S640000x1 ![0] bcast_S640000_S640000x1_0 (V (main_v14_0 : DevRef τ sig) : S640000.Idx → F .f32)⟩,
           ⟨S640000x1, broadcastInDim S640000x1 ![0] bcast_S640000_S640000x1_0 (V (main_v14_1 : DevRef τ sig) : S640000.Idx → F .f32)⟩]
          concatenates_S640000x1_S640000x1_S640000x2_d1 := by
  after_results_simp
  rfl

/-- A column viewed as a [640000, 1] array, at row `p`. -/
theorem col_apply (x : S640000.Idx → F .f32) (p : Fin 640000) :
    broadcastInDim S640000x1 ![0] bcast_S640000_S640000x1_0 x (ix2 p (0 : Fin 1)) = x (ix1 p) := by
  refine broadcastInDim_apply _ _ _ _ (ix1 p) fun a => ?_
  match a with
  | ⟨0, _⟩ =>
    show p.val = if (640000 : Nat) = 1 then 0 else p.val
    rw [if_neg (by decide)]

/-- Column 0 of the logits array at pair `p` is the first logit column at `p`. -/
theorem ops3_v21_0 (V : Valuation τ sig (Elt F)) (p : Fin 640000) :
    (after (ops3 (F := F)) V (main_v21 : DevRef τ sig) : S640000x2.Idx → F .f32) (ix2 p (0 : Fin 2))
      = (V (main_v14_0 : DevRef τ sig) : S640000.Idx → F .f32) (ix1 p) := by
  rw [ops3_v21_term]
  refine (concatenate_pair_apply_left (t := S640000x2) (s₁ := S640000x1) (s₂ := S640000x1) (1 : Fin 2) _ _ _
    (ix2 p (0 : Fin 2)) (by rfl) (ix2 p (0 : Fin 1)) fun b => ?_).trans (col_apply _ p)
  match b with
  | ⟨0, _⟩ => rfl
  | ⟨1, _⟩ => rfl

/-- Column 1 of the logits array at pair `p` is the second logit column at `p`. -/
theorem ops3_v21_1 (V : Valuation τ sig (Elt F)) (p : Fin 640000) :
    (after (ops3 (F := F)) V (main_v21 : DevRef τ sig) : S640000x2.Idx → F .f32) (ix2 p (1 : Fin 2))
      = (V (main_v14_1 : DevRef τ sig) : S640000.Idx → F .f32) (ix1 p) := by
  rw [ops3_v21_term]
  refine (concatenate_pair_apply_right (t := S640000x2) (s₁ := S640000x1) (s₂ := S640000x1) (1 : Fin 2) _ _ _
    (ix2 p (1 : Fin 2)) (by rfl) (by rfl) (ix2 p (0 : Fin 1)) (fun b hb => ?_) ?_).trans (col_apply _ p)
  · match b with
    | ⟨0, _⟩ => rfl
    | ⟨1, _⟩ => exact absurd rfl hb
  · show (0 : Nat) + 1 = 1
    rfl

/-- The loss, read as a scalar, is the loss call's one entry. -/
theorem ops3_v22 (V : Valuation τ sig (Elt F)) :
    (after (ops3 (F := F)) V (main_v22 : DevRef τ sig) : S_.Idx → F .f32) ix0
      = (V (main_v18 : DevRef τ sig) : S1x1.Idx → F .f32) (ix2 (0 : Fin 1) (0 : Fin 1)) := by
  have e : (after (ops3 (F := F)) V (main_v22 : DevRef τ sig) : S_.Idx → F .f32)
      = shapeCast S_ (V (main_v18 : DevRef τ sig) : S1x1.Idx → F .f32) shapeCasts_S1x1_S_ := by
    after_results_simp
    rfl
  rw [e]
  refine shapeCast_apply (s := S1x1) (t := S_) _ _ _ (ix2 (0 : Fin 1) (0 : Fin 1)) ?_
  rw [Shape.rowMajor_val_two]
  have h := (Shape.rowMajor S_ (ix0 : S_.Idx)).isLt
  have hn : S_.numel = 1 := by decide
  show 0 * 1 + 0 = _
  omega

/-! The stretch leaves the argument arrays and its inputs as they were. -/

theorem ops3_arg0 (V : Valuation τ sig (Elt F)) : after (ops3 (F := F)) V (main_arg0 : DevRef τ sig) = V (main_arg0 : DevRef τ sig) := by
  after_results_simp
theorem ops3_arg1 (V : Valuation τ sig (Elt F)) : after (ops3 (F := F)) V (main_arg1 : DevRef τ sig) = V (main_arg1 : DevRef τ sig) := by
  after_results_simp
theorem ops3_arg2 (V : Valuation τ sig (Elt F)) : after (ops3 (F := F)) V (main_arg2 : DevRef τ sig) = V (main_arg2 : DevRef τ sig) := by
  after_results_simp
theorem ops3_arg3 (V : Valuation τ sig (Elt F)) : after (ops3 (F := F)) V (main_arg3 : DevRef τ sig) = V (main_arg3 : DevRef τ sig) := by
  after_results_simp
theorem ops3_arg4 (V : Valuation τ sig (Elt F)) : after (ops3 (F := F)) V (main_arg4 : DevRef τ sig) = V (main_arg4 : DevRef τ sig) := by
  after_results_simp
theorem ops3_arg5 (V : Valuation τ sig (Elt F)) : after (ops3 (F := F)) V (main_arg5 : DevRef τ sig) = V (main_arg5 : DevRef τ sig) := by
  after_results_simp
theorem ops3_arg6 (V : Valuation τ sig (Elt F)) : after (ops3 (F := F)) V (main_arg6 : DevRef τ sig) = V (main_arg6 : DevRef τ sig) := by
  after_results_simp
theorem ops3_arg7 (V : Valuation τ sig (Elt F)) : after (ops3 (F := F)) V (main_arg7 : DevRef τ sig) = V (main_arg7 : DevRef τ sig) := by
  after_results_simp
theorem ops3_arg8 (V : Valuation τ sig (Elt F)) : after (ops3 (F := F)) V (main_arg8 : DevRef τ sig) = V (main_arg8 : DevRef τ sig) := by
  after_results_simp
theorem ops3_arg9 (V : Valuation τ sig (Elt F)) : after (ops3 (F := F)) V (main_arg9 : DevRef τ sig) = V (main_arg9 : DevRef τ sig) := by
  after_results_simp
theorem ops3_v14_0 (V : Valuation τ sig (Elt F)) : after (ops3 (F := F)) V (main_v14_0 : DevRef τ sig) = V (main_v14_0 : DevRef τ sig) := by
  after_results_simp
theorem ops3_v14_1 (V : Valuation τ sig (Elt F)) : after (ops3 (F := F)) V (main_v14_1 : DevRef τ sig) = V (main_v14_1 : DevRef τ sig) := by
  after_results_simp
theorem ops3_v18 (V : Valuation τ sig (Elt F)) : after (ops3 (F := F)) V (main_v18 : DevRef τ sig) = V (main_v18 : DevRef τ sig) := by
  after_results_simp

end Cert.Kernel.Sc.Glue

end
-- ==== Proof.ScReadsB.lean ====
/-
  The buffers' contents at the boundaries of @main, read: what each named valuation of the chain holds at the buffers
  the claim and the kernels speak of, as a function of the launch memory.

  No host operation and no kernel region writes an argument array, so at the return each argument holds what it was
  launched with. The SparseCore call's index columns are the two columns of the index argument. Its table is the dense
  layers' output, flattened. The loss call's two logit blocks are the SparseCore call's two result columns laid out in
  rows of 128, and its label block the label argument laid out the same way. The first result is the two result
  columns side by side; the second is the loss call's one element. The dense layers' seven inputs are the node
  features, the two weight matrices, the two bias rows, the classifier's halves side by side and its bias row
  extended by zeros.
-/
import proofs.«208457_g31284541784245_cont_9to1_2229_14_alg».proof.Proof.ScChainB
import proofs.«208457_g31284541784245_cont_9to1_2229_14_alg».proof.Proof.MlpLossExitB
import proofs.«208457_g31284541784245_cont_9to1_2229_14_alg».proof.Proof.GlueOps0B
import proofs.«208457_g31284541784245_cont_9to1_2229_14_alg».proof.Proof.GlueOps1B
import proofs.«208457_g31284541784245_cont_9to1_2229_14_alg».proof.Proof.GlueOps2B
import proofs.«208457_g31284541784245_cont_9to1_2229_14_alg».proof.Proof.GlueOps3B

noncomputable section

namespace Cert.Kernel.Sc.Chain

open Cert.Kernel Cert.Kernel.Gen Cert.Kernel.Sc
open Idealize.ShloMosaic Idealize.ShloMosaic.TcCoe Idealize.ShloMosaic.ValueIdx
open Idealize.SL.Sem

variable {F : FTy → Type} [FloatOps F]
variable (m : (ℓ : Loc nD τ sig) → Buf (Elt F) ℓ)

/-! ## The SparseCore call writes its two result columns and nothing else -/

theorem W4_of_ne (d : Dev nD) (b : Ref sig .tc) (h0 : b ≠ main_v14_0) (h1 : b ≠ main_v14_1) :
    W4 m d (b : DevRef τ sig) = W3 m d (b : DevRef τ sig) := by
  unfold W4
  rw [Function.update_of_ne (StableHlo.devRef_ne_of_ne h1), Function.update_of_ne (StableHlo.devRef_ne_of_ne h0)]

theorem W4_v14_0 (d : Dev nD) : W4 m d (main_v14_0 : DevRef τ sig) = Tile.Z0 (TAB m) (IA m) (IB m) d := by
  unfold W4
  rw [Function.update_of_ne (StableHlo.devRef_ne_of_ne (by decide)), Function.update_self]

theorem W4_v14_1 (d : Dev nD) : W4 m d (main_v14_1 : DevRef τ sig) = Tile.Z1 (TAB m) (IA m) (IB m) d := by
  unfold W4
  rw [Function.update_self]

/-! ## (F) The arguments end as launched -/

theorem W2_arg0 (d : Dev nD) : W2 m d (main_arg0 : DevRef τ sig) = m (d, (main_arg0 : DevRef τ sig)) :=
  (Mlp.exit_other (Wa m) (Oa (F := F)) (Ba (F := F)) d main_arg0 (by decide)).trans (Glue.ops0_arg0 (Launch.W0 m d))
theorem W3_arg0 (d : Dev nD) : W3 m d (main_arg0 : DevRef τ sig) = m (d, (main_arg0 : DevRef τ sig)) :=
  (Glue.ops1_arg0 (W2 m d)).trans (W2_arg0 m d)
theorem W4_arg0 (d : Dev nD) : W4 m d (main_arg0 : DevRef τ sig) = m (d, (main_arg0 : DevRef τ sig)) :=
  (W4_of_ne m d main_arg0 (by decide) (by decide)).trans (W3_arg0 m d)
theorem Wb_arg0 (d : Dev nD) : Wb m d (main_arg0 : DevRef τ sig) = m (d, (main_arg0 : DevRef τ sig)) :=
  (Glue.ops2_arg0 (W4 m d)).trans (W4_arg0 m d)
theorem W6_arg0 (d : Dev nD) : W6 m d (main_arg0 : DevRef τ sig) = m (d, (main_arg0 : DevRef τ sig)) :=
  (Loss.exit_other (Wb m) (Ob (F := F)) (Bb (F := F)) d main_arg0 (by decide)).trans (Wb_arg0 m d)
/-- Argument 0 ends as launched. -/
theorem W7_arg0 (d : Dev nD) : W7 m d (main_arg0 : DevRef τ sig) = m (d, (main_arg0 : DevRef τ sig)) :=
  (Glue.ops3_arg0 (W6 m d)).trans (W6_arg0 m d)

theorem W2_arg1 (d : Dev nD) : W2 m d (main_arg1 : DevRef τ sig) = m (d, (main_arg1 : DevRef τ sig)) :=
  (Mlp.exit_other (Wa m) (Oa (F := F)) (Ba (F := F)) d main_arg1 (by decide)).trans (Glue.ops0_arg1 (Launch.W0 m d))
theorem W3_arg1 (d : Dev nD) : W3 m d (main_arg1 : DevRef τ sig) = m (d, (main_arg1 : DevRef τ sig)) :=
  (Glue.ops1_arg1 (W2 m d)).trans (W2_arg1 m d)
theorem W4_arg1 (d : Dev nD) : W4 m d (main_arg1 : DevRef τ sig) = m (d, (main_arg1 : DevRef τ sig)) :=
  (W4_of_ne m d main_arg1 (by decide) (by decide)).trans (W3_arg1 m d)
theorem Wb_arg1 (d : Dev nD) : Wb m d (main_arg1 : DevRef τ sig) = m (d, (main_arg1 : DevRef τ sig)) :=
  (Glue.ops2_arg1 (W4 m d)).trans (W4_arg1 m d)
theorem W6_arg1 (d : Dev nD) : W6 m d (main_arg1 : DevRef τ sig) = m (d, (main_arg1 : DevRef τ sig)) :=
  (Loss.exit_other (Wb m) (Ob (F := F)) (Bb (F := F)) d main_arg1 (by decide)).trans (Wb_arg1 m d)
/-- Argument 1 ends as launched. -/
theorem W7_arg1 (d : Dev nD) : W7 m d (main_arg1 : DevRef τ sig) = m (d, (main_arg1 : DevRef τ sig)) :=
  (Glue.ops3_arg1 (W6 m d)).trans (W6_arg1 m d)

theorem W2_arg2 (d : Dev nD) : W2 m d (main_arg2 : DevRef τ sig) = m (d, (main_arg2 : DevRef τ sig)) :=
  (Mlp.exit_other (Wa m) (Oa (F := F)) (Ba (F := F)) d main_arg2 (by decide)).trans (Glue.ops0_arg2 (Launch.W0 m d))
theorem W3_arg2 (d : Dev nD) : W3 m d (main_arg2 : DevRef τ sig) = m (d, (main_arg2 : DevRef τ sig)) :=
  (Glue.ops1_arg2 (W2 m d)).trans (W2_arg2 m d)
theorem W4_arg2 (d : Dev nD) : W4 m d (main_arg2 : DevRef τ sig) = m (d, (main_arg2 : DevRef τ sig)) :=
  (W4_of_ne m d main_arg2 (by decide) (by decide)).trans (W3_arg2 m d)
theorem Wb_arg2 (d : Dev nD) : Wb m d (main_arg2 : DevRef τ sig) = m (d, (main_arg2 : DevRef τ sig)) :=
  (Glue.ops2_arg2 (W4 m d)).trans (W4_arg2 m d)
theorem W6_arg2 (d : Dev nD) : W6 m d (main_arg2 : DevRef τ sig) = m (d, (main_arg2 : DevRef τ sig)) :=
  (Loss.exit_other (Wb m) (Ob (F := F)) (Bb (F := F)) d main_arg2 (by decide)).trans (Wb_arg2 m d)
/-- Argument 2 ends as launched. -/
theorem W7_arg2 (d : Dev nD) : W7 m d (main_arg2 : DevRef τ sig) = m (d, (main_arg2 : DevRef τ sig)) :=
  (Glue.ops3_arg2 (W6 m d)).trans (W6_arg2 m d)

theorem W2_arg3 (d : Dev nD) : W2 m d (main_arg3 : DevRef τ sig) = m (d, (main_arg3 : DevRef τ sig)) :=
  (Mlp.exit_other (Wa m) (Oa (F := F)) (Ba (F := F)) d main_arg3 (by decide)).trans (Glue.ops0_arg3 (Launch.W0 m d))
theorem W3_arg3 (d : Dev nD) : W3 m d (main_arg3 : DevRef τ sig) = m (d, (main_arg3 : DevRef τ sig)) :=
  (Glue.ops1_arg3 (W2 m d)).trans (W2_arg3 m d)
theorem W4_arg3 (d : Dev nD) : W4 m d (main_arg3 : DevRef τ sig) = m (d, (main_arg3 : DevRef τ sig)) :=
  (W4_of_ne m d main_arg3 (by decide) (by decide)).trans (W3_arg3 m d)
theorem Wb_arg3 (d : Dev nD) : Wb m d (main_arg3 : DevRef τ sig) = m (d, (main_arg3 : DevRef τ sig)) :=
  (Glue.ops2_arg3 (W4 m d)).trans (W4_arg3 m d)
theorem W6_arg3 (d : Dev nD) : W6 m d (main_arg3 : DevRef τ sig) = m (d, (main_arg3 : DevRef τ sig)) :=
  (Loss.exit_other (Wb m) (Ob (F := F)) (Bb (F := F)) d main_arg3 (by decide)).trans (Wb_arg3 m d)
/-- Argument 3 ends as launched. -/
theorem W7_arg3 (d : Dev nD) : W7 m d (main_arg3 : DevRef τ sig) = m (d, (main_arg3 : DevRef τ sig)) :=
  (Glue.ops3_arg3 (W6 m d)).trans (W6_arg3 m d)

theorem W2_arg4 (d : Dev nD) : W2 m d (main_arg4 : DevRef τ sig) = m (d, (main_arg4 : DevRef τ sig)) :=
  (Mlp.exit_other (Wa m) (Oa (F := F)) (Ba (F := F)) d main_arg4 (by decide)).trans (Glue.ops0_arg4 (Launch.W0 m d))
theorem W3_arg4 (d : Dev nD) : W3 m d (main_arg4 : DevRef τ sig) = m (d, (main_arg4 : DevRef τ sig)) :=
  (Glue.ops1_arg4 (W2 m d)).trans (W2_arg4 m d)
theorem W4_arg4 (d : Dev nD) : W4 m d (main_arg4 : DevRef τ sig) = m (d, (main_arg4 : DevRef τ sig)) :=
  (W4_of_ne m d main_arg4 (by decide) (by decide)).trans (W3_arg4 m d)
theorem Wb_arg4 (d : Dev nD) : Wb m d (main_arg4 : DevRef τ sig) = m (d, (main_arg4 : DevRef τ sig)) :=
  (Glue.ops2_arg4 (W4 m d)).trans (W4_arg4 m d)
theorem W6_arg4 (d : Dev nD) : W6 m d (main_arg4 : DevRef τ sig) = m (d, (main_arg4 : DevRef τ sig)) :=
  (Loss.exit_other (Wb m) (Ob (F := F)) (Bb (F := F)) d main_arg4 (by decide)).trans (Wb_arg4 m d)
/-- Argument 4 ends as launched. -/
theorem W7_arg4 (d : Dev nD) : W7 m d (main_arg4 : DevRef τ sig) = m (d, (main_arg4 : DevRef τ sig)) :=
  (Glue.ops3_arg4 (W6 m d)).trans (W6_arg4 m d)

theorem W2_arg5 (d : Dev nD) : W2 m d (main_arg5 : DevRef τ sig) = m (d, (main_arg5 : DevRef τ sig)) :=
  (Mlp.exit_other (Wa m) (Oa (F := F)) (Ba (F := F)) d main_arg5 (by decide)).trans (Glue.ops0_arg5 (Launch.W0 m d))
theorem W3_arg5 (d : Dev nD) : W3 m d (main_arg5 : DevRef τ sig) = m (d, (main_arg5 : DevRef τ sig)) :=
  (Glue.ops1_arg5 (W2 m d)).trans (W2_arg5 m d)
theorem W4_arg5 (d : Dev nD) : W4 m d (main_arg5 : DevRef τ sig) = m (d, (main_arg5 : DevRef τ sig)) :=
  (W4_of_ne m d main_arg5 (by decide) (by decide)).trans (W3_arg5 m d)
theorem Wb_arg5 (d : Dev nD) : Wb m d (main_arg5 : DevRef τ sig) = m (d, (main_arg5 : DevRef τ sig)) :=
  (Glue.ops2_arg5 (W4 m d)).trans (W4_arg5 m d)
theorem W6_arg5 (d : Dev nD) : W6 m d (main_arg5 : DevRef τ sig) = m (d, (main_arg5 : DevRef τ sig)) :=
  (Loss.exit_other (Wb m) (Ob (F := F)) (Bb (F := F)) d main_arg5 (by decide)).trans (Wb_arg5 m d)
/-- Argument 5 ends as launched. -/
theorem W7_arg5 (d : Dev nD) : W7 m d (main_arg5 : DevRef τ sig) = m (d, (main_arg5 : DevRef τ sig)) :=
  (Glue.ops3_arg5 (W6 m d)).trans (W6_arg5 m d)

theorem W2_arg6 (d : Dev nD) : W2 m d (main_arg6 : DevRef τ sig) = m (d, (main_arg6 : DevRef τ sig)) :=
  (Mlp.exit_other (Wa m) (Oa (F := F)) (Ba (F := F)) d main_arg6 (by decide)).trans (Glue.ops0_arg6 (Launch.W0 m d))
theorem W3_arg6 (d : Dev nD) : W3 m d (main_arg6 : DevRef τ sig) = m (d, (main_arg6 : DevRef τ sig)) :=
  (Glue.ops1_arg6 (W2 m d)).trans (W2_arg6 m d)
theorem W4_arg6 (d : Dev nD) : W4 m d (main_arg6 : DevRef τ sig) = m (d, (main_arg6 : DevRef τ sig)) :=
  (W4_of_ne m d main_arg6 (by decide) (by decide)).trans (W3_arg6 m d)
theorem Wb_arg6 (d : Dev nD) : Wb m d (main_arg6 : DevRef τ sig) = m (d, (main_arg6 : DevRef τ sig)) :=
  (Glue.ops2_arg6 (W4 m d)).trans (W4_arg6 m d)
theorem W6_arg6 (d : Dev nD) : W6 m d (main_arg6 : DevRef τ sig) = m (d, (main_arg6 : DevRef τ sig)) :=
  (Loss.exit_other (Wb m) (Ob (F := F)) (Bb (F := F)) d main_arg6 (by decide)).trans (Wb_arg6 m d)
/-- Argument 6 ends as launched. -/
theorem W7_arg6 (d : Dev nD) : W7 m d (main_arg6 : DevRef τ sig) = m (d, (main_arg6 : DevRef τ sig)) :=
  (Glue.ops3_arg6 (W6 m d)).trans (W6_arg6 m d)

theorem W2_arg7 (d : Dev nD) : W2 m d (main_arg7 : DevRef τ sig) = m (d, (main_arg7 : DevRef τ sig)) :=
  (Mlp.exit_other (Wa m) (Oa (F := F)) (Ba (F := F)) d main_arg7 (by decide)).trans (Glue.ops0_arg7 (Launch.W0 m d))
theorem W3_arg7 (d : Dev nD) : W3 m d (main_arg7 : DevRef τ sig) = m (d, (main_arg7 : DevRef τ sig)) :=
  (Glue.ops1_arg7 (W2 m d)).trans (W2_arg7 m d)
theorem W4_arg7 (d : Dev nD) : W4 m d (main_arg7 : DevRef τ sig) = m (d, (main_arg7 : DevRef τ sig)) :=
  (W4_of_ne m d main_arg7 (by decide) (by decide)).trans (W3_arg7 m d)
theorem Wb_arg7 (d : Dev nD) : Wb m d (main_arg7 : DevRef τ sig) = m (d, (main_arg7 : DevRef τ sig)) :=
  (Glue.ops2_arg7 (W4 m d)).trans (W4_arg7 m d)
theorem W6_arg7 (d : Dev nD) : W6 m d (main_arg7 : DevRef τ sig) = m (d, (main_arg7 : DevRef τ sig)) :=
  (Loss.exit_other (Wb m) (Ob (F := F)) (Bb (F := F)) d main_arg7 (by decide)).trans (Wb_arg7 m d)
/-- Argument 7 ends as launched. -/
theorem W7_arg7 (d : Dev nD) : W7 m d (main_arg7 : DevRef τ sig) = m (d, (main_arg7 : DevRef τ sig)) :=
  (Glue.ops3_arg7 (W6 m d)).trans (W6_arg7 m d)

theorem W2_arg8 (d : Dev nD) : W2 m d (main_arg8 : DevRef τ sig) = m (d, (main_arg8 : DevRef τ sig)) :=
  (Mlp.exit_other (Wa m) (Oa (F := F)) (Ba (F := F)) d main_arg8 (by decide)).trans (Glue.ops0_arg8 (Launch.W0 m d))
theorem W3_arg8 (d : Dev nD) : W3 m d (main_arg8 : DevRef τ sig) = m (d, (main_arg8 : DevRef τ sig)) :=
  (Glue.ops1_arg8 (W2 m d)).trans (W2_arg8 m d)
theorem W4_arg8 (d : Dev nD) : W4 m d (main_arg8 : DevRef τ sig) = m (d, (main_arg8 : DevRef τ sig)) :=
  (W4_of_ne m d main_arg8 (by decide) (by decide)).trans (W3_arg8 m d)
theorem Wb_arg8 (d : Dev nD) : Wb m d (main_arg8 : DevRef τ sig) = m (d, (main_arg8 : DevRef τ sig)) :=
  (Glue.ops2_arg8 (W4 m d)).trans (W4_arg8 m d)
theorem W6_arg8 (d : Dev nD) : W6 m d (main_arg8 : DevRef τ sig) = m (d, (main_arg8 : DevRef τ sig)) :=
  (Loss.exit_other (Wb m) (Ob (F := F)) (Bb (F := F)) d main_arg8 (by decide)).trans (Wb_arg8 m d)
/-- Argument 8 ends as launched. -/
theorem W7_arg8 (d : Dev nD) : W7 m d (main_arg8 : DevRef τ sig) = m (d, (main_arg8 : DevRef τ sig)) :=
  (Glue.ops3_arg8 (W6 m d)).trans (W6_arg8 m d)

theorem W2_arg9 (d : Dev nD) : W2 m d (main_arg9 : DevRef τ sig) = m (d, (main_arg9 : DevRef τ sig)) :=
  (Mlp.exit_other (Wa m) (Oa (F := F)) (Ba (F := F)) d main_arg9 (by decide)).trans (Glue.ops0_arg9 (Launch.W0 m d))
theorem W3_arg9 (d : Dev nD) : W3 m d (main_arg9 : DevRef τ sig) = m (d, (main_arg9 : DevRef τ sig)) :=
  (Glue.ops1_arg9 (W2 m d)).trans (W2_arg9 m d)
theorem W4_arg9 (d : Dev nD) : W4 m d (main_arg9 : DevRef τ sig) = m (d, (main_arg9 : DevRef τ sig)) :=
  (W4_of_ne m d main_arg9 (by decide) (by decide)).trans (W3_arg9 m d)
theorem Wb_arg9 (d : Dev nD) : Wb m d (main_arg9 : DevRef τ sig) = m (d, (main_arg9 : DevRef τ sig)) :=
  (Glue.ops2_arg9 (W4 m d)).trans (W4_arg9 m d)
theorem W6_arg9 (d : Dev nD) : W6 m d (main_arg9 : DevRef τ sig) = m (d, (main_arg9 : DevRef τ sig)) :=
  (Loss.exit_other (Wb m) (Ob (F := F)) (Bb (F := F)) d main_arg9 (by decide)).trans (Wb_arg9 m d)
/-- Argument 9 ends as launched. -/
theorem W7_arg9 (d : Dev nD) : W7 m d (main_arg9 : DevRef τ sig) = m (d, (main_arg9 : DevRef τ sig)) :=
  (Glue.ops3_arg9 (W6 m d)).trans (W6_arg9 m d)

/-! ## (I) The index columns are the index argument's columns, so in range where it is -/

theorem IA_apply (d : Dev nD) (p : Fin 640000) :
    (IA m d : IVec S640000 32) (ix1 p) = (m (d, (main_arg0 : DevRef τ sig)) : IVec S640000x2 32) (ix2 p (0 : Fin 2)) :=
  (Glue.ops1_v11 (W2 m d) p).trans (congrFun (W2_arg0 m d) (ix2 p (0 : Fin 2)))

theorem IB_apply (d : Dev nD) (p : Fin 640000) :
    (IB m d : IVec S640000 32) (ix1 p) = (m (d, (main_arg0 : DevRef τ sig)) : IVec S640000x2 32) (ix2 p (1 : Fin 2)) :=
  (Glue.ops1_v13 (W2 m d) p).trans (congrFun (W2_arg0 m d) (ix2 p (1 : Fin 2)))

theorem idxOK (h : ∀ (d : Dev nD) (i : S640000x2.Idx), ((m (d, (main_arg0 : DevRef τ sig)) : IVec S640000x2 32) i).toNat < 10000) :
    Tile.IdxOK (IA m) (IB m) := fun d p => by
  obtain ⟨q, rfl⟩ : ∃ q : Fin 640000, p = ix1 q := ⟨p 0, eq_ix1 p⟩
  exact ⟨lt_of_eq_of_lt (congrArg BitVec.toNat (IA_apply m d q)) (h d _),
    lt_of_eq_of_lt (congrArg BitVec.toNat (IB_apply m d q)) (h d _)⟩

/-! ## (V1) The first result: the two result columns side by side -/

theorem W6_v14_0 (d : Dev nD) : W6 m d (main_v14_0 : DevRef τ sig) = Tile.Z0 (TAB m) (IA m) (IB m) d :=
  (Loss.exit_other (Wb m) (Ob (F := F)) (Bb (F := F)) d main_v14_0 (by decide)).trans ((Glue.ops2_v14_0 (W4 m d)).trans (W4_v14_0 m d))
theorem W6_v14_1 (d : Dev nD) : W6 m d (main_v14_1 : DevRef τ sig) = Tile.Z1 (TAB m) (IA m) (IB m) d :=
  (Loss.exit_other (Wb m) (Ob (F := F)) (Bb (F := F)) d main_v14_1 (by decide)).trans ((Glue.ops2_v14_1 (W4 m d)).trans (W4_v14_1 m d))

/-- Column 0 of the first result is the first result column of the SparseCore call; -/
theorem W7_v21_0 (d : Dev nD) (p : Fin 640000) :
    (W7 m d (main_v21 : DevRef τ sig) : S640000x2.Idx → F .f32) (ix2 p (0 : Fin 2))
      = (Tile.Z0 (TAB m) (IA m) (IB m) d : S640000.Idx → F .f32) (ix1 p) :=
  (Glue.ops3_v21_0 (W6 m d) p).trans (congrFun (W6_v14_0 m d) (ix1 p))
/-- column 1 the second. -/
theorem W7_v21_1 (d : Dev nD) (p : Fin 640000) :
    (W7 m d (main_v21 : DevRef τ sig) : S640000x2.Idx → F .f32) (ix2 p (1 : Fin 2))
      = (Tile.Z1 (TAB m) (IA m) (IB m) d : S640000.Idx → F .f32) (ix1 p) :=
  (Glue.ops3_v21_1 (W6 m d) p).trans (congrFun (W6_v14_1 m d) (ix1 p))

/-! ## (V2) The second result: the loss call's one element -/

theorem W7_v22 (d : Dev nD) :
    (W7 m d (main_v22 : DevRef τ sig) : S_.Idx → F .f32) ix0
      = (Loss.lossVal (Vof (Wb m)) d : S1x1.Idx → F .f32) (ix2 (0 : Fin 1) (0 : Fin 1)) :=
  (Glue.ops3_v22 (W6 m d)).trans (congrFun (Loss.exit_out (Wb m) (Ob (F := F)) (Bb (F := F)) d) (ix2 (0 : Fin 1) (0 : Fin 1)))

/-! ## (V3) The SparseCore call's table is the dense layers' output, flattened -/

theorem TAB_apply (d : Dev nD) (n : Fin 40000) :
    (TAB m d : S40000.Idx → F .f32) (ix1 n)
      = Mlp.G0 (Vof (Wa m) d main_arg2) (Vof (Wa m) d main_arg4) (Vof (Wa m) d main_v6) (Vof (Wa m) d main_arg6)
          (Vof (Wa m) d main_v7) (Vof (Wa m) d main_v2) (Vof (Wa m) d main_v5)
          (ix2 (⟨n.val / 4, by omega⟩ : Fin 10000) (⟨n.val % 4, by omega⟩ : Fin 4)) :=
  (Glue.ops1_v9 (W2 m d) n).trans (congrFun (Mlp.exit_out (Wa m) (Oa (F := F)) (Ba (F := F)) d) _)

/-! ## (V4) The loss call's blocks: the result columns and the labels in rows of 128 -/

theorem Wb_v15 (d : Dev nD) (r : Fin 5000) (c : Fin 128) :
    (Wb m d (main_v15 : DevRef τ sig) : S5000x128.Idx → F .f32) (ix2 r c)
      = (Tile.Z0 (TAB m) (IA m) (IB m) d : S640000.Idx → F .f32) (ix1 ⟨r.val * 128 + c.val, Glue.lane_lt r c⟩) :=
  (Glue.ops2_v15 (W4 m d) r c).trans (congrFun (W4_v14_0 m d) _)
theorem Wb_v16 (d : Dev nD) (r : Fin 5000) (c : Fin 128) :
    (Wb m d (main_v16 : DevRef τ sig) : S5000x128.Idx → F .f32) (ix2 r c)
      = (Tile.Z1 (TAB m) (IA m) (IB m) d : S640000.Idx → F .f32) (ix1 ⟨r.val * 128 + c.val, Glue.lane_lt r c⟩) :=
  (Glue.ops2_v16 (W4 m d) r c).trans (congrFun (W4_v14_1 m d) _)
theorem Wb_v17 (d : Dev nD) (r : Fin 5000) (c : Fin 128) :
    (Wb m d (main_v17 : DevRef τ sig) : S5000x128.Idx → BitVec 32) (ix2 r c)
      = (m (d, (main_arg3 : DevRef τ sig)) : S640000.Idx → BitVec 32) (ix1 ⟨r.val * 128 + c.val, Glue.lane_lt r c⟩) :=
  (Glue.ops2_v17 (W4 m d) r c).trans (congrFun (W4_arg3 m d) _)

/-! ## (V5) The dense layers' seven inputs, from the launch memory -/

theorem Wa_arg2 (d : Dev nD) : Wa m d (main_arg2 : DevRef τ sig) = m (d, (main_arg2 : DevRef τ sig)) := Glue.ops0_arg2 (Launch.W0 m d)
theorem Wa_arg4 (d : Dev nD) : Wa m d (main_arg4 : DevRef τ sig) = m (d, (main_arg4 : DevRef τ sig)) := Glue.ops0_arg4 (Launch.W0 m d)
theorem Wa_arg6 (d : Dev nD) : Wa m d (main_arg6 : DevRef τ sig) = m (d, (main_arg6 : DevRef τ sig)) := Glue.ops0_arg6 (Launch.W0 m d)
/-- The first bias row is the first bias; the second likewise. -/
theorem Wa_v6 (d : Dev nD) (j : Fin 64) :
    (Wa m d (main_v6 : DevRef τ sig) : S1x64.Idx → F .f32) (ix2 (0 : Fin 1) j) = (m (d, (main_arg5 : DevRef τ sig)) : S64.Idx → F .f32) (ix1 j) :=
  Glue.ops0_v6 (Launch.W0 m d) j
theorem Wa_v7 (d : Dev nD) (j : Fin 64) :
    (Wa m d (main_v7 : DevRef τ sig) : S1x64.Idx → F .f32) (ix2 (0 : Fin 1) j) = (m (d, (main_arg7 : DevRef τ sig)) : S64.Idx → F .f32) (ix1 j) :=
  Glue.ops0_v7 (Launch.W0 m d) j
/-- Column `l` of the side-by-side classifier is label `l` of its upper half, column `2 + l` label `l` of its lower half. -/
theorem Wa_v2_left (d : Dev nD) (k : Fin 64) (l : Fin 2) :
    (Wa m d (main_v2 : DevRef τ sig) : S64x4.Idx → F .f32) (ix2 k (⟨l.val, by omega⟩ : Fin 4))
      = (m (d, (main_arg8 : DevRef τ sig)) : S128x2.Idx → F .f32) (ix2 (Cert.Spec.top k) l) :=
  Glue.ops0_v2_left (Launch.W0 m d) k l
theorem Wa_v2_right (d : Dev nD) (k : Fin 64) (l : Fin 2) :
    (Wa m d (main_v2 : DevRef τ sig) : S64x4.Idx → F .f32) (ix2 k (⟨2 + l.val, by omega⟩ : Fin 4))
      = (m (d, (main_arg8 : DevRef τ sig)) : S128x2.Idx → F .f32) (ix2 (Cert.Spec.bot k) l) :=
  Glue.ops0_v2_right (Launch.W0 m d) k l
/-- The bias row is the classifier's bias followed by two zeros. -/
theorem Wa_v5_left (d : Dev nD) (l : Fin 2) :
    (Wa m d (main_v5 : DevRef τ sig) : S1x4.Idx → F .f32) (ix2 (0 : Fin 1) (⟨l.val, by omega⟩ : Fin 4))
      = (m (d, (main_arg9 : DevRef τ sig)) : S2.Idx → F .f32) (ix1 l) :=
  Glue.ops0_v5_left (Launch.W0 m d) l
theorem Wa_v5_right (d : Dev nD) (l : Fin 2) :
    (Wa m d (main_v5 : DevRef τ sig) : S1x4.Idx → F .f32) (ix2 (0 : Fin 1) (⟨2 + l.val, by omega⟩ : Fin 4))
      = (FloatOps.ofBits .f32 0x00000000#32 : F .f32) :=
  Glue.ops0_v5_right (Launch.W0 m d) l

end Cert.Kernel.Sc.Chain

end
-- ==== Proof.TileLemmasB.lean ====
/-
  One vector subcore's task, first part: the words the task computes with, the side conditions it assumes, and what
  one trip of a block's loop leaves in the two result scratches.

  A block's loop runs 250 trips of 16 lanes. Trip k reads the index words 16 k .. 16 k + 15 of the two index scratches,
  gathers the table scratch at 4 a, 4 b + 2, 4 a + 1, 4 b + 3, and stores the two sums at lanes 16 k .. 16 k + 15 of
  the result scratches: before trip k the result scratches hold the block's values below lane 16 k and what they held
  before the loop from there on.
-/
import proofs.«208457_g31284541784245_cont_9to1_2229_14_alg».proof.Proof.TileDefsB
import proofs.«208457_g31284541784245_cont_9to1_2229_14_alg».proof.Proof.Gen.Kernel.Skeleton

noncomputable section

namespace Cert.Kernel.Sc.Tile

open Cert.Kernel Cert.Kernel.Gen Cert.Kernel.Sc

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Transfers (shareTok shareDrop pointsTo_toks_split pointsTo_toks_join)
open Idealize.ShloMosaic.Tactic
variable {F : FTy → Type}

/-! ## The places and the scratch memrefs, spelt as the body table passes them -/

abbrev cV (L : grid1.Coords) : Fin τ.nSC := (L 0).castLE hcore1
abbrev jV (L : grid1.Coords) : Fin τ.nSub := (L 1).castLE hsub1
abbrev thrV (d : Dev nD) (L : grid1.Coords) : Thread nD τ := V d (cV L) (jV L)

abbrev s0 : Memref sig .scVector .vmem S40000 .f32 := Memref.whole cc1_scratch0
abbrev s1 : Memref sig .scVector .vmem S4000 .i32 := Memref.whole cc1_scratch1
abbrev s2 : Memref sig .scVector .vmem S4000 .i32 := Memref.whole cc1_scratch2
abbrev s3 : Memref sig .scVector .vmem S4000 .f32 := Memref.whole cc1_scratch3
abbrev s4 : Memref sig .scVector .vmem S4000 .f32 := Memref.whole cc1_scratch4

/-! ## Words -/

theorem toNat_mul4 (w : BitVec 32) (h : w.toNat < 10000) : (IntOp.muli w 4#32).toNat = 4 * w.toNat := by
  show (w * 4#32).toNat = _
  rw [BitVec.toNat_mul]
  have : (4#32 : BitVec 32).toNat = 4 := by decide
  rw [this]; omega

theorem toNat_mul4_add (w : BitVec 32) (h : w.toNat < 10000) (c : ℕ) (hc : c < 4) :
    (IntOp.addi (IntOp.muli w 4#32) (BitVec.ofNat 32 c)).toNat = 4 * w.toNat + c := by
  show (w * 4#32 + BitVec.ofNat 32 c).toNat = _
  rw [BitVec.toNat_add, BitVec.toNat_mul, BitVec.toNat_ofNat, BitVec.toNat_ofNat]
  have e : (2 : ℕ) ^ 32 = 4294967296 := by norm_num
  rw [e]; omega

/-- Four times a node's word names a word of the table; -/
theorem chk_mul0 (v : IVec S16 32) (h : ∀ x, (v x).toNat < 10000) :
    ∀ a x, ((![muli v (broadcast S16 4#32)] : Fin 1 → IVec S16 32) a x).toNat < S40000.size a := by
  intro a x; obtain rfl : a = 0 := Subsingleton.elim _ _
  show (IntOp.muli (v x) 4#32).toNat < 40000
  rw [toNat_mul4 _ (h x)]; have := h x; omega
/-- and so does that plus one, two or three. -/
theorem chk_mul (v : IVec S16 32) (h : ∀ x, (v x).toNat < 10000) (c : ℕ) (hc : c < 4) :
    ∀ a x, ((![addi (muli v (broadcast S16 4#32)) (broadcast S16 (BitVec.ofNat 32 c))] : Fin 1 → IVec S16 32) a x).toNat < S40000.size a := by
  intro a x; obtain rfl : a = 0 := Subsingleton.elim _ _
  show (IntOp.addi (IntOp.muli (v x) 4#32) (BitVec.ofNat 32 c)).toNat < 40000
  rw [toNat_mul4_add _ (h x) c hc]; have := h x; omega

/-! ## A block's values, and the result scratches trip by trip -/

section Vals

variable [FloatOps F]

/-- A block's values from the table and the block's index words. -/
def lz0 (T : Vec F S40000 .f32) (A B : IVec S4000 32) : Vec F S4000 .f32 :=
  fun j => FloatOps.addf (φ := .f32) (T (tabIx (4 * (A j).toNat))) (T (tabIx (4 * (B j).toNat + 2)))
def lz1 (T : Vec F S40000 .f32) (A B : IVec S4000 32) : Vec F S4000 .f32 :=
  fun j => FloatOps.addf (φ := .f32) (T (tabIx (4 * (A j).toNat + 1))) (T (tabIx (4 * (B j).toNat + 3)))

omit [FloatOps F] in
/-- The values below lane `16 k`, the earlier contents from there on. -/
def upTo (Z f0 : Vec F S4000 .f32) (k : ℕ) : Vec F S4000 .f32 := fun j => if (j 0).val < 16 * k then Z j else f0 j

omit [FloatOps F] in
theorem upTo_all (Z f0 : Vec F S4000 .f32) : upTo Z f0 250 = Z := by
  funext j; unfold upTo; rw [if_pos]; have : (j 0).val < 4000 := (j 0).isLt; omega

omit [FloatOps F] in
/-- The lanes of trip `k`. -/
theorem emb16_val {k : ℕ} {off : Fin 1 → ℕ} (hoff : off = ![16 * k]) (inb : ∀ a, off a + (![16] : Fin 1 → ℕ) a ≤ S4000.size a)
    (x : (Rect.unit (s := S4000) off ![16] inb).shape.Idx) :
    (((Rect.unit (s := S4000) off ![16] inb).emb x) 0).val = 16 * k + (x 0).val := by
  subst hoff; simp [Rect.emb_apply]

omit [FloatOps F] in
theorem idx16_val {k : ℕ} {off : Fin 1 → ℕ} (hoff : off = ![16 * k]) (inb : ∀ a, off a + (![16] : Fin 1 → ℕ) a ≤ S4000.size a)
    (x : (Rect.unit (s := S4000) off ![16] inb).shape.Idx) :
    (((Rect.unit (s := S4000) off ![16] inb).toLoadRect.idx x) 0).val = 16 * k + (x 0).val := by
  subst hoff; simp [LoadRect.idx_apply]

end Vals

section Steps

variable [FloatOps F]

omit [FloatOps F] in
/-- One trip's store into the first result scratch: the values reach one trip further. -/
theorem upTo_step3 (Z f0 : Vec F S4000 .f32) (k : ℕ) (off : Fin 1 → ℕ) (hoff : off = ![16 * k])
    (inb : ∀ a, off a + (![16] : Fin 1 → ℕ) a ≤ S4000.size a)
    (w : (Rect.unit (s := S4000) off ![16] inb).shape.Idx → Elt F .f32)
    (hw : ∀ x, w x = Z ((Rect.unit (s := S4000) off ![16] inb).emb x)) :
    s3.view.writes (Elt F) (upTo Z f0 k) [⟨Rect.unit (s := S4000) off ![16] inb, w⟩] = upTo Z f0 (k + 1) := by
  funext j
  show s3.view.read (Elt F) (s3.view.writes (Elt F) (upTo Z f0 k) [⟨Rect.unit (s := S4000) off ![16] inb, w⟩]) j = _
  by_cases hj : j ∈ (Rect.unit (s := S4000) off ![16] inb).set
  · obtain ⟨x, rfl⟩ := (Rect.unit (s := S4000) off ![16] inb).exists_idx_of_mem hj
    show s3.view.read (Elt F) (s3.view.writes (Elt F) (upTo Z f0 k) [⟨Rect.unit (s := S4000) off ![16] inb, w⟩]) ((Rect.unit (s := S4000) off ![16] inb).emb x) = _
    rw [View.read_writes_cons_emb, hw]
    have hx : (((Rect.unit (s := S4000) off ![16] inb).emb x) 0).val < 16 * (k + 1) := by
      have h1 := emb16_val hoff inb x
      have h16 : (x 0).val < 16 := (x 0).isLt
      omega
    exact (if_pos hx).symm
  · rw [View.read_writes_apply_of_forall_not_mem _ _ _ _ (fun p hp => by rw [List.mem_singleton] at hp; subst hp; exact hj)]
    show upTo Z f0 k j = upTo Z f0 (k + 1) j
    rw [Rect.mem_set_unit] at hj
    subst hoff
    have h0 : ¬ (16 * k ≤ (j 0).val ∧ (j 0).val < 16 * k + 16) := fun h => hj fun a => by
      obtain rfl : a = 0 := Subsingleton.elim _ _
      exact h
    unfold upTo
    by_cases h1 : (j 0).val < 16 * k
    · rw [if_pos h1, if_pos (by omega)]
    · rw [if_neg h1, if_neg (by omega)]

omit [FloatOps F] in
/-- The same for the second result scratch. -/
theorem upTo_step4 (Z f0 : Vec F S4000 .f32) (k : ℕ) (off : Fin 1 → ℕ) (hoff : off = ![16 * k])
    (inb : ∀ a, off a + (![16] : Fin 1 → ℕ) a ≤ S4000.size a)
    (w : (Rect.unit (s := S4000) off ![16] inb).shape.Idx → Elt F .f32)
    (hw : ∀ x, w x = Z ((Rect.unit (s := S4000) off ![16] inb).emb x)) :
    s4.view.writes (Elt F) (upTo Z f0 k) [⟨Rect.unit (s := S4000) off ![16] inb, w⟩] = upTo Z f0 (k + 1) := by
  funext j
  show s4.view.read (Elt F) (s4.view.writes (Elt F) (upTo Z f0 k) [⟨Rect.unit (s := S4000) off ![16] inb, w⟩]) j = _
  by_cases hj : j ∈ (Rect.unit (s := S4000) off ![16] inb).set
  · obtain ⟨x, rfl⟩ := (Rect.unit (s := S4000) off ![16] inb).exists_idx_of_mem hj
    show s4.view.read (Elt F) (s4.view.writes (Elt F) (upTo Z f0 k) [⟨Rect.unit (s := S4000) off ![16] inb, w⟩]) ((Rect.unit (s := S4000) off ![16] inb).emb x) = _
    rw [View.read_writes_cons_emb, hw]
    have hx : (((Rect.unit (s := S4000) off ![16] inb).emb x) 0).val < 16 * (k + 1) := by
      have h1 := emb16_val hoff inb x
      have h16 : (x 0).val < 16 := (x 0).isLt
      omega
    exact (if_pos hx).symm
  · rw [View.read_writes_apply_of_forall_not_mem _ _ _ _ (fun p hp => by rw [List.mem_singleton] at hp; subst hp; exact hj)]
    show upTo Z f0 k j = upTo Z f0 (k + 1) j
    rw [Rect.mem_set_unit] at hj
    subst hoff
    have h0 : ¬ (16 * k ≤ (j 0).val ∧ (j 0).val < 16 * k + 16) := fun h => hj fun a => by
      obtain rfl : a = 0 := Subsingleton.elim _ _
      exact h
    unfold upTo
    by_cases h1 : (j 0).val < 16 * k
    · rw [if_pos h1, if_pos (by omega)]
    · rw [if_neg h1, if_neg (by omega)]

/-- The table scratch gathered at a word below the table's length reads the table there. -/
theorem gather_lane (T : Vec F S40000 .f32) (idx : IVec S16 32) (h : ∀ a x, ((![idx] : Fin 1 → IVec S16 32) a x).toNat < S40000.size a)
    (x : S16.Idx) (n : ℕ) (hn : (idx x).toNat = n) (hlt : n < 40000) :
    loadIdx (View.readAt (Elt F) s0.view (LoadRect.whole S40000) T) ![idx] h x = T (tabIx n) := by
  show T ((LoadRect.whole S40000).idx (idxAt ![idx] h x)) = T (tabIx n)
  congr 1
  funext a; obtain rfl : a = 0 := Subsingleton.elim _ _
  apply Fin.ext
  show (LoadRect.whole S40000).off 0 + (LoadRect.whole S40000).stride 0 * (idx x).toNat = n % 40000
  rw [hn, Nat.mod_eq_of_lt hlt]
  show 0 + 1 * n = n
  omega

end Steps

section Lanes

variable [FloatOps F]

omit [FloatOps F] in
/-- Lane `x` of trip `k`'s load of an index scratch is the scratch's word at lane `16 k + x`: the lane the trip's store
    writes. -/
theorem idxLane1 (A : IVec S4000 32) {k : ℕ} {offI offO : Fin 1 → ℕ} (hI : offI = ![16 * k]) (hO : offO = ![16 * k])
    (inbI : ∀ a, offI a + (![16] : Fin 1 → ℕ) a ≤ S4000.size a) (inbO : ∀ a, offO a + (![16] : Fin 1 → ℕ) a ≤ S4000.size a)
    (x : S16.Idx) :
    View.readAt (Elt F) s1.view (Rect.unit (s := S4000) offI ![16] inbI).toLoadRect A x = A ((Rect.unit (s := S4000) offO ![16] inbO).emb x) := by
  show A ((Rect.unit (s := S4000) offI ![16] inbI).toLoadRect.idx x) = A ((Rect.unit (s := S4000) offO ![16] inbO).emb x)
  congr 1
  funext a; obtain rfl : a = 0 := Subsingleton.elim _ _
  apply Fin.ext
  rw [idx16_val hI, emb16_val hO]
omit [FloatOps F] in
theorem idxLane2 (B : IVec S4000 32) {k : ℕ} {offI offO : Fin 1 → ℕ} (hI : offI = ![16 * k]) (hO : offO = ![16 * k])
    (inbI : ∀ a, offI a + (![16] : Fin 1 → ℕ) a ≤ S4000.size a) (inbO : ∀ a, offO a + (![16] : Fin 1 → ℕ) a ≤ S4000.size a)
    (x : S16.Idx) :
    View.readAt (Elt F) s2.view (Rect.unit (s := S4000) offI ![16] inbI).toLoadRect B x = B ((Rect.unit (s := S4000) offO ![16] inbO).emb x) := by
  show B ((Rect.unit (s := S4000) offI ![16] inbI).toLoadRect.idx x) = B ((Rect.unit (s := S4000) offO ![16] inbO).emb x)
  congr 1
  funext a; obtain rfl : a = 0 := Subsingleton.elim _ _
  apply Fin.ext
  rw [idx16_val hI, emb16_val hO]

/-- What a trip stores into the first result scratch, lane by lane: the block's first values at the trip's lanes. -/
theorem pay0_lane (T : Vec F S40000 .f32) (A B : IVec S4000 32) (hA : ∀ j, (A j).toNat < 10000) (hB : ∀ j, (B j).toNat < 10000)
    {k : ℕ} {offI offO : Fin 1 → ℕ} (hI : offI = ![16 * k]) (hO : offO = ![16 * k])
    (inbI : ∀ a, offI a + (![16] : Fin 1 → ℕ) a ≤ S4000.size a) (inbO : ∀ a, offO a + (![16] : Fin 1 → ℕ) a ≤ S4000.size a)
    (h1 : ∀ a x, ((![muli (View.readAt (Elt F) s1.view (Rect.unit (s := S4000) offI ![16] inbI).toLoadRect A) (broadcast S16 4#32)] : Fin 1 → IVec S16 32) a x).toNat < S40000.size a)
    (h2 : ∀ a x, ((![addi (muli (View.readAt (Elt F) s2.view (Rect.unit (s := S4000) offI ![16] inbI).toLoadRect B) (broadcast S16 4#32)) (broadcast S16 2#32)] : Fin 1 → IVec S16 32) a x).toNat < S40000.size a)
    (x : S16.Idx) :
    addf (loadIdx (View.readAt (Elt F) s0.view (LoadRect.whole S40000) T) ![muli (View.readAt (Elt F) s1.view (Rect.unit (s := S4000) offI ![16] inbI).toLoadRect A) (broadcast S16 4#32)] h1)
        (loadIdx (View.readAt (Elt F) s0.view (LoadRect.whole S40000) T) ![addi (muli (View.readAt (Elt F) s2.view (Rect.unit (s := S4000) offI ![16] inbI).toLoadRect B) (broadcast S16 4#32)) (broadcast S16 2#32)] h2) x
      = lz0 T A B ((Rect.unit (s := S4000) offO ![16] inbO).emb x) := by
  have ea := idxLane1 (F := F) A hI hO inbI inbO x
  have eb := idxLane2 (F := F) B hI hO inbI inbO x
  have ha := hA ((Rect.unit (s := S4000) offO ![16] inbO).emb x)
  have hb := hB ((Rect.unit (s := S4000) offO ![16] inbO).emb x)
  show FloatOps.addf (φ := .f32) (loadIdx (F := F) (e := .f32) _ _ h1 x) (loadIdx (F := F) (e := .f32) _ _ h2 x) = FloatOps.addf (φ := .f32) (T (tabIx _)) (T (tabIx _))
  rw [gather_lane T _ h1 x (4 * (A ((Rect.unit (s := S4000) offO ![16] inbO).emb x)).toNat)
      (by show (IntOp.muli (View.readAt (Elt F) s1.view (Rect.unit (s := S4000) offI ![16] inbI).toLoadRect A x) 4#32).toNat = _
          rw [ea, toNat_mul4 _ ha]) (by omega),
    gather_lane T _ h2 x (4 * (B ((Rect.unit (s := S4000) offO ![16] inbO).emb x)).toNat + 2)
      (by show (IntOp.addi (IntOp.muli (View.readAt (Elt F) s2.view (Rect.unit (s := S4000) offI ![16] inbI).toLoadRect B x) 4#32) (BitVec.ofNat 32 2)).toNat = _
          rw [eb, toNat_mul4_add _ hb 2 (by decide)]) (by omega)]

/-- What a trip stores into the second result scratch, lane by lane. -/
theorem pay1_lane (T : Vec F S40000 .f32) (A B : IVec S4000 32) (hA : ∀ j, (A j).toNat < 10000) (hB : ∀ j, (B j).toNat < 10000)
    {k : ℕ} {offI offO : Fin 1 → ℕ} (hI : offI = ![16 * k]) (hO : offO = ![16 * k])
    (inbI : ∀ a, offI a + (![16] : Fin 1 → ℕ) a ≤ S4000.size a) (inbO : ∀ a, offO a + (![16] : Fin 1 → ℕ) a ≤ S4000.size a)
    (h1 : ∀ a x, ((![addi (muli (View.readAt (Elt F) s1.view (Rect.unit (s := S4000) offI ![16] inbI).toLoadRect A) (broadcast S16 4#32)) (broadcast S16 1#32)] : Fin 1 → IVec S16 32) a x).toNat < S40000.size a)
    (h2 : ∀ a x, ((![addi (muli (View.readAt (Elt F) s2.view (Rect.unit (s := S4000) offI ![16] inbI).toLoadRect B) (broadcast S16 4#32)) (broadcast S16 3#32)] : Fin 1 → IVec S16 32) a x).toNat < S40000.size a)
    (x : S16.Idx) :
    addf (loadIdx (View.readAt (Elt F) s0.view (LoadRect.whole S40000) T) ![addi (muli (View.readAt (Elt F) s1.view (Rect.unit (s := S4000) offI ![16] inbI).toLoadRect A) (broadcast S16 4#32)) (broadcast S16 1#32)] h1)
        (loadIdx (View.readAt (Elt F) s0.view (LoadRect.whole S40000) T) ![addi (muli (View.readAt (Elt F) s2.view (Rect.unit (s := S4000) offI ![16] inbI).toLoadRect B) (broadcast S16 4#32)) (broadcast S16 3#32)] h2) x
      = lz1 T A B ((Rect.unit (s := S4000) offO ![16] inbO).emb x) := by
  have ea := idxLane1 (F := F) A hI hO inbI inbO x
  have eb := idxLane2 (F := F) B hI hO inbI inbO x
  have ha := hA ((Rect.unit (s := S4000) offO ![16] inbO).emb x)
  have hb := hB ((Rect.unit (s := S4000) offO ![16] inbO).emb x)
  show FloatOps.addf (φ := .f32) (loadIdx (F := F) (e := .f32) _ _ h1 x) (loadIdx (F := F) (e := .f32) _ _ h2 x) = FloatOps.addf (φ := .f32) (T (tabIx _)) (T (tabIx _))
  rw [gather_lane T _ h1 x (4 * (A ((Rect.unit (s := S4000) offO ![16] inbO).emb x)).toNat + 1)
      (by show (IntOp.addi (IntOp.muli (View.readAt (Elt F) s1.view (Rect.unit (s := S4000) offI ![16] inbI).toLoadRect A x) 4#32) (BitVec.ofNat 32 1)).toNat = _
          rw [ea, toNat_mul4_add _ ha 1 (by decide)]) (by omega),
    gather_lane T _ h2 x (4 * (B ((Rect.unit (s := S4000) offO ![16] inbO).emb x)).toNat + 3)
      (by show (IntOp.addi (IntOp.muli (View.readAt (Elt F) s2.view (Rect.unit (s := S4000) offI ![16] inbI).toLoadRect B x) 4#32) (BitVec.ofNat 32 3)).toNat = _
          rw [eb, toNat_mul4_add _ hb 3 (by decide)]) (by omega)]

end Lanes

/-! ## The vector subcore's own storage, piece by piece -/

section Own

/-- A finite product of assertions with the listed members taken out in front. -/
theorem bigSep_take {I : Type} [DecidableEq I] (Φ : I → sProp (MM F)) :
    ∀ (l : List I) (s : Finset I), l.Nodup → (∀ x ∈ l, x ∈ s) →
      bigSep s Φ = l.foldr (fun x acc => iprop(Φ x ∗ acc)) (bigSep (l.foldl (fun t x => t.erase x) s) Φ)
  | [], _, _, _ => rfl
  | a :: l, s, hn, hm => by
    rw [SparseCore.bigSep_erase' (hm a List.mem_cons_self),
      bigSep_take Φ l (s.erase a) (List.nodup_cons.mp hn).2 fun x hx =>
        Finset.mem_erase.mpr ⟨fun e => (List.nodup_cons.mp hn).1 (e ▸ hx), hm x (List.mem_cons_of_mem _ hx)⟩]
    rfl

/-- The task's 21 DMA semaphores. -/
def semList : List (SemLoc sig) := [.dma cc1_scoped0.sem, .dma cc1_scoped1.sem, .dma cc1_scoped2.sem, .dma cc1_scoped3.sem, .dma cc1_scoped4.sem, .dma cc1_scoped5.sem, .dma cc1_scoped6.sem, .dma cc1_scoped7.sem, .dma cc1_scoped8.sem, .dma cc1_scoped9.sem, .dma cc1_scoped10.sem, .dma cc1_scoped11.sem, .dma cc1_scoped12.sem, .dma cc1_scoped13.sem, .dma cc1_scoped14.sem, .dma cc1_scoped15.sem, .dma cc1_scoped16.sem, .dma cc1_scoped17.sem, .dma cc1_scoped18.sem, .dma cc1_scoped19.sem, .dma cc1_scoped20.sem]
theorem semList_nodup : semList.Nodup := by decide
theorem semList_scoped : ∀ sm ∈ semList, sm.isScoped .scVector = true := by decide

/-- The rest of a vector subcore's scoped cells. -/
def restCells (thr : Thread nD τ) : Finset (GSem nD τ sig) := (semList.map fun sm => ((thr, sm) : GSem nD τ sig)).foldl (fun t x => t.erase x) (ownCells thr)

theorem ownSems0_V (d : Dev nD) (L : grid1.Coords) :
    (ownSems0 (thrV d L) : sProp (MM F))
      = iprop(semVal (thrV d L, .dma cc1_scoped0.sem) 0
          ∗ semVal (thrV d L, .dma cc1_scoped1.sem) 0
          ∗ semVal (thrV d L, .dma cc1_scoped2.sem) 0
          ∗ semVal (thrV d L, .dma cc1_scoped3.sem) 0
          ∗ semVal (thrV d L, .dma cc1_scoped4.sem) 0
          ∗ semVal (thrV d L, .dma cc1_scoped5.sem) 0
          ∗ semVal (thrV d L, .dma cc1_scoped6.sem) 0
          ∗ semVal (thrV d L, .dma cc1_scoped7.sem) 0
          ∗ semVal (thrV d L, .dma cc1_scoped8.sem) 0
          ∗ semVal (thrV d L, .dma cc1_scoped9.sem) 0
          ∗ semVal (thrV d L, .dma cc1_scoped10.sem) 0
          ∗ semVal (thrV d L, .dma cc1_scoped11.sem) 0
          ∗ semVal (thrV d L, .dma cc1_scoped12.sem) 0
          ∗ semVal (thrV d L, .dma cc1_scoped13.sem) 0
          ∗ semVal (thrV d L, .dma cc1_scoped14.sem) 0
          ∗ semVal (thrV d L, .dma cc1_scoped15.sem) 0
          ∗ semVal (thrV d L, .dma cc1_scoped16.sem) 0
          ∗ semVal (thrV d L, .dma cc1_scoped17.sem) 0
          ∗ semVal (thrV d L, .dma cc1_scoped18.sem) 0
          ∗ semVal (thrV d L, .dma cc1_scoped19.sem) 0
          ∗ semVal (thrV d L, .dma cc1_scoped20.sem) 0
          ∗ bigSep (restCells (thrV d L)) fun g => semVal g 0) := by
  unfold SparseCore.Cfg.ownSems0
  rw [bigSep_take (F := F) (fun g : GSem nD τ sig => semVal g 0) (semList.map fun sm => ((thrV d L, sm) : GSem nD τ sig)) (ownCells (thrV d L))
    (semList_nodup.map fun _ _ e => (Prod.mk.inj e).2)
    (fun g hg => by
      obtain ⟨sm, hsm, rfl⟩ := List.mem_map.mp hg
      exact mem_ownCells.mpr ⟨rfl, semList_scoped sm hsm⟩)]
  unfold restCells
  simp only [semList, List.map_cons, List.map_nil, List.foldr_cons, List.foldr_nil]

/-- The task's five scratch buffers. -/
def bufList : List (Ref sig .scVector) := [cc1_scratch0, cc1_scratch1, cc1_scratch2, cc1_scratch3, cc1_scratch4]
theorem bufList_nodup : bufList.Nodup := by decide
def restRefs (L : grid1.Coords) : Finset (DevRef τ sig) :=
  (bufList.map fun b => (Proc.scVector (cV L) (jV L)).devRef b).foldl (fun t x => t.erase x) (ownRefs (τ := τ) (.scVector (cV L) (jV L)))

theorem ownBufs_V (d : Dev nD) (L : grid1.Coords) :
    (ownBufs (thrV d L) : sProp (MM F))
      = iprop((∃ f, (thrV d L).loc cc1_scratch0 ↦{fullShare} f) ∗ (∃ f, (thrV d L).loc cc1_scratch1 ↦{fullShare} f)
          ∗ (∃ f, (thrV d L).loc cc1_scratch2 ↦{fullShare} f) ∗ (∃ f, (thrV d L).loc cc1_scratch3 ↦{fullShare} f)
          ∗ (∃ f, (thrV d L).loc cc1_scratch4 ↦{fullShare} f)
          ∗ bigSep (restRefs L) fun b => iprop(∃ f, ((d, b) : Loc nD τ sig) ↦{fullShare} f)) := by
  unfold SparseCore.Cfg.ownBufs
  rw [bigSep_take (F := F) (fun b : DevRef τ sig => iprop(∃ f, ((d, b) : Loc nD τ sig) ↦{fullShare} f))
    (bufList.map fun b => (Proc.scVector (cV L) (jV L)).devRef b) (ownRefs (τ := τ) (.scVector (cV L) (jV L)))
    (bufList_nodup.map (Proc.devRef_injective _))
    (fun b hb => by
      simp only [bufList, List.map_cons, List.map_nil, List.mem_cons, List.not_mem_nil, or_false] at hb
      rcases hb with rfl | rfl | rfl | rfl | rfl <;> exact SparseCore.Cfg.mem_ownRefs_of_owner (p := Proc.scVector (cV L) (jV L)) rfl)]
  unfold restRefs
  simp only [bufList, List.map_cons, List.map_nil, List.foldr_cons, List.foldr_nil]

end Own

end Cert.Kernel.Sc.Tile

end
-- ==== Proof.TileLoopB.lean ====
/-
  One vector subcore's task, second part: one trip of each of the five blocks' loops, from the loop's invariant at trip k
  to the invariant at trip k + 1 — the index words loaded, the four side conditions discharged from the words' range,
  the four gathers, the two sums stored.
-/
import proofs.«208457_g31284541784245_cont_9to1_2229_14_alg».proof.Proof.TileLemmasB

noncomputable section

namespace Cert.Kernel.Sc.Tile

open Cert.Kernel Cert.Kernel.Gen Cert.Kernel.Sc

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Transfers (shareTok shareDrop pointsTo_toks_split pointsTo_toks_join)
open Idealize.ShloMosaic.Tactic
variable {F : FTy → Type}

section Loop

variable [FloatOps F]

/-- Before trip `k` of a block's loop: the table scratch at the table, the index scratches at the block's words, the
    result scratches at the block's values below lane `16 k` and their earlier contents from there on. -/
def inv (d : Dev nD) (L : grid1.Coords) (T : Vec F S40000 .f32) (A B : IVec S4000 32) (f0 f1 : Vec F S4000 .f32) (k : ℕ) (_ : PUnit) : sProp (MM F) :=
  iprop(((s0).view.loc (thrV d L) ↦{fullShare} T) ∗ ((s1).view.loc (thrV d L) ↦{fullShare} A) ∗ ((s2).view.loc (thrV d L) ↦{fullShare} B)
    ∗ ((s3).view.loc (thrV d L) ↦{fullShare} upTo (lz0 T A B) f0 k) ∗ ((s4).view.loc (thrV d L) ↦{fullShare} upTo (lz1 T A B) f1 k))

set_option maxHeartbeats 4000000 in
/-- One trip of block 0's loop. -/
theorem region1 (d : Dev nD) (L : grid1.Coords) (T : Vec F S40000 .f32) (A B : IVec S4000 32) (f0 f1 : Vec F S4000 .f32)
    (hA : ∀ j, (A j).toNat < 10000) (hB : ∀ j, (B j).toNat < 10000) (k : Fin k1_t1_loop.trips) (u : Unit) :
    inv d L T A B f0 f1 k.val ⟨⟩
      ⊢ wp frame (wpE (defs₀ (F := F)) 𝒱₀ (thrV d L) none) Set.univ
          (k1_t1_body L (Memref.whole main_v9_scv) (Memref.isWhole_whole _) (Memref.whole main_v11_scv) (Memref.isWhole_whole _) (Memref.whole main_v13_scv) (Memref.isWhole_whole _) (Memref.whole main_v14_0_scv) (Memref.isWhole_whole _) (Memref.whole main_v14_1_scv) (Memref.isWhole_whole _) (Memref.whole cc1_scratch0) (Memref.isWhole_whole _) (Memref.whole cc1_scratch1) (Memref.isWhole_whole _) (Memref.whole cc1_scratch2) (Memref.isWhole_whole _) (Memref.whole cc1_scratch3) (Memref.isWhole_whole _) (Memref.whole cc1_scratch4) (Memref.isWhole_whole _) cc1_scoped0 cc1_scoped1 cc1_scoped2 cc1_scoped3 cc1_scoped4 cc1_scoped5 cc1_scoped6 cc1_scoped7 cc1_scoped8 cc1_scoped9 cc1_scoped10 cc1_scoped11 cc1_scoped12 cc1_scoped13 cc1_scoped14 cc1_scoped15 cc1_scoped16 cc1_scoped17 cc1_scoped18 cc1_scoped19 cc1_scoped20 k u)
          (fun _ => inv d L T A B f0 f1 (k.val + 1) ⟨⟩) := by
  unfold k1_t1_body
  simp only [SparseCore.vectorLoadIdx_bind (thrV d L)]
  unfold inv
  iintro ⟨H0, H1, H2, H3, H4⟩
  have hrA : ∀ x, ((View.readAt (Elt F) s1.view (Rect.unit (s := S4000) (k1_off2 k) S16.size (k1_off2_inb k)).toLoadRect A) x).toNat < 10000 := fun x => by
    rw [View.readAt_apply]; exact hA _
  have hrB : ∀ x, ((View.readAt (Elt F) s2.view (Rect.unit (s := S4000) (k1_off2 k) S16.size (k1_off2_inb k)).toLoadRect B) x).toNat < 10000 := fun x => by
    rw [View.readAt_apply]; exact hB _
  have c1 : k1_chk1 (k1_pay1 (View.readAt (Elt F) s1.view (Rect.unit (s := S4000) (k1_off2 k) S16.size (k1_off2_inb k)).toLoadRect A)) := chk_mul0 _ hrA
  have c2 : k1_chk2 (k1_pay3 (View.readAt (Elt F) s2.view (Rect.unit (s := S4000) (k1_off2 k) S16.size (k1_off2_inb k)).toLoadRect B)) := chk_mul _ hrB 2 (by decide)
  have c3 : k1_chk3 (k1_pay5 (k1_pay1 (View.readAt (Elt F) s1.view (Rect.unit (s := S4000) (k1_off2 k) S16.size (k1_off2_inb k)).toLoadRect A))) := chk_mul _ hrA 1 (by decide)
  have c4 : k1_chk4 (k1_pay6 (View.readAt (Elt F) s2.view (Rect.unit (s := S4000) (k1_off2 k) S16.size (k1_off2_inb k)).toLoadRect B)) := chk_mul _ hrB 3 (by decide)
  have hw3 : ∀ x, (k1_pay4 (loadIdx (View.readAt (Elt F) s0.view (LoadRect.whole S40000) T) ![k1_pay1 (View.readAt (Elt F) s1.view (Rect.unit (s := S4000) (k1_off2 k) S16.size (k1_off2_inb k)).toLoadRect A)] (k1_idx1_inb _ c1)) (loadIdx (View.readAt (Elt F) s0.view (LoadRect.whole S40000) T) ![k1_pay3 (View.readAt (Elt F) s2.view (Rect.unit (s := S4000) (k1_off2 k) S16.size (k1_off2_inb k)).toLoadRect B)] (k1_idx2_inb _ c2))) x = lz0 T A B ((Rect.unit (s := S4000) (k1_off3 k) ![16] (k1_off3_inb k)).emb x) :=
    fun x => pay0_lane T A B hA hB (k1_off2_eq k) (k1_off3_eq k) (k1_off2_inb k) (k1_off3_inb k) _ _ x
  have hw4 : ∀ x, (k1_pay7 (loadIdx (View.readAt (Elt F) s0.view (LoadRect.whole S40000) T) ![k1_pay5 (k1_pay1 (View.readAt (Elt F) s1.view (Rect.unit (s := S4000) (k1_off2 k) S16.size (k1_off2_inb k)).toLoadRect A))] (k1_idx3_inb _ c3)) (loadIdx (View.readAt (Elt F) s0.view (LoadRect.whole S40000) T) ![k1_pay6 (View.readAt (Elt F) s2.view (Rect.unit (s := S4000) (k1_off2 k) S16.size (k1_off2_inb k)).toLoadRect B)] (k1_idx4_inb _ c4))) x = lz1 T A B ((Rect.unit (s := S4000) (k1_off3 k) ![16] (k1_off3_inb k)).emb x) :=
    fun x => pay1_lane T A B hA hB (k1_off2_eq k) (k1_off3_eq k) (k1_off2_inb k) (k1_off3_inb k) _ _ x
  sl_exec
  sl_step
  isplitl [H0]; · iexact H0
  isplitl [H1]; · iexact H1
  isplitl [H2]; · iexact H2
  isplitl [H3]
  · ihave H3' := (Entails.of_eq (congrArg (fun f => ((s3).view.loc (thrV d L) ↦{fullShare} f : sProp (MM F)))
        (upTo_step3 (lz0 T A B) f0 k.val (k1_off3 k) (k1_off3_eq k) (k1_off3_inb k) (k1_pay4 (loadIdx (View.readAt (Elt F) s0.view (LoadRect.whole S40000) T) ![k1_pay1 (View.readAt (Elt F) s1.view (Rect.unit (s := S4000) (k1_off2 k) S16.size (k1_off2_inb k)).toLoadRect A)] (k1_idx1_inb _ c1)) (loadIdx (View.readAt (Elt F) s0.view (LoadRect.whole S40000) T) ![k1_pay3 (View.readAt (Elt F) s2.view (Rect.unit (s := S4000) (k1_off2 k) S16.size (k1_off2_inb k)).toLoadRect B)] (k1_idx2_inb _ c2))) hw3))) $$ H3
    iexact H3'
  · ihave H4' := (Entails.of_eq (congrArg (fun f => ((s4).view.loc (thrV d L) ↦{fullShare} f : sProp (MM F)))
        (upTo_step4 (lz1 T A B) f1 k.val (k1_off3 k) (k1_off3_eq k) (k1_off3_inb k) (k1_pay7 (loadIdx (View.readAt (Elt F) s0.view (LoadRect.whole S40000) T) ![k1_pay5 (k1_pay1 (View.readAt (Elt F) s1.view (Rect.unit (s := S4000) (k1_off2 k) S16.size (k1_off2_inb k)).toLoadRect A))] (k1_idx3_inb _ c3)) (loadIdx (View.readAt (Elt F) s0.view (LoadRect.whole S40000) T) ![k1_pay6 (View.readAt (Elt F) s2.view (Rect.unit (s := S4000) (k1_off2 k) S16.size (k1_off2_inb k)).toLoadRect B)] (k1_idx4_inb _ c4))) hw4))) $$ H4
    iexact H4'

set_option maxHeartbeats 4000000 in
/-- One trip of block 1's loop. -/
theorem region2 (d : Dev nD) (L : grid1.Coords) (T : Vec F S40000 .f32) (A B : IVec S4000 32) (f0 f1 : Vec F S4000 .f32)
    (hA : ∀ j, (A j).toNat < 10000) (hB : ∀ j, (B j).toNat < 10000) (v1 c0 : BitVec 32) (k : Fin k1_t2_loop.trips) (u : Unit) :
    inv d L T A B f0 f1 k.val ⟨⟩
      ⊢ wp frame (wpE (defs₀ (F := F)) 𝒱₀ (thrV d L) none) Set.univ
          (k1_t2_body L (Memref.whole main_v9_scv) (Memref.isWhole_whole _) (Memref.whole main_v11_scv) (Memref.isWhole_whole _) (Memref.whole main_v13_scv) (Memref.isWhole_whole _) (Memref.whole main_v14_0_scv) (Memref.isWhole_whole _) (Memref.whole main_v14_1_scv) (Memref.isWhole_whole _) (Memref.whole cc1_scratch0) (Memref.isWhole_whole _) (Memref.whole cc1_scratch1) (Memref.isWhole_whole _) (Memref.whole cc1_scratch2) (Memref.isWhole_whole _) (Memref.whole cc1_scratch3) (Memref.isWhole_whole _) (Memref.whole cc1_scratch4) (Memref.isWhole_whole _) cc1_scoped0 cc1_scoped1 cc1_scoped2 cc1_scoped3 cc1_scoped4 cc1_scoped5 cc1_scoped6 cc1_scoped7 cc1_scoped8 cc1_scoped9 cc1_scoped10 cc1_scoped11 cc1_scoped12 cc1_scoped13 cc1_scoped14 cc1_scoped15 cc1_scoped16 cc1_scoped17 cc1_scoped18 cc1_scoped19 cc1_scoped20 v1 c0 k u)
          (fun _ => inv d L T A B f0 f1 (k.val + 1) ⟨⟩) := by
  unfold k1_t2_body
  simp only [SparseCore.vectorLoadIdx_bind (thrV d L)]
  unfold inv
  iintro ⟨H0, H1, H2, H3, H4⟩
  have hrA : ∀ x, ((View.readAt (Elt F) s1.view (Rect.unit (s := S4000) (k1_off4 k) S16.size (k1_off4_inb k)).toLoadRect A) x).toNat < 10000 := fun x => by
    rw [View.readAt_apply]; exact hA _
  have hrB : ∀ x, ((View.readAt (Elt F) s2.view (Rect.unit (s := S4000) (k1_off4 k) S16.size (k1_off4_inb k)).toLoadRect B) x).toNat < 10000 := fun x => by
    rw [View.readAt_apply]; exact hB _
  have c1 : k1_chk5 (k1_pay8 (View.readAt (Elt F) s1.view (Rect.unit (s := S4000) (k1_off4 k) S16.size (k1_off4_inb k)).toLoadRect A)) := chk_mul0 _ hrA
  have c2 : k1_chk6 (k1_pay10 (View.readAt (Elt F) s2.view (Rect.unit (s := S4000) (k1_off4 k) S16.size (k1_off4_inb k)).toLoadRect B)) := chk_mul _ hrB 2 (by decide)
  have c3 : k1_chk7 (k1_pay12 (k1_pay8 (View.readAt (Elt F) s1.view (Rect.unit (s := S4000) (k1_off4 k) S16.size (k1_off4_inb k)).toLoadRect A))) := chk_mul _ hrA 1 (by decide)
  have c4 : k1_chk8 (k1_pay13 (View.readAt (Elt F) s2.view (Rect.unit (s := S4000) (k1_off4 k) S16.size (k1_off4_inb k)).toLoadRect B)) := chk_mul _ hrB 3 (by decide)
  have hw3 : ∀ x, (k1_pay11 (loadIdx (View.readAt (Elt F) s0.view (LoadRect.whole S40000) T) ![k1_pay8 (View.readAt (Elt F) s1.view (Rect.unit (s := S4000) (k1_off4 k) S16.size (k1_off4_inb k)).toLoadRect A)] (k1_idx5_inb _ c1)) (loadIdx (View.readAt (Elt F) s0.view (LoadRect.whole S40000) T) ![k1_pay10 (View.readAt (Elt F) s2.view (Rect.unit (s := S4000) (k1_off4 k) S16.size (k1_off4_inb k)).toLoadRect B)] (k1_idx6_inb _ c2))) x = lz0 T A B ((Rect.unit (s := S4000) (k1_off5 k) ![16] (k1_off5_inb k)).emb x) :=
    fun x => pay0_lane T A B hA hB (k1_off4_eq k) (k1_off5_eq k) (k1_off4_inb k) (k1_off5_inb k) _ _ x
  have hw4 : ∀ x, (k1_pay14 (loadIdx (View.readAt (Elt F) s0.view (LoadRect.whole S40000) T) ![k1_pay12 (k1_pay8 (View.readAt (Elt F) s1.view (Rect.unit (s := S4000) (k1_off4 k) S16.size (k1_off4_inb k)).toLoadRect A))] (k1_idx7_inb _ c3)) (loadIdx (View.readAt (Elt F) s0.view (LoadRect.whole S40000) T) ![k1_pay13 (View.readAt (Elt F) s2.view (Rect.unit (s := S4000) (k1_off4 k) S16.size (k1_off4_inb k)).toLoadRect B)] (k1_idx8_inb _ c4))) x = lz1 T A B ((Rect.unit (s := S4000) (k1_off5 k) ![16] (k1_off5_inb k)).emb x) :=
    fun x => pay1_lane T A B hA hB (k1_off4_eq k) (k1_off5_eq k) (k1_off4_inb k) (k1_off5_inb k) _ _ x
  sl_exec
  sl_step
  isplitl [H0]; · iexact H0
  isplitl [H1]; · iexact H1
  isplitl [H2]; · iexact H2
  isplitl [H3]
  · ihave H3' := (Entails.of_eq (congrArg (fun f => ((s3).view.loc (thrV d L) ↦{fullShare} f : sProp (MM F)))
        (upTo_step3 (lz0 T A B) f0 k.val (k1_off5 k) (k1_off5_eq k) (k1_off5_inb k) (k1_pay11 (loadIdx (View.readAt (Elt F) s0.view (LoadRect.whole S40000) T) ![k1_pay8 (View.readAt (Elt F) s1.view (Rect.unit (s := S4000) (k1_off4 k) S16.size (k1_off4_inb k)).toLoadRect A)] (k1_idx5_inb _ c1)) (loadIdx (View.readAt (Elt F) s0.view (LoadRect.whole S40000) T) ![k1_pay10 (View.readAt (Elt F) s2.view (Rect.unit (s := S4000) (k1_off4 k) S16.size (k1_off4_inb k)).toLoadRect B)] (k1_idx6_inb _ c2))) hw3))) $$ H3
    iexact H3'
  · ihave H4' := (Entails.of_eq (congrArg (fun f => ((s4).view.loc (thrV d L) ↦{fullShare} f : sProp (MM F)))
        (upTo_step4 (lz1 T A B) f1 k.val (k1_off5 k) (k1_off5_eq k) (k1_off5_inb k) (k1_pay14 (loadIdx (View.readAt (Elt F) s0.view (LoadRect.whole S40000) T) ![k1_pay12 (k1_pay8 (View.readAt (Elt F) s1.view (Rect.unit (s := S4000) (k1_off4 k) S16.size (k1_off4_inb k)).toLoadRect A))] (k1_idx7_inb _ c3)) (loadIdx (View.readAt (Elt F) s0.view (LoadRect.whole S40000) T) ![k1_pay13 (View.readAt (Elt F) s2.view (Rect.unit (s := S4000) (k1_off4 k) S16.size (k1_off4_inb k)).toLoadRect B)] (k1_idx8_inb _ c4))) hw4))) $$ H4
    iexact H4'

set_option maxHeartbeats 4000000 in
/-- One trip of block 2's loop. -/
theorem region3 (d : Dev nD) (L : grid1.Coords) (T : Vec F S40000 .f32) (A B : IVec S4000 32) (f0 f1 : Vec F S4000 .f32)
    (hA : ∀ j, (A j).toNat < 10000) (hB : ∀ j, (B j).toNat < 10000) (v1 c0 : BitVec 32) (k : Fin k1_t3_loop.trips) (u : Unit) :
    inv d L T A B f0 f1 k.val ⟨⟩
      ⊢ wp frame (wpE (defs₀ (F := F)) 𝒱₀ (thrV d L) none) Set.univ
          (k1_t3_body L (Memref.whole main_v9_scv) (Memref.isWhole_whole _) (Memref.whole main_v11_scv) (Memref.isWhole_whole _) (Memref.whole main_v13_scv) (Memref.isWhole_whole _) (Memref.whole main_v14_0_scv) (Memref.isWhole_whole _) (Memref.whole main_v14_1_scv) (Memref.isWhole_whole _) (Memref.whole cc1_scratch0) (Memref.isWhole_whole _) (Memref.whole cc1_scratch1) (Memref.isWhole_whole _) (Memref.whole cc1_scratch2) (Memref.isWhole_whole _) (Memref.whole cc1_scratch3) (Memref.isWhole_whole _) (Memref.whole cc1_scratch4) (Memref.isWhole_whole _) cc1_scoped0 cc1_scoped1 cc1_scoped2 cc1_scoped3 cc1_scoped4 cc1_scoped5 cc1_scoped6 cc1_scoped7 cc1_scoped8 cc1_scoped9 cc1_scoped10 cc1_scoped11 cc1_scoped12 cc1_scoped13 cc1_scoped14 cc1_scoped15 cc1_scoped16 cc1_scoped17 cc1_scoped18 cc1_scoped19 cc1_scoped20 v1 c0 k u)
          (fun _ => inv d L T A B f0 f1 (k.val + 1) ⟨⟩) := by
  unfold k1_t3_body
  simp only [SparseCore.vectorLoadIdx_bind (thrV d L)]
  unfold inv
  iintro ⟨H0, H1, H2, H3, H4⟩
  have hrA : ∀ x, ((View.readAt (Elt F) s1.view (Rect.unit (s := S4000) (k1_off6 k) S16.size (k1_off6_inb k)).toLoadRect A) x).toNat < 10000 := fun x => by
    rw [View.readAt_apply]; exact hA _
  have hrB : ∀ x, ((View.readAt (Elt F) s2.view (Rect.unit (s := S4000) (k1_off6 k) S16.size (k1_off6_inb k)).toLoadRect B) x).toNat < 10000 := fun x => by
    rw [View.readAt_apply]; exact hB _
  have c1 : k1_chk9 (k1_pay15 (View.readAt (Elt F) s1.view (Rect.unit (s := S4000) (k1_off6 k) S16.size (k1_off6_inb k)).toLoadRect A)) := chk_mul0 _ hrA
  have c2 : k1_chk10 (k1_pay17 (View.readAt (Elt F) s2.view (Rect.unit (s := S4000) (k1_off6 k) S16.size (k1_off6_inb k)).toLoadRect B)) := chk_mul _ hrB 2 (by decide)
  have c3 : k1_chk11 (k1_pay19 (k1_pay15 (View.readAt (Elt F) s1.view (Rect.unit (s := S4000) (k1_off6 k) S16.size (k1_off6_inb k)).toLoadRect A))) := chk_mul _ hrA 1 (by decide)
  have c4 : k1_chk12 (k1_pay20 (View.readAt (Elt F) s2.view (Rect.unit (s := S4000) (k1_off6 k) S16.size (k1_off6_inb k)).toLoadRect B)) := chk_mul _ hrB 3 (by decide)
  have hw3 : ∀ x, (k1_pay18 (loadIdx (View.readAt (Elt F) s0.view (LoadRect.whole S40000) T) ![k1_pay15 (View.readAt (Elt F) s1.view (Rect.unit (s := S4000) (k1_off6 k) S16.size (k1_off6_inb k)).toLoadRect A)] (k1_idx9_inb _ c1)) (loadIdx (View.readAt (Elt F) s0.view (LoadRect.whole S40000) T) ![k1_pay17 (View.readAt (Elt F) s2.view (Rect.unit (s := S4000) (k1_off6 k) S16.size (k1_off6_inb k)).toLoadRect B)] (k1_idx10_inb _ c2))) x = lz0 T A B ((Rect.unit (s := S4000) (k1_off7 k) ![16] (k1_off7_inb k)).emb x) :=
    fun x => pay0_lane T A B hA hB (k1_off6_eq k) (k1_off7_eq k) (k1_off6_inb k) (k1_off7_inb k) _ _ x
  have hw4 : ∀ x, (k1_pay21 (loadIdx (View.readAt (Elt F) s0.view (LoadRect.whole S40000) T) ![k1_pay19 (k1_pay15 (View.readAt (Elt F) s1.view (Rect.unit (s := S4000) (k1_off6 k) S16.size (k1_off6_inb k)).toLoadRect A))] (k1_idx11_inb _ c3)) (loadIdx (View.readAt (Elt F) s0.view (LoadRect.whole S40000) T) ![k1_pay20 (View.readAt (Elt F) s2.view (Rect.unit (s := S4000) (k1_off6 k) S16.size (k1_off6_inb k)).toLoadRect B)] (k1_idx12_inb _ c4))) x = lz1 T A B ((Rect.unit (s := S4000) (k1_off7 k) ![16] (k1_off7_inb k)).emb x) :=
    fun x => pay1_lane T A B hA hB (k1_off6_eq k) (k1_off7_eq k) (k1_off6_inb k) (k1_off7_inb k) _ _ x
  sl_exec
  sl_step
  isplitl [H0]; · iexact H0
  isplitl [H1]; · iexact H1
  isplitl [H2]; · iexact H2
  isplitl [H3]
  · ihave H3' := (Entails.of_eq (congrArg (fun f => ((s3).view.loc (thrV d L) ↦{fullShare} f : sProp (MM F)))
        (upTo_step3 (lz0 T A B) f0 k.val (k1_off7 k) (k1_off7_eq k) (k1_off7_inb k) (k1_pay18 (loadIdx (View.readAt (Elt F) s0.view (LoadRect.whole S40000) T) ![k1_pay15 (View.readAt (Elt F) s1.view (Rect.unit (s := S4000) (k1_off6 k) S16.size (k1_off6_inb k)).toLoadRect A)] (k1_idx9_inb _ c1)) (loadIdx (View.readAt (Elt F) s0.view (LoadRect.whole S40000) T) ![k1_pay17 (View.readAt (Elt F) s2.view (Rect.unit (s := S4000) (k1_off6 k) S16.size (k1_off6_inb k)).toLoadRect B)] (k1_idx10_inb _ c2))) hw3))) $$ H3
    iexact H3'
  · ihave H4' := (Entails.of_eq (congrArg (fun f => ((s4).view.loc (thrV d L) ↦{fullShare} f : sProp (MM F)))
        (upTo_step4 (lz1 T A B) f1 k.val (k1_off7 k) (k1_off7_eq k) (k1_off7_inb k) (k1_pay21 (loadIdx (View.readAt (Elt F) s0.view (LoadRect.whole S40000) T) ![k1_pay19 (k1_pay15 (View.readAt (Elt F) s1.view (Rect.unit (s := S4000) (k1_off6 k) S16.size (k1_off6_inb k)).toLoadRect A))] (k1_idx11_inb _ c3)) (loadIdx (View.readAt (Elt F) s0.view (LoadRect.whole S40000) T) ![k1_pay20 (View.readAt (Elt F) s2.view (Rect.unit (s := S4000) (k1_off6 k) S16.size (k1_off6_inb k)).toLoadRect B)] (k1_idx12_inb _ c4))) hw4))) $$ H4
    iexact H4'

set_option maxHeartbeats 4000000 in
/-- One trip of block 3's loop. -/
theorem region4 (d : Dev nD) (L : grid1.Coords) (T : Vec F S40000 .f32) (A B : IVec S4000 32) (f0 f1 : Vec F S4000 .f32)
    (hA : ∀ j, (A j).toNat < 10000) (hB : ∀ j, (B j).toNat < 10000) (v1 : BitVec 32) (k : Fin k1_t4_loop.trips) (u : Unit) :
    inv d L T A B f0 f1 k.val ⟨⟩
      ⊢ wp frame (wpE (defs₀ (F := F)) 𝒱₀ (thrV d L) none) Set.univ
          (k1_t4_body L (Memref.whole main_v9_scv) (Memref.isWhole_whole _) (Memref.whole main_v11_scv) (Memref.isWhole_whole _) (Memref.whole main_v13_scv) (Memref.isWhole_whole _) (Memref.whole main_v14_0_scv) (Memref.isWhole_whole _) (Memref.whole main_v14_1_scv) (Memref.isWhole_whole _) (Memref.whole cc1_scratch0) (Memref.isWhole_whole _) (Memref.whole cc1_scratch1) (Memref.isWhole_whole _) (Memref.whole cc1_scratch2) (Memref.isWhole_whole _) (Memref.whole cc1_scratch3) (Memref.isWhole_whole _) (Memref.whole cc1_scratch4) (Memref.isWhole_whole _) cc1_scoped0 cc1_scoped1 cc1_scoped2 cc1_scoped3 cc1_scoped4 cc1_scoped5 cc1_scoped6 cc1_scoped7 cc1_scoped8 cc1_scoped9 cc1_scoped10 cc1_scoped11 cc1_scoped12 cc1_scoped13 cc1_scoped14 cc1_scoped15 cc1_scoped16 cc1_scoped17 cc1_scoped18 cc1_scoped19 cc1_scoped20 v1 k u)
          (fun _ => inv d L T A B f0 f1 (k.val + 1) ⟨⟩) := by
  unfold k1_t4_body
  simp only [SparseCore.vectorLoadIdx_bind (thrV d L)]
  unfold inv
  iintro ⟨H0, H1, H2, H3, H4⟩
  have hrA : ∀ x, ((View.readAt (Elt F) s1.view (Rect.unit (s := S4000) (k1_off8 k) S16.size (k1_off8_inb k)).toLoadRect A) x).toNat < 10000 := fun x => by
    rw [View.readAt_apply]; exact hA _
  have hrB : ∀ x, ((View.readAt (Elt F) s2.view (Rect.unit (s := S4000) (k1_off8 k) S16.size (k1_off8_inb k)).toLoadRect B) x).toNat < 10000 := fun x => by
    rw [View.readAt_apply]; exact hB _
  have c1 : k1_chk13 (k1_pay22 (View.readAt (Elt F) s1.view (Rect.unit (s := S4000) (k1_off8 k) S16.size (k1_off8_inb k)).toLoadRect A)) := chk_mul0 _ hrA
  have c2 : k1_chk14 (k1_pay24 (View.readAt (Elt F) s2.view (Rect.unit (s := S4000) (k1_off8 k) S16.size (k1_off8_inb k)).toLoadRect B)) := chk_mul _ hrB 2 (by decide)
  have c3 : k1_chk15 (k1_pay26 (k1_pay22 (View.readAt (Elt F) s1.view (Rect.unit (s := S4000) (k1_off8 k) S16.size (k1_off8_inb k)).toLoadRect A))) := chk_mul _ hrA 1 (by decide)
  have c4 : k1_chk16 (k1_pay27 (View.readAt (Elt F) s2.view (Rect.unit (s := S4000) (k1_off8 k) S16.size (k1_off8_inb k)).toLoadRect B)) := chk_mul _ hrB 3 (by decide)
  have hw3 : ∀ x, (k1_pay25 (loadIdx (View.readAt (Elt F) s0.view (LoadRect.whole S40000) T) ![k1_pay22 (View.readAt (Elt F) s1.view (Rect.unit (s := S4000) (k1_off8 k) S16.size (k1_off8_inb k)).toLoadRect A)] (k1_idx13_inb _ c1)) (loadIdx (View.readAt (Elt F) s0.view (LoadRect.whole S40000) T) ![k1_pay24 (View.readAt (Elt F) s2.view (Rect.unit (s := S4000) (k1_off8 k) S16.size (k1_off8_inb k)).toLoadRect B)] (k1_idx14_inb _ c2))) x = lz0 T A B ((Rect.unit (s := S4000) (k1_off9 k) ![16] (k1_off9_inb k)).emb x) :=
    fun x => pay0_lane T A B hA hB (k1_off8_eq k) (k1_off9_eq k) (k1_off8_inb k) (k1_off9_inb k) _ _ x
  have hw4 : ∀ x, (k1_pay28 (loadIdx (View.readAt (Elt F) s0.view (LoadRect.whole S40000) T) ![k1_pay26 (k1_pay22 (View.readAt (Elt F) s1.view (Rect.unit (s := S4000) (k1_off8 k) S16.size (k1_off8_inb k)).toLoadRect A))] (k1_idx15_inb _ c3)) (loadIdx (View.readAt (Elt F) s0.view (LoadRect.whole S40000) T) ![k1_pay27 (View.readAt (Elt F) s2.view (Rect.unit (s := S4000) (k1_off8 k) S16.size (k1_off8_inb k)).toLoadRect B)] (k1_idx16_inb _ c4))) x = lz1 T A B ((Rect.unit (s := S4000) (k1_off9 k) ![16] (k1_off9_inb k)).emb x) :=
    fun x => pay1_lane T A B hA hB (k1_off8_eq k) (k1_off9_eq k) (k1_off8_inb k) (k1_off9_inb k) _ _ x
  sl_exec
  sl_step
  isplitl [H0]; · iexact H0
  isplitl [H1]; · iexact H1
  isplitl [H2]; · iexact H2
  isplitl [H3]
  · ihave H3' := (Entails.of_eq (congrArg (fun f => ((s3).view.loc (thrV d L) ↦{fullShare} f : sProp (MM F)))
        (upTo_step3 (lz0 T A B) f0 k.val (k1_off9 k) (k1_off9_eq k) (k1_off9_inb k) (k1_pay25 (loadIdx (View.readAt (Elt F) s0.view (LoadRect.whole S40000) T) ![k1_pay22 (View.readAt (Elt F) s1.view (Rect.unit (s := S4000) (k1_off8 k) S16.size (k1_off8_inb k)).toLoadRect A)] (k1_idx13_inb _ c1)) (loadIdx (View.readAt (Elt F) s0.view (LoadRect.whole S40000) T) ![k1_pay24 (View.readAt (Elt F) s2.view (Rect.unit (s := S4000) (k1_off8 k) S16.size (k1_off8_inb k)).toLoadRect B)] (k1_idx14_inb _ c2))) hw3))) $$ H3
    iexact H3'
  · ihave H4' := (Entails.of_eq (congrArg (fun f => ((s4).view.loc (thrV d L) ↦{fullShare} f : sProp (MM F)))
        (upTo_step4 (lz1 T A B) f1 k.val (k1_off9 k) (k1_off9_eq k) (k1_off9_inb k) (k1_pay28 (loadIdx (View.readAt (Elt F) s0.view (LoadRect.whole S40000) T) ![k1_pay26 (k1_pay22 (View.readAt (Elt F) s1.view (Rect.unit (s := S4000) (k1_off8 k) S16.size (k1_off8_inb k)).toLoadRect A))] (k1_idx15_inb _ c3)) (loadIdx (View.readAt (Elt F) s0.view (LoadRect.whole S40000) T) ![k1_pay27 (View.readAt (Elt F) s2.view (Rect.unit (s := S4000) (k1_off8 k) S16.size (k1_off8_inb k)).toLoadRect B)] (k1_idx16_inb _ c4))) hw4))) $$ H4
    iexact H4'

set_option maxHeartbeats 4000000 in
/-- One trip of block 4's loop. -/
theorem region5 (d : Dev nD) (L : grid1.Coords) (T : Vec F S40000 .f32) (A B : IVec S4000 32) (f0 f1 : Vec F S4000 .f32)
    (hA : ∀ j, (A j).toNat < 10000) (hB : ∀ j, (B j).toNat < 10000) (v1 : BitVec 32) (k : Fin k1_t5_loop.trips) (u : Unit) :
    inv d L T A B f0 f1 k.val ⟨⟩
      ⊢ wp frame (wpE (defs₀ (F := F)) 𝒱₀ (thrV d L) none) Set.univ
          (k1_t5_body L (Memref.whole main_v9_scv) (Memref.isWhole_whole _) (Memref.whole main_v11_scv) (Memref.isWhole_whole _) (Memref.whole main_v13_scv) (Memref.isWhole_whole _) (Memref.whole main_v14_0_scv) (Memref.isWhole_whole _) (Memref.whole main_v14_1_scv) (Memref.isWhole_whole _) (Memref.whole cc1_scratch0) (Memref.isWhole_whole _) (Memref.whole cc1_scratch1) (Memref.isWhole_whole _) (Memref.whole cc1_scratch2) (Memref.isWhole_whole _) (Memref.whole cc1_scratch3) (Memref.isWhole_whole _) (Memref.whole cc1_scratch4) (Memref.isWhole_whole _) cc1_scoped0 cc1_scoped1 cc1_scoped2 cc1_scoped3 cc1_scoped4 cc1_scoped5 cc1_scoped6 cc1_scoped7 cc1_scoped8 cc1_scoped9 cc1_scoped10 cc1_scoped11 cc1_scoped12 cc1_scoped13 cc1_scoped14 cc1_scoped15 cc1_scoped16 cc1_scoped17 cc1_scoped18 cc1_scoped19 cc1_scoped20 v1 k u)
          (fun _ => inv d L T A B f0 f1 (k.val + 1) ⟨⟩) := by
  unfold k1_t5_body
  simp only [SparseCore.vectorLoadIdx_bind (thrV d L)]
  unfold inv
  iintro ⟨H0, H1, H2, H3, H4⟩
  have hrA : ∀ x, ((View.readAt (Elt F) s1.view (Rect.unit (s := S4000) (k1_off10 k) S16.size (k1_off10_inb k)).toLoadRect A) x).toNat < 10000 := fun x => by
    rw [View.readAt_apply]; exact hA _
  have hrB : ∀ x, ((View.readAt (Elt F) s2.view (Rect.unit (s := S4000) (k1_off10 k) S16.size (k1_off10_inb k)).toLoadRect B) x).toNat < 10000 := fun x => by
    rw [View.readAt_apply]; exact hB _
  have c1 : k1_chk17 (k1_pay29 (View.readAt (Elt F) s1.view (Rect.unit (s := S4000) (k1_off10 k) S16.size (k1_off10_inb k)).toLoadRect A)) := chk_mul0 _ hrA
  have c2 : k1_chk18 (k1_pay31 (View.readAt (Elt F) s2.view (Rect.unit (s := S4000) (k1_off10 k) S16.size (k1_off10_inb k)).toLoadRect B)) := chk_mul _ hrB 2 (by decide)
  have c3 : k1_chk19 (k1_pay33 (k1_pay29 (View.readAt (Elt F) s1.view (Rect.unit (s := S4000) (k1_off10 k) S16.size (k1_off10_inb k)).toLoadRect A))) := chk_mul _ hrA 1 (by decide)
  have c4 : k1_chk20 (k1_pay34 (View.readAt (Elt F) s2.view (Rect.unit (s := S4000) (k1_off10 k) S16.size (k1_off10_inb k)).toLoadRect B)) := chk_mul _ hrB 3 (by decide)
  have hw3 : ∀ x, (k1_pay32 (loadIdx (View.readAt (Elt F) s0.view (LoadRect.whole S40000) T) ![k1_pay29 (View.readAt (Elt F) s1.view (Rect.unit (s := S4000) (k1_off10 k) S16.size (k1_off10_inb k)).toLoadRect A)] (k1_idx17_inb _ c1)) (loadIdx (View.readAt (Elt F) s0.view (LoadRect.whole S40000) T) ![k1_pay31 (View.readAt (Elt F) s2.view (Rect.unit (s := S4000) (k1_off10 k) S16.size (k1_off10_inb k)).toLoadRect B)] (k1_idx18_inb _ c2))) x = lz0 T A B ((Rect.unit (s := S4000) (k1_off11 k) ![16] (k1_off11_inb k)).emb x) :=
    fun x => pay0_lane T A B hA hB (k1_off10_eq k) (k1_off11_eq k) (k1_off10_inb k) (k1_off11_inb k) _ _ x
  have hw4 : ∀ x, (k1_pay35 (loadIdx (View.readAt (Elt F) s0.view (LoadRect.whole S40000) T) ![k1_pay33 (k1_pay29 (View.readAt (Elt F) s1.view (Rect.unit (s := S4000) (k1_off10 k) S16.size (k1_off10_inb k)).toLoadRect A))] (k1_idx19_inb _ c3)) (loadIdx (View.readAt (Elt F) s0.view (LoadRect.whole S40000) T) ![k1_pay34 (View.readAt (Elt F) s2.view (Rect.unit (s := S4000) (k1_off10 k) S16.size (k1_off10_inb k)).toLoadRect B)] (k1_idx20_inb _ c4))) x = lz1 T A B ((Rect.unit (s := S4000) (k1_off11 k) ![16] (k1_off11_inb k)).emb x) :=
    fun x => pay1_lane T A B hA hB (k1_off10_eq k) (k1_off11_eq k) (k1_off10_inb k) (k1_off11_inb k) _ _ x
  sl_exec
  sl_step
  isplitl [H0]; · iexact H0
  isplitl [H1]; · iexact H1
  isplitl [H2]; · iexact H2
  isplitl [H3]
  · ihave H3' := (Entails.of_eq (congrArg (fun f => ((s3).view.loc (thrV d L) ↦{fullShare} f : sProp (MM F)))
        (upTo_step3 (lz0 T A B) f0 k.val (k1_off11 k) (k1_off11_eq k) (k1_off11_inb k) (k1_pay32 (loadIdx (View.readAt (Elt F) s0.view (LoadRect.whole S40000) T) ![k1_pay29 (View.readAt (Elt F) s1.view (Rect.unit (s := S4000) (k1_off10 k) S16.size (k1_off10_inb k)).toLoadRect A)] (k1_idx17_inb _ c1)) (loadIdx (View.readAt (Elt F) s0.view (LoadRect.whole S40000) T) ![k1_pay31 (View.readAt (Elt F) s2.view (Rect.unit (s := S4000) (k1_off10 k) S16.size (k1_off10_inb k)).toLoadRect B)] (k1_idx18_inb _ c2))) hw3))) $$ H3
    iexact H3'
  · ihave H4' := (Entails.of_eq (congrArg (fun f => ((s4).view.loc (thrV d L) ↦{fullShare} f : sProp (MM F)))
        (upTo_step4 (lz1 T A B) f1 k.val (k1_off11 k) (k1_off11_eq k) (k1_off11_inb k) (k1_pay35 (loadIdx (View.readAt (Elt F) s0.view (LoadRect.whole S40000) T) ![k1_pay33 (k1_pay29 (View.readAt (Elt F) s1.view (Rect.unit (s := S4000) (k1_off10 k) S16.size (k1_off10_inb k)).toLoadRect A))] (k1_idx19_inb _ c3)) (loadIdx (View.readAt (Elt F) s0.view (LoadRect.whole S40000) T) ![k1_pay34 (View.readAt (Elt F) s2.view (Rect.unit (s := S4000) (k1_off10 k) S16.size (k1_off10_inb k)).toLoadRect B)] (k1_idx20_inb _ c4))) hw4))) $$ H4
    iexact H4'

end Loop

end Cert.Kernel.Sc.Tile

end
-- ==== Proof.TileBodyB.lean ====
/-
  One vector subcore's task, third part: the task run from its payload to its results, and the launch theorem's
  obligation. The read arrays are held whole at the task's share; each block of a result column is held by exactly
  its own elements, spelt as the program slices it. Every copy is issued and awaited at once on a semaphore of its own,
  under the schedule-free protocol for local transfers; the loops go by their invariant; a result block copied out
  holds the block's values, which are the column's values at the block's pairs.
-/
import proofs.«208457_g31284541784245_cont_9to1_2229_14_alg».proof.Proof.TileLoopB

noncomputable section

namespace Cert.Kernel.Sc.Tile

open Cert.Kernel Cert.Kernel.Gen Cert.Kernel.Sc

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Transfers (shareTok shareDrop pointsTo_toks_split pointsTo_toks_join)
open Idealize.ShloMosaic.Tactic
variable {F : FTy → Type}

/-! ## The arrays and the blocks, spelt as the program addresses them -/

section Body

variable [FloatOps F]
variable (TAB : (d : Dev nD) → Buf (Elt F) (tLoc d)) (IA : (d : Dev nD) → Buf (Elt F) (aLoc d)) (IB : (d : Dev nD) → Buf (Elt F) (bLoc d))

/-- The place's SparseCore and vector subcore, as numbers of the grid. -/
abbrev cL (L : grid1.Coords) : Fin 2 := ⟨(L 0).val, (L 0).isLt⟩
abbrev sL (L : grid1.Coords) : Fin 16 := ⟨(L 1).val, (L 1).isLt⟩

abbrev tV : Memref sig .scVector .hbm S40000 .f32 := Memref.whole main_v9_scv
abbrev aV : Memref sig .scVector .hbm S640000 .i32 := Memref.whole main_v11_scv
abbrev bV : Memref sig .scVector .hbm S640000 .i32 := Memref.whole main_v13_scv
abbrev yV : Memref sig .scVector .hbm S640000 .f32 := Memref.whole main_v14_0_scv
abbrev zV : Memref sig .scVector .hbm S640000 .f32 := Memref.whole main_v14_1_scv

abbrev yBlk0 (L : grid1.Coords) : Memref sig .scVector .hbm S4000 .f32 := yV.slice (Rect.unit (s := S640000) (k1_off1 L 0#32) S4000.size (k1_off1_inb L 0)) (fun _ => rfl)
abbrev zBlk0 (L : grid1.Coords) : Memref sig .scVector .hbm S4000 .f32 := zV.slice (Rect.unit (s := S640000) (k1_off1 L 0#32) S4000.size (k1_off1_inb L 0)) (fun _ => rfl)
abbrev aBlk0 (L : grid1.Coords) : Memref sig .scVector .hbm S4000 .i32 := aV.slice (Rect.unit (s := S640000) (k1_off1 L 0#32) S4000.size (k1_off1_inb L 0)) (fun _ => rfl)
abbrev bBlk0 (L : grid1.Coords) : Memref sig .scVector .hbm S4000 .i32 := bV.slice (Rect.unit (s := S640000) (k1_off1 L 0#32) S4000.size (k1_off1_inb L 0)) (fun _ => rfl)
omit [FloatOps F] in
theorem blkRect0_eq (L : grid1.Coords) : Rect.unit (s := S640000) (k1_off1 L 0#32) S4000.size (k1_off1_inb L 0) = chunkRect (cL L) (sL L) 0 := by
  unfold chunkRect
  congr 1
  exact k1_off1_eq L 0
omit [FloatOps F] in
theorem yBlk0_set (L : grid1.Coords) : (yBlk0 L).view.set = chunk (cL L) (sL L) 0 := by
  show ((View.whole (main_v14_0_scv : Ref sig .scVector)).slice (Rect.unit (s := S640000) (k1_off1 L 0#32) S4000.size (k1_off1_inb L 0))).set = _
  rw [View.set_slice, blkRect0_eq]; exact Finset.map_refl
omit [FloatOps F] in
theorem zBlk0_set (L : grid1.Coords) : (zBlk0 L).view.set = chunk (cL L) (sL L) 0 := by
  show ((View.whole (main_v14_1_scv : Ref sig .scVector)).slice (Rect.unit (s := S640000) (k1_off1 L 0#32) S4000.size (k1_off1_inb L 0))).set = _
  rw [View.set_slice, blkRect0_eq]; exact Finset.map_refl
omit [FloatOps F] in
theorem pts_yBlk0 (d : Dev nD) (L : grid1.Coords) (f : Buf (Elt F) (yLoc d)) :
    ((yBlk0 L).view.loc (thrV d L) ↦[(yBlk0 L).view.set]{fullShare} f : sProp (MM F)) = yLoc d ↦[chunk (cL L) (sL L) 0]{fullShare} f := by
  rw [yBlk0_set]
omit [FloatOps F] in
theorem pts_zBlk0 (d : Dev nD) (L : grid1.Coords) (f : Buf (Elt F) (zLoc d)) :
    ((zBlk0 L).view.loc (thrV d L) ↦[(zBlk0 L).view.set]{fullShare} f : sProp (MM F)) = zLoc d ↦[chunk (cL L) (sL L) 0]{fullShare} f := by
  rw [zBlk0_set]

abbrev yBlk1 (L : grid1.Coords) : Memref sig .scVector .hbm S4000 .f32 := yV.slice (Rect.unit (s := S640000) (k1_off1 L 4000#32) S4000.size (k1_off1_inb L 1)) (fun _ => rfl)
abbrev zBlk1 (L : grid1.Coords) : Memref sig .scVector .hbm S4000 .f32 := zV.slice (Rect.unit (s := S640000) (k1_off1 L 4000#32) S4000.size (k1_off1_inb L 1)) (fun _ => rfl)
abbrev aBlk1 (L : grid1.Coords) : Memref sig .scVector .hbm S4000 .i32 := aV.slice (Rect.unit (s := S640000) (k1_off1 L 4000#32) S4000.size (k1_off1_inb L 1)) (fun _ => rfl)
abbrev bBlk1 (L : grid1.Coords) : Memref sig .scVector .hbm S4000 .i32 := bV.slice (Rect.unit (s := S640000) (k1_off1 L 4000#32) S4000.size (k1_off1_inb L 1)) (fun _ => rfl)
omit [FloatOps F] in
theorem blkRect1_eq (L : grid1.Coords) : Rect.unit (s := S640000) (k1_off1 L 4000#32) S4000.size (k1_off1_inb L 1) = chunkRect (cL L) (sL L) 1 := by
  unfold chunkRect
  congr 1
  exact k1_off1_eq L 1
omit [FloatOps F] in
theorem yBlk1_set (L : grid1.Coords) : (yBlk1 L).view.set = chunk (cL L) (sL L) 1 := by
  show ((View.whole (main_v14_0_scv : Ref sig .scVector)).slice (Rect.unit (s := S640000) (k1_off1 L 4000#32) S4000.size (k1_off1_inb L 1))).set = _
  rw [View.set_slice, blkRect1_eq]; exact Finset.map_refl
omit [FloatOps F] in
theorem zBlk1_set (L : grid1.Coords) : (zBlk1 L).view.set = chunk (cL L) (sL L) 1 := by
  show ((View.whole (main_v14_1_scv : Ref sig .scVector)).slice (Rect.unit (s := S640000) (k1_off1 L 4000#32) S4000.size (k1_off1_inb L 1))).set = _
  rw [View.set_slice, blkRect1_eq]; exact Finset.map_refl
omit [FloatOps F] in
theorem pts_yBlk1 (d : Dev nD) (L : grid1.Coords) (f : Buf (Elt F) (yLoc d)) :
    ((yBlk1 L).view.loc (thrV d L) ↦[(yBlk1 L).view.set]{fullShare} f : sProp (MM F)) = yLoc d ↦[chunk (cL L) (sL L) 1]{fullShare} f := by
  rw [yBlk1_set]
omit [FloatOps F] in
theorem pts_zBlk1 (d : Dev nD) (L : grid1.Coords) (f : Buf (Elt F) (zLoc d)) :
    ((zBlk1 L).view.loc (thrV d L) ↦[(zBlk1 L).view.set]{fullShare} f : sProp (MM F)) = zLoc d ↦[chunk (cL L) (sL L) 1]{fullShare} f := by
  rw [zBlk1_set]

abbrev yBlk2 (L : grid1.Coords) : Memref sig .scVector .hbm S4000 .f32 := yV.slice (Rect.unit (s := S640000) (k1_off1 L 8000#32) S4000.size (k1_off1_inb L 2)) (fun _ => rfl)
abbrev zBlk2 (L : grid1.Coords) : Memref sig .scVector .hbm S4000 .f32 := zV.slice (Rect.unit (s := S640000) (k1_off1 L 8000#32) S4000.size (k1_off1_inb L 2)) (fun _ => rfl)
abbrev aBlk2 (L : grid1.Coords) : Memref sig .scVector .hbm S4000 .i32 := aV.slice (Rect.unit (s := S640000) (k1_off1 L 8000#32) S4000.size (k1_off1_inb L 2)) (fun _ => rfl)
abbrev bBlk2 (L : grid1.Coords) : Memref sig .scVector .hbm S4000 .i32 := bV.slice (Rect.unit (s := S640000) (k1_off1 L 8000#32) S4000.size (k1_off1_inb L 2)) (fun _ => rfl)
omit [FloatOps F] in
theorem blkRect2_eq (L : grid1.Coords) : Rect.unit (s := S640000) (k1_off1 L 8000#32) S4000.size (k1_off1_inb L 2) = chunkRect (cL L) (sL L) 2 := by
  unfold chunkRect
  congr 1
  exact k1_off1_eq L 2
omit [FloatOps F] in
theorem yBlk2_set (L : grid1.Coords) : (yBlk2 L).view.set = chunk (cL L) (sL L) 2 := by
  show ((View.whole (main_v14_0_scv : Ref sig .scVector)).slice (Rect.unit (s := S640000) (k1_off1 L 8000#32) S4000.size (k1_off1_inb L 2))).set = _
  rw [View.set_slice, blkRect2_eq]; exact Finset.map_refl
omit [FloatOps F] in
theorem zBlk2_set (L : grid1.Coords) : (zBlk2 L).view.set = chunk (cL L) (sL L) 2 := by
  show ((View.whole (main_v14_1_scv : Ref sig .scVector)).slice (Rect.unit (s := S640000) (k1_off1 L 8000#32) S4000.size (k1_off1_inb L 2))).set = _
  rw [View.set_slice, blkRect2_eq]; exact Finset.map_refl
omit [FloatOps F] in
theorem pts_yBlk2 (d : Dev nD) (L : grid1.Coords) (f : Buf (Elt F) (yLoc d)) :
    ((yBlk2 L).view.loc (thrV d L) ↦[(yBlk2 L).view.set]{fullShare} f : sProp (MM F)) = yLoc d ↦[chunk (cL L) (sL L) 2]{fullShare} f := by
  rw [yBlk2_set]
omit [FloatOps F] in
theorem pts_zBlk2 (d : Dev nD) (L : grid1.Coords) (f : Buf (Elt F) (zLoc d)) :
    ((zBlk2 L).view.loc (thrV d L) ↦[(zBlk2 L).view.set]{fullShare} f : sProp (MM F)) = zLoc d ↦[chunk (cL L) (sL L) 2]{fullShare} f := by
  rw [zBlk2_set]

abbrev yBlk3 (L : grid1.Coords) : Memref sig .scVector .hbm S4000 .f32 := yV.slice (Rect.unit (s := S640000) (k1_off1 L 12000#32) S4000.size (k1_off1_inb L 3)) (fun _ => rfl)
abbrev zBlk3 (L : grid1.Coords) : Memref sig .scVector .hbm S4000 .f32 := zV.slice (Rect.unit (s := S640000) (k1_off1 L 12000#32) S4000.size (k1_off1_inb L 3)) (fun _ => rfl)
abbrev aBlk3 (L : grid1.Coords) : Memref sig .scVector .hbm S4000 .i32 := aV.slice (Rect.unit (s := S640000) (k1_off1 L 12000#32) S4000.size (k1_off1_inb L 3)) (fun _ => rfl)
abbrev bBlk3 (L : grid1.Coords) : Memref sig .scVector .hbm S4000 .i32 := bV.slice (Rect.unit (s := S640000) (k1_off1 L 12000#32) S4000.size (k1_off1_inb L 3)) (fun _ => rfl)
omit [FloatOps F] in
theorem blkRect3_eq (L : grid1.Coords) : Rect.unit (s := S640000) (k1_off1 L 12000#32) S4000.size (k1_off1_inb L 3) = chunkRect (cL L) (sL L) 3 := by
  unfold chunkRect
  congr 1
  exact k1_off1_eq L 3
omit [FloatOps F] in
theorem yBlk3_set (L : grid1.Coords) : (yBlk3 L).view.set = chunk (cL L) (sL L) 3 := by
  show ((View.whole (main_v14_0_scv : Ref sig .scVector)).slice (Rect.unit (s := S640000) (k1_off1 L 12000#32) S4000.size (k1_off1_inb L 3))).set = _
  rw [View.set_slice, blkRect3_eq]; exact Finset.map_refl
omit [FloatOps F] in
theorem zBlk3_set (L : grid1.Coords) : (zBlk3 L).view.set = chunk (cL L) (sL L) 3 := by
  show ((View.whole (main_v14_1_scv : Ref sig .scVector)).slice (Rect.unit (s := S640000) (k1_off1 L 12000#32) S4000.size (k1_off1_inb L 3))).set = _
  rw [View.set_slice, blkRect3_eq]; exact Finset.map_refl
omit [FloatOps F] in
theorem pts_yBlk3 (d : Dev nD) (L : grid1.Coords) (f : Buf (Elt F) (yLoc d)) :
    ((yBlk3 L).view.loc (thrV d L) ↦[(yBlk3 L).view.set]{fullShare} f : sProp (MM F)) = yLoc d ↦[chunk (cL L) (sL L) 3]{fullShare} f := by
  rw [yBlk3_set]
omit [FloatOps F] in
theorem pts_zBlk3 (d : Dev nD) (L : grid1.Coords) (f : Buf (Elt F) (zLoc d)) :
    ((zBlk3 L).view.loc (thrV d L) ↦[(zBlk3 L).view.set]{fullShare} f : sProp (MM F)) = zLoc d ↦[chunk (cL L) (sL L) 3]{fullShare} f := by
  rw [zBlk3_set]

abbrev yBlk4 (L : grid1.Coords) : Memref sig .scVector .hbm S4000 .f32 := yV.slice (Rect.unit (s := S640000) (k1_off1 L 16000#32) S4000.size (k1_off1_inb L 4)) (fun _ => rfl)
abbrev zBlk4 (L : grid1.Coords) : Memref sig .scVector .hbm S4000 .f32 := zV.slice (Rect.unit (s := S640000) (k1_off1 L 16000#32) S4000.size (k1_off1_inb L 4)) (fun _ => rfl)
abbrev aBlk4 (L : grid1.Coords) : Memref sig .scVector .hbm S4000 .i32 := aV.slice (Rect.unit (s := S640000) (k1_off1 L 16000#32) S4000.size (k1_off1_inb L 4)) (fun _ => rfl)
abbrev bBlk4 (L : grid1.Coords) : Memref sig .scVector .hbm S4000 .i32 := bV.slice (Rect.unit (s := S640000) (k1_off1 L 16000#32) S4000.size (k1_off1_inb L 4)) (fun _ => rfl)
omit [FloatOps F] in
theorem blkRect4_eq (L : grid1.Coords) : Rect.unit (s := S640000) (k1_off1 L 16000#32) S4000.size (k1_off1_inb L 4) = chunkRect (cL L) (sL L) 4 := by
  unfold chunkRect
  congr 1
  exact k1_off1_eq L 4
omit [FloatOps F] in
theorem yBlk4_set (L : grid1.Coords) : (yBlk4 L).view.set = chunk (cL L) (sL L) 4 := by
  show ((View.whole (main_v14_0_scv : Ref sig .scVector)).slice (Rect.unit (s := S640000) (k1_off1 L 16000#32) S4000.size (k1_off1_inb L 4))).set = _
  rw [View.set_slice, blkRect4_eq]; exact Finset.map_refl
omit [FloatOps F] in
theorem zBlk4_set (L : grid1.Coords) : (zBlk4 L).view.set = chunk (cL L) (sL L) 4 := by
  show ((View.whole (main_v14_1_scv : Ref sig .scVector)).slice (Rect.unit (s := S640000) (k1_off1 L 16000#32) S4000.size (k1_off1_inb L 4))).set = _
  rw [View.set_slice, blkRect4_eq]; exact Finset.map_refl
omit [FloatOps F] in
theorem pts_yBlk4 (d : Dev nD) (L : grid1.Coords) (f : Buf (Elt F) (yLoc d)) :
    ((yBlk4 L).view.loc (thrV d L) ↦[(yBlk4 L).view.set]{fullShare} f : sProp (MM F)) = yLoc d ↦[chunk (cL L) (sL L) 4]{fullShare} f := by
  rw [yBlk4_set]
omit [FloatOps F] in
theorem pts_zBlk4 (d : Dev nD) (L : grid1.Coords) (f : Buf (Elt F) (zLoc d)) :
    ((zBlk4 L).view.loc (thrV d L) ↦[(zBlk4 L).view.set]{fullShare} f : sProp (MM F)) = zLoc d ↦[chunk (cL L) (sL L) 4]{fullShare} f := by
  rw [zBlk4_set]

omit [FloatOps F] in
theorem bigSep_fin5 (Φ : Fin 5 → sProp (MM F)) : bigSep Finset.univ Φ = iprop(Φ 0 ∗ Φ 1 ∗ Φ 2 ∗ Φ 3 ∗ Φ 4) := by
  rw [show (Finset.univ : Finset (Fin 5)) = {0, 1, 2, 3, 4} by decide, SparseCore.bigSep_insert' (by decide), SparseCore.bigSep_insert' (by decide),
    SparseCore.bigSep_insert' (by decide), SparseCore.bigSep_insert' (by decide), bigSep_singleton]

omit [FloatOps F] in
theorem pts_s0 (d : Dev nD) (L : grid1.Coords) (f : Buf (Elt F) ((thrV d L).loc cc1_scratch0)) :
    ((s0).view.loc (thrV d L) ↦{fullShare} f : sProp (MM F)) = (thrV d L).loc cc1_scratch0 ↦{fullShare} f := rfl
omit [FloatOps F] in
theorem pts_s1 (d : Dev nD) (L : grid1.Coords) (f : Buf (Elt F) ((thrV d L).loc cc1_scratch1)) :
    ((s1).view.loc (thrV d L) ↦{fullShare} f : sProp (MM F)) = (thrV d L).loc cc1_scratch1 ↦{fullShare} f := rfl
omit [FloatOps F] in
theorem pts_s2 (d : Dev nD) (L : grid1.Coords) (f : Buf (Elt F) ((thrV d L).loc cc1_scratch2)) :
    ((s2).view.loc (thrV d L) ↦{fullShare} f : sProp (MM F)) = (thrV d L).loc cc1_scratch2 ↦{fullShare} f := rfl
omit [FloatOps F] in
theorem pts_s3 (d : Dev nD) (L : grid1.Coords) (f : Buf (Elt F) ((thrV d L).loc cc1_scratch3)) :
    ((s3).view.loc (thrV d L) ↦{fullShare} f : sProp (MM F)) = (thrV d L).loc cc1_scratch3 ↦{fullShare} f := rfl
omit [FloatOps F] in
theorem pts_s4 (d : Dev nD) (L : grid1.Coords) (f : Buf (Elt F) ((thrV d L).loc cc1_scratch4)) :
    ((s4).view.loc (thrV d L) ↦{fullShare} f : sProp (MM F)) = (thrV d L).loc cc1_scratch4 ↦{fullShare} f := rfl
omit [FloatOps F] in
theorem pts_t (d : Dev nD) (L : grid1.Coords) (q : PosShare TreeShare) (f : Buf (Elt F) (tLoc d)) :
    ((tV).view.loc (thrV d L) ↦{q} f : sProp (MM F)) = tLoc d ↦{q} f := rfl
omit [FloatOps F] in
theorem pts_a (d : Dev nD) (L : grid1.Coords) (q : PosShare TreeShare) (f : Buf (Elt F) (aLoc d)) :
    ((aV).view.loc (thrV d L) ↦{q} f : sProp (MM F)) = aLoc d ↦{q} f := rfl
omit [FloatOps F] in
theorem pts_b (d : Dev nD) (L : grid1.Coords) (q : PosShare TreeShare) (f : Buf (Elt F) (bLoc d)) :
    ((bV).view.loc (thrV d L) ↦{q} f : sProp (MM F)) = bLoc d ↦{q} f := rfl

omit [FloatOps F] in
theorem upTo_zero (Z f0 : Vec F S4000 .f32) : upTo Z f0 0 = f0 := by
  funext j; unfold upTo; rw [if_neg (by omega)]

/-- A copy into a whole scratch leaves what was copied. -/
theorem lands0 (d : Dev nD) (L : grid1.Coords) (f0 : Buf (Elt F) ((thrV d L).loc cc1_scratch0)) (w : Vec F S40000 .f32) :
    ((s0).view.loc (thrV d L) ↦{fullShare} View.write (Elt F) (Memref.whole cc1_scratch0).view f0 (ReadAs.same.apply w) Finset.univ : sProp (MM F))
      = (s0).view.loc (thrV d L) ↦{fullShare} w := by
  rw [ReadAs.apply_same, View.write_whole_univ]
theorem lands1 (d : Dev nD) (L : grid1.Coords) (f0 : Buf (Elt F) ((thrV d L).loc cc1_scratch1)) (w : Vec F S4000 .i32) :
    ((s1).view.loc (thrV d L) ↦{fullShare} View.write (Elt F) (Memref.whole cc1_scratch1).view f0 (ReadAs.same.apply w) Finset.univ : sProp (MM F))
      = (s1).view.loc (thrV d L) ↦{fullShare} w := by
  rw [ReadAs.apply_same, View.write_whole_univ]
theorem lands2 (d : Dev nD) (L : grid1.Coords) (f0 : Buf (Elt F) ((thrV d L).loc cc1_scratch2)) (w : Vec F S4000 .i32) :
    ((s2).view.loc (thrV d L) ↦{fullShare} View.write (Elt F) (Memref.whole cc1_scratch2).view f0 (ReadAs.same.apply w) Finset.univ : sProp (MM F))
      = (s2).view.loc (thrV d L) ↦{fullShare} w := by
  rw [ReadAs.apply_same, View.write_whole_univ]

/-- The table, as the table scratch holds it. -/
abbrev Tb (d : Dev nD) : Vec F S40000 .f32 := View.read (Elt F) (Memref.whole main_v9_scv : Memref sig .scVector .hbm S40000 .f32).view (TAB d)

/-- Block 0's index words, as the index scratches hold them. -/
abbrev Ab0 (d : Dev nD) (L : grid1.Coords) : IVec S4000 32 := View.read (Elt F) (aBlk0 L).view (IA d)
abbrev Bb0 (d : Dev nD) (L : grid1.Coords) : IVec S4000 32 := View.read (Elt F) (bBlk0 L).view (IB d)
omit [FloatOps F] in
theorem Ab0_apply (d : Dev nD) (L : grid1.Coords) (j : S4000.Idx) : Ab0 IA d L j = (IA d : IVec S640000 32) ((aBlk0 L).view.emb j) :=
  (View.read_apply _ _).trans (cast_eq _ _)
omit [FloatOps F] in
theorem Bb0_apply (d : Dev nD) (L : grid1.Coords) (j : S4000.Idx) : Bb0 IB d L j = (IB d : IVec S640000 32) ((bBlk0 L).view.emb j) :=
  (View.read_apply _ _).trans (cast_eq _ _)
omit [FloatOps F] in
theorem Ab0_lt (hok : IdxOK IA IB) (d : Dev nD) (L : grid1.Coords) : ∀ j, (Ab0 IA d L j).toNat < 10000 := fun j => by
  rw [Ab0_apply]; exact (hok d _).1
omit [FloatOps F] in
theorem Bb0_lt (hok : IdxOK IA IB) (d : Dev nD) (L : grid1.Coords) : ∀ j, (Bb0 IB d L j).toNat < 10000 := fun j => by
  rw [Bb0_apply]; exact (hok d _).2

/-- Block 1's index words, as the index scratches hold them. -/
abbrev Ab1 (d : Dev nD) (L : grid1.Coords) : IVec S4000 32 := View.read (Elt F) (aBlk1 L).view (IA d)
abbrev Bb1 (d : Dev nD) (L : grid1.Coords) : IVec S4000 32 := View.read (Elt F) (bBlk1 L).view (IB d)
omit [FloatOps F] in
theorem Ab1_apply (d : Dev nD) (L : grid1.Coords) (j : S4000.Idx) : Ab1 IA d L j = (IA d : IVec S640000 32) ((aBlk1 L).view.emb j) :=
  (View.read_apply _ _).trans (cast_eq _ _)
omit [FloatOps F] in
theorem Bb1_apply (d : Dev nD) (L : grid1.Coords) (j : S4000.Idx) : Bb1 IB d L j = (IB d : IVec S640000 32) ((bBlk1 L).view.emb j) :=
  (View.read_apply _ _).trans (cast_eq _ _)
omit [FloatOps F] in
theorem Ab1_lt (hok : IdxOK IA IB) (d : Dev nD) (L : grid1.Coords) : ∀ j, (Ab1 IA d L j).toNat < 10000 := fun j => by
  rw [Ab1_apply]; exact (hok d _).1
omit [FloatOps F] in
theorem Bb1_lt (hok : IdxOK IA IB) (d : Dev nD) (L : grid1.Coords) : ∀ j, (Bb1 IB d L j).toNat < 10000 := fun j => by
  rw [Bb1_apply]; exact (hok d _).2

/-- Block 2's index words, as the index scratches hold them. -/
abbrev Ab2 (d : Dev nD) (L : grid1.Coords) : IVec S4000 32 := View.read (Elt F) (aBlk2 L).view (IA d)
abbrev Bb2 (d : Dev nD) (L : grid1.Coords) : IVec S4000 32 := View.read (Elt F) (bBlk2 L).view (IB d)
omit [FloatOps F] in
theorem Ab2_apply (d : Dev nD) (L : grid1.Coords) (j : S4000.Idx) : Ab2 IA d L j = (IA d : IVec S640000 32) ((aBlk2 L).view.emb j) :=
  (View.read_apply _ _).trans (cast_eq _ _)
omit [FloatOps F] in
theorem Bb2_apply (d : Dev nD) (L : grid1.Coords) (j : S4000.Idx) : Bb2 IB d L j = (IB d : IVec S640000 32) ((bBlk2 L).view.emb j) :=
  (View.read_apply _ _).trans (cast_eq _ _)
omit [FloatOps F] in
theorem Ab2_lt (hok : IdxOK IA IB) (d : Dev nD) (L : grid1.Coords) : ∀ j, (Ab2 IA d L j).toNat < 10000 := fun j => by
  rw [Ab2_apply]; exact (hok d _).1
omit [FloatOps F] in
theorem Bb2_lt (hok : IdxOK IA IB) (d : Dev nD) (L : grid1.Coords) : ∀ j, (Bb2 IB d L j).toNat < 10000 := fun j => by
  rw [Bb2_apply]; exact (hok d _).2

/-- Block 3's index words, as the index scratches hold them. -/
abbrev Ab3 (d : Dev nD) (L : grid1.Coords) : IVec S4000 32 := View.read (Elt F) (aBlk3 L).view (IA d)
abbrev Bb3 (d : Dev nD) (L : grid1.Coords) : IVec S4000 32 := View.read (Elt F) (bBlk3 L).view (IB d)
omit [FloatOps F] in
theorem Ab3_apply (d : Dev nD) (L : grid1.Coords) (j : S4000.Idx) : Ab3 IA d L j = (IA d : IVec S640000 32) ((aBlk3 L).view.emb j) :=
  (View.read_apply _ _).trans (cast_eq _ _)
omit [FloatOps F] in
theorem Bb3_apply (d : Dev nD) (L : grid1.Coords) (j : S4000.Idx) : Bb3 IB d L j = (IB d : IVec S640000 32) ((bBlk3 L).view.emb j) :=
  (View.read_apply _ _).trans (cast_eq _ _)
omit [FloatOps F] in
theorem Ab3_lt (hok : IdxOK IA IB) (d : Dev nD) (L : grid1.Coords) : ∀ j, (Ab3 IA d L j).toNat < 10000 := fun j => by
  rw [Ab3_apply]; exact (hok d _).1
omit [FloatOps F] in
theorem Bb3_lt (hok : IdxOK IA IB) (d : Dev nD) (L : grid1.Coords) : ∀ j, (Bb3 IB d L j).toNat < 10000 := fun j => by
  rw [Bb3_apply]; exact (hok d _).2

/-- Block 4's index words, as the index scratches hold them. -/
abbrev Ab4 (d : Dev nD) (L : grid1.Coords) : IVec S4000 32 := View.read (Elt F) (aBlk4 L).view (IA d)
abbrev Bb4 (d : Dev nD) (L : grid1.Coords) : IVec S4000 32 := View.read (Elt F) (bBlk4 L).view (IB d)
omit [FloatOps F] in
theorem Ab4_apply (d : Dev nD) (L : grid1.Coords) (j : S4000.Idx) : Ab4 IA d L j = (IA d : IVec S640000 32) ((aBlk4 L).view.emb j) :=
  (View.read_apply _ _).trans (cast_eq _ _)
omit [FloatOps F] in
theorem Bb4_apply (d : Dev nD) (L : grid1.Coords) (j : S4000.Idx) : Bb4 IB d L j = (IB d : IVec S640000 32) ((bBlk4 L).view.emb j) :=
  (View.read_apply _ _).trans (cast_eq _ _)
omit [FloatOps F] in
theorem Ab4_lt (hok : IdxOK IA IB) (d : Dev nD) (L : grid1.Coords) : ∀ j, (Ab4 IA d L j).toNat < 10000 := fun j => by
  rw [Ab4_apply]; exact (hok d _).1
omit [FloatOps F] in
theorem Bb4_lt (hok : IdxOK IA IB) (d : Dev nD) (L : grid1.Coords) : ∀ j, (Bb4 IB d L j).toNat < 10000 := fun j => by
  rw [Bb4_apply]; exact (hok d _).2

omit [FloatOps F] in
theorem upTo_trips (Z f0 : Vec F S4000 .f32) (n : ℕ) (hn : n = 250) : upTo Z f0 n = Z := by
  subst hn; exact upTo_all Z f0

omit [FloatOps F] in
theorem whole_emb (x : S4000.Idx) : (Rect.whole S4000).emb x = x := by
  funext a; apply Fin.ext
  rw [Rect.emb_apply]
  simp [Rect.whole]

omit [FloatOps F] in
/-- A whole-block write through a view leaves, at the view's element `x`, the written word. -/
theorem writes_whole_at {sp : Space} {e : EltTy} (v : View sig .scVector sp S4000 e) (g : v.ty.Contents (Elt F)) (w : S4000.Idx → Elt F e) (x : S4000.Idx) :
    v.read (Elt F) (v.writes (Elt F) g [⟨Rect.whole S4000, w⟩]) x = w x := by
  have h := View.read_writes_cons_emb v g (Rect.whole S4000) w [] x
  rwa [whole_emb] at h

theorem out_y0 (d : Dev nD) (L : grid1.Coords) (gy : Buf (Elt F) (yLoc d)) :
    ((yBlk0 L).view.loc (thrV d L) ↦[(yBlk0 L).view.set]{fullShare}
        (yBlk0 L).view.writes (Elt F) gy [⟨Rect.whole S4000, ReadAs.same.apply (View.read (Elt F) (Memref.whole cc1_scratch3 : Memref sig .scVector .vmem S4000 .f32).view (lz0 (Tb TAB d) (Ab0 IA d L) (Bb0 IB d L)))⟩] : sProp (MM F))
      = yLoc d ↦[chunk (cL L) (sL L) 0]{fullShare} Z0 TAB IA IB d := by
  rw [ReadAs.apply_same, ← pts_yBlk0 (F := F) d L (Z0 TAB IA IB d)]
  refine pointsTo_congr fun i hi => ?_
  obtain ⟨x, -, rfl⟩ := Finset.mem_map.mp hi
  have h := writes_whole_at (F := F) (yBlk0 L).view gy (View.read (Elt F) (Memref.whole cc1_scratch3 : Memref sig .scVector .vmem S4000 .f32).view (lz0 (Tb TAB d) (Ab0 IA d L) (Bb0 IB d L))) x
  rw [View.read_apply] at h
  have h' := (cast_eq _ _).symm.trans h
  refine h'.trans ?_
  show lz0 (Tb TAB d) (Ab0 IA d L) (Bb0 IB d L) x = z0Of (F := F) (TAB d) (IA d) (IB d) ((yBlk0 L).view.emb x)
  unfold lz0 z0Of
  rw [Ab0_apply, Bb0_apply]
  rfl
theorem out_z0 (d : Dev nD) (L : grid1.Coords) (gz : Buf (Elt F) (zLoc d)) :
    ((zBlk0 L).view.loc (thrV d L) ↦[(zBlk0 L).view.set]{fullShare}
        (zBlk0 L).view.writes (Elt F) gz [⟨Rect.whole S4000, ReadAs.same.apply (View.read (Elt F) (Memref.whole cc1_scratch4 : Memref sig .scVector .vmem S4000 .f32).view (lz1 (Tb TAB d) (Ab0 IA d L) (Bb0 IB d L)))⟩] : sProp (MM F))
      = zLoc d ↦[chunk (cL L) (sL L) 0]{fullShare} Z1 TAB IA IB d := by
  rw [ReadAs.apply_same, ← pts_zBlk0 (F := F) d L (Z1 TAB IA IB d)]
  refine pointsTo_congr fun i hi => ?_
  obtain ⟨x, -, rfl⟩ := Finset.mem_map.mp hi
  have h := writes_whole_at (F := F) (zBlk0 L).view gz (View.read (Elt F) (Memref.whole cc1_scratch4 : Memref sig .scVector .vmem S4000 .f32).view (lz1 (Tb TAB d) (Ab0 IA d L) (Bb0 IB d L))) x
  rw [View.read_apply] at h
  have h' := (cast_eq _ _).symm.trans h
  refine h'.trans ?_
  show lz1 (Tb TAB d) (Ab0 IA d L) (Bb0 IB d L) x = z1Of (F := F) (TAB d) (IA d) (IB d) ((zBlk0 L).view.emb x)
  unfold lz1 z1Of
  rw [Ab0_apply, Bb0_apply]
  rfl

theorem out_y1 (d : Dev nD) (L : grid1.Coords) (gy : Buf (Elt F) (yLoc d)) :
    ((yBlk1 L).view.loc (thrV d L) ↦[(yBlk1 L).view.set]{fullShare}
        (yBlk1 L).view.writes (Elt F) gy [⟨Rect.whole S4000, ReadAs.same.apply (View.read (Elt F) (Memref.whole cc1_scratch3 : Memref sig .scVector .vmem S4000 .f32).view (lz0 (Tb TAB d) (Ab1 IA d L) (Bb1 IB d L)))⟩] : sProp (MM F))
      = yLoc d ↦[chunk (cL L) (sL L) 1]{fullShare} Z0 TAB IA IB d := by
  rw [ReadAs.apply_same, ← pts_yBlk1 (F := F) d L (Z0 TAB IA IB d)]
  refine pointsTo_congr fun i hi => ?_
  obtain ⟨x, -, rfl⟩ := Finset.mem_map.mp hi
  have h := writes_whole_at (F := F) (yBlk1 L).view gy (View.read (Elt F) (Memref.whole cc1_scratch3 : Memref sig .scVector .vmem S4000 .f32).view (lz0 (Tb TAB d) (Ab1 IA d L) (Bb1 IB d L))) x
  rw [View.read_apply] at h
  have h' := (cast_eq _ _).symm.trans h
  refine h'.trans ?_
  show lz0 (Tb TAB d) (Ab1 IA d L) (Bb1 IB d L) x = z0Of (F := F) (TAB d) (IA d) (IB d) ((yBlk1 L).view.emb x)
  unfold lz0 z0Of
  rw [Ab1_apply, Bb1_apply]
  rfl
theorem out_z1 (d : Dev nD) (L : grid1.Coords) (gz : Buf (Elt F) (zLoc d)) :
    ((zBlk1 L).view.loc (thrV d L) ↦[(zBlk1 L).view.set]{fullShare}
        (zBlk1 L).view.writes (Elt F) gz [⟨Rect.whole S4000, ReadAs.same.apply (View.read (Elt F) (Memref.whole cc1_scratch4 : Memref sig .scVector .vmem S4000 .f32).view (lz1 (Tb TAB d) (Ab1 IA d L) (Bb1 IB d L)))⟩] : sProp (MM F))
      = zLoc d ↦[chunk (cL L) (sL L) 1]{fullShare} Z1 TAB IA IB d := by
  rw [ReadAs.apply_same, ← pts_zBlk1 (F := F) d L (Z1 TAB IA IB d)]
  refine pointsTo_congr fun i hi => ?_
  obtain ⟨x, -, rfl⟩ := Finset.mem_map.mp hi
  have h := writes_whole_at (F := F) (zBlk1 L).view gz (View.read (Elt F) (Memref.whole cc1_scratch4 : Memref sig .scVector .vmem S4000 .f32).view (lz1 (Tb TAB d) (Ab1 IA d L) (Bb1 IB d L))) x
  rw [View.read_apply] at h
  have h' := (cast_eq _ _).symm.trans h
  refine h'.trans ?_
  show lz1 (Tb TAB d) (Ab1 IA d L) (Bb1 IB d L) x = z1Of (F := F) (TAB d) (IA d) (IB d) ((zBlk1 L).view.emb x)
  unfold lz1 z1Of
  rw [Ab1_apply, Bb1_apply]
  rfl

theorem out_y2 (d : Dev nD) (L : grid1.Coords) (gy : Buf (Elt F) (yLoc d)) :
    ((yBlk2 L).view.loc (thrV d L) ↦[(yBlk2 L).view.set]{fullShare}
        (yBlk2 L).view.writes (Elt F) gy [⟨Rect.whole S4000, ReadAs.same.apply (View.read (Elt F) (Memref.whole cc1_scratch3 : Memref sig .scVector .vmem S4000 .f32).view (lz0 (Tb TAB d) (Ab2 IA d L) (Bb2 IB d L)))⟩] : sProp (MM F))
      = yLoc d ↦[chunk (cL L) (sL L) 2]{fullShare} Z0 TAB IA IB d := by
  rw [ReadAs.apply_same, ← pts_yBlk2 (F := F) d L (Z0 TAB IA IB d)]
  refine pointsTo_congr fun i hi => ?_
  obtain ⟨x, -, rfl⟩ := Finset.mem_map.mp hi
  have h := writes_whole_at (F := F) (yBlk2 L).view gy (View.read (Elt F) (Memref.whole cc1_scratch3 : Memref sig .scVector .vmem S4000 .f32).view (lz0 (Tb TAB d) (Ab2 IA d L) (Bb2 IB d L))) x
  rw [View.read_apply] at h
  have h' := (cast_eq _ _).symm.trans h
  refine h'.trans ?_
  show lz0 (Tb TAB d) (Ab2 IA d L) (Bb2 IB d L) x = z0Of (F := F) (TAB d) (IA d) (IB d) ((yBlk2 L).view.emb x)
  unfold lz0 z0Of
  rw [Ab2_apply, Bb2_apply]
  rfl
theorem out_z2 (d : Dev nD) (L : grid1.Coords) (gz : Buf (Elt F) (zLoc d)) :
    ((zBlk2 L).view.loc (thrV d L) ↦[(zBlk2 L).view.set]{fullShare}
        (zBlk2 L).view.writes (Elt F) gz [⟨Rect.whole S4000, ReadAs.same.apply (View.read (Elt F) (Memref.whole cc1_scratch4 : Memref sig .scVector .vmem S4000 .f32).view (lz1 (Tb TAB d) (Ab2 IA d L) (Bb2 IB d L)))⟩] : sProp (MM F))
      = zLoc d ↦[chunk (cL L) (sL L) 2]{fullShare} Z1 TAB IA IB d := by
  rw [ReadAs.apply_same, ← pts_zBlk2 (F := F) d L (Z1 TAB IA IB d)]
  refine pointsTo_congr fun i hi => ?_
  obtain ⟨x, -, rfl⟩ := Finset.mem_map.mp hi
  have h := writes_whole_at (F := F) (zBlk2 L).view gz (View.read (Elt F) (Memref.whole cc1_scratch4 : Memref sig .scVector .vmem S4000 .f32).view (lz1 (Tb TAB d) (Ab2 IA d L) (Bb2 IB d L))) x
  rw [View.read_apply] at h
  have h' := (cast_eq _ _).symm.trans h
  refine h'.trans ?_
  show lz1 (Tb TAB d) (Ab2 IA d L) (Bb2 IB d L) x = z1Of (F := F) (TAB d) (IA d) (IB d) ((zBlk2 L).view.emb x)
  unfold lz1 z1Of
  rw [Ab2_apply, Bb2_apply]
  rfl

theorem out_y3 (d : Dev nD) (L : grid1.Coords) (gy : Buf (Elt F) (yLoc d)) :
    ((yBlk3 L).view.loc (thrV d L) ↦[(yBlk3 L).view.set]{fullShare}
        (yBlk3 L).view.writes (Elt F) gy [⟨Rect.whole S4000, ReadAs.same.apply (View.read (Elt F) (Memref.whole cc1_scratch3 : Memref sig .scVector .vmem S4000 .f32).view (lz0 (Tb TAB d) (Ab3 IA d L) (Bb3 IB d L)))⟩] : sProp (MM F))
      = yLoc d ↦[chunk (cL L) (sL L) 3]{fullShare} Z0 TAB IA IB d := by
  rw [ReadAs.apply_same, ← pts_yBlk3 (F := F) d L (Z0 TAB IA IB d)]
  refine pointsTo_congr fun i hi => ?_
  obtain ⟨x, -, rfl⟩ := Finset.mem_map.mp hi
  have h := writes_whole_at (F := F) (yBlk3 L).view gy (View.read (Elt F) (Memref.whole cc1_scratch3 : Memref sig .scVector .vmem S4000 .f32).view (lz0 (Tb TAB d) (Ab3 IA d L) (Bb3 IB d L))) x
  rw [View.read_apply] at h
  have h' := (cast_eq _ _).symm.trans h
  refine h'.trans ?_
  show lz0 (Tb TAB d) (Ab3 IA d L) (Bb3 IB d L) x = z0Of (F := F) (TAB d) (IA d) (IB d) ((yBlk3 L).view.emb x)
  unfold lz0 z0Of
  rw [Ab3_apply, Bb3_apply]
  rfl
theorem out_z3 (d : Dev nD) (L : grid1.Coords) (gz : Buf (Elt F) (zLoc d)) :
    ((zBlk3 L).view.loc (thrV d L) ↦[(zBlk3 L).view.set]{fullShare}
        (zBlk3 L).view.writes (Elt F) gz [⟨Rect.whole S4000, ReadAs.same.apply (View.read (Elt F) (Memref.whole cc1_scratch4 : Memref sig .scVector .vmem S4000 .f32).view (lz1 (Tb TAB d) (Ab3 IA d L) (Bb3 IB d L)))⟩] : sProp (MM F))
      = zLoc d ↦[chunk (cL L) (sL L) 3]{fullShare} Z1 TAB IA IB d := by
  rw [ReadAs.apply_same, ← pts_zBlk3 (F := F) d L (Z1 TAB IA IB d)]
  refine pointsTo_congr fun i hi => ?_
  obtain ⟨x, -, rfl⟩ := Finset.mem_map.mp hi
  have h := writes_whole_at (F := F) (zBlk3 L).view gz (View.read (Elt F) (Memref.whole cc1_scratch4 : Memref sig .scVector .vmem S4000 .f32).view (lz1 (Tb TAB d) (Ab3 IA d L) (Bb3 IB d L))) x
  rw [View.read_apply] at h
  have h' := (cast_eq _ _).symm.trans h
  refine h'.trans ?_
  show lz1 (Tb TAB d) (Ab3 IA d L) (Bb3 IB d L) x = z1Of (F := F) (TAB d) (IA d) (IB d) ((zBlk3 L).view.emb x)
  unfold lz1 z1Of
  rw [Ab3_apply, Bb3_apply]
  rfl

theorem out_y4 (d : Dev nD) (L : grid1.Coords) (gy : Buf (Elt F) (yLoc d)) :
    ((yBlk4 L).view.loc (thrV d L) ↦[(yBlk4 L).view.set]{fullShare}
        (yBlk4 L).view.writes (Elt F) gy [⟨Rect.whole S4000, ReadAs.same.apply (View.read (Elt F) (Memref.whole cc1_scratch3 : Memref sig .scVector .vmem S4000 .f32).view (lz0 (Tb TAB d) (Ab4 IA d L) (Bb4 IB d L)))⟩] : sProp (MM F))
      = yLoc d ↦[chunk (cL L) (sL L) 4]{fullShare} Z0 TAB IA IB d := by
  rw [ReadAs.apply_same, ← pts_yBlk4 (F := F) d L (Z0 TAB IA IB d)]
  refine pointsTo_congr fun i hi => ?_
  obtain ⟨x, -, rfl⟩ := Finset.mem_map.mp hi
  have h := writes_whole_at (F := F) (yBlk4 L).view gy (View.read (Elt F) (Memref.whole cc1_scratch3 : Memref sig .scVector .vmem S4000 .f32).view (lz0 (Tb TAB d) (Ab4 IA d L) (Bb4 IB d L))) x
  rw [View.read_apply] at h
  have h' := (cast_eq _ _).symm.trans h
  refine h'.trans ?_
  show lz0 (Tb TAB d) (Ab4 IA d L) (Bb4 IB d L) x = z0Of (F := F) (TAB d) (IA d) (IB d) ((yBlk4 L).view.emb x)
  unfold lz0 z0Of
  rw [Ab4_apply, Bb4_apply]
  rfl
theorem out_z4 (d : Dev nD) (L : grid1.Coords) (gz : Buf (Elt F) (zLoc d)) :
    ((zBlk4 L).view.loc (thrV d L) ↦[(zBlk4 L).view.set]{fullShare}
        (zBlk4 L).view.writes (Elt F) gz [⟨Rect.whole S4000, ReadAs.same.apply (View.read (Elt F) (Memref.whole cc1_scratch4 : Memref sig .scVector .vmem S4000 .f32).view (lz1 (Tb TAB d) (Ab4 IA d L) (Bb4 IB d L)))⟩] : sProp (MM F))
      = zLoc d ↦[chunk (cL L) (sL L) 4]{fullShare} Z1 TAB IA IB d := by
  rw [ReadAs.apply_same, ← pts_zBlk4 (F := F) d L (Z1 TAB IA IB d)]
  refine pointsTo_congr fun i hi => ?_
  obtain ⟨x, -, rfl⟩ := Finset.mem_map.mp hi
  have h := writes_whole_at (F := F) (zBlk4 L).view gz (View.read (Elt F) (Memref.whole cc1_scratch4 : Memref sig .scVector .vmem S4000 .f32).view (lz1 (Tb TAB d) (Ab4 IA d L) (Bb4 IB d L))) x
  rw [View.read_apply] at h
  have h' := (cast_eq _ _).symm.trans h
  refine h'.trans ?_
  show lz1 (Tb TAB d) (Ab4 IA d L) (Bb4 IB d L) x = z1Of (F := F) (TAB d) (IA d) (IB d) ((zBlk4 L).view.emb x)
  unfold lz1 z1Of
  rw [Ab4_apply, Bb4_apply]
  rfl

set_option maxHeartbeats 8000000 in
/-- One vector subcore's task at a symbolic place of the grid: the table copied in; per block, the index words copied
    in, the 250 trips, the two result blocks copied out. -/
theorem tile_body (hok : IdxOK IA IB) (d : Dev nD) (L : grid1.Coords) (O : CellTallies nD τ sig (HIx 1)) (W : Waits sig (HIx 1)) (hO : ∀ g, O g none = 0) :
    iprop(levAts (K (F := F)).L (K (F := F)).lev ∗ emp ∗ (rd TAB IA IB d (qT (cL L) (sL L)) ∗ outIn d (cL L) (sL L))
        ∗ scopedBufs (thrV d L) ∗ scopedSems0 (thrV d L) ∗ owes (thrV d L) O W)
      ⊢ wp frame (wpE (defs₀ (F := F)) 𝒱₀ (thrV d L) none) Set.univ
          (cc1__pair_body L (Memref.whole main_v9_scv) (Memref.isWhole_whole _) (Memref.whole main_v11_scv) (Memref.isWhole_whole _) (Memref.whole main_v13_scv) (Memref.isWhole_whole _) (Memref.whole main_v14_0_scv) (Memref.isWhole_whole _) (Memref.whole main_v14_1_scv) (Memref.isWhole_whole _) (Memref.whole cc1_scratch0) (Memref.isWhole_whole _) (Memref.whole cc1_scratch1) (Memref.isWhole_whole _) (Memref.whole cc1_scratch2) (Memref.isWhole_whole _) (Memref.whole cc1_scratch3) (Memref.isWhole_whole _) (Memref.whole cc1_scratch4) (Memref.isWhole_whole _) cc1_scoped0 cc1_scoped1 cc1_scoped2 cc1_scoped3 cc1_scoped4 cc1_scoped5 cc1_scoped6 cc1_scoped7 cc1_scoped8 cc1_scoped9 cc1_scoped10 cc1_scoped11 cc1_scoped12 cc1_scoped13 cc1_scoped14 cc1_scoped15 cc1_scoped16 cc1_scoped17 cc1_scoped18 cc1_scoped19 cc1_scoped20)
          fun _ => iprop((rd TAB IA IB d (qT (cL L) (sL L)) ∗ outDn TAB IA IB d (cL L) (sL L)) ∗ scopedBufs (thrV d L) ∗ scopedSems0 (thrV d L)
            ∗ ∃ W', ⌜∀ p ∈ W', p ∈ W ∨ p.2 = none⌝ ∗ owes (thrV d L) O W') := by
  simp only [cc1__pair_body_eq_skeleton]; unfold cc1__pair_body_skel
  simp only [k1_part1_eq_skeleton, k1_part2_eq_skeleton, k1_part3_eq_skeleton]; unfold k1_part1_skel k1_part2_skel k1_part3_skel
  rw [(K (F := F)).scopedBufs_V facts d (cV L) (jV L), SparseCore.Cfg.scopedSems0_V (Val := Elt F) d (cV L) (jV L), ownSems0_V, ownBufs_V]
  iintro ⟨#Hlv, -, ⟨⟨Ht, Ha, Hb⟩, Hy, Hz⟩,
    ⟨⟨%f0, Hs0⟩, ⟨%f1, Hs1⟩, ⟨%f2, Hs2⟩, ⟨%f3, Hs3⟩, ⟨%f4, Hs4⟩, Hbufs⟩, ⟨Hc0, Hc1, Hc2, Hc3, Hc4, Hc5, Hc6, Hc7, Hc8, Hc9, Hc10, Hc11, Hc12, Hc13, Hc14, Hc15, Hc16, Hc17, Hc18, Hc19, Hc20, Hsems⟩, HO⟩
  ihave Hy' := (Entails.of_eq (bigSep_fin5 (F := F) (fun r => iprop(∃ f, yLoc d ↦[chunk (cL L) (sL L) r]{fullShare} f)))) $$ Hy
  ihave Hz' := (Entails.of_eq (bigSep_fin5 (F := F) (fun r => iprop(∃ f, zLoc d ↦[chunk (cL L) (sL L) r]{fullShare} f)))) $$ Hz
  icases Hy' with ⟨⟨%gy0, Hy0⟩, ⟨%gy1, Hy1⟩, ⟨%gy2, Hy2⟩, ⟨%gy3, Hy3⟩, ⟨%gy4, Hy4⟩⟩
  icases Hz' with ⟨⟨%gz0, Hz0⟩, ⟨%gz1, Hz1⟩, ⟨%gz2, Hz2⟩, ⟨%gz3, Hz3⟩, ⟨%gz4, Hz4⟩⟩
  ihave Hmw := ((K (F := F)).mayWaits_none (thr := thrV d L) hO) $$ Hlv
  ihave Ht := (Entails.of_eq (pts_t (F := F) d L _ _).symm) $$ Ht
  ihave Ha := (Entails.of_eq (pts_a (F := F) d L _ _).symm) $$ Ha
  ihave Hb := (Entails.of_eq (pts_b (F := F) d L _ _).symm) $$ Hb
  ihave Hs0 := (Entails.of_eq (pts_s0 (F := F) d L _).symm) $$ Hs0
  ihave Hs1 := (Entails.of_eq (pts_s1 (F := F) d L _).symm) $$ Hs1
  ihave Hs2 := (Entails.of_eq (pts_s2 (F := F) d L _).symm) $$ Hs2
  ihave Hs3 := (Entails.of_eq (pts_s3 (F := F) d L _).symm) $$ Hs3
  ihave Hs4 := (Entails.of_eq (pts_s4 (F := F) d L _).symm) $$ Hs4
  ihave Hy0 := (Entails.of_eq (pts_yBlk0 (F := F) d L _).symm) $$ Hy0
  ihave Hz0 := (Entails.of_eq (pts_zBlk0 (F := F) d L _).symm) $$ Hz0
  ihave Hy1 := (Entails.of_eq (pts_yBlk1 (F := F) d L _).symm) $$ Hy1
  ihave Hz1 := (Entails.of_eq (pts_zBlk1 (F := F) d L _).symm) $$ Hz1
  ihave Hy2 := (Entails.of_eq (pts_yBlk2 (F := F) d L _).symm) $$ Hy2
  ihave Hz2 := (Entails.of_eq (pts_zBlk2 (F := F) d L _).symm) $$ Hz2
  ihave Hy3 := (Entails.of_eq (pts_yBlk3 (F := F) d L _).symm) $$ Hy3
  ihave Hz3 := (Entails.of_eq (pts_zBlk3 (F := F) d L _).symm) $$ Hz3
  ihave Hy4 := (Entails.of_eq (pts_yBlk4 (F := F) d L _).symm) $$ Hy4
  ihave Hz4 := (Entails.of_eq (pts_zBlk4 (F := F) d L _).symm) $$ Hz4
  -- block 0
  sl_exec
  sl_unfold_run_names
  try sl_rw [Prog.bind_assoc]
  ihave Hs0 := (Entails.of_eq (lands0 (F := F) d L _ _)) $$ Hs0
  ihave Hs1 := (Entails.of_eq (lands1 (F := F) d L _ _)) $$ Hs1
  ihave Hs2 := (Entails.of_eq (lands2 (F := F) d L _ _)) $$ Hs2
  ihave Hs3 := (Entails.of_eq (congrArg (fun f => ((s3).view.loc (thrV d L) ↦{fullShare} f : sProp (MM F))) (upTo_zero (lz0 (Tb TAB d) (Ab0 IA d L) (Bb0 IB d L)) f3).symm)) $$ Hs3
  ihave Hs4 := (Entails.of_eq (congrArg (fun f => ((s4).view.loc (thrV d L) ↦{fullShare} f : sProp (MM F))) (upTo_zero (lz1 (Tb TAB d) (Ab0 IA d L) (Bb0 IB d L)) f4).symm)) $$ Hs4
  sl_for (inv d L (Tb TAB d) (Ab0 IA d L) (Bb0 IB d L) f3 f4) $$ [Hs0 Hs1 Hs2 Hs3 Hs4]
  case region =>
    intro k u
    exact region1 d L _ _ _ _ _ (Ab0_lt IA IB hok d L) (Bb0_lt IA IB hok d L) k u
  · unfold inv
    isplitl [Hs0]; · iexact Hs0
    isplitl [Hs1]; · iexact Hs1
    isplitl [Hs2]; · iexact Hs2
    isplitl [Hs3]; · iexact Hs3
    iexact Hs4
  iintro %_ HI
  unfold inv
  icases HI with ⟨Hs0, Hs1, Hs2, Hs3, Hs4⟩
  ihave Hs3 := (Entails.of_eq (congrArg (fun f => ((s3).view.loc (thrV d L) ↦{fullShare} f : sProp (MM F))) (upTo_trips (lz0 (Tb TAB d) (Ab0 IA d L) (Bb0 IB d L)) f3 _ (by decide)))) $$ Hs3
  ihave Hs4 := (Entails.of_eq (congrArg (fun f => ((s4).view.loc (thrV d L) ↦{fullShare} f : sProp (MM F))) (upTo_trips (lz1 (Tb TAB d) (Ab0 IA d L) (Bb0 IB d L)) f4 _ (by decide)))) $$ Hs4
  -- block 1
  sl_exec
  sl_unfold_run_names
  try sl_rw [Prog.bind_assoc]
  ihave Hs1 := (Entails.of_eq (lands1 (F := F) d L _ _)) $$ Hs1
  ihave Hs2 := (Entails.of_eq (lands2 (F := F) d L _ _)) $$ Hs2
  ihave Hs3 := (Entails.of_eq (congrArg (fun f => ((s3).view.loc (thrV d L) ↦{fullShare} f : sProp (MM F))) (upTo_zero (lz0 (Tb TAB d) (Ab1 IA d L) (Bb1 IB d L)) (lz0 (Tb TAB d) (Ab0 IA d L) (Bb0 IB d L))).symm)) $$ Hs3
  ihave Hs4 := (Entails.of_eq (congrArg (fun f => ((s4).view.loc (thrV d L) ↦{fullShare} f : sProp (MM F))) (upTo_zero (lz1 (Tb TAB d) (Ab1 IA d L) (Bb1 IB d L)) (lz1 (Tb TAB d) (Ab0 IA d L) (Bb0 IB d L))).symm)) $$ Hs4
  sl_for (inv d L (Tb TAB d) (Ab1 IA d L) (Bb1 IB d L) (lz0 (Tb TAB d) (Ab0 IA d L) (Bb0 IB d L)) (lz1 (Tb TAB d) (Ab0 IA d L) (Bb0 IB d L))) $$ [Hs0 Hs1 Hs2 Hs3 Hs4]
  case region =>
    intro k u
    exact region2 d L _ _ _ _ _ (Ab1_lt IA IB hok d L) (Bb1_lt IA IB hok d L) _ _ k u
  · unfold inv
    isplitl [Hs0]; · iexact Hs0
    isplitl [Hs1]; · iexact Hs1
    isplitl [Hs2]; · iexact Hs2
    isplitl [Hs3]; · iexact Hs3
    iexact Hs4
  iintro %_ HI
  unfold inv
  icases HI with ⟨Hs0, Hs1, Hs2, Hs3, Hs4⟩
  ihave Hs3 := (Entails.of_eq (congrArg (fun f => ((s3).view.loc (thrV d L) ↦{fullShare} f : sProp (MM F))) (upTo_trips (lz0 (Tb TAB d) (Ab1 IA d L) (Bb1 IB d L)) (lz0 (Tb TAB d) (Ab0 IA d L) (Bb0 IB d L)) _ (by decide)))) $$ Hs3
  ihave Hs4 := (Entails.of_eq (congrArg (fun f => ((s4).view.loc (thrV d L) ↦{fullShare} f : sProp (MM F))) (upTo_trips (lz1 (Tb TAB d) (Ab1 IA d L) (Bb1 IB d L)) (lz1 (Tb TAB d) (Ab0 IA d L) (Bb0 IB d L)) _ (by decide)))) $$ Hs4
  -- block 2
  sl_exec
  sl_unfold_run_names
  try sl_rw [Prog.bind_assoc]
  ihave Hs1 := (Entails.of_eq (lands1 (F := F) d L _ _)) $$ Hs1
  ihave Hs2 := (Entails.of_eq (lands2 (F := F) d L _ _)) $$ Hs2
  ihave Hs3 := (Entails.of_eq (congrArg (fun f => ((s3).view.loc (thrV d L) ↦{fullShare} f : sProp (MM F))) (upTo_zero (lz0 (Tb TAB d) (Ab2 IA d L) (Bb2 IB d L)) (lz0 (Tb TAB d) (Ab1 IA d L) (Bb1 IB d L))).symm)) $$ Hs3
  ihave Hs4 := (Entails.of_eq (congrArg (fun f => ((s4).view.loc (thrV d L) ↦{fullShare} f : sProp (MM F))) (upTo_zero (lz1 (Tb TAB d) (Ab2 IA d L) (Bb2 IB d L)) (lz1 (Tb TAB d) (Ab1 IA d L) (Bb1 IB d L))).symm)) $$ Hs4
  sl_for (inv d L (Tb TAB d) (Ab2 IA d L) (Bb2 IB d L) (lz0 (Tb TAB d) (Ab1 IA d L) (Bb1 IB d L)) (lz1 (Tb TAB d) (Ab1 IA d L) (Bb1 IB d L))) $$ [Hs0 Hs1 Hs2 Hs3 Hs4]
  case region =>
    intro k u
    exact region3 d L _ _ _ _ _ (Ab2_lt IA IB hok d L) (Bb2_lt IA IB hok d L) _ _ k u
  · unfold inv
    isplitl [Hs0]; · iexact Hs0
    isplitl [Hs1]; · iexact Hs1
    isplitl [Hs2]; · iexact Hs2
    isplitl [Hs3]; · iexact Hs3
    iexact Hs4
  iintro %_ HI
  unfold inv
  icases HI with ⟨Hs0, Hs1, Hs2, Hs3, Hs4⟩
  ihave Hs3 := (Entails.of_eq (congrArg (fun f => ((s3).view.loc (thrV d L) ↦{fullShare} f : sProp (MM F))) (upTo_trips (lz0 (Tb TAB d) (Ab2 IA d L) (Bb2 IB d L)) (lz0 (Tb TAB d) (Ab1 IA d L) (Bb1 IB d L)) _ (by decide)))) $$ Hs3
  ihave Hs4 := (Entails.of_eq (congrArg (fun f => ((s4).view.loc (thrV d L) ↦{fullShare} f : sProp (MM F))) (upTo_trips (lz1 (Tb TAB d) (Ab2 IA d L) (Bb2 IB d L)) (lz1 (Tb TAB d) (Ab1 IA d L) (Bb1 IB d L)) _ (by decide)))) $$ Hs4
  -- block 3
  sl_exec
  sl_unfold_run_names
  try sl_rw [Prog.bind_assoc]
  ihave Hs1 := (Entails.of_eq (lands1 (F := F) d L _ _)) $$ Hs1
  ihave Hs2 := (Entails.of_eq (lands2 (F := F) d L _ _)) $$ Hs2
  ihave Hs3 := (Entails.of_eq (congrArg (fun f => ((s3).view.loc (thrV d L) ↦{fullShare} f : sProp (MM F))) (upTo_zero (lz0 (Tb TAB d) (Ab3 IA d L) (Bb3 IB d L)) (lz0 (Tb TAB d) (Ab2 IA d L) (Bb2 IB d L))).symm)) $$ Hs3
  ihave Hs4 := (Entails.of_eq (congrArg (fun f => ((s4).view.loc (thrV d L) ↦{fullShare} f : sProp (MM F))) (upTo_zero (lz1 (Tb TAB d) (Ab3 IA d L) (Bb3 IB d L)) (lz1 (Tb TAB d) (Ab2 IA d L) (Bb2 IB d L))).symm)) $$ Hs4
  sl_for (inv d L (Tb TAB d) (Ab3 IA d L) (Bb3 IB d L) (lz0 (Tb TAB d) (Ab2 IA d L) (Bb2 IB d L)) (lz1 (Tb TAB d) (Ab2 IA d L) (Bb2 IB d L))) $$ [Hs0 Hs1 Hs2 Hs3 Hs4]
  case region =>
    intro k u
    exact region4 d L _ _ _ _ _ (Ab3_lt IA IB hok d L) (Bb3_lt IA IB hok d L) _ k u
  · unfold inv
    isplitl [Hs0]; · iexact Hs0
    isplitl [Hs1]; · iexact Hs1
    isplitl [Hs2]; · iexact Hs2
    isplitl [Hs3]; · iexact Hs3
    iexact Hs4
  iintro %_ HI
  unfold inv
  icases HI with ⟨Hs0, Hs1, Hs2, Hs3, Hs4⟩
  ihave Hs3 := (Entails.of_eq (congrArg (fun f => ((s3).view.loc (thrV d L) ↦{fullShare} f : sProp (MM F))) (upTo_trips (lz0 (Tb TAB d) (Ab3 IA d L) (Bb3 IB d L)) (lz0 (Tb TAB d) (Ab2 IA d L) (Bb2 IB d L)) _ (by decide)))) $$ Hs3
  ihave Hs4 := (Entails.of_eq (congrArg (fun f => ((s4).view.loc (thrV d L) ↦{fullShare} f : sProp (MM F))) (upTo_trips (lz1 (Tb TAB d) (Ab3 IA d L) (Bb3 IB d L)) (lz1 (Tb TAB d) (Ab2 IA d L) (Bb2 IB d L)) _ (by decide)))) $$ Hs4
  -- block 4
  sl_exec
  sl_unfold_run_names
  try sl_rw [Prog.bind_assoc]
  ihave Hs1 := (Entails.of_eq (lands1 (F := F) d L _ _)) $$ Hs1
  ihave Hs2 := (Entails.of_eq (lands2 (F := F) d L _ _)) $$ Hs2
  ihave Hs3 := (Entails.of_eq (congrArg (fun f => ((s3).view.loc (thrV d L) ↦{fullShare} f : sProp (MM F))) (upTo_zero (lz0 (Tb TAB d) (Ab4 IA d L) (Bb4 IB d L)) (lz0 (Tb TAB d) (Ab3 IA d L) (Bb3 IB d L))).symm)) $$ Hs3
  ihave Hs4 := (Entails.of_eq (congrArg (fun f => ((s4).view.loc (thrV d L) ↦{fullShare} f : sProp (MM F))) (upTo_zero (lz1 (Tb TAB d) (Ab4 IA d L) (Bb4 IB d L)) (lz1 (Tb TAB d) (Ab3 IA d L) (Bb3 IB d L))).symm)) $$ Hs4
  sl_for (inv d L (Tb TAB d) (Ab4 IA d L) (Bb4 IB d L) (lz0 (Tb TAB d) (Ab3 IA d L) (Bb3 IB d L)) (lz1 (Tb TAB d) (Ab3 IA d L) (Bb3 IB d L))) $$ [Hs0 Hs1 Hs2 Hs3 Hs4]
  case region =>
    intro k u
    exact region5 d L _ _ _ _ _ (Ab4_lt IA IB hok d L) (Bb4_lt IA IB hok d L) _ k u
  · unfold inv
    isplitl [Hs0]; · iexact Hs0
    isplitl [Hs1]; · iexact Hs1
    isplitl [Hs2]; · iexact Hs2
    isplitl [Hs3]; · iexact Hs3
    iexact Hs4
  iintro %_ HI
  unfold inv
  icases HI with ⟨Hs0, Hs1, Hs2, Hs3, Hs4⟩
  ihave Hs3 := (Entails.of_eq (congrArg (fun f => ((s3).view.loc (thrV d L) ↦{fullShare} f : sProp (MM F))) (upTo_trips (lz0 (Tb TAB d) (Ab4 IA d L) (Bb4 IB d L)) (lz0 (Tb TAB d) (Ab3 IA d L) (Bb3 IB d L)) _ (by decide)))) $$ Hs3
  ihave Hs4 := (Entails.of_eq (congrArg (fun f => ((s4).view.loc (thrV d L) ↦{fullShare} f : sProp (MM F))) (upTo_trips (lz1 (Tb TAB d) (Ab4 IA d L) (Bb4 IB d L)) (lz1 (Tb TAB d) (Ab3 IA d L) (Bb3 IB d L)) _ (by decide)))) $$ Hs4
  sl_exec
  sl_unfold_run_names
  sl_step
  isplitl [Ht Ha Hb Hy0 Hz0 Hy1 Hz1 Hy2 Hz2 Hy3 Hz3 Hy4 Hz4]
  · isplitl [Ht Ha Hb]
    · isplitl [Ht]; · iapply (Entails.of_eq (pts_t (F := F) d L _ _)); iexact Ht
      isplitl [Ha]; · iapply (Entails.of_eq (pts_a (F := F) d L _ _)); iexact Ha
      iapply (Entails.of_eq (pts_b (F := F) d L _ _)); iexact Hb
    · isplitl [Hy0 Hy1 Hy2 Hy3 Hy4]
      · iapply (Entails.of_eq (bigSep_fin5 (F := F) (fun r => (yLoc d ↦[chunk (cL L) (sL L) r]{fullShare} Z0 TAB IA IB d : sProp (MM F)))).symm)
        isplitl [Hy0]; · iapply (Entails.of_eq (out_y0 TAB IA IB d L _)); iexact Hy0
        isplitl [Hy1]; · iapply (Entails.of_eq (out_y1 TAB IA IB d L _)); iexact Hy1
        isplitl [Hy2]; · iapply (Entails.of_eq (out_y2 TAB IA IB d L _)); iexact Hy2
        isplitl [Hy3]; · iapply (Entails.of_eq (out_y3 TAB IA IB d L _)); iexact Hy3
        iapply (Entails.of_eq (out_y4 TAB IA IB d L _)); iexact Hy4
      · iapply (Entails.of_eq (bigSep_fin5 (F := F) (fun r => (zLoc d ↦[chunk (cL L) (sL L) r]{fullShare} Z1 TAB IA IB d : sProp (MM F)))).symm)
        isplitl [Hz0]; · iapply (Entails.of_eq (out_z0 TAB IA IB d L _)); iexact Hz0
        isplitl [Hz1]; · iapply (Entails.of_eq (out_z1 TAB IA IB d L _)); iexact Hz1
        isplitl [Hz2]; · iapply (Entails.of_eq (out_z2 TAB IA IB d L _)); iexact Hz2
        isplitl [Hz3]; · iapply (Entails.of_eq (out_z3 TAB IA IB d L _)); iexact Hz3
        iapply (Entails.of_eq (out_z4 TAB IA IB d L _)); iexact Hz4
  isplitl [Hs0 Hs1 Hs2 Hs3 Hs4 Hbufs]
  · isplitl [Hs0]; · iexists _; iapply (Entails.of_eq (pts_s0 (F := F) d L _)); iexact Hs0
    isplitl [Hs1]; · iexists _; iapply (Entails.of_eq (pts_s1 (F := F) d L _)); iexact Hs1
    isplitl [Hs2]; · iexists _; iapply (Entails.of_eq (pts_s2 (F := F) d L _)); iexact Hs2
    isplitl [Hs3]; · iexists _; iapply (Entails.of_eq (pts_s3 (F := F) d L _)); iexact Hs3
    isplitl [Hs4]; · iexists _; iapply (Entails.of_eq (pts_s4 (F := F) d L _)); iexact Hs4
    iexact Hbufs
  isplitl [Hc0 Hc1 Hc2 Hc3 Hc4 Hc5 Hc6 Hc7 Hc8 Hc9 Hc10 Hc11 Hc12 Hc13 Hc14 Hc15 Hc16 Hc17 Hc18 Hc19 Hc20 Hsems]
  · isplitl [Hc0]; · iexact Hc0
    isplitl [Hc1]; · iexact Hc1
    isplitl [Hc2]; · iexact Hc2
    isplitl [Hc3]; · iexact Hc3
    isplitl [Hc4]; · iexact Hc4
    isplitl [Hc5]; · iexact Hc5
    isplitl [Hc6]; · iexact Hc6
    isplitl [Hc7]; · iexact Hc7
    isplitl [Hc8]; · iexact Hc8
    isplitl [Hc9]; · iexact Hc9
    isplitl [Hc10]; · iexact Hc10
    isplitl [Hc11]; · iexact Hc11
    isplitl [Hc12]; · iexact Hc12
    isplitl [Hc13]; · iexact Hc13
    isplitl [Hc14]; · iexact Hc14
    isplitl [Hc15]; · iexact Hc15
    isplitl [Hc16]; · iexact Hc16
    isplitl [Hc17]; · iexact Hc17
    isplitl [Hc18]; · iexact Hc18
    isplitl [Hc19]; · iexact Hc19
    isplitl [Hc20]; · iexact Hc20
    iexact Hsems
  iexists _; isplitr
  rotate_left
  · iexact HO
  · ipureintro; intro p hp
    simp only [Finset.mem_insert] at hp
    rcases hp with rfl | rfl | rfl | rfl | rfl | rfl | rfl | rfl | rfl | rfl | rfl | rfl | rfl | rfl | rfl | rfl | rfl | rfl | rfl | rfl | rfl | hp <;> first | exact .inr rfl | exact .inl hp

/-! ## The launch theorem's obligation -/

def coordsV (c : Fin (grid1.bound 0)) (s : Fin (grid1.bound 1)) : grid1.Coords :=
  fun | 0 => c | 1 => s | ⟨_ + 2, h⟩ => absurd h (Nat.not_lt.2 (Nat.le_add_left _ _))

theorem defs₀_vector (c : Fin τ.nSC) (s : Fin τ.nSub) :
    defs₀ (F := F) (.scVector c s) 1 ()
      = SparseCore.onTile hcore1 hsub1 (fun c s => cc1__pair_body (coordsV c s) (Memref.whole main_v9_scv) (Memref.isWhole_whole _) (Memref.whole main_v11_scv) (Memref.isWhole_whole _) (Memref.whole main_v13_scv) (Memref.isWhole_whole _) (Memref.whole main_v14_0_scv) (Memref.isWhole_whole _) (Memref.whole main_v14_1_scv) (Memref.isWhole_whole _) (Memref.whole cc1_scratch0) (Memref.isWhole_whole _) (Memref.whole cc1_scratch1) (Memref.isWhole_whole _) (Memref.whole cc1_scratch2) (Memref.isWhole_whole _) (Memref.whole cc1_scratch3) (Memref.isWhole_whole _) (Memref.whole cc1_scratch4) (Memref.isWhole_whole _) cc1_scoped0 cc1_scoped1 cc1_scoped2 cc1_scoped3 cc1_scoped4 cc1_scoped5 cc1_scoped6 cc1_scoped7 cc1_scoped8 cc1_scoped9 cc1_scoped10 cc1_scoped11 cc1_scoped12 cc1_scoped13 cc1_scoped14 cc1_scoped15 cc1_scoped16 cc1_scoped17 cc1_scoped18 cc1_scoped19 cc1_scoped20) ⟨⟩ c s := rfl

omit [FloatOps F] in
theorem obl_post {thr : Thread nD τ} {A B C : sProp (MM F)} {O : CellTallies nD τ sig (HIx 1)} {W : Waits sig (HIx 1)} {q : Fin 1} :
    iprop(A ∗ B ∗ C ∗ ∃ W', ⌜∀ p ∈ W', p ∈ W ∨ p.2 = none⌝ ∗ owes thr O W')
      ⊢ iprop(A ∗ B ∗ C ∗ ∃ W', ⌜∀ p ∈ W', p ∈ W ∨ p.2 = none ∨ p.2 = some q⌝ ∗ owes thr O W') := by
  iintro ⟨HA, HB, HC, %W', %hW', HO⟩
  isplitl [HA]; · iexact HA
  isplitl [HB]; · iexact HB
  isplitl [HC]; · iexact HC
  iexists W'; isplitr
  · ipureintro; exact fun p hp => (hW' p hp).imp_right Or.inl
  · iexact HO

/-- Every vector subcore's task: from its shares of the read arrays and its blocks of the result columns, the shares
    back and the blocks at the values. -/
theorem tileObl (hok : IdxOK IA IB) : (K (F := F)).TileObl (D (F := F)) 𝒱 (P TAB IA IB) v₀ 0 := by
  intro d c i O W hO _ _
  simp only [show (P TAB IA IB).ox = fun _ _ => 0 from rfl, add_zero]
  change _ ⊢ wp _ _ _ (Pipeline.liftProg (defs₀ (F := F) (.scVector ((K (F := F)).core 0 c) ((K (F := F)).sub 0 i)) 1 ())) _
  refine BI.Entails.trans ?_ (Pipeline.wp_liftProg (D (F := F)) (Pipeline.defs_kernel pcfgs defs₀) 𝒱₀ _ Set.univ none _ _)
  have hc : ((K (F := F)).core 0 c).val < grid1.bound 0 ∧ ((K (F := F)).sub 0 i).val < grid1.bound 1 := ⟨c.isLt, i.isLt⟩
  rw [defs₀_vector]; simp only [SparseCore.onTile, hc, and_self, ↓reduceDIte]
  exact (tile_body TAB IA IB hok d (coordsV ⟨_, hc.1⟩ ⟨_, hc.2⟩) O W hO).trans (wp_mono frame _ _ fun _ => obl_post)

end Body

end Cert.Kernel.Sc.Tile

end
-- ==== Proof.PayMlp.lean ====
/-
  The node-table body's stored value, read at an index on the extended reals.
  The body computes, for a block of 1000 nodes, two dense layers with a rectifier after each and a third product with a
  bias: three matrix products into zero accumulators, each bias a [1, n] row spread over the 1000 rows, each rectifier a
  maximum with zero. At row `r`, column `j` the stored value is the third layer's sum of products plus the bias row at
  `j`, the hidden layers being the specification's formulas with the bias rows read at (0, ·).
-/
import proofs.«208457_g31284541784245_cont_9to1_2229_14_alg».proof.Proof.Gen.KernelIdeal.Skeleton
import proofs.«208457_g31284541784245_cont_9to1_2229_14_alg».proof.Proof.Spec
import Idealize.ShloMosaic.PureOps.Ideal.Laws
import Idealize.ShloMosaic.Lib.ValueIdx
import Idealize.ShloMosaic.Lib.ValueLayout
import Idealize.ShloMosaic.Lib.Pipeline.Value

noncomputable section

namespace Cert.KernelIdeal.Sc.Pay

open Cert.KernelIdeal Cert.KernelIdeal.Gen
open Idealize.ShloMosaic Idealize.ShloMosaic.ValueIdx Idealize.SL.Sem
open scoped BigOperators

/-- The first hidden layer at row `r` of a block, unit `j`, the bias given as a [1, 64] row. -/
def hid1row (x0 : FVec Ideal S1000x768 .f32) (x1 : FVec Ideal S768x64 .f32) (x2 : FVec Ideal S1x64 .f32)
    (r : Fin 1000) (j : Fin 64) : EReal :=
  max ((∑ k : Fin 768, x0 (ix2 r k) * x1 (ix2 k j)) + x2 (ix2 (0 : Fin 1) j)) 0

/-- The second hidden layer at row `r` of a block, unit `j`. -/
def hid2row (x0 : FVec Ideal S1000x768 .f32) (x1 : FVec Ideal S768x64 .f32) (x2 : FVec Ideal S1x64 .f32)
    (x3 : FVec Ideal S64x64 .f32) (x4 : FVec Ideal S1x64 .f32) (r : Fin 1000) (j : Fin 64) : EReal :=
  max ((∑ k : Fin 64, hid1row x0 x1 x2 r k * x3 (ix2 k j)) + x4 (ix2 (0 : Fin 1) j)) 0

/-- The product of a [1000, 768] by a [768, 64] block into a zero accumulator, at row `r`, column `j`: the sum over the
    contracted coordinate of the products. -/
theorem mm1_apply (a : FVec Ideal S1000x768 .f32) (b : FVec Ideal S768x64 .f32) (r : Fin 1000) (j : Fin 64) :
    matmul dot_S1000x768_S768x64_S1000x64_1_0_0_1_n_n none a b (constant (F := Ideal) S1000x64 .f32 0x00000000#32) (ix2 r j)
      = ∑ k : Fin 768, a (ix2 r k) * b (ix2 k j) := by
  simp only [matmul]
  rw [Ideal.matmul_constant_zero_apply, ← Equiv.sum_comp (contrEquiv1 dot_S1000x768_S768x64_S1000x64_1_0_0_1_n_n 768 rfl rfl).symm]
  refine Finset.sum_congr rfl fun k _ => ?_
  have hk := contrEquiv1_symm_val dot_S1000x768_S768x64_S1000x64_1_0_0_1_n_n 768 rfl rfl k
  have el : dot_S1000x768_S768x64_S1000x64_1_0_0_1_n_n.lhsIdx (ix2 r j) ((contrEquiv1 dot_S1000x768_S768x64_S1000x64_1_0_0_1_n_n 768 rfl rfl).symm k) = ix2 r k :=
    funext fun ax => Fin.ext (by
      match ax with
      | ⟨0, _⟩ =>
        show (dot_S1000x768_S768x64_S1000x64_1_0_0_1_n_n.lhsIdx (ix2 r j) ((contrEquiv1 dot_S1000x768_S768x64_S1000x64_1_0_0_1_n_n 768 rfl rfl).symm k) (0 : Fin S1000x768.rank)).val = r.val
        unfold DotDims.lhsIdx
        rw [dif_neg (show ¬(0 : Fin S1000x768.rank) ∈ dot_S1000x768_S768x64_S1000x64_1_0_0_1_n_n.lhsBatch by decide),
          dif_pos (show (0 : Fin S1000x768.rank) ∈ dot_S1000x768_S768x64_S1000x64_1_0_0_1_n_n.lhsNonContracting by decide)]
        rfl
      | ⟨1, _⟩ => exact (dot_S1000x768_S768x64_S1000x64_1_0_0_1_n_n.lhsIdx_val_of_single rfl _ _).trans hk)
  have er : dot_S1000x768_S768x64_S1000x64_1_0_0_1_n_n.rhsIdx (ix2 r j) ((contrEquiv1 dot_S1000x768_S768x64_S1000x64_1_0_0_1_n_n 768 rfl rfl).symm k) = ix2 k j :=
    funext fun ax => Fin.ext (by
      match ax with
      | ⟨0, _⟩ => exact (dot_S1000x768_S768x64_S1000x64_1_0_0_1_n_n.rhsIdx_val_of_single rfl _ _).trans hk
      | ⟨1, _⟩ =>
        show (dot_S1000x768_S768x64_S1000x64_1_0_0_1_n_n.rhsIdx (ix2 r j) ((contrEquiv1 dot_S1000x768_S768x64_S1000x64_1_0_0_1_n_n 768 rfl rfl).symm k) (1 : Fin S768x64.rank)).val = j.val
        unfold DotDims.rhsIdx
        rw [dif_neg (show ¬(1 : Fin S768x64.rank) ∈ dot_S1000x768_S768x64_S1000x64_1_0_0_1_n_n.rhsBatch by decide),
          dif_pos (show (1 : Fin S768x64.rank) ∈ dot_S1000x768_S768x64_S1000x64_1_0_0_1_n_n.rhsNonContracting by decide)]
        rfl)
  rw [el, er]

/-- The product of a [1000, 64] by a [64, 64] block into a zero accumulator, at row `r`, column `j`: the sum over the
    contracted coordinate of the products. -/
theorem mm2_apply (a : FVec Ideal S1000x64 .f32) (b : FVec Ideal S64x64 .f32) (r : Fin 1000) (j : Fin 64) :
    matmul dot_S1000x64_S64x64_S1000x64_1_0_0_1_n_n none a b (constant (F := Ideal) S1000x64 .f32 0x00000000#32) (ix2 r j)
      = ∑ k : Fin 64, a (ix2 r k) * b (ix2 k j) := by
  simp only [matmul]
  rw [Ideal.matmul_constant_zero_apply, ← Equiv.sum_comp (contrEquiv1 dot_S1000x64_S64x64_S1000x64_1_0_0_1_n_n 64 rfl rfl).symm]
  refine Finset.sum_congr rfl fun k _ => ?_
  have hk := contrEquiv1_symm_val dot_S1000x64_S64x64_S1000x64_1_0_0_1_n_n 64 rfl rfl k
  have el : dot_S1000x64_S64x64_S1000x64_1_0_0_1_n_n.lhsIdx (ix2 r j) ((contrEquiv1 dot_S1000x64_S64x64_S1000x64_1_0_0_1_n_n 64 rfl rfl).symm k) = ix2 r k :=
    funext fun ax => Fin.ext (by
      match ax with
      | ⟨0, _⟩ =>
        show (dot_S1000x64_S64x64_S1000x64_1_0_0_1_n_n.lhsIdx (ix2 r j) ((contrEquiv1 dot_S1000x64_S64x64_S1000x64_1_0_0_1_n_n 64 rfl rfl).symm k) (0 : Fin S1000x64.rank)).val = r.val
        unfold DotDims.lhsIdx
        rw [dif_neg (show ¬(0 : Fin S1000x64.rank) ∈ dot_S1000x64_S64x64_S1000x64_1_0_0_1_n_n.lhsBatch by decide),
          dif_pos (show (0 : Fin S1000x64.rank) ∈ dot_S1000x64_S64x64_S1000x64_1_0_0_1_n_n.lhsNonContracting by decide)]
        rfl
      | ⟨1, _⟩ => exact (dot_S1000x64_S64x64_S1000x64_1_0_0_1_n_n.lhsIdx_val_of_single rfl _ _).trans hk)
  have er : dot_S1000x64_S64x64_S1000x64_1_0_0_1_n_n.rhsIdx (ix2 r j) ((contrEquiv1 dot_S1000x64_S64x64_S1000x64_1_0_0_1_n_n 64 rfl rfl).symm k) = ix2 k j :=
    funext fun ax => Fin.ext (by
      match ax with
      | ⟨0, _⟩ => exact (dot_S1000x64_S64x64_S1000x64_1_0_0_1_n_n.rhsIdx_val_of_single rfl _ _).trans hk
      | ⟨1, _⟩ =>
        show (dot_S1000x64_S64x64_S1000x64_1_0_0_1_n_n.rhsIdx (ix2 r j) ((contrEquiv1 dot_S1000x64_S64x64_S1000x64_1_0_0_1_n_n 64 rfl rfl).symm k) (1 : Fin S64x64.rank)).val = j.val
        unfold DotDims.rhsIdx
        rw [dif_neg (show ¬(1 : Fin S64x64.rank) ∈ dot_S1000x64_S64x64_S1000x64_1_0_0_1_n_n.rhsBatch by decide),
          dif_pos (show (1 : Fin S64x64.rank) ∈ dot_S1000x64_S64x64_S1000x64_1_0_0_1_n_n.rhsNonContracting by decide)]
        rfl)
  rw [el, er]

/-- The product of a [1000, 64] by a [64, 4] block into a zero accumulator, at row `r`, column `j`: the sum over the
    contracted coordinate of the products. -/
theorem mm3_apply (a : FVec Ideal S1000x64 .f32) (b : FVec Ideal S64x4 .f32) (r : Fin 1000) (j : Fin 4) :
    matmul dot_S1000x64_S64x4_S1000x4_1_0_0_1_n_n none a b (constant (F := Ideal) S1000x4 .f32 0x00000000#32) (ix2 r j)
      = ∑ k : Fin 64, a (ix2 r k) * b (ix2 k j) := by
  simp only [matmul]
  rw [Ideal.matmul_constant_zero_apply, ← Equiv.sum_comp (contrEquiv1 dot_S1000x64_S64x4_S1000x4_1_0_0_1_n_n 64 rfl rfl).symm]
  refine Finset.sum_congr rfl fun k _ => ?_
  have hk := contrEquiv1_symm_val dot_S1000x64_S64x4_S1000x4_1_0_0_1_n_n 64 rfl rfl k
  have el : dot_S1000x64_S64x4_S1000x4_1_0_0_1_n_n.lhsIdx (ix2 r j) ((contrEquiv1 dot_S1000x64_S64x4_S1000x4_1_0_0_1_n_n 64 rfl rfl).symm k) = ix2 r k :=
    funext fun ax => Fin.ext (by
      match ax with
      | ⟨0, _⟩ =>
        show (dot_S1000x64_S64x4_S1000x4_1_0_0_1_n_n.lhsIdx (ix2 r j) ((contrEquiv1 dot_S1000x64_S64x4_S1000x4_1_0_0_1_n_n 64 rfl rfl).symm k) (0 : Fin S1000x64.rank)).val = r.val
        unfold DotDims.lhsIdx
        rw [dif_neg (show ¬(0 : Fin S1000x64.rank) ∈ dot_S1000x64_S64x4_S1000x4_1_0_0_1_n_n.lhsBatch by decide),
          dif_pos (show (0 : Fin S1000x64.rank) ∈ dot_S1000x64_S64x4_S1000x4_1_0_0_1_n_n.lhsNonContracting by decide)]
        rfl
      | ⟨1, _⟩ => exact (dot_S1000x64_S64x4_S1000x4_1_0_0_1_n_n.lhsIdx_val_of_single rfl _ _).trans hk)
  have er : dot_S1000x64_S64x4_S1000x4_1_0_0_1_n_n.rhsIdx (ix2 r j) ((contrEquiv1 dot_S1000x64_S64x4_S1000x4_1_0_0_1_n_n 64 rfl rfl).symm k) = ix2 k j :=
    funext fun ax => Fin.ext (by
      match ax with
      | ⟨0, _⟩ => exact (dot_S1000x64_S64x4_S1000x4_1_0_0_1_n_n.rhsIdx_val_of_single rfl _ _).trans hk
      | ⟨1, _⟩ =>
        show (dot_S1000x64_S64x4_S1000x4_1_0_0_1_n_n.rhsIdx (ix2 r j) ((contrEquiv1 dot_S1000x64_S64x4_S1000x4_1_0_0_1_n_n 64 rfl rfl).symm k) (1 : Fin S64x4.rank)).val = j.val
        unfold DotDims.rhsIdx
        rw [dif_neg (show ¬(1 : Fin S64x4.rank) ∈ dot_S1000x64_S64x4_S1000x4_1_0_0_1_n_n.rhsBatch by decide),
          dif_pos (show (1 : Fin S64x4.rank) ∈ dot_S1000x64_S64x4_S1000x4_1_0_0_1_n_n.rhsNonContracting by decide)]
        rfl)
  rw [el, er]

/-- A [1, 64] bias row spread over the 1000 rows, at row `r`, column `j`. -/
theorem biasrow64_apply (v : FVec Ideal S1x64 .f32) (r : Fin 1000) (j : Fin 64) :
    broadcastTo S1000x64 v broadcasts_S1x64_S1000x64 (ix2 r j) = v (ix2 (0 : Fin 1) j) :=
  broadcastTo_1b_ab_apply v broadcasts_S1x64_S1000x64 r j

/-- A [1, 4] bias row spread over the 1000 rows, at row `r`, column `j`. -/
theorem biasrow4_apply (v : FVec Ideal S1x4 .f32) (r : Fin 1000) (j : Fin 4) :
    broadcastTo S1000x4 v broadcasts_S1x4_S1000x4 (ix2 r j) = v (ix2 (0 : Fin 1) j) :=
  broadcastTo_1b_ab_apply v broadcasts_S1x4_S1000x4 r j

/-- The zero word spread over a block is the extended real 0. -/
theorem zero_splat_apply (i : S1000x64.Idx) :
    broadcast S1000x64 (Scalar.ofBits (F := Ideal) .f32 0x00000000#32) i = (0 : EReal) :=
  Ideal.ofBits_zero_f32

/-- The stored value at row `r`, column `j`. -/
theorem mlp_pay (x0 : FVec Ideal S1000x768 .f32) (x1 : FVec Ideal S768x64 .f32) (x2 : FVec Ideal S1x64 .f32)
    (x3 : FVec Ideal S64x64 .f32) (x4 : FVec Ideal S1x64 .f32) (x5 : FVec Ideal S64x4 .f32) (x6 : FVec Ideal S1x4 .f32)
    (r : Fin 1000) (j : Fin 4) :
    k0_pay1 (F := Ideal) x0 x1 x2 x3 x4 x5 x6 (ix2 r j)
      = (∑ k : Fin 64, hid2row x0 x1 x2 x3 x4 r k * x5 (ix2 k j)) + x6 (ix2 (0 : Fin 1) j) := by
  unfold k0_pay1
  simp only [addf_apply, maximumf_apply, mm3_apply, mm2_apply, mm1_apply, biasrow64_apply, biasrow4_apply,
    zero_splat_apply, shapeCast_self]
  rfl

end Cert.KernelIdeal.Sc.Pay

end
-- ==== Proof.PayMlpSpec.lean ====
/-
  The node-table body's stored value in the specification's own terms. When the block's loads are the arrays' entries —
  row `r` of the feature block is node `n`'s features, the weight blocks are the weight arrays, each bias row is the bias
  vector, the [64, 4] classifier block has the classifier's upper half in columns 0, 1 and its lower half in columns 2, 3,
  and the [1, 4] bias row has the bias in columns 0, 1 and zeros in columns 2, 3 — the stored value at row `r` is, in
  column `l`, node `n`'s contribution as a left endpoint to label `l` plus the bias, and in column `2 + l` its
  contribution as a right endpoint plus zero.
-/
import proofs.«208457_g31284541784245_cont_9to1_2229_14_alg».proof.Proof.PayMlp

noncomputable section

namespace Cert.KernelIdeal.Sc.Pay

open Cert.KernelIdeal Cert.KernelIdeal.Gen
open Idealize.ShloMosaic Idealize.ShloMosaic.ValueIdx Idealize.SL.Sem
open Cert.Spec
open scoped BigOperators

variable (x : (Sh2 10000 768).Idx → EReal) (W1 : (Sh2 768 64).Idx → EReal) (b1 : (Sh1 64).Idx → EReal)
  (W2 : (Sh2 64 64).Idx → EReal) (b2 : (Sh1 64).Idx → EReal) (Wc : (Sh2 128 2).Idx → EReal) (bc : (Sh1 2).Idx → EReal)
  (x0 : FVec Ideal S1000x768 .f32) (x1 : FVec Ideal S768x64 .f32) (x2 : FVec Ideal S1x64 .f32)
  (x3 : FVec Ideal S64x64 .f32) (x4 : FVec Ideal S1x64 .f32) (x5 : FVec Ideal S64x4 .f32) (x6 : FVec Ideal S1x4 .f32)
  (n : Fin 10000) (r : Fin 1000)

/-- The block's first hidden layer at row `r` is the specification's at node `n`. -/
theorem hid1row_eq_spec (hx0 : ∀ k : Fin 768, x0 (ix2 r k) = x (ix2 n k))
    (hx1 : ∀ (k : Fin 768) (j : Fin 64), x1 (ix2 k j) = W1 (ix2 k j))
    (hx2 : ∀ j : Fin 64, x2 (ix2 (0 : Fin 1) j) = b1 (ix1 j)) (j : Fin 64) :
    hid1row x0 x1 x2 r j = Spec.hid1 x W1 b1 n j := by
  unfold hid1row Spec.hid1
  simp only [hx0, hx1, hx2]

/-- The block's second hidden layer at row `r` is the specification's at node `n`. -/
theorem hid2row_eq_spec (hx0 : ∀ k : Fin 768, x0 (ix2 r k) = x (ix2 n k))
    (hx1 : ∀ (k : Fin 768) (j : Fin 64), x1 (ix2 k j) = W1 (ix2 k j))
    (hx2 : ∀ j : Fin 64, x2 (ix2 (0 : Fin 1) j) = b1 (ix1 j))
    (hx3 : ∀ (k : Fin 64) (j : Fin 64), x3 (ix2 k j) = W2 (ix2 k j))
    (hx4 : ∀ j : Fin 64, x4 (ix2 (0 : Fin 1) j) = b2 (ix1 j)) (j : Fin 64) :
    hid2row x0 x1 x2 x3 x4 r j = Spec.hid2 x W1 b1 W2 b2 n j := by
  unfold hid2row Spec.hid2
  simp only [hid1row_eq_spec x W1 b1 x0 x1 x2 n r hx0 hx1 hx2, hx3, hx4]

/-- Column `l` of the stored value: the left contribution to label `l`, plus the bias. -/
theorem mlp_pay_left (hx0 : ∀ k : Fin 768, x0 (ix2 r k) = x (ix2 n k))
    (hx1 : ∀ (k : Fin 768) (j : Fin 64), x1 (ix2 k j) = W1 (ix2 k j))
    (hx2 : ∀ j : Fin 64, x2 (ix2 (0 : Fin 1) j) = b1 (ix1 j))
    (hx3 : ∀ (k : Fin 64) (j : Fin 64), x3 (ix2 k j) = W2 (ix2 k j))
    (hx4 : ∀ j : Fin 64, x4 (ix2 (0 : Fin 1) j) = b2 (ix1 j))
    (hx5 : ∀ (k : Fin 64) (l : Fin 2), x5 (ix2 k (⟨l.val, by omega⟩ : Fin 4)) = Wc (ix2 (top k) l))
    (hx6 : ∀ l : Fin 2, x6 (ix2 (0 : Fin 1) (⟨l.val, by omega⟩ : Fin 4)) = bc (ix1 l)) (l : Fin 2) :
    k0_pay1 (F := Ideal) x0 x1 x2 x3 x4 x5 x6 (ix2 r (⟨l.val, by omega⟩ : Fin 4))
      = Spec.leftPart x W1 b1 W2 b2 Wc n l + bc (ix1 l) := by
  rw [mlp_pay]
  unfold Spec.leftPart
  simp only [hid2row_eq_spec x W1 b1 W2 b2 x0 x1 x2 x3 x4 n r hx0 hx1 hx2 hx3 hx4, hx5, hx6]

/-- Column `2 + l` of the stored value: the right contribution to label `l`, plus zero. -/
theorem mlp_pay_right (hx0 : ∀ k : Fin 768, x0 (ix2 r k) = x (ix2 n k))
    (hx1 : ∀ (k : Fin 768) (j : Fin 64), x1 (ix2 k j) = W1 (ix2 k j))
    (hx2 : ∀ j : Fin 64, x2 (ix2 (0 : Fin 1) j) = b1 (ix1 j))
    (hx3 : ∀ (k : Fin 64) (j : Fin 64), x3 (ix2 k j) = W2 (ix2 k j))
    (hx4 : ∀ j : Fin 64, x4 (ix2 (0 : Fin 1) j) = b2 (ix1 j))
    (hx5 : ∀ (k : Fin 64) (l : Fin 2), x5 (ix2 k (⟨2 + l.val, by omega⟩ : Fin 4)) = Wc (ix2 (bot k) l))
    (hx6 : ∀ l : Fin 2, x6 (ix2 (0 : Fin 1) (⟨2 + l.val, by omega⟩ : Fin 4))
      = (FloatOps.ofBits .f32 0x00000000#32 : Ideal .f32)) (l : Fin 2) :
    k0_pay1 (F := Ideal) x0 x1 x2 x3 x4 x5 x6 (ix2 r (⟨2 + l.val, by omega⟩ : Fin 4))
      = Spec.rightPart x W1 b1 W2 b2 Wc n l + 0 := by
  rw [mlp_pay]
  unfold Spec.rightPart
  simp only [hid2row_eq_spec x W1 b1 W2 b2 x0 x1 x2 x3 x4 n r hx0 hx1 hx2 hx3 hx4, hx5, hx6]
  show _ + Ideal.ofBits .f32 0x00000000#32 = _
  rw [Ideal.ofBits_zero_f32]

end Cert.KernelIdeal.Sc.Pay

end
-- ==== Proof.AlgSums.lean ====
/-
  Sums regrouped. The loss kernel visits the 640000 pairs as 5 blocks of 1000 rows of 128 lanes, pair
  `(i * 1000 + r) * 128 + c` at block `i`, row `r`, lane `c`, and adds the five block sums one after another to a zero;
  the specification sums over the pairs. The map (block, row, lane) ↦ pair is a bijection, so in a commutative monoid the
  two sums agree; no finiteness is needed. A block's sum may also be presented as a sum over the index set of the
  shape [1000, 128] or [1, 1000, 128].
-/
import Idealize.ShloMosaic.PureOps.Ideal
import Idealize.ShloMosaic.Lib.ValueIdx

namespace Cert.Alg

open scoped BigOperators
open Idealize.ShloMosaic Idealize.ShloMosaic.ValueIdx

/-- Block `i`, row `r`, lane `c` name a pair below 640000. -/
theorem pair_lt (i : Fin 5) (r : Fin 1000) (c : Fin 128) : (i.val * 1000 + r.val) * 128 + c.val < 640000 := by
  have := i.isLt; have := r.isLt; have := c.isLt; omega

/-- The pair at block `i`, row `r`, lane `c`. -/
def pairIx (i : Fin 5) (r : Fin 1000) (c : Fin 128) : Fin 640000 :=
  ⟨(i.val * 1000 + r.val) * 128 + c.val, pair_lt i r c⟩

theorem pairIx_val (i : Fin 5) (r : Fin 1000) (c : Fin 128) :
    (pairIx i r c).val = (i.val * 1000 + r.val) * 128 + c.val := rfl

/-- (block, row, lane) ↦ pair is a bijection: the inverse reads the three coordinates off by division. -/
def pairEquiv : Fin 5 × Fin 1000 × Fin 128 ≃ Fin 640000 where
  toFun t := pairIx t.1 t.2.1 t.2.2
  invFun p := (⟨p.val / 128000, by have := p.isLt; omega⟩, ⟨p.val / 128 % 1000, by have := p.isLt; omega⟩,
    ⟨p.val % 128, by omega⟩)
  left_inv := by
    rintro ⟨i, r, c⟩
    have hi := i.isLt; have hr := r.isLt; have hc := c.isLt
    refine Prod.ext (Fin.ext ?_) (Prod.ext (Fin.ext ?_) (Fin.ext ?_))
    · show ((i.val * 1000 + r.val) * 128 + c.val) / 128000 = i.val; omega
    · show ((i.val * 1000 + r.val) * 128 + c.val) / 128 % 1000 = r.val; omega
    · show ((i.val * 1000 + r.val) * 128 + c.val) % 128 = c.val; omega
  right_inv := by
    intro p
    have hp := p.isLt
    refine Fin.ext ?_
    show (p.val / 128000 * 1000 + p.val / 128 % 1000) * 128 + p.val % 128 = p.val
    omega

/-- The sum over the pairs is the triple sum over blocks, rows and lanes. -/
theorem sum_pairs {M : Type*} [AddCommMonoid M] (f : Fin 640000 → M) :
    ∑ p : Fin 640000, f p = ∑ i : Fin 5, ∑ r : Fin 1000, ∑ c : Fin 128, f (pairIx i r c) := by
  rw [← Equiv.sum_comp pairEquiv f, Fintype.sum_prod_type]
  refine Finset.sum_congr rfl fun i _ => ?_
  rw [Fintype.sum_prod_type]
  rfl

/-- Five block sums added one after another to a zero make the sum over the pairs. -/
theorem regroup5 {M : Type*} [AddCommMonoid M] (f : Fin 640000 → M) (S : Fin 5 → M)
    (hS : ∀ i : Fin 5, S i = ∑ r : Fin 1000, ∑ c : Fin 128, f (pairIx i r c)) :
    ((((0 + S 0) + S 1) + S 2) + S 3) + S 4 = ∑ p : Fin 640000, f p := by
  rw [sum_pairs f, Fin.sum_univ_five, zero_add]
  simp only [hS]

/-- The same with the pair spelt out. -/
theorem regroup5_lit (f : Fin 640000 → EReal) (S : Fin 5 → EReal)
    (hS : ∀ i : Fin 5, S i
      = ∑ r : Fin 1000, ∑ c : Fin 128, f ⟨(i.val * 1000 + r.val) * 128 + c.val, pair_lt i r c⟩) :
    ((((0 + S 0) + S 1) + S 2) + S 3) + S 4 = ∑ p : Fin 640000, f p :=
  regroup5 f S hS

/-- A zero added in front of a sum changes nothing. -/
theorem zero_add_sum (f : Fin 640000 → EReal) : 0 + ∑ p : Fin 640000, f p = ∑ p : Fin 640000, f p :=
  zero_add _

/-- A rank-3 index set is the product of its three coordinate ranges … -/
def idxEquiv3 {n0 n1 n2 : Nat} : (⟨3, ![n0, n1, n2]⟩ : Shape).Idx ≃ Fin n0 × Fin n1 × Fin n2 where
  toFun i := (i 0, i 1, i 2)
  invFun p := ix3 p.1 p.2.1 p.2.2
  left_inv i := (eq_ix3 i).symm
  right_inv _ := rfl

/-- … so a sum over it is the triple sum over the coordinates. -/
theorem sum_idx3 {M : Type*} [AddCommMonoid M] {n0 n1 n2 : Nat} (g : (⟨3, ![n0, n1, n2]⟩ : Shape).Idx → M) :
    ∑ j, g j = ∑ a : Fin n0, ∑ b : Fin n1, ∑ c : Fin n2, g (ix3 a b c) := by
  rw [← Equiv.sum_comp (idxEquiv3 (n0 := n0) (n1 := n1) (n2 := n2)).symm g, Fintype.sum_prod_type]
  refine Finset.sum_congr rfl fun a _ => ?_
  rw [Fintype.sum_prod_type]
  rfl

/-- The block sums presented as sums over the index set of the shape [1000, 128]: `g i` is block `i`'s summand, which
    at row `r`, lane `c` is `f` at the pair. -/
theorem regroup5_idx2 {M : Type*} [AddCommMonoid M] (f : Fin 640000 → M)
    (g : Fin 5 → (⟨2, ![1000, 128]⟩ : Shape).Idx → M)
    (hg : ∀ (i : Fin 5) (r : Fin 1000) (c : Fin 128), g i (ix2 r c) = f (pairIx i r c)) :
    ((((0 + ∑ j, g 0 j) + ∑ j, g 1 j) + ∑ j, g 2 j) + ∑ j, g 3 j) + ∑ j, g 4 j = ∑ p : Fin 640000, f p :=
  regroup5 f (fun i => ∑ j, g i j) fun i => by
    show ∑ j, g i j = _
    rw [sum_idx2]
    simp only [hg]

/-- The block sums presented as sums over the index set of the shape [1, 1000, 128]. -/
theorem regroup5_idx3 {M : Type*} [AddCommMonoid M] (f : Fin 640000 → M)
    (g : Fin 5 → (⟨3, ![1, 1000, 128]⟩ : Shape).Idx → M)
    (hg : ∀ (i : Fin 5) (r : Fin 1000) (c : Fin 128), g i (ix3 (0 : Fin 1) r c) = f (pairIx i r c)) :
    ((((0 + ∑ j, g 0 j) + ∑ j, g 1 j) + ∑ j, g 2 j) + ∑ j, g 3 j) + ∑ j, g 4 j = ∑ p : Fin 640000, f p :=
  regroup5 f (fun i => ∑ j, g i j) fun i => by
    show ∑ j, g i j = _
    rw [sum_idx3, Fin.sum_univ_one]
    simp only [hg]

end Cert.Alg
-- ==== Proof.PayLoss.lean ====
/-
  The loss body's two stored values on the extended reals.
  For a block of 1000 rows of 128 lanes the body forms, lane by lane, the cross entropy of the two logits at the
  label — the larger logit, plus the logarithm of the sum of the two exponentials of the differences, minus the logit
  the label selects: the specification's `nll` verbatim — sums it over the block, and adds the sum to the accumulator.
  At the last block it divides the accumulator by the word of 640000.
-/
import proofs.«208457_g31284541784245_cont_9to1_2229_14_alg».proof.Proof.Gen.KernelIdeal.Skeleton
import proofs.«208457_g31284541784245_cont_9to1_2229_14_alg».proof.Proof.Spec
import proofs.«208457_g31284541784245_cont_9to1_2229_14_alg».proof.Proof.AlgSums
import Idealize.ShloMosaic.PureOps.Ideal.Laws
import Idealize.ShloMosaic.Lib.ValueIdx
import Idealize.ShloMosaic.Lib.ValueLayout
import Idealize.ShloMosaic.Lib.Pipeline.Value

noncomputable section

namespace Cert.KernelIdeal.Sc.Pay

open Cert.KernelIdeal Cert.KernelIdeal.Gen
open Idealize.ShloMosaic Idealize.ShloMosaic.ValueIdx Idealize.SL.Sem
open scoped BigOperators

/-- A select on "the word is 0" is the `if` on it. -/
theorem select_word_eq_zero (w : BitVec 32) (a b : EReal) :
    Scalar.select (IntOp.cmpi .eq w 0#32) a b = if w = 0#32 then a else b := by
  by_cases h : w = 0#32
  · have hc : IntOp.cmpi .eq w 0#32 = 1#1 := IntOp.cmpi_eq.mpr h
    rw [hc, select_one, if_pos h]
  · have hc : IntOp.cmpi .eq w 0#32 = 0#1 := eq_zero_of_ne_one fun e => h (IntOp.cmpi_eq.mp e)
    rw [hc, select_zero, if_neg h]

/-- The sum of a [1000, 128] block taken as the body takes it — viewed as [1, 1000, 128], reduced over its last two axes
    from the zero word into one entry, that entry viewed as [1, 1, 1] and extracted — is the double sum over rows and
    lanes. -/
theorem block_total (w : FVec Ideal S1000x128 .f32) (hacc : (0x00000000#32 : BitVec 32) = 0x00000000#32) :
    extractAt ![0, 0, 0]
        (shapeCast S1x1x1
          (multiReduction (F := Ideal) .add [1, 2] S1 (shapeCast S1x1000x128 w shapeCasts_S1000x128_S1x1000x128)
            0x00000000#32 reduces_S1x1000x128_S1 (.inl rfl) hacc)
          shapeCasts_S1_S1x1x1)
        inpos_S1x1x1_p0_0_0
      = ∑ r : Fin 1000, ∑ c : Fin 128, w (ix2 r c) := by
  unfold extractAt
  refine (shapeCast_apply (s := S1) (t := S1x1x1) _ _ _ (ix1 (0 : Fin 1)) ?_).trans ?_
  · rw [Shape.rowMajor_val_one, Shape.rowMajor_val_three]
    rfl
  refine (Ideal.multiReduction_add_total _ _ _ (fun b => ?_) _ _ _).trans ?_
  · match b with
    | ⟨0, _⟩ => rfl
  rw [Cert.Alg.sum_idx3, Fin.sum_univ_one]
  refine Finset.sum_congr rfl fun r _ => Finset.sum_congr rfl fun c _ => ?_
  exact shapeCast_ab_1ab_apply w shapeCasts_S1000x128_S1x1000x128 (0 : Fin 1) r c

/-- The new accumulator: the old one plus the block's sum of cross entropies. -/
theorem loss_pay1 (x0 x1 : FVec Ideal S1000x128 .f32) (x2 : IVec S1000x128 32) (v : EReal) :
    k2_pay1 (F := Ideal) x0 x1 x2 v
      = v + ∑ r : Fin 1000, ∑ c : Fin 128, Cert.Spec.nll (x0 (ix2 r c)) (x1 (ix2 r c)) (x2 (ix2 r c)) := by
  unfold k2_pay1
  show v + _ = v + _
  refine congrArg (v + ·) ?_
  refine (block_total _ rfl).trans ?_
  refine Finset.sum_congr rfl fun r _ => Finset.sum_congr rfl fun c _ => ?_
  simp only [shapeCast_self]
  show (max (x0 (ix2 r c)) (x1 (ix2 r c))
      + Ideal.log (Ideal.exp (x0 (ix2 r c) - max (x0 (ix2 r c)) (x1 (ix2 r c)))
        + Ideal.exp (x1 (ix2 r c) - max (x0 (ix2 r c)) (x1 (ix2 r c)))))
      - Scalar.select (IntOp.cmpi .eq (x2 (ix2 r c)) 0#32) (x0 (ix2 r c)) (x1 (ix2 r c)) = _
  rw [select_word_eq_zero]
  rfl

/-- The stored loss: the accumulator divided by the word of 640000. -/
theorem loss_pay2 (v : EReal) :
    k2_pay2 (F := Ideal) v (ix2 (0 : Fin 1) (0 : Fin 1)) = Ideal.div v (Ideal.ofBits .f32 0x491C4000#32) := rfl

end Cert.KernelIdeal.Sc.Pay

end
-- ==== Proof.AlgKernelLogit.lean ====
/-
  The kernel's arrangement of a logit. The kernel adds the bias to the left endpoint's contribution and adds a zero to
  the right endpoint's before adding the two; the specification adds the two contributions and then the bias. In a
  commutative monoid these agree; no finiteness is needed.
-/
import Mathlib.Data.EReal.Inv

namespace Cert.Alg

/-- `(A + c) + (B + 0) = (A + B) + c` on the extended reals. -/
theorem kernel_logit (A B c : EReal) : (A + c) + (B + 0) = (A + B) + c := by
  rw [add_zero, add_right_comm]

/-- The same in any commutative additive monoid. -/
theorem kernel_logit' {M : Type*} [AddCommMonoid M] (A B c : M) : (A + c) + (B + 0) = (A + B) + c := by
  rw [add_zero, add_right_comm]

end Cert.Alg
-- ==== Proof.KernelValueCore.lean ====
/-
  The arithmetic between the kernel's three bodies and the specification, on the extended reals, stated over the arrays
  the bodies read and write (no launch memory, no run).

  The node table's entry (n, l) is node n's contribution as a left endpoint to label l plus the bias, its entry
  (n, 2 + l) the contribution as a right endpoint plus zero. The pair kernel adds, for pair p with index words a and b,
  the flat table's words 4 a + l and 4 b + 2 + l: the specification's logit. The loss body's five block sums, each the
  sum over 1000 rows of 128 lanes of the cross entropy, added from zero, are the sum over the 640000 pairs.
-/
import proofs.«208457_g31284541784245_cont_9to1_2229_14_alg».proof.Proof.MlpLossExit
import proofs.«208457_g31284541784245_cont_9to1_2229_14_alg».proof.Proof.TileDefs
import proofs.«208457_g31284541784245_cont_9to1_2229_14_alg».proof.Proof.PayMlpSpec
import proofs.«208457_g31284541784245_cont_9to1_2229_14_alg».proof.Proof.PayLoss
import proofs.«208457_g31284541784245_cont_9to1_2229_14_alg».proof.Proof.AlgKernelLogit
import proofs.«208457_g31284541784245_cont_9to1_2229_14_alg».proof.Proof.AlgSums
import proofs.«208457_g31284541784245_cont_9to1_2229_14_alg».proof.Proof.GlueOps2

set_option maxRecDepth 16384

noncomputable section

namespace Cert.KernelIdeal.Sc.Core

open Cert.KernelIdeal Cert.KernelIdeal.Gen Cert.KernelIdeal.Sc
open Idealize.ShloMosaic Idealize.ShloMosaic.ValueIdx Idealize.SL.Sem
open Cert.Spec
open scoped BigOperators

/-- Equal coordinates make equal indices. -/
theorem ix2_congr {n0 n1 : Nat} {a a' : Fin n0} {b b' : Fin n1} (ha : a = a') (hb : b = b') : ix2 a b = ix2 a' b' := by
  subst ha; subst hb; rfl

theorem ix1_congr {n0 : Nat} {a a' : Fin n0} (ha : a = a') : ix1 a = ix1 a' := by
  subst ha; rfl

/-! ## The node table -/

section Table
variable (X : S10000x768.Idx → EReal) (w1 : FVec Ideal S768x64 .f32) (r1 : FVec Ideal S1x64 .f32)
  (w2 : FVec Ideal S64x64 .f32) (r2 : FVec Ideal S1x64 .f32) (wc : FVec Ideal S64x4 .f32) (rc : FVec Ideal S1x4 .f32)
  (b1 b2 : (Sh1 64).Idx → EReal) (Wc : (Sh2 128 2).Idx → EReal) (bc : (Sh1 2).Idx → EReal)

/-- Row `n % 1000` of block `n / 1000` of the node features is node `n`'s row. -/
theorem blockRows_row (n : Fin 10000) (c : Fin 4) (k : Fin 768) :
    Mlp.blockRows (F := Ideal) X (Mlp.blkOf (ix2 n c)) (ix2 (⟨n.val % 1000, Nat.mod_lt _ (by decide)⟩ : Fin 1000) k)
      = X (ix2 n k) := by
  show X (ix2 _ _) = X (ix2 n k)
  refine congrArg X (ix2_congr (Fin.ext ?_) (Fin.ext rfl))
  show 1000 * (n.val / 1000) + n.val % 1000 = n.val
  omega

/-- The table's entry at node `n`, column `l`: the left contribution to label `l`, plus the bias. -/
theorem G0_left (hr1 : ∀ j : Fin 64, r1 (ix2 (0 : Fin 1) j) = b1 (ix1 j)) (hr2 : ∀ j : Fin 64, r2 (ix2 (0 : Fin 1) j) = b2 (ix1 j))
    (hwc : ∀ (k : Fin 64) (l : Fin 2), wc (ix2 k (⟨l.val, by omega⟩ : Fin 4)) = Wc (ix2 (top k) l))
    (hrc : ∀ l : Fin 2, rc (ix2 (0 : Fin 1) (⟨l.val, by omega⟩ : Fin 4)) = bc (ix1 l)) (n : Fin 10000) (l : Fin 2) :
    Mlp.G0 (F := Ideal) X w1 r1 w2 r2 wc rc (ix2 n (⟨l.val, by omega⟩ : Fin 4))
      = Spec.leftPart X w1 b1 w2 b2 Wc n l + bc (ix1 l) := by
  unfold Mlp.G0
  have hloc : Mlp.locOf (ix2 n (⟨l.val, by omega⟩ : Fin 4))
      = ix2 (⟨n.val % 1000, Nat.mod_lt _ (by decide)⟩ : Fin 1000) (⟨l.val, by omega⟩ : Fin 4) := rfl
  rw [hloc]
  exact Pay.mlp_pay_left X w1 b1 w2 b2 Wc bc (Mlp.blockRows (F := Ideal) X (Mlp.blkOf (ix2 n (⟨l.val, by omega⟩ : Fin 4)))) w1 r1 w2 r2 wc rc n
    ⟨n.val % 1000, Nat.mod_lt _ (by decide)⟩ (blockRows_row X n _) (fun _ _ => rfl) hr1 (fun _ _ => rfl) hr2 hwc hrc l

/-- The table's entry at node `n`, column `2 + l`: the right contribution to label `l`, plus zero. -/
theorem G0_right (hr1 : ∀ j : Fin 64, r1 (ix2 (0 : Fin 1) j) = b1 (ix1 j)) (hr2 : ∀ j : Fin 64, r2 (ix2 (0 : Fin 1) j) = b2 (ix1 j))
    (hwc : ∀ (k : Fin 64) (l : Fin 2), wc (ix2 k (⟨2 + l.val, by omega⟩ : Fin 4)) = Wc (ix2 (bot k) l))
    (hrc : ∀ l : Fin 2, rc (ix2 (0 : Fin 1) (⟨2 + l.val, by omega⟩ : Fin 4)) = (FloatOps.ofBits .f32 0x00000000#32 : Ideal .f32))
    (n : Fin 10000) (l : Fin 2) :
    Mlp.G0 (F := Ideal) X w1 r1 w2 r2 wc rc (ix2 n (⟨2 + l.val, by omega⟩ : Fin 4))
      = Spec.rightPart X w1 b1 w2 b2 Wc n l + 0 := by
  unfold Mlp.G0
  have hloc : Mlp.locOf (ix2 n (⟨2 + l.val, by omega⟩ : Fin 4))
      = ix2 (⟨n.val % 1000, Nat.mod_lt _ (by decide)⟩ : Fin 1000) (⟨2 + l.val, by omega⟩ : Fin 4) := rfl
  rw [hloc]
  exact Pay.mlp_pay_right X w1 b1 w2 b2 Wc (Mlp.blockRows (F := Ideal) X (Mlp.blkOf (ix2 n (⟨2 + l.val, by omega⟩ : Fin 4)))) w1 r1 w2 r2 wc rc n
    ⟨n.val % 1000, Nat.mod_lt _ (by decide)⟩ (blockRows_row X n _) (fun _ _ => rfl) hr1 (fun _ _ => rfl) hr2 hwc hrc l

end Table

/-! ## A pair's two logits from the flat table -/

/-- The flat table read at word `4 n + j` is the table at node `n`, column `j`. -/
theorem flat_read (tab : S40000.Idx → EReal) (G : S10000x4.Idx → EReal)
    (hTab : ∀ N : Fin 40000, tab (ix1 N) = G (ix2 (⟨N.val / 4, by omega⟩ : Fin 10000) (⟨N.val % 4, by omega⟩ : Fin 4)))
    (n : Fin 10000) (j : Fin 4) : tab (Tile.tabIx (4 * n.val + j.val)) = G (ix2 n j) := by
  unfold Tile.tabIx
  rw [hTab]
  refine congrArg G (ix2_congr (Fin.ext ?_) (Fin.ext ?_))
  · show (4 * n.val + j.val) % 40000 / 4 = n.val
    omega
  · show (4 * n.val + j.val) % 40000 % 4 = j.val
    omega

/-- The two sums of table words the pair kernel forms are the specification's two logits of the pair. -/
theorem pair_logits (tab : S40000.Idx → EReal) (Lp Rp : Fin 10000 → Fin 2 → EReal) (c : Fin 2 → EReal)
    (hL : ∀ (n : Fin 10000) (l : Fin 2), tab (Tile.tabIx (4 * n.val + (⟨l.val, by omega⟩ : Fin 4).val)) = Lp n l + c l)
    (hR : ∀ (n : Fin 10000) (l : Fin 2), tab (Tile.tabIx (4 * n.val + (⟨2 + l.val, by omega⟩ : Fin 4).val)) = Rp n l + 0)
    (wa wb : BitVec 32) (ha : wa.toNat < 10000) (hb : wb.toNat < 10000) :
    tab (Tile.tabIx (4 * wa.toNat)) + tab (Tile.tabIx (4 * wb.toNat + 2)) = (Lp (node wa) 0 + Rp (node wb) 0) + c 0
      ∧ tab (Tile.tabIx (4 * wa.toNat + 1)) + tab (Tile.tabIx (4 * wb.toNat + 3)) = (Lp (node wa) 1 + Rp (node wb) 1) + c 1 := by
  have ea := node_val ha
  have eb := node_val hb
  have a0 : 4 * wa.toNat = 4 * (node wa).val + (⟨(0 : Fin 2).val, by omega⟩ : Fin 4).val := by
    rw [ea]; rfl
  have a1 : 4 * wa.toNat + 1 = 4 * (node wa).val + (⟨(1 : Fin 2).val, by omega⟩ : Fin 4).val := by
    rw [ea]; rfl
  have b0 : 4 * wb.toNat + 2 = 4 * (node wb).val + (⟨2 + (0 : Fin 2).val, by omega⟩ : Fin 4).val := by
    rw [eb]; rfl
  have b1 : 4 * wb.toNat + 3 = 4 * (node wb).val + (⟨2 + (1 : Fin 2).val, by omega⟩ : Fin 4).val := by
    rw [eb]; rfl
  constructor
  · rw [a0, b0, hL, hR]
    exact Cert.Alg.kernel_logit _ _ _
  · rw [a1, b1, hL, hR]
    exact Cert.Alg.kernel_logit _ _ _

/-! ## The loss -/

/-- A block's sum is the double sum over rows and lanes of the cross entropy. -/
theorem blockSum_eq (x0 x1 : FVec Ideal S1000x128 .f32) (x2 : IVec S1000x128 32) :
    Loss.blockSum (F := Ideal) x0 x1 x2
      = ∑ r : Fin 1000, ∑ c : Fin 128, Spec.nll (x0 (ix2 r c)) (x1 (ix2 r c)) (x2 (ix2 r c)) := by
  have h := Pay.loss_pay1 x0 x1 x2 0
  rw [Loss.pay1_eq] at h
  have h' : (0 : EReal) + Loss.blockSum (F := Ideal) x0 x1 x2
      = 0 + ∑ r : Fin 1000, ∑ c : Fin 128, Spec.nll (x0 (ix2 r c)) (x1 (ix2 r c)) (x2 (ix2 r c)) := h
  rwa [zero_add, zero_add] at h'

/-- The five block sums added one after another to a zero are the sum over the pairs, when the three [5000, 128]
    arrays are the two logit columns and the label array laid out in rows of 128. -/
theorem blocks_total (V15 V16 : S5000x128.Idx → EReal) (V17 : S5000x128.Idx → BitVec 32)
    (Z0 Z1 : S640000.Idx → EReal) (Lab : S640000.Idx → BitVec 32)
    (h15 : ∀ (r : Fin 5000) (c : Fin 128), V15 (ix2 r c) = Z0 (ix1 ⟨r.val * 128 + c.val, Glue.lane_lt r c⟩))
    (h16 : ∀ (r : Fin 5000) (c : Fin 128), V16 (ix2 r c) = Z1 (ix1 ⟨r.val * 128 + c.val, Glue.lane_lt r c⟩))
    (h17 : ∀ (r : Fin 5000) (c : Fin 128), V17 (ix2 r c) = Lab (ix1 ⟨r.val * 128 + c.val, Glue.lane_lt r c⟩)) :
    ((((((0 : EReal)
        + Loss.blockSum (F := Ideal) (Loss.blockRows (F := Ideal) (e := .f32) V15 0) (Loss.blockRows (F := Ideal) (e := .f32) V16 0) (Loss.blockRows (F := Ideal) (e := .i32) V17 0))
        + Loss.blockSum (F := Ideal) (Loss.blockRows (F := Ideal) (e := .f32) V15 1) (Loss.blockRows (F := Ideal) (e := .f32) V16 1) (Loss.blockRows (F := Ideal) (e := .i32) V17 1))
        + Loss.blockSum (F := Ideal) (Loss.blockRows (F := Ideal) (e := .f32) V15 2) (Loss.blockRows (F := Ideal) (e := .f32) V16 2) (Loss.blockRows (F := Ideal) (e := .i32) V17 2))
        + Loss.blockSum (F := Ideal) (Loss.blockRows (F := Ideal) (e := .f32) V15 3) (Loss.blockRows (F := Ideal) (e := .f32) V16 3) (Loss.blockRows (F := Ideal) (e := .i32) V17 3))
        + Loss.blockSum (F := Ideal) (Loss.blockRows (F := Ideal) (e := .f32) V15 4) (Loss.blockRows (F := Ideal) (e := .f32) V16 4) (Loss.blockRows (F := Ideal) (e := .i32) V17 4))
      = ∑ p : Fin 640000, Spec.nll (Z0 (ix1 p)) (Z1 (ix1 p)) (Lab (ix1 p)) := by
  refine Cert.Alg.regroup5 (fun p => Spec.nll (Z0 (ix1 p)) (Z1 (ix1 p)) (Lab (ix1 p)))
    (fun k => Loss.blockSum (F := Ideal) (Loss.blockRows (F := Ideal) (e := .f32) V15 k) (Loss.blockRows (F := Ideal) (e := .f32) V16 k)
      (Loss.blockRows (F := Ideal) (e := .i32) V17 k)) fun k => ?_
  show Loss.blockSum (F := Ideal) _ _ _ = _
  rw [blockSum_eq]
  refine Finset.sum_congr rfl fun r _ => Finset.sum_congr rfl fun c _ => ?_
  have hp : (⟨(⟨1000 * k.val + r.val, by have := k.isLt; have := r.isLt; omega⟩ : Fin 5000).val * 128 + c.val, Glue.lane_lt _ c⟩ : Fin 640000)
      = Cert.Alg.pairIx k r c := Fin.ext (by show (1000 * k.val + r.val) * 128 + c.val = (k.val * 1000 + r.val) * 128 + c.val; omega)
  have e15 : Loss.blockRows (F := Ideal) (e := .f32) V15 k (ix2 r c) = Z0 (ix1 (Cert.Alg.pairIx k r c)) := by
    show V15 (ix2 _ _) = _
    rw [← hp]
    exact h15 _ _
  have e16 : Loss.blockRows (F := Ideal) (e := .f32) V16 k (ix2 r c) = Z1 (ix1 (Cert.Alg.pairIx k r c)) := by
    show V16 (ix2 _ _) = _
    rw [← hp]
    exact h16 _ _
  have e17 : Loss.blockRows (F := Ideal) (e := .i32) V17 k (ix2 r c) = Lab (ix1 (Cert.Alg.pairIx k r c)) := by
    show V17 (ix2 _ _) = _
    rw [← hp]
    exact h17 _ _
  rw [e15, e16, e17]

end Cert.KernelIdeal.Sc.Core

end
-- ==== Proof.PreFactsInt.lean ====
/-
  The precondition decoded, for every float instance. The precondition is one bit: the conjunction of nine "all
  elements satisfy" tests, seven on the float arrays (|x| below +infinity) and two on the integer arrays (0 <= w <= 9999
  signed for an index word, 0 <= w <= 1 signed for a label word). The conjunction being 1 gives each test at every
  element (`split`); a word between 0 and 9999 signed is below 10000 read unsigned (`idx_lt`); a word between 0 and 1
  signed is the word 0 or the word 1 (`label_01`). The integer facts do not depend on the float instance.
-/
import proofs.«208457_g31284541784245_cont_9to1_2229_14_alg».proof.Pre_input_domain
import Idealize.ShloMosaic.Lib.ReduceAll
import Idealize.ShloMosaic.Lib.ValueIdx

namespace Cert.PreFacts

open Idealize.ShloMosaic Cert.Pre_input_domain

/-- The scalar shape has one index. -/
instance : Subsingleton S_.Idx := ⟨fun a b => funext fun d => d.elim0⟩

/-- The test on one float entry: its absolute value compares below the word of +infinity. -/
def FinAt {F : FTy → Type} [FloatOps F] (x : F .f32) : Prop :=
  FloatOps.cmpf .olt (FloatOps.hostAbsf x) (FloatOps.ofBits .f32 0x7F800000#32) = 1#1

/-- The test on one index word: at least 0 and at most 9999, signed. -/
def IdxAt (w : BitVec 32) : Prop := IntOp.andi (IntOp.cmpi .sge w 0#32) (IntOp.cmpi .sle w 9999#32) = 1#1

/-- The test on one label word: at least 0 and at most 1, signed. -/
def LabAt (w : BitVec 32) : Prop := IntOp.andi (IntOp.cmpi .sge w 0#32) (IntOp.cmpi .sle w 1#32) = 1#1

theorem vandi_apply {s : Shape} {w : Nat} (x y : IVec s w) (i : s.Idx) : andi x y i = IntOp.andi (x i) (y i) := rfl

section
variable {F : FTy → Type} [FloatOps F] [Facts]
  {a0 : IVec S640000x2 32} {a1 : IVec S10000x10000 1} {a2 : FVec F S10000x768 .f32} {a3 : IVec S640000 32}
  {a4 : FVec F S768x64 .f32} {a5 : FVec F S64 .f32} {a6 : FVec F S64x64 .f32} {a7 : FVec F S64 .f32}
  {a8 : FVec F S128x2 .f32} {a9 : FVec F S2 .f32}

/-- The precondition's bit being 1 gives each of its nine tests at every element. -/
theorem split (h : fn (F := F) a0 a1 a2 a3 a4 a5 a6 a7 a8 a9 = fun _ => 1#1) :
    (∀ i, FinAt (a2 i)) ∧ (∀ i, FinAt (a4 i)) ∧ (∀ i, FinAt (a5 i)) ∧ (∀ i, FinAt (a6 i)) ∧ (∀ i, FinAt (a7 i))
      ∧ (∀ i, FinAt (a8 i)) ∧ (∀ i, FinAt (a9 i)) ∧ (∀ i, IdxAt (a0 i)) ∧ (∀ i, LabAt (a3 i)) := by
  have e := congrFun h ValueIdx.ix0
  dsimp only [fn, fn_part1, fn_part2] at e
  simp only [vandi_apply, IntOp.andi_eq_one] at e
  obtain ⟨⟨⟨⟨⟨⟨⟨⟨h2, h4⟩, h5⟩, h6⟩, h7⟩, h8⟩, h9⟩, h0⟩, h3⟩ := e
  exact ⟨fun i => Host.reduce_andi_all _ _ _ _ _ h2 i, fun i => Host.reduce_andi_all _ _ _ _ _ h4 i,
    fun i => Host.reduce_andi_all _ _ _ _ _ h5 i, fun i => Host.reduce_andi_all _ _ _ _ _ h6 i,
    fun i => Host.reduce_andi_all _ _ _ _ _ h7 i, fun i => Host.reduce_andi_all _ _ _ _ _ h8 i,
    fun i => Host.reduce_andi_all _ _ _ _ _ h9 i, fun i => Host.reduce_andi_all _ _ _ _ _ h0 i,
    fun i => Host.reduce_andi_all _ _ _ _ _ h3 i⟩

end

/-- A word between 0 and `n` signed, `n` below 2^31, is at most `n` read unsigned. -/
theorem toNat_le_of_signed {w : BitVec 32} {n : Nat} (hn : n < 2 ^ 31)
    (h : IntOp.andi (IntOp.cmpi .sge w 0#32) (IntOp.cmpi .sle w (BitVec.ofNat 32 n)) = 1#1) : w.toNat ≤ n := by
  rw [IntOp.andi_eq_one, IntOp.cmpi_sge, IntOp.cmpi_sle] at h
  obtain ⟨h0, h1⟩ := h
  have z : (0#32 : BitVec 32).toInt = 0 := by decide
  have hnn : (BitVec.ofNat 32 n).toInt = (n : Int) := by
    rw [BitVec.toInt_eq_toNat_of_lt (by rw [BitVec.toNat_ofNat]; omega), BitVec.toNat_ofNat]; omega
  rw [z] at h0
  rw [hnn] at h1
  have hc := BitVec.toInt_eq_toNat_cond w
  have hlt := w.isLt
  split at hc <;> omega

section
variable {F : FTy → Type} [FloatOps F] [Facts]
  {a0 : IVec S640000x2 32} {a1 : IVec S10000x10000 1} {a2 : FVec F S10000x768 .f32} {a3 : IVec S640000 32}
  {a4 : FVec F S768x64 .f32} {a5 : FVec F S64 .f32} {a6 : FVec F S64x64 .f32} {a7 : FVec F S64 .f32}
  {a8 : FVec F S128x2 .f32} {a9 : FVec F S2 .f32}

/-- Under the precondition every index word, read unsigned, is below the number of nodes. -/
theorem idx_lt (h : fn (F := F) a0 a1 a2 a3 a4 a5 a6 a7 a8 a9 = fun _ => 1#1) (i : S640000x2.Idx) :
    (a0 i).toNat < 10000 := by
  have := toNat_le_of_signed (w := a0 i) (n := 9999) (by decide) ((split h).2.2.2.2.2.2.2.1 i)
  omega

/-- Under the precondition every label word is the word 0 or the word 1. -/
theorem label_01 (h : fn (F := F) a0 a1 a2 a3 a4 a5 a6 a7 a8 a9 = fun _ => 1#1) (i : S640000.Idx) :
    a3 i = 0#32 ∨ a3 i = 1#32 := by
  have hle := toNat_le_of_signed (w := a3 i) (n := 1) (by decide) ((split h).2.2.2.2.2.2.2.2 i)
  rcases Nat.le_one_iff_eq_zero_or_eq_one.mp hle with h0 | h1
  · exact Or.inl (BitVec.eq_of_toNat_eq (by rw [h0]; rfl))
  · exact Or.inr (BitVec.eq_of_toNat_eq (by rw [h1]; rfl))

end

end Cert.PreFacts
-- ==== Proof.KernelValue.lean ====
/-
  The kernel's two results, as functions of the launch memory, are the specification's two arrays (at the extended
  reals, under the precondition).

  Each entry of the logits result is one of the pair kernel's two columns at the pair; a column's entry is the sum of two
  words of the flat node table, which are a left and a right contribution of the pair's two nodes (the index words name
  nodes: the precondition), plus the bias and a zero: the specification's logit. The loss result is the running sum of
  the five block sums of cross entropies over the number of pairs; the block sums regroup into the sum over the pairs
  of the cross entropy of the pair's two logits at its label: the specification's loss.
-/
import proofs.«208457_g31284541784245_cont_9to1_2229_14_alg».proof.Proof.ScReads
import proofs.«208457_g31284541784245_cont_9to1_2229_14_alg».proof.Proof.KernelValueCore
import proofs.«208457_g31284541784245_cont_9to1_2229_14_alg».proof.Proof.PreFactsInt

set_option maxRecDepth 16384

noncomputable section

namespace Cert.KernelIdeal.Sc.Chain

open Cert.KernelIdeal Cert.KernelIdeal.Gen Cert.KernelIdeal.Sc
open Idealize.ShloMosaic Idealize.ShloMosaic.TcCoe Idealize.ShloMosaic.ValueIdx
open Idealize.SL.Sem
open scoped BigOperators

variable (m : (ℓ : Loc nD τ sig) → Buf (Elt Ideal) ℓ) (d : Dev nD)

/-! The launch memory's argument arrays on core `d`, each at its function type. -/
abbrev aIdx : S640000x2.Idx → BitVec 32 := m (d, (main_arg0 : DevRef τ sig))
abbrev aX : S10000x768.Idx → EReal := m (d, (main_arg2 : DevRef τ sig))
abbrev aLab : S640000.Idx → BitVec 32 := m (d, (main_arg3 : DevRef τ sig))
abbrev aW1 : S768x64.Idx → EReal := m (d, (main_arg4 : DevRef τ sig))
abbrev aB1 : S64.Idx → EReal := m (d, (main_arg5 : DevRef τ sig))
abbrev aW2 : S64x64.Idx → EReal := m (d, (main_arg6 : DevRef τ sig))
abbrev aB2 : S64.Idx → EReal := m (d, (main_arg7 : DevRef τ sig))
abbrev aWc : S128x2.Idx → EReal := m (d, (main_arg8 : DevRef τ sig))
abbrev aBc : S2.Idx → EReal := m (d, (main_arg9 : DevRef τ sig))
/-- The flat node table the pair kernel finds, at its function type. -/
abbrev aTab : S40000.Idx → EReal := TAB m d

/-- The flat table's word `4 n + l`: node `n`'s left contribution to label `l`, plus the bias. -/
theorem tab_left (n : Fin 10000) (l : Fin 2) :
    (TAB m d : S40000.Idx → EReal) (Tile.tabIx (4 * n.val + (⟨l.val, by omega⟩ : Fin 4).val))
      = Cert.Spec.leftPart (aX m d) (aW1 m d) (aB1 m d) (aW2 m d) (aB2 m d) (aWc m d) n l + aBc m d (ix1 l) := by
  refine (Core.flat_read _ _ (TAB_apply m d) n _).trans ?_
  have e2 : Vof (Wa m) d main_arg2 = m (d, (main_arg2 : DevRef τ sig)) := Wa_arg2 m d
  have e4 : Vof (Wa m) d main_arg4 = m (d, (main_arg4 : DevRef τ sig)) := Wa_arg4 m d
  have e6 : Vof (Wa m) d main_arg6 = m (d, (main_arg6 : DevRef τ sig)) := Wa_arg6 m d
  rw [e2, e4, e6]
  exact Core.G0_left (aX m d) (aW1 m d) _ (aW2 m d) _ _ _ (aB1 m d) (aB2 m d) (aWc m d) (aBc m d)
    (Wa_v6 m d) (Wa_v7 m d) (Wa_v2_left m d) (Wa_v5_left m d) n l

/-- The flat table's word `4 n + 2 + l`: node `n`'s right contribution to label `l`, plus zero. -/
theorem tab_right (n : Fin 10000) (l : Fin 2) :
    (TAB m d : S40000.Idx → EReal) (Tile.tabIx (4 * n.val + (⟨2 + l.val, by omega⟩ : Fin 4).val))
      = Cert.Spec.rightPart (aX m d) (aW1 m d) (aB1 m d) (aW2 m d) (aB2 m d) (aWc m d) n l + 0 := by
  refine (Core.flat_read _ _ (TAB_apply m d) n _).trans ?_
  have e2 : Vof (Wa m) d main_arg2 = m (d, (main_arg2 : DevRef τ sig)) := Wa_arg2 m d
  have e4 : Vof (Wa m) d main_arg4 = m (d, (main_arg4 : DevRef τ sig)) := Wa_arg4 m d
  have e6 : Vof (Wa m) d main_arg6 = m (d, (main_arg6 : DevRef τ sig)) := Wa_arg6 m d
  rw [e2, e4, e6]
  exact Core.G0_right (aX m d) (aW1 m d) _ (aW2 m d) _ _ _ (aB1 m d) (aB2 m d) (aWc m d)
    (Wa_v6 m d) (Wa_v7 m d) (Wa_v2_right m d) (Wa_v5_right m d) n l

/-- The pair kernel's two columns at pair `p` are the specification's two logits of the pair, when every index word
    names a node. -/
theorem cols_eq (hidx : ∀ i : S640000x2.Idx, (aIdx m d i).toNat < 10000) (p : Fin 640000) :
    (Tile.Z0 (TAB m) (IA m) (IB m) d : S640000.Idx → EReal) (ix1 p)
        = Cert.Spec.logit (aX m d) (aW1 m d) (aB1 m d) (aW2 m d) (aB2 m d) (aWc m d) (aBc m d) (aIdx m d) p 0
      ∧ (Tile.Z1 (TAB m) (IA m) (IB m) d : S640000.Idx → EReal) (ix1 p)
        = Cert.Spec.logit (aX m d) (aW1 m d) (aB1 m d) (aW2 m d) (aB2 m d) (aWc m d) (aBc m d) (aIdx m d) p 1 := by
  have key : ∀ wa wb : BitVec 32, wa = aIdx m d (ix2 p (0 : Fin 2)) → wb = aIdx m d (ix2 p (1 : Fin 2)) →
      aTab m d (Tile.tabIx (4 * wa.toNat)) + aTab m d (Tile.tabIx (4 * wb.toNat + 2))
          = Cert.Spec.logit (aX m d) (aW1 m d) (aB1 m d) (aW2 m d) (aB2 m d) (aWc m d) (aBc m d) (aIdx m d) p 0
        ∧ aTab m d (Tile.tabIx (4 * wa.toNat + 1)) + aTab m d (Tile.tabIx (4 * wb.toNat + 3))
          = Cert.Spec.logit (aX m d) (aW1 m d) (aB1 m d) (aW2 m d) (aB2 m d) (aWc m d) (aBc m d) (aIdx m d) p 1 := by
    intro wa wb ea eb
    subst ea
    subst eb
    exact Core.pair_logits (aTab m d)
      (fun n l => Cert.Spec.leftPart (aX m d) (aW1 m d) (aB1 m d) (aW2 m d) (aB2 m d) (aWc m d) n l)
      (fun n l => Cert.Spec.rightPart (aX m d) (aW1 m d) (aB1 m d) (aW2 m d) (aB2 m d) (aWc m d) n l)
      (fun l => aBc m d (ix1 l)) (tab_left m d) (tab_right m d) _ _ (hidx _) (hidx _)
  exact key _ _ (IA_apply m d p) (IB_apply m d p)

section Pre
variable [Cert.Pre_input_domain.Facts]

/-- THE LOGITS RESULT is the specification's logits array. -/
theorem logits_eq
    (hpre : Cert.Pre_input_domain.fn (F := Ideal) (m (d, (main_arg0 : DevRef τ sig))) (m (d, (main_arg1 : DevRef τ sig)))
      (m (d, (main_arg2 : DevRef τ sig))) (m (d, (main_arg3 : DevRef τ sig))) (m (d, (main_arg4 : DevRef τ sig)))
      (m (d, (main_arg5 : DevRef τ sig))) (m (d, (main_arg6 : DevRef τ sig))) (m (d, (main_arg7 : DevRef τ sig)))
      (m (d, (main_arg8 : DevRef τ sig))) (m (d, (main_arg9 : DevRef τ sig))) = fun _ => 1#1) :
    (W7 m d (main_v21 : DevRef τ sig) : S640000x2.Idx → EReal)
      = Cert.Spec.logitsArr (aX m d) (aW1 m d) (aB1 m d) (aW2 m d) (aB2 m d) (aWc m d) (aBc m d) (aIdx m d) := by
  funext j
  obtain ⟨p, l, rfl⟩ : ∃ (p : Fin 640000) (l : Fin 2), j = ix2 p l := ⟨j 0, j 1, eq_ix2 j⟩
  obtain ⟨h0, h1⟩ := cols_eq m d (fun i => Cert.PreFacts.idx_lt hpre i) p
  match l with
  | ⟨0, _⟩ => exact (W7_v21_0 m d p).trans h0
  | ⟨1, _⟩ => exact (W7_v21_1 m d p).trans h1

/-- THE LOSS RESULT is the specification's loss. -/
theorem loss_eq
    (hpre : Cert.Pre_input_domain.fn (F := Ideal) (m (d, (main_arg0 : DevRef τ sig))) (m (d, (main_arg1 : DevRef τ sig)))
      (m (d, (main_arg2 : DevRef τ sig))) (m (d, (main_arg3 : DevRef τ sig))) (m (d, (main_arg4 : DevRef τ sig)))
      (m (d, (main_arg5 : DevRef τ sig))) (m (d, (main_arg6 : DevRef τ sig))) (m (d, (main_arg7 : DevRef τ sig)))
      (m (d, (main_arg8 : DevRef τ sig))) (m (d, (main_arg9 : DevRef τ sig))) = fun _ => 1#1) :
    (W7 m d (main_v22 : DevRef τ sig) : S_.Idx → EReal)
      = Cert.Spec.lossArr (aX m d) (aW1 m d) (aB1 m d) (aW2 m d) (aB2 m d) (aWc m d) (aBc m d) (aIdx m d) (aLab m d) := by
  funext j
  rw [eq_ix0 j]
  refine (W7_v22 m d).trans ?_
  show k2_pay2 (F := Ideal) (Loss.acc (Vof (Wb m)) d 4 Loss.lt4) (ix2 (0 : Fin 1) (0 : Fin 1)) = _
  rw [Pay.loss_pay2, Loss.acc4_eq]
  show Ideal.div _ _ = Ideal.div _ _
  refine congrArg (fun z => Ideal.div z (Ideal.ofBits .f32 0x491C4000#32)) ?_
  show (((((Ideal.ofBits .f32 0x00000000#32
      + Loss.blockSum (F := Ideal) (Loss.blockRows (F := Ideal) (e := .f32) (Wb m d (main_v15 : DevRef τ sig)) 0) (Loss.blockRows (F := Ideal) (e := .f32) (Wb m d (main_v16 : DevRef τ sig)) 0) (Loss.blockRows (F := Ideal) (e := .i32) (Wb m d (main_v17 : DevRef τ sig)) 0))
      + Loss.blockSum (F := Ideal) (Loss.blockRows (F := Ideal) (e := .f32) (Wb m d (main_v15 : DevRef τ sig)) 1) (Loss.blockRows (F := Ideal) (e := .f32) (Wb m d (main_v16 : DevRef τ sig)) 1) (Loss.blockRows (F := Ideal) (e := .i32) (Wb m d (main_v17 : DevRef τ sig)) 1))
      + Loss.blockSum (F := Ideal) (Loss.blockRows (F := Ideal) (e := .f32) (Wb m d (main_v15 : DevRef τ sig)) 2) (Loss.blockRows (F := Ideal) (e := .f32) (Wb m d (main_v16 : DevRef τ sig)) 2) (Loss.blockRows (F := Ideal) (e := .i32) (Wb m d (main_v17 : DevRef τ sig)) 2))
      + Loss.blockSum (F := Ideal) (Loss.blockRows (F := Ideal) (e := .f32) (Wb m d (main_v15 : DevRef τ sig)) 3) (Loss.blockRows (F := Ideal) (e := .f32) (Wb m d (main_v16 : DevRef τ sig)) 3) (Loss.blockRows (F := Ideal) (e := .i32) (Wb m d (main_v17 : DevRef τ sig)) 3))
      + Loss.blockSum (F := Ideal) (Loss.blockRows (F := Ideal) (e := .f32) (Wb m d (main_v15 : DevRef τ sig)) 4) (Loss.blockRows (F := Ideal) (e := .f32) (Wb m d (main_v16 : DevRef τ sig)) 4) (Loss.blockRows (F := Ideal) (e := .i32) (Wb m d (main_v17 : DevRef τ sig)) 4))
    = _
  rw [Ideal.ofBits_zero_f32]
  refine (Core.blocks_total _ _ _ (Tile.Z0 (TAB m) (IA m) (IB m) d) (Tile.Z1 (TAB m) (IA m) (IB m) d) (aLab m d)
    (Wb_v15 m d) (Wb_v16 m d) (Wb_v17 m d)).trans ?_
  refine Finset.sum_congr rfl fun p _ => ?_
  obtain ⟨h0, h1⟩ := cols_eq m d (fun i => Cert.PreFacts.idx_lt hpre i) p
  rw [h0, h1]

end Pre

end Cert.KernelIdeal.Sc.Chain

end
-- ==== Proof.RefOps.lean ====
/-
  The reference program's @main written out as one straight line of host operations: the six outlined
  calls (the rectifier twice, the row lookup twice with its index wrap, the log-softmax, the lookup along
  the label axis) unfolded at their call sites over the calls' own buffers, 113 operations in all, and the
  run of that line: every weakly fair execution ends, each buffer holding the fold of the operations over
  the launch contents.
-/
import proofs.«208457_g31284541784245_cont_9to1_2229_14_alg».proof.ReferenceIdeal
import Idealize.ShloMosaic.Lib.StableHlo.Run

noncomputable section

namespace Cert.ReferenceIdeal.RefRun

open Cert.ReferenceIdeal Idealize.ShloMosaic Idealize.ShloMosaic.TcCoe Idealize.SL.Sem Idealize.ShloMosaic.StableHlo

variable {F : FTy → Type} [FloatOps F] [Facts]
open Facts₀ Facts

/-- @main's operations in order, each call's body listed at its call site over that call's buffers (a call's buffer
    written as the buffer itself, each operation's function at its operands' and result's types). -/
abbrev ops : List (HloOp τ sig (Elt F)) :=
  [ StableHlo.binary main_arg2 main_arg4 main_v0 ((fun l r => Host.dotGeneral dot_S10000x768_S768x64_S10000x64_1_0_0_1_n_n none l r) : (⟨S10000x768, .f32⟩ : BufTy).Contents (Elt F) → (⟨S768x64, .f32⟩ : BufTy).Contents (Elt F) → (⟨S10000x64, .f32⟩ : BufTy).Contents (Elt F)),
    StableHlo.unary main_arg5 main_v1 (broadcastInDim S1x64 ![1] bcast_S64_S1x64_1 : (⟨S64, .f32⟩ : BufTy).Contents (Elt F) → (⟨S1x64, .f32⟩ : BufTy).Contents (Elt F)),
    StableHlo.unary main_v1 main_v2 (broadcastInDim S10000x64 ![0, 1] bcast_S1x64_S10000x64_0_1 : (⟨S1x64, .f32⟩ : BufTy).Contents (Elt F) → (⟨S10000x64, .f32⟩ : BufTy).Contents (Elt F)),
    StableHlo.binary main_v0 main_v2 main_v3 (addf : (⟨S10000x64, .f32⟩ : BufTy).Contents (Elt F) → (⟨S10000x64, .f32⟩ : BufTy).Contents (Elt F) → (⟨S10000x64, .f32⟩ : BufTy).Contents (Elt F)),
    StableHlo.TRef.nullary main_call0.cst (constant S_ .f32 0x00000000#32),
    StableHlo.TRef.unary main_call0.cst main_call0.v0 (broadcastInDim S10000x64 ![] bcast_S_S10000x64),
    StableHlo.TRef.binary (.of main_v3 : StableHlo.TRef sig ⟨S10000x64, .f32⟩) main_call0.v0 main_call0.v1 maximumf,
    StableHlo.binary main_v4 main_arg6 main_v5 ((fun l r => Host.dotGeneral dot_S10000x64_S64x64_S10000x64_1_0_0_1_n_n none l r) : (⟨S10000x64, .f32⟩ : BufTy).Contents (Elt F) → (⟨S64x64, .f32⟩ : BufTy).Contents (Elt F) → (⟨S10000x64, .f32⟩ : BufTy).Contents (Elt F)),
    StableHlo.unary main_arg7 main_v6 (broadcastInDim S1x64 ![1] bcast_S64_S1x64_1 : (⟨S64, .f32⟩ : BufTy).Contents (Elt F) → (⟨S1x64, .f32⟩ : BufTy).Contents (Elt F)),
    StableHlo.unary main_v6 main_v7 (broadcastInDim S10000x64 ![0, 1] bcast_S1x64_S10000x64_0_1 : (⟨S1x64, .f32⟩ : BufTy).Contents (Elt F) → (⟨S10000x64, .f32⟩ : BufTy).Contents (Elt F)),
    StableHlo.binary main_v5 main_v7 main_v8 (addf : (⟨S10000x64, .f32⟩ : BufTy).Contents (Elt F) → (⟨S10000x64, .f32⟩ : BufTy).Contents (Elt F) → (⟨S10000x64, .f32⟩ : BufTy).Contents (Elt F)),
    StableHlo.TRef.nullary main_call1.cst (constant S_ .f32 0x00000000#32),
    StableHlo.TRef.unary main_call1.cst main_call1.v0 (broadcastInDim S10000x64 ![] bcast_S_S10000x64),
    StableHlo.TRef.binary (.of main_v8 : StableHlo.TRef sig ⟨S10000x64, .f32⟩) main_call1.v0 main_call1.v1 maximumf,
    StableHlo.unary main_arg0 main_v10 ((extractStridedSlice S640000x1 ![0, 0] · slices_S640000x2_S640000x1_0_0) : (⟨S640000x2, .i32⟩ : BufTy).Contents (Elt F) → (⟨S640000x1, .i32⟩ : BufTy).Contents (Elt F)),
    StableHlo.reshape main_v10 main_v11 rfl shapeCasts_S640000x1_S640000,
    StableHlo.TRef.nullary main_call2.c (constantI S_ 32 0#32),
    StableHlo.TRef.unary main_call2.c main_call2.v0 (broadcastInDim S640000 ![] bcast_S_S640000),
    StableHlo.TRef.binary (.of main_v11 : StableHlo.TRef sig ⟨S640000, .i32⟩) main_call2.v0 main_call2.v1 (cmpi .slt),
    StableHlo.TRef.nullary main_call2.c_0 (constantI S_ 32 10000#32),
    StableHlo.TRef.unary main_call2.c_0 main_call2.v2 (broadcastInDim S640000 ![] bcast_S_S640000),
    StableHlo.TRef.binary (.of main_v11 : StableHlo.TRef sig ⟨S640000, .i32⟩) main_call2.v2 main_call2.v3 addi,
    StableHlo.TRef.ternary main_call2.v1 main_call2.v3 (.of main_v11 : StableHlo.TRef sig ⟨S640000, .i32⟩) main_call2.call0.v0 select,
    StableHlo.TRef.unary main_call2.call0.v0 main_call2.v5 (broadcastInDim S640000x1 ![0] bcast_S640000_S640000x1_0),
    StableHlo.TRef.nullary main_call2.c_1 (constantI S1 32 9999#32),
    StableHlo.TRef.nullary main_call2.c_2 (constantI S_ 32 0#32),
    StableHlo.TRef.unary main_call2.c_2 main_call2.v6 (broadcastInDim S640000x1 ![] bcast_S_S640000x1),
    StableHlo.TRef.binary main_call2.v5 main_call2.v6 main_call2.v7 (cmpi .sge),
    StableHlo.TRef.unary main_call2.c_1 main_call2.v8 (broadcastInDim S1x1 ![1] bcast_S1_S1x1_1),
    StableHlo.TRef.unary main_call2.v8 main_call2.v9 (broadcastInDim S640000x1 ![0, 1] bcast_S1x1_S640000x1_0_1),
    StableHlo.TRef.binary main_call2.v5 main_call2.v9 main_call2.v10 (cmpi .sle),
    StableHlo.TRef.binary main_call2.v7 main_call2.v10 main_call2.v11 andi,
    StableHlo.TRef.nullary main_call2.c_3 (constantI S_ 1 1#1),
    StableHlo.TRef.binary main_call2.v11 main_call2.c_3 main_call2.v12 (fun x v => Host.reduce IntOp.andi x v reducesTo_S640000x1_S640000_d1 h_S_),
    StableHlo.TRef.binary (.of main_v9 : StableHlo.TRef sig ⟨S10000x64, .f32⟩) main_call2.v5 main_call2.v13 (fun x i => Host.gather gather_S10000x64_S640000x1_S640000x64_1_0_n_n_0_1_164 x i),
    StableHlo.TRef.unary main_call2.v12 main_call2.v14 (broadcastInDim S640000x64 ![0] bcast_S640000_S640000x64_0),
    StableHlo.TRef.nullary main_call2.cst (constant S_ .f32 0x7FC00000#32),
    StableHlo.TRef.unary main_call2.cst main_call2.v15 (broadcastInDim S640000x64 ![] bcast_S_S640000x64),
    StableHlo.TRef.ternary main_call2.v14 main_call2.v13 main_call2.v15 main_call2.v16 select,
    StableHlo.unary main_arg0 main_v13 ((extractStridedSlice S640000x1 ![0, 1] · slices_S640000x2_S640000x1_0_1) : (⟨S640000x2, .i32⟩ : BufTy).Contents (Elt F) → (⟨S640000x1, .i32⟩ : BufTy).Contents (Elt F)),
    StableHlo.reshape main_v13 main_v14 rfl shapeCasts_S640000x1_S640000,
    StableHlo.TRef.nullary main_call3.c (constantI S_ 32 0#32),
    StableHlo.TRef.unary main_call3.c main_call3.v0 (broadcastInDim S640000 ![] bcast_S_S640000),
    StableHlo.TRef.binary (.of main_v14 : StableHlo.TRef sig ⟨S640000, .i32⟩) main_call3.v0 main_call3.v1 (cmpi .slt),
    StableHlo.TRef.nullary main_call3.c_0 (constantI S_ 32 10000#32),
    StableHlo.TRef.unary main_call3.c_0 main_call3.v2 (broadcastInDim S640000 ![] bcast_S_S640000),
    StableHlo.TRef.binary (.of main_v14 : StableHlo.TRef sig ⟨S640000, .i32⟩) main_call3.v2 main_call3.v3 addi,
    StableHlo.TRef.ternary main_call3.v1 main_call3.v3 (.of main_v14 : StableHlo.TRef sig ⟨S640000, .i32⟩) main_call3.call0.v0 select,
    StableHlo.TRef.unary main_call3.call0.v0 main_call3.v5 (broadcastInDim S640000x1 ![0] bcast_S640000_S640000x1_0),
    StableHlo.TRef.nullary main_call3.c_1 (constantI S1 32 9999#32),
    StableHlo.TRef.nullary main_call3.c_2 (constantI S_ 32 0#32),
    StableHlo.TRef.unary main_call3.c_2 main_call3.v6 (broadcastInDim S640000x1 ![] bcast_S_S640000x1),
    StableHlo.TRef.binary main_call3.v5 main_call3.v6 main_call3.v7 (cmpi .sge),
    StableHlo.TRef.unary main_call3.c_1 main_call3.v8 (broadcastInDim S1x1 ![1] bcast_S1_S1x1_1),
    StableHlo.TRef.unary main_call3.v8 main_call3.v9 (broadcastInDim S640000x1 ![0, 1] bcast_S1x1_S640000x1_0_1),
    StableHlo.TRef.binary main_call3.v5 main_call3.v9 main_call3.v10 (cmpi .sle),
    StableHlo.TRef.binary main_call3.v7 main_call3.v10 main_call3.v11 andi,
    StableHlo.TRef.nullary main_call3.c_3 (constantI S_ 1 1#1),
    StableHlo.TRef.binary main_call3.v11 main_call3.c_3 main_call3.v12 (fun x v => Host.reduce IntOp.andi x v reducesTo_S640000x1_S640000_d1 h_S_),
    StableHlo.TRef.binary (.of main_v9 : StableHlo.TRef sig ⟨S10000x64, .f32⟩) main_call3.v5 main_call3.v13 (fun x i => Host.gather gather_S10000x64_S640000x1_S640000x64_1_0_n_n_0_1_164 x i),
    StableHlo.TRef.unary main_call3.v12 main_call3.v14 (broadcastInDim S640000x64 ![0] bcast_S640000_S640000x64_0),
    StableHlo.TRef.nullary main_call3.cst (constant S_ .f32 0x7FC00000#32),
    StableHlo.TRef.unary main_call3.cst main_call3.v15 (broadcastInDim S640000x64 ![] bcast_S_S640000x64),
    StableHlo.TRef.ternary main_call3.v14 main_call3.v13 main_call3.v15 main_call3.v16 select,
    StableHlo.binary main_v12 main_v15 main_v16 ((fun a b => concatenate S640000x128 1 [⟨S640000x64, a⟩, ⟨S640000x64, b⟩] concatenates_S640000x64_S640000x64_S640000x128_d1) : (⟨S640000x64, .f32⟩ : BufTy).Contents (Elt F) → (⟨S640000x64, .f32⟩ : BufTy).Contents (Elt F) → (⟨S640000x128, .f32⟩ : BufTy).Contents (Elt F)),
    StableHlo.binary main_v16 main_arg8 main_v17 ((fun l r => Host.dotGeneral dot_S640000x128_S128x2_S640000x2_1_0_0_1_n_n none l r) : (⟨S640000x128, .f32⟩ : BufTy).Contents (Elt F) → (⟨S128x2, .f32⟩ : BufTy).Contents (Elt F) → (⟨S640000x2, .f32⟩ : BufTy).Contents (Elt F)),
    StableHlo.unary main_arg9 main_v18 (broadcastInDim S1x2 ![1] bcast_S2_S1x2_1 : (⟨S2, .f32⟩ : BufTy).Contents (Elt F) → (⟨S1x2, .f32⟩ : BufTy).Contents (Elt F)),
    StableHlo.unary main_v18 main_v19 (broadcastInDim S640000x2 ![0, 1] bcast_S1x2_S640000x2_0_1 : (⟨S1x2, .f32⟩ : BufTy).Contents (Elt F) → (⟨S640000x2, .f32⟩ : BufTy).Contents (Elt F)),
    StableHlo.binary main_v17 main_v19 main_v20 (addf : (⟨S640000x2, .f32⟩ : BufTy).Contents (Elt F) → (⟨S640000x2, .f32⟩ : BufTy).Contents (Elt F) → (⟨S640000x2, .f32⟩ : BufTy).Contents (Elt F)),
    StableHlo.TRef.nullary main_call4.cst (constant S_ .f32 0xFF800000#32),
    StableHlo.TRef.binary (.of main_v20 : StableHlo.TRef sig ⟨S640000x2, .f32⟩) main_call4.cst main_call4.v0 (fun x v => Host.reduce FloatOps.maximumf x v reducesTo_S640000x2_S640000_d1 h_S_),
    StableHlo.TRef.nullary main_call4.cst_0 (constant S_ .f32 0xFF800000#32),
    StableHlo.TRef.unary main_call4.cst_0 main_call4.v1 (broadcastInDim S640000 ![] bcast_S_S640000),
    StableHlo.TRef.binary main_call4.v1 main_call4.v0 main_call4.v2 maximumf,
    StableHlo.TRef.unary main_call4.v2 main_call4.v3 (broadcastInDim S640000x1 ![0] bcast_S640000_S640000x1_0),
    StableHlo.TRef.unary main_call4.v3 main_call4.v4 (broadcastInDim S640000x2 ![0, 1] bcast_S640000x1_S640000x2_0_1),
    StableHlo.TRef.binary (.of main_v20 : StableHlo.TRef sig ⟨S640000x2, .f32⟩) main_call4.v4 main_call4.v5 subf,
    StableHlo.TRef.unary main_call4.v5 main_call4.v6 Host.exp,
    StableHlo.TRef.nullary main_call4.cst_1 (constant S_ .f32 0x00000000#32),
    StableHlo.TRef.binary main_call4.v6 main_call4.cst_1 main_call4.v7 (fun x v => Host.reduceAdd x v reducesTo_S640000x2_S640000_d1 h_S_),
    StableHlo.TRef.unary main_call4.v7 main_call4.v8 (broadcastInDim S640000x1 ![0] bcast_S640000_S640000x1_0),
    StableHlo.TRef.unary main_call4.v8 main_call4.v9 Host.log,
    StableHlo.TRef.unary main_call4.v9 main_call4.v10 (broadcastInDim S640000x2 ![0, 1] bcast_S640000x1_S640000x2_0_1),
    StableHlo.TRef.binary main_call4.v5 main_call4.v10 main_call4.v11 subf,
    StableHlo.unary main_arg3 main_v22 (broadcastInDim S640000x1 ![0] bcast_S640000_S640000x1_0 : (⟨S640000, .i32⟩ : BufTy).Contents (Elt F) → (⟨S640000x1, .i32⟩ : BufTy).Contents (Elt F)),
    StableHlo.TRef.nullary main_call5.c (constantI S_ 32 0#32),
    StableHlo.TRef.unary main_call5.c main_call5.v0 (broadcastInDim S640000x1 ![] bcast_S_S640000x1),
    StableHlo.TRef.binary (.of main_v22 : StableHlo.TRef sig ⟨S640000x1, .i32⟩) main_call5.v0 main_call5.v1 (cmpi .slt),
    StableHlo.TRef.nullary main_call5.c_0 (constantI S_ 32 2#32),
    StableHlo.TRef.unary main_call5.c_0 main_call5.v2 (broadcastInDim S640000x1 ![] bcast_S_S640000x1),
    StableHlo.TRef.binary (.of main_v22 : StableHlo.TRef sig ⟨S640000x1, .i32⟩) main_call5.v2 main_call5.v3 addi,
    StableHlo.TRef.ternary main_call5.v1 main_call5.v3 (.of main_v22 : StableHlo.TRef sig ⟨S640000x1, .i32⟩) main_call5.v4 select,
    StableHlo.TRef.reshape main_call5.v4 main_call5.v5 rfl shapeCasts_S640000x1_S640000x1x1,
    StableHlo.TRef.nullary main_call5.c_1 (constantI S1 32 1#32),
    StableHlo.TRef.nullary main_call5.c_2 (constantI S_ 32 0#32),
    StableHlo.TRef.unary main_call5.c_2 main_call5.v6 (broadcastInDim S640000x1x1 ![] bcast_S_S640000x1x1),
    StableHlo.TRef.binary main_call5.v5 main_call5.v6 main_call5.v7 (cmpi .sge),
    StableHlo.TRef.unary main_call5.c_1 main_call5.v8 (broadcastInDim S1x1x1 ![2] bcast_S1_S1x1x1_2),
    StableHlo.TRef.unary main_call5.v8 main_call5.v9 (broadcastInDim S640000x1x1 ![0, 1, 2] bcast_S1x1x1_S640000x1x1_0_1_2),
    StableHlo.TRef.binary main_call5.v5 main_call5.v9 main_call5.v10 (cmpi .sle),
    StableHlo.TRef.binary main_call5.v7 main_call5.v10 main_call5.v11 andi,
    StableHlo.TRef.nullary main_call5.c_3 (constantI S_ 1 1#1),
    StableHlo.TRef.binary main_call5.v11 main_call5.c_3 main_call5.v12 (fun x v => Host.reduce IntOp.andi x v reducesTo_S640000x1x1_S640000x1_d2 h_S_),
    StableHlo.TRef.binary (.of main_v21 : StableHlo.TRef sig ⟨S640000x2, .f32⟩) main_call5.v5 main_call5.v13 (fun x i => Host.gather gather_S640000x2_S640000x1x1_S640000x1_n_1_0_0_1_2_11 x i),
    StableHlo.TRef.nullary main_call5.cst (constant S_ .f32 0x7FC00000#32),
    StableHlo.TRef.unary main_call5.cst main_call5.v14 (broadcastInDim S640000x1 ![] bcast_S_S640000x1),
    StableHlo.TRef.ternary main_call5.v12 main_call5.v13 main_call5.v14 main_call5.v15 select,
    StableHlo.reshape main_v23 main_v24 rfl shapeCasts_S640000x1_S640000,
    StableHlo.unary main_v24 main_v25 (Host.negf : (⟨S640000, .f32⟩ : BufTy).Contents (Elt F) → (⟨S640000, .f32⟩ : BufTy).Contents (Elt F)),
    StableHlo.nullary main_cst (constant S_ .f32 0x00000000#32),
    StableHlo.binary main_v25 main_cst main_v26 ((fun x v => Host.reduceAdd x v reducesTo_S640000_S_d0 h_S_) : (⟨S640000, .f32⟩ : BufTy).Contents (Elt F) → (⟨S_, .f32⟩ : BufTy).Contents (Elt F) → (⟨S_, .f32⟩ : BufTy).Contents (Elt F)),
    StableHlo.nullary main_cst_0 (constant S_ .f32 0x491C4000#32),
    StableHlo.binary main_v26 main_cst_0 main_v27 (Host.divf : (⟨S_, .f32⟩ : BufTy).Contents (Elt F) → (⟨S_, .f32⟩ : BufTy).Contents (Elt F) → (⟨S_, .f32⟩ : BufTy).Contents (Elt F)) ]

-- the calls unfold to their bodies and the nested sequencing re-associates by computation
set_option maxRecDepth 8192 in
set_option maxHeartbeats 4000000 in
/-- @main is that straight line: each function's body stands at its call, and sequencing a sequence is the longer sequence. -/
theorem main_eq (c : Dev nD) : main (F := F) c = seq ops := rfl

theorem scopedRefs_eq : (Finset.univ.filter fun b : Ref sig .tc => b.isScoped) = ∅ := by decide
theorem scopedSems_eq : (Finset.univ.filter fun sm : SemLoc sig => sm.isScoped .tc) = ∅ := by decide

theorem ops_sub : (ops : List (HloOp τ sig (Elt F))).Forall fun op => op.bufs ⊆ tcRefs τ sig :=
  ⟨binary_bufs_sub .., unary_bufs_sub .., unary_bufs_sub .., binary_bufs_sub .., nullary_bufs_sub .., unary_bufs_sub ..,
    binary_bufs_sub .., binary_bufs_sub .., unary_bufs_sub .., unary_bufs_sub .., binary_bufs_sub .., nullary_bufs_sub ..,
    unary_bufs_sub .., binary_bufs_sub .., unary_bufs_sub .., reshape_bufs_sub .., nullary_bufs_sub .., unary_bufs_sub ..,
    binary_bufs_sub .., nullary_bufs_sub .., unary_bufs_sub .., binary_bufs_sub .., ternary_bufs_sub .., unary_bufs_sub ..,
    nullary_bufs_sub .., nullary_bufs_sub .., unary_bufs_sub .., binary_bufs_sub .., unary_bufs_sub .., unary_bufs_sub ..,
    binary_bufs_sub .., binary_bufs_sub .., nullary_bufs_sub .., binary_bufs_sub .., binary_bufs_sub .., unary_bufs_sub ..,
    nullary_bufs_sub .., unary_bufs_sub .., ternary_bufs_sub .., unary_bufs_sub .., reshape_bufs_sub .., nullary_bufs_sub ..,
    unary_bufs_sub .., binary_bufs_sub .., nullary_bufs_sub .., unary_bufs_sub .., binary_bufs_sub .., ternary_bufs_sub ..,
    unary_bufs_sub .., nullary_bufs_sub .., nullary_bufs_sub .., unary_bufs_sub .., binary_bufs_sub .., unary_bufs_sub ..,
    unary_bufs_sub .., binary_bufs_sub .., binary_bufs_sub .., nullary_bufs_sub .., binary_bufs_sub .., binary_bufs_sub ..,
    unary_bufs_sub .., nullary_bufs_sub .., unary_bufs_sub .., ternary_bufs_sub .., binary_bufs_sub .., binary_bufs_sub ..,
    unary_bufs_sub .., unary_bufs_sub .., binary_bufs_sub .., nullary_bufs_sub .., binary_bufs_sub .., nullary_bufs_sub ..,
    unary_bufs_sub .., binary_bufs_sub .., unary_bufs_sub .., unary_bufs_sub .., binary_bufs_sub .., unary_bufs_sub ..,
    nullary_bufs_sub .., binary_bufs_sub .., unary_bufs_sub .., unary_bufs_sub .., unary_bufs_sub .., binary_bufs_sub ..,
    unary_bufs_sub .., nullary_bufs_sub .., unary_bufs_sub .., binary_bufs_sub .., nullary_bufs_sub .., unary_bufs_sub ..,
    binary_bufs_sub .., ternary_bufs_sub .., reshape_bufs_sub .., nullary_bufs_sub .., nullary_bufs_sub .., unary_bufs_sub ..,
    binary_bufs_sub .., unary_bufs_sub .., unary_bufs_sub .., binary_bufs_sub .., binary_bufs_sub .., nullary_bufs_sub ..,
    binary_bufs_sub .., binary_bufs_sub .., nullary_bufs_sub .., unary_bufs_sub .., ternary_bufs_sub .., reshape_bufs_sub ..,
    unary_bufs_sub .., nullary_bufs_sub .., binary_bufs_sub .., nullary_bufs_sub .., binary_bufs_sub ..⟩

/-- Every weakly fair execution of @main ends, and every buffer then holds the fold of the operations
    over the contents the run started from. -/
theorem run_main (m : (ℓ : Loc nD τ sig) → Buf (Elt F) ℓ) (ρ : Dev nD → PrngReg) :
    θ_run defs (onTc (τ := τ) (main (F := F))) ⟨m, fun _ => 0, ρ⟩ fun r =>
      ∀ (c : Dev nD) (b : Ref sig .tc), r.2.mem ((c.tc : Thread nD τ).loc b) = after ops (launchContents m c) (b : DevRef τ sig) :=
  run_seq scopedRefs_eq scopedSems_eq defs main (fun _ => ops) main_eq (fun _ => ops_sub) m ρ

end Cert.ReferenceIdeal.RefRun

end
-- ==== Proof.RefTerms.lean ====
/-
  The reference's two results as pure terms of its argument arrays, stage by stage, in the order the program
  computes them: two dense layers with a rectifier each; for each column of the pair array the looked-up rows
  of the second layer (an index below zero is wrapped by the number of nodes, and a row whose wrapped index
  falls outside the table is filled with the not-a-number word); the two looked-up halves side by side against
  the classifier plus its bias (the logits); the log-softmax of the logits through the row maximum; the entry
  the label selects (same wrap, same fill); and minus the mean of those entries (the loss).
-/
import proofs.«208457_g31284541784245_cont_9to1_2229_14_alg».proof.ReferenceIdeal

noncomputable section

namespace Cert.ReferenceIdeal.RefRun

open Cert.ReferenceIdeal Idealize.ShloMosaic Idealize.SL.Sem

variable {F : FTy → Type} [FloatOps F] [Facts]
open Facts₀ Facts

/-- The rectifier: the maximum with the zero word broadcast. -/
def reluT (a : FVec F S10000x64 .f32) : FVec F S10000x64 .f32 :=
  maximumf a (broadcastInDim S10000x64 ![] bcast_S_S10000x64 (constant S_ .f32 0x00000000#32))

/-- A bias row broadcast over the nodes. -/
def biasT (b : FVec F S64 .f32) : FVec F S10000x64 .f32 :=
  broadcastInDim S10000x64 ![0, 1] bcast_S1x64_S10000x64_0_1 (broadcastInDim S1x64 ![1] bcast_S64_S1x64_1 b)

/-- The first hidden layer of every node. -/
def hid1T (x : FVec F S10000x768 .f32) (W1 : FVec F S768x64 .f32) (b1 : FVec F S64 .f32) : FVec F S10000x64 .f32 :=
  reluT (addf (Host.dotGeneral dot_S10000x768_S768x64_S10000x64_1_0_0_1_n_n none x W1) (biasT b1))

/-- The second hidden layer of every node, from the first. -/
def hid2T (h1 : FVec F S10000x64 .f32) (W2 : FVec F S64x64 .f32) (b2 : FVec F S64 .f32) : FVec F S10000x64 .f32 :=
  reluT (addf (Host.dotGeneral dot_S10000x64_S64x64_S10000x64_1_0_0_1_n_n none h1 W2) (biasT b2))

/-- Column 0 and column 1 of the pair array, each as a vector over the pairs. -/
def col0T (idx : IVec S640000x2 32) : IVec S640000 32 :=
  shapeCast S640000 (extractStridedSlice S640000x1 ![0, 0] idx slices_S640000x2_S640000x1_0_0) shapeCasts_S640000x1_S640000
def col1T (idx : IVec S640000x2 32) : IVec S640000 32 :=
  shapeCast S640000 (extractStridedSlice S640000x1 ![0, 1] idx slices_S640000x2_S640000x1_0_1) shapeCasts_S640000x1_S640000

/-- The lookup's index column: an index below zero has the number of nodes added. -/
def wrapT (ix : IVec S640000 32) : IVec S640000x1 32 :=
  broadcastInDim S640000x1 ![0] bcast_S640000_S640000x1_0
    (select (cmpi .slt ix (broadcastInDim S640000 ![] bcast_S_S640000 (constantI S_ 32 0#32)))
      (addi ix (broadcastInDim S640000 ![] bcast_S_S640000 (constantI S_ 32 10000#32))) ix)

/-- Per pair, whether the wrapped index names a row of the table: at least 0 and at most 9999. -/
def inRangeT (w : IVec S640000x1 32) : IVec S640000 1 :=
  Host.reduce IntOp.andi
    (andi (cmpi .sge w (broadcastInDim S640000x1 ![] bcast_S_S640000x1 (constantI S_ 32 0#32)))
      (cmpi .sle w (broadcastInDim S640000x1 ![0, 1] bcast_S1x1_S640000x1_0_1
        (broadcastInDim S1x1 ![1] bcast_S1_S1x1_1 (constantI S1 32 9999#32)))))
    (constantI S_ 1 1#1) reducesTo_S640000x1_S640000_d1 h_S_

/-- The rows of `h` a wrapped index column names, each kept where `ok` says its index is in range and the
    not-a-number word elsewhere. -/
def takeSelT (ok : IVec S640000 1) (h : FVec F S10000x64 .f32) (w : IVec S640000x1 32) : FVec F S640000x64 .f32 :=
  select (broadcastInDim S640000x64 ![0] bcast_S640000_S640000x64_0 ok)
    (Host.gather gather_S10000x64_S640000x1_S640000x64_1_0_n_n_0_1_164 h w)
    (broadcastInDim S640000x64 ![] bcast_S_S640000x64 (constant S_ .f32 0x7FC00000#32))

/-- The rows of `h` the index vector names; a row whose index is out of range is the not-a-number word. -/
def takeT (h : FVec F S10000x64 .f32) (ix : IVec S640000 32) : FVec F S640000x64 .f32 :=
  takeSelT (inRangeT (wrapT ix)) h (wrapT ix)

/-- Two looked-up halves side by side against the classifier, plus its bias. -/
def classT (a b : FVec F S640000x64 .f32) (Wc : FVec F S128x2 .f32) (bc : FVec F S2 .f32) : FVec F S640000x2 .f32 :=
  addf
    (Host.dotGeneral dot_S640000x128_S128x2_S640000x2_1_0_0_1_n_n none
      (concatenate S640000x128 1 [⟨S640000x64, a⟩, ⟨S640000x64, b⟩] concatenates_S640000x64_S640000x64_S640000x128_d1) Wc)
    (broadcastInDim S640000x2 ![0, 1] bcast_S1x2_S640000x2_0_1 (broadcastInDim S1x2 ![1] bcast_S2_S1x2_1 bc))

/-- The logits from the second hidden layer: the rows the two columns of the pair array name, classified. -/
def logitsFrom (h : FVec F S10000x64 .f32) (Wc : FVec F S128x2 .f32) (bc : FVec F S2 .f32) (idx : IVec S640000x2 32) :
    FVec F S640000x2 .f32 :=
  classT (takeT h (col0T idx)) (takeT h (col1T idx)) Wc bc

/-- The logits as a term of the argument arrays. -/
def logitsOf (x : FVec F S10000x768 .f32) (W1 : FVec F S768x64 .f32) (b1 : FVec F S64 .f32) (W2 : FVec F S64x64 .f32)
    (b2 : FVec F S64 .f32) (Wc : FVec F S128x2 .f32) (bc : FVec F S2 .f32) (idx : IVec S640000x2 32) : FVec F S640000x2 .f32 :=
  logitsFrom (hid2T (hid1T x W1 b1) W2 b2) Wc bc idx

/-- Per pair, the maximum of the two logits folded from minus infinity (the reduction at the types the program's
    own operation names for its operands, so that the two spellings are one term). -/
def rowMaxT (z : FVec F S640000x2 .f32) : FVec F S640000 .f32 :=
  ((fun x v => Host.reduce FloatOps.maximumf x v reducesTo_S640000x2_S640000_d1 h_S_) :
    (⟨S640000x2, .f32⟩ : BufTy).Contents (Elt F) → (⟨S_, .f32⟩ : BufTy).Contents (Elt F) → (⟨S640000, .f32⟩ : BufTy).Contents (Elt F))
    z (constant S_ .f32 0xFF800000#32)

/-- The logits minus a per-pair value `m` taken once more against minus infinity, broadcast over the two labels. -/
def shiftOfMaxT (z : FVec F S640000x2 .f32) (m : FVec F S640000 .f32) : FVec F S640000x2 .f32 :=
  subf z (broadcastInDim S640000x2 ![0, 1] bcast_S640000x1_S640000x2_0_1
    (broadcastInDim S640000x1 ![0] bcast_S640000_S640000x1_0
      (maximumf (broadcastInDim S640000 ![] bcast_S_S640000 (constant S_ .f32 0xFF800000#32)) m)))

/-- The logits minus their row maximum. -/
def shiftT (z : FVec F S640000x2 .f32) : FVec F S640000x2 .f32 := shiftOfMaxT z (rowMaxT z)

/-- From the shifted logits: each minus the logarithm of the row's sum of exponentials. -/
def lsmOfShiftT (s : FVec F S640000x2 .f32) : FVec F S640000x2 .f32 :=
  subf s (broadcastInDim S640000x2 ![0, 1] bcast_S640000x1_S640000x2_0_1
    (Host.log (broadcastInDim S640000x1 ![0] bcast_S640000_S640000x1_0
      (Host.reduceAdd (Host.exp s) (constant S_ .f32 0x00000000#32) reducesTo_S640000x2_S640000_d1 h_S_))))

/-- The log-softmax of the logits along the label axis. -/
def logSoftmaxT (z : FVec F S640000x2 .f32) : FVec F S640000x2 .f32 := lsmOfShiftT (shiftT z)

/-- The label column as the lookup's index array: a label below zero has 2 added. -/
def labIdxT (lab : IVec S640000 32) : IVec S640000x1x1 32 :=
  shapeCast S640000x1x1
    (select (cmpi .slt (broadcastInDim S640000x1 ![0] bcast_S640000_S640000x1_0 lab)
        (broadcastInDim S640000x1 ![] bcast_S_S640000x1 (constantI S_ 32 0#32)))
      (addi (broadcastInDim S640000x1 ![0] bcast_S640000_S640000x1_0 lab)
        (broadcastInDim S640000x1 ![] bcast_S_S640000x1 (constantI S_ 32 2#32)))
      (broadcastInDim S640000x1 ![0] bcast_S640000_S640000x1_0 lab))
    shapeCasts_S640000x1_S640000x1x1

/-- Per pair, whether the wrapped label is 0 or 1. -/
def labInRangeT (w : IVec S640000x1x1 32) : IVec S640000x1 1 :=
  Host.reduce IntOp.andi
    (andi (cmpi .sge w (broadcastInDim S640000x1x1 ![] bcast_S_S640000x1x1 (constantI S_ 32 0#32)))
      (cmpi .sle w (broadcastInDim S640000x1x1 ![0, 1, 2] bcast_S1x1x1_S640000x1x1_0_1_2
        (broadcastInDim S1x1x1 ![2] bcast_S1_S1x1x1_2 (constantI S1 32 1#32)))))
    (constantI S_ 1 1#1) reducesTo_S640000x1x1_S640000x1_d2 h_S_

/-- Per pair, the entry of `ls` a wrapped label array names, kept where `ok` says the label is in range and the
    not-a-number word elsewhere. -/
def pickSelT (ok : IVec S640000x1 1) (ls : FVec F S640000x2 .f32) (w : IVec S640000x1x1 32) : FVec F S640000x1 .f32 :=
  select ok (Host.gather gather_S640000x2_S640000x1x1_S640000x1_n_1_0_0_1_2_11 ls w)
    (broadcastInDim S640000x1 ![] bcast_S_S640000x1 (constant S_ .f32 0x7FC00000#32))

/-- Per pair, the entry of `ls` the label selects; the not-a-number word where the label is out of range. -/
def pickT (ls : FVec F S640000x2 .f32) (lab : IVec S640000 32) : FVec F S640000x1 .f32 :=
  pickSelT (labInRangeT (labIdxT lab)) ls (labIdxT lab)

/-- Minus the column's entries, summed from the zero word, over the word of 640000. -/
def meanNegT (p : FVec F S640000x1 .f32) : FVec F S_ .f32 :=
  Host.divf
    (Host.reduceAdd (Host.negf (shapeCast S640000 p shapeCasts_S640000x1_S640000))
      (constant S_ .f32 0x00000000#32) reducesTo_S640000_S_d0 h_S_)
    (constant S_ .f32 0x491C4000#32)

/-- The loss from the logits and the labels: minus the mean over the pairs of the selected log-probability. -/
def lossOf (z : FVec F S640000x2 .f32) (lab : IVec S640000 32) : FVec F S_ .f32 :=
  meanNegT (pickT (logSoftmaxT z) lab)

/-- The logits, and the loss, as terms of core `c`'s ten argument buffers. -/
def logitsTerm (m : (ℓ : Loc nD τ sig) → Buf (Elt F) ℓ) (c : Dev nD) : FVec F S640000x2 .f32 :=
  logitsOf (m ((c.tc : Thread nD τ).loc main_arg2)) (m ((c.tc : Thread nD τ).loc main_arg4)) (m ((c.tc : Thread nD τ).loc main_arg5))
    (m ((c.tc : Thread nD τ).loc main_arg6)) (m ((c.tc : Thread nD τ).loc main_arg7)) (m ((c.tc : Thread nD τ).loc main_arg8))
    (m ((c.tc : Thread nD τ).loc main_arg9)) (m ((c.tc : Thread nD τ).loc main_arg0))
def lossTerm (m : (ℓ : Loc nD τ sig) → Buf (Elt F) ℓ) (c : Dev nD) : FVec F S_ .f32 :=
  lossOf (logitsTerm m c) (m ((c.tc : Thread nD τ).loc main_arg3))

end Cert.ReferenceIdeal.RefRun

end
-- ==== Proof.RefStages.lean ====
/-
  The reference's line of 113 operations read in seventeen short stretches, one per stage of the computation (the
  dense layers; per column of the pair array its index vector, the wrapped index column, the in-range mask and the
  masked rows; the classifier; the row maximum, the shifted logits, the log-softmax, the label index array, its mask,
  the selected entries, the mean): what each stretch's result buffer holds as a pure term of the buffers the stretch
  starts from, and that every other buffer a later stretch reads is left as it was.
-/
import proofs.«208457_g31284541784245_cont_9to1_2229_14_alg».proof.Proof.RefOps
import proofs.«208457_g31284541784245_cont_9to1_2229_14_alg».proof.Proof.RefTerms

noncomputable section

namespace Cert.ReferenceIdeal.RefRun

open Cert.ReferenceIdeal Idealize.ShloMosaic Idealize.ShloMosaic.TcCoe Idealize.SL.Sem Idealize.ShloMosaic.StableHlo

variable {F : FTy → Type} [FloatOps F] [Facts]
open Facts₀ Facts

/-! ## The stretches -/

/-- The two dense layers, each with its rectifier. -/
def opsH : List (HloOp τ sig (Elt F)) :=
  [ StableHlo.binary main_arg2 main_arg4 main_v0 ((fun l r => Host.dotGeneral dot_S10000x768_S768x64_S10000x64_1_0_0_1_n_n none l r) : (⟨S10000x768, .f32⟩ : BufTy).Contents (Elt F) → (⟨S768x64, .f32⟩ : BufTy).Contents (Elt F) → (⟨S10000x64, .f32⟩ : BufTy).Contents (Elt F)),
    StableHlo.unary main_arg5 main_v1 (broadcastInDim S1x64 ![1] bcast_S64_S1x64_1 : (⟨S64, .f32⟩ : BufTy).Contents (Elt F) → (⟨S1x64, .f32⟩ : BufTy).Contents (Elt F)),
    StableHlo.unary main_v1 main_v2 (broadcastInDim S10000x64 ![0, 1] bcast_S1x64_S10000x64_0_1 : (⟨S1x64, .f32⟩ : BufTy).Contents (Elt F) → (⟨S10000x64, .f32⟩ : BufTy).Contents (Elt F)),
    StableHlo.binary main_v0 main_v2 main_v3 (addf : (⟨S10000x64, .f32⟩ : BufTy).Contents (Elt F) → (⟨S10000x64, .f32⟩ : BufTy).Contents (Elt F) → (⟨S10000x64, .f32⟩ : BufTy).Contents (Elt F)),
    StableHlo.TRef.nullary main_call0.cst (constant S_ .f32 0x00000000#32),
    StableHlo.TRef.unary main_call0.cst main_call0.v0 (broadcastInDim S10000x64 ![] bcast_S_S10000x64),
    StableHlo.TRef.binary (.of main_v3 : StableHlo.TRef sig ⟨S10000x64, .f32⟩) main_call0.v0 main_call0.v1 maximumf,
    StableHlo.binary main_v4 main_arg6 main_v5 ((fun l r => Host.dotGeneral dot_S10000x64_S64x64_S10000x64_1_0_0_1_n_n none l r) : (⟨S10000x64, .f32⟩ : BufTy).Contents (Elt F) → (⟨S64x64, .f32⟩ : BufTy).Contents (Elt F) → (⟨S10000x64, .f32⟩ : BufTy).Contents (Elt F)),
    StableHlo.unary main_arg7 main_v6 (broadcastInDim S1x64 ![1] bcast_S64_S1x64_1 : (⟨S64, .f32⟩ : BufTy).Contents (Elt F) → (⟨S1x64, .f32⟩ : BufTy).Contents (Elt F)),
    StableHlo.unary main_v6 main_v7 (broadcastInDim S10000x64 ![0, 1] bcast_S1x64_S10000x64_0_1 : (⟨S1x64, .f32⟩ : BufTy).Contents (Elt F) → (⟨S10000x64, .f32⟩ : BufTy).Contents (Elt F)),
    StableHlo.binary main_v5 main_v7 main_v8 (addf : (⟨S10000x64, .f32⟩ : BufTy).Contents (Elt F) → (⟨S10000x64, .f32⟩ : BufTy).Contents (Elt F) → (⟨S10000x64, .f32⟩ : BufTy).Contents (Elt F)),
    StableHlo.TRef.nullary main_call1.cst (constant S_ .f32 0x00000000#32),
    StableHlo.TRef.unary main_call1.cst main_call1.v0 (broadcastInDim S10000x64 ![] bcast_S_S10000x64),
    StableHlo.TRef.binary (.of main_v8 : StableHlo.TRef sig ⟨S10000x64, .f32⟩) main_call1.v0 main_call1.v1 maximumf ]

/-- Column 0 of the pair array. -/
def opsL1 : List (HloOp τ sig (Elt F)) :=
  [ StableHlo.unary main_arg0 main_v10 ((extractStridedSlice S640000x1 ![0, 0] · slices_S640000x2_S640000x1_0_0) : (⟨S640000x2, .i32⟩ : BufTy).Contents (Elt F) → (⟨S640000x1, .i32⟩ : BufTy).Contents (Elt F)),
    StableHlo.reshape main_v10 main_v11 rfl shapeCasts_S640000x1_S640000 ]

/-- The first lookup's wrapped index column. -/
def opsL2 : List (HloOp τ sig (Elt F)) :=
  [ StableHlo.TRef.nullary main_call2.c (constantI S_ 32 0#32),
    StableHlo.TRef.unary main_call2.c main_call2.v0 (broadcastInDim S640000 ![] bcast_S_S640000),
    StableHlo.TRef.binary (.of main_v11 : StableHlo.TRef sig ⟨S640000, .i32⟩) main_call2.v0 main_call2.v1 (cmpi .slt),
    StableHlo.TRef.nullary main_call2.c_0 (constantI S_ 32 10000#32),
    StableHlo.TRef.unary main_call2.c_0 main_call2.v2 (broadcastInDim S640000 ![] bcast_S_S640000),
    StableHlo.TRef.binary (.of main_v11 : StableHlo.TRef sig ⟨S640000, .i32⟩) main_call2.v2 main_call2.v3 addi,
    StableHlo.TRef.ternary main_call2.v1 main_call2.v3 (.of main_v11 : StableHlo.TRef sig ⟨S640000, .i32⟩) main_call2.call0.v0 select,
    StableHlo.TRef.unary main_call2.call0.v0 main_call2.v5 (broadcastInDim S640000x1 ![0] bcast_S640000_S640000x1_0) ]

/-- The first lookup's in-range mask. -/
def opsL3 : List (HloOp τ sig (Elt F)) :=
  [ StableHlo.TRef.nullary main_call2.c_1 (constantI S1 32 9999#32),
    StableHlo.TRef.nullary main_call2.c_2 (constantI S_ 32 0#32),
    StableHlo.TRef.unary main_call2.c_2 main_call2.v6 (broadcastInDim S640000x1 ![] bcast_S_S640000x1),
    StableHlo.TRef.binary main_call2.v5 main_call2.v6 main_call2.v7 (cmpi .sge),
    StableHlo.TRef.unary main_call2.c_1 main_call2.v8 (broadcastInDim S1x1 ![1] bcast_S1_S1x1_1),
    StableHlo.TRef.unary main_call2.v8 main_call2.v9 (broadcastInDim S640000x1 ![0, 1] bcast_S1x1_S640000x1_0_1),
    StableHlo.TRef.binary main_call2.v5 main_call2.v9 main_call2.v10 (cmpi .sle),
    StableHlo.TRef.binary main_call2.v7 main_call2.v10 main_call2.v11 andi,
    StableHlo.TRef.nullary main_call2.c_3 (constantI S_ 1 1#1),
    StableHlo.TRef.binary main_call2.v11 main_call2.c_3 main_call2.v12 (fun x v => Host.reduce IntOp.andi x v reducesTo_S640000x1_S640000_d1 h_S_) ]

/-- The first lookup's rows, masked. -/
def opsL4 : List (HloOp τ sig (Elt F)) :=
  [ StableHlo.TRef.binary (.of main_v9 : StableHlo.TRef sig ⟨S10000x64, .f32⟩) main_call2.v5 main_call2.v13 (fun x i => Host.gather gather_S10000x64_S640000x1_S640000x64_1_0_n_n_0_1_164 x i),
    StableHlo.TRef.unary main_call2.v12 main_call2.v14 (broadcastInDim S640000x64 ![0] bcast_S640000_S640000x64_0),
    StableHlo.TRef.nullary main_call2.cst (constant S_ .f32 0x7FC00000#32),
    StableHlo.TRef.unary main_call2.cst main_call2.v15 (broadcastInDim S640000x64 ![] bcast_S_S640000x64),
    StableHlo.TRef.ternary main_call2.v14 main_call2.v13 main_call2.v15 main_call2.v16 select ]

/-- Column 1 of the pair array. -/
def opsL5 : List (HloOp τ sig (Elt F)) :=
  [ StableHlo.unary main_arg0 main_v13 ((extractStridedSlice S640000x1 ![0, 1] · slices_S640000x2_S640000x1_0_1) : (⟨S640000x2, .i32⟩ : BufTy).Contents (Elt F) → (⟨S640000x1, .i32⟩ : BufTy).Contents (Elt F)),
    StableHlo.reshape main_v13 main_v14 rfl shapeCasts_S640000x1_S640000 ]

/-- The second lookup's wrapped index column. -/
def opsL6 : List (HloOp τ sig (Elt F)) :=
  [ StableHlo.TRef.nullary main_call3.c (constantI S_ 32 0#32),
    StableHlo.TRef.unary main_call3.c main_call3.v0 (broadcastInDim S640000 ![] bcast_S_S640000),
    StableHlo.TRef.binary (.of main_v14 : StableHlo.TRef sig ⟨S640000, .i32⟩) main_call3.v0 main_call3.v1 (cmpi .slt),
    StableHlo.TRef.nullary main_call3.c_0 (constantI S_ 32 10000#32),
    StableHlo.TRef.unary main_call3.c_0 main_call3.v2 (broadcastInDim S640000 ![] bcast_S_S640000),
    StableHlo.TRef.binary (.of main_v14 : StableHlo.TRef sig ⟨S640000, .i32⟩) main_call3.v2 main_call3.v3 addi,
    StableHlo.TRef.ternary main_call3.v1 main_call3.v3 (.of main_v14 : StableHlo.TRef sig ⟨S640000, .i32⟩) main_call3.call0.v0 select,
    StableHlo.TRef.unary main_call3.call0.v0 main_call3.v5 (broadcastInDim S640000x1 ![0] bcast_S640000_S640000x1_0) ]

/-- The second lookup's in-range mask. -/
def opsL7 : List (HloOp τ sig (Elt F)) :=
  [ StableHlo.TRef.nullary main_call3.c_1 (constantI S1 32 9999#32),
    StableHlo.TRef.nullary main_call3.c_2 (constantI S_ 32 0#32),
    StableHlo.TRef.unary main_call3.c_2 main_call3.v6 (broadcastInDim S640000x1 ![] bcast_S_S640000x1),
    StableHlo.TRef.binary main_call3.v5 main_call3.v6 main_call3.v7 (cmpi .sge),
    StableHlo.TRef.unary main_call3.c_1 main_call3.v8 (broadcastInDim S1x1 ![1] bcast_S1_S1x1_1),
    StableHlo.TRef.unary main_call3.v8 main_call3.v9 (broadcastInDim S640000x1 ![0, 1] bcast_S1x1_S640000x1_0_1),
    StableHlo.TRef.binary main_call3.v5 main_call3.v9 main_call3.v10 (cmpi .sle),
    StableHlo.TRef.binary main_call3.v7 main_call3.v10 main_call3.v11 andi,
    StableHlo.TRef.nullary main_call3.c_3 (constantI S_ 1 1#1),
    StableHlo.TRef.binary main_call3.v11 main_call3.c_3 main_call3.v12 (fun x v => Host.reduce IntOp.andi x v reducesTo_S640000x1_S640000_d1 h_S_) ]

/-- The second lookup's rows, masked. -/
def opsL8 : List (HloOp τ sig (Elt F)) :=
  [ StableHlo.TRef.binary (.of main_v9 : StableHlo.TRef sig ⟨S10000x64, .f32⟩) main_call3.v5 main_call3.v13 (fun x i => Host.gather gather_S10000x64_S640000x1_S640000x64_1_0_n_n_0_1_164 x i),
    StableHlo.TRef.unary main_call3.v12 main_call3.v14 (broadcastInDim S640000x64 ![0] bcast_S640000_S640000x64_0),
    StableHlo.TRef.nullary main_call3.cst (constant S_ .f32 0x7FC00000#32),
    StableHlo.TRef.unary main_call3.cst main_call3.v15 (broadcastInDim S640000x64 ![] bcast_S_S640000x64),
    StableHlo.TRef.ternary main_call3.v14 main_call3.v13 main_call3.v15 main_call3.v16 select ]

/-- The two halves side by side against the classifier, plus its bias. -/
def opsL9 : List (HloOp τ sig (Elt F)) :=
  [ StableHlo.binary main_v12 main_v15 main_v16 ((fun a b => concatenate S640000x128 1 [⟨S640000x64, a⟩, ⟨S640000x64, b⟩] concatenates_S640000x64_S640000x64_S640000x128_d1) : (⟨S640000x64, .f32⟩ : BufTy).Contents (Elt F) → (⟨S640000x64, .f32⟩ : BufTy).Contents (Elt F) → (⟨S640000x128, .f32⟩ : BufTy).Contents (Elt F)),
    StableHlo.binary main_v16 main_arg8 main_v17 ((fun l r => Host.dotGeneral dot_S640000x128_S128x2_S640000x2_1_0_0_1_n_n none l r) : (⟨S640000x128, .f32⟩ : BufTy).Contents (Elt F) → (⟨S128x2, .f32⟩ : BufTy).Contents (Elt F) → (⟨S640000x2, .f32⟩ : BufTy).Contents (Elt F)),
    StableHlo.unary main_arg9 main_v18 (broadcastInDim S1x2 ![1] bcast_S2_S1x2_1 : (⟨S2, .f32⟩ : BufTy).Contents (Elt F) → (⟨S1x2, .f32⟩ : BufTy).Contents (Elt F)),
    StableHlo.unary main_v18 main_v19 (broadcastInDim S640000x2 ![0, 1] bcast_S1x2_S640000x2_0_1 : (⟨S1x2, .f32⟩ : BufTy).Contents (Elt F) → (⟨S640000x2, .f32⟩ : BufTy).Contents (Elt F)),
    StableHlo.binary main_v17 main_v19 main_v20 (addf : (⟨S640000x2, .f32⟩ : BufTy).Contents (Elt F) → (⟨S640000x2, .f32⟩ : BufTy).Contents (Elt F) → (⟨S640000x2, .f32⟩ : BufTy).Contents (Elt F)) ]

/-- Per pair, the maximum of the two logits from minus infinity. -/
def opsS1a : List (HloOp τ sig (Elt F)) :=
  [ StableHlo.TRef.nullary main_call4.cst (constant S_ .f32 0xFF800000#32),
    StableHlo.TRef.binary (.of main_v20 : StableHlo.TRef sig ⟨S640000x2, .f32⟩) main_call4.cst main_call4.v0 (fun x v => Host.reduce FloatOps.maximumf x v reducesTo_S640000x2_S640000_d1 h_S_) ]

/-- The logits minus their row maximum. -/
def opsS1b : List (HloOp τ sig (Elt F)) :=
  [ StableHlo.TRef.nullary main_call4.cst_0 (constant S_ .f32 0xFF800000#32),
    StableHlo.TRef.unary main_call4.cst_0 main_call4.v1 (broadcastInDim S640000 ![] bcast_S_S640000),
    StableHlo.TRef.binary main_call4.v1 main_call4.v0 main_call4.v2 maximumf,
    StableHlo.TRef.unary main_call4.v2 main_call4.v3 (broadcastInDim S640000x1 ![0] bcast_S640000_S640000x1_0),
    StableHlo.TRef.unary main_call4.v3 main_call4.v4 (broadcastInDim S640000x2 ![0, 1] bcast_S640000x1_S640000x2_0_1),
    StableHlo.TRef.binary (.of main_v20 : StableHlo.TRef sig ⟨S640000x2, .f32⟩) main_call4.v4 main_call4.v5 subf ]

/-- The log-softmax from the shifted logits. -/
def opsS2 : List (HloOp τ sig (Elt F)) :=
  [ StableHlo.TRef.unary main_call4.v5 main_call4.v6 Host.exp,
    StableHlo.TRef.nullary main_call4.cst_1 (constant S_ .f32 0x00000000#32),
    StableHlo.TRef.binary main_call4.v6 main_call4.cst_1 main_call4.v7 (fun x v => Host.reduceAdd x v reducesTo_S640000x2_S640000_d1 h_S_),
    StableHlo.TRef.unary main_call4.v7 main_call4.v8 (broadcastInDim S640000x1 ![0] bcast_S640000_S640000x1_0),
    StableHlo.TRef.unary main_call4.v8 main_call4.v9 Host.log,
    StableHlo.TRef.unary main_call4.v9 main_call4.v10 (broadcastInDim S640000x2 ![0, 1] bcast_S640000x1_S640000x2_0_1),
    StableHlo.TRef.binary main_call4.v5 main_call4.v10 main_call4.v11 subf ]

/-- The labels as the lookup's wrapped index array. -/
def opsS3 : List (HloOp τ sig (Elt F)) :=
  [ StableHlo.unary main_arg3 main_v22 (broadcastInDim S640000x1 ![0] bcast_S640000_S640000x1_0 : (⟨S640000, .i32⟩ : BufTy).Contents (Elt F) → (⟨S640000x1, .i32⟩ : BufTy).Contents (Elt F)),
    StableHlo.TRef.nullary main_call5.c (constantI S_ 32 0#32),
    StableHlo.TRef.unary main_call5.c main_call5.v0 (broadcastInDim S640000x1 ![] bcast_S_S640000x1),
    StableHlo.TRef.binary (.of main_v22 : StableHlo.TRef sig ⟨S640000x1, .i32⟩) main_call5.v0 main_call5.v1 (cmpi .slt),
    StableHlo.TRef.nullary main_call5.c_0 (constantI S_ 32 2#32),
    StableHlo.TRef.unary main_call5.c_0 main_call5.v2 (broadcastInDim S640000x1 ![] bcast_S_S640000x1),
    StableHlo.TRef.binary (.of main_v22 : StableHlo.TRef sig ⟨S640000x1, .i32⟩) main_call5.v2 main_call5.v3 addi,
    StableHlo.TRef.ternary main_call5.v1 main_call5.v3 (.of main_v22 : StableHlo.TRef sig ⟨S640000x1, .i32⟩) main_call5.v4 select,
    StableHlo.TRef.reshape main_call5.v4 main_call5.v5 rfl shapeCasts_S640000x1_S640000x1x1 ]

/-- The label lookup's in-range mask. -/
def opsS4 : List (HloOp τ sig (Elt F)) :=
  [ StableHlo.TRef.nullary main_call5.c_1 (constantI S1 32 1#32),
    StableHlo.TRef.nullary main_call5.c_2 (constantI S_ 32 0#32),
    StableHlo.TRef.unary main_call5.c_2 main_call5.v6 (broadcastInDim S640000x1x1 ![] bcast_S_S640000x1x1),
    StableHlo.TRef.binary main_call5.v5 main_call5.v6 main_call5.v7 (cmpi .sge),
    StableHlo.TRef.unary main_call5.c_1 main_call5.v8 (broadcastInDim S1x1x1 ![2] bcast_S1_S1x1x1_2),
    StableHlo.TRef.unary main_call5.v8 main_call5.v9 (broadcastInDim S640000x1x1 ![0, 1, 2] bcast_S1x1x1_S640000x1x1_0_1_2),
    StableHlo.TRef.binary main_call5.v5 main_call5.v9 main_call5.v10 (cmpi .sle),
    StableHlo.TRef.binary main_call5.v7 main_call5.v10 main_call5.v11 andi,
    StableHlo.TRef.nullary main_call5.c_3 (constantI S_ 1 1#1),
    StableHlo.TRef.binary main_call5.v11 main_call5.c_3 main_call5.v12 (fun x v => Host.reduce IntOp.andi x v reducesTo_S640000x1x1_S640000x1_d2 h_S_) ]

/-- The selected log-probabilities, masked. -/
def opsS5 : List (HloOp τ sig (Elt F)) :=
  [ StableHlo.TRef.binary (.of main_v21 : StableHlo.TRef sig ⟨S640000x2, .f32⟩) main_call5.v5 main_call5.v13 (fun x i => Host.gather gather_S640000x2_S640000x1x1_S640000x1_n_1_0_0_1_2_11 x i),
    StableHlo.TRef.nullary main_call5.cst (constant S_ .f32 0x7FC00000#32),
    StableHlo.TRef.unary main_call5.cst main_call5.v14 (broadcastInDim S640000x1 ![] bcast_S_S640000x1),
    StableHlo.TRef.ternary main_call5.v12 main_call5.v13 main_call5.v14 main_call5.v15 select ]

/-- Minus the mean of the selected log-probabilities. -/
def opsS6 : List (HloOp τ sig (Elt F)) :=
  [ StableHlo.reshape main_v23 main_v24 rfl shapeCasts_S640000x1_S640000,
    StableHlo.unary main_v24 main_v25 (Host.negf : (⟨S640000, .f32⟩ : BufTy).Contents (Elt F) → (⟨S640000, .f32⟩ : BufTy).Contents (Elt F)),
    StableHlo.nullary main_cst (constant S_ .f32 0x00000000#32),
    StableHlo.binary main_v25 main_cst main_v26 ((fun x v => Host.reduceAdd x v reducesTo_S640000_S_d0 h_S_) : (⟨S640000, .f32⟩ : BufTy).Contents (Elt F) → (⟨S_, .f32⟩ : BufTy).Contents (Elt F) → (⟨S_, .f32⟩ : BufTy).Contents (Elt F)),
    StableHlo.nullary main_cst_0 (constant S_ .f32 0x491C4000#32),
    StableHlo.binary main_v26 main_cst_0 main_v27 (Host.divf : (⟨S_, .f32⟩ : BufTy).Contents (Elt F) → (⟨S_, .f32⟩ : BufTy).Contents (Elt F) → (⟨S_, .f32⟩ : BufTy).Contents (Elt F)) ]

/-! ## What each stretch computes

(The buffer is written un-indexed in each statement: a buffer's spelling as a device buffer is reducible, and the
rewriting that composes these lemmas would otherwise key them on its projections.)

A call's operations move contents between a buffer's own type and the type the call's body names for it; at these
literal buffers the two are the same type and the move is the identity, which is all that is left to remove once the
fold has been computed. -/

theorem stage_opsH (V : Valuation τ sig (Elt F)) :
    after opsH V (no_index (main_v9 : DevRef τ sig)) = hid2T (hid1T (V (main_arg2 : DevRef τ sig)) (V (main_arg4 : DevRef τ sig)) (V (main_arg5 : DevRef τ sig))) (V (main_arg6 : DevRef τ sig)) (V (main_arg7 : DevRef τ sig)) := by
  unfold opsH
  after_results_simp
  unfold hid2T hid1T reluT biasT
  rfl

theorem stage_opsL1 (V : Valuation τ sig (Elt F)) :
    after opsL1 V (no_index (main_v11 : DevRef τ sig)) = col0T (V (main_arg0 : DevRef τ sig)) := by
  unfold opsL1
  after_results_simp
  unfold col0T
  rfl

theorem stage_opsL2 (V : Valuation τ sig (Elt F)) :
    after opsL2 V (no_index (main_call2_v5 : DevRef τ sig)) = wrapT (V (main_v11 : DevRef τ sig)) := by
  unfold opsL2
  after_results_simp
  unfold wrapT
  simp only [TRef.toBuf, TRef.ofBuf, cast_eq]

theorem stage_opsL3 (V : Valuation τ sig (Elt F)) :
    after opsL3 V (no_index (main_call2_v12 : DevRef τ sig)) = inRangeT (V (main_call2_v5 : DevRef τ sig)) := by
  unfold opsL3
  after_results_simp
  unfold inRangeT
  simp only [TRef.toBuf, TRef.ofBuf, cast_eq]

theorem stage_opsL4 (V : Valuation τ sig (Elt F)) :
    after opsL4 V (no_index (main_v12 : DevRef τ sig)) = takeSelT (V (main_call2_v12 : DevRef τ sig)) (V (main_v9 : DevRef τ sig)) (V (main_call2_v5 : DevRef τ sig)) := by
  unfold opsL4
  after_results_simp
  unfold takeSelT
  simp only [TRef.toBuf, TRef.ofBuf, cast_eq]

theorem stage_opsL5 (V : Valuation τ sig (Elt F)) :
    after opsL5 V (no_index (main_v14 : DevRef τ sig)) = col1T (V (main_arg0 : DevRef τ sig)) := by
  unfold opsL5
  after_results_simp
  unfold col1T
  rfl

theorem stage_opsL6 (V : Valuation τ sig (Elt F)) :
    after opsL6 V (no_index (main_call3_v5 : DevRef τ sig)) = wrapT (V (main_v14 : DevRef τ sig)) := by
  unfold opsL6
  after_results_simp
  unfold wrapT
  simp only [TRef.toBuf, TRef.ofBuf, cast_eq]

theorem stage_opsL7 (V : Valuation τ sig (Elt F)) :
    after opsL7 V (no_index (main_call3_v12 : DevRef τ sig)) = inRangeT (V (main_call3_v5 : DevRef τ sig)) := by
  unfold opsL7
  after_results_simp
  unfold inRangeT
  simp only [TRef.toBuf, TRef.ofBuf, cast_eq]

theorem stage_opsL8 (V : Valuation τ sig (Elt F)) :
    after opsL8 V (no_index (main_v15 : DevRef τ sig)) = takeSelT (V (main_call3_v12 : DevRef τ sig)) (V (main_v9 : DevRef τ sig)) (V (main_call3_v5 : DevRef τ sig)) := by
  unfold opsL8
  after_results_simp
  unfold takeSelT
  simp only [TRef.toBuf, TRef.ofBuf, cast_eq]

theorem stage_opsL9 (V : Valuation τ sig (Elt F)) :
    after opsL9 V (no_index (main_v20 : DevRef τ sig)) = classT (V (main_v12 : DevRef τ sig)) (V (main_v15 : DevRef τ sig)) (V (main_arg8 : DevRef τ sig)) (V (main_arg9 : DevRef τ sig)) := by
  unfold opsL9
  after_results_simp
  unfold classT
  simp only [TRef.toBuf, TRef.ofBuf, cast_eq]

theorem stage_opsS1a (V : Valuation τ sig (Elt F)) :
    after opsS1a V (no_index (main_call4_v0 : DevRef τ sig)) = rowMaxT (V (main_v20 : DevRef τ sig)) := by
  unfold opsS1a
  after_results_simp
  unfold rowMaxT
  simp only [TRef.toBuf, TRef.ofBuf, cast_eq]

theorem stage_opsS1b (V : Valuation τ sig (Elt F)) :
    after opsS1b V (no_index (main_call4_v5 : DevRef τ sig)) = shiftOfMaxT (V (main_v20 : DevRef τ sig)) (V (main_call4_v0 : DevRef τ sig)) := by
  unfold opsS1b
  after_results_simp
  unfold shiftOfMaxT
  simp only [TRef.toBuf, TRef.ofBuf, cast_eq]

theorem stage_opsS2 (V : Valuation τ sig (Elt F)) :
    after opsS2 V (no_index (main_v21 : DevRef τ sig)) = lsmOfShiftT (V (main_call4_v5 : DevRef τ sig)) := by
  unfold opsS2
  after_results_simp
  unfold lsmOfShiftT
  simp only [TRef.toBuf, TRef.ofBuf, cast_eq]

theorem stage_opsS3 (V : Valuation τ sig (Elt F)) :
    after opsS3 V (no_index (main_call5_v5 : DevRef τ sig)) = labIdxT (V (main_arg3 : DevRef τ sig)) := by
  unfold opsS3
  after_results_simp
  unfold labIdxT
  simp only [TRef.toBuf, TRef.ofBuf, cast_eq]
  rfl

theorem stage_opsS4 (V : Valuation τ sig (Elt F)) :
    after opsS4 V (no_index (main_call5_v12 : DevRef τ sig)) = labInRangeT (V (main_call5_v5 : DevRef τ sig)) := by
  unfold opsS4
  after_results_simp
  unfold labInRangeT
  simp only [TRef.toBuf, TRef.ofBuf, cast_eq]

theorem stage_opsS5 (V : Valuation τ sig (Elt F)) :
    after opsS5 V (no_index (main_v23 : DevRef τ sig)) = pickSelT (V (main_call5_v12 : DevRef τ sig)) (V (main_v21 : DevRef τ sig)) (V (main_call5_v5 : DevRef τ sig)) := by
  unfold opsS5
  after_results_simp
  unfold pickSelT
  simp only [TRef.toBuf, TRef.ofBuf, cast_eq]

theorem stage_opsS6 (V : Valuation τ sig (Elt F)) :
    after opsS6 V (no_index (main_v27 : DevRef τ sig)) = meanNegT (V (main_v23 : DevRef τ sig)) := by
  unfold opsS6
  after_results_simp
  unfold meanNegT
  rfl

/-! ## What each stretch leaves alone (the buffers a later stretch reads) -/

theorem keep_opsH_main_arg0 (V : Valuation τ sig (Elt F)) : after opsH V (no_index (main_arg0 : DevRef τ sig)) = (V (main_arg0 : DevRef τ sig)) := by
  unfold opsH
  after_results_simp
theorem keep_opsH_main_arg8 (V : Valuation τ sig (Elt F)) : after opsH V (no_index (main_arg8 : DevRef τ sig)) = (V (main_arg8 : DevRef τ sig)) := by
  unfold opsH
  after_results_simp
theorem keep_opsH_main_arg9 (V : Valuation τ sig (Elt F)) : after opsH V (no_index (main_arg9 : DevRef τ sig)) = (V (main_arg9 : DevRef τ sig)) := by
  unfold opsH
  after_results_simp
theorem keep_opsH_main_arg3 (V : Valuation τ sig (Elt F)) : after opsH V (no_index (main_arg3 : DevRef τ sig)) = (V (main_arg3 : DevRef τ sig)) := by
  unfold opsH
  after_results_simp
theorem keep_opsL1_main_v9 (V : Valuation τ sig (Elt F)) : after opsL1 V (no_index (main_v9 : DevRef τ sig)) = (V (main_v9 : DevRef τ sig)) := by
  unfold opsL1
  after_results_simp
theorem keep_opsL1_main_arg0 (V : Valuation τ sig (Elt F)) : after opsL1 V (no_index (main_arg0 : DevRef τ sig)) = (V (main_arg0 : DevRef τ sig)) := by
  unfold opsL1
  after_results_simp
theorem keep_opsL1_main_arg8 (V : Valuation τ sig (Elt F)) : after opsL1 V (no_index (main_arg8 : DevRef τ sig)) = (V (main_arg8 : DevRef τ sig)) := by
  unfold opsL1
  after_results_simp
theorem keep_opsL1_main_arg9 (V : Valuation τ sig (Elt F)) : after opsL1 V (no_index (main_arg9 : DevRef τ sig)) = (V (main_arg9 : DevRef τ sig)) := by
  unfold opsL1
  after_results_simp
theorem keep_opsL1_main_arg3 (V : Valuation τ sig (Elt F)) : after opsL1 V (no_index (main_arg3 : DevRef τ sig)) = (V (main_arg3 : DevRef τ sig)) := by
  unfold opsL1
  after_results_simp
theorem keep_opsL2_main_v9 (V : Valuation τ sig (Elt F)) : after opsL2 V (no_index (main_v9 : DevRef τ sig)) = (V (main_v9 : DevRef τ sig)) := by
  unfold opsL2
  after_results_simp
theorem keep_opsL2_main_arg0 (V : Valuation τ sig (Elt F)) : after opsL2 V (no_index (main_arg0 : DevRef τ sig)) = (V (main_arg0 : DevRef τ sig)) := by
  unfold opsL2
  after_results_simp
theorem keep_opsL2_main_arg8 (V : Valuation τ sig (Elt F)) : after opsL2 V (no_index (main_arg8 : DevRef τ sig)) = (V (main_arg8 : DevRef τ sig)) := by
  unfold opsL2
  after_results_simp
theorem keep_opsL2_main_arg9 (V : Valuation τ sig (Elt F)) : after opsL2 V (no_index (main_arg9 : DevRef τ sig)) = (V (main_arg9 : DevRef τ sig)) := by
  unfold opsL2
  after_results_simp
theorem keep_opsL2_main_arg3 (V : Valuation τ sig (Elt F)) : after opsL2 V (no_index (main_arg3 : DevRef τ sig)) = (V (main_arg3 : DevRef τ sig)) := by
  unfold opsL2
  after_results_simp
theorem keep_opsL3_main_v9 (V : Valuation τ sig (Elt F)) : after opsL3 V (no_index (main_v9 : DevRef τ sig)) = (V (main_v9 : DevRef τ sig)) := by
  unfold opsL3
  after_results_simp
theorem keep_opsL3_main_call2_v5 (V : Valuation τ sig (Elt F)) : after opsL3 V (no_index (main_call2_v5 : DevRef τ sig)) = (V (main_call2_v5 : DevRef τ sig)) := by
  unfold opsL3
  after_results_simp
theorem keep_opsL3_main_arg0 (V : Valuation τ sig (Elt F)) : after opsL3 V (no_index (main_arg0 : DevRef τ sig)) = (V (main_arg0 : DevRef τ sig)) := by
  unfold opsL3
  after_results_simp
theorem keep_opsL3_main_arg8 (V : Valuation τ sig (Elt F)) : after opsL3 V (no_index (main_arg8 : DevRef τ sig)) = (V (main_arg8 : DevRef τ sig)) := by
  unfold opsL3
  after_results_simp
theorem keep_opsL3_main_arg9 (V : Valuation τ sig (Elt F)) : after opsL3 V (no_index (main_arg9 : DevRef τ sig)) = (V (main_arg9 : DevRef τ sig)) := by
  unfold opsL3
  after_results_simp
theorem keep_opsL3_main_arg3 (V : Valuation τ sig (Elt F)) : after opsL3 V (no_index (main_arg3 : DevRef τ sig)) = (V (main_arg3 : DevRef τ sig)) := by
  unfold opsL3
  after_results_simp
theorem keep_opsL4_main_arg0 (V : Valuation τ sig (Elt F)) : after opsL4 V (no_index (main_arg0 : DevRef τ sig)) = (V (main_arg0 : DevRef τ sig)) := by
  unfold opsL4
  after_results_simp
theorem keep_opsL4_main_v9 (V : Valuation τ sig (Elt F)) : after opsL4 V (no_index (main_v9 : DevRef τ sig)) = (V (main_v9 : DevRef τ sig)) := by
  unfold opsL4
  after_results_simp
theorem keep_opsL4_main_arg8 (V : Valuation τ sig (Elt F)) : after opsL4 V (no_index (main_arg8 : DevRef τ sig)) = (V (main_arg8 : DevRef τ sig)) := by
  unfold opsL4
  after_results_simp
theorem keep_opsL4_main_arg9 (V : Valuation τ sig (Elt F)) : after opsL4 V (no_index (main_arg9 : DevRef τ sig)) = (V (main_arg9 : DevRef τ sig)) := by
  unfold opsL4
  after_results_simp
theorem keep_opsL4_main_arg3 (V : Valuation τ sig (Elt F)) : after opsL4 V (no_index (main_arg3 : DevRef τ sig)) = (V (main_arg3 : DevRef τ sig)) := by
  unfold opsL4
  after_results_simp
theorem keep_opsL5_main_v9 (V : Valuation τ sig (Elt F)) : after opsL5 V (no_index (main_v9 : DevRef τ sig)) = (V (main_v9 : DevRef τ sig)) := by
  unfold opsL5
  after_results_simp
theorem keep_opsL5_main_v12 (V : Valuation τ sig (Elt F)) : after opsL5 V (no_index (main_v12 : DevRef τ sig)) = (V (main_v12 : DevRef τ sig)) := by
  unfold opsL5
  after_results_simp
theorem keep_opsL5_main_arg8 (V : Valuation τ sig (Elt F)) : after opsL5 V (no_index (main_arg8 : DevRef τ sig)) = (V (main_arg8 : DevRef τ sig)) := by
  unfold opsL5
  after_results_simp
theorem keep_opsL5_main_arg9 (V : Valuation τ sig (Elt F)) : after opsL5 V (no_index (main_arg9 : DevRef τ sig)) = (V (main_arg9 : DevRef τ sig)) := by
  unfold opsL5
  after_results_simp
theorem keep_opsL5_main_arg3 (V : Valuation τ sig (Elt F)) : after opsL5 V (no_index (main_arg3 : DevRef τ sig)) = (V (main_arg3 : DevRef τ sig)) := by
  unfold opsL5
  after_results_simp
theorem keep_opsL6_main_v9 (V : Valuation τ sig (Elt F)) : after opsL6 V (no_index (main_v9 : DevRef τ sig)) = (V (main_v9 : DevRef τ sig)) := by
  unfold opsL6
  after_results_simp
theorem keep_opsL6_main_v12 (V : Valuation τ sig (Elt F)) : after opsL6 V (no_index (main_v12 : DevRef τ sig)) = (V (main_v12 : DevRef τ sig)) := by
  unfold opsL6
  after_results_simp
theorem keep_opsL6_main_arg8 (V : Valuation τ sig (Elt F)) : after opsL6 V (no_index (main_arg8 : DevRef τ sig)) = (V (main_arg8 : DevRef τ sig)) := by
  unfold opsL6
  after_results_simp
theorem keep_opsL6_main_arg9 (V : Valuation τ sig (Elt F)) : after opsL6 V (no_index (main_arg9 : DevRef τ sig)) = (V (main_arg9 : DevRef τ sig)) := by
  unfold opsL6
  after_results_simp
theorem keep_opsL6_main_arg3 (V : Valuation τ sig (Elt F)) : after opsL6 V (no_index (main_arg3 : DevRef τ sig)) = (V (main_arg3 : DevRef τ sig)) := by
  unfold opsL6
  after_results_simp
theorem keep_opsL7_main_v9 (V : Valuation τ sig (Elt F)) : after opsL7 V (no_index (main_v9 : DevRef τ sig)) = (V (main_v9 : DevRef τ sig)) := by
  unfold opsL7
  after_results_simp
theorem keep_opsL7_main_call3_v5 (V : Valuation τ sig (Elt F)) : after opsL7 V (no_index (main_call3_v5 : DevRef τ sig)) = (V (main_call3_v5 : DevRef τ sig)) := by
  unfold opsL7
  after_results_simp
theorem keep_opsL7_main_v12 (V : Valuation τ sig (Elt F)) : after opsL7 V (no_index (main_v12 : DevRef τ sig)) = (V (main_v12 : DevRef τ sig)) := by
  unfold opsL7
  after_results_simp
theorem keep_opsL7_main_arg8 (V : Valuation τ sig (Elt F)) : after opsL7 V (no_index (main_arg8 : DevRef τ sig)) = (V (main_arg8 : DevRef τ sig)) := by
  unfold opsL7
  after_results_simp
theorem keep_opsL7_main_arg9 (V : Valuation τ sig (Elt F)) : after opsL7 V (no_index (main_arg9 : DevRef τ sig)) = (V (main_arg9 : DevRef τ sig)) := by
  unfold opsL7
  after_results_simp
theorem keep_opsL7_main_arg3 (V : Valuation τ sig (Elt F)) : after opsL7 V (no_index (main_arg3 : DevRef τ sig)) = (V (main_arg3 : DevRef τ sig)) := by
  unfold opsL7
  after_results_simp
theorem keep_opsL8_main_v12 (V : Valuation τ sig (Elt F)) : after opsL8 V (no_index (main_v12 : DevRef τ sig)) = (V (main_v12 : DevRef τ sig)) := by
  unfold opsL8
  after_results_simp
theorem keep_opsL8_main_arg8 (V : Valuation τ sig (Elt F)) : after opsL8 V (no_index (main_arg8 : DevRef τ sig)) = (V (main_arg8 : DevRef τ sig)) := by
  unfold opsL8
  after_results_simp
theorem keep_opsL8_main_arg9 (V : Valuation τ sig (Elt F)) : after opsL8 V (no_index (main_arg9 : DevRef τ sig)) = (V (main_arg9 : DevRef τ sig)) := by
  unfold opsL8
  after_results_simp
theorem keep_opsL8_main_arg3 (V : Valuation τ sig (Elt F)) : after opsL8 V (no_index (main_arg3 : DevRef τ sig)) = (V (main_arg3 : DevRef τ sig)) := by
  unfold opsL8
  after_results_simp
theorem keep_opsL9_main_arg3 (V : Valuation τ sig (Elt F)) : after opsL9 V (no_index (main_arg3 : DevRef τ sig)) = (V (main_arg3 : DevRef τ sig)) := by
  unfold opsL9
  after_results_simp
theorem keep_opsS1a_main_v20 (V : Valuation τ sig (Elt F)) : after opsS1a V (no_index (main_v20 : DevRef τ sig)) = (V (main_v20 : DevRef τ sig)) := by
  unfold opsS1a
  after_results_simp
theorem keep_opsS1a_main_arg3 (V : Valuation τ sig (Elt F)) : after opsS1a V (no_index (main_arg3 : DevRef τ sig)) = (V (main_arg3 : DevRef τ sig)) := by
  unfold opsS1a
  after_results_simp
theorem keep_opsS1b_main_arg3 (V : Valuation τ sig (Elt F)) : after opsS1b V (no_index (main_arg3 : DevRef τ sig)) = (V (main_arg3 : DevRef τ sig)) := by
  unfold opsS1b
  after_results_simp
theorem keep_opsS1b_main_v20 (V : Valuation τ sig (Elt F)) : after opsS1b V (no_index (main_v20 : DevRef τ sig)) = (V (main_v20 : DevRef τ sig)) := by
  unfold opsS1b
  after_results_simp
theorem keep_opsS2_main_arg3 (V : Valuation τ sig (Elt F)) : after opsS2 V (no_index (main_arg3 : DevRef τ sig)) = (V (main_arg3 : DevRef τ sig)) := by
  unfold opsS2
  after_results_simp
theorem keep_opsS2_main_v20 (V : Valuation τ sig (Elt F)) : after opsS2 V (no_index (main_v20 : DevRef τ sig)) = (V (main_v20 : DevRef τ sig)) := by
  unfold opsS2
  after_results_simp
theorem keep_opsS3_main_v21 (V : Valuation τ sig (Elt F)) : after opsS3 V (no_index (main_v21 : DevRef τ sig)) = (V (main_v21 : DevRef τ sig)) := by
  unfold opsS3
  after_results_simp
theorem keep_opsS3_main_v20 (V : Valuation τ sig (Elt F)) : after opsS3 V (no_index (main_v20 : DevRef τ sig)) = (V (main_v20 : DevRef τ sig)) := by
  unfold opsS3
  after_results_simp
theorem keep_opsS4_main_v21 (V : Valuation τ sig (Elt F)) : after opsS4 V (no_index (main_v21 : DevRef τ sig)) = (V (main_v21 : DevRef τ sig)) := by
  unfold opsS4
  after_results_simp
theorem keep_opsS4_main_call5_v5 (V : Valuation τ sig (Elt F)) : after opsS4 V (no_index (main_call5_v5 : DevRef τ sig)) = (V (main_call5_v5 : DevRef τ sig)) := by
  unfold opsS4
  after_results_simp
theorem keep_opsS4_main_v20 (V : Valuation τ sig (Elt F)) : after opsS4 V (no_index (main_v20 : DevRef τ sig)) = (V (main_v20 : DevRef τ sig)) := by
  unfold opsS4
  after_results_simp
theorem keep_opsS5_main_v20 (V : Valuation τ sig (Elt F)) : after opsS5 V (no_index (main_v20 : DevRef τ sig)) = (V (main_v20 : DevRef τ sig)) := by
  unfold opsS5
  after_results_simp
theorem keep_opsS6_main_v20 (V : Valuation τ sig (Elt F)) : after opsS6 V (no_index (main_v20 : DevRef τ sig)) = (V (main_v20 : DevRef τ sig)) := by
  unfold opsS6
  after_results_simp

end Cert.ReferenceIdeal.RefRun

end
-- ==== Proof.RefRun.lean ====
/-
  The reference's run with its two results named: every weakly fair execution ends with the loss buffer at
  `lossTerm`, the logits buffer at `logitsTerm`, and the ten argument buffers as they were. The line is its seventeen
  stretches one after the other; running them in turn, each result buffer is the stage's term of the buffers before
  it, and the stages' terms nest into the two results' terms.
-/
import proofs.«208457_g31284541784245_cont_9to1_2229_14_alg».proof.Proof.RefStages

noncomputable section

namespace Cert.ReferenceIdeal.RefRun

open Cert.ReferenceIdeal Idealize.ShloMosaic Idealize.ShloMosaic.TcCoe Idealize.SL.Sem Idealize.ShloMosaic.StableHlo

variable {F : FTy → Type} [FloatOps F] [Facts]
open Facts₀ Facts

-- the two lists are the same 113 operations: the comparison walks them once
set_option maxRecDepth 8192 in
/-- The line is the stretches one after the other. -/
theorem ops_split : (ops : List (HloOp τ sig (Elt F))) = opsH ++ (opsL1 ++ (opsL2 ++ (opsL3 ++ (opsL4 ++ (opsL5 ++ (opsL6 ++ (opsL7 ++ (opsL8 ++ (opsL9 ++ (opsS1a ++ (opsS1b ++ (opsS2 ++ (opsS3 ++ (opsS4 ++ (opsS5 ++ (opsS6)))))))))))))))) := rfl

/-- Running a concatenation is running the first list, then the second from where the first ended. -/
theorem after_app (l₁ l₂ : List (HloOp τ sig (Elt F))) (V : Valuation τ sig (Elt F)) :
    after (l₁ ++ l₂) V = after l₂ (after l₁ V) := by
  induction l₁ generalizing V with
  | nil => rfl
  | cons op l ih => simp only [List.cons_append, after_cons, ih]

theorem logits_after (V : Valuation τ sig (Elt F)) :
    after ops V (main_v20 : DevRef τ sig)
      = logitsOf (V (main_arg2 : DevRef τ sig)) (V (main_arg4 : DevRef τ sig)) (V (main_arg5 : DevRef τ sig)) (V (main_arg6 : DevRef τ sig)) (V (main_arg7 : DevRef τ sig)) (V (main_arg8 : DevRef τ sig)) (V (main_arg9 : DevRef τ sig)) (V (main_arg0 : DevRef τ sig)) := by
  rw [ops_split]
  simp only [after_app, logitsOf, logitsFrom, takeT,
    stage_opsH, stage_opsL1, stage_opsL2, stage_opsL3, stage_opsL4,
    stage_opsL5, stage_opsL6, stage_opsL7, stage_opsL8, stage_opsL9,
    stage_opsS1a, stage_opsS1b, stage_opsS2, stage_opsS3, stage_opsS4,
    stage_opsS5, stage_opsS6, keep_opsH_main_arg0, keep_opsH_main_arg8, keep_opsH_main_arg9,
    keep_opsH_main_arg3, keep_opsL1_main_v9, keep_opsL1_main_arg0, keep_opsL1_main_arg8, keep_opsL1_main_arg9,
    keep_opsL1_main_arg3, keep_opsL2_main_v9, keep_opsL2_main_arg0, keep_opsL2_main_arg8, keep_opsL2_main_arg9,
    keep_opsL2_main_arg3, keep_opsL3_main_v9, keep_opsL3_main_call2_v5, keep_opsL3_main_arg0, keep_opsL3_main_arg8,
    keep_opsL3_main_arg9, keep_opsL3_main_arg3, keep_opsL4_main_arg0, keep_opsL4_main_v9, keep_opsL4_main_arg8,
    keep_opsL4_main_arg9, keep_opsL4_main_arg3, keep_opsL5_main_v9, keep_opsL5_main_v12, keep_opsL5_main_arg8,
    keep_opsL5_main_arg9, keep_opsL5_main_arg3, keep_opsL6_main_v9, keep_opsL6_main_v12, keep_opsL6_main_arg8,
    keep_opsL6_main_arg9, keep_opsL6_main_arg3, keep_opsL7_main_v9, keep_opsL7_main_call3_v5, keep_opsL7_main_v12,
    keep_opsL7_main_arg8, keep_opsL7_main_arg9, keep_opsL7_main_arg3, keep_opsL8_main_v12, keep_opsL8_main_arg8,
    keep_opsL8_main_arg9, keep_opsL8_main_arg3, keep_opsL9_main_arg3, keep_opsS1a_main_v20, keep_opsS1a_main_arg3,
    keep_opsS1b_main_arg3, keep_opsS1b_main_v20, keep_opsS2_main_arg3, keep_opsS2_main_v20, keep_opsS3_main_v21,
    keep_opsS3_main_v20, keep_opsS4_main_v21, keep_opsS4_main_call5_v5, keep_opsS4_main_v20, keep_opsS5_main_v20,
    keep_opsS6_main_v20]

theorem loss_after (V : Valuation τ sig (Elt F)) :
    after ops V (main_v27 : DevRef τ sig)
      = lossOf (logitsOf (V (main_arg2 : DevRef τ sig)) (V (main_arg4 : DevRef τ sig)) (V (main_arg5 : DevRef τ sig)) (V (main_arg6 : DevRef τ sig)) (V (main_arg7 : DevRef τ sig)) (V (main_arg8 : DevRef τ sig)) (V (main_arg9 : DevRef τ sig)) (V (main_arg0 : DevRef τ sig))) (V (main_arg3 : DevRef τ sig)) := by
  rw [ops_split]
  simp only [after_app, lossOf, pickT, logSoftmaxT, shiftT, logitsOf, logitsFrom, takeT,
    stage_opsH, stage_opsL1, stage_opsL2, stage_opsL3, stage_opsL4,
    stage_opsL5, stage_opsL6, stage_opsL7, stage_opsL8, stage_opsL9,
    stage_opsS1a, stage_opsS1b, stage_opsS2, stage_opsS3, stage_opsS4,
    stage_opsS5, stage_opsS6, keep_opsH_main_arg0, keep_opsH_main_arg8, keep_opsH_main_arg9,
    keep_opsH_main_arg3, keep_opsL1_main_v9, keep_opsL1_main_arg0, keep_opsL1_main_arg8, keep_opsL1_main_arg9,
    keep_opsL1_main_arg3, keep_opsL2_main_v9, keep_opsL2_main_arg0, keep_opsL2_main_arg8, keep_opsL2_main_arg9,
    keep_opsL2_main_arg3, keep_opsL3_main_v9, keep_opsL3_main_call2_v5, keep_opsL3_main_arg0, keep_opsL3_main_arg8,
    keep_opsL3_main_arg9, keep_opsL3_main_arg3, keep_opsL4_main_arg0, keep_opsL4_main_v9, keep_opsL4_main_arg8,
    keep_opsL4_main_arg9, keep_opsL4_main_arg3, keep_opsL5_main_v9, keep_opsL5_main_v12, keep_opsL5_main_arg8,
    keep_opsL5_main_arg9, keep_opsL5_main_arg3, keep_opsL6_main_v9, keep_opsL6_main_v12, keep_opsL6_main_arg8,
    keep_opsL6_main_arg9, keep_opsL6_main_arg3, keep_opsL7_main_v9, keep_opsL7_main_call3_v5, keep_opsL7_main_v12,
    keep_opsL7_main_arg8, keep_opsL7_main_arg9, keep_opsL7_main_arg3, keep_opsL8_main_v12, keep_opsL8_main_arg8,
    keep_opsL8_main_arg9, keep_opsL8_main_arg3, keep_opsL9_main_arg3, keep_opsS1a_main_v20, keep_opsS1a_main_arg3,
    keep_opsS1b_main_arg3, keep_opsS1b_main_v20, keep_opsS2_main_arg3, keep_opsS2_main_v20, keep_opsS3_main_v21,
    keep_opsS3_main_v20, keep_opsS4_main_v21, keep_opsS4_main_call5_v5, keep_opsS4_main_v20, keep_opsS5_main_v20,
    keep_opsS6_main_v20]

theorem arg0_after (V : Valuation τ sig (Elt F)) : after ops V (main_arg0 : DevRef τ sig) = (V (main_arg0 : DevRef τ sig)) := by
  after_results_simp
theorem arg1_after (V : Valuation τ sig (Elt F)) : after ops V (main_arg1 : DevRef τ sig) = (V (main_arg1 : DevRef τ sig)) := by
  after_results_simp
theorem arg2_after (V : Valuation τ sig (Elt F)) : after ops V (main_arg2 : DevRef τ sig) = (V (main_arg2 : DevRef τ sig)) := by
  after_results_simp
theorem arg3_after (V : Valuation τ sig (Elt F)) : after ops V (main_arg3 : DevRef τ sig) = (V (main_arg3 : DevRef τ sig)) := by
  after_results_simp
theorem arg4_after (V : Valuation τ sig (Elt F)) : after ops V (main_arg4 : DevRef τ sig) = (V (main_arg4 : DevRef τ sig)) := by
  after_results_simp
theorem arg5_after (V : Valuation τ sig (Elt F)) : after ops V (main_arg5 : DevRef τ sig) = (V (main_arg5 : DevRef τ sig)) := by
  after_results_simp
theorem arg6_after (V : Valuation τ sig (Elt F)) : after ops V (main_arg6 : DevRef τ sig) = (V (main_arg6 : DevRef τ sig)) := by
  after_results_simp
theorem arg7_after (V : Valuation τ sig (Elt F)) : after ops V (main_arg7 : DevRef τ sig) = (V (main_arg7 : DevRef τ sig)) := by
  after_results_simp
theorem arg8_after (V : Valuation τ sig (Elt F)) : after ops V (main_arg8 : DevRef τ sig) = (V (main_arg8 : DevRef τ sig)) := by
  after_results_simp
theorem arg9_after (V : Valuation τ sig (Elt F)) : after ops V (main_arg9 : DevRef τ sig) = (V (main_arg9 : DevRef τ sig)) := by
  after_results_simp

/-- Every weakly fair execution of the reference ends, the loss at `lossTerm`, the logits at `logitsTerm`, the arguments unchanged. -/
theorem run (m : (ℓ : Loc nD τ sig) → Buf (Elt F) ℓ) (ρ : Dev nD → PrngReg) :
    θ_run (defs (F := F)) (onTc (τ := τ) (main (F := F))) ⟨m, fun _ => 0, ρ⟩ (fun r => ∀ c : Dev nD,
      r.2.mem ((c.tc : Thread nD τ).loc main_v27) = lossTerm m c
      ∧ r.2.mem ((c.tc : Thread nD τ).loc main_v20) = logitsTerm m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)) :=
  (θ_run defs _ _).mono (fun _ h c => ⟨(h c main_v27).trans (loss_after _), (h c main_v20).trans (logits_after _),
      (h c main_arg0).trans (arg0_after _),
      (h c main_arg1).trans (arg1_after _),
      (h c main_arg2).trans (arg2_after _),
      (h c main_arg3).trans (arg3_after _),
      (h c main_arg4).trans (arg4_after _),
      (h c main_arg5).trans (arg5_after _),
      (h c main_arg6).trans (arg6_after _),
      (h c main_arg7).trans (arg7_after _),
      (h c main_arg8).trans (arg8_after _),
      (h c main_arg9).trans (arg9_after _)⟩)
    (run_main m ρ)

end Cert.ReferenceIdeal.RefRun

end
-- ==== Proof.RefLayers.lean ====
/-
  The two dense layers read at an index, on the extended reals: a node's hidden unit is the rectified sum over
  the contracted coordinate of feature times weight, plus the unit's bias — the specification's `hid1` and `hid2`.
-/
import proofs.«208457_g31284541784245_cont_9to1_2229_14_alg».proof.Proof.RefTerms
import proofs.«208457_g31284541784245_cont_9to1_2229_14_alg».proof.Proof.Spec
import Idealize.ShloMosaic.Lib.Pipeline.Value
import Idealize.ShloMosaic.Lib.ValueIdx
import Idealize.ShloMosaic.Lib.StackMember
import Idealize.ShloMosaic.PureOps.Ideal.Laws

noncomputable section

namespace Cert.ReferenceIdeal.RefRun

open Cert.ReferenceIdeal Idealize.ShloMosaic Idealize.ShloMosaic.ValueIdx

variable [Facts]
open Facts₀ Facts

/-- A scalar broadcast to any shape reads the scalar everywhere. -/
theorem bcast0_apply {α : Type} {t : Shape} (h : S_.BroadcastsInDim t (![] : Fin 0 → Fin t.rank)) (x : S_.Idx → α) (j : t.Idx) :
    broadcastInDim t ![] h x j = x ix0 :=
  broadcastInDim_apply _ h x j ix0 (fun a => a.elim0)

/-- A bias row broadcast over the nodes reads the unit's bias. -/
theorem biasT_apply {F : FTy → Type} [FloatOps F] (b : FVec F S64 .f32) (n : Fin 10000) (j : Fin 64) :
    biasT b (ix2 n j) = b (ix1 j) := by
  unfold biasT
  refine (broadcastInDim_apply _ _ _ (ix2 n j) (ix2 (0 : Fin 1) j) (fun a => ?_)).trans ?_
  · match a with
    | ⟨0, _⟩ => rfl
    | ⟨1, _⟩ => rfl
  · refine broadcastInDim_apply _ _ b (ix2 (0 : Fin 1) j) (ix1 j) (fun a => ?_)
    match a with
    | ⟨0, _⟩ => rfl

/-- The rectifier at an index is the maximum with zero. -/
theorem reluT_apply (a : FVec Ideal S10000x64 .f32) (i : S10000x64.Idx) : reluT a i = max (a i) 0 := by
  unfold reluT
  show max (a i) (broadcastInDim S10000x64 ![] bcast_S_S10000x64 (constant (F := Ideal) S_ .f32 0x00000000#32) i) = _
  rw [bcast0_apply]
  show max (a i) (Ideal.ofBits .f32 0x00000000#32) = _
  rw [Ideal.ofBits_zero_f32]

theorem dot1_eq : dot_S10000x768_S768x64_S10000x64_1_0_0_1_n_n = DotDims.plain 10000 768 64 := rfl
theorem dot2_eq : dot_S10000x64_S64x64_S10000x64_1_0_0_1_n_n = DotDims.plain 10000 64 64 := rfl
theorem dot3_eq : dot_S640000x128_S128x2_S640000x2_1_0_0_1_n_n = DotDims.plain 640000 128 2 := rfl

/-- The first hidden layer at node `n`, unit `j`, is the specification's. -/
theorem hid1T_apply (x : FVec Ideal S10000x768 .f32) (W1 : FVec Ideal S768x64 .f32) (b1 : FVec Ideal S64 .f32)
    (n : Fin 10000) (j : Fin 64) : hid1T x W1 b1 (ix2 n j) = Cert.Spec.hid1 x W1 b1 n j := by
  unfold hid1T Cert.Spec.hid1
  rw [reluT_apply]
  show max (Host.dotGeneral dot_S10000x768_S768x64_S10000x64_1_0_0_1_n_n none x W1 (ix2 n j) + biasT b1 (ix2 n j)) 0 = _
  rw [dot1_eq, StackMember.dotGeneral_plain_apply, biasT_apply]

/-- The second hidden layer at node `n`, unit `j`, from a first layer that is the specification's. -/
theorem hid2T_apply (h1 : FVec Ideal S10000x64 .f32) (W2 : FVec Ideal S64x64 .f32) (b2 : FVec Ideal S64 .f32)
    (n : Fin 10000) (j : Fin 64) :
    hid2T h1 W2 b2 (ix2 n j) = max ((∑ k : Fin 64, h1 (ix2 n k) * W2 (ix2 k j)) + b2 (ix1 j)) 0 := by
  unfold hid2T
  rw [reluT_apply]
  show max (Host.dotGeneral dot_S10000x64_S64x64_S10000x64_1_0_0_1_n_n none h1 W2 (ix2 n j) + biasT b2 (ix2 n j)) 0 = _
  rw [dot2_eq, StackMember.dotGeneral_plain_apply, biasT_apply]

/-- The second hidden layer of the program, at node `n`, unit `j`, is the specification's. -/
theorem hid_apply (x : FVec Ideal S10000x768 .f32) (W1 : FVec Ideal S768x64 .f32) (b1 : FVec Ideal S64 .f32)
    (W2 : FVec Ideal S64x64 .f32) (b2 : FVec Ideal S64 .f32) (n : Fin 10000) (j : Fin 64) :
    hid2T (hid1T x W1 b1) W2 b2 (ix2 n j) = Cert.Spec.hid2 x W1 b1 W2 b2 n j := by
  rw [hid2T_apply]
  unfold Cert.Spec.hid2
  simp only [hid1T_apply]

end Cert.ReferenceIdeal.RefRun

end
-- ==== Proof.RefTake.lean ====
/-
  A row lookup read at an index. Under the range hypothesis on the index vector (every word below the number of
  nodes, hence non-negative as a signed word) the wrap leaves the index as it is, the in-range mask is 1 at every
  pair, the select keeps the gathered row, and the gather — whose start index is read signed and clamped to the
  table — reads the row the word names: the specification's `node`.
-/
import proofs.«208457_g31284541784245_cont_9to1_2229_14_alg».proof.Proof.RefLayers
import Idealize.ShloMosaic.Lib.Affine
import Idealize.ShloMosaic.PureOps.Reduce

noncomputable section

namespace Cert.ReferenceIdeal.RefRun

open Cert.ReferenceIdeal Idealize.ShloMosaic Idealize.ShloMosaic.ValueIdx

variable [Facts]
open Facts₀ Facts

/-- A word below 10000 read unsigned is the same number read signed. -/
theorem toInt_of_lt {v : BitVec 32} (h : v.toNat < 10000) : v.toInt = (v.toNat : Int) :=
  BitVec.toInt_eq_toNat_of_lt (by omega)

/-- A fold by `and` from 1 over words that are all 1 is 1. -/
theorem foldl_andi_ones {ι : Type} (x : ι → BitVec 1) (hx : ∀ i, x i = 1#1) :
    ∀ l : List ι, l.foldl (fun r i => IntOp.andi r (x i)) 1#1 = 1#1
  | [] => rfl
  | a :: l => by
    rw [List.foldl_cons, hx a, show IntOp.andi (1#1 : BitVec 1) 1#1 = 1#1 from by decide]
    exact foldl_andi_ones x hx l

/-- A reduction by `and` from 1 of an array that is 1 everywhere is 1 everywhere. -/
theorem reduce_andi_ones {s t u : Shape} {axes : List (Fin s.rank)} (x : s.Idx → BitVec 1) (init : u.Idx → BitVec 1)
    (h : s.ReducesTo axes t) (hu : 0 < u.numel) (hx : ∀ i, x i = 1#1) (hi : ∀ i, init i = 1#1) (j : t.Idx) :
    Host.reduce IntOp.andi x init h hu j = 1#1 := by
  rw [Host.reduce_eq_foldl, hi]
  exact foldl_andi_ones x hx _

/-- Column `c` of the pair array as a vector over the pairs reads the array at `(p, c)`. -/
theorem col0T_apply (idx : IVec S640000x2 32) (p : Fin 640000) : col0T idx (ix1 p) = idx (ix2 p (0 : Fin 2)) := by
  unfold col0T
  refine (shapeCast_apply _ _ (ix1 p) (ix2 p (0 : Fin 1)) ?_).trans ?_
  · rw [Shape.rowMajor_val_two, Shape.rowMajor_val_one]
    show p.val * 1 + 0 = p.val
    omega
  · refine extractStridedSlice_apply _ _ _ (ix2 p (0 : Fin 1)) (ix2 p (0 : Fin 2)) (fun a => ?_)
    match a with
    | ⟨0, _⟩ => exact (Nat.zero_add _).symm
    | ⟨1, _⟩ => rfl

theorem col1T_apply (idx : IVec S640000x2 32) (p : Fin 640000) : col1T idx (ix1 p) = idx (ix2 p (1 : Fin 2)) := by
  unfold col1T
  refine (shapeCast_apply _ _ (ix1 p) (ix2 p (0 : Fin 1)) ?_).trans ?_
  · rw [Shape.rowMajor_val_two, Shape.rowMajor_val_one]
    show p.val * 1 + 0 = p.val
    omega
  · refine extractStridedSlice_apply _ _ _ (ix2 p (0 : Fin 1)) (ix2 p (1 : Fin 2)) (fun a => ?_)
    match a with
    | ⟨0, _⟩ => exact (Nat.zero_add _).symm
    | ⟨1, _⟩ => rfl

/-- Each column inherits the array's range. -/
theorem col0T_lt (idx : IVec S640000x2 32) (hidx : ∀ i, (idx i).toNat < 10000) (i : S640000.Idx) : (col0T idx i).toNat < 10000 := by
  obtain ⟨q, rfl⟩ : ∃ q : Fin 640000, i = ix1 q := ⟨i 0, eq_ix1 i⟩
  rw [col0T_apply]; exact hidx _
theorem col1T_lt (idx : IVec S640000x2 32) (hidx : ∀ i, (idx i).toNat < 10000) (i : S640000.Idx) : (col1T idx i).toNat < 10000 := by
  obtain ⟨q, rfl⟩ : ∃ q : Fin 640000, i = ix1 q := ⟨i 0, eq_ix1 i⟩
  rw [col1T_apply]; exact hidx _

/-- The wrap at a pair whose index word is in range is that word. -/
theorem wrapT_apply (ix : IVec S640000 32) (p : Fin 640000) (h : (ix (ix1 p)).toNat < 10000) :
    wrapT ix (ix2 p (0 : Fin 1)) = ix (ix1 p) := by
  unfold wrapT
  refine (broadcastInDim_apply _ _ _ (ix2 p (0 : Fin 1)) (ix1 p) (fun a => ?_)).trans ?_
  · match a with
    | ⟨0, _⟩ => rfl
  · have hc : ¬ IntOp.cmpi .slt (ix (ix1 p)) 0#32 = 1#1 := by
      rw [IntOp.cmpi_slt, toInt_of_lt h]
      have h0 : (0#32 : BitVec 32).toInt = 0 := by decide
      rw [h0]; omega
    exact if_neg hc

/-- With every index word in range the in-range mask is 1 at every pair. -/
theorem inRangeT_apply (w : IVec S640000x1 32) (hw : ∀ i, (w i).toNat < 10000) (j : S640000.Idx) : inRangeT w j = 1#1 := by
  unfold inRangeT
  refine reduce_andi_ones _ _ _ _ (fun i => ?_) (fun _ => rfl) j
  show IntOp.andi (IntOp.cmpi .sge (w i) 0#32) (IntOp.cmpi .sle (w i) 9999#32) = 1#1
  rw [IntOp.andi_eq_one, IntOp.cmpi_sge, IntOp.cmpi_sle, toInt_of_lt (hw i)]
  have h0 : (0#32 : BitVec 32).toInt = 0 := by decide
  have h9 : (9999#32 : BitVec 32).toInt = 9999 := by decide
  rw [h0, h9]
  have := hw i
  constructor <;> omega

/-- The gather of rows read at pair `p`, unit `k`: the operand's row at the start index — the index column's word
    at `p`, read signed and clamped to the table's last row — and column `k`. -/
theorem rowGather_apply {α : Type} (x : S10000x64.Idx → α) (w : IVec S640000x1 32) (p : Fin 640000) (k : Fin 64) :
    Host.gather gather_S10000x64_S640000x1_S640000x64_1_0_n_n_0_1_164 x w (ix2 p k)
      = x (ix2 (⟨min (w (ix2 p (0 : Fin 1))).toInt.toNat 9999, by omega⟩ : Fin 10000) k) := by
  unfold Host.gather
  refine congrArg x (funext fun a => Fin.ext ?_)
  show gather_S10000x64_S640000x1_S640000x64_1_0_n_n_0_1_164.start (ix2 p k) w a
      + gather_S10000x64_S640000x1_S640000x64_1_0_n_n_0_1_164.batchCoord (ix2 p k) a
      + gather_S10000x64_S640000x1_S640000x64_1_0_n_n_0_1_164.offCoord (ix2 p k) a = _
  match a with
  | ⟨0, h0⟩ =>
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (⟨0, h0⟩ : Fin S10000x64.rank) ∈ gather_S10000x64_S640000x1_S640000x64_1_0_n_n_0_1_164.startIndexMap
      from List.mem_singleton.mpr rfl)]
    have hsi : gather_S10000x64_S640000x1_S640000x64_1_0_n_n_0_1_164.siIdx (ix2 p k)
        ⟨List.idxOf (⟨0, h0⟩ : Fin S10000x64.rank) gather_S10000x64_S640000x1_S640000x64_1_0_n_n_0_1_164.startIndexMap,
          List.idxOf_lt_length_iff.2 (List.mem_singleton.mpr rfl)⟩ = ix2 p (0 : Fin 1) := by
      funext b; refine Fin.ext ?_
      match b with
      | ⟨0, _⟩ => rfl
      | ⟨1, _⟩ => rfl
    rw [hsi]
    rfl
  | ⟨1, h1⟩ =>
    rw [GatherDims.batchCoord_eq_zero _ _ _ List.not_mem_nil]
    unfold GatherDims.start
    rw [dif_neg (show (⟨1, h1⟩ : Fin S10000x64.rank) ∉ gather_S10000x64_S640000x1_S640000x64_1_0_n_n_0_1_164.startIndexMap
      from by
        show (⟨1, h1⟩ : Fin 2) ∉ ([0] : List (Fin 2))
        exact fun hm => absurd (congrArg Fin.val (List.mem_singleton.mp hm)) Nat.one_ne_zero)]
    simp only [Nat.zero_add, Nat.add_zero]
    unfold GatherDims.offCoord
    rw [dif_pos (show (⟨1, h1⟩ : Fin S10000x64.rank) ∈ gather_S10000x64_S640000x1_S640000x64_1_0_n_n_0_1_164.sKept
      from by rw [GatherDims.mem_sKept]; exact ⟨by
        show (⟨1, h1⟩ : Fin 2) ∉ ([0] : List (Fin 2))
        exact fun hm => absurd (congrArg Fin.val (List.mem_singleton.mp hm)) Nat.one_ne_zero, List.not_mem_nil⟩)]
    rfl

/-- The looked-up rows at pair `p`, unit `k`: the table's row the index word names, unit `k`. -/
theorem takeT_apply {F : FTy → Type} [FloatOps F] (h : FVec F S10000x64 .f32) (ix : IVec S640000 32)
    (hix : ∀ i, (ix i).toNat < 10000) (p : Fin 640000) (k : Fin 64) :
    takeT h ix (ix2 p k) = h (ix2 (Cert.Spec.node (ix (ix1 p))) k) := by
  have hw : ∀ i, (wrapT ix i).toNat < 10000 := fun i => by
    obtain ⟨q, z, rfl⟩ : ∃ (q : Fin 640000) (z : Fin 1), i = ix2 q z := ⟨i 0, i 1, eq_ix2 i⟩
    obtain rfl : z = 0 := Subsingleton.elim _ _
    rw [wrapT_apply ix q (hix _)]; exact hix _
  unfold takeT takeSelT
  show Scalar.select (broadcastInDim S640000x64 ![0] bcast_S640000_S640000x64_0 (inRangeT (wrapT ix)) (ix2 p k))
      (Host.gather gather_S10000x64_S640000x1_S640000x64_1_0_n_n_0_1_164 h (wrapT ix) (ix2 p k)) _ = _
  rw [broadcastInDim_apply _ _ _ (ix2 p k) (ix1 p) (fun a => by match a with | ⟨0, _⟩ => rfl),
    inRangeT_apply _ hw, select_one, rowGather_apply]
  refine congrArg (fun n => h (ix2 n k)) (Fin.ext ?_)
  show min (wrapT ix (ix2 p (0 : Fin 1))).toInt.toNat 9999 = (Cert.Spec.node (ix (ix1 p))).val
  rw [wrapT_apply ix p (hix _), Cert.Spec.node_val (hix _), toInt_of_lt (hix _), Int.toNat_natCast]
  have := hix (ix1 p)
  omega

end Cert.ReferenceIdeal.RefRun

end
-- ==== Proof.AlgRefLogit.lean ====
/-
  The reference's arrangement of a logit. The reference concatenates the left and the right endpoint's hidden rows into
  one vector of length 128 and takes its product with the classifier's 128 rows; the specification takes the left row
  against rows 0..63 (`Spec.top`) and the right row against rows 64..127 (`Spec.bot`) and adds. A sum over 128 = 64 + 64
  indices splits into the two halves; no finiteness is needed.
-/
import proofs.«208457_g31284541784245_cont_9to1_2229_14_alg».proof.Proof.Spec

namespace Cert.Alg

open scoped BigOperators

/-- A sum over `Fin 128` is the sum over the lower half plus the sum over the upper half. -/
theorem sum_fin128_split {M : Type*} [AddCommMonoid M] (h : Fin 128 → M) :
    ∑ k : Fin 128, h k = (∑ k : Fin 64, h (Spec.top k)) + ∑ k : Fin 64, h (Spec.bot k) := by
  have e := Fin.sum_univ_add (a := 64) (b := 64) (f := (h : Fin (64 + 64) → M))
  exact e

/-- The concatenated vector given as any function `cat` that reads `f` on the lower half and `g` on the upper half. -/
theorem ref_logit_cat (cat : Fin 128 → EReal) (f g : Fin 64 → EReal) (w : Fin 128 → EReal)
    (hf : ∀ k : Fin 64, cat (Spec.top k) = f k) (hg : ∀ k : Fin 64, cat (Spec.bot k) = g k) :
    ∑ k : Fin 128, cat k * w k
      = (∑ k : Fin 64, f k * w (Spec.top k)) + ∑ k : Fin 64, g k * w (Spec.bot k) := by
  rw [sum_fin128_split fun k => cat k * w k]
  simp only [hf, hg]

/-- The concatenated vector spelt as a case split on the index. -/
theorem ref_logit_dite (f g : Fin 64 → EReal) (w : Fin 128 → EReal) :
    ∑ k : Fin 128, (if h : k.val < 64 then f ⟨k.val, h⟩ else g ⟨k.val - 64, by omega⟩) * w k
      = (∑ k : Fin 64, f k * w (Spec.top k)) + ∑ k : Fin 64, g k * w (Spec.bot k) := by
  refine ref_logit_cat (fun k => if h : k.val < 64 then f ⟨k.val, h⟩ else g ⟨k.val - 64, by omega⟩) f g w ?_ ?_
  · intro k
    have hk : (Spec.top k).val < 64 := k.isLt
    simp only [dif_pos hk]
  · intro k
    have hk : ¬ (Spec.bot k).val < 64 := by show ¬ (64 + k.val < 64); omega
    simp only [dif_neg hk]
    congr 1
    exact Fin.ext (by show 64 + k.val - 64 = k.val; omega)

end Cert.Alg
-- ==== Proof.RefLogits.lean ====
/-
  The logits read at an index are the specification's. The two looked-up halves stand side by side in a row of
  length 128: columns 0..63 are the left endpoint's hidden row, columns 64..127 the right endpoint's; the product
  with the classifier's 128 rows is a sum over 128 coordinates, which is the sum over the lower half plus the sum
  over the upper half; then the bias of the label is added.
-/
import proofs.«208457_g31284541784245_cont_9to1_2229_14_alg».proof.Proof.RefTake
import proofs.«208457_g31284541784245_cont_9to1_2229_14_alg».proof.Proof.AlgRefLogit
import proofs.«208457_g31284541784245_cont_9to1_2229_14_alg».proof.Proof.PreFactsInt

noncomputable section

namespace Cert.ReferenceIdeal.RefRun

open Cert.ReferenceIdeal Idealize.ShloMosaic Idealize.ShloMosaic.ValueIdx

variable [Facts]
open Facts₀ Facts

/-- The classifier's bias broadcast over the pairs reads the label's bias. -/
theorem classBias_apply {F : FTy → Type} [FloatOps F] (bc : FVec F S2 .f32) (p : Fin 640000) (l : Fin 2) :
    broadcastInDim S640000x2 ![0, 1] bcast_S1x2_S640000x2_0_1 (broadcastInDim S1x2 ![1] bcast_S2_S1x2_1 bc) (ix2 p l) = bc (ix1 l) := by
  refine (broadcastInDim_apply _ _ _ (ix2 p l) (ix2 (0 : Fin 1) l) (fun a => ?_)).trans ?_
  · match a with
    | ⟨0, _⟩ => rfl
    | ⟨1, _⟩ => rfl
  · refine broadcastInDim_apply _ _ bc (ix2 (0 : Fin 1) l) (ix1 l) (fun a => ?_)
    match a with
    | ⟨0, _⟩ => rfl

/-- Two arrays side by side along the second axis: a column of the lower half reads the first array. -/
theorem cat_left {α : Type} (a b : S640000x64.Idx → α) (p : Fin 640000) (k : Fin 64) :
    concatenate S640000x128 1 [⟨S640000x64, a⟩, ⟨S640000x64, b⟩] concatenates_S640000x64_S640000x64_S640000x128_d1
      (ix2 p (Cert.Spec.top k)) = a (ix2 p k) := by
  refine concatenate_pair_apply_left (1 : Fin S640000x128.rank) a b _ (ix2 p (Cert.Spec.top k)) rfl (ix2 p k) (fun c => ?_)
  match c with
  | ⟨0, _⟩ => rfl
  | ⟨1, _⟩ => rfl

/-- … and a column of the upper half reads the second array, 64 columns back. -/
theorem cat_right {α : Type} (a b : S640000x64.Idx → α) (p : Fin 640000) (k : Fin 64) :
    concatenate S640000x128 1 [⟨S640000x64, a⟩, ⟨S640000x64, b⟩] concatenates_S640000x64_S640000x64_S640000x128_d1
      (ix2 p (Cert.Spec.bot k)) = b (ix2 p k) := by
  refine concatenate_pair_apply_right (1 : Fin S640000x128.rank) a b _ (ix2 p (Cert.Spec.bot k)) rfl rfl (ix2 p k) (fun c hc => ?_) ?_
  · match c with
    | ⟨0, _⟩ => rfl
    | ⟨1, _⟩ => exact absurd rfl hc
  · show k.val + 64 = 64 + k.val
    omega

/-- The classifier stage at pair `p`, label `l`. -/
theorem classT_apply (a b : FVec Ideal S640000x64 .f32) (Wc : FVec Ideal S128x2 .f32) (bc : FVec Ideal S2 .f32)
    (p : Fin 640000) (l : Fin 2) :
    classT a b Wc bc (ix2 p l)
      = ((∑ k : Fin 64, a (ix2 p k) * Wc (ix2 (Cert.Spec.top k) l)) + ∑ k : Fin 64, b (ix2 p k) * Wc (ix2 (Cert.Spec.bot k) l))
        + bc (ix1 l) := by
  unfold classT
  show Host.dotGeneral dot_S640000x128_S128x2_S640000x2_1_0_0_1_n_n none _ Wc (ix2 p l) + _ = _
  rw [dot3_eq, StackMember.dotGeneral_plain_apply, classBias_apply]
  congr 1
  exact Cert.Alg.ref_logit_cat _ (fun k => a (ix2 p k)) (fun k => b (ix2 p k)) (fun k => Wc (ix2 k l))
    (fun k => cat_left a b p k) (fun k => cat_right a b p k)

/-- The reference's logits, as a term of the argument arrays, are the specification's, given the index range. -/
theorem logitsOf_eq (x : FVec Ideal S10000x768 .f32) (W1 : FVec Ideal S768x64 .f32) (b1 : FVec Ideal S64 .f32)
    (W2 : FVec Ideal S64x64 .f32) (b2 : FVec Ideal S64 .f32) (Wc : FVec Ideal S128x2 .f32) (bc : FVec Ideal S2 .f32)
    (idx : IVec S640000x2 32) (hidx : ∀ i, (idx i).toNat < 10000) :
    logitsOf x W1 b1 W2 b2 Wc bc idx = Cert.Spec.logitsArr x W1 b1 W2 b2 Wc bc idx := by
  funext j
  obtain ⟨p, l, rfl⟩ : ∃ (p : Fin 640000) (l : Fin 2), j = ix2 p l := ⟨j 0, j 1, eq_ix2 j⟩
  have h0 : ∀ i, (col0T idx i).toNat < 10000 := fun i => col0T_lt idx hidx i
  have h1 : ∀ i, (col1T idx i).toNat < 10000 := fun i => col1T_lt idx hidx i
  unfold logitsOf logitsFrom
  rw [classT_apply]
  simp only [takeT_apply _ _ h0, takeT_apply _ _ h1, hid_apply, col0T_apply, col1T_apply]
  rfl

end Cert.ReferenceIdeal.RefRun

end
-- ==== Proof.PreFactsReal.lean ====
/-
  The precondition decoded at the extended reals: every entry of each of the seven float arrays is a real. The test on
  an entry is  max x (-x) < +infinity  (the word 0x7F800000 denotes +infinity); it fails at both infinities and
  holds at every real.
-/
import proofs.«208457_g31284541784245_cont_9to1_2229_14_alg».proof.Proof.PreFactsInt
import Idealize.ShloMosaic.PureOps.Ideal

namespace Cert.PreFacts

open Idealize.ShloMosaic Cert.Pre_input_domain

/-- An extended real whose absolute value compares below +infinity is a real. -/
theorem real_of_finAt {x : Ideal .f32} (h : FinAt (F := Ideal) x) : ∃ r : ℝ, x = (r : EReal) := by
  have htop : Ideal.ofBits .f32 0x7F800000#32 = ⊤ := by simp [Ideal.ofBits, Ideal.ieee]
  have h' : Ideal.cmp .olt (max (x : EReal) (-(x : EReal))) (Ideal.ofBits .f32 0x7F800000#32) = 1#1 := h
  rw [htop] at h'
  have hlt : max (x : EReal) (-(x : EReal)) < ⊤ := by
    unfold Ideal.cmp at h'
    by_contra hn
    simp [hn] at h'
  induction x using EReal.rec with
  | bot => simp at hlt
  | top => simp at hlt
  | coe r => exact ⟨r, rfl⟩

section
variable [Facts]
  {a0 : IVec S640000x2 32} {a1 : IVec S10000x10000 1} {a2 : FVec Ideal S10000x768 .f32} {a3 : IVec S640000 32}
  {a4 : FVec Ideal S768x64 .f32} {a5 : FVec Ideal S64 .f32} {a6 : FVec Ideal S64x64 .f32} {a7 : FVec Ideal S64 .f32}
  {a8 : FVec Ideal S128x2 .f32} {a9 : FVec Ideal S2 .f32}

theorem real_a2 (h : fn (F := Ideal) a0 a1 a2 a3 a4 a5 a6 a7 a8 a9 = fun _ => 1#1) (i : S10000x768.Idx) :
    ∃ r : ℝ, a2 i = (r : EReal) := real_of_finAt ((split h).1 i)
theorem real_a4 (h : fn (F := Ideal) a0 a1 a2 a3 a4 a5 a6 a7 a8 a9 = fun _ => 1#1) (i : S768x64.Idx) :
    ∃ r : ℝ, a4 i = (r : EReal) := real_of_finAt ((split h).2.1 i)
theorem real_a5 (h : fn (F := Ideal) a0 a1 a2 a3 a4 a5 a6 a7 a8 a9 = fun _ => 1#1) (i : S64.Idx) :
    ∃ r : ℝ, a5 i = (r : EReal) := real_of_finAt ((split h).2.2.1 i)
theorem real_a6 (h : fn (F := Ideal) a0 a1 a2 a3 a4 a5 a6 a7 a8 a9 = fun _ => 1#1) (i : S64x64.Idx) :
    ∃ r : ℝ, a6 i = (r : EReal) := real_of_finAt ((split h).2.2.2.1 i)
theorem real_a7 (h : fn (F := Ideal) a0 a1 a2 a3 a4 a5 a6 a7 a8 a9 = fun _ => 1#1) (i : S64.Idx) :
    ∃ r : ℝ, a7 i = (r : EReal) := real_of_finAt ((split h).2.2.2.2.1 i)
theorem real_a8 (h : fn (F := Ideal) a0 a1 a2 a3 a4 a5 a6 a7 a8 a9 = fun _ => 1#1) (i : S128x2.Idx) :
    ∃ r : ℝ, a8 i = (r : EReal) := real_of_finAt ((split h).2.2.2.2.2.1 i)
theorem real_a9 (h : fn (F := Ideal) a0 a1 a2 a3 a4 a5 a6 a7 a8 a9 = fun _ => 1#1) (i : S2.Idx) :
    ∃ r : ℝ, a9 i = (r : EReal) := real_of_finAt ((split h).2.2.2.2.2.2.1 i)

end

end Cert.PreFacts
-- ==== Proof.AlgLib.lean ====
/-
  General facts about the extended reals. "z is a real" is written  ∃ r : ℝ, z = (r : EReal)  throughout.
  The inclusion of the reals commutes with finite sums and with max; zero, and sums, differences, products,
  negations, maxima and finite sums of reals are reals.
-/
import Mathlib.Data.EReal.Inv
import Mathlib.Algebra.BigOperators.Group.Finset.Basic

namespace Cert.Alg

open scoped BigOperators

/-- The inclusion of the reals into the extended reals commutes with finite sums. -/
theorem coe_finset_sum {ι : Type*} (s : Finset ι) (f : ι → ℝ) :
    ((∑ i ∈ s, f i : ℝ) : EReal) = ∑ i ∈ s, (f i : EReal) := by
  classical
  refine Finset.induction_on s ?_ ?_
  · simp
  · intro a s ha ih
    rw [Finset.sum_insert ha, Finset.sum_insert ha, EReal.coe_add, ih]

/-- The inclusion of the reals into the extended reals commutes with max. -/
theorem coe_max (x y : ℝ) : ((max x y : ℝ) : EReal) = max (x : EReal) (y : EReal) :=
  EReal.coe_strictMono.monotone.map_max

theorem real_zero : ∃ r : ℝ, (0 : EReal) = (r : EReal) := ⟨0, rfl⟩

theorem real_coe (x : ℝ) : ∃ r : ℝ, (x : EReal) = (r : EReal) := ⟨x, rfl⟩

theorem real_add {a b : EReal} (ha : ∃ r : ℝ, a = (r : EReal)) (hb : ∃ r : ℝ, b = (r : EReal)) :
    ∃ r : ℝ, a + b = (r : EReal) := by
  obtain ⟨x, rfl⟩ := ha; obtain ⟨y, rfl⟩ := hb; exact ⟨x + y, (EReal.coe_add x y).symm⟩

theorem real_sub {a b : EReal} (ha : ∃ r : ℝ, a = (r : EReal)) (hb : ∃ r : ℝ, b = (r : EReal)) :
    ∃ r : ℝ, a - b = (r : EReal) := by
  obtain ⟨x, rfl⟩ := ha; obtain ⟨y, rfl⟩ := hb; exact ⟨x - y, (EReal.coe_sub x y).symm⟩

theorem real_mul {a b : EReal} (ha : ∃ r : ℝ, a = (r : EReal)) (hb : ∃ r : ℝ, b = (r : EReal)) :
    ∃ r : ℝ, a * b = (r : EReal) := by
  obtain ⟨x, rfl⟩ := ha; obtain ⟨y, rfl⟩ := hb; exact ⟨x * y, (EReal.coe_mul x y).symm⟩

theorem real_neg {a : EReal} (ha : ∃ r : ℝ, a = (r : EReal)) : ∃ r : ℝ, -a = (r : EReal) := by
  obtain ⟨x, rfl⟩ := ha; exact ⟨-x, (EReal.coe_neg x).symm⟩

theorem real_max {a b : EReal} (ha : ∃ r : ℝ, a = (r : EReal)) (hb : ∃ r : ℝ, b = (r : EReal)) :
    ∃ r : ℝ, max a b = (r : EReal) := by
  obtain ⟨x, rfl⟩ := ha; obtain ⟨y, rfl⟩ := hb; exact ⟨max x y, (coe_max x y).symm⟩

/-- A finite sum of reals is a real. -/
theorem real_sum {ι : Type*} (s : Finset ι) (f : ι → EReal) (h : ∀ i ∈ s, ∃ r : ℝ, f i = (r : EReal)) :
    ∃ r : ℝ, ∑ i ∈ s, f i = (r : EReal) := by
  classical
  induction s using Finset.induction_on with
  | empty => exact ⟨0, by simp⟩
  | insert a s ha ih =>
    rw [Finset.sum_insert ha]
    exact real_add (h a (Finset.mem_insert_self a s)) (ih fun i hi => h i (Finset.mem_insert_of_mem hi))

/-- A sum of reals over a finite type is a real. -/
theorem real_sum_univ {ι : Type*} [Fintype ι] (f : ι → EReal) (h : ∀ i, ∃ r : ℝ, f i = (r : EReal)) :
    ∃ r : ℝ, ∑ i, f i = (r : EReal) :=
  real_sum Finset.univ f fun i _ => h i

end Cert.Alg
-- ==== Proof.AlgFinite.lean ====
/-
  Finiteness of the layers. If every entry of the features, the weights and the biases is a real, then every value of
  the two hidden layers, of a node's left and right contributions and of a logit is a real: each is a finite sum of
  products of reals, plus a real, with at most a maximum with zero taken after.
-/
import proofs.«208457_g31284541784245_cont_9to1_2229_14_alg».proof.Proof.Spec
import proofs.«208457_g31284541784245_cont_9to1_2229_14_alg».proof.Proof.AlgLib

namespace Cert.Alg

open scoped BigOperators
open Idealize.ShloMosaic Idealize.ShloMosaic.ValueIdx Cert.Spec

variable {x : (Sh2 10000 768).Idx → EReal} {W1 : (Sh2 768 64).Idx → EReal} {b1 : (Sh1 64).Idx → EReal}
  {W2 : (Sh2 64 64).Idx → EReal} {b2 : (Sh1 64).Idx → EReal} {Wc : (Sh2 128 2).Idx → EReal} {bc : (Sh1 2).Idx → EReal}

/-- Every value of the first hidden layer is a real. -/
theorem hid1_real (hx : ∀ i, ∃ r : ℝ, x i = (r : EReal)) (hW1 : ∀ i, ∃ r : ℝ, W1 i = (r : EReal))
    (hb1 : ∀ i, ∃ r : ℝ, b1 i = (r : EReal)) (n : Fin 10000) (j : Fin 64) :
    ∃ r : ℝ, Spec.hid1 x W1 b1 n j = (r : EReal) := by
  unfold Spec.hid1
  exact real_max (real_add (real_sum_univ _ fun k => real_mul (hx _) (hW1 _)) (hb1 _)) real_zero

/-- Every value of the second hidden layer is a real. -/
theorem hid2_real (hx : ∀ i, ∃ r : ℝ, x i = (r : EReal)) (hW1 : ∀ i, ∃ r : ℝ, W1 i = (r : EReal))
    (hb1 : ∀ i, ∃ r : ℝ, b1 i = (r : EReal)) (hW2 : ∀ i, ∃ r : ℝ, W2 i = (r : EReal))
    (hb2 : ∀ i, ∃ r : ℝ, b2 i = (r : EReal)) (n : Fin 10000) (j : Fin 64) :
    ∃ r : ℝ, Spec.hid2 x W1 b1 W2 b2 n j = (r : EReal) := by
  unfold Spec.hid2
  exact real_max (real_add (real_sum_univ _ fun k => real_mul (hid1_real hx hW1 hb1 n k) (hW2 _)) (hb2 _)) real_zero

/-- A node's contribution as a left endpoint is a real. -/
theorem leftPart_real (hx : ∀ i, ∃ r : ℝ, x i = (r : EReal)) (hW1 : ∀ i, ∃ r : ℝ, W1 i = (r : EReal))
    (hb1 : ∀ i, ∃ r : ℝ, b1 i = (r : EReal)) (hW2 : ∀ i, ∃ r : ℝ, W2 i = (r : EReal))
    (hb2 : ∀ i, ∃ r : ℝ, b2 i = (r : EReal)) (hWc : ∀ i, ∃ r : ℝ, Wc i = (r : EReal)) (n : Fin 10000) (l : Fin 2) :
    ∃ r : ℝ, Spec.leftPart x W1 b1 W2 b2 Wc n l = (r : EReal) := by
  unfold Spec.leftPart
  exact real_sum_univ _ fun k => real_mul (hid2_real hx hW1 hb1 hW2 hb2 n k) (hWc _)

/-- A node's contribution as a right endpoint is a real. -/
theorem rightPart_real (hx : ∀ i, ∃ r : ℝ, x i = (r : EReal)) (hW1 : ∀ i, ∃ r : ℝ, W1 i = (r : EReal))
    (hb1 : ∀ i, ∃ r : ℝ, b1 i = (r : EReal)) (hW2 : ∀ i, ∃ r : ℝ, W2 i = (r : EReal))
    (hb2 : ∀ i, ∃ r : ℝ, b2 i = (r : EReal)) (hWc : ∀ i, ∃ r : ℝ, Wc i = (r : EReal)) (n : Fin 10000) (l : Fin 2) :
    ∃ r : ℝ, Spec.rightPart x W1 b1 W2 b2 Wc n l = (r : EReal) := by
  unfold Spec.rightPart
  exact real_sum_univ _ fun k => real_mul (hid2_real hx hW1 hb1 hW2 hb2 n k) (hWc _)

/-- Every logit is a real, whatever the index words are. -/
theorem logit_real (hx : ∀ i, ∃ r : ℝ, x i = (r : EReal)) (hW1 : ∀ i, ∃ r : ℝ, W1 i = (r : EReal))
    (hb1 : ∀ i, ∃ r : ℝ, b1 i = (r : EReal)) (hW2 : ∀ i, ∃ r : ℝ, W2 i = (r : EReal))
    (hb2 : ∀ i, ∃ r : ℝ, b2 i = (r : EReal)) (hWc : ∀ i, ∃ r : ℝ, Wc i = (r : EReal))
    (hbc : ∀ i, ∃ r : ℝ, bc i = (r : EReal)) (idx : (Sh2 640000 2).Idx → BitVec 32) (p : Fin 640000) (l : Fin 2) :
    ∃ r : ℝ, Spec.logit x W1 b1 W2 b2 Wc bc idx p l = (r : EReal) := by
  unfold Spec.logit
  exact real_add (real_add (leftPart_real hx hW1 hb1 hW2 hb2 hWc _ l) (rightPart_real hx hW1 hb1 hW2 hb2 hWc _ l)) (hbc _)

end Cert.Alg
-- ==== Proof.RefValue.lean ====
/-
  The reference's two results, as terms of core `c`'s ten argument buffers, are the specification's two arrays (at the
  extended reals, under the precondition). The logits are the specification's because every index word names a node.
  The loss is then read off logits that are the specification's: every logit is a real (every float input is), every
  label word is 0 or 1, and the mean cross entropy of real logits at such labels is the specification's loss.
-/
import proofs.«208457_g31284541784245_cont_9to1_2229_14_alg».proof.Proof.RefLogits
import proofs.«208457_g31284541784245_cont_9to1_2229_14_alg».proof.Proof.PreFactsReal
import proofs.«208457_g31284541784245_cont_9to1_2229_14_alg».proof.Proof.AlgFinite

noncomputable section

namespace Cert.ReferenceIdeal.RefValue

open Cert.ReferenceIdeal Cert.ReferenceIdeal.RefRun
open Idealize.ShloMosaic Idealize.ShloMosaic.ValueIdx Idealize.SL.Sem
open scoped BigOperators

variable [Cert.ReferenceIdeal.Facts] [Cert.Pre_input_domain.Facts]
variable (m : (ℓ : Loc nD τ sig) → Buf (Elt Ideal) ℓ) (c : Dev nD)

/-- The reference's logits are the specification's logits array. -/
theorem logitsTerm_eq
    (hpre : Cert.Pre_input_domain.fn (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) = fun _ => 1#1) :
    logitsTerm m c
      = Cert.Spec.logitsArr (m ((c.tc : Thread nD τ).loc main_arg2)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg0)) := by
  unfold logitsTerm
  exact logitsOf_eq _ _ _ _ _ _ _ _ fun i => Cert.PreFacts.idx_lt hpre i

/-- Under the precondition every entry of the specification's logits array is a real. -/
theorem logitsArr_real
    (hpre : Cert.Pre_input_domain.fn (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) = fun _ => 1#1)
    (i : S640000x2.Idx) :
    ∃ r : ℝ, Cert.Spec.logitsArr (m ((c.tc : Thread nD τ).loc main_arg2)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg0)) i = (r : EReal) :=
  Cert.Alg.logit_real (fun j => Cert.PreFacts.real_a2 hpre j) (fun j => Cert.PreFacts.real_a4 hpre j)
    (fun j => Cert.PreFacts.real_a5 hpre j) (fun j => Cert.PreFacts.real_a6 hpre j) (fun j => Cert.PreFacts.real_a7 hpre j)
    (fun j => Cert.PreFacts.real_a8 hpre j) (fun j => Cert.PreFacts.real_a9 hpre j) _ (i 0) (i 1)

/-- The reference's loss is the specification's loss, given the loss stage's reading `hLoss`: on real logits and
    labels that are 0 or 1 it is the mean over the pairs of the cross entropy of the pair's two logits at its label. -/
theorem lossTerm_eq
    (hLoss : ∀ (z : FVec Ideal S640000x2 .f32) (lab : IVec S640000 32), (∀ i, ∃ r : ℝ, z i = (r : EReal)) →
      (∀ i, lab i = 0#32 ∨ lab i = 1#32) →
      lossOf z lab = fun _ => Ideal.div (∑ p : Fin 640000, Cert.Spec.nll (z (ix2 p 0)) (z (ix2 p 1)) (lab (ix1 p)))
        (Ideal.ofBits .f32 0x491C4000#32))
    (hpre : Cert.Pre_input_domain.fn (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) = fun _ => 1#1) :
    lossTerm m c
      = Cert.Spec.lossArr (m ((c.tc : Thread nD τ).loc main_arg2)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg0)) (m ((c.tc : Thread nD τ).loc main_arg3)) := by
  unfold lossTerm
  rw [logitsTerm_eq m c hpre, hLoss _ _ (logitsArr_real m c hpre) fun i => Cert.PreFacts.label_01 hpre i]
  rfl

end Cert.ReferenceIdeal.RefValue

end
-- ==== Proof.RefLossIdx.lean ====
/-
  The label side of the reference's loss, read at a pair. A label is 0 or 1, so the lookup's index array (a label
  below zero has 2 added) is the label itself, every entry of the in-range mask is 1, and the lookup along the label
  axis, which clamps its index into 0..1, reads at pair `p` the entry `(p, label p)`.
-/
import proofs.«208457_g31284541784245_cont_9to1_2229_14_alg».proof.Proof.RefTerms
import Idealize.ShloMosaic.Lib.ValueIdx
import Idealize.ShloMosaic.Lib.ValueLayout
import Idealize.ShloMosaic.Lib.Pipeline.Value
import Idealize.ShloMosaic.Lib.Affine
import Idealize.ShloMosaic.PureOps.Reduce
import Idealize.ShloMosaic.Lib.ReduceAll

noncomputable section

namespace Cert.RefLoss

open Cert.ReferenceIdeal Cert.ReferenceIdeal.RefRun
open Idealize.ShloMosaic Idealize.ShloMosaic.ValueIdx

variable [Facts]
open Facts₀ Facts

/-! ## Broadcasts read at an index -/

/-- A vector over the pairs viewed as a column reads its entry. -/
theorem bcol_apply {α : Type} (x : S640000.Idx → α) (q : Fin 640000) (j1 : Fin 1) :
    broadcastInDim S640000x1 ![0] bcast_S640000_S640000x1_0 x (ix2 q j1) = x (ix1 q) :=
  broadcastInDim_apply _ _ x _ (ix1 q) fun a => by
    match a with
    | ⟨0, _⟩ => exact (if_neg (by decide : ¬((640000 : ℕ) = 1))).symm

/-- A scalar broadcast reads the scalar. -/
theorem bscal_apply {α : Type} {t : Shape} (h : S_.BroadcastsInDim t ![]) (x : S_.Idx → α) (j : t.Idx) :
    broadcastInDim t ![] h x j = x ix0 :=
  broadcastInDim_apply _ h x j ix0 fun a => a.elim0

/-- An index of the label array's shape is a pair with two zeros. -/
theorem eq_ix3_q (i : S640000x1x1.Idx) : i = ix3 (i 0) (0 : Fin 1) (0 : Fin 1) := by
  funext a
  match a with
  | ⟨0, _⟩ => rfl
  | ⟨1, _⟩ => exact Fin.ext (by have h : (i 1).val < 1 := (i 1).isLt; show (i 1).val = 0; omega)
  | ⟨2, _⟩ => exact Fin.ext (by have h : (i 2).val < 1 := (i 2).isLt; show (i 2).val = 0; omega)
theorem eq_ix2_q (j : S640000x1.Idx) : j = ix2 (j 0) (0 : Fin 1) := by
  funext a
  match a with
  | ⟨0, _⟩ => rfl
  | ⟨1, _⟩ => exact Fin.ext (by have h : (j 1).val < 1 := (j 1).isLt; show (j 1).val = 0; omega)

/-! ## The lookup's index array is the label -/

theorem labIdx_apply (lab : IVec S640000 32) (q : Fin 640000) (h : lab (ix1 q) = 0#32 ∨ lab (ix1 q) = 1#32) :
    labIdxT lab (ix3 q (0 : Fin 1) (0 : Fin 1)) = lab (ix1 q) := by
  unfold labIdxT
  rw [shapeCast_apply _ _ _ (ix2 q (0 : Fin 1)) (by rw [Shape.rowMajor_val_two, Shape.rowMajor_val_three]; show q.val * 1 + 0 = (q.val * 1 + 0) * 1 + 0; omega)]
  have e1 : broadcastInDim S640000x1 ![0] bcast_S640000_S640000x1_0 lab (ix2 q (0 : Fin 1)) = lab (ix1 q) := bcol_apply lab q 0
  have e0 : broadcastInDim S640000x1 ![] bcast_S_S640000x1 (constantI S_ 32 0#32) (ix2 q (0 : Fin 1)) = 0#32 := bscal_apply _ _ _
  have e2 : broadcastInDim S640000x1 ![] bcast_S_S640000x1 (constantI S_ 32 2#32) (ix2 q (0 : Fin 1)) = 2#32 := bscal_apply _ _ _
  show Scalar.select (IntOp.cmpi .slt (broadcastInDim S640000x1 ![0] bcast_S640000_S640000x1_0 lab (ix2 q (0 : Fin 1)))
        (broadcastInDim S640000x1 ![] bcast_S_S640000x1 (constantI S_ 32 0#32) (ix2 q (0 : Fin 1))))
      (IntOp.addi (broadcastInDim S640000x1 ![0] bcast_S640000_S640000x1_0 lab (ix2 q (0 : Fin 1)))
        (broadcastInDim S640000x1 ![] bcast_S_S640000x1 (constantI S_ 32 2#32) (ix2 q (0 : Fin 1))))
      (broadcastInDim S640000x1 ![0] bcast_S640000_S640000x1_0 lab (ix2 q (0 : Fin 1))) = lab (ix1 q)
  rw [e1, e0, e2]
  rcases h with h | h <;> rw [h] <;> rfl

/-! ## The in-range mask is 1 everywhere -/

/-- A left fold by `and` from 1 over 1s is 1. -/
theorem foldl_andi_one {ι : Type} (f : ι → BitVec 1) :
    ∀ (l : List ι) (init : BitVec 1), init = 1#1 → (∀ n ∈ l, f n = 1#1) → l.foldl (fun r n => IntOp.andi r (f n)) init = 1#1
  | [], _, h, _ => h
  | a :: l, init, h, hl => by
    rw [List.foldl_cons]
    exact foldl_andi_one f l _ (IntOp.andi_eq_one.2 ⟨h, hl a (List.mem_cons.mpr (Or.inl rfl))⟩)
      fun n hn => hl n (List.mem_cons.mpr (Or.inr hn))

theorem labInRange_apply (lab : IVec S640000 32) (hlab : ∀ i, lab i = 0#32 ∨ lab i = 1#32) (j : S640000x1.Idx) :
    labInRangeT (labIdxT lab) j = 1#1 := by
  unfold labInRangeT
  rw [Host.reduce_eq_foldl]
  refine foldl_andi_one _ _ _ rfl fun i _ => ?_
  rw [eq_ix3_q i]
  have e0 : broadcastInDim S640000x1x1 ![] bcast_S_S640000x1x1 (constantI S_ 32 0#32) (ix3 (i 0) (0 : Fin 1) (0 : Fin 1)) = 0#32 := bscal_apply _ _ _
  have e1 : broadcastInDim S640000x1x1 ![0, 1, 2] bcast_S1x1x1_S640000x1x1_0_1_2
      (broadcastInDim S1x1x1 ![2] bcast_S1_S1x1x1_2 (constantI S1 32 1#32)) (ix3 (i 0) (0 : Fin 1) (0 : Fin 1)) = 1#32 := rfl
  show IntOp.andi (IntOp.cmpi .sge (labIdxT lab (ix3 (i 0) (0 : Fin 1) (0 : Fin 1)))
        (broadcastInDim S640000x1x1 ![] bcast_S_S640000x1x1 (constantI S_ 32 0#32) (ix3 (i 0) (0 : Fin 1) (0 : Fin 1))))
      (IntOp.cmpi .sle (labIdxT lab (ix3 (i 0) (0 : Fin 1) (0 : Fin 1)))
        (broadcastInDim S640000x1x1 ![0, 1, 2] bcast_S1x1x1_S640000x1x1_0_1_2
          (broadcastInDim S1x1x1 ![2] bcast_S1_S1x1x1_2 (constantI S1 32 1#32)) (ix3 (i 0) (0 : Fin 1) (0 : Fin 1)))) = 1#1
  rw [e0, e1, labIdx_apply lab (i 0) (hlab _)]
  rcases hlab (ix1 (i 0)) with h | h <;> rw [h] <;> rfl

/-! ## The lookup along the label axis -/

/-- An index word read signed and clamped into `0 .. 1`. -/
def clampFin (x : BitVec 32) : Fin 2 := ⟨min x.toInt.toNat 1, by omega⟩

/-- The lookup reads, at pair `p`, the operand's entry `(p, l)` with `l` the index word at `(p, 0, 0)` read signed
    and clamped into `0 .. 1`. -/
theorem pickGather_apply {α : Type} (ls : S640000x2.Idx → α) (w : IVec S640000x1x1 32) (q : Fin 640000) :
    Host.gather gather_S640000x2_S640000x1x1_S640000x1_n_1_0_0_1_2_11 ls w (ix2 q (0 : Fin 1))
      = ls (ix2 q (clampFin (w (ix3 q (0 : Fin 1) (0 : Fin 1))))) := by
  unfold Host.gather
  congr 1
  funext a
  refine Fin.ext ?_
  match a with
  | ⟨0, _⟩ =>
    show gather_S640000x2_S640000x1x1_S640000x1_n_1_0_0_1_2_11.start (ix2 q (0 : Fin 1)) w 0 + gather_S640000x2_S640000x1x1_S640000x1_n_1_0_0_1_2_11.batchCoord (ix2 q (0 : Fin 1)) 0 + gather_S640000x2_S640000x1x1_S640000x1_n_1_0_0_1_2_11.offCoord (ix2 q (0 : Fin 1)) 0 = q.val
    rw [GatherDims.start_batching _ _ _ _ (List.mem_singleton.mpr rfl),
      GatherDims.offCoord_eq_zero _ _ _ (fun h => ((GatherDims.mem_sKept _ _).mp h).2 (List.mem_singleton.mpr rfl))]
    unfold GatherDims.batchCoord
    rw [dif_pos (show (0 : Fin 2) ∈ gather_S640000x2_S640000x1x1_S640000x1_n_1_0_0_1_2_11.operandBatchingDims from List.mem_singleton.mpr rfl), Nat.zero_add, Nat.add_zero]
    rfl
  | ⟨1, _⟩ =>
    show gather_S640000x2_S640000x1x1_S640000x1_n_1_0_0_1_2_11.start (ix2 q (0 : Fin 1)) w 1 + gather_S640000x2_S640000x1x1_S640000x1_n_1_0_0_1_2_11.batchCoord (ix2 q (0 : Fin 1)) 1 + gather_S640000x2_S640000x1x1_S640000x1_n_1_0_0_1_2_11.offCoord (ix2 q (0 : Fin 1)) 1 = _
    rw [GatherDims.batchCoord_eq_zero _ _ _ (fun h => absurd (List.mem_singleton.mp h) (by decide)),
      GatherDims.offCoord_eq_zero _ _ _ (fun h => ((GatherDims.mem_sKept _ _).mp h).1 (List.mem_singleton.mpr rfl))]
    simp only [Nat.add_zero]
    unfold GatherDims.start
    rw [dif_pos (show (1 : Fin 2) ∈ gather_S640000x2_S640000x1x1_S640000x1_n_1_0_0_1_2_11.startIndexMap from List.mem_singleton.mpr rfl)]
    have hsi : gather_S640000x2_S640000x1x1_S640000x1_n_1_0_0_1_2_11.siIdx (ix2 q (0 : Fin 1)) ⟨List.idxOf (1 : Fin 2) gather_S640000x2_S640000x1x1_S640000x1_n_1_0_0_1_2_11.startIndexMap,
        List.idxOf_lt_length_iff.2 (List.mem_singleton.mpr rfl)⟩ = ix3 q (0 : Fin 1) (0 : Fin 1) := by
      funext b; refine Fin.ext ?_
      match b with
      | ⟨0, _⟩ => rfl
      | ⟨1, _⟩ => rfl
      | ⟨2, _⟩ => rfl
    rw [hsi]
    rfl

/-- The clamped label is the label: 0 reads entry 0, 1 reads entry 1. -/
theorem clamp_label (x : BitVec 32) (h : x = 0#32 ∨ x = 1#32) :
    clampFin x = if x = 0#32 then 0 else 1 := by
  rcases h with h | h <;> subst h <;> rfl

/-! ## The selected entry -/

/-- At pair `p` the selected column holds the entry of `ls` the label names. -/
theorem pick_apply {F : FTy → Type} [FloatOps F] (ls : FVec F S640000x2 .f32) (lab : IVec S640000 32)
    (hlab : ∀ i, lab i = 0#32 ∨ lab i = 1#32) (q : Fin 640000) :
    pickT ls lab (ix2 q (0 : Fin 1)) = ls (ix2 q (if lab (ix1 q) = 0#32 then (0 : Fin 2) else 1)) := by
  unfold pickT pickSelT
  rw [select_apply, labInRange_apply lab hlab, select_one, pickGather_apply, labIdx_apply lab q (hlab _),
    clamp_label _ (hlab _)]

end Cert.RefLoss

end
-- ==== Proof.RefLossLsm.lean ====
/-
  The log-softmax of the logits, read at an entry, on the extended reals. A row has two entries. Its maximum, folded
  from minus infinity and taken against minus infinity once more, is the larger of the two. The shifted row is each
  entry minus that; the log-softmax is each shifted entry minus the logarithm of the zero word plus the two
  exponentials of the shifted entries.
-/
import proofs.«208457_g31284541784245_cont_9to1_2229_14_alg».proof.Proof.RefLossIdx
import Idealize.ShloMosaic.PureOps.Ideal.Laws

noncomputable section

namespace Cert.RefLoss

open Cert.ReferenceIdeal Cert.ReferenceIdeal.RefRun
open Idealize.ShloMosaic Idealize.ShloMosaic.ValueIdx

variable [Facts]
open Facts₀ Facts

/-- The word of minus infinity is the bottom of the extended reals. -/
theorem ofBits_ninf : Ideal.ofBits .f32 0xFF800000#32 = ⊥ := by simp [Ideal.ofBits, Ideal.ieee]

/-! ## The host's elementwise operations and its sum, at an index -/

section HostOps
variable {s t u : Shape} {φ : FTy}
theorem hostLog_apply (x : FVec Ideal s φ) (i : s.Idx) : Host.log x i = Ideal.log (x i) := rfl
theorem hostExp_apply (x : FVec Ideal s φ) (i : s.Idx) : Host.exp x i = Ideal.exp (x i) := rfl
theorem hostNegf_apply (x : FVec Ideal s φ) (i : s.Idx) : Host.negf x i = -(x i) := rfl
theorem hostDivf_apply (x y : FVec Ideal s φ) (i : s.Idx) : Host.divf x y i = Ideal.div (x i) (y i) := rfl
theorem hostReduceAdd_apply {axes : List (Fin s.rank)} (x : FVec Ideal s φ) (init : u.Idx → Ideal φ)
    (h : s.ReducesTo axes t) (hu : 0 < u.numel) (j : t.Idx) :
    Host.reduceAdd x init h hu j = Ideal.hostReduceAdd h x (init (Shape.Idx.first hu)) j := rfl
end HostOps

/-- The fold of the maximum over two entries. -/
theorem fold_max_fin2 (b : EReal) (f : Fin 2 → EReal) :
    (Finset.univ : Finset (Fin 2)).fold max b f = max (f 0) (max (f 1) b) := by
  rw [show (Finset.univ : Finset (Fin 2)) = {0, 1} from by decide, Finset.fold_insert (by decide), Finset.fold_singleton]

/-- A column over the pairs viewed as a two-column array reads its row's entry. -/
theorem bcol2_apply {α : Type} (x : S640000x1.Idx → α) (q : Fin 640000) (l : Fin 2) :
    broadcastInDim S640000x2 ![0, 1] bcast_S640000x1_S640000x2_0_1 x (ix2 q l) = x (ix2 q (0 : Fin 1)) :=
  broadcastInDim_apply _ _ x _ (ix2 q (0 : Fin 1)) fun a => by
    match a with
    | ⟨0, _⟩ => exact (if_neg (by decide : ¬((640000 : ℕ) = 1))).symm
    | ⟨1, _⟩ => exact (if_pos (rfl : (1 : ℕ) = 1)).symm

/-- The label axis as the reduced axis: the index of pair `q` with coordinate `k` inserted is `(q, k)`. -/
theorem reduces21 : S640000x2.Reduces [1] S640000 := by decide
theorem lift21 (q : Fin 640000) (k : Fin 2) : reduces21.lift (ix1 q) k = ix2 q k :=
  funext fun a => Fin.ext (by match a with | ⟨0, _⟩ => rfl | ⟨1, _⟩ => rfl)

/-- A row's maximum, folded from minus infinity, is the larger of its two entries. -/
theorem rowMax_apply (z : FVec Ideal S640000x2 .f32) (q : Fin 640000) :
    Host.reduce FloatOps.maximumf z (constant S_ .f32 0xFF800000#32) reducesTo_S640000x2_S640000_d1 h_S_ (ix1 q)
      = max (z (ix2 q 0)) (z (ix2 q 1)) := by
  rw [Host.reduce_eq_fold_single FloatOps.maximumf z _ _ reduces21 h_S_ (ix1 q)]
  refine (fold_max_fin2 _ _).trans ?_
  simp only [Function.comp, lift21, constant_apply, ofBits_ninf, max_bot_right]

/-- The same of the row maximum as the reference names it. -/
theorem rowMaxT_apply (z : FVec Ideal S640000x2 .f32) (q : Fin 640000) :
    rowMaxT z (ix1 q) = max (z (ix2 q 0)) (z (ix2 q 1)) := by
  unfold rowMaxT
  exact rowMax_apply z q

/-- The shifted logits: each entry minus the larger of its row's two. -/
theorem shift_apply (z : FVec Ideal S640000x2 .f32) (q : Fin 640000) (l : Fin 2) :
    shiftT z (ix2 q l) = z (ix2 q l) - max (z (ix2 q 0)) (z (ix2 q 1)) := by
  unfold shiftT shiftOfMaxT
  rw [subf_apply, bcol2_apply, bcol_apply, maximumf_apply, bscal_apply, constant_apply, rowMaxT_apply, ofBits_ninf, max_bot_left]

/-- From the shifted row: each entry minus the logarithm of the zero word plus the row's two exponentials. -/
theorem lsm_apply (s : FVec Ideal S640000x2 .f32) (q : Fin 640000) (l : Fin 2) :
    lsmOfShiftT s (ix2 q l) = s (ix2 q l) - Ideal.log (0 + ∑ k : Fin 2, Ideal.exp (s (ix2 q k))) := by
  unfold lsmOfShiftT
  rw [subf_apply, bcol2_apply, hostLog_apply, bcol_apply, hostReduceAdd_apply, Ideal.hostReduceAdd_single _ reduces21]
  simp only [hostExp_apply, constant_apply, Ideal.ofBits_zero_f32]
  exact congrArg (fun t => s (ix2 q l) - Ideal.log (0 + t))
    (Finset.sum_congr rfl fun k _ => congrArg (fun i => Ideal.exp (s i)) (lift21 q k))

/-- The log-softmax at an entry, through the larger of the row's two logits. -/
theorem logSoftmax_apply (z : FVec Ideal S640000x2 .f32) (q : Fin 640000) (l : Fin 2) :
    logSoftmaxT z (ix2 q l)
      = (z (ix2 q l) - max (z (ix2 q 0)) (z (ix2 q 1)))
          - Ideal.log (0 + ∑ k : Fin 2, Ideal.exp (z (ix2 q k) - max (z (ix2 q 0)) (z (ix2 q 1)))) := by
  unfold logSoftmaxT
  rw [lsm_apply, shift_apply]
  simp only [shift_apply]

end Cert.RefLoss

end
-- ==== Proof.AlgXent.lean ====
/-
  The reference's arrangement of the cross entropy of two logits. The reference takes the log-softmax of the pair of
  logits (subtract the larger, subtract the logarithm of the sum of the exponentials), reads it at the label and negates;
  the specification writes the same number as  max + log (exp (z0 - max) + exp (z1 - max)) - z_label.  For real logits
  both exponentials are positive reals, so their sum is a positive real and its logarithm a real, and the identity is
  one of real arithmetic. Finiteness of the two logits is needed (with an infinite logit the differences are not
  cancellable).
-/
import Idealize.ShloMosaic.PureOps.Ideal
import proofs.«208457_g31284541784245_cont_9to1_2229_14_alg».proof.Proof.Spec

namespace Cert.Alg

open scoped BigOperators
open Idealize.ShloMosaic

/-- The larger of two reals, taken in the extended reals, is the real maximum. -/
theorem coe_max' (a b : ℝ) : max (a : EReal) (b : EReal) = ((max a b : ℝ) : EReal) :=
  (EReal.coe_strictMono.monotone.map_max (a := a) (b := b)).symm

/-- The exponential of a difference of reals is a positive real. -/
theorem exp_sub_coe (a m : ℝ) : Ideal.exp ((a : EReal) - (m : EReal)) = ((Real.exp (a - m) : ℝ) : EReal) := by
  rw [← EReal.coe_sub, Ideal.exp_coe]

/-- The logarithm of the sum of the two exponentials is a real. -/
theorem log_exp_add_exp (a b m : ℝ) :
    Ideal.log (Ideal.exp ((a : EReal) - (m : EReal)) + Ideal.exp ((b : EReal) - (m : EReal)))
      = ((Real.log (Real.exp (a - m) + Real.exp (b - m)) : ℝ) : EReal) := by
  have hs : 0 < Real.exp (a - m) + Real.exp (b - m) := add_pos (Real.exp_pos _) (Real.exp_pos _)
  rw [exp_sub_coe, exp_sub_coe, ← EReal.coe_add, Ideal.log_coe, if_neg (not_le.mpr hs)]

/-- The identity over real witnesses: `t` is the selected logit, `m` any real (the maximum, in the uses). -/
theorem xent_real (a b m t : ℝ) :
    -(((t : EReal) - (m : EReal)) - Ideal.log (0 + (Ideal.exp ((a : EReal) - (m : EReal)) + Ideal.exp ((b : EReal) - (m : EReal)))))
      = ((m : EReal) + Ideal.log (Ideal.exp ((a : EReal) - (m : EReal)) + Ideal.exp ((b : EReal) - (m : EReal)))) - (t : EReal) := by
  rw [zero_add, log_exp_add_exp]
  exact_mod_cast (by ring : -((t - m) - Real.log (Real.exp (a - m) + Real.exp (b - m)))
    = (m + Real.log (Real.exp (a - m) + Real.exp (b - m))) - t)

/-- The reference's form of the cross entropy equals the specification's, for real logits `z0 z1`, `M` their maximum
    and `zt` either of them. -/
theorem xent_form {z0 z1 M zt : EReal} (h0 : ∃ r : ℝ, z0 = (r : EReal)) (h1 : ∃ r : ℝ, z1 = (r : EReal))
    (hM : M = max z0 z1) (ht : zt = z0 ∨ zt = z1) :
    -((zt - M) - Ideal.log (0 + (Ideal.exp (z0 - M) + Ideal.exp (z1 - M))))
      = (M + Ideal.log (Ideal.exp (z0 - M) + Ideal.exp (z1 - M))) - zt := by
  obtain ⟨a, rfl⟩ := h0
  obtain ⟨b, rfl⟩ := h1
  subst hM
  rw [coe_max' a b]
  rcases ht with rfl | rfl
  · exact xent_real a b (max a b) a
  · exact xent_real a b (max a b) b

/-- A maximum that starts from `⊥`, and is then taken with `⊥` again, is the maximum of the two logits. -/
theorem max_init_bot (z0 z1 : EReal) : max (max ⊥ z0) z1 = max z0 z1 := by
  rw [max_eq_right (bot_le : (⊥ : EReal) ≤ z0)]

theorem max_bot_max_init_bot (z0 z1 : EReal) : max ⊥ (max (max ⊥ z0) z1) = max z0 z1 := by
  rw [max_eq_right (bot_le : (⊥ : EReal) ≤ max (max ⊥ z0) z1), max_init_bot]

/-- `xent_form` with the maximum spelt  max (max ⊥ z0) z1. -/
theorem xent_form_init {z0 z1 zt : EReal} (h0 : ∃ r : ℝ, z0 = (r : EReal)) (h1 : ∃ r : ℝ, z1 = (r : EReal))
    (ht : zt = z0 ∨ zt = z1) :
    -((zt - max (max ⊥ z0) z1)
        - Ideal.log (0 + (Ideal.exp (z0 - max (max ⊥ z0) z1) + Ideal.exp (z1 - max (max ⊥ z0) z1))))
      = (max (max ⊥ z0) z1
          + Ideal.log (Ideal.exp (z0 - max (max ⊥ z0) z1) + Ideal.exp (z1 - max (max ⊥ z0) z1))) - zt :=
  xent_form h0 h1 (max_init_bot z0 z1) ht

/-- `xent_form` with the maximum spelt  max ⊥ (max (max ⊥ z0) z1). -/
theorem xent_form_bot_init {z0 z1 zt : EReal} (h0 : ∃ r : ℝ, z0 = (r : EReal)) (h1 : ∃ r : ℝ, z1 = (r : EReal))
    (ht : zt = z0 ∨ zt = z1) :
    -((zt - max ⊥ (max (max ⊥ z0) z1))
        - Ideal.log (0 + (Ideal.exp (z0 - max ⊥ (max (max ⊥ z0) z1)) + Ideal.exp (z1 - max ⊥ (max (max ⊥ z0) z1)))))
      = (max ⊥ (max (max ⊥ z0) z1)
          + Ideal.log (Ideal.exp (z0 - max ⊥ (max (max ⊥ z0) z1)) + Ideal.exp (z1 - max ⊥ (max (max ⊥ z0) z1)))) - zt :=
  xent_form h0 h1 (max_bot_max_init_bot z0 z1) ht

/-- The same with the inner sum spelt as a sum over the two labels. -/
theorem xent_form_fin2 {z : Fin 2 → EReal} {M zt : EReal} (h : ∀ k, ∃ r : ℝ, z k = (r : EReal))
    (hM : M = max (z 0) (z 1)) (ht : zt = z 0 ∨ zt = z 1) :
    -((zt - M) - Ideal.log (0 + ∑ k : Fin 2, Ideal.exp (z k - M)))
      = (M + Ideal.log (Ideal.exp (z 0 - M) + Ideal.exp (z 1 - M))) - zt := by
  rw [Fin.sum_univ_two]
  exact xent_form (h 0) (h 1) hM ht

/-- With the logit selected by a label word (`0` selects the first, any other word the second), the reference's form
    of the cross entropy is the specification's `nll`. -/
theorem xent_eq_nll {z0 z1 M zt : EReal} {w : BitVec 32} (h0 : ∃ r : ℝ, z0 = (r : EReal))
    (h1 : ∃ r : ℝ, z1 = (r : EReal)) (hM : M = max z0 z1)
    (ht0 : w = 0#32 → zt = z0) (ht1 : w ≠ 0#32 → zt = z1) :
    -((zt - M) - Ideal.log (0 + (Ideal.exp (z0 - M) + Ideal.exp (z1 - M)))) = Spec.nll z0 z1 w := by
  unfold Spec.nll
  subst hM
  by_cases hw : w = 0#32
  · have hz := ht0 hw
    subst hz
    rw [if_pos hw]
    exact xent_form h0 h1 rfl (Or.inl rfl)
  · have hz := ht1 hw
    subst hz
    rw [if_neg hw]
    exact xent_form h0 h1 rfl (Or.inr rfl)

/-- The same for a label word known to be `0` or `1`, the selection given at those two words. -/
theorem xent_eq_nll_01 {z0 z1 M zt : EReal} {w : BitVec 32} (h0 : ∃ r : ℝ, z0 = (r : EReal))
    (h1 : ∃ r : ℝ, z1 = (r : EReal)) (hM : M = max z0 z1) (hw : w = 0#32 ∨ w = 1#32)
    (ht0 : w = 0#32 → zt = z0) (ht1 : w = 1#32 → zt = z1) :
    -((zt - M) - Ideal.log (0 + (Ideal.exp (z0 - M) + Ideal.exp (z1 - M)))) = Spec.nll z0 z1 w :=
  xent_eq_nll h0 h1 hM ht0 fun hne => ht1 (hw.resolve_left hne)

/-- The same with the inner sum spelt as a sum over the two labels. -/
theorem xent_fin2_eq_nll {z : Fin 2 → EReal} {M zt : EReal} {w : BitVec 32} (h : ∀ k, ∃ r : ℝ, z k = (r : EReal))
    (hM : M = max (z 0) (z 1)) (ht0 : w = 0#32 → zt = z 0) (ht1 : w ≠ 0#32 → zt = z 1) :
    -((zt - M) - Ideal.log (0 + ∑ k : Fin 2, Ideal.exp (z k - M))) = Spec.nll (z 0) (z 1) w := by
  rw [Fin.sum_univ_two]
  exact xent_eq_nll (h 0) (h 1) hM ht0 ht1

end Cert.Alg
-- ==== Proof.RefLoss.lean ====
/-
  The reference's loss as one function of the logits and the labels, on the extended reals: minus the selected
  log-probabilities, summed from the zero word over the pairs and divided by the float word of the number of pairs, is
  the mean over the pairs of the cross entropy of the pair's two logits at its label.

  Per pair the selected log-probability is the label's logit minus the larger logit minus the logarithm of the two
  exponentials taken off the larger logit; its negation is the cross entropy as the specification writes it, the two
  logits being real numbers. The zero word the sum starts from adds nothing.
-/
import proofs.«208457_g31284541784245_cont_9to1_2229_14_alg».proof.Proof.RefLossLsm
import proofs.«208457_g31284541784245_cont_9to1_2229_14_alg».proof.Proof.Spec
import proofs.«208457_g31284541784245_cont_9to1_2229_14_alg».proof.Proof.AlgXent
import proofs.«208457_g31284541784245_cont_9to1_2229_14_alg».proof.Proof.AlgSums

noncomputable section

namespace Cert.RefLoss

open Cert.ReferenceIdeal Cert.ReferenceIdeal.RefRun
open Idealize.ShloMosaic Idealize.ShloMosaic.ValueIdx

variable [Facts]
open Facts₀ Facts

/-- The indices of a vector over the pairs are the pairs. -/
def idxEquiv1 : Fin 640000 ≃ S640000.Idx where
  toFun := ix1
  invFun i := i 0
  left_inv _ := rfl
  right_inv i := (eq_ix1 i).symm

theorem sum_idx1 (x : S640000.Idx → EReal) : ∑ i : S640000.Idx, x i = ∑ q : Fin 640000, x (ix1 q) :=
  (Fintype.sum_equiv idxEquiv1 (fun q => x (ix1 q)) x fun _ => rfl).symm

/-- Minus the selected log-probability of pair `q` is the cross entropy of its two logits at its label. -/
theorem negPick_eq (z : FVec Ideal S640000x2 .f32) (lab : IVec S640000 32)
    (hz : ∀ i, ∃ r : ℝ, z i = (r : EReal)) (hlab : ∀ i, lab i = 0#32 ∨ lab i = 1#32) (q : Fin 640000) :
    -(pickT (logSoftmaxT z) lab (ix2 q (0 : Fin 1))) = Cert.Spec.nll (z (ix2 q 0)) (z (ix2 q 1)) (lab (ix1 q)) := by
  rw [pick_apply (logSoftmaxT z) lab hlab q, logSoftmax_apply]
  exact Cert.Alg.xent_fin2_eq_nll (z := fun k => z (ix2 q k)) (fun k => hz _) rfl
    (fun h => by rw [if_pos h]) (fun h => by rw [if_neg h])

theorem lossOf_eq (z : FVec Ideal Cert.ReferenceIdeal.S640000x2 .f32) (lab : IVec Cert.ReferenceIdeal.S640000 32)
    (hz : ∀ i, ∃ r : ℝ, z i = (r : EReal)) (hlab : ∀ i, lab i = 0#32 ∨ lab i = 1#32) :
    Cert.ReferenceIdeal.RefRun.lossOf z lab
      = fun _ => Ideal.div (∑ p : Fin 640000, Cert.Spec.nll (z (ValueIdx.ix2 p 0)) (z (ValueIdx.ix2 p 1)) (lab (ValueIdx.ix1 p)))
          (Ideal.ofBits .f32 0x491C4000#32) := by
  funext i
  unfold lossOf meanNegT
  rw [hostDivf_apply, hostReduceAdd_apply, Ideal.hostReduceAdd_total _ (fun b => b.elim0), constant_apply, constant_apply,
    Ideal.ofBits_zero_f32, sum_idx1]
  refine congrArg (fun t => Ideal.div t (Ideal.ofBits .f32 0x491C4000#32)) ?_
  refine (Cert.Alg.zero_add_sum _).trans (Finset.sum_congr rfl fun q _ => ?_)
  rw [hostNegf_apply, shapeCast_apply _ _ _ (ix2 q (0 : Fin 1)) (by
    rw [Shape.rowMajor_val_two, Shape.rowMajor_val_one]; show q.val * 1 + 0 = q.val; omega)]
  exact negPick_eq z lab hz hlab q

end Cert.RefLoss

end
-- ==== Proof.lean ====
/-
  The certificate's five claims. Both kernel programs run by the launch theorem for SparseCore programs at the named
  boundary contents (one proof text read at the two instances), the arguments read back unchanged through every stretch
  of host operations and every call; the reference runs as its operations' composed term; and at the ideal instance the
  kernel's two result buffers and the reference's two results are the same functions of the arguments: a pair's logit
  is its left node's contribution through the upper half of the classifier plus its right node's through the lower half
  plus the bias, and the loss is the mean over the pairs of the cross entropy of the two logits at the pair's label,
  written through the larger logit. The kernel adds the bias to the left contribution and a zero to the right one and
  sums block by block; the reference contracts the concatenated features, subtracts the row maximum inside the
  logarithm of the sum of exponentials and negates: on finite logits the two are one real number.
-/
import proofs.«208457_g31284541784245_cont_9to1_2229_14_alg».proof.Defs
import proofs.«208457_g31284541784245_cont_9to1_2229_14_alg».proof.Proof.Gen.Kernel
import proofs.«208457_g31284541784245_cont_9to1_2229_14_alg».proof.Proof.Gen.KernelIdeal
import proofs.«208457_g31284541784245_cont_9to1_2229_14_alg».proof.Proof.Gen.ReferenceIdeal
import proofs.«208457_g31284541784245_cont_9to1_2229_14_alg».proof.Proof.Gen.Pre_input_domain
import proofs.«208457_g31284541784245_cont_9to1_2229_14_alg».proof.Proof.ScRun
import proofs.«208457_g31284541784245_cont_9to1_2229_14_alg».proof.Proof.ScReads
import proofs.«208457_g31284541784245_cont_9to1_2229_14_alg».proof.Proof.TileBody
import proofs.«208457_g31284541784245_cont_9to1_2229_14_alg».proof.Proof.ScRunB
import proofs.«208457_g31284541784245_cont_9to1_2229_14_alg».proof.Proof.ScReadsB
import proofs.«208457_g31284541784245_cont_9to1_2229_14_alg».proof.Proof.TileBodyB
import proofs.«208457_g31284541784245_cont_9to1_2229_14_alg».proof.Proof.KernelValue
import proofs.«208457_g31284541784245_cont_9to1_2229_14_alg».proof.Proof.PreFactsInt
import proofs.«208457_g31284541784245_cont_9to1_2229_14_alg».proof.Proof.RefRun
import proofs.«208457_g31284541784245_cont_9to1_2229_14_alg».proof.Proof.RefValue
import proofs.«208457_g31284541784245_cont_9to1_2229_14_alg».proof.Proof.RefLoss

noncomputable section

namespace Cert.Proof

open Idealize.ShloMosaic Idealize.ShloMosaic.TcCoe Idealize.SL.Sem

/-! ## The buffers the runs account for -/

/-- An unscoped TensorCore reference is among the buffers the idealized kernel's run accounts for; -/
theorem mem_ucI (b : Ref Cert.KernelIdeal.sig .tc) (h : ¬ (Proc.devRef .tc b : DevRef Cert.KernelIdeal.τ Cert.KernelIdeal.sig).isScoped) :
    (Proc.devRef .tc b : DevRef Cert.KernelIdeal.τ Cert.KernelIdeal.sig) ∈ Cert.KernelIdeal.Sc.Launch.UC :=
  Finset.mem_filter.mpr ⟨StableHlo.devRef_mem_tcRefs b, h⟩
/-- and the kernel's. -/
theorem mem_ucK (b : Ref Cert.Kernel.sig .tc) (h : ¬ (Proc.devRef .tc b : DevRef Cert.Kernel.τ Cert.Kernel.sig).isScoped) :
    (Proc.devRef .tc b : DevRef Cert.Kernel.τ Cert.Kernel.sig) ∈ Cert.Kernel.Sc.Launch.UC :=
  Finset.mem_filter.mpr ⟨StableHlo.devRef_mem_tcRefs b, h⟩

/-! ## The frames -/

set_option backward.isDefEq.respectTransparency.types false in
/-- The kernel as printed: under the precondition every index word names a node, so every vector subcore's checks
    pass and the launch theorem's run applies; each argument is read back through the boundaries. -/
theorem frame_k : Cert.frame_Kernel := fun m g hpre =>
  (θ_run (Cert.Kernel.defs (F := Bits)) _ _).mono
    (fun r h c => ⟨(h c _ (mem_ucK Cert.Kernel.main_arg0 (by decide))).trans (Cert.Kernel.Sc.Chain.W7_arg0 m c),
      (h c _ (mem_ucK Cert.Kernel.main_arg1 (by decide))).trans (Cert.Kernel.Sc.Chain.W7_arg1 m c),
      (h c _ (mem_ucK Cert.Kernel.main_arg2 (by decide))).trans (Cert.Kernel.Sc.Chain.W7_arg2 m c),
      (h c _ (mem_ucK Cert.Kernel.main_arg3 (by decide))).trans (Cert.Kernel.Sc.Chain.W7_arg3 m c),
      (h c _ (mem_ucK Cert.Kernel.main_arg4 (by decide))).trans (Cert.Kernel.Sc.Chain.W7_arg4 m c),
      (h c _ (mem_ucK Cert.Kernel.main_arg5 (by decide))).trans (Cert.Kernel.Sc.Chain.W7_arg5 m c),
      (h c _ (mem_ucK Cert.Kernel.main_arg6 (by decide))).trans (Cert.Kernel.Sc.Chain.W7_arg6 m c),
      (h c _ (mem_ucK Cert.Kernel.main_arg7 (by decide))).trans (Cert.Kernel.Sc.Chain.W7_arg7 m c),
      (h c _ (mem_ucK Cert.Kernel.main_arg8 (by decide))).trans (Cert.Kernel.Sc.Chain.W7_arg8 m c),
      (h c _ (mem_ucK Cert.Kernel.main_arg9 (by decide))).trans (Cert.Kernel.Sc.Chain.W7_arg9 m c)⟩)
    (Cert.Kernel.Sc.Chain.run_main (F := Bits) m g
      (Cert.Kernel.Sc.Tile.tileObl (Cert.Kernel.Sc.Chain.TAB m) (Cert.Kernel.Sc.Chain.IA m) (Cert.Kernel.Sc.Chain.IB m)
        (Cert.Kernel.Sc.Chain.idxOK m fun d i => Cert.PreFacts.idx_lt (hpre d) i)))

set_option backward.isDefEq.respectTransparency.types false in
/-- The idealized kernel: the same. -/
theorem frame_ki : Cert.frame_KernelIdeal := fun m g hpre =>
  (θ_run (Cert.KernelIdeal.defs (F := Ideal)) _ _).mono
    (fun r h c => ⟨(h c _ (mem_ucI Cert.KernelIdeal.main_arg0 (by decide))).trans (Cert.KernelIdeal.Sc.Chain.W7_arg0 m c),
      (h c _ (mem_ucI Cert.KernelIdeal.main_arg1 (by decide))).trans (Cert.KernelIdeal.Sc.Chain.W7_arg1 m c),
      (h c _ (mem_ucI Cert.KernelIdeal.main_arg2 (by decide))).trans (Cert.KernelIdeal.Sc.Chain.W7_arg2 m c),
      (h c _ (mem_ucI Cert.KernelIdeal.main_arg3 (by decide))).trans (Cert.KernelIdeal.Sc.Chain.W7_arg3 m c),
      (h c _ (mem_ucI Cert.KernelIdeal.main_arg4 (by decide))).trans (Cert.KernelIdeal.Sc.Chain.W7_arg4 m c),
      (h c _ (mem_ucI Cert.KernelIdeal.main_arg5 (by decide))).trans (Cert.KernelIdeal.Sc.Chain.W7_arg5 m c),
      (h c _ (mem_ucI Cert.KernelIdeal.main_arg6 (by decide))).trans (Cert.KernelIdeal.Sc.Chain.W7_arg6 m c),
      (h c _ (mem_ucI Cert.KernelIdeal.main_arg7 (by decide))).trans (Cert.KernelIdeal.Sc.Chain.W7_arg7 m c),
      (h c _ (mem_ucI Cert.KernelIdeal.main_arg8 (by decide))).trans (Cert.KernelIdeal.Sc.Chain.W7_arg8 m c),
      (h c _ (mem_ucI Cert.KernelIdeal.main_arg9 (by decide))).trans (Cert.KernelIdeal.Sc.Chain.W7_arg9 m c)⟩)
    (Cert.KernelIdeal.Sc.Chain.run_main (F := Ideal) m g
      (Cert.KernelIdeal.Sc.Tile.tileObl (Cert.KernelIdeal.Sc.Chain.TAB m) (Cert.KernelIdeal.Sc.Chain.IA m) (Cert.KernelIdeal.Sc.Chain.IB m)
        (Cert.KernelIdeal.Sc.Chain.idxOK m fun d i => Cert.PreFacts.idx_lt (hpre d) i)))

/-- The reference: its run with the two results dropped. -/
theorem frame_ri : Cert.frame_ReferenceIdeal := fun m g _ =>
  (θ_run (Cert.ReferenceIdeal.defs (F := Ideal)) _ _).mono (fun _ h c => (h c).2.2) (Cert.ReferenceIdeal.RefRun.run (F := Ideal) m g)

/-- The idealization rewrote no operation. -/
theorem preserves : Cert.preserves_Kernel_KernelIdeal := trivial

/-! ## The two programs compute one function -/

/-- The loss and the logits as the specification's functions of core c's arguments. -/
abbrev specLoss (m : (ℓ : Loc Cert.KernelIdeal.nD Cert.KernelIdeal.τ Cert.KernelIdeal.sig) → Buf (Elt Ideal) ℓ) (c : Dev Cert.KernelIdeal.nD) :
    Buf (Elt Ideal) ((c.tc : Thread Cert.KernelIdeal.nD Cert.KernelIdeal.τ).loc Cert.KernelIdeal.main_v22) :=
  Cert.Spec.lossArr (Cert.KernelIdeal.Sc.Chain.aX m c) (Cert.KernelIdeal.Sc.Chain.aW1 m c) (Cert.KernelIdeal.Sc.Chain.aB1 m c) (Cert.KernelIdeal.Sc.Chain.aW2 m c)
    (Cert.KernelIdeal.Sc.Chain.aB2 m c) (Cert.KernelIdeal.Sc.Chain.aWc m c) (Cert.KernelIdeal.Sc.Chain.aBc m c) (Cert.KernelIdeal.Sc.Chain.aIdx m c) (Cert.KernelIdeal.Sc.Chain.aLab m c)
abbrev specLogits (m : (ℓ : Loc Cert.KernelIdeal.nD Cert.KernelIdeal.τ Cert.KernelIdeal.sig) → Buf (Elt Ideal) ℓ) (c : Dev Cert.KernelIdeal.nD) :
    Buf (Elt Ideal) ((c.tc : Thread Cert.KernelIdeal.nD Cert.KernelIdeal.τ).loc Cert.KernelIdeal.main_v21) :=
  Cert.Spec.logitsArr (Cert.KernelIdeal.Sc.Chain.aX m c) (Cert.KernelIdeal.Sc.Chain.aW1 m c) (Cert.KernelIdeal.Sc.Chain.aB1 m c) (Cert.KernelIdeal.Sc.Chain.aW2 m c)
    (Cert.KernelIdeal.Sc.Chain.aB2 m c) (Cert.KernelIdeal.Sc.Chain.aWc m c) (Cert.KernelIdeal.Sc.Chain.aBc m c) (Cert.KernelIdeal.Sc.Chain.aIdx m c)

set_option backward.isDefEq.respectTransparency.types false in
/-- At the ideal instance both programs end with the specification's loss and logits of the (agreeing) arguments: the
    kernel's by its run read through the boundaries, the reference's by its run's composed term read index by index. -/
theorem algebraic : Cert.algebraic_KernelIdeal_ReferenceIdeal := by
  intro m g m' g' hpre hagree
  have hpre' : Cert.Pre_ReferenceIdeal m' := fun c => by
    obtain ⟨h0, h1, h2, h3, h4, h5, h6, h7, h8, h9⟩ := hagree c
    show Cert.Pre_input_domain.fn (F := Ideal) _ _ _ _ _ _ _ _ _ _ = _
    rw [h0, h1, h2, h3, h4, h5, h6, h7, h8, h9]
    exact hpre c
  refine ⟨specLoss m, specLogits m, ?_, ?_⟩
  · exact (θ_run (Cert.KernelIdeal.defs (F := Ideal)) _ _).mono
      (fun r h c => ⟨(h c _ (mem_ucI Cert.KernelIdeal.main_v22 (by decide))).trans (Cert.KernelIdeal.Sc.Chain.loss_eq m c (hpre c)),
        (h c _ (mem_ucI Cert.KernelIdeal.main_v21 (by decide))).trans (Cert.KernelIdeal.Sc.Chain.logits_eq m c (hpre c)),
        (h c _ (mem_ucI Cert.KernelIdeal.main_arg0 (by decide))).trans (Cert.KernelIdeal.Sc.Chain.W7_arg0 m c),
      (h c _ (mem_ucI Cert.KernelIdeal.main_arg1 (by decide))).trans (Cert.KernelIdeal.Sc.Chain.W7_arg1 m c),
      (h c _ (mem_ucI Cert.KernelIdeal.main_arg2 (by decide))).trans (Cert.KernelIdeal.Sc.Chain.W7_arg2 m c),
      (h c _ (mem_ucI Cert.KernelIdeal.main_arg3 (by decide))).trans (Cert.KernelIdeal.Sc.Chain.W7_arg3 m c),
      (h c _ (mem_ucI Cert.KernelIdeal.main_arg4 (by decide))).trans (Cert.KernelIdeal.Sc.Chain.W7_arg4 m c),
      (h c _ (mem_ucI Cert.KernelIdeal.main_arg5 (by decide))).trans (Cert.KernelIdeal.Sc.Chain.W7_arg5 m c),
      (h c _ (mem_ucI Cert.KernelIdeal.main_arg6 (by decide))).trans (Cert.KernelIdeal.Sc.Chain.W7_arg6 m c),
      (h c _ (mem_ucI Cert.KernelIdeal.main_arg7 (by decide))).trans (Cert.KernelIdeal.Sc.Chain.W7_arg7 m c),
      (h c _ (mem_ucI Cert.KernelIdeal.main_arg8 (by decide))).trans (Cert.KernelIdeal.Sc.Chain.W7_arg8 m c),
      (h c _ (mem_ucI Cert.KernelIdeal.main_arg9 (by decide))).trans (Cert.KernelIdeal.Sc.Chain.W7_arg9 m c)⟩)
      (Cert.KernelIdeal.Sc.Chain.run_main (F := Ideal) m g
        (Cert.KernelIdeal.Sc.Tile.tileObl (Cert.KernelIdeal.Sc.Chain.TAB m) (Cert.KernelIdeal.Sc.Chain.IA m) (Cert.KernelIdeal.Sc.Chain.IB m)
          (Cert.KernelIdeal.Sc.Chain.idxOK m fun d i => Cert.PreFacts.idx_lt (hpre d) i)))
  · refine (θ_run (Cert.ReferenceIdeal.defs (F := Ideal)) _ _).mono (fun r h c => ?_) (Cert.ReferenceIdeal.RefRun.run (F := Ideal) m' g')
    obtain ⟨h0, h1, h2, h3, h4, h5, h6, h7, h8, h9⟩ := hagree c
    refine ⟨(h c).1.trans ((Cert.ReferenceIdeal.RefValue.lossTerm_eq m' c (fun z lab => Cert.RefLoss.lossOf_eq z lab) (hpre' c)).trans ?_),
      (h c).2.1.trans ((Cert.ReferenceIdeal.RefValue.logitsTerm_eq m' c (hpre' c)).trans ?_), (h c).2.2⟩
    · rw [h0, h2, h3, h4, h5, h6, h7, h8, h9]
    · rw [h0, h2, h4, h5, h6, h7, h8, h9]

/-! ## The claim -/

theorem claim : Cert.Claim :=
  ⟨Cert.Kernel.Gen.facts, Cert.KernelIdeal.Gen.facts, Cert.ReferenceIdeal.Gen.facts, Cert.Pre_input_domain.Gen.facts,
    frame_k, frame_ki, frame_ri, preserves, algebraic⟩

end Cert.Proof

end
